-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v363)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v363) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v460) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S147456x16 : Shape := ⟨2, ![147456, 16]⟩
abbrev S884736x8 : Shape := ⟨2, ![884736, 8]⟩
abbrev S18432x8 : Shape := ⟨2, ![18432, 8]⟩
abbrev S16x64 : Shape := ⟨2, ![16, 64]⟩
abbrev S64 : Shape := ⟨1, ![64]⟩
abbrev S8x64 : Shape := ⟨2, ![8, 64]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S2x884736 : Shape := ⟨2, ![2, 884736]⟩
abbrev S2x18432 : Shape := ⟨2, ![2, 18432]⟩
abbrev S147456 : Shape := ⟨1, ![147456]⟩
abbrev S3072 : Shape := ⟨1, ![3072]⟩
abbrev S_ : Shape := ⟨0, ![]⟩

class Facts : Prop where
  bcast_S_S147456x16 : S_.BroadcastsInDim S147456x16 (![] : Fin 0 → Fin S147456x16.rank)
  reducesTo_S147456x16_S_d0_1 : S147456x16.ReducesTo [0, 1] S_
  h_S_ : 0 < S_.numel
  bcast_S_S884736x8 : S_.BroadcastsInDim S884736x8 (![] : Fin 0 → Fin S884736x8.rank)
  reducesTo_S884736x8_S_d0_1 : S884736x8.ReducesTo [0, 1] S_
  bcast_S_S18432x8 : S_.BroadcastsInDim S18432x8 (![] : Fin 0 → Fin S18432x8.rank)
  reducesTo_S18432x8_S_d0_1 : S18432x8.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S3x64x128 : S_.BroadcastsInDim S3x64x128 (![] : Fin 0 → Fin S3x64x128.rank)
  reducesTo_S3x64x128_S_d0_1_2 : S3x64x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg21 : FVec F S128x10 .f32) (main_arg22 : FVec F S10 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x10 .f32 := Host.absf main_arg21
  let main_cst_40 : FVec F S_ .f32 := constant S_ .f32 0x7F800000#32
  let main_v105 : FVec F S128x10 .f32 := broadcastInDim S128x10 ![] bcast_S_S128x10 main_cst_40
  let main_v106 : IVec S128x10 1 := cmpf .olt main_v104 main_v105
  let main_c_41 : IVec S_ 1 := constantI S_ 1 1#1
  let main_v107 : IVec S_ 1 := (fun x v => Host.reduce IntOp.andi x v reducesTo_S128x10_S_d0_1 h_S_) main_v106 main_c_41
  let main_v108 : IVec S_ 1 := andi main_v103 main_v107
  let main_v109 : FVec F S10 .f32 := Host.absf main_arg22
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  main_v113

def fn_part5 {F : FTy → Type} [FloatOps F] (main_arg18 : FVec F S3x64 .f32) (main_arg19 : FVec F S64x128 .f32) (main_arg20 : FVec F S128 .f32) (main_arg21 : FVec F S128x10 .f32) (main_arg22 : FVec F S10 .f32) (main_v83 : IVec S_ 1) (main_v84 : FVec F S3x64 .f32) (main_cst_32 : FVec F S_ .f32) : IVec S_ 1 :=
  let main_v85 : FVec F S3x64 .f32 := broadcastInDim S3x64 ![] bcast_S_S3x64 main_cst_32
  let main_v86 : IVec S3x64 1 := cmpf .olt main_v84 main_v85
  let main_c_33 : IVec S_ 1 := constantI S_ 1 1#1
  let main_v87 : IVec S_ 1 := (fun x v => Host.reduce IntOp.andi x v reducesTo_S3x64_S_d0_1 h_S_) main_v86 main_c_33
  let main_v88 : IVec S_ 1 := andi main_v83 main_v87
  let main_v89 : FVec F S3x64 .f32 := Host.absf main_arg18
  let main_cst_34 : FVec F S_ .f32 := constant S_ .f32 0x7F800000#32
  let main_v90 : FVec F S3x64 .f32 := broadcastInDim S3x64 ![] bcast_S_S3x64 main_cst_34
  let main_v91 : IVec S3x64 1 := cmpf .olt main_v89 main_v90
  let main_c_35 : IVec S_ 1 := constantI S_ 1 1#1
  let main_v92 : IVec S_ 1 := (fun x v => Host.reduce IntOp.andi x v reducesTo_S3x64_S_d0_1 h_S_) main_v91 main_c_35
  let main_v93 : IVec S_ 1 := andi main_v88 main_v92
  let main_v94 : FVec F S64x128 .f32 := Host.absf main_arg19
  let main_cst_36 : FVec F S_ .f32 := constant S_ .f32 0x7F800000#32
  let main_v95 : FVec F S64x128 .f32 := broadcastInDim S64x128 ![] bcast_S_S64x128 main_cst_36
  let main_v96 : IVec S64x128 1 := cmpf .olt main_v94 main_v95
  let main_c_37 : IVec S_ 1 := constantI S_ 1 1#1
  let main_v97 : IVec S_ 1 := (fun x v => Host.reduce IntOp.andi x v reducesTo_S64x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S3x128 .f32) (main_arg15 : FVec F S3x128x64 .f32) (main_arg16 : FVec F S3x64 .f32) (main_arg17 : FVec F S3x64 .f32) (main_arg18 : FVec F S3x64 .f32) (main_arg19 : FVec F S64x128 .f32) (main_arg20 : FVec F S128 .f32) (main_arg21 : FVec F S128x10 .f32) (main_arg22 : FVec F S10 .f32) (main_v63 : IVec S_ 1) (main_v67 : IVec S_ 1) : IVec S_ 1 :=
  let main_v68 : IVec S_ 1 := andi main_v63 main_v67
  let main_v69 : FVec F S3x128 .f32 := Host.absf main_arg14
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128x64 .f32 := Host.absf main_arg15
  let main_cst_28 : FVec F S_ .f32 := constant S_ .f32 0x7F800000#32
  let main_v75 : FVec F S3x128x64 .f32 := broadcastInDim S3x128x64 ![] bcast_S_S3x128x64 main_cst_28
  let main_v76 : IVec S3x128x64 1 := cmpf .olt main_v74 main_v75
  let main_c_29 : IVec S_ 1 := constantI S_ 1 1#1
  let main_v77 : IVec S_ 1 := (fun x v => Host.reduce IntOp.andi x v reducesTo_S3x128x64_S_d0_1_2 h_S_) main_v76 main_c_29
  let main_v78 : IVec S_ 1 := andi main_v73 main_v77
  let main_v79 : FVec F S3x64 .f32 := Host.absf main_arg16
  let main_cst_30 : FVec F S_ .f32 := constant S_ .f32 0x7F800000#32
  let main_v80 : FVec F S3x64 .f32 := broadcastInDim S3x64 ![] bcast_S_S3x64 main_cst_30
  let main_v81 : IVec S3x64 1 := cmpf .olt main_v79 main_v80
  let main_c_31 : IVec S_ 1 := constantI S_ 1 1#1
  let main_v82 : IVec S_ 1 := (fun x v => Host.reduce IntOp.andi x v reducesTo_S3x64_S_d0_1 h_S_) main_v81 main_c_31
  let main_v83 : IVec S_ 1 := andi main_v78 main_v82
  let main_v84 : FVec F S3x64 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S3x64 .f32) (main_arg12 : FVec F S3x64 .f32) (main_arg13 : FVec F S3x64x128 .f32) (main_arg14 : FVec F S3x128 .f32) (main_arg15 : FVec F S3x128x64 .f32) (main_arg16 : FVec F S3x64 .f32) (main_arg17 : FVec F S3x64 .f32) (main_arg18 : FVec F S3x64 .f32) (main_arg19 : FVec F S64x128 .f32) (main_arg20 : FVec F S128 .f32) (main_arg21 : FVec F S128x10 .f32) (main_arg22 : FVec F S10 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg11
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg12
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S3x64x128 .f32 := Host.absf main_arg13
  let main_cst_24 : FVec F S_ .f32 := constant S_ .f32 0x7F800000#32
  let main_v65 : FVec F S3x64x128 .f32 := broadcastInDim S3x64x128 ![] bcast_S_S3x64x128 main_cst_24
  let main_v66 : IVec S3x64x128 1 := cmpf .olt main_v64 main_v65
  let main_c_25 : IVec S_ 1 := constantI S_ 1 1#1
  let main_v67 : IVec S_ 1 := (fun x v => Host.reduce IntOp.andi x v reducesTo_S3x64x128_S_d0_1_2 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S3x64x128 .f32) (main_arg8 : FVec F S3x128 .f32) (main_arg9 : FVec F S3x128x64 .f32) (main_arg10 : FVec F S3x64 .f32) (main_arg11 : FVec F S3x64 .f32) (main_arg12 : FVec F S3x64 .f32) (main_arg13 : FVec F S3x64x128 .f32) (main_arg14 : FVec F S3x128 .f32) (main_arg15 : FVec F S3x128x64 .f32) (main_arg16 : FVec F S3x64 .f32) (main_arg17 : FVec F S3x64 .f32) (main_arg18 : FVec F S3x64 .f32) (main_arg19 : FVec F S64x128 .f32) (main_arg20 : FVec F S128 .f32) (main_arg21 : FVec F S128x10 .f32) (main_arg22 : FVec F S10 .f32) (main_v33 : IVec S_ 1) : IVec S_ 1 :=
  let main_v34 : FVec F S3x64x128 .f32 := Host.absf main_arg7
  let main_cst_12 : FVec F S_ .f32 := constant S_ .f32 0x7F800000#32
  let main_v35 : FVec F S3x64x128 .f32 := broadcastInDim S3x64x128 ![] bcast_S_S3x64x128 main_cst_12
  let main_v36 : IVec S3x64x128 1 := cmpf .olt main_v34 main_v35
  let main_c_13 : IVec S_ 1 := constantI S_ 1 1#1
  let main_v37 : IVec S_ 1 := (fun x v => Host.reduce IntOp.andi x v reducesTo_S3x64x128_S_d0_1_2 h_S_) main_v36 main_c_13
  let main_v38 : IVec S_ 1 := andi main_v33 main_v37
  let main_v39 : FVec F S3x128 .f32 := Host.absf main_arg8
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128x64 .f32 := Host.absf main_arg9
  let main_cst_16 : FVec F S_ .f32 := constant S_ .f32 0x7F800000#32
  let main_v45 : FVec F S3x128x64 .f32 := broadcastInDim S3x128x64 ![] bcast_S_S3x128x64 main_cst_16
  let main_v46 : IVec S3x128x64 1 := cmpf .olt main_v44 main_v45
  let main_c_17 : IVec S_ 1 := constantI S_ 1 1#1
  let main_v47 : IVec S_ 1 := (fun x v => Host.reduce IntOp.andi x v reducesTo_S3x128x64_S_d0_1_2 h_S_) main_v46 main_c_17
  let main_v48 : IVec S_ 1 := andi main_v43 main_v47
  let main_v49 : FVec F S3x64 .f32 := Host.absf main_arg10
  let main_cst_18 : FVec F S_ .f32 := constant S_ .f32 0x7F800000#32
  let main_v50 : FVec F S3x64 .f32 := broadcastInDim S3x64 ![] bcast_S_S3x64 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S64 .f32) (main_arg5 : FVec F S8x64 .f32) (main_arg6 : FVec F S64 .f32) (main_arg7 : FVec F S3x64x128 .f32) (main_arg8 : FVec F S3x128 .f32) (main_arg9 : FVec F S3x128x64 .f32) (main_arg10 : FVec F S3x64 .f32) (main_arg11 : FVec F S3x64 .f32) (main_arg12 : FVec F S3x64 .f32) (main_arg13 : FVec F S3x64x128 .f32) (main_arg14 : FVec F S3x128 .f32) (main_arg15 : FVec F S3x128x64 .f32) (main_arg16 : FVec F S3x64 .f32) (main_arg17 : FVec F S3x64 .f32) (main_arg18 : FVec F S3x64 .f32) (main_arg19 : FVec F S64x128 .f32) (main_arg20 : FVec F S128 .f32) (main_arg21 : FVec F S128x10 .f32) (main_arg22 : FVec F S10 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S8x64 .f32 := Host.absf main_arg5
  let main_cst_8 : FVec F S_ .f32 := constant S_ .f32 0x7F800000#32
  let main_v25 : FVec F S8x64 .f32 := broadcastInDim S8x64 ![] bcast_S_S8x64 main_cst_8
  let main_v26 : IVec S8x64 1 := cmpf .olt main_v24 main_v25
  let main_c_9 : IVec S_ 1 := constantI S_ 1 1#1
  let main_v27 : IVec S_ 1 := (fun x v => Host.reduce IntOp.andi x v reducesTo_S8x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S147456x16 .f32) (main_arg1 : FVec F S884736x8 .f32) (main_arg2 : FVec F S18432x8 .f32) (main_arg3 : FVec F S16x64 .f32) (main_arg4 : FVec F S64 .f32) (main_arg5 : FVec F S8x64 .f32) (main_arg6 : FVec F S64 .f32) (main_arg7 : FVec F S3x64x128 .f32) (main_arg8 : FVec F S3x128 .f32) (main_arg9 : FVec F S3x128x64 .f32) (main_arg10 : FVec F S3x64 .f32) (main_arg11 : FVec F S3x64 .f32) (main_arg12 : FVec F S3x64 .f32) (main_arg13 : FVec F S3x64x128 .f32) (main_arg14 : FVec F S3x128 .f32) (main_arg15 : FVec F S3x128x64 .f32) (main_arg16 : FVec F S3x64 .f32) (main_arg17 : FVec F S3x64 .f32) (main_arg18 : FVec F S3x64 .f32) (main_arg19 : FVec F S64x128 .f32) (main_arg20 : FVec F S128 .f32) (main_arg21 : FVec F S128x10 .f32) (main_arg22 : FVec F S10 .f32) (main_arg23 : IVec S2x884736 32) (main_arg24 : IVec S2x18432 32) (main_arg25 : IVec S147456 32) (main_arg26 : IVec S147456 32) (main_arg27 : IVec S64 32) (main_arg28 : IVec S147456 32) (main_arg29 : IVec S3072 32) : IVec S_ 1 :=
  let main_v0 : FVec F S147456x16 .f32 := Host.absf main_arg0
  let main_cst : FVec F S_ .f32 := constant S_ .f32 0x7F800000#32
  let main_v1 : FVec F S147456x16 .f32 := broadcastInDim S147456x16 ![] bcast_S_S147456x16 main_cst
  let main_v2 : IVec S147456x16 1 := cmpf .olt main_v0 main_v1
  let main_c : IVec S_ 1 := constantI S_ 1 1#1
  let main_v3 : IVec S_ 1 := (fun x v => Host.reduce IntOp.andi x v reducesTo_S147456x16_S_d0_1 h_S_) main_v2 main_c
  let main_v4 : FVec F S884736x8 .f32 := Host.absf main_arg1
  let main_cst_0 : FVec F S_ .f32 := constant S_ .f32 0x7F800000#32
  let main_v5 : FVec F S884736x8 .f32 := broadcastInDim S884736x8 ![] bcast_S_S884736x8 main_cst_0
  let main_v6 : IVec S884736x8 1 := cmpf .olt main_v4 main_v5
  let main_c_1 : IVec S_ 1 := constantI S_ 1 1#1
  let main_v7 : IVec S_ 1 := (fun x v => Host.reduce IntOp.andi x v reducesTo_S884736x8_S_d0_1 h_S_) main_v6 main_c_1
  let main_v8 : IVec S_ 1 := andi main_v3 main_v7
  let main_v9 : FVec F S18432x8 .f32 := Host.absf main_arg2
  let main_cst_2 : FVec F S_ .f32 := constant S_ .f32 0x7F800000#32
  let main_v10 : FVec F S18432x8 .f32 := broadcastInDim S18432x8 ![] bcast_S_S18432x8 main_cst_2
  let main_v11 : IVec S18432x8 1 := cmpf .olt main_v9 main_v10
  let main_c_3 : IVec S_ 1 := constantI S_ 1 1#1
  let main_v12 : IVec S_ 1 := (fun x v => Host.reduce IntOp.andi x v reducesTo_S18432x8_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S147456x16 : Shape := ⟨2, ![147456, 16]⟩
abbrev S884736x8 : Shape := ⟨2, ![884736, 8]⟩
abbrev S18432x8 : Shape := ⟨2, ![18432, 8]⟩
abbrev S16x64 : Shape := ⟨2, ![16, 64]⟩
abbrev S64 : Shape := ⟨1, ![64]⟩
abbrev S8x64 : Shape := ⟨2, ![8, 64]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S2x884736 : Shape := ⟨2, ![2, 884736]⟩
abbrev S2x18432 : Shape := ⟨2, ![2, 18432]⟩
abbrev S147456 : Shape := ⟨1, ![147456]⟩
abbrev S3072 : Shape := ⟨1, ![3072]⟩
abbrev S1x64 : Shape := ⟨2, ![1, 64]⟩
abbrev S147456x64 : Shape := ⟨2, ![147456, 64]⟩
abbrev S4096x16 : Shape := ⟨2, ![4096, 16]⟩
abbrev S4096x64 : Shape := ⟨2, ![4096, 64]⟩
abbrev S884736x64 : Shape := ⟨2, ![884736, 64]⟩
abbrev S8192x8 : Shape := ⟨2, ![8192, 8]⟩
abbrev S8192x64 : Shape := ⟨2, ![8192, 64]⟩
abbrev S18432x64 : Shape := ⟨2, ![18432, 64]⟩
abbrev S2048x8 : Shape := ⟨2, ![2048, 8]⟩
abbrev S2048x64 : Shape := ⟨2, ![2048, 64]⟩
abbrev S_ : Shape := ⟨0, ![]⟩
abbrev S1 : Shape := ⟨1, ![1]⟩
abbrev S65 : Shape := ⟨1, ![65]⟩
abbrev S147456x1 : Shape := ⟨2, ![147456, 1]⟩
abbrev S1x884736 : Shape := ⟨2, ![1, 884736]⟩
abbrev S884736 : Shape := ⟨1, ![884736]⟩
abbrev S1x18432 : Shape := ⟨2, ![1, 18432]⟩
abbrev S18432 : Shape := ⟨1, ![18432]⟩
abbrev S884736x1 : Shape := ⟨2, ![884736, 1]⟩
abbrev S1x64x128 : Shape := ⟨3, ![1, 64, 128]⟩
abbrev S1x128 : Shape := ⟨2, ![1, 128]⟩
abbrev S1x128x64 : Shape := ⟨3, ![1, 128, 64]⟩
abbrev S128x64 : Shape := ⟨2, ![128, 64]⟩
abbrev S4096x128 : Shape := ⟨2, ![4096, 128]⟩
abbrev S3072x64 : Shape := ⟨2, ![3072, 64]⟩
abbrev S3072x1 : Shape := ⟨2, ![3072, 1]⟩
abbrev S18432x1 : Shape := ⟨2, ![18432, 1]⟩
abbrev S3072x128 : Shape := ⟨2, ![3072, 128]⟩
abbrev S64x64 : Shape := ⟨2, ![64, 64]⟩
abbrev S64x1 : Shape := ⟨2, ![64, 1]⟩
abbrev S1x10 : Shape := ⟨2, ![1, 10]⟩
abbrev S64x10 : Shape := ⟨2, ![64, 10]⟩

abbrev nBuf : Space → Nat
  | .hbm => 605
  | .vmem => 90
  | .smem => 0
  | _ => 0

abbrev hbmTy0_0 (i : Nat) : BufTy := match i % 128 with
  | 0 => ⟨S147456x16, .f32⟩
  | 1 => ⟨S884736x8, .f32⟩
  | 2 => ⟨S18432x8, .f32⟩
  | 3 => ⟨S16x64, .f32⟩
  | 4 => ⟨S64, .f32⟩
  | 5 => ⟨S8x64, .f32⟩
  | 6 => ⟨S64, .f32⟩
  | 7 => ⟨S3x64x128, .f32⟩
  | 8 => ⟨S3x128, .f32⟩
  | 9 => ⟨S3x128x64, .f32⟩
  | 10 => ⟨S3x64, .f32⟩
  | 11 => ⟨S3x64, .f32⟩
  | 12 => ⟨S3x64, .f32⟩
  | 13 => ⟨S3x64x128, .f32⟩
  | 14 => ⟨S3x128, .f32⟩
  | 15 => ⟨S3x128x64, .f32⟩
  | 16 => ⟨S3x64, .f32⟩
  | 17 => ⟨S3x64, .f32⟩
  | 18 => ⟨S3x64, .f32⟩
  | 19 => ⟨S64x128, .f32⟩
  | 20 => ⟨S128, .f32⟩
  | 21 => ⟨S128x10, .f32⟩
  | 22 => ⟨S10, .f32⟩
  | 23 => ⟨S2x884736, .i32⟩
  | 24 => ⟨S2x18432, .i32⟩
  | 25 => ⟨S147456, .i32⟩
  | 26 => ⟨S147456, .i32⟩
  | 27 => ⟨S64, .i32⟩
  | 28 => ⟨S147456, .i32⟩
  | 29 => ⟨S3072, .i32⟩
  | 30 => ⟨S1x64, .f32⟩
  | 31 => ⟨S147456x64, .f32⟩
  | 32 => ⟨S1x64, .f32⟩
  | 33 => ⟨S884736x64, .f32⟩
  | 34 => ⟨S1x64, .f32⟩
  | 35 => ⟨S18432x64, .f32⟩
  | 36 => ⟨S_, .i32⟩
  | 37 => ⟨S1, .i32⟩
  | 38 => ⟨S_, .i32⟩
  | 39 => ⟨S_, .i32⟩
  | 40 => ⟨S64, .i32⟩
  | 41 => ⟨S65, .i32⟩
  | 42 => ⟨S_, .i32⟩
  | 43 => ⟨S147456, .i32⟩
  | 44 => ⟨S147456, .i1⟩
  | 45 => ⟨S_, .i32⟩
  | 46 => ⟨S147456, .i32⟩
  | 47 => ⟨S147456, .i32⟩
  | 48 => ⟨S147456, .i32⟩
  | 49 => ⟨S147456x1, .i32⟩
  | 50 => ⟨S147456, .i32⟩
  | 51 => ⟨S147456, .i32⟩
  | 52 => ⟨S1x884736, .i32⟩
  | 53 => ⟨S884736, .i32⟩
  | 54 => ⟨S1x884736, .i32⟩
  | 55 => ⟨S884736, .i32⟩
  | 56 => ⟨S1x18432, .i32⟩
  | 57 => ⟨S18432, .i32⟩
  | 58 => ⟨S1x18432, .i32⟩
  | 59 => ⟨S18432, .i32⟩
  | 60 => ⟨S_, .i32⟩
  | 61 => ⟨S884736, .i32⟩
  | 62 => ⟨S884736, .i1⟩
  | 63 => ⟨S_, .i32⟩
  | 64 => ⟨S884736, .i32⟩
  | 65 => ⟨S884736, .i32⟩
  | 66 => ⟨S884736, .i32⟩
  | 67 => ⟨S884736x1, .i32⟩
  | 68 => ⟨S884736x64, .f32⟩
  | 69 => ⟨S884736x64, .f32⟩
  | 70 => ⟨S_, .f32⟩
  | 71 => ⟨S884736x64, .f32⟩
  | 72 => ⟨S884736x64, .f32⟩
  | 73 => ⟨S_, .f32⟩
  | 74 => ⟨S147456x64, .f32⟩
  | 75 => ⟨S884736x1, .i32⟩
  | 76 => ⟨S147456x64, .f32⟩
  | 77 => ⟨S147456x64, .f32⟩
  | 78 => ⟨S1x64x128, .f32⟩
  | 79 => ⟨S64x128, .f32⟩
  | 80 => ⟨S1x128, .f32⟩
  | 81 => ⟨S128, .f32⟩
  | 82 => ⟨S1x128x64, .f32⟩
  | 83 => ⟨S128x64, .f32⟩
  | 84 => ⟨S1x64, .f32⟩
  | 85 => ⟨S64, .f32⟩
  | 86 => ⟨S1x128, .f32⟩
  | 87 => ⟨S1x64, .f32⟩
  | 88 => ⟨S147456x64, .f32⟩
  | 89 => ⟨S1x64, .f32⟩
  | 90 => ⟨S64, .f32⟩
  | 91 => ⟨S1x64, .f32⟩
  | 92 => ⟨S64, .f32⟩
  | 93 => ⟨S_, .f32⟩
  | 94 => ⟨S64, .f32⟩
  | 95 => ⟨S_, .f32⟩
  | 96 => ⟨S64, .f32⟩
  | 97 => ⟨S64, .f32⟩
  | 98 => ⟨S_, .i32⟩
  | 99 => ⟨S_, .f32⟩
  | 100 => ⟨S64, .f32⟩
  | 101 => ⟨S1x64, .f32⟩
  | 102 => ⟨S_, .f32⟩
  | 103 => ⟨S1x64, .f32⟩
  | 104 => ⟨S1x64, .f32⟩
  | 105 => ⟨S147456x64, .f32⟩
  | 106 => ⟨S147456x64, .f32⟩
  | 107 => ⟨S147456x64, .f32⟩
  | 108 => ⟨S_, .f32⟩
  | 109 => ⟨S_, .f32⟩
  | 110 => ⟨S_, .f32⟩
  | 111 => ⟨S_, .f32⟩
  | 112 => ⟨S64, .f32⟩
  | 113 => ⟨S64, .f32⟩
  | 114 => ⟨S64, .f32⟩
  | 115 => ⟨S_, .f32⟩
  | 116 => ⟨S_, .i1⟩
  | 117 => ⟨S_, .f32⟩
  | 118 => ⟨S_, .f32⟩
  | 119 => ⟨S64, .f32⟩
  | 120 => ⟨S64, .f32⟩
  | 121 => ⟨S_, .f32⟩
  | 122 => ⟨S64, .f32⟩
  | 123 => ⟨S64, .f32⟩
  | 124 => ⟨S64, .f32⟩
  | 125 => ⟨S64, .f32⟩
  | 126 => ⟨S64, .f32⟩
  | 127 => ⟨S64, .f32⟩
  | _ => ⟨S147456x16, .f32⟩

abbrev hbmTy0_1 (i : Nat) : BufTy := match i % 128 with
  | 0 => ⟨S_, .f32⟩
  | 1 => ⟨S147456, .f32⟩
  | 2 => ⟨S_, .f32⟩
  | 3 => ⟨S3072, .f32⟩
  | 4 => ⟨S147456x1, .i32⟩
  | 5 => ⟨S3072, .f32⟩
  | 6 => ⟨S_, .f32⟩
  | 7 => ⟨S3072, .f32⟩
  | 8 => ⟨S3072, .f32⟩
  | 9 => ⟨S_, .f32⟩
  | 10 => ⟨S3072x64, .f32⟩
  | 11 => ⟨S147456x1, .i32⟩
  | 12 => ⟨S3072x64, .f32⟩
  | 13 => ⟨S3072x1, .f32⟩
  | 14 => ⟨S3072x64, .f32⟩
  | 15 => ⟨S3072x64, .f32⟩
  | 16 => ⟨S_, .i32⟩
  | 17 => ⟨S18432, .i32⟩
  | 18 => ⟨S18432, .i1⟩
  | 19 => ⟨S_, .i32⟩
  | 20 => ⟨S18432, .i32⟩
  | 21 => ⟨S18432, .i32⟩
  | 22 => ⟨S18432, .i32⟩
  | 23 => ⟨S18432x1, .i32⟩
  | 24 => ⟨S18432x64, .f32⟩
  | 25 => ⟨S18432x64, .f32⟩
  | 26 => ⟨S_, .f32⟩
  | 27 => ⟨S18432x64, .f32⟩
  | 28 => ⟨S18432x64, .f32⟩
  | 29 => ⟨S_, .f32⟩
  | 30 => ⟨S3072x64, .f32⟩
  | 31 => ⟨S18432x1, .i32⟩
  | 32 => ⟨S3072x64, .f32⟩
  | 33 => ⟨S3072x64, .f32⟩
  | 34 => ⟨S1x64x128, .f32⟩
  | 35 => ⟨S64x128, .f32⟩
  | 36 => ⟨S1x128, .f32⟩
  | 37 => ⟨S128, .f32⟩
  | 38 => ⟨S1x128x64, .f32⟩
  | 39 => ⟨S128x64, .f32⟩
  | 40 => ⟨S1x64, .f32⟩
  | 41 => ⟨S64, .f32⟩
  | 42 => ⟨S1x128, .f32⟩
  | 43 => ⟨S1x64, .f32⟩
  | 44 => ⟨S3072x64, .f32⟩
  | 45 => ⟨S1x64, .f32⟩
  | 46 => ⟨S64, .f32⟩
  | 47 => ⟨S1x64, .f32⟩
  | 48 => ⟨S64, .f32⟩
  | 49 => ⟨S_, .f32⟩
  | 50 => ⟨S64, .f32⟩
  | 51 => ⟨S_, .f32⟩
  | 52 => ⟨S64, .f32⟩
  | 53 => ⟨S64, .f32⟩
  | 54 => ⟨S_, .i32⟩
  | 55 => ⟨S_, .f32⟩
  | 56 => ⟨S64, .f32⟩
  | 57 => ⟨S1x64, .f32⟩
  | 58 => ⟨S_, .f32⟩
  | 59 => ⟨S1x64, .f32⟩
  | 60 => ⟨S1x64, .f32⟩
  | 61 => ⟨S3072x64, .f32⟩
  | 62 => ⟨S3072x64, .f32⟩
  | 63 => ⟨S3072x64, .f32⟩
  | 64 => ⟨S_, .f32⟩
  | 65 => ⟨S_, .f32⟩
  | 66 => ⟨S_, .f32⟩
  | 67 => ⟨S_, .f32⟩
  | 68 => ⟨S64, .f32⟩
  | 69 => ⟨S64, .f32⟩
  | 70 => ⟨S64, .f32⟩
  | 71 => ⟨S_, .f32⟩
  | 72 => ⟨S_, .i1⟩
  | 73 => ⟨S_, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S64, .f32⟩
  | 81 => ⟨S64, .f32⟩
  | 82 => ⟨S64, .f32⟩
  | 83 => ⟨S64, .f32⟩
  | 84 => ⟨S1x64, .f32⟩
  | 85 => ⟨S3072x64, .f32⟩
  | 86 => ⟨S3072x64, .f32⟩
  | 87 => ⟨S1x64, .f32⟩
  | 88 => ⟨S3072x64, .f32⟩
  | 89 => ⟨S3072x64, .f32⟩
  | 90 => ⟨S_, .i32⟩
  | 91 => ⟨S147456, .i32⟩
  | 92 => ⟨S147456, .i1⟩
  | 93 => ⟨S_, .i32⟩
  | 94 => ⟨S147456, .i32⟩
  | 95 => ⟨S147456, .i32⟩
  | 96 => ⟨S147456, .i32⟩
  | 97 => ⟨S147456x1, .i32⟩
  | 98 => ⟨S147456x64, .f32⟩
  | 99 => ⟨S1x64, .f32⟩
  | 100 => ⟨S1x64, .f32⟩
  | 101 => ⟨S147456x64, .f32⟩
  | 102 => ⟨S_, .i32⟩
  | 103 => ⟨S884736, .i32⟩
  | 104 => ⟨S884736, .i1⟩
  | 105 => ⟨S_, .i32⟩
  | 106 => ⟨S884736, .i32⟩
  | 107 => ⟨S884736, .i32⟩
  | 108 => ⟨S884736, .i32⟩
  | 109 => ⟨S884736x1, .i32⟩
  | 110 => ⟨S884736x64, .f32⟩
  | 111 => ⟨S884736x64, .f32⟩
  | 112 => ⟨S_, .f32⟩
  | 113 => ⟨S884736x64, .f32⟩
  | 114 => ⟨S884736x64, .f32⟩
  | 115 => ⟨S_, .f32⟩
  | 116 => ⟨S147456x64, .f32⟩
  | 117 => ⟨S884736x1, .i32⟩
  | 118 => ⟨S147456x64, .f32⟩
  | 119 => ⟨S147456x64, .f32⟩
  | 120 => ⟨S1x64x128, .f32⟩
  | 121 => ⟨S64x128, .f32⟩
  | 122 => ⟨S1x128, .f32⟩
  | 123 => ⟨S128, .f32⟩
  | 124 => ⟨S1x128x64, .f32⟩
  | 125 => ⟨S128x64, .f32⟩
  | 126 => ⟨S1x64, .f32⟩
  | 127 => ⟨S64, .f32⟩
  | _ => ⟨S147456x16, .f32⟩

abbrev hbmTy0_2 (i : Nat) : BufTy := match i % 128 with
  | 0 => ⟨S1x128, .f32⟩
  | 1 => ⟨S1x64, .f32⟩
  | 2 => ⟨S147456x64, .f32⟩
  | 3 => ⟨S1x64, .f32⟩
  | 4 => ⟨S64, .f32⟩
  | 5 => ⟨S1x64, .f32⟩
  | 6 => ⟨S64, .f32⟩
  | 7 => ⟨S_, .f32⟩
  | 8 => ⟨S64, .f32⟩
  | 9 => ⟨S_, .f32⟩
  | 10 => ⟨S64, .f32⟩
  | 11 => ⟨S64, .f32⟩
  | 12 => ⟨S_, .i32⟩
  | 13 => ⟨S_, .f32⟩
  | 14 => ⟨S64, .f32⟩
  | 15 => ⟨S1x64, .f32⟩
  | 16 => ⟨S_, .f32⟩
  | 17 => ⟨S1x64, .f32⟩
  | 18 => ⟨S1x64, .f32⟩
  | 19 => ⟨S147456x64, .f32⟩
  | 20 => ⟨S147456x64, .f32⟩
  | 21 => ⟨S147456x64, .f32⟩
  | 22 => ⟨S_, .f32⟩
  | 23 => ⟨S_, .f32⟩
  | 24 => ⟨S_, .f32⟩
  | 25 => ⟨S_, .f32⟩
  | 26 => ⟨S64, .f32⟩
  | 27 => ⟨S64, .f32⟩
  | 28 => ⟨S64, .f32⟩
  | 29 => ⟨S_, .f32⟩
  | 30 => ⟨S_, .i1⟩
  | 31 => ⟨S_, .f32⟩
  | 32 => ⟨S_, .f32⟩
  | 33 => ⟨S64, .f32⟩
  | 34 => ⟨S64, .f32⟩
  | 35 => ⟨S_, .f32⟩
  | 36 => ⟨S64, .f32⟩
  | 37 => ⟨S64, .f32⟩
  | 38 => ⟨S64, .f32⟩
  | 39 => ⟨S64, .f32⟩
  | 40 => ⟨S64, .f32⟩
  | 41 => ⟨S64, .f32⟩
  | 42 => ⟨S_, .f32⟩
  | 43 => ⟨S147456, .f32⟩
  | 44 => ⟨S_, .f32⟩
  | 45 => ⟨S3072, .f32⟩
  | 46 => ⟨S147456x1, .i32⟩
  | 47 => ⟨S3072, .f32⟩
  | 48 => ⟨S_, .f32⟩
  | 49 => ⟨S3072, .f32⟩
  | 50 => ⟨S3072, .f32⟩
  | 51 => ⟨S_, .f32⟩
  | 52 => ⟨S3072x64, .f32⟩
  | 53 => ⟨S147456x1, .i32⟩
  | 54 => ⟨S3072x64, .f32⟩
  | 55 => ⟨S3072x1, .f32⟩
  | 56 => ⟨S3072x64, .f32⟩
  | 57 => ⟨S3072x64, .f32⟩
  | 58 => ⟨S_, .i32⟩
  | 59 => ⟨S18432, .i32⟩
  | 60 => ⟨S18432, .i1⟩
  | 61 => ⟨S_, .i32⟩
  | 62 => ⟨S18432, .i32⟩
  | 63 => ⟨S18432, .i32⟩
  | 64 => ⟨S18432, .i32⟩
  | 65 => ⟨S18432x1, .i32⟩
  | 66 => ⟨S18432x64, .f32⟩
  | 67 => ⟨S18432x64, .f32⟩
  | 68 => ⟨S_, .f32⟩
  | 69 => ⟨S18432x64, .f32⟩
  | 70 => ⟨S18432x64, .f32⟩
  | 71 => ⟨S_, .f32⟩
  | 72 => ⟨S3072x64, .f32⟩
  | 73 => ⟨S18432x1, .i32⟩
  | 74 => ⟨S3072x64, .f32⟩
  | 75 => ⟨S3072x64, .f32⟩
  | 76 => ⟨S1x64x128, .f32⟩
  | 77 => ⟨S64x128, .f32⟩
  | 78 => ⟨S1x128, .f32⟩
  | 79 => ⟨S128, .f32⟩
  | 80 => ⟨S1x128x64, .f32⟩
  | 81 => ⟨S128x64, .f32⟩
  | 82 => ⟨S1x64, .f32⟩
  | 83 => ⟨S64, .f32⟩
  | 84 => ⟨S1x128, .f32⟩
  | 85 => ⟨S1x64, .f32⟩
  | 86 => ⟨S3072x64, .f32⟩
  | 87 => ⟨S1x64, .f32⟩
  | 88 => ⟨S64, .f32⟩
  | 89 => ⟨S1x64, .f32⟩
  | 90 => ⟨S64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S3072x64, .f32⟩
  | 104 => ⟨S3072x64, .f32⟩
  | 105 => ⟨S3072x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S_, .f32⟩
  | 120 => ⟨S64, .f32⟩
  | 121 => ⟨S64, .f32⟩
  | 122 => ⟨S64, .f32⟩
  | 123 => ⟨S64, .f32⟩
  | 124 => ⟨S64, .f32⟩
  | 125 => ⟨S64, .f32⟩
  | 126 => ⟨S1x64, .f32⟩
  | 127 => ⟨S3072x64, .f32⟩
  | _ => ⟨S147456x16, .f32⟩

abbrev hbmTy0_3 (i : Nat) : BufTy := match i % 128 with
  | 0 => ⟨S3072x64, .f32⟩
  | 1 => ⟨S1x64, .f32⟩
  | 2 => ⟨S3072x64, .f32⟩
  | 3 => ⟨S3072x64, .f32⟩
  | 4 => ⟨S_, .i32⟩
  | 5 => ⟨S147456, .i32⟩
  | 6 => ⟨S147456, .i1⟩
  | 7 => ⟨S_, .i32⟩
  | 8 => ⟨S147456, .i32⟩
  | 9 => ⟨S147456, .i32⟩
  | 10 => ⟨S147456, .i32⟩
  | 11 => ⟨S147456x1, .i32⟩
  | 12 => ⟨S147456x64, .f32⟩
  | 13 => ⟨S1x64, .f32⟩
  | 14 => ⟨S1x64, .f32⟩
  | 15 => ⟨S147456x64, .f32⟩
  | 16 => ⟨S_, .i32⟩
  | 17 => ⟨S884736, .i32⟩
  | 18 => ⟨S884736, .i1⟩
  | 19 => ⟨S_, .i32⟩
  | 20 => ⟨S884736, .i32⟩
  | 21 => ⟨S884736, .i32⟩
  | 22 => ⟨S884736, .i32⟩
  | 23 => ⟨S884736x1, .i32⟩
  | 24 => ⟨S884736x64, .f32⟩
  | 25 => ⟨S884736x64, .f32⟩
  | 26 => ⟨S_, .f32⟩
  | 27 => ⟨S884736x64, .f32⟩
  | 28 => ⟨S884736x64, .f32⟩
  | 29 => ⟨S_, .f32⟩
  | 30 => ⟨S147456x64, .f32⟩
  | 31 => ⟨S884736x1, .i32⟩
  | 32 => ⟨S147456x64, .f32⟩
  | 33 => ⟨S147456x64, .f32⟩
  | 34 => ⟨S1x64x128, .f32⟩
  | 35 => ⟨S64x128, .f32⟩
  | 36 => ⟨S1x128, .f32⟩
  | 37 => ⟨S128, .f32⟩
  | 38 => ⟨S1x128x64, .f32⟩
  | 39 => ⟨S128x64, .f32⟩
  | 40 => ⟨S1x64, .f32⟩
  | 41 => ⟨S64, .f32⟩
  | 42 => ⟨S1x128, .f32⟩
  | 43 => ⟨S1x64, .f32⟩
  | 44 => ⟨S147456x64, .f32⟩
  | 45 => ⟨S1x64, .f32⟩
  | 46 => ⟨S64, .f32⟩
  | 47 => ⟨S1x64, .f32⟩
  | 48 => ⟨S64, .f32⟩
  | 49 => ⟨S_, .f32⟩
  | 50 => ⟨S64, .f32⟩
  | 51 => ⟨S_, .f32⟩
  | 52 => ⟨S64, .f32⟩
  | 53 => ⟨S64, .f32⟩
  | 54 => ⟨S_, .i32⟩
  | 55 => ⟨S_, .f32⟩
  | 56 => ⟨S64, .f32⟩
  | 57 => ⟨S1x64, .f32⟩
  | 58 => ⟨S_, .f32⟩
  | 59 => ⟨S1x64, .f32⟩
  | 60 => ⟨S1x64, .f32⟩
  | 61 => ⟨S147456x64, .f32⟩
  | 62 => ⟨S147456x64, .f32⟩
  | 63 => ⟨S147456x64, .f32⟩
  | 64 => ⟨S_, .f32⟩
  | 65 => ⟨S_, .f32⟩
  | 66 => ⟨S_, .f32⟩
  | 67 => ⟨S_, .f32⟩
  | 68 => ⟨S64, .f32⟩
  | 69 => ⟨S64, .f32⟩
  | 70 => ⟨S64, .f32⟩
  | 71 => ⟨S_, .f32⟩
  | 72 => ⟨S_, .i1⟩
  | 73 => ⟨S_, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S64, .f32⟩
  | 81 => ⟨S64, .f32⟩
  | 82 => ⟨S64, .f32⟩
  | 83 => ⟨S64, .f32⟩
  | 84 => ⟨S_, .f32⟩
  | 85 => ⟨S147456, .f32⟩
  | 86 => ⟨S_, .f32⟩
  | 87 => ⟨S3072, .f32⟩
  | 88 => ⟨S147456x1, .i32⟩
  | 89 => ⟨S3072, .f32⟩
  | 90 => ⟨S_, .f32⟩
  | 91 => ⟨S3072, .f32⟩
  | 92 => ⟨S3072, .f32⟩
  | 93 => ⟨S_, .f32⟩
  | 94 => ⟨S3072x64, .f32⟩
  | 95 => ⟨S147456x1, .i32⟩
  | 96 => ⟨S3072x64, .f32⟩
  | 97 => ⟨S3072x1, .f32⟩
  | 98 => ⟨S3072x64, .f32⟩
  | 99 => ⟨S3072x64, .f32⟩
  | 100 => ⟨S_, .i32⟩
  | 101 => ⟨S18432, .i32⟩
  | 102 => ⟨S18432, .i1⟩
  | 103 => ⟨S_, .i32⟩
  | 104 => ⟨S18432, .i32⟩
  | 105 => ⟨S18432, .i32⟩
  | 106 => ⟨S18432, .i32⟩
  | 107 => ⟨S18432x1, .i32⟩
  | 108 => ⟨S18432x64, .f32⟩
  | 109 => ⟨S18432x64, .f32⟩
  | 110 => ⟨S_, .f32⟩
  | 111 => ⟨S18432x64, .f32⟩
  | 112 => ⟨S18432x64, .f32⟩
  | 113 => ⟨S_, .f32⟩
  | 114 => ⟨S3072x64, .f32⟩
  | 115 => ⟨S18432x1, .i32⟩
  | 116 => ⟨S3072x64, .f32⟩
  | 117 => ⟨S3072x64, .f32⟩
  | 118 => ⟨S1x64x128, .f32⟩
  | 119 => ⟨S64x128, .f32⟩
  | 120 => ⟨S1x128, .f32⟩
  | 121 => ⟨S128, .f32⟩
  | 122 => ⟨S1x128x64, .f32⟩
  | 123 => ⟨S128x64, .f32⟩
  | 124 => ⟨S1x64, .f32⟩
  | 125 => ⟨S64, .f32⟩
  | 126 => ⟨S1x128, .f32⟩
  | 127 => ⟨S1x64, .f32⟩
  | _ => ⟨S147456x16, .f32⟩

abbrev hbmTy0_4 (i : Nat) : BufTy := match i % 128 with
  | 0 => ⟨S3072x64, .f32⟩
  | 1 => ⟨S1x64, .f32⟩
  | 2 => ⟨S64, .f32⟩
  | 3 => ⟨S1x64, .f32⟩
  | 4 => ⟨S64, .f32⟩
  | 5 => ⟨S_, .f32⟩
  | 6 => ⟨S64, .f32⟩
  | 7 => ⟨S_, .f32⟩
  | 8 => ⟨S64, .f32⟩
  | 9 => ⟨S64, .f32⟩
  | 10 => ⟨S_, .i32⟩
  | 11 => ⟨S_, .f32⟩
  | 12 => ⟨S64, .f32⟩
  | 13 => ⟨S1x64, .f32⟩
  | 14 => ⟨S_, .f32⟩
  | 15 => ⟨S1x64, .f32⟩
  | 16 => ⟨S1x64, .f32⟩
  | 17 => ⟨S3072x64, .f32⟩
  | 18 => ⟨S3072x64, .f32⟩
  | 19 => ⟨S3072x64, .f32⟩
  | 20 => ⟨S_, .f32⟩
  | 21 => ⟨S_, .f32⟩
  | 22 => ⟨S_, .f32⟩
  | 23 => ⟨S_, .f32⟩
  | 24 => ⟨S64, .f32⟩
  | 25 => ⟨S64, .f32⟩
  | 26 => ⟨S64, .f32⟩
  | 27 => ⟨S_, .f32⟩
  | 28 => ⟨S_, .i1⟩
  | 29 => ⟨S_, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S64, .f32⟩
  | 38 => ⟨S64, .f32⟩
  | 39 => ⟨S64, .f32⟩
  | 40 => ⟨S1x64, .f32⟩
  | 41 => ⟨S3072x64, .f32⟩
  | 42 => ⟨S3072x64, .f32⟩
  | 43 => ⟨S1x64, .f32⟩
  | 44 => ⟨S3072x64, .f32⟩
  | 45 => ⟨S3072x64, .f32⟩
  | 46 => ⟨S_, .i32⟩
  | 47 => ⟨S147456, .i32⟩
  | 48 => ⟨S147456, .i1⟩
  | 49 => ⟨S_, .i32⟩
  | 50 => ⟨S147456, .i32⟩
  | 51 => ⟨S147456, .i32⟩
  | 52 => ⟨S147456, .i32⟩
  | 53 => ⟨S147456x1, .i32⟩
  | 54 => ⟨S147456x64, .f32⟩
  | 55 => ⟨S1x64, .f32⟩
  | 56 => ⟨S1x64, .f32⟩
  | 57 => ⟨S147456x64, .f32⟩
  | 58 => ⟨S_, .f32⟩
  | 59 => ⟨S147456, .f32⟩
  | 60 => ⟨S_, .f32⟩
  | 61 => ⟨S3072, .f32⟩
  | 62 => ⟨S147456x1, .i32⟩
  | 63 => ⟨S3072, .f32⟩
  | 64 => ⟨S_, .f32⟩
  | 65 => ⟨S3072, .f32⟩
  | 66 => ⟨S3072, .f32⟩
  | 67 => ⟨S_, .f32⟩
  | 68 => ⟨S3072x64, .f32⟩
  | 69 => ⟨S147456x1, .i32⟩
  | 70 => ⟨S3072x64, .f32⟩
  | 71 => ⟨S3072x1, .f32⟩
  | 72 => ⟨S3072x64, .f32⟩
  | 73 => ⟨S3072x64, .f32⟩
  | 74 => ⟨S_, .f32⟩
  | 75 => ⟨S3072, .f32⟩
  | 76 => ⟨S_, .f32⟩
  | 77 => ⟨S64, .f32⟩
  | 78 => ⟨S3072x1, .i32⟩
  | 79 => ⟨S64, .f32⟩
  | 80 => ⟨S_, .f32⟩
  | 81 => ⟨S64, .f32⟩
  | 82 => ⟨S64, .f32⟩
  | 83 => ⟨S_, .f32⟩
  | 84 => ⟨S64x64, .f32⟩
  | 85 => ⟨S3072x1, .i32⟩
  | 86 => ⟨S64x64, .f32⟩
  | 87 => ⟨S64x1, .f32⟩
  | 88 => ⟨S64x64, .f32⟩
  | 89 => ⟨S64x64, .f32⟩
  | 90 => ⟨S1x128, .f32⟩
  | 91 => ⟨S1x10, .f32⟩
  | 92 => ⟨S64x10, .f32⟩
  | _ => ⟨S147456x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S147456x16, .f32⟩

abbrev bufTy : (tb : Table) → Fin (tcTables nBuf tb) → BufTy
  | .hbm, ⟨i, _⟩ => hbmTy i
  | .local _ .vmem, ⟨0, _⟩ => ⟨S4096x16, .f32⟩
  | .local _ .vmem, ⟨1, _⟩ => ⟨S4096x16, .f32⟩
  | .local _ .vmem, ⟨2, _⟩ => ⟨S16x64, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | .local _ .vmem, ⟨6, _⟩ => ⟨S8192x8, .f32⟩
  | .local _ .vmem, ⟨7, _⟩ => ⟨S8192x8, .f32⟩
  | .local _ .vmem, ⟨8, _⟩ => ⟨S8x64, .f32⟩
  | .local _ .vmem, ⟨9, _⟩ => ⟨S1x64, .f32⟩
  | .local _ .vmem, ⟨10, _⟩ => ⟨S8192x64, .f32⟩
  | .local _ .vmem, ⟨11, _⟩ => ⟨S8192x64, .f32⟩
  | .local _ .vmem, ⟨12, _⟩ => ⟨S2048x8, .f32⟩
  | .local _ .vmem, ⟨13, _⟩ => ⟨S2048x8, .f32⟩
  | .local _ .vmem, ⟨14, _⟩ => ⟨S8x64, .f32⟩
  | .local _ .vmem, ⟨15, _⟩ => ⟨S1x64, .f32⟩
  | .local _ .vmem, ⟨16, _⟩ => ⟨S2048x64, .f32⟩
  | .local _ .vmem, ⟨17, _⟩ => ⟨S2048x64, .f32⟩
  | .local _ .vmem, ⟨18, _⟩ => ⟨S4096x64, .f32⟩
  | .local _ .vmem, ⟨19, _⟩ => ⟨S4096x64, .f32⟩
  | .local _ .vmem, ⟨20, _⟩ => ⟨S64x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S4096x64, .f32⟩
  | .local _ .vmem, ⟨25, _⟩ => ⟨S4096x64, .f32⟩
  | .local _ .vmem, ⟨26, _⟩ => ⟨S3072x64, .f32⟩
  | .local _ .vmem, ⟨27, _⟩ => ⟨S64x128, .f32⟩
  | .local _ .vmem, ⟨28, _⟩ => ⟨S1x128, .f32⟩
  | .local _ .vmem, ⟨29, _⟩ => ⟨S128x64, .f32⟩
  | .local _ .vmem, ⟨30, _⟩ => ⟨S1x64, .f32⟩
  | .local _ .vmem, ⟨31, _⟩ => ⟨S3072x64, .f32⟩
  | .local _ .vmem, ⟨32, _⟩ => ⟨S8192x64, .f32⟩
  | .local _ .vmem, ⟨33, _⟩ => ⟨S8192x64, .f32⟩
  | .local _ .vmem, ⟨34, _⟩ => ⟨S1x64, .f32⟩
  | .local _ .vmem, ⟨35, _⟩ => ⟨S1x64, .f32⟩
  | .local _ .vmem, ⟨36, _⟩ => ⟨S8192x64, .f32⟩
  | .local _ .vmem, ⟨37, _⟩ => ⟨S8192x64, .f32⟩
  | .local _ .vmem, ⟨38, _⟩ => ⟨S8192x64, .f32⟩
  | .local _ .vmem, ⟨39, _⟩ => ⟨S8192x64, .f32⟩
  | .local _ .vmem, ⟨40, _⟩ => ⟨S4096x64, .f32⟩
  | .local _ .vmem, ⟨41, _⟩ => ⟨S4096x64, .f32⟩
  | .local _ .vmem, ⟨42, _⟩ => ⟨S64x128, .f32⟩
  | .local _ .vmem, ⟨43, _⟩ => ⟨S1x128, .f32⟩
  | .local _ .vmem, ⟨44, _⟩ => ⟨S128x64, .f32⟩
  | .local _ .vmem, ⟨45, _⟩ => ⟨S1x64, .f32⟩
  | .local _ .vmem, ⟨46, _⟩ => ⟨S4096x64, .f32⟩
  | .local _ .vmem, ⟨47, _⟩ => ⟨S4096x64, .f32⟩
  | .local _ .vmem, ⟨48, _⟩ => ⟨S3072x64, .f32⟩
  | .local _ .vmem, ⟨49, _⟩ => ⟨S64x128, .f32⟩
  | .local _ .vmem, ⟨50, _⟩ => ⟨S1x128, .f32⟩
  | .local _ .vmem, ⟨51, _⟩ => ⟨S128x64, .f32⟩
  | .local _ .vmem, ⟨52, _⟩ => ⟨S1x64, .f32⟩
  | .local _ .vmem, ⟨53, _⟩ => ⟨S3072x64, .f32⟩
  | .local _ .vmem, ⟨54, _⟩ => ⟨S8192x64, .f32⟩
  | .local _ .vmem, ⟨55, _⟩ => ⟨S8192x64, .f32⟩
  | .local _ .vmem, ⟨56, _⟩ => ⟨S1x64, .f32⟩
  | .local _ .vmem, ⟨57, _⟩ => ⟨S1x64, .f32⟩
  | .local _ .vmem, ⟨58, _⟩ => ⟨S8192x64, .f32⟩
  | .local _ .vmem, ⟨59, _⟩ => ⟨S8192x64, .f32⟩
  | .local _ .vmem, ⟨60, _⟩ => ⟨S8192x64, .f32⟩
  | .local _ .vmem, ⟨61, _⟩ => ⟨S8192x64, .f32⟩
  | .local _ .vmem, ⟨62, _⟩ => ⟨S4096x64, .f32⟩
  | .local _ .vmem, ⟨63, _⟩ => ⟨S4096x64, .f32⟩
  | .local _ .vmem, ⟨64, _⟩ => ⟨S64x128, .f32⟩
  | .local _ .vmem, ⟨65, _⟩ => ⟨S1x128, .f32⟩
  | .local _ .vmem, ⟨66, _⟩ => ⟨S128x64, .f32⟩
  | .local _ .vmem, ⟨67, _⟩ => ⟨S1x64, .f32⟩
  | .local _ .vmem, ⟨68, _⟩ => ⟨S4096x64, .f32⟩
  | .local _ .vmem, ⟨69, _⟩ => ⟨S4096x64, .f32⟩
  | .local _ .vmem, ⟨70, _⟩ => ⟨S3072x64, .f32⟩
  | .local _ .vmem, ⟨71, _⟩ => ⟨S64x128, .f32⟩
  | .local _ .vmem, ⟨72, _⟩ => ⟨S1x128, .f32⟩
  | .local _ .vmem, ⟨73, _⟩ => ⟨S128x64, .f32⟩
  | .local _ .vmem, ⟨74, _⟩ => ⟨S1x64, .f32⟩
  | .local _ .vmem, ⟨75, _⟩ => ⟨S3072x64, .f32⟩
  | .local _ .vmem, ⟨76, _⟩ => ⟨S8192x64, .f32⟩
  | .local _ .vmem, ⟨77, _⟩ => ⟨S8192x64, .f32⟩
  | .local _ .vmem, ⟨78, _⟩ => ⟨S1x64, .f32⟩
  | .local _ .vmem, ⟨79, _⟩ => ⟨S1x64, .f32⟩
  | .local _ .vmem, ⟨80, _⟩ => ⟨S8192x64, .f32⟩
  | .local _ .vmem, ⟨81, _⟩ => ⟨S8192x64, .f32⟩
  | .local _ .vmem, ⟨82, _⟩ => ⟨S8192x64, .f32⟩
  | .local _ .vmem, ⟨83, _⟩ => ⟨S8192x64, .f32⟩
  | .local _ .vmem, ⟨84, _⟩ => ⟨S64x64, .f32⟩
  | .local _ .vmem, ⟨85, _⟩ => ⟨S64x128, .f32⟩
  | .local _ .vmem, ⟨86, _⟩ => ⟨S1x128, .f32⟩
  | .local _ .vmem, ⟨87, _⟩ => ⟨S128x10, .f32⟩
  | .local _ .vmem, ⟨88, _⟩ => ⟨S1x10, .f32⟩
  | .local _ .vmem, ⟨89, _⟩ => ⟨S64x10, .f32⟩
  | _, _ => ⟨S147456x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_c : Ref sig .tc := ⟨.hbm, 36, rfl⟩
abbrev main_v6 : Ref sig .tc := ⟨.hbm, 37, rfl⟩
abbrev main_call0_call0_c : Ref sig .tc := ⟨.hbm, 38, rfl⟩
abbrev main_call0_call0_v0 : Ref sig .tc := ⟨.hbm, 39, rfl⟩
abbrev main_v7 : Ref sig .tc := ⟨.hbm, 40, rfl⟩
abbrev main_v8 : Ref sig .tc := ⟨.hbm, 41, rfl⟩
abbrev main_c_0 : Ref sig .tc := ⟨.hbm, 42, rfl⟩
abbrev main_v9 : Ref sig .tc := ⟨.hbm, 43, rfl⟩
abbrev main_v10 : Ref sig .tc := ⟨.hbm, 44, rfl⟩
abbrev main_c_1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_c_2 : Ref sig .tc := ⟨.hbm, 60, rfl⟩
abbrev main_v25 : Ref sig .tc := ⟨.hbm, 61, rfl⟩
abbrev main_v26 : Ref sig .tc := ⟨.hbm, 62, rfl⟩
abbrev main_c_3 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_call1_cst : Ref sig .tc := ⟨.hbm, 70, rfl⟩
abbrev main_call1_v0 : Ref sig .tc := ⟨.hbm, 71, rfl⟩
abbrev main_v33 : Ref sig .tc := ⟨.hbm, 72, rfl⟩
abbrev main_cst : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_4 : Ref sig .tc := ⟨.hbm, 93, rfl⟩
abbrev main_v53 : Ref sig .tc := ⟨.hbm, 94, rfl⟩
abbrev main_cst_5 : Ref sig .tc := ⟨.hbm, 95, rfl⟩
abbrev main_v54 : Ref sig .tc := ⟨.hbm, 96, rfl⟩
abbrev main_v55 : Ref sig .tc := ⟨.hbm, 97, rfl⟩
abbrev main_c_6 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_cst_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_cst_1 : Ref sig .tc := ⟨.hbm, 109, rfl⟩
abbrev main_call2_v8 : Ref sig .tc := ⟨.hbm, 110, rfl⟩
abbrev main_call2_cst_2 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_cst_3 : Ref sig .tc := ⟨.hbm, 115, rfl⟩
abbrev main_call2_v12 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v56 : Ref sig .tc := ⟨.hbm, 120, rfl⟩
abbrev main_cst_7 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_cst_8 : Ref sig .tc := ⟨.hbm, 128, rfl⟩
abbrev main_v63 : Ref sig .tc := ⟨.hbm, 129, rfl⟩
abbrev main_cst_9 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_cst_10 : Ref sig .tc := ⟨.hbm, 134, rfl⟩
abbrev main_v67 : Ref sig .tc := ⟨.hbm, 135, rfl⟩
abbrev main_v68 : Ref sig .tc := ⟨.hbm, 136, rfl⟩
abbrev main_cst_11 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_c_12 : Ref sig .tc := ⟨.hbm, 144, rfl⟩
abbrev main_v75 : Ref sig .tc := ⟨.hbm, 145, rfl⟩
abbrev main_v76 : Ref sig .tc := ⟨.hbm, 146, rfl⟩
abbrev main_c_13 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_call3_cst : Ref sig .tc := ⟨.hbm, 154, rfl⟩
abbrev main_call3_v0 : Ref sig .tc := ⟨.hbm, 155, rfl⟩
abbrev main_v83 : Ref sig .tc := ⟨.hbm, 156, rfl⟩
abbrev main_cst_14 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_cst_15 : Ref sig .tc := ⟨.hbm, 177, rfl⟩
abbrev main_v103 : Ref sig .tc := ⟨.hbm, 178, rfl⟩
abbrev main_cst_16 : Ref sig .tc := ⟨.hbm, 179, rfl⟩
abbrev main_v104 : Ref sig .tc := ⟨.hbm, 180, rfl⟩
abbrev main_v105 : Ref sig .tc := ⟨.hbm, 181, rfl⟩
abbrev main_c_17 : Ref sig .tc := ⟨.hbm, 182, rfl⟩
abbrev main_call4_cst : Ref sig .tc := ⟨.hbm, 183, rfl⟩
abbrev main_call4_v0 : Ref sig .tc := ⟨.hbm, 184, rfl⟩
abbrev main_call4_v1 : Ref sig .tc := ⟨.hbm, 185, rfl⟩
abbrev main_call4_cst_0 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_call4_v5 : Ref sig .tc := ⟨.hbm, 190, rfl⟩
abbrev main_call4_v6 : Ref sig .tc := ⟨.hbm, 191, rfl⟩
abbrev main_call4_v7 : Ref sig .tc := ⟨.hbm, 192, rfl⟩
abbrev main_call4_cst_1 : Ref sig .tc := ⟨.hbm, 193, rfl⟩
abbrev main_call4_v8 : Ref sig .tc := ⟨.hbm, 194, rfl⟩
abbrev main_call4_cst_2 : Ref sig .tc := ⟨.hbm, 195, rfl⟩
abbrev main_call4_v9 : Ref sig .tc := ⟨.hbm, 196, rfl⟩
abbrev main_call4_v10 : Ref sig .tc := ⟨.hbm, 197, rfl⟩
abbrev main_call4_v11 : Ref sig .tc := ⟨.hbm, 198, rfl⟩
abbrev main_call4_cst_3 : Ref sig .tc := ⟨.hbm, 199, rfl⟩
abbrev main_call4_v12 : Ref sig .tc := ⟨.hbm, 200, rfl⟩
abbrev main_call4_cst_4 : Ref sig .tc := ⟨.hbm, 201, rfl⟩
abbrev main_call4_call0_v0 : Ref sig .tc := ⟨.hbm, 202, rfl⟩
abbrev main_call4_call0_v1 : Ref sig .tc := ⟨.hbm, 203, rfl⟩
abbrev main_v106 : Ref sig .tc := ⟨.hbm, 204, rfl⟩
abbrev main_cst_18 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_c_19 : Ref sig .tc := ⟨.hbm, 218, rfl⟩
abbrev main_v119 : Ref sig .tc := ⟨.hbm, 219, rfl⟩
abbrev main_v120 : Ref sig .tc := ⟨.hbm, 220, rfl⟩
abbrev main_c_20 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_c_21 : Ref sig .tc := ⟨.hbm, 230, rfl⟩
abbrev main_v129 : Ref sig .tc := ⟨.hbm, 231, rfl⟩
abbrev main_v130 : Ref sig .tc := ⟨.hbm, 232, rfl⟩
abbrev main_c_22 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_call5_cst : Ref sig .tc := ⟨.hbm, 240, rfl⟩
abbrev main_call5_v0 : Ref sig .tc := ⟨.hbm, 241, rfl⟩
abbrev main_v137 : Ref sig .tc := ⟨.hbm, 242, rfl⟩
abbrev main_cst_23 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_cst_24 : Ref sig .tc := ⟨.hbm, 263, rfl⟩
abbrev main_v157 : Ref sig .tc := ⟨.hbm, 264, rfl⟩
abbrev main_cst_25 : Ref sig .tc := ⟨.hbm, 265, rfl⟩
abbrev main_v158 : Ref sig .tc := ⟨.hbm, 266, rfl⟩
abbrev main_v159 : Ref sig .tc := ⟨.hbm, 267, rfl⟩
abbrev main_c_26 : Ref sig .tc := ⟨.hbm, 268, rfl⟩
abbrev main_call6_cst : Ref sig .tc := ⟨.hbm, 269, rfl⟩
abbrev main_call6_v0 : Ref sig .tc := ⟨.hbm, 270, rfl⟩
abbrev main_call6_v1 : Ref sig .tc := ⟨.hbm, 271, rfl⟩
abbrev main_call6_cst_0 : Ref sig .tc := ⟨.hbm, 272, rfl⟩
abbrev main_call6_v2 : Ref sig .tc := ⟨.hbm, 273, rfl⟩
abbrev main_call6_v3 : Ref sig .tc := ⟨.hbm, 274, rfl⟩
abbrev main_call6_v4 : Ref sig .tc := ⟨.hbm, 275, rfl⟩
abbrev main_call6_v5 : Ref sig .tc := ⟨.hbm, 276, rfl⟩
abbrev main_call6_v6 : Ref sig .tc := ⟨.hbm, 277, rfl⟩
abbrev main_call6_v7 : Ref sig .tc := ⟨.hbm, 278, rfl⟩
abbrev main_call6_cst_1 : Ref sig .tc := ⟨.hbm, 279, rfl⟩
abbrev main_call6_v8 : Ref sig .tc := ⟨.hbm, 280, rfl⟩
abbrev main_call6_cst_2 : Ref sig .tc := ⟨.hbm, 281, rfl⟩
abbrev main_call6_v9 : Ref sig .tc := ⟨.hbm, 282, rfl⟩
abbrev main_call6_v10 : Ref sig .tc := ⟨.hbm, 283, rfl⟩
abbrev main_call6_v11 : Ref sig .tc := ⟨.hbm, 284, rfl⟩
abbrev main_call6_cst_3 : Ref sig .tc := ⟨.hbm, 285, rfl⟩
abbrev main_call6_v12 : Ref sig .tc := ⟨.hbm, 286, rfl⟩
abbrev main_call6_cst_4 : Ref sig .tc := ⟨.hbm, 287, rfl⟩
abbrev main_call6_call0_v0 : Ref sig .tc := ⟨.hbm, 288, rfl⟩
abbrev main_call6_call0_v1 : Ref sig .tc := ⟨.hbm, 289, rfl⟩
abbrev main_v160 : Ref sig .tc := ⟨.hbm, 290, rfl⟩
abbrev main_cst_27 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩
abbrev main_v165 : Ref sig .tc := ⟨.hbm, 296, rfl⟩
abbrev main_v166 : Ref sig .tc := ⟨.hbm, 297, rfl⟩
abbrev main_cst_28 : Ref sig .tc := ⟨.hbm, 298, rfl⟩
abbrev main_v167 : Ref sig .tc := ⟨.hbm, 299, rfl⟩
abbrev main_cst_29 : Ref sig .tc := ⟨.hbm, 300, rfl⟩
abbrev main_v168 : Ref sig .tc := ⟨.hbm, 301, rfl⟩
abbrev main_v169 : Ref sig .tc := ⟨.hbm, 302, rfl⟩
abbrev main_v170 : Ref sig .tc := ⟨.hbm, 303, rfl⟩
abbrev main_cst_30 : Ref sig .tc := ⟨.hbm, 304, rfl⟩
abbrev main_v171 : Ref sig .tc := ⟨.hbm, 305, rfl⟩
abbrev main_v172 : Ref sig .tc := ⟨.hbm, 306, rfl⟩
abbrev main_cst_31 : Ref sig .tc := ⟨.hbm, 307, rfl⟩
abbrev main_v173 : Ref sig .tc := ⟨.hbm, 308, rfl⟩
abbrev main_v174 : Ref sig .tc := ⟨.hbm, 309, rfl⟩
abbrev main_v175 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_c_32 : Ref sig .tc := ⟨.hbm, 314, rfl⟩
abbrev main_v179 : Ref sig .tc := ⟨.hbm, 315, rfl⟩
abbrev main_v180 : Ref sig .tc := ⟨.hbm, 316, rfl⟩
abbrev main_c_33 : Ref sig .tc := ⟨.hbm, 317, rfl⟩
abbrev main_v181 : Ref sig .tc := ⟨.hbm, 318, rfl⟩
abbrev main_v182 : Ref sig .tc := ⟨.hbm, 319, rfl⟩
abbrev main_v183 : Ref sig .tc := ⟨.hbm, 320, rfl⟩
abbrev main_v184 : Ref sig .tc := ⟨.hbm, 321, rfl⟩
abbrev main_v185 : Ref sig .tc := ⟨.hbm, 322, rfl⟩
abbrev main_v186 : Ref sig .tc := ⟨.hbm, 323, rfl⟩
abbrev main_call7_cst : Ref sig .tc := ⟨.hbm, 324, rfl⟩
abbrev main_call7_v0 : Ref sig .tc := ⟨.hbm, 325, rfl⟩
abbrev main_v187 : Ref sig .tc := ⟨.hbm, 326, rfl⟩
abbrev main_cst_34 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_v192 : Ref sig .tc := ⟨.hbm, 332, rfl⟩
abbrev main_v193 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_v203 : Ref sig .tc := ⟨.hbm, 343, rfl⟩
abbrev main_v204 : Ref sig .tc := ⟨.hbm, 344, rfl⟩
abbrev main_v205 : Ref sig .tc := ⟨.hbm, 345, rfl⟩
abbrev main_v206 : Ref sig .tc := ⟨.hbm, 346, rfl⟩
abbrev main_cst_35 : Ref sig .tc := ⟨.hbm, 347, rfl⟩
abbrev main_v207 : Ref sig .tc := ⟨.hbm, 348, rfl⟩
abbrev main_cst_36 : Ref sig .tc := ⟨.hbm, 349, rfl⟩
abbrev main_v208 : Ref sig .tc := ⟨.hbm, 350, rfl⟩
abbrev main_v209 : Ref sig .tc := ⟨.hbm, 351, rfl⟩
abbrev main_c_37 : Ref sig .tc := ⟨.hbm, 352, rfl⟩
abbrev main_call8_cst : Ref sig .tc := ⟨.hbm, 353, rfl⟩
abbrev main_call8_v0 : Ref sig .tc := ⟨.hbm, 354, rfl⟩
abbrev main_call8_v1 : Ref sig .tc := ⟨.hbm, 355, rfl⟩
abbrev main_call8_cst_0 : Ref sig .tc := ⟨.hbm, 356, rfl⟩
abbrev main_call8_v2 : Ref sig .tc := ⟨.hbm, 357, rfl⟩
abbrev main_call8_v3 : Ref sig .tc := ⟨.hbm, 358, rfl⟩
abbrev main_call8_v4 : Ref sig .tc := ⟨.hbm, 359, rfl⟩
abbrev main_call8_v5 : Ref sig .tc := ⟨.hbm, 360, rfl⟩
abbrev main_call8_v6 : Ref sig .tc := ⟨.hbm, 361, rfl⟩
abbrev main_call8_v7 : Ref sig .tc := ⟨.hbm, 362, rfl⟩
abbrev main_call8_cst_1 : Ref sig .tc := ⟨.hbm, 363, rfl⟩
abbrev main_call8_v8 : Ref sig .tc := ⟨.hbm, 364, rfl⟩
abbrev main_call8_cst_2 : Ref sig .tc := ⟨.hbm, 365, rfl⟩
abbrev main_call8_v9 : Ref sig .tc := ⟨.hbm, 366, rfl⟩
abbrev main_call8_v10 : Ref sig .tc := ⟨.hbm, 367, rfl⟩
abbrev main_call8_v11 : Ref sig .tc := ⟨.hbm, 368, rfl⟩
abbrev main_call8_cst_3 : Ref sig .tc := ⟨.hbm, 369, rfl⟩
abbrev main_call8_v12 : Ref sig .tc := ⟨.hbm, 370, rfl⟩
abbrev main_call8_cst_4 : Ref sig .tc := ⟨.hbm, 371, rfl⟩
abbrev main_call8_call0_v0 : Ref sig .tc := ⟨.hbm, 372, rfl⟩
abbrev main_call8_call0_v1 : Ref sig .tc := ⟨.hbm, 373, rfl⟩
abbrev main_v210 : Ref sig .tc := ⟨.hbm, 374, rfl⟩
abbrev main_cst_38 : Ref sig .tc := ⟨.hbm, 375, rfl⟩
abbrev main_v211 : Ref sig .tc := ⟨.hbm, 376, rfl⟩
abbrev main_v212 : Ref sig .tc := ⟨.hbm, 377, rfl⟩
abbrev main_v213 : Ref sig .tc := ⟨.hbm, 378, rfl⟩
abbrev main_v214 : Ref sig .tc := ⟨.hbm, 379, rfl⟩
abbrev main_v215 : Ref sig .tc := ⟨.hbm, 380, rfl⟩
abbrev main_v216 : Ref sig .tc := ⟨.hbm, 381, rfl⟩
abbrev main_v217 : Ref sig .tc := ⟨.hbm, 382, rfl⟩
abbrev main_v218 : Ref sig .tc := ⟨.hbm, 383, rfl⟩
abbrev main_v219 : Ref sig .tc := ⟨.hbm, 384, rfl⟩
abbrev main_v220 : Ref sig .tc := ⟨.hbm, 385, rfl⟩
abbrev main_v221 : Ref sig .tc := ⟨.hbm, 386, rfl⟩
abbrev main_v222 : Ref sig .tc := ⟨.hbm, 387, rfl⟩
abbrev main_c_39 : Ref sig .tc := ⟨.hbm, 388, rfl⟩
abbrev main_v223 : Ref sig .tc := ⟨.hbm, 389, rfl⟩
abbrev main_v224 : Ref sig .tc := ⟨.hbm, 390, rfl⟩
abbrev main_c_40 : Ref sig .tc := ⟨.hbm, 391, rfl⟩
abbrev main_v225 : Ref sig .tc := ⟨.hbm, 392, rfl⟩
abbrev main_v226 : Ref sig .tc := ⟨.hbm, 393, rfl⟩
abbrev main_v227 : Ref sig .tc := ⟨.hbm, 394, rfl⟩
abbrev main_v228 : Ref sig .tc := ⟨.hbm, 395, rfl⟩
abbrev main_v229 : Ref sig .tc := ⟨.hbm, 396, rfl⟩
abbrev main_v230 : Ref sig .tc := ⟨.hbm, 397, rfl⟩
abbrev main_v231 : Ref sig .tc := ⟨.hbm, 398, rfl⟩
abbrev main_v232 : Ref sig .tc := ⟨.hbm, 399, rfl⟩
abbrev main_c_41 : Ref sig .tc := ⟨.hbm, 400, rfl⟩
abbrev main_v233 : Ref sig .tc := ⟨.hbm, 401, rfl⟩
abbrev main_v234 : Ref sig .tc := ⟨.hbm, 402, rfl⟩
abbrev main_c_42 : Ref sig .tc := ⟨.hbm, 403, rfl⟩
abbrev main_v235 : Ref sig .tc := ⟨.hbm, 404, rfl⟩
abbrev main_v236 : Ref sig .tc := ⟨.hbm, 405, rfl⟩
abbrev main_v237 : Ref sig .tc := ⟨.hbm, 406, rfl⟩
abbrev main_v238 : Ref sig .tc := ⟨.hbm, 407, rfl⟩
abbrev main_v239 : Ref sig .tc := ⟨.hbm, 408, rfl⟩
abbrev main_v240 : Ref sig .tc := ⟨.hbm, 409, rfl⟩
abbrev main_call9_cst : Ref sig .tc := ⟨.hbm, 410, rfl⟩
abbrev main_call9_v0 : Ref sig .tc := ⟨.hbm, 411, rfl⟩
abbrev main_v241 : Ref sig .tc := ⟨.hbm, 412, rfl⟩
abbrev main_cst_43 : Ref sig .tc := ⟨.hbm, 413, rfl⟩
abbrev main_v242 : Ref sig .tc := ⟨.hbm, 414, rfl⟩
abbrev main_v243 : Ref sig .tc := ⟨.hbm, 415, rfl⟩
abbrev main_v244 : Ref sig .tc := ⟨.hbm, 416, rfl⟩
abbrev main_v245 : Ref sig .tc := ⟨.hbm, 417, rfl⟩
abbrev main_v246 : Ref sig .tc := ⟨.hbm, 418, rfl⟩
abbrev main_v247 : Ref sig .tc := ⟨.hbm, 419, rfl⟩
abbrev main_v248 : Ref sig .tc := ⟨.hbm, 420, rfl⟩
abbrev main_v249 : Ref sig .tc := ⟨.hbm, 421, rfl⟩
abbrev main_v250 : Ref sig .tc := ⟨.hbm, 422, rfl⟩
abbrev main_v251 : Ref sig .tc := ⟨.hbm, 423, rfl⟩
abbrev main_v252 : Ref sig .tc := ⟨.hbm, 424, rfl⟩
abbrev main_v253 : Ref sig .tc := ⟨.hbm, 425, rfl⟩
abbrev main_v254 : Ref sig .tc := ⟨.hbm, 426, rfl⟩
abbrev main_v255 : Ref sig .tc := ⟨.hbm, 427, rfl⟩
abbrev main_v256 : Ref sig .tc := ⟨.hbm, 428, rfl⟩
abbrev main_v257 : Ref sig .tc := ⟨.hbm, 429, rfl⟩
abbrev main_v258 : Ref sig .tc := ⟨.hbm, 430, rfl⟩
abbrev main_v259 : Ref sig .tc := ⟨.hbm, 431, rfl⟩
abbrev main_v260 : Ref sig .tc := ⟨.hbm, 432, rfl⟩
abbrev main_cst_44 : Ref sig .tc := ⟨.hbm, 433, rfl⟩
abbrev main_v261 : Ref sig .tc := ⟨.hbm, 434, rfl⟩
abbrev main_cst_45 : Ref sig .tc := ⟨.hbm, 435, rfl⟩
abbrev main_v262 : Ref sig .tc := ⟨.hbm, 436, rfl⟩
abbrev main_v263 : Ref sig .tc := ⟨.hbm, 437, rfl⟩
abbrev main_c_46 : Ref sig .tc := ⟨.hbm, 438, rfl⟩
abbrev main_call10_cst : Ref sig .tc := ⟨.hbm, 439, rfl⟩
abbrev main_call10_v0 : Ref sig .tc := ⟨.hbm, 440, rfl⟩
abbrev main_call10_v1 : Ref sig .tc := ⟨.hbm, 441, rfl⟩
abbrev main_call10_cst_0 : Ref sig .tc := ⟨.hbm, 442, rfl⟩
abbrev main_call10_v2 : Ref sig .tc := ⟨.hbm, 443, rfl⟩
abbrev main_call10_v3 : Ref sig .tc := ⟨.hbm, 444, rfl⟩
abbrev main_call10_v4 : Ref sig .tc := ⟨.hbm, 445, rfl⟩
abbrev main_call10_v5 : Ref sig .tc := ⟨.hbm, 446, rfl⟩
abbrev main_call10_v6 : Ref sig .tc := ⟨.hbm, 447, rfl⟩
abbrev main_call10_v7 : Ref sig .tc := ⟨.hbm, 448, rfl⟩
abbrev main_call10_cst_1 : Ref sig .tc := ⟨.hbm, 449, rfl⟩
abbrev main_call10_v8 : Ref sig .tc := ⟨.hbm, 450, rfl⟩
abbrev main_call10_cst_2 : Ref sig .tc := ⟨.hbm, 451, rfl⟩
abbrev main_call10_v9 : Ref sig .tc := ⟨.hbm, 452, rfl⟩
abbrev main_call10_v10 : Ref sig .tc := ⟨.hbm, 453, rfl⟩
abbrev main_call10_v11 : Ref sig .tc := ⟨.hbm, 454, rfl⟩
abbrev main_call10_cst_3 : Ref sig .tc := ⟨.hbm, 455, rfl⟩
abbrev main_call10_v12 : Ref sig .tc := ⟨.hbm, 456, rfl⟩
abbrev main_call10_cst_4 : Ref sig .tc := ⟨.hbm, 457, rfl⟩
abbrev main_call10_call0_v0 : Ref sig .tc := ⟨.hbm, 458, rfl⟩
abbrev main_call10_call0_v1 : Ref sig .tc := ⟨.hbm, 459, rfl⟩
abbrev main_v264 : Ref sig .tc := ⟨.hbm, 460, rfl⟩
abbrev main_cst_47 : Ref sig .tc := ⟨.hbm, 461, rfl⟩
abbrev main_v265 : Ref sig .tc := ⟨.hbm, 462, rfl⟩
abbrev main_v266 : Ref sig .tc := ⟨.hbm, 463, rfl⟩
abbrev main_v267 : Ref sig .tc := ⟨.hbm, 464, rfl⟩
abbrev main_v268 : Ref sig .tc := ⟨.hbm, 465, rfl⟩
abbrev main_v269 : Ref sig .tc := ⟨.hbm, 466, rfl⟩
abbrev main_v270 : Ref sig .tc := ⟨.hbm, 467, rfl⟩
abbrev main_cst_48 : Ref sig .tc := ⟨.hbm, 468, rfl⟩
abbrev main_v271 : Ref sig .tc := ⟨.hbm, 469, rfl⟩
abbrev main_cst_49 : Ref sig .tc := ⟨.hbm, 470, rfl⟩
abbrev main_v272 : Ref sig .tc := ⟨.hbm, 471, rfl⟩
abbrev main_v273 : Ref sig .tc := ⟨.hbm, 472, rfl⟩
abbrev main_v274 : Ref sig .tc := ⟨.hbm, 473, rfl⟩
abbrev main_cst_50 : Ref sig .tc := ⟨.hbm, 474, rfl⟩
abbrev main_v275 : Ref sig .tc := ⟨.hbm, 475, rfl⟩
abbrev main_v276 : Ref sig .tc := ⟨.hbm, 476, rfl⟩
abbrev main_cst_51 : Ref sig .tc := ⟨.hbm, 477, rfl⟩
abbrev main_v277 : Ref sig .tc := ⟨.hbm, 478, rfl⟩
abbrev main_v278 : Ref sig .tc := ⟨.hbm, 479, rfl⟩
abbrev main_v279 : Ref sig .tc := ⟨.hbm, 480, rfl⟩
abbrev main_v280 : Ref sig .tc := ⟨.hbm, 481, rfl⟩
abbrev main_v281 : Ref sig .tc := ⟨.hbm, 482, rfl⟩
abbrev main_v282 : Ref sig .tc := ⟨.hbm, 483, rfl⟩
abbrev main_c_52 : Ref sig .tc := ⟨.hbm, 484, rfl⟩
abbrev main_v283 : Ref sig .tc := ⟨.hbm, 485, rfl⟩
abbrev main_v284 : Ref sig .tc := ⟨.hbm, 486, rfl⟩
abbrev main_c_53 : Ref sig .tc := ⟨.hbm, 487, rfl⟩
abbrev main_v285 : Ref sig .tc := ⟨.hbm, 488, rfl⟩
abbrev main_v286 : Ref sig .tc := ⟨.hbm, 489, rfl⟩
abbrev main_v287 : Ref sig .tc := ⟨.hbm, 490, rfl⟩
abbrev main_v288 : Ref sig .tc := ⟨.hbm, 491, rfl⟩
abbrev main_v289 : Ref sig .tc := ⟨.hbm, 492, rfl⟩
abbrev main_v290 : Ref sig .tc := ⟨.hbm, 493, rfl⟩
abbrev main_call11_cst : Ref sig .tc := ⟨.hbm, 494, rfl⟩
abbrev main_call11_v0 : Ref sig .tc := ⟨.hbm, 495, rfl⟩
abbrev main_v291 : Ref sig .tc := ⟨.hbm, 496, rfl⟩
abbrev main_cst_54 : Ref sig .tc := ⟨.hbm, 497, rfl⟩
abbrev main_v292 : Ref sig .tc := ⟨.hbm, 498, rfl⟩
abbrev main_v293 : Ref sig .tc := ⟨.hbm, 499, rfl⟩
abbrev main_v294 : Ref sig .tc := ⟨.hbm, 500, rfl⟩
abbrev main_v295 : Ref sig .tc := ⟨.hbm, 501, rfl⟩
abbrev main_v296 : Ref sig .tc := ⟨.hbm, 502, rfl⟩
abbrev main_v297 : Ref sig .tc := ⟨.hbm, 503, rfl⟩
abbrev main_v298 : Ref sig .tc := ⟨.hbm, 504, rfl⟩
abbrev main_v299 : Ref sig .tc := ⟨.hbm, 505, rfl⟩
abbrev main_v300 : Ref sig .tc := ⟨.hbm, 506, rfl⟩
abbrev main_v301 : Ref sig .tc := ⟨.hbm, 507, rfl⟩
abbrev main_v302 : Ref sig .tc := ⟨.hbm, 508, rfl⟩
abbrev main_v303 : Ref sig .tc := ⟨.hbm, 509, rfl⟩
abbrev main_v304 : Ref sig .tc := ⟨.hbm, 510, rfl⟩
abbrev main_v305 : Ref sig .tc := ⟨.hbm, 511, rfl⟩
abbrev main_v306 : Ref sig .tc := ⟨.hbm, 512, rfl⟩
abbrev main_v307 : Ref sig .tc := ⟨.hbm, 513, rfl⟩
abbrev main_v308 : Ref sig .tc := ⟨.hbm, 514, rfl⟩
abbrev main_v309 : Ref sig .tc := ⟨.hbm, 515, rfl⟩
abbrev main_v310 : Ref sig .tc := ⟨.hbm, 516, rfl⟩
abbrev main_cst_55 : Ref sig .tc := ⟨.hbm, 517, rfl⟩
abbrev main_v311 : Ref sig .tc := ⟨.hbm, 518, rfl⟩
abbrev main_cst_56 : Ref sig .tc := ⟨.hbm, 519, rfl⟩
abbrev main_v312 : Ref sig .tc := ⟨.hbm, 520, rfl⟩
abbrev main_v313 : Ref sig .tc := ⟨.hbm, 521, rfl⟩
abbrev main_c_57 : Ref sig .tc := ⟨.hbm, 522, rfl⟩
abbrev main_call12_cst : Ref sig .tc := ⟨.hbm, 523, rfl⟩
abbrev main_call12_v0 : Ref sig .tc := ⟨.hbm, 524, rfl⟩
abbrev main_call12_v1 : Ref sig .tc := ⟨.hbm, 525, rfl⟩
abbrev main_call12_cst_0 : Ref sig .tc := ⟨.hbm, 526, rfl⟩
abbrev main_call12_v2 : Ref sig .tc := ⟨.hbm, 527, rfl⟩
abbrev main_call12_v3 : Ref sig .tc := ⟨.hbm, 528, rfl⟩
abbrev main_call12_v4 : Ref sig .tc := ⟨.hbm, 529, rfl⟩
abbrev main_call12_v5 : Ref sig .tc := ⟨.hbm, 530, rfl⟩
abbrev main_call12_v6 : Ref sig .tc := ⟨.hbm, 531, rfl⟩
abbrev main_call12_v7 : Ref sig .tc := ⟨.hbm, 532, rfl⟩
abbrev main_call12_cst_1 : Ref sig .tc := ⟨.hbm, 533, rfl⟩
abbrev main_call12_v8 : Ref sig .tc := ⟨.hbm, 534, rfl⟩
abbrev main_call12_cst_2 : Ref sig .tc := ⟨.hbm, 535, rfl⟩
abbrev main_call12_v9 : Ref sig .tc := ⟨.hbm, 536, rfl⟩
abbrev main_call12_v10 : Ref sig .tc := ⟨.hbm, 537, rfl⟩
abbrev main_call12_v11 : Ref sig .tc := ⟨.hbm, 538, rfl⟩
abbrev main_call12_cst_3 : Ref sig .tc := ⟨.hbm, 539, rfl⟩
abbrev main_call12_v12 : Ref sig .tc := ⟨.hbm, 540, rfl⟩
abbrev main_call12_cst_4 : Ref sig .tc := ⟨.hbm, 541, rfl⟩
abbrev main_call12_call0_v0 : Ref sig .tc := ⟨.hbm, 542, rfl⟩
abbrev main_call12_call0_v1 : Ref sig .tc := ⟨.hbm, 543, rfl⟩
abbrev main_v314 : Ref sig .tc := ⟨.hbm, 544, rfl⟩
abbrev main_cst_58 : Ref sig .tc := ⟨.hbm, 545, rfl⟩
abbrev main_v315 : Ref sig .tc := ⟨.hbm, 546, rfl⟩
abbrev main_v316 : Ref sig .tc := ⟨.hbm, 547, rfl⟩
abbrev main_v317 : Ref sig .tc := ⟨.hbm, 548, rfl⟩
abbrev main_v318 : Ref sig .tc := ⟨.hbm, 549, rfl⟩
abbrev main_v319 : Ref sig .tc := ⟨.hbm, 550, rfl⟩
abbrev main_v320 : Ref sig .tc := ⟨.hbm, 551, rfl⟩
abbrev main_v321 : Ref sig .tc := ⟨.hbm, 552, rfl⟩
abbrev main_v322 : Ref sig .tc := ⟨.hbm, 553, rfl⟩
abbrev main_v323 : Ref sig .tc := ⟨.hbm, 554, rfl⟩
abbrev main_v324 : Ref sig .tc := ⟨.hbm, 555, rfl⟩
abbrev main_v325 : Ref sig .tc := ⟨.hbm, 556, rfl⟩
abbrev main_v326 : Ref sig .tc := ⟨.hbm, 557, rfl⟩
abbrev main_c_59 : Ref sig .tc := ⟨.hbm, 558, rfl⟩
abbrev main_v327 : Ref sig .tc := ⟨.hbm, 559, rfl⟩
abbrev main_v328 : Ref sig .tc := ⟨.hbm, 560, rfl⟩
abbrev main_c_60 : Ref sig .tc := ⟨.hbm, 561, rfl⟩
abbrev main_v329 : Ref sig .tc := ⟨.hbm, 562, rfl⟩
abbrev main_v330 : Ref sig .tc := ⟨.hbm, 563, rfl⟩
abbrev main_v331 : Ref sig .tc := ⟨.hbm, 564, rfl⟩
abbrev main_v332 : Ref sig .tc := ⟨.hbm, 565, rfl⟩
abbrev main_v333 : Ref sig .tc := ⟨.hbm, 566, rfl⟩
abbrev main_v334 : Ref sig .tc := ⟨.hbm, 567, rfl⟩
abbrev main_v335 : Ref sig .tc := ⟨.hbm, 568, rfl⟩
abbrev main_v336 : Ref sig .tc := ⟨.hbm, 569, rfl⟩
abbrev main_cst_61 : Ref sig .tc := ⟨.hbm, 570, rfl⟩
abbrev main_v337 : Ref sig .tc := ⟨.hbm, 571, rfl⟩
abbrev main_cst_62 : Ref sig .tc := ⟨.hbm, 572, rfl⟩
abbrev main_v338 : Ref sig .tc := ⟨.hbm, 573, rfl⟩
abbrev main_v339 : Ref sig .tc := ⟨.hbm, 574, rfl⟩
abbrev main_v340 : Ref sig .tc := ⟨.hbm, 575, rfl⟩
abbrev main_cst_63 : Ref sig .tc := ⟨.hbm, 576, rfl⟩
abbrev main_v341 : Ref sig .tc := ⟨.hbm, 577, rfl⟩
abbrev main_v342 : Ref sig .tc := ⟨.hbm, 578, rfl⟩
abbrev main_cst_64 : Ref sig .tc := ⟨.hbm, 579, rfl⟩
abbrev main_v343 : Ref sig .tc := ⟨.hbm, 580, rfl⟩
abbrev main_v344 : Ref sig .tc := ⟨.hbm, 581, rfl⟩
abbrev main_v345 : Ref sig .tc := ⟨.hbm, 582, rfl⟩
abbrev main_v346 : Ref sig .tc := ⟨.hbm, 583, rfl⟩
abbrev main_v347 : Ref sig .tc := ⟨.hbm, 584, rfl⟩
abbrev main_v348 : Ref sig .tc := ⟨.hbm, 585, rfl⟩
abbrev main_cst_65 : Ref sig .tc := ⟨.hbm, 586, rfl⟩
abbrev main_v349 : Ref sig .tc := ⟨.hbm, 587, rfl⟩
abbrev main_cst_66 : Ref sig .tc := ⟨.hbm, 588, rfl⟩
abbrev main_v350 : Ref sig .tc := ⟨.hbm, 589, rfl⟩
abbrev main_v351 : Ref sig .tc := ⟨.hbm, 590, rfl⟩
abbrev main_v352 : Ref sig .tc := ⟨.hbm, 591, rfl⟩
abbrev main_cst_67 : Ref sig .tc := ⟨.hbm, 592, rfl⟩
abbrev main_v353 : Ref sig .tc := ⟨.hbm, 593, rfl⟩
abbrev main_v354 : Ref sig .tc := ⟨.hbm, 594, rfl⟩
abbrev main_cst_68 : Ref sig .tc := ⟨.hbm, 595, rfl⟩
abbrev main_v355 : Ref sig .tc := ⟨.hbm, 596, rfl⟩
abbrev main_v356 : Ref sig .tc := ⟨.hbm, 597, rfl⟩
abbrev main_v357 : Ref sig .tc := ⟨.hbm, 598, rfl⟩
abbrev main_v358 : Ref sig .tc := ⟨.hbm, 599, rfl⟩
abbrev main_v359 : Ref sig .tc := ⟨.hbm, 600, rfl⟩
abbrev main_v360 : Ref sig .tc := ⟨.hbm, 601, rfl⟩
abbrev main_v361 : Ref sig .tc := ⟨.hbm, 602, rfl⟩
abbrev main_v362 : Ref sig .tc := ⟨.hbm, 603, rfl⟩
abbrev main_v363 : Ref sig .tc := ⟨.hbm, 604, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg5_0 : Ref sig .tc := ⟨.vmem, 46, rfl⟩
abbrev cc6_stg5_1 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg5_0 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg3_1 : Ref sig .tc := ⟨.vmem, 59, rfl⟩
abbrev cc8_stg4_0 : Ref sig .tc := ⟨.vmem, 60, rfl⟩
abbrev cc8_stg4_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg4_0 : Ref sig .tc := ⟨.vmem, 67, rfl⟩
abbrev cc9_stg5_0 : Ref sig .tc := ⟨.vmem, 68, rfl⟩
abbrev cc9_stg5_1 : Ref sig .tc := ⟨.vmem, 69, rfl⟩
abbrev cc10_stg0_0 : Ref sig .tc := ⟨.vmem, 70, rfl⟩
abbrev cc10_stg1_0 : Ref sig .tc := ⟨.vmem, 71, rfl⟩
abbrev cc10_stg2_0 : Ref sig .tc := ⟨.vmem, 72, rfl⟩
abbrev cc10_stg3_0 : Ref sig .tc := ⟨.vmem, 73, rfl⟩
abbrev cc10_stg4_0 : Ref sig .tc := ⟨.vmem, 74, rfl⟩
abbrev cc10_stg5_0 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg2_0 : Ref sig .tc := ⟨.vmem, 79, rfl⟩
abbrev cc11_stg3_0 : Ref sig .tc := ⟨.vmem, 80, rfl⟩
abbrev cc11_stg3_1 : Ref sig .tc := ⟨.vmem, 81, rfl⟩
abbrev cc11_stg4_0 : Ref sig .tc := ⟨.vmem, 82, rfl⟩
abbrev cc11_stg4_1 : Ref sig .tc := ⟨.vmem, 83, rfl⟩
abbrev cc12_stg0_0 : Ref sig .tc := ⟨.vmem, 84, rfl⟩
abbrev cc12_stg1_0 : Ref sig .tc := ⟨.vmem, 85, rfl⟩
abbrev cc12_stg2_0 : Ref sig .tc := ⟨.vmem, 86, rfl⟩
abbrev cc12_stg3_0 : Ref sig .tc := ⟨.vmem, 87, rfl⟩
abbrev cc12_stg4_0 : Ref sig .tc := ⟨.vmem, 88, rfl⟩
abbrev cc12_stg5_0 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem5_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem4_0 : DmaSem sig := 45
abbrev cc6_sem5_0 : DmaSem sig := 46
abbrev cc6_sem5_1 : DmaSem sig := 47
abbrev cc7_sem0_0 : DmaSem sig := 48
abbrev cc7_sem1_0 : DmaSem sig := 49
abbrev cc7_sem2_0 : DmaSem sig := 50
abbrev cc7_sem3_0 : DmaSem sig := 51
abbrev cc7_sem4_0 : DmaSem sig := 52
abbrev cc7_sem5_0 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc8_sem3_1 : DmaSem sig := 59
abbrev cc8_sem4_0 : DmaSem sig := 60
abbrev cc8_sem4_1 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem3_0 : DmaSem sig := 66
abbrev cc9_sem4_0 : DmaSem sig := 67
abbrev cc9_sem5_0 : DmaSem sig := 68
abbrev cc9_sem5_1 : DmaSem sig := 69
abbrev cc10_sem0_0 : DmaSem sig := 70
abbrev cc10_sem1_0 : DmaSem sig := 71
abbrev cc10_sem2_0 : DmaSem sig := 72
abbrev cc10_sem3_0 : DmaSem sig := 73
abbrev cc10_sem4_0 : DmaSem sig := 74
abbrev cc10_sem5_0 : DmaSem sig := 75
abbrev cc11_sem0_0 : DmaSem sig := 76
abbrev cc11_sem0_1 : DmaSem sig := 77
abbrev cc11_sem1_0 : DmaSem sig := 78
abbrev cc11_sem2_0 : DmaSem sig := 79
abbrev cc11_sem3_0 : DmaSem sig := 80
abbrev cc11_sem3_1 : DmaSem sig := 81
abbrev cc11_sem4_0 : DmaSem sig := 82
abbrev cc11_sem4_1 : DmaSem sig := 83
abbrev cc12_sem0_0 : DmaSem sig := 84
abbrev cc12_sem1_0 : DmaSem sig := 85
abbrev cc12_sem2_0 : DmaSem sig := 86
abbrev cc12_sem3_0 : DmaSem sig := 87
abbrev cc12_sem4_0 : DmaSem sig := 88
abbrev cc12_sem5_0 : DmaSem sig := 89

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![108], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![9], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![36], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S3072x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S3072x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev grid5 : Pipeline.Grid := ⟨1, ![18], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8192x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S8192x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![36], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4096x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S3072x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S3072x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

abbrev grid8 : Pipeline.Grid := ⟨1, ![18], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S8192x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S8192x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![36], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4096x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S3072x64 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S64x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S3072x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![true]

abbrev grid11 : Pipeline.Grid := ⟨1, ![18], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8192x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S8192x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S8192x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 1 → Memref sig .tc .vmem S64x64 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S64x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x10 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x10 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S64x10 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![true]

class Facts₀ : Prop where
  shapeCasts_S64_S1x64 : S64.ShapeCasts S1x64
  inb_S4096x16_S4096x16_0_0 : ∀ a, (![0, 0] : Fin 2 → Nat) a + S4096x16.size a ≤ S4096x16.size a
  h_S4096x16 : 0 < S4096x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  inb_S8192x8_S8192x8_0_0 : ∀ a, (![0, 0] : Fin 2 → Nat) a + S8192x8.size a ≤ S8192x8.size a
  h_S8192x8 : 0 < S8192x8.numel
  inb_S8x64_S8x64_0_0 : ∀ a, (![0, 0] : Fin 2 → Nat) a + S8x64.size a ≤ S8x64.size a
  h_S8x64 : 0 < S8x64.numel
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  inb_S2048x8_S2048x8_0_0 : ∀ a, (![0, 0] : Fin 2 → Nat) a + S2048x8.size a ≤ S2048x8.size a
  h_S2048x8 : 0 < S2048x8.numel
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  concatenates_S1_S64_S65_d0 : Shape.Concatenates [S1, S64] S65 0
  bcast_S_S147456 : S_.BroadcastsInDim S147456 (![] : Fin 0 → Fin S147456.rank)
  bcast_S147456_S147456x1_0 : S147456.BroadcastsInDim S147456x1 (![0] : Fin 1 → Fin S147456x1.rank)
  slices_S2x884736_S1x884736_0_0 : S2x884736.Slices ![0, 0] S1x884736
  shapeCasts_S1x884736_S884736 : S1x884736.ShapeCasts S884736
  slices_S2x884736_S1x884736_1_0 : S2x884736.Slices ![1, 0] S1x884736
  slices_S2x18432_S1x18432_0_0 : S2x18432.Slices ![0, 0] S1x18432
  shapeCasts_S1x18432_S18432 : S1x18432.ShapeCasts S18432
  slices_S2x18432_S1x18432_1_0 : S2x18432.Slices ![1, 0] S1x18432
  bcast_S_S884736 : S_.BroadcastsInDim S884736 (![] : Fin 0 → Fin S884736.rank)
  bcast_S884736_S884736x1_0 : S884736.BroadcastsInDim S884736x1 (![0] : Fin 1 → Fin S884736x1.rank)
  bcast_S_S884736x64 : S_.BroadcastsInDim S884736x64 (![] : Fin 0 → Fin S884736x64.rank)
  bcast_S_S147456x64 : S_.BroadcastsInDim S147456x64 (![] : Fin 0 → Fin S147456x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  shapeCasts_S128_S1x128 : S128.ShapeCasts S1x128
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reducesTo_S147456x64_S64_d0 : S147456x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S147456x64_0_1 : S1x64.BroadcastsInDim S147456x64 (![0, 1] : Fin 2 → Fin S147456x64.rank)
  bcast_S_S3072 : S_.BroadcastsInDim S3072 (![] : Fin 0 → Fin S3072.rank)
  bcast_S_S3072x64 : S_.BroadcastsInDim S3072x64 (![] : Fin 0 → Fin S3072x64.rank)
  bcast_S3072_S3072x1_0 : S3072.BroadcastsInDim S3072x1 (![0] : Fin 1 → Fin S3072x1.rank)
  bcast_S3072x1_S3072x64_0_1 : S3072x1.BroadcastsInDim S3072x64 (![0, 1] : Fin 2 → Fin S3072x64.rank)
  bcast_S_S18432 : S_.BroadcastsInDim S18432 (![] : Fin 0 → Fin S18432.rank)
  bcast_S18432_S18432x1_0 : S18432.BroadcastsInDim S18432x1 (![0] : Fin 1 → Fin S18432x1.rank)
  bcast_S_S18432x64 : S_.BroadcastsInDim S18432x64 (![] : Fin 0 → Fin S18432x64.rank)
  inb_S3072x64_S3072x64_0_0 : ∀ a, (![0, 0] : Fin 2 → Nat) a + S3072x64.size a ≤ S3072x64.size a
  h_S3072x64 : 0 < S3072x64.numel
  shapeCasts_S3072x64_S3072x64 : S3072x64.ShapeCasts S3072x64
  broadcasts_S1x128_S3072x128 : S1x128.Broadcasts S3072x128
  broadcasts_S1x64_S3072x64 : S1x64.Broadcasts S3072x64
  reducesTo_S3072x64_S64_d0 : S3072x64.ReducesTo [0] S64
  bcast_S1x64_S3072x64_0_1 : S1x64.BroadcastsInDim S3072x64 (![0, 1] : Fin 2 → Fin S3072x64.rank)
  shapeCasts_S8192x64_S8192x64 : S8192x64.ShapeCasts S8192x64
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3x64_S1x64_1_0 : S3x64.Slices ![1, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  slices_S3x64_S1x64_2_0 : S3x64.Slices ![2, 0] S1x64
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S10_S1x10 : S10.ShapeCasts S1x10
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x128_S64x128 : S1x128.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S4096x16_S16x64_S4096x64_1_0_0_1_n_n_wf : DotDims.WF S4096x16 S16x64 S4096x64 [1] [0] [0] [1] [] []
  dot_S8192x8_S8x64_S8192x64_1_0_0_1_n_n_wf : DotDims.WF S8192x8 S8x64 S8192x64 [1] [0] [0] [1] [] []
  dot_S2048x8_S8x64_S2048x64_1_0_0_1_n_n_wf : DotDims.WF S2048x8 S8x64 S2048x64 [1] [0] [0] [1] [] []
  gather_S65_S147456x1_S147456_n_0_n_n_0_1_1_wf : GatherDims.WF S65 S147456x1 S147456 [] [0] [] [0] [] 1 ![1]
  gather_S147456x64_S884736x1_S884736x64_1_0_n_n_0_1_164_wf : GatherDims.WF S147456x64 S884736x1 S884736x64 [1] [0] [] [0] [] 1 ![1, 64]
  scatter_S147456x64_S884736x1_S884736x64_1_0_0_1_wf : ScatterDims.WF S147456x64 S884736x1 S884736x64 [1] [0] [0] 1
  dot_S4096x64_S64x128_S4096x128_1_0_0_1_n_n_wf : DotDims.WF S4096x64 S64x128 S4096x128 [1] [0] [0] [1] [] []
  dot_S4096x128_S128x64_S4096x64_1_0_0_1_n_n_wf : DotDims.WF S4096x128 S128x64 S4096x64 [1] [0] [0] [1] [] []
  scatter_S3072_S147456x1_S147456_n_0_0_1_wf : ScatterDims.WF S3072 S147456x1 S147456 [] [0] [0] 1
  scatter_S3072x64_S147456x1_S147456x64_1_0_0_1_wf : ScatterDims.WF S3072x64 S147456x1 S147456x64 [1] [0] [0] 1
  gather_S3072x64_S18432x1_S18432x64_1_0_n_n_0_1_164_wf : GatherDims.WF S3072x64 S18432x1 S18432x64 [1] [0] [] [0] [] 1 ![1, 64]
  scatter_S3072x64_S18432x1_S18432x64_1_0_0_1_wf : ScatterDims.WF S3072x64 S18432x1 S18432x64 [1] [0] [0] 1
  dot_S3072x64_S64x128_S3072x128_1_0_0_1_n_n_wf : DotDims.WF S3072x64 S64x128 S3072x128 [1] [0] [0] [1] [] []
  dot_S3072x128_S128x64_S3072x64_1_0_0_1_n_n_wf : DotDims.WF S3072x128 S128x64 S3072x64 [1] [0] [0] [1] [] []
  gather_S3072x64_S147456x1_S147456x64_1_0_n_n_0_1_164_wf : GatherDims.WF S3072x64 S147456x1 S147456x64 [1] [0] [] [0] [] 1 ![1, 64]
  scatter_S64_S3072x1_S3072_n_0_0_1_wf : ScatterDims.WF S64 S3072x1 S3072 [] [0] [0] 1
  scatter_S64x64_S3072x1_S3072x64_1_0_0_1_wf : ScatterDims.WF S64x64 S3072x1 S3072x64 [1] [0] [0] 1
  dot_S64x64_S64x128_S64x128_1_0_0_1_n_n_wf : DotDims.WF S64x64 S64x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S147456x16.size a
  hwx0_0 : ∀ i : grid0.Coords, EltTy.bits .f32 = 32 ∨ (Rect.block (s := S147456x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S147456x64.size a
  hwx0_3 : ∀ i : grid0.Coords, EltTy.bits .f32 = 32 ∨ (Rect.block (s := S147456x64) S4096x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x8.size a ≤ S884736x8.size a
  hwx1_0 : ∀ i : grid1.Coords, EltTy.bits .f32 = 32 ∨ (Rect.block (s := S884736x8) S8192x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S8x64.size a
  hwx1_1 : ∀ i : grid1.Coords, EltTy.bits .f32 = 32 ∨ (Rect.block (s := S8x64) S8x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S884736x64.size a
  hwx1_3 : ∀ i : grid1.Coords, EltTy.bits .f32 = 32 ∨ (Rect.block (s := S884736x64) S8192x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x8.size a ≤ S18432x8.size a
  hwx2_0 : ∀ i : grid2.Coords, EltTy.bits .f32 = 32 ∨ (Rect.block (s := S18432x8) S2048x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x64.size a ≤ S8x64.size a
  hwx2_1 : ∀ i : grid2.Coords, EltTy.bits .f32 = 32 ∨ (Rect.block (s := S8x64) S8x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S18432x64.size a
  hwx2_3 : ∀ i : grid2.Coords, EltTy.bits .f32 = 32 ∨ (Rect.block (s := S18432x64) S2048x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S147456x64.size a
  hwx3_0 : ∀ i : grid3.Coords, EltTy.bits .f32 = 32 ∨ (Rect.block (s := S147456x64) S4096x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x64.size a ≤ S147456x64.size a
  hwx3_5 : ∀ i : grid3.Coords, EltTy.bits .f32 = 32 ∨ (Rect.block (s := S147456x64) S4096x64.size (cc3_transform_5 i) (hinb3_5 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S3072x64.size a ≤ S3072x64.size a
  hwx4_0 : ∀ i : grid4.Coords, EltTy.bits .f32 = 32 ∨ (Rect.block (s := S3072x64) S3072x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 1
  hreads4_5 : ∀ i i' : grid4.Coords, (∀ a, reads4_5 a = true → i a = i' a) → cc4_transform_5 i = cc4_transform_5 i'
  hinb4_5 : ∀ (i : grid4.Coords) a, (cc4_transform_5 i a + 1) * S3072x64.size a ≤ S3072x64.size a
  hwx4_5 : ∀ i : grid4.Coords, EltTy.bits .f32 = 32 ∨ (Rect.block (s := S3072x64) S3072x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S147456x64.size a
  hwx5_0 : ∀ i : grid5.Coords, EltTy.bits .f32 = 32 ∨ (Rect.block (s := S147456x64) S8192x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8192x64.size a ≤ S147456x64.size a
  hwx5_3 : ∀ i : grid5.Coords, EltTy.bits .f32 = 32 ∨ (Rect.block (s := S147456x64) S8192x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8192x64.size a ≤ S147456x64.size a
  hwx5_4 : ∀ i : grid5.Coords, EltTy.bits .f32 = 32 ∨ (Rect.block (s := S147456x64) S8192x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S147456x64.size a
  hwx6_0 : ∀ i : grid6.Coords, EltTy.bits .f32 = 32 ∨ (Rect.block (s := S147456x64) S4096x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4096x64.size a ≤ S147456x64.size a
  hwx6_5 : ∀ i : grid6.Coords, EltTy.bits .f32 = 32 ∨ (Rect.block (s := S147456x64) S4096x64.size (cc6_transform_5 i) (hinb6_5 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S3072x64.size a ≤ S3072x64.size a
  hwx7_0 : ∀ i : grid7.Coords, EltTy.bits .f32 = 32 ∨ (Rect.block (s := S3072x64) S3072x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x128.size a ≤ S64x128.size a
  hwx7_1 : ∀ i : grid7.Coords, EltTy.bits .f32 = 32 ∨ (Rect.block (s := S64x128) S64x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x64.size a ≤ S128x64.size a
  hwx7_3 : ∀ i : grid7.Coords, EltTy.bits .f32 = 32 ∨ (Rect.block (s := S128x64) S128x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 1
  hreads7_5 : ∀ i i' : grid7.Coords, (∀ a, reads7_5 a = true → i a = i' a) → cc7_transform_5 i = cc7_transform_5 i'
  hinb7_5 : ∀ (i : grid7.Coords) a, (cc7_transform_5 i a + 1) * S3072x64.size a ≤ S3072x64.size a
  hwx7_5 : ∀ i : grid7.Coords, EltTy.bits .f32 = 32 ∨ (Rect.block (s := S3072x64) S3072x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8192x64.size a ≤ S147456x64.size a
  hwx8_0 : ∀ i : grid8.Coords, EltTy.bits .f32 = 32 ∨ (Rect.block (s := S147456x64) S8192x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8192x64.size a ≤ S147456x64.size a
  hwx8_3 : ∀ i : grid8.Coords, EltTy.bits .f32 = 32 ∨ (Rect.block (s := S147456x64) S8192x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S8192x64.size a ≤ S147456x64.size a
  hwx8_4 : ∀ i : grid8.Coords, EltTy.bits .f32 = 32 ∨ (Rect.block (s := S147456x64) S8192x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x64.size a ≤ S147456x64.size a
  hwx9_0 : ∀ i : grid9.Coords, EltTy.bits .f32 = 32 ∨ (Rect.block (s := S147456x64) S4096x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x128.size a ≤ S64x128.size a
  hwx9_1 : ∀ i : grid9.Coords, EltTy.bits .f32 = 32 ∨ (Rect.block (s := S64x128) S64x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x64.size a ≤ S128x64.size a
  hwx9_3 : ∀ i : grid9.Coords, EltTy.bits .f32 = 32 ∨ (Rect.block (s := S128x64) S128x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4096x64.size a ≤ S147456x64.size a
  hwx9_5 : ∀ i : grid9.Coords, EltTy.bits .f32 = 32 ∨ (Rect.block (s := S147456x64) S4096x64.size (cc9_transform_5 i) (hinb9_5 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S3072x64.size a ≤ S3072x64.size a
  hwx10_0 : ∀ i : grid10.Coords, EltTy.bits .f32 = 32 ∨ (Rect.block (s := S3072x64) S3072x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x128.size a ≤ S64x128.size a
  hwx10_1 : ∀ i : grid10.Coords, EltTy.bits .f32 = 32 ∨ (Rect.block (s := S64x128) S64x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x64.size a ≤ S128x64.size a
  hwx10_3 : ∀ i : grid10.Coords, EltTy.bits .f32 = 32 ∨ (Rect.block (s := S128x64) S128x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 1
  hreads10_5 : ∀ i i' : grid10.Coords, (∀ a, reads10_5 a = true → i a = i' a) → cc10_transform_5 i = cc10_transform_5 i'
  hinb10_5 : ∀ (i : grid10.Coords) a, (cc10_transform_5 i a + 1) * S3072x64.size a ≤ S3072x64.size a
  hwx10_5 : ∀ i : grid10.Coords, EltTy.bits .f32 = 32 ∨ (Rect.block (s := S3072x64) S3072x64.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8192x64.size a ≤ S147456x64.size a
  hwx11_0 : ∀ i : grid11.Coords, EltTy.bits .f32 = 32 ∨ (Rect.block (s := S147456x64) S8192x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S8192x64.size a ≤ S147456x64.size a
  hwx11_3 : ∀ i : grid11.Coords, EltTy.bits .f32 = 32 ∨ (Rect.block (s := S147456x64) S8192x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S8192x64.size a ≤ S147456x64.size a
  hwx11_4 : ∀ i : grid11.Coords, EltTy.bits .f32 = 32 ∨ (Rect.block (s := S147456x64) S8192x64.size (cc11_transform_4 i) (hinb11_4 i)).WholeWords (EltTy.packing .f32)
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S64x64.size a ≤ S64x64.size a
  hwx12_0 : ∀ i : grid12.Coords, EltTy.bits .f32 = 32 ∨ (Rect.block (s := S64x64) S64x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x128.size a ≤ S64x128.size a
  hwx12_1 : ∀ i : grid12.Coords, EltTy.bits .f32 = 32 ∨ (Rect.block (s := S64x128) S64x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x10.size a ≤ S128x10.size a
  hwx12_3 : ∀ i : grid12.Coords, EltTy.bits .f32 = 32 ∨ (Rect.block (s := S128x10) S128x10.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x10.size a ≤ S1x10.size a
  hwx12_4 : ∀ i : grid12.Coords, EltTy.bits .f32 = 32 ∨ (Rect.block (s := S1x10) S1x10.size (cc12_transform_4 i) (hinb12_4 i)).WholeWords (EltTy.packing .f32)
  hstage12_5 : ∀ j, (stage12_5 j).IsWhole
  nbuf12_5 : grid12.bufCount reads12_5 false = 1
  hreads12_5 : ∀ i i' : grid12.Coords, (∀ a, reads12_5 a = true → i a = i' a) → cc12_transform_5 i = cc12_transform_5 i'
  hinb12_5 : ∀ (i : grid12.Coords) a, (cc12_transform_5 i a + 1) * S64x10.size a ≤ S64x10.size a
  hwx12_5 : ∀ i : grid12.Coords, EltTy.bits .f32 = 32 ∨ (Rect.block (s := S64x10) S64x10.size (cc12_transform_5 i) (hinb12_5 i)).WholeWords (EltTy.packing .f32)

variable [Facts₀]

def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf
def dot_S8192x8_S8x64_S8192x64_1_0_0_1_n_n : DotDims S8192x8 S8x64 S8192x64 where
  lhsContracting := [1]
  rhsContracting := [0]
  lhsNonContracting := [0]
  rhsNonContracting := [1]
  lhsBatch := []
  rhsBatch := []
  wf := dot_S8192x8_S8x64_S8192x64_1_0_0_1_n_n_wf
def dot_S2048x8_S8x64_S2048x64_1_0_0_1_n_n : DotDims S2048x8 S8x64 S2048x64 where
  lhsContracting := [1]
  rhsContracting := [0]
  lhsNonContracting := [0]
  rhsNonContracting := [1]
  lhsBatch := []
  rhsBatch := []
  wf := dot_S2048x8_S8x64_S2048x64_1_0_0_1_n_n_wf
def gather_S65_S147456x1_S147456_n_0_n_n_0_1_1 : GatherDims S65 S147456x1 S147456 where
  offsetDims := []
  collapsedSliceDims := [0]
  operandBatchingDims := []
  startIndicesBatchingDims := []
  startIndexMap := [0]
  indexVectorDim := 1
  sliceSizes := ![1]
  wf := gather_S65_S147456x1_S147456_n_0_n_n_0_1_1_wf
def gather_S147456x64_S884736x1_S884736x64_1_0_n_n_0_1_164 : GatherDims S147456x64 S884736x1 S884736x64 where
  offsetDims := [1]
  collapsedSliceDims := [0]
  operandBatchingDims := []
  startIndicesBatchingDims := []
  startIndexMap := [0]
  indexVectorDim := 1
  sliceSizes := ![1, 64]
  wf := gather_S147456x64_S884736x1_S884736x64_1_0_n_n_0_1_164_wf
def scatter_S147456x64_S884736x1_S884736x64_1_0_0_1 : ScatterDims S147456x64 S884736x1 S884736x64 where
  updateWindowDims := [1]
  insertedWindowDims := [0]
  scatterDimsToOperandDims := [0]
  indexVectorDim := 1
  wf := scatter_S147456x64_S884736x1_S884736x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def scatter_S3072_S147456x1_S147456_n_0_0_1 : ScatterDims S3072 S147456x1 S147456 where
  updateWindowDims := []
  insertedWindowDims := [0]
  scatterDimsToOperandDims := [0]
  indexVectorDim := 1
  wf := scatter_S3072_S147456x1_S147456_n_0_0_1_wf
def scatter_S3072x64_S147456x1_S147456x64_1_0_0_1 : ScatterDims S3072x64 S147456x1 S147456x64 where
  updateWindowDims := [1]
  insertedWindowDims := [0]
  scatterDimsToOperandDims := [0]
  indexVectorDim := 1
  wf := scatter_S3072x64_S147456x1_S147456x64_1_0_0_1_wf
def gather_S3072x64_S18432x1_S18432x64_1_0_n_n_0_1_164 : GatherDims S3072x64 S18432x1 S18432x64 where
  offsetDims := [1]
  collapsedSliceDims := [0]
  operandBatchingDims := []
  startIndicesBatchingDims := []
  startIndexMap := [0]
  indexVectorDim := 1
  sliceSizes := ![1, 64]
  wf := gather_S3072x64_S18432x1_S18432x64_1_0_n_n_0_1_164_wf
def scatter_S3072x64_S18432x1_S18432x64_1_0_0_1 : ScatterDims S3072x64 S18432x1 S18432x64 where
  updateWindowDims := [1]
  insertedWindowDims := [0]
  scatterDimsToOperandDims := [0]
  indexVectorDim := 1
  wf := scatter_S3072x64_S18432x1_S18432x64_1_0_0_1_wf
def dot_S3072x64_S64x128_S3072x128_1_0_0_1_n_n : DotDims S3072x64 S64x128 S3072x128 where
  lhsContracting := [1]
  rhsContracting := [0]
  lhsNonContracting := [0]
  rhsNonContracting := [1]
  lhsBatch := []
  rhsBatch := []
  wf := dot_S3072x64_S64x128_S3072x128_1_0_0_1_n_n_wf
def dot_S3072x128_S128x64_S3072x64_1_0_0_1_n_n : DotDims S3072x128 S128x64 S3072x64 where
  lhsContracting := [1]
  rhsContracting := [0]
  lhsNonContracting := [0]
  rhsNonContracting := [1]
  lhsBatch := []
  rhsBatch := []
  wf := dot_S3072x128_S128x64_S3072x64_1_0_0_1_n_n_wf
def gather_S3072x64_S147456x1_S147456x64_1_0_n_n_0_1_164 : GatherDims S3072x64 S147456x1 S147456x64 where
  offsetDims := [1]
  collapsedSliceDims := [0]
  operandBatchingDims := []
  startIndicesBatchingDims := []
  startIndexMap := [0]
  indexVectorDim := 1
  sliceSizes := ![1, 64]
  wf := gather_S3072x64_S147456x1_S147456x64_1_0_n_n_0_1_164_wf
def scatter_S64_S3072x1_S3072_n_0_0_1 : ScatterDims S64 S3072x1 S3072 where
  updateWindowDims := []
  insertedWindowDims := [0]
  scatterDimsToOperandDims := [0]
  indexVectorDim := 1
  wf := scatter_S64_S3072x1_S3072_n_0_0_1_wf
def scatter_S64x64_S3072x1_S3072x64_1_0_0_1 : ScatterDims S64x64 S3072x1 S3072x64 where
  updateWindowDims := [1]
  insertedWindowDims := [0]
  scatterDimsToOperandDims := [0]
  indexVectorDim := 1
  wf := scatter_S64x64_S3072x1_S3072x64_1_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8192x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S8x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8192x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S2048x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S8x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S4096x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v87) S3072x64.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v89) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S3072x64.size cc4_transform_5 reads4_5 true false 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v48) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v126) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v127) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v125) S8192x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v128) S8192x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v141) S4096x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v143) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v150) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v147) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v151) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v152) S4096x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v191) S3072x64.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v193) S64x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v200) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v197) S128x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v201) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v202) S3072x64.size cc7_transform_5 reads7_5 true false 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v152) S8192x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v230) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v231) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v229) S8192x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v232) S8192x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v245) S4096x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v247) S64x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v254) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v251) S128x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v255) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v256) S4096x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v295) S3072x64.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v297) S64x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v304) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v301) S128x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v305) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v306) S3072x64.size cc10_transform_5 reads10_5 true false 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v256) S8192x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v334) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v335) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v333) S8192x64.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v336) S8192x64.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v360) S64x64.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_arg19) S64x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v361) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg21) S128x10.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v362) S1x10.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v363) S64x10.size cc12_transform_5 reads12_5 true false 1 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S147456x16 : Shape := ⟨2, ![147456, 16]⟩
abbrev S884736x8 : Shape := ⟨2, ![884736, 8]⟩
abbrev S18432x8 : Shape := ⟨2, ![18432, 8]⟩
abbrev S16x64 : Shape := ⟨2, ![16, 64]⟩
abbrev S64 : Shape := ⟨1, ![64]⟩
abbrev S8x64 : Shape := ⟨2, ![8, 64]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S2x884736 : Shape := ⟨2, ![2, 884736]⟩
abbrev S2x18432 : Shape := ⟨2, ![2, 18432]⟩
abbrev S147456 : Shape := ⟨1, ![147456]⟩
abbrev S3072 : Shape := ⟨1, ![3072]⟩
abbrev S147456x64 : Shape := ⟨2, ![147456, 64]⟩
abbrev S1x64 : Shape := ⟨2, ![1, 64]⟩
abbrev S884736x64 : Shape := ⟨2, ![884736, 64]⟩
abbrev S18432x64 : Shape := ⟨2, ![18432, 64]⟩
abbrev S_ : Shape := ⟨0, ![]⟩
abbrev S1 : Shape := ⟨1, ![1]⟩
abbrev S65 : Shape := ⟨1, ![65]⟩
abbrev S147456x1 : Shape := ⟨2, ![147456, 1]⟩
abbrev S1x64x128 : Shape := ⟨3, ![1, 64, 128]⟩
abbrev S1x128 : Shape := ⟨2, ![1, 128]⟩
abbrev S1x128x64 : Shape := ⟨3, ![1, 128, 64]⟩
abbrev S128x64 : Shape := ⟨2, ![128, 64]⟩
abbrev S1x884736 : Shape := ⟨2, ![1, 884736]⟩
abbrev S884736 : Shape := ⟨1, ![884736]⟩
abbrev S884736x1 : Shape := ⟨2, ![884736, 1]⟩
abbrev S147456x128 : Shape := ⟨2, ![147456, 128]⟩
abbrev S3072x64 : Shape := ⟨2, ![3072, 64]⟩
abbrev S3072x1 : Shape := ⟨2, ![3072, 1]⟩
abbrev S1x18432 : Shape := ⟨2, ![1, 18432]⟩
abbrev S18432 : Shape := ⟨1, ![18432]⟩
abbrev S18432x1 : Shape := ⟨2, ![18432, 1]⟩
abbrev S3072x128 : Shape := ⟨2, ![3072, 128]⟩
abbrev S64x64 : Shape := ⟨2, ![64, 64]⟩
abbrev S64x1 : Shape := ⟨2, ![64, 1]⟩
abbrev S64x10 : Shape := ⟨2, ![64, 10]⟩
abbrev S1x10 : Shape := ⟨2, ![1, 10]⟩

abbrev nBuf : Space → Nat
  | .hbm => 722
  | .vmem => 0
  | .smem => 0
  | _ => 0

abbrev hbmTy0_0 (i : Nat) : BufTy := match i % 128 with
  | 0 => ⟨S147456x16, .f32⟩
  | 1 => ⟨S884736x8, .f32⟩
  | 2 => ⟨S18432x8, .f32⟩
  | 3 => ⟨S16x64, .f32⟩
  | 4 => ⟨S64, .f32⟩
  | 5 => ⟨S8x64, .f32⟩
  | 6 => ⟨S64, .f32⟩
  | 7 => ⟨S3x64x128, .f32⟩
  | 8 => ⟨S3x128, .f32⟩
  | 9 => ⟨S3x128x64, .f32⟩
  | 10 => ⟨S3x64, .f32⟩
  | 11 => ⟨S3x64, .f32⟩
  | 12 => ⟨S3x64, .f32⟩
  | 13 => ⟨S3x64x128, .f32⟩
  | 14 => ⟨S3x128, .f32⟩
  | 15 => ⟨S3x128x64, .f32⟩
  | 16 => ⟨S3x64, .f32⟩
  | 17 => ⟨S3x64, .f32⟩
  | 18 => ⟨S3x64, .f32⟩
  | 19 => ⟨S64x128, .f32⟩
  | 20 => ⟨S128, .f32⟩
  | 21 => ⟨S128x10, .f32⟩
  | 22 => ⟨S10, .f32⟩
  | 23 => ⟨S2x884736, .i32⟩
  | 24 => ⟨S2x18432, .i32⟩
  | 25 => ⟨S147456, .i32⟩
  | 26 => ⟨S147456, .i32⟩
  | 27 => ⟨S64, .i32⟩
  | 28 => ⟨S147456, .i32⟩
  | 29 => ⟨S3072, .i32⟩
  | 30 => ⟨S147456x64, .f32⟩
  | 31 => ⟨S1x64, .f32⟩
  | 32 => ⟨S147456x64, .f32⟩
  | 33 => ⟨S147456x64, .f32⟩
  | 34 => ⟨S884736x64, .f32⟩
  | 35 => ⟨S1x64, .f32⟩
  | 36 => ⟨S884736x64, .f32⟩
  | 37 => ⟨S884736x64, .f32⟩
  | 38 => ⟨S18432x64, .f32⟩
  | 39 => ⟨S1x64, .f32⟩
  | 40 => ⟨S18432x64, .f32⟩
  | 41 => ⟨S18432x64, .f32⟩
  | 42 => ⟨S_, .i32⟩
  | 43 => ⟨S1, .i32⟩
  | 44 => ⟨S_, .i32⟩
  | 45 => ⟨S_, .i32⟩
  | 46 => ⟨S64, .i32⟩
  | 47 => ⟨S65, .i32⟩
  | 48 => ⟨S_, .i32⟩
  | 49 => ⟨S147456, .i32⟩
  | 50 => ⟨S147456, .i1⟩
  | 51 => ⟨S_, .i32⟩
  | 52 => ⟨S147456, .i32⟩
  | 53 => ⟨S147456, .i32⟩
  | 54 => ⟨S147456, .i32⟩
  | 55 => ⟨S147456x1, .i32⟩
  | 56 => ⟨S147456, .i32⟩
  | 57 => ⟨S147456, .i32⟩
  | 58 => ⟨S1x64x128, .f32⟩
  | 59 => ⟨S64x128, .f32⟩
  | 60 => ⟨S1x128, .f32⟩
  | 61 => ⟨S128, .f32⟩
  | 62 => ⟨S1x128x64, .f32⟩
  | 63 => ⟨S128x64, .f32⟩
  | 64 => ⟨S1x64, .f32⟩
  | 65 => ⟨S64, .f32⟩
  | 66 => ⟨S1x884736, .i32⟩
  | 67 => ⟨S884736, .i32⟩
  | 68 => ⟨S_, .i32⟩
  | 69 => ⟨S884736, .i32⟩
  | 70 => ⟨S884736, .i1⟩
  | 71 => ⟨S_, .i32⟩
  | 72 => ⟨S884736, .i32⟩
  | 73 => ⟨S884736, .i32⟩
  | 74 => ⟨S884736, .i32⟩
  | 75 => ⟨S884736x1, .i32⟩
  | 76 => ⟨S884736x64, .f32⟩
  | 77 => ⟨S884736x64, .f32⟩
  | 78 => ⟨S_, .f32⟩
  | 79 => ⟨S884736x64, .f32⟩
  | 80 => ⟨S884736x64, .f32⟩
  | 81 => ⟨S1x884736, .i32⟩
  | 82 => ⟨S884736, .i32⟩
  | 83 => ⟨S_, .f32⟩
  | 84 => ⟨S147456x64, .f32⟩
  | 85 => ⟨S884736x1, .i32⟩
  | 86 => ⟨S147456x64, .f32⟩
  | 87 => ⟨S147456x64, .f32⟩
  | 88 => ⟨S147456x128, .f32⟩
  | 89 => ⟨S1x128, .f32⟩
  | 90 => ⟨S147456x128, .f32⟩
  | 91 => ⟨S147456x128, .f32⟩
  | 92 => ⟨S_, .f32⟩
  | 93 => ⟨S147456x128, .f32⟩
  | 94 => ⟨S147456x128, .f32⟩
  | 95 => ⟨S147456x64, .f32⟩
  | 96 => ⟨S1x64, .f32⟩
  | 97 => ⟨S147456x64, .f32⟩
  | 98 => ⟨S147456x64, .f32⟩
  | 99 => ⟨S1x64, .f32⟩
  | 100 => ⟨S64, .f32⟩
  | 101 => ⟨S1x64, .f32⟩
  | 102 => ⟨S64, .f32⟩
  | 103 => ⟨S_, .f32⟩
  | 104 => ⟨S64, .f32⟩
  | 105 => ⟨S_, .f32⟩
  | 106 => ⟨S64, .f32⟩
  | 107 => ⟨S64, .f32⟩
  | 108 => ⟨S_, .i32⟩
  | 109 => ⟨S_, .f32⟩
  | 110 => ⟨S64, .f32⟩
  | 111 => ⟨S1x64, .f32⟩
  | 112 => ⟨S_, .f32⟩
  | 113 => ⟨S1x64, .f32⟩
  | 114 => ⟨S1x64, .f32⟩
  | 115 => ⟨S147456x64, .f32⟩
  | 116 => ⟨S147456x64, .f32⟩
  | 117 => ⟨S147456x64, .f32⟩
  | 118 => ⟨S_, .f32⟩
  | 119 => ⟨S_, .f32⟩
  | 120 => ⟨S_, .f32⟩
  | 121 => ⟨S_, .f32⟩
  | 122 => ⟨S64, .f32⟩
  | 123 => ⟨S64, .f32⟩
  | 124 => ⟨S64, .f32⟩
  | 125 => ⟨S_, .f32⟩
  | 126 => ⟨S_, .i1⟩
  | 127 => ⟨S_, .f32⟩
  | _ => ⟨S147456x16, .f32⟩

abbrev hbmTy0_1 (i : Nat) : BufTy := match i % 128 with
  | 0 => ⟨S_, .f32⟩
  | 1 => ⟨S64, .f32⟩
  | 2 => ⟨S64, .f32⟩
  | 3 => ⟨S1x64, .f32⟩
  | 4 => ⟨S147456x64, .f32⟩
  | 5 => ⟨S147456x64, .f32⟩
  | 6 => ⟨S_, .f32⟩
  | 7 => ⟨S64, .f32⟩
  | 8 => ⟨S64, .f32⟩
  | 9 => ⟨S64, .f32⟩
  | 10 => ⟨S1x64, .f32⟩
  | 11 => ⟨S147456x64, .f32⟩
  | 12 => ⟨S147456x64, .f32⟩
  | 13 => ⟨S1x64, .f32⟩
  | 14 => ⟨S147456x64, .f32⟩
  | 15 => ⟨S147456x64, .f32⟩
  | 16 => ⟨S1x64, .f32⟩
  | 17 => ⟨S147456x64, .f32⟩
  | 18 => ⟨S147456x64, .f32⟩
  | 19 => ⟨S_, .f32⟩
  | 20 => ⟨S147456, .f32⟩
  | 21 => ⟨S_, .f32⟩
  | 22 => ⟨S3072, .f32⟩
  | 23 => ⟨S147456x1, .i32⟩
  | 24 => ⟨S3072, .f32⟩
  | 25 => ⟨S_, .f32⟩
  | 26 => ⟨S3072, .f32⟩
  | 27 => ⟨S3072, .f32⟩
  | 28 => ⟨S_, .f32⟩
  | 29 => ⟨S3072x64, .f32⟩
  | 30 => ⟨S147456x1, .i32⟩
  | 31 => ⟨S3072x64, .f32⟩
  | 32 => ⟨S3072x1, .f32⟩
  | 33 => ⟨S3072x64, .f32⟩
  | 34 => ⟨S3072x64, .f32⟩
  | 35 => ⟨S1x64x128, .f32⟩
  | 36 => ⟨S64x128, .f32⟩
  | 37 => ⟨S1x128, .f32⟩
  | 38 => ⟨S128, .f32⟩
  | 39 => ⟨S1x128x64, .f32⟩
  | 40 => ⟨S128x64, .f32⟩
  | 41 => ⟨S1x64, .f32⟩
  | 42 => ⟨S64, .f32⟩
  | 43 => ⟨S1x18432, .i32⟩
  | 44 => ⟨S18432, .i32⟩
  | 45 => ⟨S_, .i32⟩
  | 46 => ⟨S18432, .i32⟩
  | 47 => ⟨S18432, .i1⟩
  | 48 => ⟨S_, .i32⟩
  | 49 => ⟨S18432, .i32⟩
  | 50 => ⟨S18432, .i32⟩
  | 51 => ⟨S18432, .i32⟩
  | 52 => ⟨S18432x1, .i32⟩
  | 53 => ⟨S18432x64, .f32⟩
  | 54 => ⟨S18432x64, .f32⟩
  | 55 => ⟨S_, .f32⟩
  | 56 => ⟨S18432x64, .f32⟩
  | 57 => ⟨S18432x64, .f32⟩
  | 58 => ⟨S1x18432, .i32⟩
  | 59 => ⟨S18432, .i32⟩
  | 60 => ⟨S_, .f32⟩
  | 61 => ⟨S3072x64, .f32⟩
  | 62 => ⟨S18432x1, .i32⟩
  | 63 => ⟨S3072x64, .f32⟩
  | 64 => ⟨S3072x64, .f32⟩
  | 65 => ⟨S3072x128, .f32⟩
  | 66 => ⟨S1x128, .f32⟩
  | 67 => ⟨S3072x128, .f32⟩
  | 68 => ⟨S3072x128, .f32⟩
  | 69 => ⟨S_, .f32⟩
  | 70 => ⟨S3072x128, .f32⟩
  | 71 => ⟨S3072x128, .f32⟩
  | 72 => ⟨S3072x64, .f32⟩
  | 73 => ⟨S1x64, .f32⟩
  | 74 => ⟨S3072x64, .f32⟩
  | 75 => ⟨S3072x64, .f32⟩
  | 76 => ⟨S1x64, .f32⟩
  | 77 => ⟨S64, .f32⟩
  | 78 => ⟨S1x64, .f32⟩
  | 79 => ⟨S64, .f32⟩
  | 80 => ⟨S_, .f32⟩
  | 81 => ⟨S64, .f32⟩
  | 82 => ⟨S_, .f32⟩
  | 83 => ⟨S64, .f32⟩
  | 84 => ⟨S64, .f32⟩
  | 85 => ⟨S_, .i32⟩
  | 86 => ⟨S_, .f32⟩
  | 87 => ⟨S64, .f32⟩
  | 88 => ⟨S1x64, .f32⟩
  | 89 => ⟨S_, .f32⟩
  | 90 => ⟨S1x64, .f32⟩
  | 91 => ⟨S1x64, .f32⟩
  | 92 => ⟨S3072x64, .f32⟩
  | 93 => ⟨S3072x64, .f32⟩
  | 94 => ⟨S3072x64, .f32⟩
  | 95 => ⟨S_, .f32⟩
  | 96 => ⟨S_, .f32⟩
  | 97 => ⟨S_, .f32⟩
  | 98 => ⟨S_, .f32⟩
  | 99 => ⟨S64, .f32⟩
  | 100 => ⟨S64, .f32⟩
  | 101 => ⟨S64, .f32⟩
  | 102 => ⟨S_, .f32⟩
  | 103 => ⟨S_, .i1⟩
  | 104 => ⟨S_, .f32⟩
  | 105 => ⟨S_, .f32⟩
  | 106 => ⟨S64, .f32⟩
  | 107 => ⟨S64, .f32⟩
  | 108 => ⟨S1x64, .f32⟩
  | 109 => ⟨S3072x64, .f32⟩
  | 110 => ⟨S3072x64, .f32⟩
  | 111 => ⟨S_, .f32⟩
  | 112 => ⟨S64, .f32⟩
  | 113 => ⟨S64, .f32⟩
  | 114 => ⟨S64, .f32⟩
  | 115 => ⟨S1x64, .f32⟩
  | 116 => ⟨S3072x64, .f32⟩
  | 117 => ⟨S3072x64, .f32⟩
  | 118 => ⟨S1x64, .f32⟩
  | 119 => ⟨S3072x64, .f32⟩
  | 120 => ⟨S3072x64, .f32⟩
  | 121 => ⟨S1x64, .f32⟩
  | 122 => ⟨S3072x64, .f32⟩
  | 123 => ⟨S3072x64, .f32⟩
  | 124 => ⟨S_, .i32⟩
  | 125 => ⟨S147456, .i32⟩
  | 126 => ⟨S147456, .i1⟩
  | 127 => ⟨S_, .i32⟩
  | _ => ⟨S147456x16, .f32⟩

abbrev hbmTy0_2 (i : Nat) : BufTy := match i % 128 with
  | 0 => ⟨S147456, .i32⟩
  | 1 => ⟨S147456, .i32⟩
  | 2 => ⟨S147456, .i32⟩
  | 3 => ⟨S147456x1, .i32⟩
  | 4 => ⟨S147456x64, .f32⟩
  | 5 => ⟨S147456x64, .f32⟩
  | 6 => ⟨S_, .f32⟩
  | 7 => ⟨S147456x64, .f32⟩
  | 8 => ⟨S147456x64, .f32⟩
  | 9 => ⟨S1x64x128, .f32⟩
  | 10 => ⟨S64x128, .f32⟩
  | 11 => ⟨S1x128, .f32⟩
  | 12 => ⟨S128, .f32⟩
  | 13 => ⟨S1x128x64, .f32⟩
  | 14 => ⟨S128x64, .f32⟩
  | 15 => ⟨S1x64, .f32⟩
  | 16 => ⟨S64, .f32⟩
  | 17 => ⟨S1x884736, .i32⟩
  | 18 => ⟨S884736, .i32⟩
  | 19 => ⟨S_, .i32⟩
  | 20 => ⟨S884736, .i32⟩
  | 21 => ⟨S884736, .i1⟩
  | 22 => ⟨S_, .i32⟩
  | 23 => ⟨S884736, .i32⟩
  | 24 => ⟨S884736, .i32⟩
  | 25 => ⟨S884736, .i32⟩
  | 26 => ⟨S884736x1, .i32⟩
  | 27 => ⟨S884736x64, .f32⟩
  | 28 => ⟨S884736x64, .f32⟩
  | 29 => ⟨S_, .f32⟩
  | 30 => ⟨S884736x64, .f32⟩
  | 31 => ⟨S884736x64, .f32⟩
  | 32 => ⟨S1x884736, .i32⟩
  | 33 => ⟨S884736, .i32⟩
  | 34 => ⟨S_, .f32⟩
  | 35 => ⟨S147456x64, .f32⟩
  | 36 => ⟨S884736x1, .i32⟩
  | 37 => ⟨S147456x64, .f32⟩
  | 38 => ⟨S147456x64, .f32⟩
  | 39 => ⟨S147456x128, .f32⟩
  | 40 => ⟨S1x128, .f32⟩
  | 41 => ⟨S147456x128, .f32⟩
  | 42 => ⟨S147456x128, .f32⟩
  | 43 => ⟨S_, .f32⟩
  | 44 => ⟨S147456x128, .f32⟩
  | 45 => ⟨S147456x128, .f32⟩
  | 46 => ⟨S147456x64, .f32⟩
  | 47 => ⟨S1x64, .f32⟩
  | 48 => ⟨S147456x64, .f32⟩
  | 49 => ⟨S147456x64, .f32⟩
  | 50 => ⟨S1x64, .f32⟩
  | 51 => ⟨S64, .f32⟩
  | 52 => ⟨S1x64, .f32⟩
  | 53 => ⟨S64, .f32⟩
  | 54 => ⟨S_, .f32⟩
  | 55 => ⟨S64, .f32⟩
  | 56 => ⟨S_, .f32⟩
  | 57 => ⟨S64, .f32⟩
  | 58 => ⟨S64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S147456x64, .f32⟩
  | 67 => ⟨S147456x64, .f32⟩
  | 68 => ⟨S147456x64, .f32⟩
  | 69 => ⟨S_, .f32⟩
  | 70 => ⟨S_, .f32⟩
  | 71 => ⟨S_, .f32⟩
  | 72 => ⟨S_, .f32⟩
  | 73 => ⟨S64, .f32⟩
  | 74 => ⟨S64, .f32⟩
  | 75 => ⟨S64, .f32⟩
  | 76 => ⟨S_, .f32⟩
  | 77 => ⟨S_, .i1⟩
  | 78 => ⟨S_, .f32⟩
  | 79 => ⟨S_, .f32⟩
  | 80 => ⟨S64, .f32⟩
  | 81 => ⟨S64, .f32⟩
  | 82 => ⟨S1x64, .f32⟩
  | 83 => ⟨S147456x64, .f32⟩
  | 84 => ⟨S147456x64, .f32⟩
  | 85 => ⟨S_, .f32⟩
  | 86 => ⟨S64, .f32⟩
  | 87 => ⟨S64, .f32⟩
  | 88 => ⟨S64, .f32⟩
  | 89 => ⟨S1x64, .f32⟩
  | 90 => ⟨S147456x64, .f32⟩
  | 91 => ⟨S147456x64, .f32⟩
  | 92 => ⟨S1x64, .f32⟩
  | 93 => ⟨S147456x64, .f32⟩
  | 94 => ⟨S147456x64, .f32⟩
  | 95 => ⟨S1x64, .f32⟩
  | 96 => ⟨S147456x64, .f32⟩
  | 97 => ⟨S147456x64, .f32⟩
  | 98 => ⟨S_, .f32⟩
  | 99 => ⟨S147456, .f32⟩
  | 100 => ⟨S_, .f32⟩
  | 101 => ⟨S3072, .f32⟩
  | 102 => ⟨S147456x1, .i32⟩
  | 103 => ⟨S3072, .f32⟩
  | 104 => ⟨S_, .f32⟩
  | 105 => ⟨S3072, .f32⟩
  | 106 => ⟨S3072, .f32⟩
  | 107 => ⟨S_, .f32⟩
  | 108 => ⟨S3072x64, .f32⟩
  | 109 => ⟨S147456x1, .i32⟩
  | 110 => ⟨S3072x64, .f32⟩
  | 111 => ⟨S3072x1, .f32⟩
  | 112 => ⟨S3072x64, .f32⟩
  | 113 => ⟨S3072x64, .f32⟩
  | 114 => ⟨S1x64x128, .f32⟩
  | 115 => ⟨S64x128, .f32⟩
  | 116 => ⟨S1x128, .f32⟩
  | 117 => ⟨S128, .f32⟩
  | 118 => ⟨S1x128x64, .f32⟩
  | 119 => ⟨S128x64, .f32⟩
  | 120 => ⟨S1x64, .f32⟩
  | 121 => ⟨S64, .f32⟩
  | 122 => ⟨S1x18432, .i32⟩
  | 123 => ⟨S18432, .i32⟩
  | 124 => ⟨S_, .i32⟩
  | 125 => ⟨S18432, .i32⟩
  | 126 => ⟨S18432, .i1⟩
  | 127 => ⟨S_, .i32⟩
  | _ => ⟨S147456x16, .f32⟩

abbrev hbmTy0_3 (i : Nat) : BufTy := match i % 128 with
  | 0 => ⟨S18432, .i32⟩
  | 1 => ⟨S18432, .i32⟩
  | 2 => ⟨S18432, .i32⟩
  | 3 => ⟨S18432x1, .i32⟩
  | 4 => ⟨S18432x64, .f32⟩
  | 5 => ⟨S18432x64, .f32⟩
  | 6 => ⟨S_, .f32⟩
  | 7 => ⟨S18432x64, .f32⟩
  | 8 => ⟨S18432x64, .f32⟩
  | 9 => ⟨S1x18432, .i32⟩
  | 10 => ⟨S18432, .i32⟩
  | 11 => ⟨S_, .f32⟩
  | 12 => ⟨S3072x64, .f32⟩
  | 13 => ⟨S18432x1, .i32⟩
  | 14 => ⟨S3072x64, .f32⟩
  | 15 => ⟨S3072x64, .f32⟩
  | 16 => ⟨S3072x128, .f32⟩
  | 17 => ⟨S1x128, .f32⟩
  | 18 => ⟨S3072x128, .f32⟩
  | 19 => ⟨S3072x128, .f32⟩
  | 20 => ⟨S_, .f32⟩
  | 21 => ⟨S3072x128, .f32⟩
  | 22 => ⟨S3072x128, .f32⟩
  | 23 => ⟨S3072x64, .f32⟩
  | 24 => ⟨S1x64, .f32⟩
  | 25 => ⟨S3072x64, .f32⟩
  | 26 => ⟨S3072x64, .f32⟩
  | 27 => ⟨S1x64, .f32⟩
  | 28 => ⟨S64, .f32⟩
  | 29 => ⟨S1x64, .f32⟩
  | 30 => ⟨S64, .f32⟩
  | 31 => ⟨S_, .f32⟩
  | 32 => ⟨S64, .f32⟩
  | 33 => ⟨S_, .f32⟩
  | 34 => ⟨S64, .f32⟩
  | 35 => ⟨S64, .f32⟩
  | 36 => ⟨S_, .i32⟩
  | 37 => ⟨S_, .f32⟩
  | 38 => ⟨S64, .f32⟩
  | 39 => ⟨S1x64, .f32⟩
  | 40 => ⟨S_, .f32⟩
  | 41 => ⟨S1x64, .f32⟩
  | 42 => ⟨S1x64, .f32⟩
  | 43 => ⟨S3072x64, .f32⟩
  | 44 => ⟨S3072x64, .f32⟩
  | 45 => ⟨S3072x64, .f32⟩
  | 46 => ⟨S_, .f32⟩
  | 47 => ⟨S_, .f32⟩
  | 48 => ⟨S_, .f32⟩
  | 49 => ⟨S_, .f32⟩
  | 50 => ⟨S64, .f32⟩
  | 51 => ⟨S64, .f32⟩
  | 52 => ⟨S64, .f32⟩
  | 53 => ⟨S_, .f32⟩
  | 54 => ⟨S_, .i1⟩
  | 55 => ⟨S_, .f32⟩
  | 56 => ⟨S_, .f32⟩
  | 57 => ⟨S64, .f32⟩
  | 58 => ⟨S64, .f32⟩
  | 59 => ⟨S1x64, .f32⟩
  | 60 => ⟨S3072x64, .f32⟩
  | 61 => ⟨S3072x64, .f32⟩
  | 62 => ⟨S_, .f32⟩
  | 63 => ⟨S64, .f32⟩
  | 64 => ⟨S64, .f32⟩
  | 65 => ⟨S64, .f32⟩
  | 66 => ⟨S1x64, .f32⟩
  | 67 => ⟨S3072x64, .f32⟩
  | 68 => ⟨S3072x64, .f32⟩
  | 69 => ⟨S1x64, .f32⟩
  | 70 => ⟨S3072x64, .f32⟩
  | 71 => ⟨S3072x64, .f32⟩
  | 72 => ⟨S1x64, .f32⟩
  | 73 => ⟨S3072x64, .f32⟩
  | 74 => ⟨S3072x64, .f32⟩
  | 75 => ⟨S_, .i32⟩
  | 76 => ⟨S147456, .i32⟩
  | 77 => ⟨S147456, .i1⟩
  | 78 => ⟨S_, .i32⟩
  | 79 => ⟨S147456, .i32⟩
  | 80 => ⟨S147456, .i32⟩
  | 81 => ⟨S147456, .i32⟩
  | 82 => ⟨S147456x1, .i32⟩
  | 83 => ⟨S147456x64, .f32⟩
  | 84 => ⟨S147456x64, .f32⟩
  | 85 => ⟨S_, .f32⟩
  | 86 => ⟨S147456x64, .f32⟩
  | 87 => ⟨S147456x64, .f32⟩
  | 88 => ⟨S1x64x128, .f32⟩
  | 89 => ⟨S64x128, .f32⟩
  | 90 => ⟨S1x128, .f32⟩
  | 91 => ⟨S128, .f32⟩
  | 92 => ⟨S1x128x64, .f32⟩
  | 93 => ⟨S128x64, .f32⟩
  | 94 => ⟨S1x64, .f32⟩
  | 95 => ⟨S64, .f32⟩
  | 96 => ⟨S1x884736, .i32⟩
  | 97 => ⟨S884736, .i32⟩
  | 98 => ⟨S_, .i32⟩
  | 99 => ⟨S884736, .i32⟩
  | 100 => ⟨S884736, .i1⟩
  | 101 => ⟨S_, .i32⟩
  | 102 => ⟨S884736, .i32⟩
  | 103 => ⟨S884736, .i32⟩
  | 104 => ⟨S884736, .i32⟩
  | 105 => ⟨S884736x1, .i32⟩
  | 106 => ⟨S884736x64, .f32⟩
  | 107 => ⟨S884736x64, .f32⟩
  | 108 => ⟨S_, .f32⟩
  | 109 => ⟨S884736x64, .f32⟩
  | 110 => ⟨S884736x64, .f32⟩
  | 111 => ⟨S1x884736, .i32⟩
  | 112 => ⟨S884736, .i32⟩
  | 113 => ⟨S_, .f32⟩
  | 114 => ⟨S147456x64, .f32⟩
  | 115 => ⟨S884736x1, .i32⟩
  | 116 => ⟨S147456x64, .f32⟩
  | 117 => ⟨S147456x64, .f32⟩
  | 118 => ⟨S147456x128, .f32⟩
  | 119 => ⟨S1x128, .f32⟩
  | 120 => ⟨S147456x128, .f32⟩
  | 121 => ⟨S147456x128, .f32⟩
  | 122 => ⟨S_, .f32⟩
  | 123 => ⟨S147456x128, .f32⟩
  | 124 => ⟨S147456x128, .f32⟩
  | 125 => ⟨S147456x64, .f32⟩
  | 126 => ⟨S1x64, .f32⟩
  | 127 => ⟨S147456x64, .f32⟩
  | _ => ⟨S147456x16, .f32⟩

abbrev hbmTy0_4 (i : Nat) : BufTy := match i % 128 with
  | 0 => ⟨S147456x64, .f32⟩
  | 1 => ⟨S1x64, .f32⟩
  | 2 => ⟨S64, .f32⟩
  | 3 => ⟨S1x64, .f32⟩
  | 4 => ⟨S64, .f32⟩
  | 5 => ⟨S_, .f32⟩
  | 6 => ⟨S64, .f32⟩
  | 7 => ⟨S_, .f32⟩
  | 8 => ⟨S64, .f32⟩
  | 9 => ⟨S64, .f32⟩
  | 10 => ⟨S_, .i32⟩
  | 11 => ⟨S_, .f32⟩
  | 12 => ⟨S64, .f32⟩
  | 13 => ⟨S1x64, .f32⟩
  | 14 => ⟨S_, .f32⟩
  | 15 => ⟨S1x64, .f32⟩
  | 16 => ⟨S1x64, .f32⟩
  | 17 => ⟨S147456x64, .f32⟩
  | 18 => ⟨S147456x64, .f32⟩
  | 19 => ⟨S147456x64, .f32⟩
  | 20 => ⟨S_, .f32⟩
  | 21 => ⟨S_, .f32⟩
  | 22 => ⟨S_, .f32⟩
  | 23 => ⟨S_, .f32⟩
  | 24 => ⟨S64, .f32⟩
  | 25 => ⟨S64, .f32⟩
  | 26 => ⟨S64, .f32⟩
  | 27 => ⟨S_, .f32⟩
  | 28 => ⟨S_, .i1⟩
  | 29 => ⟨S_, .f32⟩
  | 30 => ⟨S_, .f32⟩
  | 31 => ⟨S64, .f32⟩
  | 32 => ⟨S64, .f32⟩
  | 33 => ⟨S1x64, .f32⟩
  | 34 => ⟨S147456x64, .f32⟩
  | 35 => ⟨S147456x64, .f32⟩
  | 36 => ⟨S_, .f32⟩
  | 37 => ⟨S64, .f32⟩
  | 38 => ⟨S64, .f32⟩
  | 39 => ⟨S64, .f32⟩
  | 40 => ⟨S1x64, .f32⟩
  | 41 => ⟨S147456x64, .f32⟩
  | 42 => ⟨S147456x64, .f32⟩
  | 43 => ⟨S1x64, .f32⟩
  | 44 => ⟨S147456x64, .f32⟩
  | 45 => ⟨S147456x64, .f32⟩
  | 46 => ⟨S1x64, .f32⟩
  | 47 => ⟨S147456x64, .f32⟩
  | 48 => ⟨S147456x64, .f32⟩
  | 49 => ⟨S_, .f32⟩
  | 50 => ⟨S147456, .f32⟩
  | 51 => ⟨S_, .f32⟩
  | 52 => ⟨S3072, .f32⟩
  | 53 => ⟨S147456x1, .i32⟩
  | 54 => ⟨S3072, .f32⟩
  | 55 => ⟨S_, .f32⟩
  | 56 => ⟨S3072, .f32⟩
  | 57 => ⟨S3072, .f32⟩
  | 58 => ⟨S_, .f32⟩
  | 59 => ⟨S3072x64, .f32⟩
  | 60 => ⟨S147456x1, .i32⟩
  | 61 => ⟨S3072x64, .f32⟩
  | 62 => ⟨S3072x1, .f32⟩
  | 63 => ⟨S3072x64, .f32⟩
  | 64 => ⟨S3072x64, .f32⟩
  | 65 => ⟨S1x64x128, .f32⟩
  | 66 => ⟨S64x128, .f32⟩
  | 67 => ⟨S1x128, .f32⟩
  | 68 => ⟨S128, .f32⟩
  | 69 => ⟨S1x128x64, .f32⟩
  | 70 => ⟨S128x64, .f32⟩
  | 71 => ⟨S1x64, .f32⟩
  | 72 => ⟨S64, .f32⟩
  | 73 => ⟨S1x18432, .i32⟩
  | 74 => ⟨S18432, .i32⟩
  | 75 => ⟨S_, .i32⟩
  | 76 => ⟨S18432, .i32⟩
  | 77 => ⟨S18432, .i1⟩
  | 78 => ⟨S_, .i32⟩
  | 79 => ⟨S18432, .i32⟩
  | 80 => ⟨S18432, .i32⟩
  | 81 => ⟨S18432, .i32⟩
  | 82 => ⟨S18432x1, .i32⟩
  | 83 => ⟨S18432x64, .f32⟩
  | 84 => ⟨S18432x64, .f32⟩
  | 85 => ⟨S_, .f32⟩
  | 86 => ⟨S18432x64, .f32⟩
  | 87 => ⟨S18432x64, .f32⟩
  | 88 => ⟨S1x18432, .i32⟩
  | 89 => ⟨S18432, .i32⟩
  | 90 => ⟨S_, .f32⟩
  | 91 => ⟨S3072x64, .f32⟩
  | 92 => ⟨S18432x1, .i32⟩
  | 93 => ⟨S3072x64, .f32⟩
  | 94 => ⟨S3072x64, .f32⟩
  | 95 => ⟨S3072x128, .f32⟩
  | 96 => ⟨S1x128, .f32⟩
  | 97 => ⟨S3072x128, .f32⟩
  | 98 => ⟨S3072x128, .f32⟩
  | 99 => ⟨S_, .f32⟩
  | 100 => ⟨S3072x128, .f32⟩
  | 101 => ⟨S3072x128, .f32⟩
  | 102 => ⟨S3072x64, .f32⟩
  | 103 => ⟨S1x64, .f32⟩
  | 104 => ⟨S3072x64, .f32⟩
  | 105 => ⟨S3072x64, .f32⟩
  | 106 => ⟨S1x64, .f32⟩
  | 107 => ⟨S64, .f32⟩
  | 108 => ⟨S1x64, .f32⟩
  | 109 => ⟨S64, .f32⟩
  | 110 => ⟨S_, .f32⟩
  | 111 => ⟨S64, .f32⟩
  | 112 => ⟨S_, .f32⟩
  | 113 => ⟨S64, .f32⟩
  | 114 => ⟨S64, .f32⟩
  | 115 => ⟨S_, .i32⟩
  | 116 => ⟨S_, .f32⟩
  | 117 => ⟨S64, .f32⟩
  | 118 => ⟨S1x64, .f32⟩
  | 119 => ⟨S_, .f32⟩
  | 120 => ⟨S1x64, .f32⟩
  | 121 => ⟨S1x64, .f32⟩
  | 122 => ⟨S3072x64, .f32⟩
  | 123 => ⟨S3072x64, .f32⟩
  | 124 => ⟨S3072x64, .f32⟩
  | 125 => ⟨S_, .f32⟩
  | 126 => ⟨S_, .f32⟩
  | 127 => ⟨S_, .f32⟩
  | _ => ⟨S147456x16, .f32⟩

abbrev hbmTy0_5 (i : Nat) : BufTy := match i % 128 with
  | 0 => ⟨S_, .f32⟩
  | 1 => ⟨S64, .f32⟩
  | 2 => ⟨S64, .f32⟩
  | 3 => ⟨S64, .f32⟩
  | 4 => ⟨S_, .f32⟩
  | 5 => ⟨S_, .i1⟩
  | 6 => ⟨S_, .f32⟩
  | 7 => ⟨S_, .f32⟩
  | 8 => ⟨S64, .f32⟩
  | 9 => ⟨S64, .f32⟩
  | 10 => ⟨S1x64, .f32⟩
  | 11 => ⟨S3072x64, .f32⟩
  | 12 => ⟨S3072x64, .f32⟩
  | 13 => ⟨S_, .f32⟩
  | 14 => ⟨S64, .f32⟩
  | 15 => ⟨S64, .f32⟩
  | 16 => ⟨S64, .f32⟩
  | 17 => ⟨S1x64, .f32⟩
  | 18 => ⟨S3072x64, .f32⟩
  | 19 => ⟨S3072x64, .f32⟩
  | 20 => ⟨S1x64, .f32⟩
  | 21 => ⟨S3072x64, .f32⟩
  | 22 => ⟨S3072x64, .f32⟩
  | 23 => ⟨S1x64, .f32⟩
  | 24 => ⟨S3072x64, .f32⟩
  | 25 => ⟨S3072x64, .f32⟩
  | 26 => ⟨S_, .i32⟩
  | 27 => ⟨S147456, .i32⟩
  | 28 => ⟨S147456, .i1⟩
  | 29 => ⟨S_, .i32⟩
  | 30 => ⟨S147456, .i32⟩
  | 31 => ⟨S147456, .i32⟩
  | 32 => ⟨S147456, .i32⟩
  | 33 => ⟨S147456x1, .i32⟩
  | 34 => ⟨S147456x64, .f32⟩
  | 35 => ⟨S147456x64, .f32⟩
  | 36 => ⟨S_, .f32⟩
  | 37 => ⟨S147456x64, .f32⟩
  | 38 => ⟨S147456x64, .f32⟩
  | 39 => ⟨S_, .f32⟩
  | 40 => ⟨S147456, .f32⟩
  | 41 => ⟨S_, .f32⟩
  | 42 => ⟨S3072, .f32⟩
  | 43 => ⟨S147456x1, .i32⟩
  | 44 => ⟨S3072, .f32⟩
  | 45 => ⟨S_, .f32⟩
  | 46 => ⟨S3072, .f32⟩
  | 47 => ⟨S3072, .f32⟩
  | 48 => ⟨S_, .f32⟩
  | 49 => ⟨S3072x64, .f32⟩
  | 50 => ⟨S147456x1, .i32⟩
  | 51 => ⟨S3072x64, .f32⟩
  | 52 => ⟨S3072x1, .f32⟩
  | 53 => ⟨S3072x64, .f32⟩
  | 54 => ⟨S3072x64, .f32⟩
  | 55 => ⟨S_, .f32⟩
  | 56 => ⟨S3072, .f32⟩
  | 57 => ⟨S_, .f32⟩
  | 58 => ⟨S64, .f32⟩
  | 59 => ⟨S3072x1, .i32⟩
  | 60 => ⟨S64, .f32⟩
  | 61 => ⟨S_, .f32⟩
  | 62 => ⟨S64, .f32⟩
  | 63 => ⟨S64, .f32⟩
  | 64 => ⟨S_, .f32⟩
  | 65 => ⟨S64x64, .f32⟩
  | 66 => ⟨S3072x1, .i32⟩
  | 67 => ⟨S64x64, .f32⟩
  | 68 => ⟨S64x1, .f32⟩
  | 69 => ⟨S64x64, .f32⟩
  | 70 => ⟨S64x64, .f32⟩
  | 71 => ⟨S64x128, .f32⟩
  | 72 => ⟨S1x128, .f32⟩
  | 73 => ⟨S64x128, .f32⟩
  | 74 => ⟨S64x128, .f32⟩
  | 75 => ⟨S_, .f32⟩
  | 76 => ⟨S64x128, .f32⟩
  | 77 => ⟨S64x128, .f32⟩
  | 78 => ⟨S64x10, .f32⟩
  | 79 => ⟨S1x10, .f32⟩
  | 80 => ⟨S64x10, .f32⟩
  | 81 => ⟨S64x10, .f32⟩
  | _ => ⟨S147456x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S147456x16, .f32⟩

abbrev bufTy : (tb : Table) → Fin (tcTables nBuf tb) → BufTy
  | .hbm, ⟨i, _⟩ => hbmTy i
  | _, _ => ⟨S147456x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c : Ref sig .tc := ⟨.hbm, 42, rfl⟩
abbrev main_v12 : Ref sig .tc := ⟨.hbm, 43, rfl⟩
abbrev main_call0_call0_c : Ref sig .tc := ⟨.hbm, 44, rfl⟩
abbrev main_call0_call0_v0 : Ref sig .tc := ⟨.hbm, 45, rfl⟩
abbrev main_v13 : Ref sig .tc := ⟨.hbm, 46, rfl⟩
abbrev main_v14 : Ref sig .tc := ⟨.hbm, 47, rfl⟩
abbrev main_c_0 : Ref sig .tc := ⟨.hbm, 48, rfl⟩
abbrev main_v15 : Ref sig .tc := ⟨.hbm, 49, rfl⟩
abbrev main_v16 : Ref sig .tc := ⟨.hbm, 50, rfl⟩
abbrev main_c_1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_2 : Ref sig .tc := ⟨.hbm, 68, rfl⟩
abbrev main_v33 : Ref sig .tc := ⟨.hbm, 69, rfl⟩
abbrev main_v34 : Ref sig .tc := ⟨.hbm, 70, rfl⟩
abbrev main_c_3 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call1_cst : Ref sig .tc := ⟨.hbm, 78, rfl⟩
abbrev main_call1_v0 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_call2_cst : Ref sig .tc := ⟨.hbm, 92, rfl⟩
abbrev main_call2_v0 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_4 : Ref sig .tc := ⟨.hbm, 103, rfl⟩
abbrev main_v61 : Ref sig .tc := ⟨.hbm, 104, rfl⟩
abbrev main_cst_5 : Ref sig .tc := ⟨.hbm, 105, rfl⟩
abbrev main_v62 : Ref sig .tc := ⟨.hbm, 106, rfl⟩
abbrev main_v63 : Ref sig .tc := ⟨.hbm, 107, rfl⟩
abbrev main_c_6 : Ref sig .tc := ⟨.hbm, 108, rfl⟩
abbrev main_call3_cst : Ref sig .tc := ⟨.hbm, 109, rfl⟩
abbrev main_call3_v0 : Ref sig .tc := ⟨.hbm, 110, rfl⟩
abbrev main_call3_v1 : Ref sig .tc := ⟨.hbm, 111, rfl⟩
abbrev main_call3_cst_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_v6 : Ref sig .tc := ⟨.hbm, 117, rfl⟩
abbrev main_call3_v7 : Ref sig .tc := ⟨.hbm, 118, rfl⟩
abbrev main_call3_cst_1 : Ref sig .tc := ⟨.hbm, 119, rfl⟩
abbrev main_call3_v8 : Ref sig .tc := ⟨.hbm, 120, rfl⟩
abbrev main_call3_cst_2 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_cst_3 : Ref sig .tc := ⟨.hbm, 125, rfl⟩
abbrev main_call3_v12 : Ref sig .tc := ⟨.hbm, 126, rfl⟩
abbrev main_call3_cst_4 : Ref sig .tc := ⟨.hbm, 127, rfl⟩
abbrev main_call3_call0_v0 : Ref sig .tc := ⟨.hbm, 128, rfl⟩
abbrev main_call3_call0_v1 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_7 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_cst_8 : Ref sig .tc := ⟨.hbm, 147, rfl⟩
abbrev main_v80 : Ref sig .tc := ⟨.hbm, 148, rfl⟩
abbrev main_cst_9 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_cst_10 : Ref sig .tc := ⟨.hbm, 153, rfl⟩
abbrev main_v84 : Ref sig .tc := ⟨.hbm, 154, rfl⟩
abbrev main_v85 : Ref sig .tc := ⟨.hbm, 155, rfl⟩
abbrev main_cst_11 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_c_12 : Ref sig .tc := ⟨.hbm, 173, rfl⟩
abbrev main_v102 : Ref sig .tc := ⟨.hbm, 174, rfl⟩
abbrev main_v103 : Ref sig .tc := ⟨.hbm, 175, rfl⟩
abbrev main_c_13 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_call4_cst : Ref sig .tc := ⟨.hbm, 183, rfl⟩
abbrev main_call4_v0 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_cst_14 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_call5_cst : Ref sig .tc := ⟨.hbm, 197, rfl⟩
abbrev main_call5_v0 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_cst_15 : Ref sig .tc := ⟨.hbm, 208, rfl⟩
abbrev main_v130 : Ref sig .tc := ⟨.hbm, 209, rfl⟩
abbrev main_cst_16 : Ref sig .tc := ⟨.hbm, 210, rfl⟩
abbrev main_v131 : Ref sig .tc := ⟨.hbm, 211, rfl⟩
abbrev main_v132 : Ref sig .tc := ⟨.hbm, 212, rfl⟩
abbrev main_c_17 : Ref sig .tc := ⟨.hbm, 213, rfl⟩
abbrev main_call6_cst : Ref sig .tc := ⟨.hbm, 214, rfl⟩
abbrev main_call6_v0 : Ref sig .tc := ⟨.hbm, 215, rfl⟩
abbrev main_call6_v1 : Ref sig .tc := ⟨.hbm, 216, rfl⟩
abbrev main_call6_cst_0 : Ref sig .tc := ⟨.hbm, 217, rfl⟩
abbrev main_call6_v2 : Ref sig .tc := ⟨.hbm, 218, rfl⟩
abbrev main_call6_v3 : Ref sig .tc := ⟨.hbm, 219, rfl⟩
abbrev main_call6_v4 : Ref sig .tc := ⟨.hbm, 220, rfl⟩
abbrev main_call6_v5 : Ref sig .tc := ⟨.hbm, 221, rfl⟩
abbrev main_call6_v6 : Ref sig .tc := ⟨.hbm, 222, rfl⟩
abbrev main_call6_v7 : Ref sig .tc := ⟨.hbm, 223, rfl⟩
abbrev main_call6_cst_1 : Ref sig .tc := ⟨.hbm, 224, rfl⟩
abbrev main_call6_v8 : Ref sig .tc := ⟨.hbm, 225, rfl⟩
abbrev main_call6_cst_2 : Ref sig .tc := ⟨.hbm, 226, rfl⟩
abbrev main_call6_v9 : Ref sig .tc := ⟨.hbm, 227, rfl⟩
abbrev main_call6_v10 : Ref sig .tc := ⟨.hbm, 228, rfl⟩
abbrev main_call6_v11 : Ref sig .tc := ⟨.hbm, 229, rfl⟩
abbrev main_call6_cst_3 : Ref sig .tc := ⟨.hbm, 230, rfl⟩
abbrev main_call6_v12 : Ref sig .tc := ⟨.hbm, 231, rfl⟩
abbrev main_call6_cst_4 : Ref sig .tc := ⟨.hbm, 232, rfl⟩
abbrev main_call6_call0_v0 : Ref sig .tc := ⟨.hbm, 233, rfl⟩
abbrev main_call6_call0_v1 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_cst_18 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_c_19 : Ref sig .tc := ⟨.hbm, 252, rfl⟩
abbrev main_v149 : Ref sig .tc := ⟨.hbm, 253, rfl⟩
abbrev main_v150 : Ref sig .tc := ⟨.hbm, 254, rfl⟩
abbrev main_c_20 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_call7_cst : Ref sig .tc := ⟨.hbm, 262, rfl⟩
abbrev main_call7_v0 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_c_21 : Ref sig .tc := ⟨.hbm, 275, rfl⟩
abbrev main_v168 : Ref sig .tc := ⟨.hbm, 276, rfl⟩
abbrev main_v169 : Ref sig .tc := ⟨.hbm, 277, rfl⟩
abbrev main_c_22 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_call8_cst : Ref sig .tc := ⟨.hbm, 285, rfl⟩
abbrev main_call8_v0 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_23 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_call9_cst : Ref sig .tc := ⟨.hbm, 299, rfl⟩
abbrev main_call9_v0 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_cst_24 : Ref sig .tc := ⟨.hbm, 310, rfl⟩
abbrev main_v196 : Ref sig .tc := ⟨.hbm, 311, rfl⟩
abbrev main_cst_25 : Ref sig .tc := ⟨.hbm, 312, rfl⟩
abbrev main_v197 : Ref sig .tc := ⟨.hbm, 313, rfl⟩
abbrev main_v198 : Ref sig .tc := ⟨.hbm, 314, rfl⟩
abbrev main_c_26 : Ref sig .tc := ⟨.hbm, 315, rfl⟩
abbrev main_call10_cst : Ref sig .tc := ⟨.hbm, 316, rfl⟩
abbrev main_call10_v0 : Ref sig .tc := ⟨.hbm, 317, rfl⟩
abbrev main_call10_v1 : Ref sig .tc := ⟨.hbm, 318, rfl⟩
abbrev main_call10_cst_0 : Ref sig .tc := ⟨.hbm, 319, rfl⟩
abbrev main_call10_v2 : Ref sig .tc := ⟨.hbm, 320, rfl⟩
abbrev main_call10_v3 : Ref sig .tc := ⟨.hbm, 321, rfl⟩
abbrev main_call10_v4 : Ref sig .tc := ⟨.hbm, 322, rfl⟩
abbrev main_call10_v5 : Ref sig .tc := ⟨.hbm, 323, rfl⟩
abbrev main_call10_v6 : Ref sig .tc := ⟨.hbm, 324, rfl⟩
abbrev main_call10_v7 : Ref sig .tc := ⟨.hbm, 325, rfl⟩
abbrev main_call10_cst_1 : Ref sig .tc := ⟨.hbm, 326, rfl⟩
abbrev main_call10_v8 : Ref sig .tc := ⟨.hbm, 327, rfl⟩
abbrev main_call10_cst_2 : Ref sig .tc := ⟨.hbm, 328, rfl⟩
abbrev main_call10_v9 : Ref sig .tc := ⟨.hbm, 329, rfl⟩
abbrev main_call10_v10 : Ref sig .tc := ⟨.hbm, 330, rfl⟩
abbrev main_call10_v11 : Ref sig .tc := ⟨.hbm, 331, rfl⟩
abbrev main_call10_cst_3 : Ref sig .tc := ⟨.hbm, 332, rfl⟩
abbrev main_call10_v12 : Ref sig .tc := ⟨.hbm, 333, rfl⟩
abbrev main_call10_cst_4 : Ref sig .tc := ⟨.hbm, 334, rfl⟩
abbrev main_call10_call0_v0 : Ref sig .tc := ⟨.hbm, 335, rfl⟩
abbrev main_call10_call0_v1 : Ref sig .tc := ⟨.hbm, 336, rfl⟩
abbrev main_v199 : Ref sig .tc := ⟨.hbm, 337, rfl⟩
abbrev main_v200 : Ref sig .tc := ⟨.hbm, 338, rfl⟩
abbrev main_v201 : Ref sig .tc := ⟨.hbm, 339, rfl⟩
abbrev main_v202 : Ref sig .tc := ⟨.hbm, 340, rfl⟩
abbrev main_cst_27 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_v211 : Ref sig .tc := ⟨.hbm, 350, rfl⟩
abbrev main_v212 : Ref sig .tc := ⟨.hbm, 351, rfl⟩
abbrev main_v213 : Ref sig .tc := ⟨.hbm, 352, rfl⟩
abbrev main_v214 : Ref sig .tc := ⟨.hbm, 353, rfl⟩
abbrev main_cst_28 : Ref sig .tc := ⟨.hbm, 354, rfl⟩
abbrev main_v215 : Ref sig .tc := ⟨.hbm, 355, rfl⟩
abbrev main_cst_29 : Ref sig .tc := ⟨.hbm, 356, rfl⟩
abbrev main_v216 : Ref sig .tc := ⟨.hbm, 357, rfl⟩
abbrev main_v217 : Ref sig .tc := ⟨.hbm, 358, rfl⟩
abbrev main_v218 : Ref sig .tc := ⟨.hbm, 359, rfl⟩
abbrev main_cst_30 : Ref sig .tc := ⟨.hbm, 360, rfl⟩
abbrev main_v219 : Ref sig .tc := ⟨.hbm, 361, rfl⟩
abbrev main_v220 : Ref sig .tc := ⟨.hbm, 362, rfl⟩
abbrev main_cst_31 : Ref sig .tc := ⟨.hbm, 363, rfl⟩
abbrev main_v221 : Ref sig .tc := ⟨.hbm, 364, rfl⟩
abbrev main_v222 : Ref sig .tc := ⟨.hbm, 365, rfl⟩
abbrev main_v223 : Ref sig .tc := ⟨.hbm, 366, rfl⟩
abbrev main_v224 : Ref sig .tc := ⟨.hbm, 367, rfl⟩
abbrev main_v225 : Ref sig .tc := ⟨.hbm, 368, rfl⟩
abbrev main_v226 : Ref sig .tc := ⟨.hbm, 369, rfl⟩
abbrev main_v227 : Ref sig .tc := ⟨.hbm, 370, rfl⟩
abbrev main_v228 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_v232 : Ref sig .tc := ⟨.hbm, 375, rfl⟩
abbrev main_v233 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_c_32 : Ref sig .tc := ⟨.hbm, 380, rfl⟩
abbrev main_v237 : Ref sig .tc := ⟨.hbm, 381, rfl⟩
abbrev main_v238 : Ref sig .tc := ⟨.hbm, 382, rfl⟩
abbrev main_c_33 : Ref sig .tc := ⟨.hbm, 383, rfl⟩
abbrev main_v239 : Ref sig .tc := ⟨.hbm, 384, rfl⟩
abbrev main_v240 : Ref sig .tc := ⟨.hbm, 385, rfl⟩
abbrev main_v241 : Ref sig .tc := ⟨.hbm, 386, rfl⟩
abbrev main_v242 : Ref sig .tc := ⟨.hbm, 387, rfl⟩
abbrev main_v243 : Ref sig .tc := ⟨.hbm, 388, rfl⟩
abbrev main_v244 : Ref sig .tc := ⟨.hbm, 389, rfl⟩
abbrev main_call11_cst : Ref sig .tc := ⟨.hbm, 390, rfl⟩
abbrev main_call11_v0 : Ref sig .tc := ⟨.hbm, 391, rfl⟩
abbrev main_v245 : Ref sig .tc := ⟨.hbm, 392, rfl⟩
abbrev main_v246 : Ref sig .tc := ⟨.hbm, 393, rfl⟩
abbrev main_v247 : Ref sig .tc := ⟨.hbm, 394, rfl⟩
abbrev main_cst_34 : Ref sig .tc := ⟨.hbm, 395, rfl⟩
abbrev main_v248 : Ref sig .tc := ⟨.hbm, 396, rfl⟩
abbrev main_v249 : Ref sig .tc := ⟨.hbm, 397, rfl⟩
abbrev main_v250 : Ref sig .tc := ⟨.hbm, 398, rfl⟩
abbrev main_v251 : Ref sig .tc := ⟨.hbm, 399, rfl⟩
abbrev main_v252 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_call12_cst : Ref sig .tc := ⟨.hbm, 404, rfl⟩
abbrev main_call12_v0 : Ref sig .tc := ⟨.hbm, 405, rfl⟩
abbrev main_v256 : Ref sig .tc := ⟨.hbm, 406, rfl⟩
abbrev main_v257 : Ref sig .tc := ⟨.hbm, 407, rfl⟩
abbrev main_v258 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_v262 : Ref sig .tc := ⟨.hbm, 412, rfl⟩
abbrev main_v263 : Ref sig .tc := ⟨.hbm, 413, rfl⟩
abbrev main_v264 : Ref sig .tc := ⟨.hbm, 414, rfl⟩
abbrev main_cst_35 : Ref sig .tc := ⟨.hbm, 415, rfl⟩
abbrev main_v265 : Ref sig .tc := ⟨.hbm, 416, rfl⟩
abbrev main_cst_36 : Ref sig .tc := ⟨.hbm, 417, rfl⟩
abbrev main_v266 : Ref sig .tc := ⟨.hbm, 418, rfl⟩
abbrev main_v267 : Ref sig .tc := ⟨.hbm, 419, rfl⟩
abbrev main_c_37 : Ref sig .tc := ⟨.hbm, 420, rfl⟩
abbrev main_call13_cst : Ref sig .tc := ⟨.hbm, 421, rfl⟩
abbrev main_call13_v0 : Ref sig .tc := ⟨.hbm, 422, rfl⟩
abbrev main_call13_v1 : Ref sig .tc := ⟨.hbm, 423, rfl⟩
abbrev main_call13_cst_0 : Ref sig .tc := ⟨.hbm, 424, rfl⟩
abbrev main_call13_v2 : Ref sig .tc := ⟨.hbm, 425, rfl⟩
abbrev main_call13_v3 : Ref sig .tc := ⟨.hbm, 426, rfl⟩
abbrev main_call13_v4 : Ref sig .tc := ⟨.hbm, 427, rfl⟩
abbrev main_call13_v5 : Ref sig .tc := ⟨.hbm, 428, rfl⟩
abbrev main_call13_v6 : Ref sig .tc := ⟨.hbm, 429, rfl⟩
abbrev main_call13_v7 : Ref sig .tc := ⟨.hbm, 430, rfl⟩
abbrev main_call13_cst_1 : Ref sig .tc := ⟨.hbm, 431, rfl⟩
abbrev main_call13_v8 : Ref sig .tc := ⟨.hbm, 432, rfl⟩
abbrev main_call13_cst_2 : Ref sig .tc := ⟨.hbm, 433, rfl⟩
abbrev main_call13_v9 : Ref sig .tc := ⟨.hbm, 434, rfl⟩
abbrev main_call13_v10 : Ref sig .tc := ⟨.hbm, 435, rfl⟩
abbrev main_call13_v11 : Ref sig .tc := ⟨.hbm, 436, rfl⟩
abbrev main_call13_cst_3 : Ref sig .tc := ⟨.hbm, 437, rfl⟩
abbrev main_call13_v12 : Ref sig .tc := ⟨.hbm, 438, rfl⟩
abbrev main_call13_cst_4 : Ref sig .tc := ⟨.hbm, 439, rfl⟩
abbrev main_call13_call0_v0 : Ref sig .tc := ⟨.hbm, 440, rfl⟩
abbrev main_call13_call0_v1 : Ref sig .tc := ⟨.hbm, 441, rfl⟩
abbrev main_v268 : Ref sig .tc := ⟨.hbm, 442, rfl⟩
abbrev main_v269 : Ref sig .tc := ⟨.hbm, 443, rfl⟩
abbrev main_v270 : Ref sig .tc := ⟨.hbm, 444, rfl⟩
abbrev main_v271 : Ref sig .tc := ⟨.hbm, 445, rfl⟩
abbrev main_cst_38 : Ref sig .tc := ⟨.hbm, 446, rfl⟩
abbrev main_v272 : Ref sig .tc := ⟨.hbm, 447, rfl⟩
abbrev main_v273 : Ref sig .tc := ⟨.hbm, 448, rfl⟩
abbrev main_v274 : Ref sig .tc := ⟨.hbm, 449, rfl⟩
abbrev main_v275 : Ref sig .tc := ⟨.hbm, 450, rfl⟩
abbrev main_v276 : Ref sig .tc := ⟨.hbm, 451, rfl⟩
abbrev main_v277 : Ref sig .tc := ⟨.hbm, 452, rfl⟩
abbrev main_v278 : Ref sig .tc := ⟨.hbm, 453, rfl⟩
abbrev main_v279 : Ref sig .tc := ⟨.hbm, 454, rfl⟩
abbrev main_v280 : Ref sig .tc := ⟨.hbm, 455, rfl⟩
abbrev main_v281 : Ref sig .tc := ⟨.hbm, 456, rfl⟩
abbrev main_v282 : Ref sig .tc := ⟨.hbm, 457, rfl⟩
abbrev main_v283 : Ref sig .tc := ⟨.hbm, 458, rfl⟩
abbrev main_c_39 : Ref sig .tc := ⟨.hbm, 459, rfl⟩
abbrev main_v284 : Ref sig .tc := ⟨.hbm, 460, rfl⟩
abbrev main_v285 : Ref sig .tc := ⟨.hbm, 461, rfl⟩
abbrev main_c_40 : Ref sig .tc := ⟨.hbm, 462, rfl⟩
abbrev main_v286 : Ref sig .tc := ⟨.hbm, 463, rfl⟩
abbrev main_v287 : Ref sig .tc := ⟨.hbm, 464, rfl⟩
abbrev main_v288 : Ref sig .tc := ⟨.hbm, 465, rfl⟩
abbrev main_v289 : Ref sig .tc := ⟨.hbm, 466, rfl⟩
abbrev main_v290 : Ref sig .tc := ⟨.hbm, 467, rfl⟩
abbrev main_v291 : Ref sig .tc := ⟨.hbm, 468, rfl⟩
abbrev main_call14_cst : Ref sig .tc := ⟨.hbm, 469, rfl⟩
abbrev main_call14_v0 : Ref sig .tc := ⟨.hbm, 470, rfl⟩
abbrev main_v292 : Ref sig .tc := ⟨.hbm, 471, rfl⟩
abbrev main_v293 : Ref sig .tc := ⟨.hbm, 472, rfl⟩
abbrev main_v294 : Ref sig .tc := ⟨.hbm, 473, rfl⟩
abbrev main_v295 : Ref sig .tc := ⟨.hbm, 474, rfl⟩
abbrev main_v296 : Ref sig .tc := ⟨.hbm, 475, rfl⟩
abbrev main_v297 : Ref sig .tc := ⟨.hbm, 476, rfl⟩
abbrev main_v298 : Ref sig .tc := ⟨.hbm, 477, rfl⟩
abbrev main_v299 : Ref sig .tc := ⟨.hbm, 478, rfl⟩
abbrev main_v300 : Ref sig .tc := ⟨.hbm, 479, rfl⟩
abbrev main_v301 : Ref sig .tc := ⟨.hbm, 480, rfl⟩
abbrev main_v302 : Ref sig .tc := ⟨.hbm, 481, rfl⟩
abbrev main_c_41 : Ref sig .tc := ⟨.hbm, 482, rfl⟩
abbrev main_v303 : Ref sig .tc := ⟨.hbm, 483, rfl⟩
abbrev main_v304 : Ref sig .tc := ⟨.hbm, 484, rfl⟩
abbrev main_c_42 : Ref sig .tc := ⟨.hbm, 485, rfl⟩
abbrev main_v305 : Ref sig .tc := ⟨.hbm, 486, rfl⟩
abbrev main_v306 : Ref sig .tc := ⟨.hbm, 487, rfl⟩
abbrev main_v307 : Ref sig .tc := ⟨.hbm, 488, rfl⟩
abbrev main_v308 : Ref sig .tc := ⟨.hbm, 489, rfl⟩
abbrev main_v309 : Ref sig .tc := ⟨.hbm, 490, rfl⟩
abbrev main_v310 : Ref sig .tc := ⟨.hbm, 491, rfl⟩
abbrev main_call15_cst : Ref sig .tc := ⟨.hbm, 492, rfl⟩
abbrev main_call15_v0 : Ref sig .tc := ⟨.hbm, 493, rfl⟩
abbrev main_v311 : Ref sig .tc := ⟨.hbm, 494, rfl⟩
abbrev main_v312 : Ref sig .tc := ⟨.hbm, 495, rfl⟩
abbrev main_v313 : Ref sig .tc := ⟨.hbm, 496, rfl⟩
abbrev main_cst_43 : Ref sig .tc := ⟨.hbm, 497, rfl⟩
abbrev main_v314 : Ref sig .tc := ⟨.hbm, 498, rfl⟩
abbrev main_v315 : Ref sig .tc := ⟨.hbm, 499, rfl⟩
abbrev main_v316 : Ref sig .tc := ⟨.hbm, 500, rfl⟩
abbrev main_v317 : Ref sig .tc := ⟨.hbm, 501, rfl⟩
abbrev main_v318 : Ref sig .tc := ⟨.hbm, 502, rfl⟩
abbrev main_v319 : Ref sig .tc := ⟨.hbm, 503, rfl⟩
abbrev main_v320 : Ref sig .tc := ⟨.hbm, 504, rfl⟩
abbrev main_v321 : Ref sig .tc := ⟨.hbm, 505, rfl⟩
abbrev main_call16_cst : Ref sig .tc := ⟨.hbm, 506, rfl⟩
abbrev main_call16_v0 : Ref sig .tc := ⟨.hbm, 507, rfl⟩
abbrev main_v322 : Ref sig .tc := ⟨.hbm, 508, rfl⟩
abbrev main_v323 : Ref sig .tc := ⟨.hbm, 509, rfl⟩
abbrev main_v324 : Ref sig .tc := ⟨.hbm, 510, rfl⟩
abbrev main_v325 : Ref sig .tc := ⟨.hbm, 511, rfl⟩
abbrev main_v326 : Ref sig .tc := ⟨.hbm, 512, rfl⟩
abbrev main_v327 : Ref sig .tc := ⟨.hbm, 513, rfl⟩
abbrev main_v328 : Ref sig .tc := ⟨.hbm, 514, rfl⟩
abbrev main_v329 : Ref sig .tc := ⟨.hbm, 515, rfl⟩
abbrev main_v330 : Ref sig .tc := ⟨.hbm, 516, rfl⟩
abbrev main_cst_44 : Ref sig .tc := ⟨.hbm, 517, rfl⟩
abbrev main_v331 : Ref sig .tc := ⟨.hbm, 518, rfl⟩
abbrev main_cst_45 : Ref sig .tc := ⟨.hbm, 519, rfl⟩
abbrev main_v332 : Ref sig .tc := ⟨.hbm, 520, rfl⟩
abbrev main_v333 : Ref sig .tc := ⟨.hbm, 521, rfl⟩
abbrev main_c_46 : Ref sig .tc := ⟨.hbm, 522, rfl⟩
abbrev main_call17_cst : Ref sig .tc := ⟨.hbm, 523, rfl⟩
abbrev main_call17_v0 : Ref sig .tc := ⟨.hbm, 524, rfl⟩
abbrev main_call17_v1 : Ref sig .tc := ⟨.hbm, 525, rfl⟩
abbrev main_call17_cst_0 : Ref sig .tc := ⟨.hbm, 526, rfl⟩
abbrev main_call17_v2 : Ref sig .tc := ⟨.hbm, 527, rfl⟩
abbrev main_call17_v3 : Ref sig .tc := ⟨.hbm, 528, rfl⟩
abbrev main_call17_v4 : Ref sig .tc := ⟨.hbm, 529, rfl⟩
abbrev main_call17_v5 : Ref sig .tc := ⟨.hbm, 530, rfl⟩
abbrev main_call17_v6 : Ref sig .tc := ⟨.hbm, 531, rfl⟩
abbrev main_call17_v7 : Ref sig .tc := ⟨.hbm, 532, rfl⟩
abbrev main_call17_cst_1 : Ref sig .tc := ⟨.hbm, 533, rfl⟩
abbrev main_call17_v8 : Ref sig .tc := ⟨.hbm, 534, rfl⟩
abbrev main_call17_cst_2 : Ref sig .tc := ⟨.hbm, 535, rfl⟩
abbrev main_call17_v9 : Ref sig .tc := ⟨.hbm, 536, rfl⟩
abbrev main_call17_v10 : Ref sig .tc := ⟨.hbm, 537, rfl⟩
abbrev main_call17_v11 : Ref sig .tc := ⟨.hbm, 538, rfl⟩
abbrev main_call17_cst_3 : Ref sig .tc := ⟨.hbm, 539, rfl⟩
abbrev main_call17_v12 : Ref sig .tc := ⟨.hbm, 540, rfl⟩
abbrev main_call17_cst_4 : Ref sig .tc := ⟨.hbm, 541, rfl⟩
abbrev main_call17_call0_v0 : Ref sig .tc := ⟨.hbm, 542, rfl⟩
abbrev main_call17_call0_v1 : Ref sig .tc := ⟨.hbm, 543, rfl⟩
abbrev main_v334 : Ref sig .tc := ⟨.hbm, 544, rfl⟩
abbrev main_v335 : Ref sig .tc := ⟨.hbm, 545, rfl⟩
abbrev main_v336 : Ref sig .tc := ⟨.hbm, 546, rfl⟩
abbrev main_v337 : Ref sig .tc := ⟨.hbm, 547, rfl⟩
abbrev main_cst_47 : Ref sig .tc := ⟨.hbm, 548, rfl⟩
abbrev main_v338 : Ref sig .tc := ⟨.hbm, 549, rfl⟩
abbrev main_v339 : Ref sig .tc := ⟨.hbm, 550, rfl⟩
abbrev main_v340 : Ref sig .tc := ⟨.hbm, 551, rfl⟩
abbrev main_v341 : Ref sig .tc := ⟨.hbm, 552, rfl⟩
abbrev main_v342 : Ref sig .tc := ⟨.hbm, 553, rfl⟩
abbrev main_v343 : Ref sig .tc := ⟨.hbm, 554, rfl⟩
abbrev main_v344 : Ref sig .tc := ⟨.hbm, 555, rfl⟩
abbrev main_v345 : Ref sig .tc := ⟨.hbm, 556, rfl⟩
abbrev main_v346 : Ref sig .tc := ⟨.hbm, 557, rfl⟩
abbrev main_v347 : Ref sig .tc := ⟨.hbm, 558, rfl⟩
abbrev main_v348 : Ref sig .tc := ⟨.hbm, 559, rfl⟩
abbrev main_v349 : Ref sig .tc := ⟨.hbm, 560, rfl⟩
abbrev main_cst_48 : Ref sig .tc := ⟨.hbm, 561, rfl⟩
abbrev main_v350 : Ref sig .tc := ⟨.hbm, 562, rfl⟩
abbrev main_cst_49 : Ref sig .tc := ⟨.hbm, 563, rfl⟩
abbrev main_v351 : Ref sig .tc := ⟨.hbm, 564, rfl⟩
abbrev main_v352 : Ref sig .tc := ⟨.hbm, 565, rfl⟩
abbrev main_v353 : Ref sig .tc := ⟨.hbm, 566, rfl⟩
abbrev main_cst_50 : Ref sig .tc := ⟨.hbm, 567, rfl⟩
abbrev main_v354 : Ref sig .tc := ⟨.hbm, 568, rfl⟩
abbrev main_v355 : Ref sig .tc := ⟨.hbm, 569, rfl⟩
abbrev main_cst_51 : Ref sig .tc := ⟨.hbm, 570, rfl⟩
abbrev main_v356 : Ref sig .tc := ⟨.hbm, 571, rfl⟩
abbrev main_v357 : Ref sig .tc := ⟨.hbm, 572, rfl⟩
abbrev main_v358 : Ref sig .tc := ⟨.hbm, 573, rfl⟩
abbrev main_v359 : Ref sig .tc := ⟨.hbm, 574, rfl⟩
abbrev main_v360 : Ref sig .tc := ⟨.hbm, 575, rfl⟩
abbrev main_v361 : Ref sig .tc := ⟨.hbm, 576, rfl⟩
abbrev main_v362 : Ref sig .tc := ⟨.hbm, 577, rfl⟩
abbrev main_v363 : Ref sig .tc := ⟨.hbm, 578, rfl⟩
abbrev main_v364 : Ref sig .tc := ⟨.hbm, 579, rfl⟩
abbrev main_v365 : Ref sig .tc := ⟨.hbm, 580, rfl⟩
abbrev main_v366 : Ref sig .tc := ⟨.hbm, 581, rfl⟩
abbrev main_v367 : Ref sig .tc := ⟨.hbm, 582, rfl⟩
abbrev main_v368 : Ref sig .tc := ⟨.hbm, 583, rfl⟩
abbrev main_v369 : Ref sig .tc := ⟨.hbm, 584, rfl⟩
abbrev main_v370 : Ref sig .tc := ⟨.hbm, 585, rfl⟩
abbrev main_v371 : Ref sig .tc := ⟨.hbm, 586, rfl⟩
abbrev main_c_52 : Ref sig .tc := ⟨.hbm, 587, rfl⟩
abbrev main_v372 : Ref sig .tc := ⟨.hbm, 588, rfl⟩
abbrev main_v373 : Ref sig .tc := ⟨.hbm, 589, rfl⟩
abbrev main_c_53 : Ref sig .tc := ⟨.hbm, 590, rfl⟩
abbrev main_v374 : Ref sig .tc := ⟨.hbm, 591, rfl⟩
abbrev main_v375 : Ref sig .tc := ⟨.hbm, 592, rfl⟩
abbrev main_v376 : Ref sig .tc := ⟨.hbm, 593, rfl⟩
abbrev main_v377 : Ref sig .tc := ⟨.hbm, 594, rfl⟩
abbrev main_v378 : Ref sig .tc := ⟨.hbm, 595, rfl⟩
abbrev main_v379 : Ref sig .tc := ⟨.hbm, 596, rfl⟩
abbrev main_call18_cst : Ref sig .tc := ⟨.hbm, 597, rfl⟩
abbrev main_call18_v0 : Ref sig .tc := ⟨.hbm, 598, rfl⟩
abbrev main_v380 : Ref sig .tc := ⟨.hbm, 599, rfl⟩
abbrev main_v381 : Ref sig .tc := ⟨.hbm, 600, rfl⟩
abbrev main_v382 : Ref sig .tc := ⟨.hbm, 601, rfl⟩
abbrev main_cst_54 : Ref sig .tc := ⟨.hbm, 602, rfl⟩
abbrev main_v383 : Ref sig .tc := ⟨.hbm, 603, rfl⟩
abbrev main_v384 : Ref sig .tc := ⟨.hbm, 604, rfl⟩
abbrev main_v385 : Ref sig .tc := ⟨.hbm, 605, rfl⟩
abbrev main_v386 : Ref sig .tc := ⟨.hbm, 606, rfl⟩
abbrev main_v387 : Ref sig .tc := ⟨.hbm, 607, rfl⟩
abbrev main_v388 : Ref sig .tc := ⟨.hbm, 608, rfl⟩
abbrev main_v389 : Ref sig .tc := ⟨.hbm, 609, rfl⟩
abbrev main_v390 : Ref sig .tc := ⟨.hbm, 610, rfl⟩
abbrev main_call19_cst : Ref sig .tc := ⟨.hbm, 611, rfl⟩
abbrev main_call19_v0 : Ref sig .tc := ⟨.hbm, 612, rfl⟩
abbrev main_v391 : Ref sig .tc := ⟨.hbm, 613, rfl⟩
abbrev main_v392 : Ref sig .tc := ⟨.hbm, 614, rfl⟩
abbrev main_v393 : Ref sig .tc := ⟨.hbm, 615, rfl⟩
abbrev main_v394 : Ref sig .tc := ⟨.hbm, 616, rfl⟩
abbrev main_v395 : Ref sig .tc := ⟨.hbm, 617, rfl⟩
abbrev main_v396 : Ref sig .tc := ⟨.hbm, 618, rfl⟩
abbrev main_v397 : Ref sig .tc := ⟨.hbm, 619, rfl⟩
abbrev main_v398 : Ref sig .tc := ⟨.hbm, 620, rfl⟩
abbrev main_v399 : Ref sig .tc := ⟨.hbm, 621, rfl⟩
abbrev main_cst_55 : Ref sig .tc := ⟨.hbm, 622, rfl⟩
abbrev main_v400 : Ref sig .tc := ⟨.hbm, 623, rfl⟩
abbrev main_cst_56 : Ref sig .tc := ⟨.hbm, 624, rfl⟩
abbrev main_v401 : Ref sig .tc := ⟨.hbm, 625, rfl⟩
abbrev main_v402 : Ref sig .tc := ⟨.hbm, 626, rfl⟩
abbrev main_c_57 : Ref sig .tc := ⟨.hbm, 627, rfl⟩
abbrev main_call20_cst : Ref sig .tc := ⟨.hbm, 628, rfl⟩
abbrev main_call20_v0 : Ref sig .tc := ⟨.hbm, 629, rfl⟩
abbrev main_call20_v1 : Ref sig .tc := ⟨.hbm, 630, rfl⟩
abbrev main_call20_cst_0 : Ref sig .tc := ⟨.hbm, 631, rfl⟩
abbrev main_call20_v2 : Ref sig .tc := ⟨.hbm, 632, rfl⟩
abbrev main_call20_v3 : Ref sig .tc := ⟨.hbm, 633, rfl⟩
abbrev main_call20_v4 : Ref sig .tc := ⟨.hbm, 634, rfl⟩
abbrev main_call20_v5 : Ref sig .tc := ⟨.hbm, 635, rfl⟩
abbrev main_call20_v6 : Ref sig .tc := ⟨.hbm, 636, rfl⟩
abbrev main_call20_v7 : Ref sig .tc := ⟨.hbm, 637, rfl⟩
abbrev main_call20_cst_1 : Ref sig .tc := ⟨.hbm, 638, rfl⟩
abbrev main_call20_v8 : Ref sig .tc := ⟨.hbm, 639, rfl⟩
abbrev main_call20_cst_2 : Ref sig .tc := ⟨.hbm, 640, rfl⟩
abbrev main_call20_v9 : Ref sig .tc := ⟨.hbm, 641, rfl⟩
abbrev main_call20_v10 : Ref sig .tc := ⟨.hbm, 642, rfl⟩
abbrev main_call20_v11 : Ref sig .tc := ⟨.hbm, 643, rfl⟩
abbrev main_call20_cst_3 : Ref sig .tc := ⟨.hbm, 644, rfl⟩
abbrev main_call20_v12 : Ref sig .tc := ⟨.hbm, 645, rfl⟩
abbrev main_call20_cst_4 : Ref sig .tc := ⟨.hbm, 646, rfl⟩
abbrev main_call20_call0_v0 : Ref sig .tc := ⟨.hbm, 647, rfl⟩
abbrev main_call20_call0_v1 : Ref sig .tc := ⟨.hbm, 648, rfl⟩
abbrev main_v403 : Ref sig .tc := ⟨.hbm, 649, rfl⟩
abbrev main_v404 : Ref sig .tc := ⟨.hbm, 650, rfl⟩
abbrev main_v405 : Ref sig .tc := ⟨.hbm, 651, rfl⟩
abbrev main_v406 : Ref sig .tc := ⟨.hbm, 652, rfl⟩
abbrev main_cst_58 : Ref sig .tc := ⟨.hbm, 653, rfl⟩
abbrev main_v407 : Ref sig .tc := ⟨.hbm, 654, rfl⟩
abbrev main_v408 : Ref sig .tc := ⟨.hbm, 655, rfl⟩
abbrev main_v409 : Ref sig .tc := ⟨.hbm, 656, rfl⟩
abbrev main_v410 : Ref sig .tc := ⟨.hbm, 657, rfl⟩
abbrev main_v411 : Ref sig .tc := ⟨.hbm, 658, rfl⟩
abbrev main_v412 : Ref sig .tc := ⟨.hbm, 659, rfl⟩
abbrev main_v413 : Ref sig .tc := ⟨.hbm, 660, rfl⟩
abbrev main_v414 : Ref sig .tc := ⟨.hbm, 661, rfl⟩
abbrev main_v415 : Ref sig .tc := ⟨.hbm, 662, rfl⟩
abbrev main_v416 : Ref sig .tc := ⟨.hbm, 663, rfl⟩
abbrev main_v417 : Ref sig .tc := ⟨.hbm, 664, rfl⟩
abbrev main_v418 : Ref sig .tc := ⟨.hbm, 665, rfl⟩
abbrev main_c_59 : Ref sig .tc := ⟨.hbm, 666, rfl⟩
abbrev main_v419 : Ref sig .tc := ⟨.hbm, 667, rfl⟩
abbrev main_v420 : Ref sig .tc := ⟨.hbm, 668, rfl⟩
abbrev main_c_60 : Ref sig .tc := ⟨.hbm, 669, rfl⟩
abbrev main_v421 : Ref sig .tc := ⟨.hbm, 670, rfl⟩
abbrev main_v422 : Ref sig .tc := ⟨.hbm, 671, rfl⟩
abbrev main_v423 : Ref sig .tc := ⟨.hbm, 672, rfl⟩
abbrev main_v424 : Ref sig .tc := ⟨.hbm, 673, rfl⟩
abbrev main_v425 : Ref sig .tc := ⟨.hbm, 674, rfl⟩
abbrev main_v426 : Ref sig .tc := ⟨.hbm, 675, rfl⟩
abbrev main_call21_cst : Ref sig .tc := ⟨.hbm, 676, rfl⟩
abbrev main_call21_v0 : Ref sig .tc := ⟨.hbm, 677, rfl⟩
abbrev main_v427 : Ref sig .tc := ⟨.hbm, 678, rfl⟩
abbrev main_cst_61 : Ref sig .tc := ⟨.hbm, 679, rfl⟩
abbrev main_v428 : Ref sig .tc := ⟨.hbm, 680, rfl⟩
abbrev main_cst_62 : Ref sig .tc := ⟨.hbm, 681, rfl⟩
abbrev main_v429 : Ref sig .tc := ⟨.hbm, 682, rfl⟩
abbrev main_v430 : Ref sig .tc := ⟨.hbm, 683, rfl⟩
abbrev main_v431 : Ref sig .tc := ⟨.hbm, 684, rfl⟩
abbrev main_cst_63 : Ref sig .tc := ⟨.hbm, 685, rfl⟩
abbrev main_v432 : Ref sig .tc := ⟨.hbm, 686, rfl⟩
abbrev main_v433 : Ref sig .tc := ⟨.hbm, 687, rfl⟩
abbrev main_cst_64 : Ref sig .tc := ⟨.hbm, 688, rfl⟩
abbrev main_v434 : Ref sig .tc := ⟨.hbm, 689, rfl⟩
abbrev main_v435 : Ref sig .tc := ⟨.hbm, 690, rfl⟩
abbrev main_v436 : Ref sig .tc := ⟨.hbm, 691, rfl⟩
abbrev main_v437 : Ref sig .tc := ⟨.hbm, 692, rfl⟩
abbrev main_v438 : Ref sig .tc := ⟨.hbm, 693, rfl⟩
abbrev main_v439 : Ref sig .tc := ⟨.hbm, 694, rfl⟩
abbrev main_cst_65 : Ref sig .tc := ⟨.hbm, 695, rfl⟩
abbrev main_v440 : Ref sig .tc := ⟨.hbm, 696, rfl⟩
abbrev main_cst_66 : Ref sig .tc := ⟨.hbm, 697, rfl⟩
abbrev main_v441 : Ref sig .tc := ⟨.hbm, 698, rfl⟩
abbrev main_v442 : Ref sig .tc := ⟨.hbm, 699, rfl⟩
abbrev main_v443 : Ref sig .tc := ⟨.hbm, 700, rfl⟩
abbrev main_cst_67 : Ref sig .tc := ⟨.hbm, 701, rfl⟩
abbrev main_v444 : Ref sig .tc := ⟨.hbm, 702, rfl⟩
abbrev main_v445 : Ref sig .tc := ⟨.hbm, 703, rfl⟩
abbrev main_cst_68 : Ref sig .tc := ⟨.hbm, 704, rfl⟩
abbrev main_v446 : Ref sig .tc := ⟨.hbm, 705, rfl⟩
abbrev main_v447 : Ref sig .tc := ⟨.hbm, 706, rfl⟩
abbrev main_v448 : Ref sig .tc := ⟨.hbm, 707, rfl⟩
abbrev main_v449 : Ref sig .tc := ⟨.hbm, 708, rfl⟩
abbrev main_v450 : Ref sig .tc := ⟨.hbm, 709, rfl⟩
abbrev main_v451 : Ref sig .tc := ⟨.hbm, 710, rfl⟩
abbrev main_v452 : Ref sig .tc := ⟨.hbm, 711, rfl⟩
abbrev main_v453 : Ref sig .tc := ⟨.hbm, 712, rfl⟩
abbrev main_v454 : Ref sig .tc := ⟨.hbm, 713, rfl⟩
abbrev main_v455 : Ref sig .tc := ⟨.hbm, 714, rfl⟩
abbrev main_call22_cst : Ref sig .tc := ⟨.hbm, 715, rfl⟩
abbrev main_call22_v0 : Ref sig .tc := ⟨.hbm, 716, rfl⟩
abbrev main_v456 : Ref sig .tc := ⟨.hbm, 717, rfl⟩
abbrev main_v457 : Ref sig .tc := ⟨.hbm, 718, rfl⟩
abbrev main_v458 : Ref sig .tc := ⟨.hbm, 719, rfl⟩
abbrev main_v459 : Ref sig .tc := ⟨.hbm, 720, rfl⟩
abbrev main_v460 : Ref sig .tc := ⟨.hbm, 721, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S147456x64_0_1 : S1x64.BroadcastsInDim S147456x64 (![0, 1] : Fin 2 → Fin S147456x64.rank)
  bcast_S1x64_S884736x64_0_1 : S1x64.BroadcastsInDim S884736x64 (![0, 1] : Fin 2 → Fin S884736x64.rank)
  bcast_S1x64_S18432x64_0_1 : S1x64.BroadcastsInDim S18432x64 (![0, 1] : Fin 2 → Fin S18432x64.rank)
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  concatenates_S1_S64_S65_d0 : Shape.Concatenates [S1, S64] S65 0
  bcast_S_S147456 : S_.BroadcastsInDim S147456 (![] : Fin 0 → Fin S147456.rank)
  bcast_S147456_S147456x1_0 : S147456.BroadcastsInDim S147456x1 (![0] : Fin 1 → Fin S147456x1.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  slices_S2x884736_S1x884736_0_0 : S2x884736.Slices ![0, 0] S1x884736
  shapeCasts_S1x884736_S884736 : S1x884736.ShapeCasts S884736
  bcast_S_S884736 : S_.BroadcastsInDim S884736 (![] : Fin 0 → Fin S884736.rank)
  bcast_S884736_S884736x1_0 : S884736.BroadcastsInDim S884736x1 (![0] : Fin 1 → Fin S884736x1.rank)
  bcast_S_S884736x64 : S_.BroadcastsInDim S884736x64 (![] : Fin 0 → Fin S884736x64.rank)
  slices_S2x884736_S1x884736_1_0 : S2x884736.Slices ![1, 0] S1x884736
  bcast_S_S147456x64 : S_.BroadcastsInDim S147456x64 (![] : Fin 0 → Fin S147456x64.rank)
  bcast_S128_S1x128_1 : S128.BroadcastsInDim S1x128 (![1] : Fin 1 → Fin S1x128.rank)
  bcast_S1x128_S147456x128_0_1 : S1x128.BroadcastsInDim S147456x128 (![0, 1] : Fin 2 → Fin S147456x128.rank)
  bcast_S_S147456x128 : S_.BroadcastsInDim S147456x128 (![] : Fin 0 → Fin S147456x128.rank)
  reducesTo_S147456x64_S64_d0 : S147456x64.ReducesTo [0] S64
  bcast_S_S64 : S_.BroadcastsInDim S64 (![] : Fin 0 → Fin S64.rank)
  bcast_S_S1x64 : S_.BroadcastsInDim S1x64 (![] : Fin 0 → Fin S1x64.rank)
  bcast_S_S3072 : S_.BroadcastsInDim S3072 (![] : Fin 0 → Fin S3072.rank)
  bcast_S_S3072x64 : S_.BroadcastsInDim S3072x64 (![] : Fin 0 → Fin S3072x64.rank)
  bcast_S3072_S3072x1_0 : S3072.BroadcastsInDim S3072x1 (![0] : Fin 1 → Fin S3072x1.rank)
  bcast_S3072x1_S3072x64_0_1 : S3072x1.BroadcastsInDim S3072x64 (![0, 1] : Fin 2 → Fin S3072x64.rank)
  slices_S2x18432_S1x18432_0_0 : S2x18432.Slices ![0, 0] S1x18432
  shapeCasts_S1x18432_S18432 : S1x18432.ShapeCasts S18432
  bcast_S_S18432 : S_.BroadcastsInDim S18432 (![] : Fin 0 → Fin S18432.rank)
  bcast_S18432_S18432x1_0 : S18432.BroadcastsInDim S18432x1 (![0] : Fin 1 → Fin S18432x1.rank)
  bcast_S_S18432x64 : S_.BroadcastsInDim S18432x64 (![] : Fin 0 → Fin S18432x64.rank)
  slices_S2x18432_S1x18432_1_0 : S2x18432.Slices ![1, 0] S1x18432
  bcast_S1x128_S3072x128_0_1 : S1x128.BroadcastsInDim S3072x128 (![0, 1] : Fin 2 → Fin S3072x128.rank)
  bcast_S_S3072x128 : S_.BroadcastsInDim S3072x128 (![] : Fin 0 → Fin S3072x128.rank)
  bcast_S1x64_S3072x64_0_1 : S1x64.BroadcastsInDim S3072x64 (![0, 1] : Fin 2 → Fin S3072x64.rank)
  reducesTo_S3072x64_S64_d0 : S3072x64.ReducesTo [0] S64
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3x64_S1x64_1_0 : S3x64.Slices ![1, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  slices_S3x64_S1x64_2_0 : S3x64.Slices ![2, 0] S1x64
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S147456x16_S16x64_S147456x64_1_0_0_1_n_n_wf : DotDims.WF S147456x16 S16x64 S147456x64 [1] [0] [0] [1] [] []
  dot_S884736x8_S8x64_S884736x64_1_0_0_1_n_n_wf : DotDims.WF S884736x8 S8x64 S884736x64 [1] [0] [0] [1] [] []
  dot_S18432x8_S8x64_S18432x64_1_0_0_1_n_n_wf : DotDims.WF S18432x8 S8x64 S18432x64 [1] [0] [0] [1] [] []
  gather_S65_S147456x1_S147456_n_0_n_n_0_1_1_wf : GatherDims.WF S65 S147456x1 S147456 [] [0] [] [0] [] 1 ![1]
  gather_S147456x64_S884736x1_S884736x64_1_0_n_n_0_1_164_wf : GatherDims.WF S147456x64 S884736x1 S884736x64 [1] [0] [] [0] [] 1 ![1, 64]
  scatter_S147456x64_S884736x1_S884736x64_1_0_0_1_wf : ScatterDims.WF S147456x64 S884736x1 S884736x64 [1] [0] [0] 1
  dot_S147456x64_S64x128_S147456x128_1_0_0_1_n_n_wf : DotDims.WF S147456x64 S64x128 S147456x128 [1] [0] [0] [1] [] []
  dot_S147456x128_S128x64_S147456x64_1_0_0_1_n_n_wf : DotDims.WF S147456x128 S128x64 S147456x64 [1] [0] [0] [1] [] []
  scatter_S3072_S147456x1_S147456_n_0_0_1_wf : ScatterDims.WF S3072 S147456x1 S147456 [] [0] [0] 1
  scatter_S3072x64_S147456x1_S147456x64_1_0_0_1_wf : ScatterDims.WF S3072x64 S147456x1 S147456x64 [1] [0] [0] 1
  gather_S3072x64_S18432x1_S18432x64_1_0_n_n_0_1_164_wf : GatherDims.WF S3072x64 S18432x1 S18432x64 [1] [0] [] [0] [] 1 ![1, 64]
  scatter_S3072x64_S18432x1_S18432x64_1_0_0_1_wf : ScatterDims.WF S3072x64 S18432x1 S18432x64 [1] [0] [0] 1
  dot_S3072x64_S64x128_S3072x128_1_0_0_1_n_n_wf : DotDims.WF S3072x64 S64x128 S3072x128 [1] [0] [0] [1] [] []
  dot_S3072x128_S128x64_S3072x64_1_0_0_1_n_n_wf : DotDims.WF S3072x128 S128x64 S3072x64 [1] [0] [0] [1] [] []
  gather_S3072x64_S147456x1_S147456x64_1_0_n_n_0_1_164_wf : GatherDims.WF S3072x64 S147456x1 S147456x64 [1] [0] [] [0] [] 1 ![1, 64]
  scatter_S64_S3072x1_S3072_n_0_0_1_wf : ScatterDims.WF S64 S3072x1 S3072 [] [0] [0] 1
  scatter_S64x64_S3072x1_S3072x64_1_0_0_1_wf : ScatterDims.WF S64x64 S3072x1 S3072x64 [1] [0] [0] 1
  dot_S64x64_S64x128_S64x128_1_0_0_1_n_n_wf : DotDims.WF S64x64 S64x128 S64x128 [1] [0] [0] [1] [] []
  dot_S64x128_S128x10_S64x10_1_0_0_1_n_n_wf : DotDims.WF S64x128 S128x10 S64x10 [1] [0] [0] [1] [] []

variable [Facts₀]

def dot_S147456x16_S16x64_S147456x64_1_0_0_1_n_n : DotDims S147456x16 S16x64 S147456x64 where
  lhsContracting := [1]
  rhsContracting := [0]
  lhsNonContracting := [0]
  rhsNonContracting := [1]
  lhsBatch := []
  rhsBatch := []
  wf := dot_S147456x16_S16x64_S147456x64_1_0_0_1_n_n_wf
def dot_S884736x8_S8x64_S884736x64_1_0_0_1_n_n : DotDims S884736x8 S8x64 S884736x64 where
  lhsContracting := [1]
  rhsContracting := [0]
  lhsNonContracting := [0]
  rhsNonContracting := [1]
  lhsBatch := []
  rhsBatch := []
  wf := dot_S884736x8_S8x64_S884736x64_1_0_0_1_n_n_wf
def dot_S18432x8_S8x64_S18432x64_1_0_0_1_n_n : DotDims S18432x8 S8x64 S18432x64 where
  lhsContracting := [1]
  rhsContracting := [0]
  lhsNonContracting := [0]
  rhsNonContracting := [1]
  lhsBatch := []
  rhsBatch := []
  wf := dot_S18432x8_S8x64_S18432x64_1_0_0_1_n_n_wf
def gather_S65_S147456x1_S147456_n_0_n_n_0_1_1 : GatherDims S65 S147456x1 S147456 where
  offsetDims := []
  collapsedSliceDims := [0]
  operandBatchingDims := []
  startIndicesBatchingDims := []
  startIndexMap := [0]
  indexVectorDim := 1
  sliceSizes := ![1]
  wf := gather_S65_S147456x1_S147456_n_0_n_n_0_1_1_wf
def gather_S147456x64_S884736x1_S884736x64_1_0_n_n_0_1_164 : GatherDims S147456x64 S884736x1 S884736x64 where
  offsetDims := [1]
  collapsedSliceDims := [0]
  operandBatchingDims := []
  startIndicesBatchingDims := []
  startIndexMap := [0]
  indexVectorDim := 1
  sliceSizes := ![1, 64]
  wf := gather_S147456x64_S884736x1_S884736x64_1_0_n_n_0_1_164_wf
def scatter_S147456x64_S884736x1_S884736x64_1_0_0_1 : ScatterDims S147456x64 S884736x1 S884736x64 where
  updateWindowDims := [1]
  insertedWindowDims := [0]
  scatterDimsToOperandDims := [0]
  indexVectorDim := 1
  wf := scatter_S147456x64_S884736x1_S884736x64_1_0_0_1_wf
def dot_S147456x64_S64x128_S147456x128_1_0_0_1_n_n : DotDims S147456x64 S64x128 S147456x128 where
  lhsContracting := [1]
  rhsContracting := [0]
  lhsNonContracting := [0]
  rhsNonContracting := [1]
  lhsBatch := []
  rhsBatch := []
  wf := dot_S147456x64_S64x128_S147456x128_1_0_0_1_n_n_wf
def dot_S147456x128_S128x64_S147456x64_1_0_0_1_n_n : DotDims S147456x128 S128x64 S147456x64 where
  lhsContracting := [1]
  rhsContracting := [0]
  lhsNonContracting := [0]
  rhsNonContracting := [1]
  lhsBatch := []
  rhsBatch := []
  wf := dot_S147456x128_S128x64_S147456x64_1_0_0_1_n_n_wf
def scatter_S3072_S147456x1_S147456_n_0_0_1 : ScatterDims S3072 S147456x1 S147456 where
  updateWindowDims := []
  insertedWindowDims := [0]
  scatterDimsToOperandDims := [0]
  indexVectorDim := 1
  wf := scatter_S3072_S147456x1_S147456_n_0_0_1_wf
def scatter_S3072x64_S147456x1_S147456x64_1_0_0_1 : ScatterDims S3072x64 S147456x1 S147456x64 where
  updateWindowDims := [1]
  insertedWindowDims := [0]
  scatterDimsToOperandDims := [0]
  indexVectorDim := 1
  wf := scatter_S3072x64_S147456x1_S147456x64_1_0_0_1_wf
def gather_S3072x64_S18432x1_S18432x64_1_0_n_n_0_1_164 : GatherDims S3072x64 S18432x1 S18432x64 where
  offsetDims := [1]
  collapsedSliceDims := [0]
  operandBatchingDims := []
  startIndicesBatchingDims := []
  startIndexMap := [0]
  indexVectorDim := 1
  sliceSizes := ![1, 64]
  wf := gather_S3072x64_S18432x1_S18432x64_1_0_n_n_0_1_164_wf
def scatter_S3072x64_S18432x1_S18432x64_1_0_0_1 : ScatterDims S3072x64 S18432x1 S18432x64 where
  updateWindowDims := [1]
  insertedWindowDims := [0]
  scatterDimsToOperandDims := [0]
  indexVectorDim := 1
  wf := scatter_S3072x64_S18432x1_S18432x64_1_0_0_1_wf
def dot_S3072x64_S64x128_S3072x128_1_0_0_1_n_n : DotDims S3072x64 S64x128 S3072x128 where
  lhsContracting := [1]
  rhsContracting := [0]
  lhsNonContracting := [0]
  rhsNonContracting := [1]
  lhsBatch := []
  rhsBatch := []
  wf := dot_S3072x64_S64x128_S3072x128_1_0_0_1_n_n_wf
def dot_S3072x128_S128x64_S3072x64_1_0_0_1_n_n : DotDims S3072x128 S128x64 S3072x64 where
  lhsContracting := [1]
  rhsContracting := [0]
  lhsNonContracting := [0]
  rhsNonContracting := [1]
  lhsBatch := []
  rhsBatch := []
  wf := dot_S3072x128_S128x64_S3072x64_1_0_0_1_n_n_wf
def gather_S3072x64_S147456x1_S147456x64_1_0_n_n_0_1_164 : GatherDims S3072x64 S147456x1 S147456x64 where
  offsetDims := [1]
  collapsedSliceDims := [0]
  operandBatchingDims := []
  startIndicesBatchingDims := []
  startIndexMap := [0]
  indexVectorDim := 1
  sliceSizes := ![1, 64]
  wf := gather_S3072x64_S147456x1_S147456x64_1_0_n_n_0_1_164_wf
def scatter_S64_S3072x1_S3072_n_0_0_1 : ScatterDims S64 S3072x1 S3072 where
  updateWindowDims := []
  insertedWindowDims := [0]
  scatterDimsToOperandDims := [0]
  indexVectorDim := 1
  wf := scatter_S64_S3072x1_S3072_n_0_0_1_wf
def scatter_S64x64_S3072x1_S3072x64_1_0_0_1 : ScatterDims S64x64 S3072x1 S3072x64 where
  updateWindowDims := [1]
  insertedWindowDims := [0]
  scatterDimsToOperandDims := [0]
  indexVectorDim := 1
  wf := scatter_S64x64_S3072x1_S3072x64_1_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KRun.lean ====
/- The idealized kernel's run with its result named: from any launch memory with zero counters every weakly fair
   execution of @main on the TensorCores terminates, nothing faulting, and in every final state the result buffer
   holds the last boundary valuation's contents at it (the fold of @main's host stretches and regions from the launch
   memory, `GenP.W52`), while every argument array is as launched. The value of that fold is computed elsewhere; here
   only the run is established. -/
import proofs.«177129_j59004260712467_1_alg».proof.Proof.FrameKernelIdeal

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this one, which takes unfolding
-- plain definitions in a metavariable's type
set_option maxHeartbeats 1000000 in
set_option backward.isDefEq.respectTransparency.types false in
/-- THE RUN WITH ITS RESULT: every weakly fair execution of @main terminates without fault; in every final state the
    result buffer `main_v363` holds `GenP.W52 m ρ c` at it and each argument array is as launched. The final thread state
    "every unscoped buffer at the last boundary's contents" is read against the final memory at the result buffer
    directly and at each argument through its walk back to the launch memory. -/
theorem run_val : θ_run defs (onTc (τ := τ) (main (F := F))) ⟨m, fun _ => 0, ρ⟩ (fun r => ∀ c : Dev nD,
      r.2.mem ((c.tc : Thread nD τ).loc main_v363) = GenP.W52 m ρ c (Proc.devRef .tc main_v363)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W52 m ρ c b)
    (hfin := fun c s' => by
      iintro ⟨⟨Hh, -⟩, HSI⟩
      unfold StableHlo.held
      imodintro
      iapply (pointsTo_read_all (Pipeline.ucRefs τ sig) (fun b => (((c : Thread nD τ)).1, b)) (W52 m ρ c) s')
      isplitl [Hh] <;> iassumption)
    (hQ := fun s h c =>
      ⟨h c _ (mem_uc main_v363 (by decide)),
       (h c _ (mem_uc main_arg0 (by decide))).trans (W52_main_arg0 m ρ c),
       (h c _ (mem_uc main_arg1 (by decide))).trans (W52_main_arg1 m ρ c),
       (h c _ (mem_uc main_arg2 (by decide))).trans (W52_main_arg2 m ρ c),
       (h c _ (mem_uc main_arg3 (by decide))).trans (W52_main_arg3 m ρ c),
       (h c _ (mem_uc main_arg4 (by decide))).trans (W52_main_arg4 m ρ c),
       (h c _ (mem_uc main_arg5 (by decide))).trans (W52_main_arg5 m ρ c),
       (h c _ (mem_uc main_arg6 (by decide))).trans (W52_main_arg6 m ρ c),
       (h c _ (mem_uc main_arg7 (by decide))).trans (W52_main_arg7 m ρ c),
       (h c _ (mem_uc main_arg8 (by decide))).trans (W52_main_arg8 m ρ c),
       (h c _ (mem_uc main_arg9 (by decide))).trans (W52_main_arg9 m ρ c),
       (h c _ (mem_uc main_arg10 (by decide))).trans (W52_main_arg10 m ρ c),
       (h c _ (mem_uc main_arg11 (by decide))).trans (W52_main_arg11 m ρ c),
       (h c _ (mem_uc main_arg12 (by decide))).trans (W52_main_arg12 m ρ c),
       (h c _ (mem_uc main_arg13 (by decide))).trans (W52_main_arg13 m ρ c),
       (h c _ (mem_uc main_arg14 (by decide))).trans (W52_main_arg14 m ρ c),
       (h c _ (mem_uc main_arg15 (by decide))).trans (W52_main_arg15 m ρ c),
       (h c _ (mem_uc main_arg16 (by decide))).trans (W52_main_arg16 m ρ c),
       (h c _ (mem_uc main_arg17 (by decide))).trans (W52_main_arg17 m ρ c),
       (h c _ (mem_uc main_arg18 (by decide))).trans (W52_main_arg18 m ρ c),
       (h c _ (mem_uc main_arg19 (by decide))).trans (W52_main_arg19 m ρ c),
       (h c _ (mem_uc main_arg20 (by decide))).trans (W52_main_arg20 m ρ c),
       (h c _ (mem_uc main_arg21 (by decide))).trans (W52_main_arg21 m ρ c),
       (h c _ (mem_uc main_arg22 (by decide))).trans (W52_main_arg22 m ρ c),
       (h c _ (mem_uc main_arg23 (by decide))).trans (W52_main_arg23 m ρ c),
       (h c _ (mem_uc main_arg24 (by decide))).trans (W52_main_arg24 m ρ c),
       (h c _ (mem_uc main_arg25 (by decide))).trans (W52_main_arg25 m ρ c),
       (h c _ (mem_uc main_arg26 (by decide))).trans (W52_main_arg26 m ρ c),
       (h c _ (mem_uc main_arg27 (by decide))).trans (W52_main_arg27 m ρ c),
       (h c _ (mem_uc main_arg28 (by decide))).trans (W52_main_arg28 m ρ c),
       (h c _ (mem_uc main_arg29 (by decide))).trans (W52_main_arg29 m ρ c)⟩)

end Cert.KernelIdeal.KRun

end
-- ==== Proof.KWalkWrites.lean ====
/- What each stretch of host operations of the idealized kernel's @main writes: exactly the result references of its
   operations, as a literal list, so that "this stretch does not write that buffer" is decided on references. -/
import proofs.«177129_j59004260712467_1_alg».proof.Proof.Gen.KernelIdeal.Launch

set_option maxRecDepth 16384

noncomputable section

namespace Cert.KernelIdeal.KRun

open Idealize.ShloMosaic Idealize.ShloMosaic.TcCoe
open Idealize.SL Idealize.SL.Sem
open Cert.KernelIdeal.Gen

variable {F : FTy → Type} [FloatOps F]

/-- The references `hostOps0`'s operations write. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  exact List.mem_map_of_mem (by decide)
/-- The references `hostOps1`'s operations write. -/
abbrev hostOps1_W : List (Ref sig .tc) := [main_v2]
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  exact List.mem_map_of_mem (by decide)
/-- The references `hostOps2`'s operations write. -/
abbrev hostOps2_W : List (Ref sig .tc) := [main_v4]
theorem hostOps2_writes : (hostOps2 : List (HloOp τ sig (Elt F))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  exact List.mem_map_of_mem (by decide)
/-- The references `hostOps3`'s operations write. -/
abbrev hostOps3_W : List (Ref sig .tc) := [main_c, main_v6]
theorem hostOps3_writes : (hostOps3 : List (HloOp τ sig (Elt F))).Forall fun op => op.writes ⊆ (hostOps3_W.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps3_1`'s operations write. -/
abbrev hostOps3_1_W : List (Ref sig .tc) := [main_call0_call0_c, main_call0_call0_v0, main_v7]
theorem hostOps3_1_writes : (hostOps3_1 : List (HloOp τ sig (Elt F))).Forall fun op => op.writes ⊆ (hostOps3_1_W.map (Proc.devRef (τ := τ) .tc)).toFinset := by
  simp only [hostOps3_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps3_2`'s operations write. -/
abbrev hostOps3_2_W : List (Ref sig .tc) := [main_v8, main_c_0, main_v9, main_v10, main_c_1, main_v11, main_v12, main_v13, main_v14, main_v15, main_v16, main_v17, main_v18, main_v19, main_v20, main_v21, main_v22, main_v23, main_v24, main_c_2, main_v25, main_v26, main_c_3, main_v27, main_v28, main_v29, main_v30, main_v31, main_v32]
theorem hostOps3_2_writes : (hostOps3_2 : List (HloOp τ sig (Elt F))).Forall fun op => op.writes ⊆ (hostOps3_2_W.map (Proc.devRef (τ := τ) .tc)).toFinset := by
  simp only [hostOps3_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps3_3`'s operations write. -/
abbrev hostOps3_3_W : List (Ref sig .tc) := [main_call1_cst, main_call1_v0, main_v33]
theorem hostOps3_3_writes : (hostOps3_3 : List (HloOp τ sig (Elt F))).Forall fun op => op.writes ⊆ (hostOps3_3_W.map (Proc.devRef (τ := τ) .tc)).toFinset := by
  simp only [hostOps3_3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps3_4`'s operations write. -/
abbrev hostOps3_4_W : List (Ref sig .tc) := [main_cst, main_v34, main_v35, main_v36, main_v37, main_v38, main_v39, main_v40, main_v41, main_v42, main_v43, main_v44, main_v45, main_v46, main_v47]
theorem hostOps3_4_writes : (hostOps3_4 : List (HloOp τ sig (Elt F))).Forall fun op => op.writes ⊆ (hostOps3_4_W.map (Proc.devRef (τ := τ) .tc)).toFinset := by
  simp only [hostOps3_4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps4`'s operations write. -/
abbrev hostOps4_W : List (Ref sig .tc) := [main_v49, main_v50, main_v51, main_v52, main_cst_4, main_v53, main_cst_5, main_v54, main_v55, main_c_6]
theorem hostOps4_writes : (hostOps4 : List (HloOp τ sig (Elt F))).Forall fun op => op.writes ⊆ (hostOps4_W.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps4_1`'s operations write. -/
abbrev hostOps4_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v56]
theorem hostOps4_1_writes : (hostOps4_1 : List (HloOp τ sig (Elt F))).Forall fun op => op.writes ⊆ (hostOps4_1_W.map (Proc.devRef (τ := τ) .tc)).toFinset := by
  simp only [hostOps4_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps4_2`'s operations write. -/
abbrev hostOps4_2_W : List (Ref sig .tc) := [main_cst_7, main_v57, main_v58, main_v59, main_v60, main_v61, main_v62, main_cst_8, main_v63, main_cst_9, main_v64, main_v65, main_v66, main_cst_10, main_v67, main_v68, main_cst_11, main_v69, main_v70, main_v71, main_v72, main_v73, main_v74, main_c_12, main_v75, main_v76, main_c_13, main_v77, main_v78, main_v79, main_v80, main_v81, main_v82]
theorem hostOps4_2_writes : (hostOps4_2 : List (HloOp τ sig (Elt F))).Forall fun op => op.writes ⊆ (hostOps4_2_W.map (Proc.devRef (τ := τ) .tc)).toFinset := by
  simp only [hostOps4_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps4_3`'s operations write. -/
abbrev hostOps4_3_W : List (Ref sig .tc) := [main_call3_cst, main_call3_v0, main_v83]
theorem hostOps4_3_writes : (hostOps4_3 : List (HloOp τ sig (Elt F))).Forall fun op => op.writes ⊆ (hostOps4_3_W.map (Proc.devRef (τ := τ) .tc)).toFinset := by
  simp only [hostOps4_3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps4_4`'s operations write. -/
abbrev hostOps4_4_W : List (Ref sig .tc) := [main_cst_14, main_v84, main_v85, main_v86, main_v87, main_v88, main_v89, main_v90, main_v91, main_v92, main_v93, main_v94, main_v95, main_v96, main_v97]
theorem hostOps4_4_writes : (hostOps4_4 : List (HloOp τ sig (Elt F))).Forall fun op => op.writes ⊆ (hostOps4_4_W.map (Proc.devRef (τ := τ) .tc)).toFinset := by
  simp only [hostOps4_4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps5`'s operations write. -/
abbrev hostOps5_W : List (Ref sig .tc) := [main_v99, main_v100, main_v101, main_v102, main_cst_15, main_v103, main_cst_16, main_v104, main_v105, main_c_17]
theorem hostOps5_writes : (hostOps5 : List (HloOp τ sig (Elt F))).Forall fun op => op.writes ⊆ (hostOps5_W.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps5_1`'s operations write. -/
abbrev hostOps5_1_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v106]
theorem hostOps5_1_writes : (hostOps5_1 : List (HloOp τ sig (Elt F))).Forall fun op => op.writes ⊆ (hostOps5_1_W.map (Proc.devRef (τ := τ) .tc)).toFinset := by
  simp only [hostOps5_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps5_2`'s operations write. -/
abbrev hostOps5_2_W : List (Ref sig .tc) := [main_cst_18, main_v107, main_v108, main_v109, main_v110, main_v111, main_v112, main_v113, main_v114, main_v115, main_v116, main_v117, main_v118, main_c_19, main_v119, main_v120, main_c_20, main_v121, main_v122, main_v123, main_v124, main_v125, main_v126, main_v127]
theorem hostOps5_2_writes : (hostOps5_2 : List (HloOp τ sig (Elt F))).Forall fun op => op.writes ⊆ (hostOps5_2_W.map (Proc.devRef (τ := τ) .tc)).toFinset := by
  simp only [hostOps5_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps6`'s operations write. -/
abbrev hostOps6_W : List (Ref sig .tc) := [main_c_21, main_v129, main_v130, main_c_22, main_v131, main_v132, main_v133, main_v134, main_v135, main_v136]
theorem hostOps6_writes : (hostOps6 : List (HloOp τ sig (Elt F))).Forall fun op => op.writes ⊆ (hostOps6_W.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps6_1`'s operations write. -/
abbrev hostOps6_1_W : List (Ref sig .tc) := [main_call5_cst, main_call5_v0, main_v137]
theorem hostOps6_1_writes : (hostOps6_1 : List (HloOp τ sig (Elt F))).Forall fun op => op.writes ⊆ (hostOps6_1_W.map (Proc.devRef (τ := τ) .tc)).toFinset := by
  simp only [hostOps6_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps6_2`'s operations write. -/
abbrev hostOps6_2_W : List (Ref sig .tc) := [main_cst_23, main_v138, main_v139, main_v140, main_v141, main_v142, main_v143, main_v144, main_v145, main_v146, main_v147, main_v148, main_v149, main_v150, main_v151]
theorem hostOps6_2_writes : (hostOps6_2 : List (HloOp τ sig (Elt F))).Forall fun op => op.writes ⊆ (hostOps6_2_W.map (Proc.devRef (τ := τ) .tc)).toFinset := by
  simp only [hostOps6_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps7`'s operations write. -/
abbrev hostOps7_W : List (Ref sig .tc) := [main_v153, main_v154, main_v155, main_v156, main_cst_24, main_v157, main_cst_25, main_v158, main_v159, main_c_26]
theorem hostOps7_writes : (hostOps7 : List (HloOp τ sig (Elt F))).Forall fun op => op.writes ⊆ (hostOps7_W.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps7_1`'s operations write. -/
abbrev hostOps7_1_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v160]
theorem hostOps7_1_writes : (hostOps7_1 : List (HloOp τ sig (Elt F))).Forall fun op => op.writes ⊆ (hostOps7_1_W.map (Proc.devRef (τ := τ) .tc)).toFinset := by
  simp only [hostOps7_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps7_2`'s operations write. -/
abbrev hostOps7_2_W : List (Ref sig .tc) := [main_cst_27, main_v161, main_v162, main_v163, main_v164, main_v165, main_v166, main_cst_28, main_v167, main_cst_29, main_v168, main_v169, main_v170, main_cst_30, main_v171, main_v172, main_cst_31, main_v173, main_v174, main_v175, main_v176, main_v177, main_v178, main_c_32, main_v179, main_v180, main_c_33, main_v181, main_v182, main_v183, main_v184, main_v185, main_v186]
theorem hostOps7_2_writes : (hostOps7_2 : List (HloOp τ sig (Elt F))).Forall fun op => op.writes ⊆ (hostOps7_2_W.map (Proc.devRef (τ := τ) .tc)).toFinset := by
  simp only [hostOps7_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps7_3`'s operations write. -/
abbrev hostOps7_3_W : List (Ref sig .tc) := [main_call7_cst, main_call7_v0, main_v187]
theorem hostOps7_3_writes : (hostOps7_3 : List (HloOp τ sig (Elt F))).Forall fun op => op.writes ⊆ (hostOps7_3_W.map (Proc.devRef (τ := τ) .tc)).toFinset := by
  simp only [hostOps7_3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps7_4`'s operations write. -/
abbrev hostOps7_4_W : List (Ref sig .tc) := [main_cst_34, main_v188, main_v189, main_v190, main_v191, main_v192, main_v193, main_v194, main_v195, main_v196, main_v197, main_v198, main_v199, main_v200, main_v201]
theorem hostOps7_4_writes : (hostOps7_4 : List (HloOp τ sig (Elt F))).Forall fun op => op.writes ⊆ (hostOps7_4_W.map (Proc.devRef (τ := τ) .tc)).toFinset := by
  simp only [hostOps7_4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps8`'s operations write. -/
abbrev hostOps8_W : List (Ref sig .tc) := [main_v203, main_v204, main_v205, main_v206, main_cst_35, main_v207, main_cst_36, main_v208, main_v209, main_c_37]
theorem hostOps8_writes : (hostOps8 : List (HloOp τ sig (Elt F))).Forall fun op => op.writes ⊆ (hostOps8_W.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps8_1`'s operations write. -/
abbrev hostOps8_1_W : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v210]
theorem hostOps8_1_writes : (hostOps8_1 : List (HloOp τ sig (Elt F))).Forall fun op => op.writes ⊆ (hostOps8_1_W.map (Proc.devRef (τ := τ) .tc)).toFinset := by
  simp only [hostOps8_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps8_2`'s operations write. -/
abbrev hostOps8_2_W : List (Ref sig .tc) := [main_cst_38, main_v211, main_v212, main_v213, main_v214, main_v215, main_v216, main_v217, main_v218, main_v219, main_v220, main_v221, main_v222, main_c_39, main_v223, main_v224, main_c_40, main_v225, main_v226, main_v227, main_v228, main_v229, main_v230, main_v231]
theorem hostOps8_2_writes : (hostOps8_2 : List (HloOp τ sig (Elt F))).Forall fun op => op.writes ⊆ (hostOps8_2_W.map (Proc.devRef (τ := τ) .tc)).toFinset := by
  simp only [hostOps8_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps9`'s operations write. -/
abbrev hostOps9_W : List (Ref sig .tc) := [main_c_41, main_v233, main_v234, main_c_42, main_v235, main_v236, main_v237, main_v238, main_v239, main_v240]
theorem hostOps9_writes : (hostOps9 : List (HloOp τ sig (Elt F))).Forall fun op => op.writes ⊆ (hostOps9_W.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps9_1`'s operations write. -/
abbrev hostOps9_1_W : List (Ref sig .tc) := [main_call9_cst, main_call9_v0, main_v241]
theorem hostOps9_1_writes : (hostOps9_1 : List (HloOp τ sig (Elt F))).Forall fun op => op.writes ⊆ (hostOps9_1_W.map (Proc.devRef (τ := τ) .tc)).toFinset := by
  simp only [hostOps9_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps9_2`'s operations write. -/
abbrev hostOps9_2_W : List (Ref sig .tc) := [main_cst_43, main_v242, main_v243, main_v244, main_v245, main_v246, main_v247, main_v248, main_v249, main_v250, main_v251, main_v252, main_v253, main_v254, main_v255]
theorem hostOps9_2_writes : (hostOps9_2 : List (HloOp τ sig (Elt F))).Forall fun op => op.writes ⊆ (hostOps9_2_W.map (Proc.devRef (τ := τ) .tc)).toFinset := by
  simp only [hostOps9_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps10`'s operations write. -/
abbrev hostOps10_W : List (Ref sig .tc) := [main_v257, main_v258, main_v259, main_v260, main_cst_44, main_v261, main_cst_45, main_v262, main_v263, main_c_46]
theorem hostOps10_writes : (hostOps10 : List (HloOp τ sig (Elt F))).Forall fun op => op.writes ⊆ (hostOps10_W.map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps10_1`'s operations write. -/
abbrev hostOps10_1_W : List (Ref sig .tc) := [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v264]
theorem hostOps10_1_writes : (hostOps10_1 : List (HloOp τ sig (Elt F))).Forall fun op => op.writes ⊆ (hostOps10_1_W.map (Proc.devRef (τ := τ) .tc)).toFinset := by
  simp only [hostOps10_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps10_2`'s operations write. -/
abbrev hostOps10_2_W : List (Ref sig .tc) := [main_cst_47, main_v265, main_v266, main_v267, main_v268, main_v269, main_v270, main_cst_48, main_v271, main_cst_49, main_v272, main_v273, main_v274, main_cst_50, main_v275, main_v276, main_cst_51, main_v277, main_v278, main_v279, main_v280, main_v281, main_v282, main_c_52, main_v283, main_v284, main_c_53, main_v285, main_v286, main_v287, main_v288, main_v289, main_v290]
theorem hostOps10_2_writes : (hostOps10_2 : List (HloOp τ sig (Elt F))).Forall fun op => op.writes ⊆ (hostOps10_2_W.map (Proc.devRef (τ := τ) .tc)).toFinset := by
  simp only [hostOps10_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps10_3`'s operations write. -/
abbrev hostOps10_3_W : List (Ref sig .tc) := [main_call11_cst, main_call11_v0, main_v291]
theorem hostOps10_3_writes : (hostOps10_3 : List (HloOp τ sig (Elt F))).Forall fun op => op.writes ⊆ (hostOps10_3_W.map (Proc.devRef (τ := τ) .tc)).toFinset := by
  simp only [hostOps10_3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps10_4`'s operations write. -/
abbrev hostOps10_4_W : List (Ref sig .tc) := [main_cst_54, main_v292, main_v293, main_v294, main_v295, main_v296, main_v297, main_v298, main_v299, main_v300, main_v301, main_v302, main_v303, main_v304, main_v305]
theorem hostOps10_4_writes : (hostOps10_4 : List (HloOp τ sig (Elt F))).Forall fun op => op.writes ⊆ (hostOps10_4_W.map (Proc.devRef (τ := τ) .tc)).toFinset := by
  simp only [hostOps10_4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps11`'s operations write. -/
abbrev hostOps11_W : List (Ref sig .tc) := [main_v307, main_v308, main_v309, main_v310, main_cst_55, main_v311, main_cst_56, main_v312, main_v313, main_c_57]
theorem hostOps11_writes : (hostOps11 : List (HloOp τ sig (Elt F))).Forall fun op => op.writes ⊆ (hostOps11_W.map (Proc.devRef (τ := τ) .tc)).toFinset := by
  simp only [hostOps11, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps11_1`'s operations write. -/
abbrev hostOps11_1_W : List (Ref sig .tc) := [main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v314]
theorem hostOps11_1_writes : (hostOps11_1 : List (HloOp τ sig (Elt F))).Forall fun op => op.writes ⊆ (hostOps11_1_W.map (Proc.devRef (τ := τ) .tc)).toFinset := by
  simp only [hostOps11_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps11_2`'s operations write. -/
abbrev hostOps11_2_W : List (Ref sig .tc) := [main_cst_58, main_v315, main_v316, main_v317, main_v318, main_v319, main_v320, main_v321, main_v322, main_v323, main_v324, main_v325, main_v326, main_c_59, main_v327, main_v328, main_c_60, main_v329, main_v330, main_v331, main_v332, main_v333, main_v334, main_v335]
theorem hostOps11_2_writes : (hostOps11_2 : List (HloOp τ sig (Elt F))).Forall fun op => op.writes ⊆ (hostOps11_2_W.map (Proc.devRef (τ := τ) .tc)).toFinset := by
  simp only [hostOps11_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- The references `hostOps12`'s operations write. -/
abbrev hostOps12_W : List (Ref sig .tc) := [main_cst_61, main_v337, main_cst_62, main_v338, main_v339, main_v340, main_cst_63, main_v341, main_v342, main_cst_64, main_v343, main_v344, main_v345, main_v346, main_v347, main_v348, main_cst_65, main_v349, main_cst_66, main_v350, main_v351, main_v352, main_cst_67, main_v353, main_v354, main_cst_68, main_v355, main_v356, main_v357, main_v358, main_v359, main_v360, main_v361, main_v362]
theorem hostOps12_writes : (hostOps12 : List (HloOp τ sig (Elt F))).Forall fun op => op.writes ⊆ (hostOps12_W.map (Proc.devRef (τ := τ) .tc)).toFinset := by
  simp only [hostOps12, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

end Cert.KernelIdeal.KRun

end
-- ==== Proof.KWalkBase.lean ====
/- What each segment of the idealized kernel's @main leaves unchanged, and the long-lived buffers read at later
   boundaries: a stretch of host operations changes only the references it writes, a region only its own arrays; so
   an argument array, an edge encoding or an index vector holds at every later boundary what it held when written. -/
import proofs.«177129_j59004260712467_1_alg».proof.Proof.FrameKernelIdeal
import proofs.«177129_j59004260712467_1_alg».proof.Proof.KWalkWrites

set_option maxRecDepth 16384
set_option Elab.async false

noncomputable section

namespace Cert.KernelIdeal.KRun

open Idealize.ShloMosaic Idealize.ShloMosaic.TcCoe
open Idealize.SL Idealize.SL.Sem
open Cert.KernelIdeal.Gen Cert.KernelIdeal.GenP

variable {F : FTy → Type} [FloatOps F]
variable (m : (ℓ : Loc nD τ sig) → Buf (Elt F) ℓ) (ρ : Dev nD → PrngReg)

/-! ## A stretch leaves what it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
theorem W8_of (c : Dev nD) (r : Ref sig .tc) (h : r ∉ hostOps3_1_W) :
    W8 m ρ c (Proc.devRef .tc r) = W7 m ρ c (Proc.devRef .tc r) :=
  StableHlo.after_of_writes_sub hostOps3_1 _ hostOps3_1_writes h
theorem W9_of (c : Dev nD) (r : Ref sig .tc) (h : r ∉ hostOps3_2_W) :
    W9 m ρ c (Proc.devRef .tc r) = W8 m ρ c (Proc.devRef .tc r) :=
  StableHlo.after_of_writes_sub hostOps3_2 _ hostOps3_2_writes h
theorem W10_of (c : Dev nD) (r : Ref sig .tc) (h : r ∉ hostOps3_3_W) :
    W10 m ρ c (Proc.devRef .tc r) = W9 m ρ c (Proc.devRef .tc r) :=
  StableHlo.after_of_writes_sub hostOps3_3 _ hostOps3_3_writes h
theorem W11_of (c : Dev nD) (r : Ref sig .tc) (h : r ∉ hostOps3_4_W) :
    W11 m ρ c (Proc.devRef .tc r) = W10 m ρ c (Proc.devRef .tc r) :=
  StableHlo.after_of_writes_sub hostOps3_4 _ hostOps3_4_writes h
theorem W13_of (c : Dev nD) (r : Ref sig .tc) (h : r ∉ hostOps4_W) :
    W13 m ρ c (Proc.devRef .tc r) = W12 m ρ c (Proc.devRef .tc r) :=
  StableHlo.after_of_writes_sub hostOps4 _ hostOps4_writes h
theorem W14_of (c : Dev nD) (r : Ref sig .tc) (h : r ∉ hostOps4_1_W) :
    W14 m ρ c (Proc.devRef .tc r) = W13 m ρ c (Proc.devRef .tc r) :=
  StableHlo.after_of_writes_sub hostOps4_1 _ hostOps4_1_writes h
theorem W15_of (c : Dev nD) (r : Ref sig .tc) (h : r ∉ hostOps4_2_W) :
    W15 m ρ c (Proc.devRef .tc r) = W14 m ρ c (Proc.devRef .tc r) :=
  StableHlo.after_of_writes_sub hostOps4_2 _ hostOps4_2_writes h
theorem W16_of (c : Dev nD) (r : Ref sig .tc) (h : r ∉ hostOps4_3_W) :
    W16 m ρ c (Proc.devRef .tc r) = W15 m ρ c (Proc.devRef .tc r) :=
  StableHlo.after_of_writes_sub hostOps4_3 _ hostOps4_3_writes h
theorem W17_of (c : Dev nD) (r : Ref sig .tc) (h : r ∉ hostOps4_4_W) :
    W17 m ρ c (Proc.devRef .tc r) = W16 m ρ c (Proc.devRef .tc r) :=
  StableHlo.after_of_writes_sub hostOps4_4 _ hostOps4_4_writes h
theorem W19_of (c : Dev nD) (r : Ref sig .tc) (h : r ∉ hostOps5_W) :
    W19 m ρ c (Proc.devRef .tc r) = W18 m ρ c (Proc.devRef .tc r) :=
  StableHlo.after_of_writes_sub hostOps5 _ hostOps5_writes h
theorem W20_of (c : Dev nD) (r : Ref sig .tc) (h : r ∉ hostOps5_1_W) :
    W20 m ρ c (Proc.devRef .tc r) = W19 m ρ c (Proc.devRef .tc r) :=
  StableHlo.after_of_writes_sub hostOps5_1 _ hostOps5_1_writes h
theorem W21_of (c : Dev nD) (r : Ref sig .tc) (h : r ∉ hostOps5_2_W) :
    W21 m ρ c (Proc.devRef .tc r) = W20 m ρ c (Proc.devRef .tc r) :=
  StableHlo.after_of_writes_sub hostOps5_2 _ hostOps5_2_writes h
theorem W23_of (c : Dev nD) (r : Ref sig .tc) (h : r ∉ hostOps6_W) :
    W23 m ρ c (Proc.devRef .tc r) = W22 m ρ c (Proc.devRef .tc r) :=
  StableHlo.after_of_writes_sub hostOps6 _ hostOps6_writes h
theorem W24_of (c : Dev nD) (r : Ref sig .tc) (h : r ∉ hostOps6_1_W) :
    W24 m ρ c (Proc.devRef .tc r) = W23 m ρ c (Proc.devRef .tc r) :=
  StableHlo.after_of_writes_sub hostOps6_1 _ hostOps6_1_writes h
theorem W25_of (c : Dev nD) (r : Ref sig .tc) (h : r ∉ hostOps6_2_W) :
    W25 m ρ c (Proc.devRef .tc r) = W24 m ρ c (Proc.devRef .tc r) :=
  StableHlo.after_of_writes_sub hostOps6_2 _ hostOps6_2_writes h
theorem W27_of (c : Dev nD) (r : Ref sig .tc) (h : r ∉ hostOps7_W) :
    W27 m ρ c (Proc.devRef .tc r) = W26 m ρ c (Proc.devRef .tc r) :=
  StableHlo.after_of_writes_sub hostOps7 _ hostOps7_writes h
theorem W28_of (c : Dev nD) (r : Ref sig .tc) (h : r ∉ hostOps7_1_W) :
    W28 m ρ c (Proc.devRef .tc r) = W27 m ρ c (Proc.devRef .tc r) :=
  StableHlo.after_of_writes_sub hostOps7_1 _ hostOps7_1_writes h
theorem W29_of (c : Dev nD) (r : Ref sig .tc) (h : r ∉ hostOps7_2_W) :
    W29 m ρ c (Proc.devRef .tc r) = W28 m ρ c (Proc.devRef .tc r) :=
  StableHlo.after_of_writes_sub hostOps7_2 _ hostOps7_2_writes h
theorem W30_of (c : Dev nD) (r : Ref sig .tc) (h : r ∉ hostOps7_3_W) :
    W30 m ρ c (Proc.devRef .tc r) = W29 m ρ c (Proc.devRef .tc r) :=
  StableHlo.after_of_writes_sub hostOps7_3 _ hostOps7_3_writes h
theorem W31_of (c : Dev nD) (r : Ref sig .tc) (h : r ∉ hostOps7_4_W) :
    W31 m ρ c (Proc.devRef .tc r) = W30 m ρ c (Proc.devRef .tc r) :=
  StableHlo.after_of_writes_sub hostOps7_4 _ hostOps7_4_writes h
theorem W33_of (c : Dev nD) (r : Ref sig .tc) (h : r ∉ hostOps8_W) :
    W33 m ρ c (Proc.devRef .tc r) = W32 m ρ c (Proc.devRef .tc r) :=
  StableHlo.after_of_writes_sub hostOps8 _ hostOps8_writes h
theorem W34_of (c : Dev nD) (r : Ref sig .tc) (h : r ∉ hostOps8_1_W) :
    W34 m ρ c (Proc.devRef .tc r) = W33 m ρ c (Proc.devRef .tc r) :=
  StableHlo.after_of_writes_sub hostOps8_1 _ hostOps8_1_writes h
theorem W35_of (c : Dev nD) (r : Ref sig .tc) (h : r ∉ hostOps8_2_W) :
    W35 m ρ c (Proc.devRef .tc r) = W34 m ρ c (Proc.devRef .tc r) :=
  StableHlo.after_of_writes_sub hostOps8_2 _ hostOps8_2_writes h
theorem W37_of (c : Dev nD) (r : Ref sig .tc) (h : r ∉ hostOps9_W) :
    W37 m ρ c (Proc.devRef .tc r) = W36 m ρ c (Proc.devRef .tc r) :=
  StableHlo.after_of_writes_sub hostOps9 _ hostOps9_writes h
theorem W38_of (c : Dev nD) (r : Ref sig .tc) (h : r ∉ hostOps9_1_W) :
    W38 m ρ c (Proc.devRef .tc r) = W37 m ρ c (Proc.devRef .tc r) :=
  StableHlo.after_of_writes_sub hostOps9_1 _ hostOps9_1_writes h
theorem W39_of (c : Dev nD) (r : Ref sig .tc) (h : r ∉ hostOps9_2_W) :
    W39 m ρ c (Proc.devRef .tc r) = W38 m ρ c (Proc.devRef .tc r) :=
  StableHlo.after_of_writes_sub hostOps9_2 _ hostOps9_2_writes h
theorem W41_of (c : Dev nD) (r : Ref sig .tc) (h : r ∉ hostOps10_W) :
    W41 m ρ c (Proc.devRef .tc r) = W40 m ρ c (Proc.devRef .tc r) :=
  StableHlo.after_of_writes_sub hostOps10 _ hostOps10_writes h
theorem W42_of (c : Dev nD) (r : Ref sig .tc) (h : r ∉ hostOps10_1_W) :
    W42 m ρ c (Proc.devRef .tc r) = W41 m ρ c (Proc.devRef .tc r) :=
  StableHlo.after_of_writes_sub hostOps10_1 _ hostOps10_1_writes h
theorem W43_of (c : Dev nD) (r : Ref sig .tc) (h : r ∉ hostOps10_2_W) :
    W43 m ρ c (Proc.devRef .tc r) = W42 m ρ c (Proc.devRef .tc r) :=
  StableHlo.after_of_writes_sub hostOps10_2 _ hostOps10_2_writes h
theorem W44_of (c : Dev nD) (r : Ref sig .tc) (h : r ∉ hostOps10_3_W) :
    W44 m ρ c (Proc.devRef .tc r) = W43 m ρ c (Proc.devRef .tc r) :=
  StableHlo.after_of_writes_sub hostOps10_3 _ hostOps10_3_writes h
theorem W45_of (c : Dev nD) (r : Ref sig .tc) (h : r ∉ hostOps10_4_W) :
    W45 m ρ c (Proc.devRef .tc r) = W44 m ρ c (Proc.devRef .tc r) :=
  StableHlo.after_of_writes_sub hostOps10_4 _ hostOps10_4_writes h
theorem W47_of (c : Dev nD) (r : Ref sig .tc) (h : r ∉ hostOps11_W) :
    W47 m ρ c (Proc.devRef .tc r) = W46 m ρ c (Proc.devRef .tc r) :=
  StableHlo.after_of_writes_sub hostOps11 _ hostOps11_writes h
theorem W48_of (c : Dev nD) (r : Ref sig .tc) (h : r ∉ hostOps11_1_W) :
    W48 m ρ c (Proc.devRef .tc r) = W47 m ρ c (Proc.devRef .tc r) :=
  StableHlo.after_of_writes_sub hostOps11_1 _ hostOps11_1_writes h
theorem W49_of (c : Dev nD) (r : Ref sig .tc) (h : r ∉ hostOps11_2_W) :
    W49 m ρ c (Proc.devRef .tc r) = W48 m ρ c (Proc.devRef .tc r) :=
  StableHlo.after_of_writes_sub hostOps11_2 _ hostOps11_2_writes h
theorem W51_of (c : Dev nD) (r : Ref sig .tc) (h : r ∉ hostOps12_W) :
    W51 m ρ c (Proc.devRef .tc r) = W50 m ρ c (Proc.devRef .tc r) :=
  StableHlo.after_of_writes_sub hostOps12 _ hostOps12_writes h

/-! ## Buffers carried across segments

Each list below is carried from the boundary where its buffers were last written to the last boundary where one of
them is read: no stretch in between writes any of them, no region in between has one of them among its arrays. -/

/-- Carried from boundary 0 to boundary 51. -/
abbrev car_args : List (Ref sig .tc) := [main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]
theorem car_args_1 (c : Dev nD) (r : Ref sig .tc) (hr : r ∈ car_args) :
    W1 m ρ c (Proc.devRef .tc r) = W0 m ρ c (Proc.devRef .tc r) :=
  W1_of m ρ c r ((by decide +kernel : ∀ r ∈ car_args, r ∉ hostOps0_W) r hr)
theorem car_args_2 (c : Dev nD) (r : Ref sig .tc) (hr : r ∈ car_args) :
    W2 m ρ c (Proc.devRef .tc r) = W0 m ρ c (Proc.devRef .tc r) :=
  (W2_of_ne m ρ c r ((by decide +kernel : ∀ r ∈ car_args, ∀ w, Pipeline.arrRef spec0 w ≠ r) r hr)).trans (car_args_1 m ρ c r hr)
theorem car_args_3 (c : Dev nD) (r : Ref sig .tc) (hr : r ∈ car_args) :
    W3 m ρ c (Proc.devRef .tc r) = W0 m ρ c (Proc.devRef .tc r) :=
  (W3_of m ρ c r ((by decide +kernel : ∀ r ∈ car_args, r ∉ hostOps1_W) r hr)).trans (car_args_2 m ρ c r hr)
theorem car_args_4 (c : Dev nD) (r : Ref sig .tc) (hr : r ∈ car_args) :
    W4 m ρ c (Proc.devRef .tc r) = W0 m ρ c (Proc.devRef .tc r) :=
  (W4_of_ne m ρ c r ((by decide +kernel : ∀ r ∈ car_args, ∀ w, Pipeline.arrRef spec1 w ≠ r) r hr)).trans (car_args_3 m ρ c r hr)
theorem car_args_5 (c : Dev nD) (r : Ref sig .tc) (hr : r ∈ car_args) :
    W5 m ρ c (Proc.devRef .tc r) = W0 m ρ c (Proc.devRef .tc r) :=
  (W5_of m ρ c r ((by decide +kernel : ∀ r ∈ car_args, r ∉ hostOps2_W) r hr)).trans (car_args_4 m ρ c r hr)
theorem car_args_6 (c : Dev nD) (r : Ref sig .tc) (hr : r ∈ car_args) :
    W6 m ρ c (Proc.devRef .tc r) = W0 m ρ c (Proc.devRef .tc r) :=
  (W6_of_ne m ρ c r ((by decide +kernel : ∀ r ∈ car_args, ∀ w, Pipeline.arrRef spec2 w ≠ r) r hr)).trans (car_args_5 m ρ c r hr)
theorem car_args_7 (c : Dev nD) (r : Ref sig .tc) (hr : r ∈ car_args) :
    W7 m ρ c (Proc.devRef .tc r) = W0 m ρ c (Proc.devRef .tc r) :=
  (W7_of m ρ c r ((by decide +kernel : ∀ r ∈ car_args, r ∉ hostOps3_W) r hr)).trans (car_args_6 m ρ c r hr)
theorem car_args_8 (c : Dev nD) (r : Ref sig .tc) (hr : r ∈ car_args) :
    W8 m ρ c (Proc.devRef .tc r) = W0 m ρ c (Proc.devRef .tc r) :=
  (W8_of m ρ c r ((by decide +kernel : ∀ r ∈ car_args, r ∉ hostOps3_1_W) r hr)).trans (car_args_7 m ρ c r hr)
theorem car_args_9 (c : Dev nD) (r : Ref sig .tc) (hr : r ∈ car_args) :
    W9 m ρ c (Proc.devRef .tc r) = W0 m ρ c (Proc.devRef .tc r) :=
  (W9_of m ρ c r ((by decide +kernel : ∀ r ∈ car_args, r ∉ hostOps3_2_W) r hr)).trans (car_args_8 m ρ c r hr)
theorem car_args_10 (c : Dev nD) (r : Ref sig .tc) (hr : r ∈ car_args) :
    W10 m ρ c (Proc.devRef .tc r) = W0 m ρ c (Proc.devRef .tc r) :=
  (W10_of m ρ c r ((by decide +kernel : ∀ r ∈ car_args, r ∉ hostOps3_3_W) r hr)).trans (car_args_9 m ρ c r hr)
theorem car_args_11 (c : Dev nD) (r : Ref sig .tc) (hr : r ∈ car_args) :
    W11 m ρ c (Proc.devRef .tc r) = W0 m ρ c (Proc.devRef .tc r) :=
  (W11_of m ρ c r ((by decide +kernel : ∀ r ∈ car_args, r ∉ hostOps3_4_W) r hr)).trans (car_args_10 m ρ c r hr)
theorem car_args_12 (c : Dev nD) (r : Ref sig .tc) (hr : r ∈ car_args) :
    W12 m ρ c (Proc.devRef .tc r) = W0 m ρ c (Proc.devRef .tc r) :=
  (W12_of_ne m ρ c r ((by decide +kernel : ∀ r ∈ car_args, ∀ w, Pipeline.arrRef spec3 w ≠ r) r hr)).trans (car_args_11 m ρ c r hr)
theorem car_args_13 (c : Dev nD) (r : Ref sig .tc) (hr : r ∈ car_args) :
    W13 m ρ c (Proc.devRef .tc r) = W0 m ρ c (Proc.devRef .tc r) :=
  (W13_of m ρ c r ((by decide +kernel : ∀ r ∈ car_args, r ∉ hostOps4_W) r hr)).trans (car_args_12 m ρ c r hr)
theorem car_args_14 (c : Dev nD) (r : Ref sig .tc) (hr : r ∈ car_args) :
    W14 m ρ c (Proc.devRef .tc r) = W0 m ρ c (Proc.devRef .tc r) :=
  (W14_of m ρ c r ((by decide +kernel : ∀ r ∈ car_args, r ∉ hostOps4_1_W) r hr)).trans (car_args_13 m ρ c r hr)
theorem car_args_15 (c : Dev nD) (r : Ref sig .tc) (hr : r ∈ car_args) :
    W15 m ρ c (Proc.devRef .tc r) = W0 m ρ c (Proc.devRef .tc r) :=
  (W15_of m ρ c r ((by decide +kernel : ∀ r ∈ car_args, r ∉ hostOps4_2_W) r hr)).trans (car_args_14 m ρ c r hr)
theorem car_args_16 (c : Dev nD) (r : Ref sig .tc) (hr : r ∈ car_args) :
    W16 m ρ c (Proc.devRef .tc r) = W0 m ρ c (Proc.devRef .tc r) :=
  (W16_of m ρ c r ((by decide +kernel : ∀ r ∈ car_args, r ∉ hostOps4_3_W) r hr)).trans (car_args_15 m ρ c r hr)
theorem car_args_17 (c : Dev nD) (r : Ref sig .tc) (hr : r ∈ car_args) :
    W17 m ρ c (Proc.devRef .tc r) = W0 m ρ c (Proc.devRef .tc r) :=
  (W17_of m ρ c r ((by decide +kernel : ∀ r ∈ car_args, r ∉ hostOps4_4_W) r hr)).trans (car_args_16 m ρ c r hr)
theorem car_args_18 (c : Dev nD) (r : Ref sig .tc) (hr : r ∈ car_args) :
    W18 m ρ c (Proc.devRef .tc r) = W0 m ρ c (Proc.devRef .tc r) :=
  (W18_of_ne m ρ c r ((by decide +kernel : ∀ r ∈ car_args, ∀ w, Pipeline.arrRef spec4 w ≠ r) r hr)).trans (car_args_17 m ρ c r hr)
theorem car_args_19 (c : Dev nD) (r : Ref sig .tc) (hr : r ∈ car_args) :
    W19 m ρ c (Proc.devRef .tc r) = W0 m ρ c (Proc.devRef .tc r) :=
  (W19_of m ρ c r ((by decide +kernel : ∀ r ∈ car_args, r ∉ hostOps5_W) r hr)).trans (car_args_18 m ρ c r hr)
theorem car_args_20 (c : Dev nD) (r : Ref sig .tc) (hr : r ∈ car_args) :
    W20 m ρ c (Proc.devRef .tc r) = W0 m ρ c (Proc.devRef .tc r) :=
  (W20_of m ρ c r ((by decide +kernel : ∀ r ∈ car_args, r ∉ hostOps5_1_W) r hr)).trans (car_args_19 m ρ c r hr)
theorem car_args_21 (c : Dev nD) (r : Ref sig .tc) (hr : r ∈ car_args) :
    W21 m ρ c (Proc.devRef .tc r) = W0 m ρ c (Proc.devRef .tc r) :=
  (W21_of m ρ c r ((by decide +kernel : ∀ r ∈ car_args, r ∉ hostOps5_2_W) r hr)).trans (car_args_20 m ρ c r hr)
theorem car_args_22 (c : Dev nD) (r : Ref sig .tc) (hr : r ∈ car_args) :
    W22 m ρ c (Proc.devRef .tc r) = W0 m ρ c (Proc.devRef .tc r) :=
  (W22_of_ne m ρ c r ((by decide +kernel : ∀ r ∈ car_args, ∀ w, Pipeline.arrRef spec5 w ≠ r) r hr)).trans (car_args_21 m ρ c r hr)
theorem car_args_23 (c : Dev nD) (r : Ref sig .tc) (hr : r ∈ car_args) :
    W23 m ρ c (Proc.devRef .tc r) = W0 m ρ c (Proc.devRef .tc r) :=
  (W23_of m ρ c r ((by decide +kernel : ∀ r ∈ car_args, r ∉ hostOps6_W) r hr)).trans (car_args_22 m ρ c r hr)
theorem car_args_24 (c : Dev nD) (r : Ref sig .tc) (hr : r ∈ car_args) :
    W24 m ρ c (Proc.devRef .tc r) = W0 m ρ c (Proc.devRef .tc r) :=
  (W24_of m ρ c r ((by decide +kernel : ∀ r ∈ car_args, r ∉ hostOps6_1_W) r hr)).trans (car_args_23 m ρ c r hr)
theorem car_args_25 (c : Dev nD) (r : Ref sig .tc) (hr : r ∈ car_args) :
    W25 m ρ c (Proc.devRef .tc r) = W0 m ρ c (Proc.devRef .tc r) :=
  (W25_of m ρ c r ((by decide +kernel : ∀ r ∈ car_args, r ∉ hostOps6_2_W) r hr)).trans (car_args_24 m ρ c r hr)
theorem car_args_26 (c : Dev nD) (r : Ref sig .tc) (hr : r ∈ car_args) :
    W26 m ρ c (Proc.devRef .tc r) = W0 m ρ c (Proc.devRef .tc r) :=
  (W26_of_ne m ρ c r ((by decide +kernel : ∀ r ∈ car_args, ∀ w, Pipeline.arrRef spec6 w ≠ r) r hr)).trans (car_args_25 m ρ c r hr)
theorem car_args_27 (c : Dev nD) (r : Ref sig .tc) (hr : r ∈ car_args) :
    W27 m ρ c (Proc.devRef .tc r) = W0 m ρ c (Proc.devRef .tc r) :=
  (W27_of m ρ c r ((by decide +kernel : ∀ r ∈ car_args, r ∉ hostOps7_W) r hr)).trans (car_args_26 m ρ c r hr)
theorem car_args_28 (c : Dev nD) (r : Ref sig .tc) (hr : r ∈ car_args) :
    W28 m ρ c (Proc.devRef .tc r) = W0 m ρ c (Proc.devRef .tc r) :=
  (W28_of m ρ c r ((by decide +kernel : ∀ r ∈ car_args, r ∉ hostOps7_1_W) r hr)).trans (car_args_27 m ρ c r hr)
theorem car_args_29 (c : Dev nD) (r : Ref sig .tc) (hr : r ∈ car_args) :
    W29 m ρ c (Proc.devRef .tc r) = W0 m ρ c (Proc.devRef .tc r) :=
  (W29_of m ρ c r ((by decide +kernel : ∀ r ∈ car_args, r ∉ hostOps7_2_W) r hr)).trans (car_args_28 m ρ c r hr)
theorem car_args_30 (c : Dev nD) (r : Ref sig .tc) (hr : r ∈ car_args) :
    W30 m ρ c (Proc.devRef .tc r) = W0 m ρ c (Proc.devRef .tc r) :=
  (W30_of m ρ c r ((by decide +kernel : ∀ r ∈ car_args, r ∉ hostOps7_3_W) r hr)).trans (car_args_29 m ρ c r hr)
theorem car_args_31 (c : Dev nD) (r : Ref sig .tc) (hr : r ∈ car_args) :
    W31 m ρ c (Proc.devRef .tc r) = W0 m ρ c (Proc.devRef .tc r) :=
  (W31_of m ρ c r ((by decide +kernel : ∀ r ∈ car_args, r ∉ hostOps7_4_W) r hr)).trans (car_args_30 m ρ c r hr)
theorem car_args_32 (c : Dev nD) (r : Ref sig .tc) (hr : r ∈ car_args) :
    W32 m ρ c (Proc.devRef .tc r) = W0 m ρ c (Proc.devRef .tc r) :=
  (W32_of_ne m ρ c r ((by decide +kernel : ∀ r ∈ car_args, ∀ w, Pipeline.arrRef spec7 w ≠ r) r hr)).trans (car_args_31 m ρ c r hr)
theorem car_args_33 (c : Dev nD) (r : Ref sig .tc) (hr : r ∈ car_args) :
    W33 m ρ c (Proc.devRef .tc r) = W0 m ρ c (Proc.devRef .tc r) :=
  (W33_of m ρ c r ((by decide +kernel : ∀ r ∈ car_args, r ∉ hostOps8_W) r hr)).trans (car_args_32 m ρ c r hr)
theorem car_args_34 (c : Dev nD) (r : Ref sig .tc) (hr : r ∈ car_args) :
    W34 m ρ c (Proc.devRef .tc r) = W0 m ρ c (Proc.devRef .tc r) :=
  (W34_of m ρ c r ((by decide +kernel : ∀ r ∈ car_args, r ∉ hostOps8_1_W) r hr)).trans (car_args_33 m ρ c r hr)
theorem car_args_35 (c : Dev nD) (r : Ref sig .tc) (hr : r ∈ car_args) :
    W35 m ρ c (Proc.devRef .tc r) = W0 m ρ c (Proc.devRef .tc r) :=
  (W35_of m ρ c r ((by decide +kernel : ∀ r ∈ car_args, r ∉ hostOps8_2_W) r hr)).trans (car_args_34 m ρ c r hr)
theorem car_args_36 (c : Dev nD) (r : Ref sig .tc) (hr : r ∈ car_args) :
    W36 m ρ c (Proc.devRef .tc r) = W0 m ρ c (Proc.devRef .tc r) :=
  (W36_of_ne m ρ c r ((by decide +kernel : ∀ r ∈ car_args, ∀ w, Pipeline.arrRef spec8 w ≠ r) r hr)).trans (car_args_35 m ρ c r hr)
theorem car_args_37 (c : Dev nD) (r : Ref sig .tc) (hr : r ∈ car_args) :
    W37 m ρ c (Proc.devRef .tc r) = W0 m ρ c (Proc.devRef .tc r) :=
  (W37_of m ρ c r ((by decide +kernel : ∀ r ∈ car_args, r ∉ hostOps9_W) r hr)).trans (car_args_36 m ρ c r hr)
theorem car_args_38 (c : Dev nD) (r : Ref sig .tc) (hr : r ∈ car_args) :
    W38 m ρ c (Proc.devRef .tc r) = W0 m ρ c (Proc.devRef .tc r) :=
  (W38_of m ρ c r ((by decide +kernel : ∀ r ∈ car_args, r ∉ hostOps9_1_W) r hr)).trans (car_args_37 m ρ c r hr)
theorem car_args_39 (c : Dev nD) (r : Ref sig .tc) (hr : r ∈ car_args) :
    W39 m ρ c (Proc.devRef .tc r) = W0 m ρ c (Proc.devRef .tc r) :=
  (W39_of m ρ c r ((by decide +kernel : ∀ r ∈ car_args, r ∉ hostOps9_2_W) r hr)).trans (car_args_38 m ρ c r hr)
theorem car_args_40 (c : Dev nD) (r : Ref sig .tc) (hr : r ∈ car_args) :
    W40 m ρ c (Proc.devRef .tc r) = W0 m ρ c (Proc.devRef .tc r) :=
  (W40_of_ne m ρ c r ((by decide +kernel : ∀ r ∈ car_args, ∀ w, Pipeline.arrRef spec9 w ≠ r) r hr)).trans (car_args_39 m ρ c r hr)
theorem car_args_41 (c : Dev nD) (r : Ref sig .tc) (hr : r ∈ car_args) :
    W41 m ρ c (Proc.devRef .tc r) = W0 m ρ c (Proc.devRef .tc r) :=
  (W41_of m ρ c r ((by decide +kernel : ∀ r ∈ car_args, r ∉ hostOps10_W) r hr)).trans (car_args_40 m ρ c r hr)
theorem car_args_42 (c : Dev nD) (r : Ref sig .tc) (hr : r ∈ car_args) :
    W42 m ρ c (Proc.devRef .tc r) = W0 m ρ c (Proc.devRef .tc r) :=
  (W42_of m ρ c r ((by decide +kernel : ∀ r ∈ car_args, r ∉ hostOps10_1_W) r hr)).trans (car_args_41 m ρ c r hr)
theorem car_args_43 (c : Dev nD) (r : Ref sig .tc) (hr : r ∈ car_args) :
    W43 m ρ c (Proc.devRef .tc r) = W0 m ρ c (Proc.devRef .tc r) :=
  (W43_of m ρ c r ((by decide +kernel : ∀ r ∈ car_args, r ∉ hostOps10_2_W) r hr)).trans (car_args_42 m ρ c r hr)
theorem car_args_44 (c : Dev nD) (r : Ref sig .tc) (hr : r ∈ car_args) :
    W44 m ρ c (Proc.devRef .tc r) = W0 m ρ c (Proc.devRef .tc r) :=
  (W44_of m ρ c r ((by decide +kernel : ∀ r ∈ car_args, r ∉ hostOps10_3_W) r hr)).trans (car_args_43 m ρ c r hr)
theorem car_args_45 (c : Dev nD) (r : Ref sig .tc) (hr : r ∈ car_args) :
    W45 m ρ c (Proc.devRef .tc r) = W0 m ρ c (Proc.devRef .tc r) :=
  (W45_of m ρ c r ((by decide +kernel : ∀ r ∈ car_args, r ∉ hostOps10_4_W) r hr)).trans (car_args_44 m ρ c r hr)
theorem car_args_46 (c : Dev nD) (r : Ref sig .tc) (hr : r ∈ car_args) :
    W46 m ρ c (Proc.devRef .tc r) = W0 m ρ c (Proc.devRef .tc r) :=
  (W46_of_ne m ρ c r ((by decide +kernel : ∀ r ∈ car_args, ∀ w, Pipeline.arrRef spec10 w ≠ r) r hr)).trans (car_args_45 m ρ c r hr)
theorem car_args_47 (c : Dev nD) (r : Ref sig .tc) (hr : r ∈ car_args) :
    W47 m ρ c (Proc.devRef .tc r) = W0 m ρ c (Proc.devRef .tc r) :=
  (W47_of m ρ c r ((by decide +kernel : ∀ r ∈ car_args, r ∉ hostOps11_W) r hr)).trans (car_args_46 m ρ c r hr)
theorem car_args_48 (c : Dev nD) (r : Ref sig .tc) (hr : r ∈ car_args) :
    W48 m ρ c (Proc.devRef .tc r) = W0 m ρ c (Proc.devRef .tc r) :=
  (W48_of m ρ c r ((by decide +kernel : ∀ r ∈ car_args, r ∉ hostOps11_1_W) r hr)).trans (car_args_47 m ρ c r hr)
theorem car_args_49 (c : Dev nD) (r : Ref sig .tc) (hr : r ∈ car_args) :
    W49 m ρ c (Proc.devRef .tc r) = W0 m ρ c (Proc.devRef .tc r) :=
  (W49_of m ρ c r ((by decide +kernel : ∀ r ∈ car_args, r ∉ hostOps11_2_W) r hr)).trans (car_args_48 m ρ c r hr)
theorem car_args_50 (c : Dev nD) (r : Ref sig .tc) (hr : r ∈ car_args) :
    W50 m ρ c (Proc.devRef .tc r) = W0 m ρ c (Proc.devRef .tc r) :=
  (W50_of_ne m ρ c r ((by decide +kernel : ∀ r ∈ car_args, ∀ w, Pipeline.arrRef spec11 w ≠ r) r hr)).trans (car_args_49 m ρ c r hr)
theorem car_args_51 (c : Dev nD) (r : Ref sig .tc) (hr : r ∈ car_args) :
    W51 m ρ c (Proc.devRef .tc r) = W0 m ρ c (Proc.devRef .tc r) :=
  (W51_of m ρ c r ((by decide +kernel : ∀ r ∈ car_args, r ∉ hostOps12_W) r hr)).trans (car_args_50 m ρ c r hr)

/-- Carried from boundary 0 to boundary 1. -/
abbrev car_e03 : List (Ref sig .tc) := [main_arg0, main_arg3]
theorem car_e03_1 (c : Dev nD) (r : Ref sig .tc) (hr : r ∈ car_e03) :
    W1 m ρ c (Proc.devRef .tc r) = W0 m ρ c (Proc.devRef .tc r) :=
  W1_of m ρ c r ((by decide +kernel : ∀ r ∈ car_e03, r ∉ hostOps0_W) r hr)

/-- Carried from boundary 0 to boundary 4. -/
abbrev car_e6 : List (Ref sig .tc) := [main_arg6]
theorem car_e6_1 (c : Dev nD) (r : Ref sig .tc) (hr : r ∈ car_e6) :
    W1 m ρ c (Proc.devRef .tc r) = W0 m ρ c (Proc.devRef .tc r) :=
  W1_of m ρ c r ((by decide +kernel : ∀ r ∈ car_e6, r ∉ hostOps0_W) r hr)
theorem car_e6_2 (c : Dev nD) (r : Ref sig .tc) (hr : r ∈ car_e6) :
    W2 m ρ c (Proc.devRef .tc r) = W0 m ρ c (Proc.devRef .tc r) :=
  (W2_of_ne m ρ c r ((by decide +kernel : ∀ r ∈ car_e6, ∀ w, Pipeline.arrRef spec0 w ≠ r) r hr)).trans (car_e6_1 m ρ c r hr)
theorem car_e6_3 (c : Dev nD) (r : Ref sig .tc) (hr : r ∈ car_e6) :
    W3 m ρ c (Proc.devRef .tc r) = W0 m ρ c (Proc.devRef .tc r) :=
  (W3_of m ρ c r ((by decide +kernel : ∀ r ∈ car_e6, r ∉ hostOps1_W) r hr)).trans (car_e6_2 m ρ c r hr)
theorem car_e6_4 (c : Dev nD) (r : Ref sig .tc) (hr : r ∈ car_e6) :
    W4 m ρ c (Proc.devRef .tc r) = W0 m ρ c (Proc.devRef .tc r) :=
  (W4_of_ne m ρ c r ((by decide +kernel : ∀ r ∈ car_e6, ∀ w, Pipeline.arrRef spec1 w ≠ r) r hr)).trans (car_e6_3 m ρ c r hr)

/-- Carried from boundary 0 to boundary 3. -/
abbrev car_e15 : List (Ref sig .tc) := [main_arg1, main_arg5]
theorem car_e15_1 (c : Dev nD) (r : Ref sig .tc) (hr : r ∈ car_e15) :
    W1 m ρ c (Proc.devRef .tc r) = W0 m ρ c (Proc.devRef .tc r) :=
  W1_of m ρ c r ((by decide +kernel : ∀ r ∈ car_e15, r ∉ hostOps0_W) r hr)
theorem car_e15_2 (c : Dev nD) (r : Ref sig .tc) (hr : r ∈ car_e15) :
    W2 m ρ c (Proc.devRef .tc r) = W0 m ρ c (Proc.devRef .tc r) :=
  (W2_of_ne m ρ c r ((by decide +kernel : ∀ r ∈ car_e15, ∀ w, Pipeline.arrRef spec0 w ≠ r) r hr)).trans (car_e15_1 m ρ c r hr)
theorem car_e15_3 (c : Dev nD) (r : Ref sig .tc) (hr : r ∈ car_e15) :
    W3 m ρ c (Proc.devRef .tc r) = W0 m ρ c (Proc.devRef .tc r) :=
  (W3_of m ρ c r ((by decide +kernel : ∀ r ∈ car_e15, r ∉ hostOps1_W) r hr)).trans (car_e15_2 m ρ c r hr)

/-- Carried from boundary 0 to boundary 5. -/
abbrev car_e2 : List (Ref sig .tc) := [main_arg2]
theorem car_e2_1 (c : Dev nD) (r : Ref sig .tc) (hr : r ∈ car_e2) :
    W1 m ρ c (Proc.devRef .tc r) = W0 m ρ c (Proc.devRef .tc r) :=
  W1_of m ρ c r ((by decide +kernel : ∀ r ∈ car_e2, r ∉ hostOps0_W) r hr)
theorem car_e2_2 (c : Dev nD) (r : Ref sig .tc) (hr : r ∈ car_e2) :
    W2 m ρ c (Proc.devRef .tc r) = W0 m ρ c (Proc.devRef .tc r) :=
  (W2_of_ne m ρ c r ((by decide +kernel : ∀ r ∈ car_e2, ∀ w, Pipeline.arrRef spec0 w ≠ r) r hr)).trans (car_e2_1 m ρ c r hr)
theorem car_e2_3 (c : Dev nD) (r : Ref sig .tc) (hr : r ∈ car_e2) :
    W3 m ρ c (Proc.devRef .tc r) = W0 m ρ c (Proc.devRef .tc r) :=
  (W3_of m ρ c r ((by decide +kernel : ∀ r ∈ car_e2, r ∉ hostOps1_W) r hr)).trans (car_e2_2 m ρ c r hr)
theorem car_e2_4 (c : Dev nD) (r : Ref sig .tc) (hr : r ∈ car_e2) :
    W4 m ρ c (Proc.devRef .tc r) = W0 m ρ c (Proc.devRef .tc r) :=
  (W4_of_ne m ρ c r ((by decide +kernel : ∀ r ∈ car_e2, ∀ w, Pipeline.arrRef spec1 w ≠ r) r hr)).trans (car_e2_3 m ρ c r hr)
theorem car_e2_5 (c : Dev nD) (r : Ref sig .tc) (hr : r ∈ car_e2) :
    W5 m ρ c (Proc.devRef .tc r) = W0 m ρ c (Proc.devRef .tc r) :=
  (W5_of m ρ c r ((by decide +kernel : ∀ r ∈ car_e2, r ∉ hostOps2_W) r hr)).trans (car_e2_4 m ρ c r hr)

/-- Carried from boundary 2 to boundary 12. -/
abbrev car_v1 : List (Ref sig .tc) := [main_v1]
theorem car_v1_3 (c : Dev nD) (r : Ref sig .tc) (hr : r ∈ car_v1) :
    W3 m ρ c (Proc.devRef .tc r) = W2 m ρ c (Proc.devRef .tc r) :=
  W3_of m ρ c r ((by decide +kernel : ∀ r ∈ car_v1, r ∉ hostOps1_W) r hr)
theorem car_v1_4 (c : Dev nD) (r : Ref sig .tc) (hr : r ∈ car_v1) :
    W4 m ρ c (Proc.devRef .tc r) = W2 m ρ c (Proc.devRef .tc r) :=
  (W4_of_ne m ρ c r ((by decide +kernel : ∀ r ∈ car_v1, ∀ w, Pipeline.arrRef spec1 w ≠ r) r hr)).trans (car_v1_3 m ρ c r hr)
theorem car_v1_5 (c : Dev nD) (r : Ref sig .tc) (hr : r ∈ car_v1) :
    W5 m ρ c (Proc.devRef .tc r) = W2 m ρ c (Proc.devRef .tc r) :=
  (W5_of m ρ c r ((by decide +kernel : ∀ r ∈ car_v1, r ∉ hostOps2_W) r hr)).trans (car_v1_4 m ρ c r hr)
theorem car_v1_6 (c : Dev nD) (r : Ref sig .tc) (hr : r ∈ car_v1) :
    W6 m ρ c (Proc.devRef .tc r) = W2 m ρ c (Proc.devRef .tc r) :=
  (W6_of_ne m ρ c r ((by decide +kernel : ∀ r ∈ car_v1, ∀ w, Pipeline.arrRef spec2 w ≠ r) r hr)).trans (car_v1_5 m ρ c r hr)
theorem car_v1_7 (c : Dev nD) (r : Ref sig .tc) (hr : r ∈ car_v1) :
    W7 m ρ c (Proc.devRef .tc r) = W2 m ρ c (Proc.devRef .tc r) :=
  (W7_of m ρ c r ((by decide +kernel : ∀ r ∈ car_v1, r ∉ hostOps3_W) r hr)).trans (car_v1_6 m ρ c r hr)
theorem car_v1_8 (c : Dev nD) (r : Ref sig .tc) (hr : r ∈ car_v1) :
    W8 m ρ c (Proc.devRef .tc r) = W2 m ρ c (Proc.devRef .tc r) :=
  (W8_of m ρ c r ((by decide +kernel : ∀ r ∈ car_v1, r ∉ hostOps3_1_W) r hr)).trans (car_v1_7 m ρ c r hr)
theorem car_v1_9 (c : Dev nD) (r : Ref sig .tc) (hr : r ∈ car_v1) :
    W9 m ρ c (Proc.devRef .tc r) = W2 m ρ c (Proc.devRef .tc r) :=
  (W9_of m ρ c r ((by decide +kernel : ∀ r ∈ car_v1, r ∉ hostOps3_2_W) r hr)).trans (car_v1_8 m ρ c r hr)
theorem car_v1_10 (c : Dev nD) (r : Ref sig .tc) (hr : r ∈ car_v1) :
    W10 m ρ c (Proc.devRef .tc r) = W2 m ρ c (Proc.devRef .tc r) :=
  (W10_of m ρ c r ((by decide +kernel : ∀ r ∈ car_v1, r ∉ hostOps3_3_W) r hr)).trans (car_v1_9 m ρ c r hr)
theorem car_v1_11 (c : Dev nD) (r : Ref sig .tc) (hr : r ∈ car_v1) :
    W11 m ρ c (Proc.devRef .tc r) = W2 m ρ c (Proc.devRef .tc r) :=
  (W11_of m ρ c r ((by decide +kernel : ∀ r ∈ car_v1, r ∉ hostOps3_4_W) r hr)).trans (car_v1_10 m ρ c r hr)
theorem car_v1_12 (c : Dev nD) (r : Ref sig .tc) (hr : r ∈ car_v1) :
    W12 m ρ c (Proc.devRef .tc r) = W2 m ρ c (Proc.devRef .tc r) :=
  (W12_of_ne m ρ c r ((by decide +kernel : ∀ r ∈ car_v1, ∀ w, Pipeline.arrRef spec3 w ≠ r) r hr)).trans (car_v1_11 m ρ c r hr)

/-- Carried from boundary 4 to boundary 36. -/
abbrev car_v3 : List (Ref sig .tc) := [main_v3]
theorem car_v3_5 (c : Dev nD) (r : Ref sig .tc) (hr : r ∈ car_v3) :
    W5 m ρ c (Proc.devRef .tc r) = W4 m ρ c (Proc.devRef .tc r) :=
  W5_of m ρ c r ((by decide +kernel : ∀ r ∈ car_v3, r ∉ hostOps2_W) r hr)
theorem car_v3_6 (c : Dev nD) (r : Ref sig .tc) (hr : r ∈ car_v3) :
    W6 m ρ c (Proc.devRef .tc r) = W4 m ρ c (Proc.devRef .tc r) :=
  (W6_of_ne m ρ c r ((by decide +kernel : ∀ r ∈ car_v3, ∀ w, Pipeline.arrRef spec2 w ≠ r) r hr)).trans (car_v3_5 m ρ c r hr)
theorem car_v3_7 (c : Dev nD) (r : Ref sig .tc) (hr : r ∈ car_v3) :
    W7 m ρ c (Proc.devRef .tc r) = W4 m ρ c (Proc.devRef .tc r) :=
  (W7_of m ρ c r ((by decide +kernel : ∀ r ∈ car_v3, r ∉ hostOps3_W) r hr)).trans (car_v3_6 m ρ c r hr)
theorem car_v3_8 (c : Dev nD) (r : Ref sig .tc) (hr : r ∈ car_v3) :
    W8 m ρ c (Proc.devRef .tc r) = W4 m ρ c (Proc.devRef .tc r) :=
  (W8_of m ρ c r ((by decide +kernel : ∀ r ∈ car_v3, r ∉ hostOps3_1_W) r hr)).trans (car_v3_7 m ρ c r hr)
theorem car_v3_9 (c : Dev nD) (r : Ref sig .tc) (hr : r ∈ car_v3) :
    W9 m ρ c (Proc.devRef .tc r) = W4 m ρ c (Proc.devRef .tc r) :=
  (W9_of m ρ c r ((by decide +kernel : ∀ r ∈ car_v3, r ∉ hostOps3_2_W) r hr)).trans (car_v3_8 m ρ c r hr)
theorem car_v3_10 (c : Dev nD) (r : Ref sig .tc) (hr : r ∈ car_v3) :
    W10 m ρ c (Proc.devRef .tc r) = W4 m ρ c (Proc.devRef .tc r) :=
  (W10_of m ρ c r ((by decide +kernel : ∀ r ∈ car_v3, r ∉ hostOps3_3_W) r hr)).trans (car_v3_9 m ρ c r hr)
theorem car_v3_11 (c : Dev nD) (r : Ref sig .tc) (hr : r ∈ car_v3) :
    W11 m ρ c (Proc.devRef .tc r) = W4 m ρ c (Proc.devRef .tc r) :=
  (W11_of m ρ c r ((by decide +kernel : ∀ r ∈ car_v3, r ∉ hostOps3_4_W) r hr)).trans (car_v3_10 m ρ c r hr)
theorem car_v3_12 (c : Dev nD) (r : Ref sig .tc) (hr : r ∈ car_v3) :
    W12 m ρ c (Proc.devRef .tc r) = W4 m ρ c (Proc.devRef .tc r) :=
  (W12_of_ne m ρ c r ((by decide +kernel : ∀ r ∈ car_v3, ∀ w, Pipeline.arrRef spec3 w ≠ r) r hr)).trans (car_v3_11 m ρ c r hr)
theorem car_v3_13 (c : Dev nD) (r : Ref sig .tc) (hr : r ∈ car_v3) :
    W13 m ρ c (Proc.devRef .tc r) = W4 m ρ c (Proc.devRef .tc r) :=
  (W13_of m ρ c r ((by decide +kernel : ∀ r ∈ car_v3, r ∉ hostOps4_W) r hr)).trans (car_v3_12 m ρ c r hr)
theorem car_v3_14 (c : Dev nD) (r : Ref sig .tc) (hr : r ∈ car_v3) :
    W14 m ρ c (Proc.devRef .tc r) = W4 m ρ c (Proc.devRef .tc r) :=
  (W14_of m ρ c r ((by decide +kernel : ∀ r ∈ car_v3, r ∉ hostOps4_1_W) r hr)).trans (car_v3_13 m ρ c r hr)
theorem car_v3_15 (c : Dev nD) (r : Ref sig .tc) (hr : r ∈ car_v3) :
    W15 m ρ c (Proc.devRef .tc r) = W4 m ρ c (Proc.devRef .tc r) :=
  (W15_of m ρ c r ((by decide +kernel : ∀ r ∈ car_v3, r ∉ hostOps4_2_W) r hr)).trans (car_v3_14 m ρ c r hr)
theorem car_v3_16 (c : Dev nD) (r : Ref sig .tc) (hr : r ∈ car_v3) :
    W16 m ρ c (Proc.devRef .tc r) = W4 m ρ c (Proc.devRef .tc r) :=
  (W16_of m ρ c r ((by decide +kernel : ∀ r ∈ car_v3, r ∉ hostOps4_3_W) r hr)).trans (car_v3_15 m ρ c r hr)
theorem car_v3_17 (c : Dev nD) (r : Ref sig .tc) (hr : r ∈ car_v3) :
    W17 m ρ c (Proc.devRef .tc r) = W4 m ρ c (Proc.devRef .tc r) :=
  (W17_of m ρ c r ((by decide +kernel : ∀ r ∈ car_v3, r ∉ hostOps4_4_W) r hr)).trans (car_v3_16 m ρ c r hr)
theorem car_v3_18 (c : Dev nD) (r : Ref sig .tc) (hr : r ∈ car_v3) :
    W18 m ρ c (Proc.devRef .tc r) = W4 m ρ c (Proc.devRef .tc r) :=
  (W18_of_ne m ρ c r ((by decide +kernel : ∀ r ∈ car_v3, ∀ w, Pipeline.arrRef spec4 w ≠ r) r hr)).trans (car_v3_17 m ρ c r hr)
theorem car_v3_19 (c : Dev nD) (r : Ref sig .tc) (hr : r ∈ car_v3) :
    W19 m ρ c (Proc.devRef .tc r) = W4 m ρ c (Proc.devRef .tc r) :=
  (W19_of m ρ c r ((by decide +kernel : ∀ r ∈ car_v3, r ∉ hostOps5_W) r hr)).trans (car_v3_18 m ρ c r hr)
theorem car_v3_20 (c : Dev nD) (r : Ref sig .tc) (hr : r ∈ car_v3) :
    W20 m ρ c (Proc.devRef .tc r) = W4 m ρ c (Proc.devRef .tc r) :=
  (W20_of m ρ c r ((by decide +kernel : ∀ r ∈ car_v3, r ∉ hostOps5_1_W) r hr)).trans (car_v3_19 m ρ c r hr)
theorem car_v3_21 (c : Dev nD) (r : Ref sig .tc) (hr : r ∈ car_v3) :
    W21 m ρ c (Proc.devRef .tc r) = W4 m ρ c (Proc.devRef .tc r) :=
  (W21_of m ρ c r ((by decide +kernel : ∀ r ∈ car_v3, r ∉ hostOps5_2_W) r hr)).trans (car_v3_20 m ρ c r hr)
theorem car_v3_22 (c : Dev nD) (r : Ref sig .tc) (hr : r ∈ car_v3) :
    W22 m ρ c (Proc.devRef .tc r) = W4 m ρ c (Proc.devRef .tc r) :=
  (W22_of_ne m ρ c r ((by decide +kernel : ∀ r ∈ car_v3, ∀ w, Pipeline.arrRef spec5 w ≠ r) r hr)).trans (car_v3_21 m ρ c r hr)
theorem car_v3_23 (c : Dev nD) (r : Ref sig .tc) (hr : r ∈ car_v3) :
    W23 m ρ c (Proc.devRef .tc r) = W4 m ρ c (Proc.devRef .tc r) :=
  (W23_of m ρ c r ((by decide +kernel : ∀ r ∈ car_v3, r ∉ hostOps6_W) r hr)).trans (car_v3_22 m ρ c r hr)
theorem car_v3_24 (c : Dev nD) (r : Ref sig .tc) (hr : r ∈ car_v3) :
    W24 m ρ c (Proc.devRef .tc r) = W4 m ρ c (Proc.devRef .tc r) :=
  (W24_of m ρ c r ((by decide +kernel : ∀ r ∈ car_v3, r ∉ hostOps6_1_W) r hr)).trans (car_v3_23 m ρ c r hr)
theorem car_v3_25 (c : Dev nD) (r : Ref sig .tc) (hr : r ∈ car_v3) :
    W25 m ρ c (Proc.devRef .tc r) = W4 m ρ c (Proc.devRef .tc r) :=
  (W25_of m ρ c r ((by decide +kernel : ∀ r ∈ car_v3, r ∉ hostOps6_2_W) r hr)).trans (car_v3_24 m ρ c r hr)
theorem car_v3_26 (c : Dev nD) (r : Ref sig .tc) (hr : r ∈ car_v3) :
    W26 m ρ c (Proc.devRef .tc r) = W4 m ρ c (Proc.devRef .tc r) :=
  (W26_of_ne m ρ c r ((by decide +kernel : ∀ r ∈ car_v3, ∀ w, Pipeline.arrRef spec6 w ≠ r) r hr)).trans (car_v3_25 m ρ c r hr)
theorem car_v3_27 (c : Dev nD) (r : Ref sig .tc) (hr : r ∈ car_v3) :
    W27 m ρ c (Proc.devRef .tc r) = W4 m ρ c (Proc.devRef .tc r) :=
  (W27_of m ρ c r ((by decide +kernel : ∀ r ∈ car_v3, r ∉ hostOps7_W) r hr)).trans (car_v3_26 m ρ c r hr)
theorem car_v3_28 (c : Dev nD) (r : Ref sig .tc) (hr : r ∈ car_v3) :
    W28 m ρ c (Proc.devRef .tc r) = W4 m ρ c (Proc.devRef .tc r) :=
  (W28_of m ρ c r ((by decide +kernel : ∀ r ∈ car_v3, r ∉ hostOps7_1_W) r hr)).trans (car_v3_27 m ρ c r hr)
theorem car_v3_29 (c : Dev nD) (r : Ref sig .tc) (hr : r ∈ car_v3) :
    W29 m ρ c (Proc.devRef .tc r) = W4 m ρ c (Proc.devRef .tc r) :=
  (W29_of m ρ c r ((by decide +kernel : ∀ r ∈ car_v3, r ∉ hostOps7_2_W) r hr)).trans (car_v3_28 m ρ c r hr)
theorem car_v3_30 (c : Dev nD) (r : Ref sig .tc) (hr : r ∈ car_v3) :
    W30 m ρ c (Proc.devRef .tc r) = W4 m ρ c (Proc.devRef .tc r) :=
  (W30_of m ρ c r ((by decide +kernel : ∀ r ∈ car_v3, r ∉ hostOps7_3_W) r hr)).trans (car_v3_29 m ρ c r hr)
theorem car_v3_31 (c : Dev nD) (r : Ref sig .tc) (hr : r ∈ car_v3) :
    W31 m ρ c (Proc.devRef .tc r) = W4 m ρ c (Proc.devRef .tc r) :=
  (W31_of m ρ c r ((by decide +kernel : ∀ r ∈ car_v3, r ∉ hostOps7_4_W) r hr)).trans (car_v3_30 m ρ c r hr)
theorem car_v3_32 (c : Dev nD) (r : Ref sig .tc) (hr : r ∈ car_v3) :
    W32 m ρ c (Proc.devRef .tc r) = W4 m ρ c (Proc.devRef .tc r) :=
  (W32_of_ne m ρ c r ((by decide +kernel : ∀ r ∈ car_v3, ∀ w, Pipeline.arrRef spec7 w ≠ r) r hr)).trans (car_v3_31 m ρ c r hr)
theorem car_v3_33 (c : Dev nD) (r : Ref sig .tc) (hr : r ∈ car_v3) :
    W33 m ρ c (Proc.devRef .tc r) = W4 m ρ c (Proc.devRef .tc r) :=
  (W33_of m ρ c r ((by decide +kernel : ∀ r ∈ car_v3, r ∉ hostOps8_W) r hr)).trans (car_v3_32 m ρ c r hr)
theorem car_v3_34 (c : Dev nD) (r : Ref sig .tc) (hr : r ∈ car_v3) :
    W34 m ρ c (Proc.devRef .tc r) = W4 m ρ c (Proc.devRef .tc r) :=
  (W34_of m ρ c r ((by decide +kernel : ∀ r ∈ car_v3, r ∉ hostOps8_1_W) r hr)).trans (car_v3_33 m ρ c r hr)
theorem car_v3_35 (c : Dev nD) (r : Ref sig .tc) (hr : r ∈ car_v3) :
    W35 m ρ c (Proc.devRef .tc r) = W4 m ρ c (Proc.devRef .tc r) :=
  (W35_of m ρ c r ((by decide +kernel : ∀ r ∈ car_v3, r ∉ hostOps8_2_W) r hr)).trans (car_v3_34 m ρ c r hr)
theorem car_v3_36 (c : Dev nD) (r : Ref sig .tc) (hr : r ∈ car_v3) :
    W36 m ρ c (Proc.devRef .tc r) = W4 m ρ c (Proc.devRef .tc r) :=
  (W36_of_ne m ρ c r ((by decide +kernel : ∀ r ∈ car_v3, ∀ w, Pipeline.arrRef spec8 w ≠ r) r hr)).trans (car_v3_35 m ρ c r hr)

/-- Carried from boundary 6 to boundary 40. -/
abbrev car_v5 : List (Ref sig .tc) := [main_v5]
theorem car_v5_7 (c : Dev nD) (r : Ref sig .tc) (hr : r ∈ car_v5) :
    W7 m ρ c (Proc.devRef .tc r) = W6 m ρ c (Proc.devRef .tc r) :=
  W7_of m ρ c r ((by decide +kernel : ∀ r ∈ car_v5, r ∉ hostOps3_W) r hr)
theorem car_v5_8 (c : Dev nD) (r : Ref sig .tc) (hr : r ∈ car_v5) :
    W8 m ρ c (Proc.devRef .tc r) = W6 m ρ c (Proc.devRef .tc r) :=
  (W8_of m ρ c r ((by decide +kernel : ∀ r ∈ car_v5, r ∉ hostOps3_1_W) r hr)).trans (car_v5_7 m ρ c r hr)
theorem car_v5_9 (c : Dev nD) (r : Ref sig .tc) (hr : r ∈ car_v5) :
    W9 m ρ c (Proc.devRef .tc r) = W6 m ρ c (Proc.devRef .tc r) :=
  (W9_of m ρ c r ((by decide +kernel : ∀ r ∈ car_v5, r ∉ hostOps3_2_W) r hr)).trans (car_v5_8 m ρ c r hr)
theorem car_v5_10 (c : Dev nD) (r : Ref sig .tc) (hr : r ∈ car_v5) :
    W10 m ρ c (Proc.devRef .tc r) = W6 m ρ c (Proc.devRef .tc r) :=
  (W10_of m ρ c r ((by decide +kernel : ∀ r ∈ car_v5, r ∉ hostOps3_3_W) r hr)).trans (car_v5_9 m ρ c r hr)
theorem car_v5_11 (c : Dev nD) (r : Ref sig .tc) (hr : r ∈ car_v5) :
    W11 m ρ c (Proc.devRef .tc r) = W6 m ρ c (Proc.devRef .tc r) :=
  (W11_of m ρ c r ((by decide +kernel : ∀ r ∈ car_v5, r ∉ hostOps3_4_W) r hr)).trans (car_v5_10 m ρ c r hr)
theorem car_v5_12 (c : Dev nD) (r : Ref sig .tc) (hr : r ∈ car_v5) :
    W12 m ρ c (Proc.devRef .tc r) = W6 m ρ c (Proc.devRef .tc r) :=
  (W12_of_ne m ρ c r ((by decide +kernel : ∀ r ∈ car_v5, ∀ w, Pipeline.arrRef spec3 w ≠ r) r hr)).trans (car_v5_11 m ρ c r hr)
theorem car_v5_13 (c : Dev nD) (r : Ref sig .tc) (hr : r ∈ car_v5) :
    W13 m ρ c (Proc.devRef .tc r) = W6 m ρ c (Proc.devRef .tc r) :=
  (W13_of m ρ c r ((by decide +kernel : ∀ r ∈ car_v5, r ∉ hostOps4_W) r hr)).trans (car_v5_12 m ρ c r hr)
theorem car_v5_14 (c : Dev nD) (r : Ref sig .tc) (hr : r ∈ car_v5) :
    W14 m ρ c (Proc.devRef .tc r) = W6 m ρ c (Proc.devRef .tc r) :=
  (W14_of m ρ c r ((by decide +kernel : ∀ r ∈ car_v5, r ∉ hostOps4_1_W) r hr)).trans (car_v5_13 m ρ c r hr)
theorem car_v5_15 (c : Dev nD) (r : Ref sig .tc) (hr : r ∈ car_v5) :
    W15 m ρ c (Proc.devRef .tc r) = W6 m ρ c (Proc.devRef .tc r) :=
  (W15_of m ρ c r ((by decide +kernel : ∀ r ∈ car_v5, r ∉ hostOps4_2_W) r hr)).trans (car_v5_14 m ρ c r hr)
theorem car_v5_16 (c : Dev nD) (r : Ref sig .tc) (hr : r ∈ car_v5) :
    W16 m ρ c (Proc.devRef .tc r) = W6 m ρ c (Proc.devRef .tc r) :=
  (W16_of m ρ c r ((by decide +kernel : ∀ r ∈ car_v5, r ∉ hostOps4_3_W) r hr)).trans (car_v5_15 m ρ c r hr)
theorem car_v5_17 (c : Dev nD) (r : Ref sig .tc) (hr : r ∈ car_v5) :
    W17 m ρ c (Proc.devRef .tc r) = W6 m ρ c (Proc.devRef .tc r) :=
  (W17_of m ρ c r ((by decide +kernel : ∀ r ∈ car_v5, r ∉ hostOps4_4_W) r hr)).trans (car_v5_16 m ρ c r hr)
theorem car_v5_18 (c : Dev nD) (r : Ref sig .tc) (hr : r ∈ car_v5) :
    W18 m ρ c (Proc.devRef .tc r) = W6 m ρ c (Proc.devRef .tc r) :=
  (W18_of_ne m ρ c r ((by decide +kernel : ∀ r ∈ car_v5, ∀ w, Pipeline.arrRef spec4 w ≠ r) r hr)).trans (car_v5_17 m ρ c r hr)
theorem car_v5_19 (c : Dev nD) (r : Ref sig .tc) (hr : r ∈ car_v5) :
    W19 m ρ c (Proc.devRef .tc r) = W6 m ρ c (Proc.devRef .tc r) :=
  (W19_of m ρ c r ((by decide +kernel : ∀ r ∈ car_v5, r ∉ hostOps5_W) r hr)).trans (car_v5_18 m ρ c r hr)
theorem car_v5_20 (c : Dev nD) (r : Ref sig .tc) (hr : r ∈ car_v5) :
    W20 m ρ c (Proc.devRef .tc r) = W6 m ρ c (Proc.devRef .tc r) :=
  (W20_of m ρ c r ((by decide +kernel : ∀ r ∈ car_v5, r ∉ hostOps5_1_W) r hr)).trans (car_v5_19 m ρ c r hr)
theorem car_v5_21 (c : Dev nD) (r : Ref sig .tc) (hr : r ∈ car_v5) :
    W21 m ρ c (Proc.devRef .tc r) = W6 m ρ c (Proc.devRef .tc r) :=
  (W21_of m ρ c r ((by decide +kernel : ∀ r ∈ car_v5, r ∉ hostOps5_2_W) r hr)).trans (car_v5_20 m ρ c r hr)
theorem car_v5_22 (c : Dev nD) (r : Ref sig .tc) (hr : r ∈ car_v5) :
    W22 m ρ c (Proc.devRef .tc r) = W6 m ρ c (Proc.devRef .tc r) :=
  (W22_of_ne m ρ c r ((by decide +kernel : ∀ r ∈ car_v5, ∀ w, Pipeline.arrRef spec5 w ≠ r) r hr)).trans (car_v5_21 m ρ c r hr)
theorem car_v5_23 (c : Dev nD) (r : Ref sig .tc) (hr : r ∈ car_v5) :
    W23 m ρ c (Proc.devRef .tc r) = W6 m ρ c (Proc.devRef .tc r) :=
  (W23_of m ρ c r ((by decide +kernel : ∀ r ∈ car_v5, r ∉ hostOps6_W) r hr)).trans (car_v5_22 m ρ c r hr)
theorem car_v5_24 (c : Dev nD) (r : Ref sig .tc) (hr : r ∈ car_v5) :
    W24 m ρ c (Proc.devRef .tc r) = W6 m ρ c (Proc.devRef .tc r) :=
  (W24_of m ρ c r ((by decide +kernel : ∀ r ∈ car_v5, r ∉ hostOps6_1_W) r hr)).trans (car_v5_23 m ρ c r hr)
theorem car_v5_25 (c : Dev nD) (r : Ref sig .tc) (hr : r ∈ car_v5) :
    W25 m ρ c (Proc.devRef .tc r) = W6 m ρ c (Proc.devRef .tc r) :=
  (W25_of m ρ c r ((by decide +kernel : ∀ r ∈ car_v5, r ∉ hostOps6_2_W) r hr)).trans (car_v5_24 m ρ c r hr)
theorem car_v5_26 (c : Dev nD) (r : Ref sig .tc) (hr : r ∈ car_v5) :
    W26 m ρ c (Proc.devRef .tc r) = W6 m ρ c (Proc.devRef .tc r) :=
  (W26_of_ne m ρ c r ((by decide +kernel : ∀ r ∈ car_v5, ∀ w, Pipeline.arrRef spec6 w ≠ r) r hr)).trans (car_v5_25 m ρ c r hr)
theorem car_v5_27 (c : Dev nD) (r : Ref sig .tc) (hr : r ∈ car_v5) :
    W27 m ρ c (Proc.devRef .tc r) = W6 m ρ c (Proc.devRef .tc r) :=
  (W27_of m ρ c r ((by decide +kernel : ∀ r ∈ car_v5, r ∉ hostOps7_W) r hr)).trans (car_v5_26 m ρ c r hr)
theorem car_v5_28 (c : Dev nD) (r : Ref sig .tc) (hr : r ∈ car_v5) :
    W28 m ρ c (Proc.devRef .tc r) = W6 m ρ c (Proc.devRef .tc r) :=
  (W28_of m ρ c r ((by decide +kernel : ∀ r ∈ car_v5, r ∉ hostOps7_1_W) r hr)).trans (car_v5_27 m ρ c r hr)
theorem car_v5_29 (c : Dev nD) (r : Ref sig .tc) (hr : r ∈ car_v5) :
    W29 m ρ c (Proc.devRef .tc r) = W6 m ρ c (Proc.devRef .tc r) :=
  (W29_of m ρ c r ((by decide +kernel : ∀ r ∈ car_v5, r ∉ hostOps7_2_W) r hr)).trans (car_v5_28 m ρ c r hr)
theorem car_v5_30 (c : Dev nD) (r : Ref sig .tc) (hr : r ∈ car_v5) :
    W30 m ρ c (Proc.devRef .tc r) = W6 m ρ c (Proc.devRef .tc r) :=
  (W30_of m ρ c r ((by decide +kernel : ∀ r ∈ car_v5, r ∉ hostOps7_3_W) r hr)).trans (car_v5_29 m ρ c r hr)
theorem car_v5_31 (c : Dev nD) (r : Ref sig .tc) (hr : r ∈ car_v5) :
    W31 m ρ c (Proc.devRef .tc r) = W6 m ρ c (Proc.devRef .tc r) :=
  (W31_of m ρ c r ((by decide +kernel : ∀ r ∈ car_v5, r ∉ hostOps7_4_W) r hr)).trans (car_v5_30 m ρ c r hr)
theorem car_v5_32 (c : Dev nD) (r : Ref sig .tc) (hr : r ∈ car_v5) :
    W32 m ρ c (Proc.devRef .tc r) = W6 m ρ c (Proc.devRef .tc r) :=
  (W32_of_ne m ρ c r ((by decide +kernel : ∀ r ∈ car_v5, ∀ w, Pipeline.arrRef spec7 w ≠ r) r hr)).trans (car_v5_31 m ρ c r hr)
theorem car_v5_33 (c : Dev nD) (r : Ref sig .tc) (hr : r ∈ car_v5) :
    W33 m ρ c (Proc.devRef .tc r) = W6 m ρ c (Proc.devRef .tc r) :=
  (W33_of m ρ c r ((by decide +kernel : ∀ r ∈ car_v5, r ∉ hostOps8_W) r hr)).trans (car_v5_32 m ρ c r hr)
theorem car_v5_34 (c : Dev nD) (r : Ref sig .tc) (hr : r ∈ car_v5) :
    W34 m ρ c (Proc.devRef .tc r) = W6 m ρ c (Proc.devRef .tc r) :=
  (W34_of m ρ c r ((by decide +kernel : ∀ r ∈ car_v5, r ∉ hostOps8_1_W) r hr)).trans (car_v5_33 m ρ c r hr)
theorem car_v5_35 (c : Dev nD) (r : Ref sig .tc) (hr : r ∈ car_v5) :
    W35 m ρ c (Proc.devRef .tc r) = W6 m ρ c (Proc.devRef .tc r) :=
  (W35_of m ρ c r ((by decide +kernel : ∀ r ∈ car_v5, r ∉ hostOps8_2_W) r hr)).trans (car_v5_34 m ρ c r hr)
theorem car_v5_36 (c : Dev nD) (r : Ref sig .tc) (hr : r ∈ car_v5) :
    W36 m ρ c (Proc.devRef .tc r) = W6 m ρ c (Proc.devRef .tc r) :=
  (W36_of_ne m ρ c r ((by decide +kernel : ∀ r ∈ car_v5, ∀ w, Pipeline.arrRef spec8 w ≠ r) r hr)).trans (car_v5_35 m ρ c r hr)
theorem car_v5_37 (c : Dev nD) (r : Ref sig .tc) (hr : r ∈ car_v5) :
    W37 m ρ c (Proc.devRef .tc r) = W6 m ρ c (Proc.devRef .tc r) :=
  (W37_of m ρ c r ((by decide +kernel : ∀ r ∈ car_v5, r ∉ hostOps9_W) r hr)).trans (car_v5_36 m ρ c r hr)
theorem car_v5_38 (c : Dev nD) (r : Ref sig .tc) (hr : r ∈ car_v5) :
    W38 m ρ c (Proc.devRef .tc r) = W6 m ρ c (Proc.devRef .tc r) :=
  (W38_of m ρ c r ((by decide +kernel : ∀ r ∈ car_v5, r ∉ hostOps9_1_W) r hr)).trans (car_v5_37 m ρ c r hr)
theorem car_v5_39 (c : Dev nD) (r : Ref sig .tc) (hr : r ∈ car_v5) :
    W39 m ρ c (Proc.devRef .tc r) = W6 m ρ c (Proc.devRef .tc r) :=
  (W39_of m ρ c r ((by decide +kernel : ∀ r ∈ car_v5, r ∉ hostOps9_2_W) r hr)).trans (car_v5_38 m ρ c r hr)
theorem car_v5_40 (c : Dev nD) (r : Ref sig .tc) (hr : r ∈ car_v5) :
    W40 m ρ c (Proc.devRef .tc r) = W6 m ρ c (Proc.devRef .tc r) :=
  (W40_of_ne m ρ c r ((by decide +kernel : ∀ r ∈ car_v5, ∀ w, Pipeline.arrRef spec9 w ≠ r) r hr)).trans (car_v5_39 m ρ c r hr)

/-- Carried from boundary 11 to boundary 46. -/
abbrev car_ix : List (Ref sig .tc) := [main_v16, main_v18, main_v20, main_v22, main_v24]
theorem car_ix_12 (c : Dev nD) (r : Ref sig .tc) (hr : r ∈ car_ix) :
    W12 m ρ c (Proc.devRef .tc r) = W11 m ρ c (Proc.devRef .tc r) :=
  W12_of_ne m ρ c r ((by decide +kernel : ∀ r ∈ car_ix, ∀ w, Pipeline.arrRef spec3 w ≠ r) r hr)
theorem car_ix_13 (c : Dev nD) (r : Ref sig .tc) (hr : r ∈ car_ix) :
    W13 m ρ c (Proc.devRef .tc r) = W11 m ρ c (Proc.devRef .tc r) :=
  (W13_of m ρ c r ((by decide +kernel : ∀ r ∈ car_ix, r ∉ hostOps4_W) r hr)).trans (car_ix_12 m ρ c r hr)
theorem car_ix_14 (c : Dev nD) (r : Ref sig .tc) (hr : r ∈ car_ix) :
    W14 m ρ c (Proc.devRef .tc r) = W11 m ρ c (Proc.devRef .tc r) :=
  (W14_of m ρ c r ((by decide +kernel : ∀ r ∈ car_ix, r ∉ hostOps4_1_W) r hr)).trans (car_ix_13 m ρ c r hr)
theorem car_ix_15 (c : Dev nD) (r : Ref sig .tc) (hr : r ∈ car_ix) :
    W15 m ρ c (Proc.devRef .tc r) = W11 m ρ c (Proc.devRef .tc r) :=
  (W15_of m ρ c r ((by decide +kernel : ∀ r ∈ car_ix, r ∉ hostOps4_2_W) r hr)).trans (car_ix_14 m ρ c r hr)
theorem car_ix_16 (c : Dev nD) (r : Ref sig .tc) (hr : r ∈ car_ix) :
    W16 m ρ c (Proc.devRef .tc r) = W11 m ρ c (Proc.devRef .tc r) :=
  (W16_of m ρ c r ((by decide +kernel : ∀ r ∈ car_ix, r ∉ hostOps4_3_W) r hr)).trans (car_ix_15 m ρ c r hr)
theorem car_ix_17 (c : Dev nD) (r : Ref sig .tc) (hr : r ∈ car_ix) :
    W17 m ρ c (Proc.devRef .tc r) = W11 m ρ c (Proc.devRef .tc r) :=
  (W17_of m ρ c r ((by decide +kernel : ∀ r ∈ car_ix, r ∉ hostOps4_4_W) r hr)).trans (car_ix_16 m ρ c r hr)
theorem car_ix_18 (c : Dev nD) (r : Ref sig .tc) (hr : r ∈ car_ix) :
    W18 m ρ c (Proc.devRef .tc r) = W11 m ρ c (Proc.devRef .tc r) :=
  (W18_of_ne m ρ c r ((by decide +kernel : ∀ r ∈ car_ix, ∀ w, Pipeline.arrRef spec4 w ≠ r) r hr)).trans (car_ix_17 m ρ c r hr)
theorem car_ix_19 (c : Dev nD) (r : Ref sig .tc) (hr : r ∈ car_ix) :
    W19 m ρ c (Proc.devRef .tc r) = W11 m ρ c (Proc.devRef .tc r) :=
  (W19_of m ρ c r ((by decide +kernel : ∀ r ∈ car_ix, r ∉ hostOps5_W) r hr)).trans (car_ix_18 m ρ c r hr)
theorem car_ix_20 (c : Dev nD) (r : Ref sig .tc) (hr : r ∈ car_ix) :
    W20 m ρ c (Proc.devRef .tc r) = W11 m ρ c (Proc.devRef .tc r) :=
  (W20_of m ρ c r ((by decide +kernel : ∀ r ∈ car_ix, r ∉ hostOps5_1_W) r hr)).trans (car_ix_19 m ρ c r hr)
theorem car_ix_21 (c : Dev nD) (r : Ref sig .tc) (hr : r ∈ car_ix) :
    W21 m ρ c (Proc.devRef .tc r) = W11 m ρ c (Proc.devRef .tc r) :=
  (W21_of m ρ c r ((by decide +kernel : ∀ r ∈ car_ix, r ∉ hostOps5_2_W) r hr)).trans (car_ix_20 m ρ c r hr)
theorem car_ix_22 (c : Dev nD) (r : Ref sig .tc) (hr : r ∈ car_ix) :
    W22 m ρ c (Proc.devRef .tc r) = W11 m ρ c (Proc.devRef .tc r) :=
  (W22_of_ne m ρ c r ((by decide +kernel : ∀ r ∈ car_ix, ∀ w, Pipeline.arrRef spec5 w ≠ r) r hr)).trans (car_ix_21 m ρ c r hr)
theorem car_ix_23 (c : Dev nD) (r : Ref sig .tc) (hr : r ∈ car_ix) :
    W23 m ρ c (Proc.devRef .tc r) = W11 m ρ c (Proc.devRef .tc r) :=
  (W23_of m ρ c r ((by decide +kernel : ∀ r ∈ car_ix, r ∉ hostOps6_W) r hr)).trans (car_ix_22 m ρ c r hr)
theorem car_ix_24 (c : Dev nD) (r : Ref sig .tc) (hr : r ∈ car_ix) :
    W24 m ρ c (Proc.devRef .tc r) = W11 m ρ c (Proc.devRef .tc r) :=
  (W24_of m ρ c r ((by decide +kernel : ∀ r ∈ car_ix, r ∉ hostOps6_1_W) r hr)).trans (car_ix_23 m ρ c r hr)
theorem car_ix_25 (c : Dev nD) (r : Ref sig .tc) (hr : r ∈ car_ix) :
    W25 m ρ c (Proc.devRef .tc r) = W11 m ρ c (Proc.devRef .tc r) :=
  (W25_of m ρ c r ((by decide +kernel : ∀ r ∈ car_ix, r ∉ hostOps6_2_W) r hr)).trans (car_ix_24 m ρ c r hr)
theorem car_ix_26 (c : Dev nD) (r : Ref sig .tc) (hr : r ∈ car_ix) :
    W26 m ρ c (Proc.devRef .tc r) = W11 m ρ c (Proc.devRef .tc r) :=
  (W26_of_ne m ρ c r ((by decide +kernel : ∀ r ∈ car_ix, ∀ w, Pipeline.arrRef spec6 w ≠ r) r hr)).trans (car_ix_25 m ρ c r hr)
theorem car_ix_27 (c : Dev nD) (r : Ref sig .tc) (hr : r ∈ car_ix) :
    W27 m ρ c (Proc.devRef .tc r) = W11 m ρ c (Proc.devRef .tc r) :=
  (W27_of m ρ c r ((by decide +kernel : ∀ r ∈ car_ix, r ∉ hostOps7_W) r hr)).trans (car_ix_26 m ρ c r hr)
theorem car_ix_28 (c : Dev nD) (r : Ref sig .tc) (hr : r ∈ car_ix) :
    W28 m ρ c (Proc.devRef .tc r) = W11 m ρ c (Proc.devRef .tc r) :=
  (W28_of m ρ c r ((by decide +kernel : ∀ r ∈ car_ix, r ∉ hostOps7_1_W) r hr)).trans (car_ix_27 m ρ c r hr)
theorem car_ix_29 (c : Dev nD) (r : Ref sig .tc) (hr : r ∈ car_ix) :
    W29 m ρ c (Proc.devRef .tc r) = W11 m ρ c (Proc.devRef .tc r) :=
  (W29_of m ρ c r ((by decide +kernel : ∀ r ∈ car_ix, r ∉ hostOps7_2_W) r hr)).trans (car_ix_28 m ρ c r hr)
theorem car_ix_30 (c : Dev nD) (r : Ref sig .tc) (hr : r ∈ car_ix) :
    W30 m ρ c (Proc.devRef .tc r) = W11 m ρ c (Proc.devRef .tc r) :=
  (W30_of m ρ c r ((by decide +kernel : ∀ r ∈ car_ix, r ∉ hostOps7_3_W) r hr)).trans (car_ix_29 m ρ c r hr)
theorem car_ix_31 (c : Dev nD) (r : Ref sig .tc) (hr : r ∈ car_ix) :
    W31 m ρ c (Proc.devRef .tc r) = W11 m ρ c (Proc.devRef .tc r) :=
  (W31_of m ρ c r ((by decide +kernel : ∀ r ∈ car_ix, r ∉ hostOps7_4_W) r hr)).trans (car_ix_30 m ρ c r hr)
theorem car_ix_32 (c : Dev nD) (r : Ref sig .tc) (hr : r ∈ car_ix) :
    W32 m ρ c (Proc.devRef .tc r) = W11 m ρ c (Proc.devRef .tc r) :=
  (W32_of_ne m ρ c r ((by decide +kernel : ∀ r ∈ car_ix, ∀ w, Pipeline.arrRef spec7 w ≠ r) r hr)).trans (car_ix_31 m ρ c r hr)
theorem car_ix_33 (c : Dev nD) (r : Ref sig .tc) (hr : r ∈ car_ix) :
    W33 m ρ c (Proc.devRef .tc r) = W11 m ρ c (Proc.devRef .tc r) :=
  (W33_of m ρ c r ((by decide +kernel : ∀ r ∈ car_ix, r ∉ hostOps8_W) r hr)).trans (car_ix_32 m ρ c r hr)
theorem car_ix_34 (c : Dev nD) (r : Ref sig .tc) (hr : r ∈ car_ix) :
    W34 m ρ c (Proc.devRef .tc r) = W11 m ρ c (Proc.devRef .tc r) :=
  (W34_of m ρ c r ((by decide +kernel : ∀ r ∈ car_ix, r ∉ hostOps8_1_W) r hr)).trans (car_ix_33 m ρ c r hr)
theorem car_ix_35 (c : Dev nD) (r : Ref sig .tc) (hr : r ∈ car_ix) :
    W35 m ρ c (Proc.devRef .tc r) = W11 m ρ c (Proc.devRef .tc r) :=
  (W35_of m ρ c r ((by decide +kernel : ∀ r ∈ car_ix, r ∉ hostOps8_2_W) r hr)).trans (car_ix_34 m ρ c r hr)
theorem car_ix_36 (c : Dev nD) (r : Ref sig .tc) (hr : r ∈ car_ix) :
    W36 m ρ c (Proc.devRef .tc r) = W11 m ρ c (Proc.devRef .tc r) :=
  (W36_of_ne m ρ c r ((by decide +kernel : ∀ r ∈ car_ix, ∀ w, Pipeline.arrRef spec8 w ≠ r) r hr)).trans (car_ix_35 m ρ c r hr)
theorem car_ix_37 (c : Dev nD) (r : Ref sig .tc) (hr : r ∈ car_ix) :
    W37 m ρ c (Proc.devRef .tc r) = W11 m ρ c (Proc.devRef .tc r) :=
  (W37_of m ρ c r ((by decide +kernel : ∀ r ∈ car_ix, r ∉ hostOps9_W) r hr)).trans (car_ix_36 m ρ c r hr)
theorem car_ix_38 (c : Dev nD) (r : Ref sig .tc) (hr : r ∈ car_ix) :
    W38 m ρ c (Proc.devRef .tc r) = W11 m ρ c (Proc.devRef .tc r) :=
  (W38_of m ρ c r ((by decide +kernel : ∀ r ∈ car_ix, r ∉ hostOps9_1_W) r hr)).trans (car_ix_37 m ρ c r hr)
theorem car_ix_39 (c : Dev nD) (r : Ref sig .tc) (hr : r ∈ car_ix) :
    W39 m ρ c (Proc.devRef .tc r) = W11 m ρ c (Proc.devRef .tc r) :=
  (W39_of m ρ c r ((by decide +kernel : ∀ r ∈ car_ix, r ∉ hostOps9_2_W) r hr)).trans (car_ix_38 m ρ c r hr)
theorem car_ix_40 (c : Dev nD) (r : Ref sig .tc) (hr : r ∈ car_ix) :
    W40 m ρ c (Proc.devRef .tc r) = W11 m ρ c (Proc.devRef .tc r) :=
  (W40_of_ne m ρ c r ((by decide +kernel : ∀ r ∈ car_ix, ∀ w, Pipeline.arrRef spec9 w ≠ r) r hr)).trans (car_ix_39 m ρ c r hr)
theorem car_ix_41 (c : Dev nD) (r : Ref sig .tc) (hr : r ∈ car_ix) :
    W41 m ρ c (Proc.devRef .tc r) = W11 m ρ c (Proc.devRef .tc r) :=
  (W41_of m ρ c r ((by decide +kernel : ∀ r ∈ car_ix, r ∉ hostOps10_W) r hr)).trans (car_ix_40 m ρ c r hr)
theorem car_ix_42 (c : Dev nD) (r : Ref sig .tc) (hr : r ∈ car_ix) :
    W42 m ρ c (Proc.devRef .tc r) = W11 m ρ c (Proc.devRef .tc r) :=
  (W42_of m ρ c r ((by decide +kernel : ∀ r ∈ car_ix, r ∉ hostOps10_1_W) r hr)).trans (car_ix_41 m ρ c r hr)
theorem car_ix_43 (c : Dev nD) (r : Ref sig .tc) (hr : r ∈ car_ix) :
    W43 m ρ c (Proc.devRef .tc r) = W11 m ρ c (Proc.devRef .tc r) :=
  (W43_of m ρ c r ((by decide +kernel : ∀ r ∈ car_ix, r ∉ hostOps10_2_W) r hr)).trans (car_ix_42 m ρ c r hr)
theorem car_ix_44 (c : Dev nD) (r : Ref sig .tc) (hr : r ∈ car_ix) :
    W44 m ρ c (Proc.devRef .tc r) = W11 m ρ c (Proc.devRef .tc r) :=
  (W44_of m ρ c r ((by decide +kernel : ∀ r ∈ car_ix, r ∉ hostOps10_3_W) r hr)).trans (car_ix_43 m ρ c r hr)
theorem car_ix_45 (c : Dev nD) (r : Ref sig .tc) (hr : r ∈ car_ix) :
    W45 m ρ c (Proc.devRef .tc r) = W11 m ρ c (Proc.devRef .tc r) :=
  (W45_of m ρ c r ((by decide +kernel : ∀ r ∈ car_ix, r ∉ hostOps10_4_W) r hr)).trans (car_ix_44 m ρ c r hr)
theorem car_ix_46 (c : Dev nD) (r : Ref sig .tc) (hr : r ∈ car_ix) :
    W46 m ρ c (Proc.devRef .tc r) = W11 m ρ c (Proc.devRef .tc r) :=
  (W46_of_ne m ρ c r ((by decide +kernel : ∀ r ∈ car_ix, ∀ w, Pipeline.arrRef spec10 w ≠ r) r hr)).trans (car_ix_45 m ρ c r hr)

/-- Carried from boundary 12 to boundary 21. -/
abbrev car_g1a : List (Ref sig .tc) := [main_v48]
theorem car_g1a_13 (c : Dev nD) (r : Ref sig .tc) (hr : r ∈ car_g1a) :
    W13 m ρ c (Proc.devRef .tc r) = W12 m ρ c (Proc.devRef .tc r) :=
  W13_of m ρ c r ((by decide +kernel : ∀ r ∈ car_g1a, r ∉ hostOps4_W) r hr)
theorem car_g1a_14 (c : Dev nD) (r : Ref sig .tc) (hr : r ∈ car_g1a) :
    W14 m ρ c (Proc.devRef .tc r) = W12 m ρ c (Proc.devRef .tc r) :=
  (W14_of m ρ c r ((by decide +kernel : ∀ r ∈ car_g1a, r ∉ hostOps4_1_W) r hr)).trans (car_g1a_13 m ρ c r hr)
theorem car_g1a_15 (c : Dev nD) (r : Ref sig .tc) (hr : r ∈ car_g1a) :
    W15 m ρ c (Proc.devRef .tc r) = W12 m ρ c (Proc.devRef .tc r) :=
  (W15_of m ρ c r ((by decide +kernel : ∀ r ∈ car_g1a, r ∉ hostOps4_2_W) r hr)).trans (car_g1a_14 m ρ c r hr)
theorem car_g1a_16 (c : Dev nD) (r : Ref sig .tc) (hr : r ∈ car_g1a) :
    W16 m ρ c (Proc.devRef .tc r) = W12 m ρ c (Proc.devRef .tc r) :=
  (W16_of m ρ c r ((by decide +kernel : ∀ r ∈ car_g1a, r ∉ hostOps4_3_W) r hr)).trans (car_g1a_15 m ρ c r hr)
theorem car_g1a_17 (c : Dev nD) (r : Ref sig .tc) (hr : r ∈ car_g1a) :
    W17 m ρ c (Proc.devRef .tc r) = W12 m ρ c (Proc.devRef .tc r) :=
  (W17_of m ρ c r ((by decide +kernel : ∀ r ∈ car_g1a, r ∉ hostOps4_4_W) r hr)).trans (car_g1a_16 m ρ c r hr)
theorem car_g1a_18 (c : Dev nD) (r : Ref sig .tc) (hr : r ∈ car_g1a) :
    W18 m ρ c (Proc.devRef .tc r) = W12 m ρ c (Proc.devRef .tc r) :=
  (W18_of_ne m ρ c r ((by decide +kernel : ∀ r ∈ car_g1a, ∀ w, Pipeline.arrRef spec4 w ≠ r) r hr)).trans (car_g1a_17 m ρ c r hr)
theorem car_g1a_19 (c : Dev nD) (r : Ref sig .tc) (hr : r ∈ car_g1a) :
    W19 m ρ c (Proc.devRef .tc r) = W12 m ρ c (Proc.devRef .tc r) :=
  (W19_of m ρ c r ((by decide +kernel : ∀ r ∈ car_g1a, r ∉ hostOps5_W) r hr)).trans (car_g1a_18 m ρ c r hr)
theorem car_g1a_20 (c : Dev nD) (r : Ref sig .tc) (hr : r ∈ car_g1a) :
    W20 m ρ c (Proc.devRef .tc r) = W12 m ρ c (Proc.devRef .tc r) :=
  (W20_of m ρ c r ((by decide +kernel : ∀ r ∈ car_g1a, r ∉ hostOps5_1_W) r hr)).trans (car_g1a_19 m ρ c r hr)
theorem car_g1a_21 (c : Dev nD) (r : Ref sig .tc) (hr : r ∈ car_g1a) :
    W21 m ρ c (Proc.devRef .tc r) = W12 m ρ c (Proc.devRef .tc r) :=
  (W21_of m ρ c r ((by decide +kernel : ∀ r ∈ car_g1a, r ∉ hostOps5_2_W) r hr)).trans (car_g1a_20 m ρ c r hr)

/-- Carried from boundary 17 to boundary 18. -/
abbrev car_ssa : List (Ref sig .tc) := [main_v60, main_v62]
theorem car_ssa_18 (c : Dev nD) (r : Ref sig .tc) (hr : r ∈ car_ssa) :
    W18 m ρ c (Proc.devRef .tc r) = W17 m ρ c (Proc.devRef .tc r) :=
  W18_of_ne m ρ c r ((by decide +kernel : ∀ r ∈ car_ssa, ∀ w, Pipeline.arrRef spec4 w ≠ r) r hr)

/-- Carried from boundary 22 to boundary 26. -/
abbrev car_xa : List (Ref sig .tc) := [main_v128]
theorem car_xa_23 (c : Dev nD) (r : Ref sig .tc) (hr : r ∈ car_xa) :
    W23 m ρ c (Proc.devRef .tc r) = W22 m ρ c (Proc.devRef .tc r) :=
  W23_of m ρ c r ((by decide +kernel : ∀ r ∈ car_xa, r ∉ hostOps6_W) r hr)
theorem car_xa_24 (c : Dev nD) (r : Ref sig .tc) (hr : r ∈ car_xa) :
    W24 m ρ c (Proc.devRef .tc r) = W22 m ρ c (Proc.devRef .tc r) :=
  (W24_of m ρ c r ((by decide +kernel : ∀ r ∈ car_xa, r ∉ hostOps6_1_W) r hr)).trans (car_xa_23 m ρ c r hr)
theorem car_xa_25 (c : Dev nD) (r : Ref sig .tc) (hr : r ∈ car_xa) :
    W25 m ρ c (Proc.devRef .tc r) = W22 m ρ c (Proc.devRef .tc r) :=
  (W25_of m ρ c r ((by decide +kernel : ∀ r ∈ car_xa, r ∉ hostOps6_2_W) r hr)).trans (car_xa_24 m ρ c r hr)
theorem car_xa_26 (c : Dev nD) (r : Ref sig .tc) (hr : r ∈ car_xa) :
    W26 m ρ c (Proc.devRef .tc r) = W22 m ρ c (Proc.devRef .tc r) :=
  (W26_of_ne m ρ c r ((by decide +kernel : ∀ r ∈ car_xa, ∀ w, Pipeline.arrRef spec6 w ≠ r) r hr)).trans (car_xa_25 m ρ c r hr)

/-- Carried from boundary 26 to boundary 35. -/
abbrev car_g1b : List (Ref sig .tc) := [main_v152]
theorem car_g1b_27 (c : Dev nD) (r : Ref sig .tc) (hr : r ∈ car_g1b) :
    W27 m ρ c (Proc.devRef .tc r) = W26 m ρ c (Proc.devRef .tc r) :=
  W27_of m ρ c r ((by decide +kernel : ∀ r ∈ car_g1b, r ∉ hostOps7_W) r hr)
theorem car_g1b_28 (c : Dev nD) (r : Ref sig .tc) (hr : r ∈ car_g1b) :
    W28 m ρ c (Proc.devRef .tc r) = W26 m ρ c (Proc.devRef .tc r) :=
  (W28_of m ρ c r ((by decide +kernel : ∀ r ∈ car_g1b, r ∉ hostOps7_1_W) r hr)).trans (car_g1b_27 m ρ c r hr)
theorem car_g1b_29 (c : Dev nD) (r : Ref sig .tc) (hr : r ∈ car_g1b) :
    W29 m ρ c (Proc.devRef .tc r) = W26 m ρ c (Proc.devRef .tc r) :=
  (W29_of m ρ c r ((by decide +kernel : ∀ r ∈ car_g1b, r ∉ hostOps7_2_W) r hr)).trans (car_g1b_28 m ρ c r hr)
theorem car_g1b_30 (c : Dev nD) (r : Ref sig .tc) (hr : r ∈ car_g1b) :
    W30 m ρ c (Proc.devRef .tc r) = W26 m ρ c (Proc.devRef .tc r) :=
  (W30_of m ρ c r ((by decide +kernel : ∀ r ∈ car_g1b, r ∉ hostOps7_3_W) r hr)).trans (car_g1b_29 m ρ c r hr)
theorem car_g1b_31 (c : Dev nD) (r : Ref sig .tc) (hr : r ∈ car_g1b) :
    W31 m ρ c (Proc.devRef .tc r) = W26 m ρ c (Proc.devRef .tc r) :=
  (W31_of m ρ c r ((by decide +kernel : ∀ r ∈ car_g1b, r ∉ hostOps7_4_W) r hr)).trans (car_g1b_30 m ρ c r hr)
theorem car_g1b_32 (c : Dev nD) (r : Ref sig .tc) (hr : r ∈ car_g1b) :
    W32 m ρ c (Proc.devRef .tc r) = W26 m ρ c (Proc.devRef .tc r) :=
  (W32_of_ne m ρ c r ((by decide +kernel : ∀ r ∈ car_g1b, ∀ w, Pipeline.arrRef spec7 w ≠ r) r hr)).trans (car_g1b_31 m ρ c r hr)
theorem car_g1b_33 (c : Dev nD) (r : Ref sig .tc) (hr : r ∈ car_g1b) :
    W33 m ρ c (Proc.devRef .tc r) = W26 m ρ c (Proc.devRef .tc r) :=
  (W33_of m ρ c r ((by decide +kernel : ∀ r ∈ car_g1b, r ∉ hostOps8_W) r hr)).trans (car_g1b_32 m ρ c r hr)
theorem car_g1b_34 (c : Dev nD) (r : Ref sig .tc) (hr : r ∈ car_g1b) :
    W34 m ρ c (Proc.devRef .tc r) = W26 m ρ c (Proc.devRef .tc r) :=
  (W34_of m ρ c r ((by decide +kernel : ∀ r ∈ car_g1b, r ∉ hostOps8_1_W) r hr)).trans (car_g1b_33 m ρ c r hr)
theorem car_g1b_35 (c : Dev nD) (r : Ref sig .tc) (hr : r ∈ car_g1b) :
    W35 m ρ c (Proc.devRef .tc r) = W26 m ρ c (Proc.devRef .tc r) :=
  (W35_of m ρ c r ((by decide +kernel : ∀ r ∈ car_g1b, r ∉ hostOps8_2_W) r hr)).trans (car_g1b_34 m ρ c r hr)

/-- Carried from boundary 31 to boundary 32. -/
abbrev car_ssb : List (Ref sig .tc) := [main_v164, main_v166]
theorem car_ssb_32 (c : Dev nD) (r : Ref sig .tc) (hr : r ∈ car_ssb) :
    W32 m ρ c (Proc.devRef .tc r) = W31 m ρ c (Proc.devRef .tc r) :=
  W32_of_ne m ρ c r ((by decide +kernel : ∀ r ∈ car_ssb, ∀ w, Pipeline.arrRef spec7 w ≠ r) r hr)

/-- Carried from boundary 36 to boundary 40. -/
abbrev car_xb : List (Ref sig .tc) := [main_v232]
theorem car_xb_37 (c : Dev nD) (r : Ref sig .tc) (hr : r ∈ car_xb) :
    W37 m ρ c (Proc.devRef .tc r) = W36 m ρ c (Proc.devRef .tc r) :=
  W37_of m ρ c r ((by decide +kernel : ∀ r ∈ car_xb, r ∉ hostOps9_W) r hr)
theorem car_xb_38 (c : Dev nD) (r : Ref sig .tc) (hr : r ∈ car_xb) :
    W38 m ρ c (Proc.devRef .tc r) = W36 m ρ c (Proc.devRef .tc r) :=
  (W38_of m ρ c r ((by decide +kernel : ∀ r ∈ car_xb, r ∉ hostOps9_1_W) r hr)).trans (car_xb_37 m ρ c r hr)
theorem car_xb_39 (c : Dev nD) (r : Ref sig .tc) (hr : r ∈ car_xb) :
    W39 m ρ c (Proc.devRef .tc r) = W36 m ρ c (Proc.devRef .tc r) :=
  (W39_of m ρ c r ((by decide +kernel : ∀ r ∈ car_xb, r ∉ hostOps9_2_W) r hr)).trans (car_xb_38 m ρ c r hr)
theorem car_xb_40 (c : Dev nD) (r : Ref sig .tc) (hr : r ∈ car_xb) :
    W40 m ρ c (Proc.devRef .tc r) = W36 m ρ c (Proc.devRef .tc r) :=
  (W40_of_ne m ρ c r ((by decide +kernel : ∀ r ∈ car_xb, ∀ w, Pipeline.arrRef spec9 w ≠ r) r hr)).trans (car_xb_39 m ρ c r hr)

/-- Carried from boundary 40 to boundary 49. -/
abbrev car_g1c : List (Ref sig .tc) := [main_v256]
theorem car_g1c_41 (c : Dev nD) (r : Ref sig .tc) (hr : r ∈ car_g1c) :
    W41 m ρ c (Proc.devRef .tc r) = W40 m ρ c (Proc.devRef .tc r) :=
  W41_of m ρ c r ((by decide +kernel : ∀ r ∈ car_g1c, r ∉ hostOps10_W) r hr)
theorem car_g1c_42 (c : Dev nD) (r : Ref sig .tc) (hr : r ∈ car_g1c) :
    W42 m ρ c (Proc.devRef .tc r) = W40 m ρ c (Proc.devRef .tc r) :=
  (W42_of m ρ c r ((by decide +kernel : ∀ r ∈ car_g1c, r ∉ hostOps10_1_W) r hr)).trans (car_g1c_41 m ρ c r hr)
theorem car_g1c_43 (c : Dev nD) (r : Ref sig .tc) (hr : r ∈ car_g1c) :
    W43 m ρ c (Proc.devRef .tc r) = W40 m ρ c (Proc.devRef .tc r) :=
  (W43_of m ρ c r ((by decide +kernel : ∀ r ∈ car_g1c, r ∉ hostOps10_2_W) r hr)).trans (car_g1c_42 m ρ c r hr)
theorem car_g1c_44 (c : Dev nD) (r : Ref sig .tc) (hr : r ∈ car_g1c) :
    W44 m ρ c (Proc.devRef .tc r) = W40 m ρ c (Proc.devRef .tc r) :=
  (W44_of m ρ c r ((by decide +kernel : ∀ r ∈ car_g1c, r ∉ hostOps10_3_W) r hr)).trans (car_g1c_43 m ρ c r hr)
theorem car_g1c_45 (c : Dev nD) (r : Ref sig .tc) (hr : r ∈ car_g1c) :
    W45 m ρ c (Proc.devRef .tc r) = W40 m ρ c (Proc.devRef .tc r) :=
  (W45_of m ρ c r ((by decide +kernel : ∀ r ∈ car_g1c, r ∉ hostOps10_4_W) r hr)).trans (car_g1c_44 m ρ c r hr)
theorem car_g1c_46 (c : Dev nD) (r : Ref sig .tc) (hr : r ∈ car_g1c) :
    W46 m ρ c (Proc.devRef .tc r) = W40 m ρ c (Proc.devRef .tc r) :=
  (W46_of_ne m ρ c r ((by decide +kernel : ∀ r ∈ car_g1c, ∀ w, Pipeline.arrRef spec10 w ≠ r) r hr)).trans (car_g1c_45 m ρ c r hr)
theorem car_g1c_47 (c : Dev nD) (r : Ref sig .tc) (hr : r ∈ car_g1c) :
    W47 m ρ c (Proc.devRef .tc r) = W40 m ρ c (Proc.devRef .tc r) :=
  (W47_of m ρ c r ((by decide +kernel : ∀ r ∈ car_g1c, r ∉ hostOps11_W) r hr)).trans (car_g1c_46 m ρ c r hr)
theorem car_g1c_48 (c : Dev nD) (r : Ref sig .tc) (hr : r ∈ car_g1c) :
    W48 m ρ c (Proc.devRef .tc r) = W40 m ρ c (Proc.devRef .tc r) :=
  (W48_of m ρ c r ((by decide +kernel : ∀ r ∈ car_g1c, r ∉ hostOps11_1_W) r hr)).trans (car_g1c_47 m ρ c r hr)
theorem car_g1c_49 (c : Dev nD) (r : Ref sig .tc) (hr : r ∈ car_g1c) :
    W49 m ρ c (Proc.devRef .tc r) = W40 m ρ c (Proc.devRef .tc r) :=
  (W49_of m ρ c r ((by decide +kernel : ∀ r ∈ car_g1c, r ∉ hostOps11_2_W) r hr)).trans (car_g1c_48 m ρ c r hr)

/-- Carried from boundary 45 to boundary 46. -/
abbrev car_ssc : List (Ref sig .tc) := [main_v268, main_v270]
theorem car_ssc_46 (c : Dev nD) (r : Ref sig .tc) (hr : r ∈ car_ssc) :
    W46 m ρ c (Proc.devRef .tc r) = W45 m ρ c (Proc.devRef .tc r) :=
  W46_of_ne m ρ c r ((by decide +kernel : ∀ r ∈ car_ssc, ∀ w, Pipeline.arrRef spec10 w ≠ r) r hr)

/-- The edge encoder's weight is read by the second encoder region through an input window, which leaves it. -/
theorem W4_arg5 (c : Dev nD) : W4 m ρ c (Proc.devRef .tc main_arg5) = W3 m ρ c (Proc.devRef .tc main_arg5) :=
  (W4_arr m ρ c 1).trans (((dat1 (V3 m ρ) c).arrAt_in 1 rfl _).trans (A_eq1 (V3 m ρ) c 1))

end Cert.KernelIdeal.KRun

end
-- ==== Proof.Stage.lean ====
/- The network's stages as whole-array functions, in the reference program's own operations: the two encoders,
  the index arithmetic, the message aggregation (gather, relu, scatter-add), the two-layer perceptrons, batch
  normalisation in the reference's arrangement ((g - mean) · rsqrt (var + ε)) · γ + β, the segment means, and their
  composition network. The perceptrons, the encoders and the fused epilogue combine take their biases (scale,
  shift) as rows [1, n], the form in which a row-tiled kernel reads them. -/
import proofs.«177129_j59004260712467_1_alg».proof.ReferenceIdeal

noncomputable section

namespace Cert.Stage

open Idealize.ShloMosaic Cert.ReferenceIdeal

variable {F : FTy → Type} [FloatOps F] [Cert.ReferenceIdeal.Facts]
open Cert.ReferenceIdeal.Facts₀ Cert.ReferenceIdeal.Facts

/-- A [64] vector as one row [1, 64] (a broadcast along a new leading axis). -/
def rowB64 (b : (⟨S64, .f32⟩ : BufTy).Contents (Elt F)) :
    (⟨S1x64, .f32⟩ : BufTy).Contents (Elt F) :=
  broadcastInDim S1x64 ![1] bcast_S64_S1x64_1 b

/-- A [128] vector as one row [1, 128]. -/
def rowB128 (b : (⟨S128, .f32⟩ : BufTy).Contents (Elt F)) :
    (⟨S1x128, .f32⟩ : BufTy).Contents (Elt F) :=
  broadcastInDim S1x128 ![1] bcast_S128_S1x128_1 b

/-- A [10] vector as one row [1, 10]. -/
def rowB10 (b : (⟨S10, .f32⟩ : BufTy).Contents (Elt F)) :
    (⟨S1x10, .f32⟩ : BufTy).Contents (Elt F) :=
  broadcastInDim S1x10 ![1] bcast_S10_S1x10_1 b

/-- The node encoder: x · w plus the bias row on every row. -/
def encX (x : (⟨S147456x16, .f32⟩ : BufTy).Contents (Elt F)) (w : (⟨S16x64, .f32⟩ : BufTy).Contents (Elt F)) (b1 : (⟨S1x64, .f32⟩ : BufTy).Contents (Elt F)) :
    (⟨S147456x64, .f32⟩ : BufTy).Contents (Elt F) :=
  addf (Host.dotGeneral dot_S147456x16_S16x64_S147456x64_1_0_0_1_n_n none x w) (broadcastInDim S147456x64 ![0, 1] bcast_S1x64_S147456x64_0_1 b1)

/-- The edge encoder on the subgraph edges. -/
def encE (x : (⟨S884736x8, .f32⟩ : BufTy).Contents (Elt F)) (w : (⟨S8x64, .f32⟩ : BufTy).Contents (Elt F)) (b1 : (⟨S1x64, .f32⟩ : BufTy).Contents (Elt F)) :
    (⟨S884736x64, .f32⟩ : BufTy).Contents (Elt F) :=
  addf (Host.dotGeneral dot_S884736x8_S8x64_S884736x64_1_0_0_1_n_n none x w) (broadcastInDim S884736x64 ![0, 1] bcast_S1x64_S884736x64_0_1 b1)

/-- The edge encoder on the original-graph edges. -/
def encO (x : (⟨S18432x8, .f32⟩ : BufTy).Contents (Elt F)) (w : (⟨S8x64, .f32⟩ : BufTy).Contents (Elt F)) (b1 : (⟨S1x64, .f32⟩ : BufTy).Contents (Elt F)) :
    (⟨S18432x64, .f32⟩ : BufTy).Contents (Elt F) :=
  addf (Host.dotGeneral dot_S18432x8_S8x64_S18432x64_1_0_0_1_n_n none x w) (broadcastInDim S18432x64 ![0, 1] bcast_S1x64_S18432x64_0_1 b1)

/-- Copy-node to original-node index: the exclusive prefix sum of the per-graph node counts, looked up at the node's graph, plus the local index. -/
def nodeIdx (nn : (⟨S64, .i32⟩ : BufTy).Contents (Elt F)) (batch : (⟨S147456, .i32⟩ : BufTy).Contents (Elt F)) (sni : (⟨S147456, .i32⟩ : BufTy).Contents (Elt F)) :
    (⟨S147456, .i32⟩ : BufTy).Contents (Elt F) :=
  addi (Host.gather gather_S65_S147456x1_S147456_n_0_n_n_0_1_1 (concatenate S65 0 [⟨S1, (broadcastInDim S1 ![] bcast_S_S1 (constantI S_ 32 0#32))⟩, ⟨S64, (Host.reduceWindow IntOp.addi ![64] ![1] ![63] ![0] nn (broadcastInDim S_ ![] bcast_S_S_ (constantI S_ 32 0#32)) reduceWindows_S64_S64_w64s1p63_0 h_S_)⟩] concatenates_S1_S64_S65_d0) (broadcastInDim S147456x1 ![0] bcast_S147456_S147456x1_0 (select (cmpi .slt batch (broadcastInDim S147456 ![] bcast_S_S147456 (constantI S_ 32 0#32))) (addi batch (broadcastInDim S147456 ![] bcast_S_S147456 (constantI S_ 32 65#32))) batch))) sni

/-- x plus, per target node, the sum over incoming edges of relu (x at the source + the edge's embedding). -/
def ginSumN (x : (⟨S147456x64, .f32⟩ : BufTy).Contents (Elt F)) (ea : (⟨S884736x64, .f32⟩ : BufTy).Contents (Elt F)) (ei : (⟨S2x884736, .i32⟩ : BufTy).Contents (Elt F)) :
    (⟨S147456x64, .f32⟩ : BufTy).Contents (Elt F) :=
  addf x (Host.scatterAdd scatter_S147456x64_S884736x1_S884736x64_1_0_0_1 (broadcastInDim S147456x64 ![] bcast_S_S147456x64 (constant (F := F) S_ .f32 0x00000000#32)) (broadcastInDim S884736x1 ![0] bcast_S884736_S884736x1_0 (fun i => shapeCast S884736 (extractStridedSlice S1x884736 ![1, 0] ei slices_S2x884736_S1x884736_1_0) shapeCasts_S1x884736_S884736 i)) (maximumf (addf (Host.gather gather_S147456x64_S884736x1_S884736x64_1_0_n_n_0_1_164 x (broadcastInDim S884736x1 ![0] bcast_S884736_S884736x1_0 (select (cmpi .slt (fun i => shapeCast S884736 (extractStridedSlice S1x884736 ![0, 0] ei slices_S2x884736_S1x884736_0_0) shapeCasts_S1x884736_S884736 i) (broadcastInDim S884736 ![] bcast_S_S884736 (constantI S_ 32 0#32))) (addi (fun i => shapeCast S884736 (extractStridedSlice S1x884736 ![0, 0] ei slices_S2x884736_S1x884736_0_0) shapeCasts_S1x884736_S884736 i) (broadcastInDim S884736 ![] bcast_S_S884736 (constantI S_ 32 147456#32))) (fun i => shapeCast S884736 (extractStridedSlice S1x884736 ![0, 0] ei slices_S2x884736_S1x884736_0_0) shapeCasts_S1x884736_S884736 i)))) ea) (broadcastInDim S884736x64 ![] bcast_S_S884736x64 (constant (F := F) S_ .f32 0x00000000#32))))

/-- The two-layer perceptron relu (h · w1 + b1) · w2 + b2 on the copy nodes, biases as rows. -/
def mlpN (h : (⟨S147456x64, .f32⟩ : BufTy).Contents (Elt F)) (w1 : (⟨S64x128, .f32⟩ : BufTy).Contents (Elt F)) (b1r : (⟨S1x128, .f32⟩ : BufTy).Contents (Elt F)) (w2 : (⟨S128x64, .f32⟩ : BufTy).Contents (Elt F)) (b2r : (⟨S1x64, .f32⟩ : BufTy).Contents (Elt F)) :
    (⟨S147456x64, .f32⟩ : BufTy).Contents (Elt F) :=
  addf (Host.dotGeneral dot_S147456x128_S128x64_S147456x64_1_0_0_1_n_n none (maximumf (addf (Host.dotGeneral dot_S147456x64_S64x128_S147456x128_1_0_0_1_n_n none h w1) (broadcastInDim S147456x128 ![0, 1] bcast_S1x128_S147456x128_0_1 b1r)) (broadcastInDim S147456x128 ![] bcast_S_S147456x128 (constant (F := F) S_ .f32 0x00000000#32))) w2) (broadcastInDim S147456x64 ![0, 1] bcast_S1x64_S147456x64_0_1 b2r)

/-- Column means over the copy nodes. -/
def meanN (g : (⟨S147456x64, .f32⟩ : BufTy).Contents (Elt F)) :
    (⟨S64, .f32⟩ : BufTy).Contents (Elt F) :=
  Host.divf (Host.reduceAdd g (constant (F := F) S_ .f32 0x00000000#32) reducesTo_S147456x64_S64_d0 h_S_) (broadcastInDim S64 ![] bcast_S_S64 (constant (F := F) S_ .f32 0x48100000#32))

/-- Column variances (biased) over the copy nodes. -/
def varN (g : (⟨S147456x64, .f32⟩ : BufTy).Contents (Elt F)) :
    (⟨S64, .f32⟩ : BufTy).Contents (Elt F) :=
  select (broadcastInDim S64 ![] bcast_S_S64 (cmpf .ogt (subf (constant (F := F) S_ .f32 0x48100000#32) (sitofp .f32 (constantI S_ 32 0#32))) (constant (F := F) S_ .f32 0x00000000#32))) (Host.divf (Host.reduceAdd (mulf (subf g (broadcastInDim S147456x64 ![0, 1] bcast_S1x64_S147456x64_0_1 (Host.divf (broadcastInDim S1x64 ![1] bcast_S64_S1x64_1 (Host.reduceAdd g (constant (F := F) S_ .f32 0x00000000#32) reducesTo_S147456x64_S64_d0 h_S_)) (broadcastInDim S1x64 ![] bcast_S_S1x64 (constant (F := F) S_ .f32 0x48100000#32))))) (subf g (broadcastInDim S147456x64 ![0, 1] bcast_S1x64_S147456x64_0_1 (Host.divf (broadcastInDim S1x64 ![1] bcast_S64_S1x64_1 (Host.reduceAdd g (constant (F := F) S_ .f32 0x00000000#32) reducesTo_S147456x64_S64_d0 h_S_)) (broadcastInDim S1x64 ![] bcast_S_S1x64 (constant (F := F) S_ .f32 0x48100000#32)))))) (constant (F := F) S_ .f32 0x00000000#32) reducesTo_S147456x64_S64_d0 h_S_) (broadcastInDim S64 ![] bcast_S_S64 (subf (constant (F := F) S_ .f32 0x48100000#32) (sitofp .f32 (constantI S_ 32 0#32))))) (broadcastInDim S64 ![] bcast_S_S64 (constant (F := F) S_ .f32 0x7FC00000#32))

/-- Batch normalisation as the reference arranges it: ((g - mean) · rsqrt (var + ε)) · γ + β. -/
def bnRefN (g : (⟨S147456x64, .f32⟩ : BufTy).Contents (Elt F)) (gam : (⟨S64, .f32⟩ : BufTy).Contents (Elt F)) (bet : (⟨S64, .f32⟩ : BufTy).Contents (Elt F)) :
    (⟨S147456x64, .f32⟩ : BufTy).Contents (Elt F) :=
  addf (mulf (mulf (subf g (broadcastInDim S147456x64 ![0, 1] bcast_S1x64_S147456x64_0_1 (broadcastInDim S1x64 ![1] bcast_S64_S1x64_1 (meanN g)))) (broadcastInDim S147456x64 ![0, 1] bcast_S1x64_S147456x64_0_1 (broadcastInDim S1x64 ![1] bcast_S64_S1x64_1 (Host.rsqrt (addf (varN g) (broadcastInDim S64 ![] bcast_S_S64 (constant (F := F) S_ .f32 0x3727C5AC#32))))))) (broadcastInDim S147456x64 ![0, 1] bcast_S1x64_S147456x64_0_1 (broadcastInDim S1x64 ![1] bcast_S64_S1x64_1 gam))) (broadcastInDim S147456x64 ![0, 1] bcast_S1x64_S147456x64_0_1 (broadcastInDim S1x64 ![1] bcast_S64_S1x64_1 bet))

/-- Mean of the copy nodes' rows per original node (sum per segment over max (count, 1)). -/
def segMeanNM (x : (⟨S147456x64, .f32⟩ : BufTy).Contents (Elt F)) (idx : (⟨S147456, .i32⟩ : BufTy).Contents (Elt F)) :
    (⟨S3072x64, .f32⟩ : BufTy).Contents (Elt F) :=
  Host.divf (Host.scatterAdd scatter_S3072x64_S147456x1_S147456x64_1_0_0_1 (broadcastInDim S3072x64 ![] bcast_S_S3072x64 (constant (F := F) S_ .f32 0x00000000#32)) (broadcastInDim S147456x1 ![0] bcast_S147456_S147456x1_0 idx) x) (broadcastInDim S3072x64 ![0, 1] bcast_S3072x1_S3072x64_0_1 (broadcastInDim S3072x1 ![0] bcast_S3072_S3072x1_0 (maximumf (Host.scatterAdd scatter_S3072_S147456x1_S147456_n_0_0_1 (broadcastInDim S3072 ![] bcast_S_S3072 (constant (F := F) S_ .f32 0x00000000#32)) (broadcastInDim S147456x1 ![0] bcast_S147456_S147456x1_0 idx) (broadcastInDim S147456 ![] bcast_S_S147456 (constant (F := F) S_ .f32 0x3F800000#32))) (broadcastInDim S3072 ![] bcast_S_S3072 (constant (F := F) S_ .f32 0x3F800000#32)))))

/-- The same aggregation on the original graphs. -/
def ginSumM (x : (⟨S3072x64, .f32⟩ : BufTy).Contents (Elt F)) (oea : (⟨S18432x64, .f32⟩ : BufTy).Contents (Elt F)) (oei : (⟨S2x18432, .i32⟩ : BufTy).Contents (Elt F)) :
    (⟨S3072x64, .f32⟩ : BufTy).Contents (Elt F) :=
  addf x (Host.scatterAdd scatter_S3072x64_S18432x1_S18432x64_1_0_0_1 (broadcastInDim S3072x64 ![] bcast_S_S3072x64 (constant (F := F) S_ .f32 0x00000000#32)) (broadcastInDim S18432x1 ![0] bcast_S18432_S18432x1_0 (fun i => shapeCast S18432 (extractStridedSlice S1x18432 ![1, 0] oei slices_S2x18432_S1x18432_1_0) shapeCasts_S1x18432_S18432 i)) (maximumf (addf (Host.gather gather_S3072x64_S18432x1_S18432x64_1_0_n_n_0_1_164 x (broadcastInDim S18432x1 ![0] bcast_S18432_S18432x1_0 (select (cmpi .slt (fun i => shapeCast S18432 (extractStridedSlice S1x18432 ![0, 0] oei slices_S2x18432_S1x18432_0_0) shapeCasts_S1x18432_S18432 i) (broadcastInDim S18432 ![] bcast_S_S18432 (constantI S_ 32 0#32))) (addi (fun i => shapeCast S18432 (extractStridedSlice S1x18432 ![0, 0] oei slices_S2x18432_S1x18432_0_0) shapeCasts_S1x18432_S18432 i) (broadcastInDim S18432 ![] bcast_S_S18432 (constantI S_ 32 3072#32))) (fun i => shapeCast S18432 (extractStridedSlice S1x18432 ![0, 0] oei slices_S2x18432_S1x18432_0_0) shapeCasts_S1x18432_S18432 i)))) oea) (broadcastInDim S18432x64 ![] bcast_S_S18432x64 (constant (F := F) S_ .f32 0x00000000#32))))

/-- The two-layer perceptron on the original nodes. -/
def mlpM (h : (⟨S3072x64, .f32⟩ : BufTy).Contents (Elt F)) (w1 : (⟨S64x128, .f32⟩ : BufTy).Contents (Elt F)) (b1r : (⟨S1x128, .f32⟩ : BufTy).Contents (Elt F)) (w2 : (⟨S128x64, .f32⟩ : BufTy).Contents (Elt F)) (b2r : (⟨S1x64, .f32⟩ : BufTy).Contents (Elt F)) :
    (⟨S3072x64, .f32⟩ : BufTy).Contents (Elt F) :=
  addf (Host.dotGeneral dot_S3072x128_S128x64_S3072x64_1_0_0_1_n_n none (maximumf (addf (Host.dotGeneral dot_S3072x64_S64x128_S3072x128_1_0_0_1_n_n none h w1) (broadcastInDim S3072x128 ![0, 1] bcast_S1x128_S3072x128_0_1 b1r)) (broadcastInDim S3072x128 ![] bcast_S_S3072x128 (constant (F := F) S_ .f32 0x00000000#32))) w2) (broadcastInDim S3072x64 ![0, 1] bcast_S1x64_S3072x64_0_1 b2r)

/-- Column means over the original nodes. -/
def meanM (g : (⟨S3072x64, .f32⟩ : BufTy).Contents (Elt F)) :
    (⟨S64, .f32⟩ : BufTy).Contents (Elt F) :=
  Host.divf (Host.reduceAdd g (constant (F := F) S_ .f32 0x00000000#32) reducesTo_S3072x64_S64_d0 h_S_) (broadcastInDim S64 ![] bcast_S_S64 (constant (F := F) S_ .f32 0x45400000#32))

/-- Column variances over the original nodes. -/
def varM (g : (⟨S3072x64, .f32⟩ : BufTy).Contents (Elt F)) :
    (⟨S64, .f32⟩ : BufTy).Contents (Elt F) :=
  select (broadcastInDim S64 ![] bcast_S_S64 (cmpf .ogt (subf (constant (F := F) S_ .f32 0x45400000#32) (sitofp .f32 (constantI S_ 32 0#32))) (constant (F := F) S_ .f32 0x00000000#32))) (Host.divf (Host.reduceAdd (mulf (subf g (broadcastInDim S3072x64 ![0, 1] bcast_S1x64_S3072x64_0_1 (Host.divf (broadcastInDim S1x64 ![1] bcast_S64_S1x64_1 (Host.reduceAdd g (constant (F := F) S_ .f32 0x00000000#32) reducesTo_S3072x64_S64_d0 h_S_)) (broadcastInDim S1x64 ![] bcast_S_S1x64 (constant (F := F) S_ .f32 0x45400000#32))))) (subf g (broadcastInDim S3072x64 ![0, 1] bcast_S1x64_S3072x64_0_1 (Host.divf (broadcastInDim S1x64 ![1] bcast_S64_S1x64_1 (Host.reduceAdd g (constant (F := F) S_ .f32 0x00000000#32) reducesTo_S3072x64_S64_d0 h_S_)) (broadcastInDim S1x64 ![] bcast_S_S1x64 (constant (F := F) S_ .f32 0x45400000#32)))))) (constant (F := F) S_ .f32 0x00000000#32) reducesTo_S3072x64_S64_d0 h_S_) (broadcastInDim S64 ![] bcast_S_S64 (subf (constant (F := F) S_ .f32 0x45400000#32) (sitofp .f32 (constantI S_ 32 0#32))))) (broadcastInDim S64 ![] bcast_S_S64 (constant (F := F) S_ .f32 0x7FC00000#32))

/-- Batch normalisation on the original nodes, the reference's arrangement. -/
def bnRefM (g : (⟨S3072x64, .f32⟩ : BufTy).Contents (Elt F)) (gam : (⟨S64, .f32⟩ : BufTy).Contents (Elt F)) (bet : (⟨S64, .f32⟩ : BufTy).Contents (Elt F)) :
    (⟨S3072x64, .f32⟩ : BufTy).Contents (Elt F) :=
  addf (mulf (mulf (subf g (broadcastInDim S3072x64 ![0, 1] bcast_S1x64_S3072x64_0_1 (broadcastInDim S1x64 ![1] bcast_S64_S1x64_1 (meanM g)))) (broadcastInDim S3072x64 ![0, 1] bcast_S1x64_S3072x64_0_1 (broadcastInDim S1x64 ![1] bcast_S64_S1x64_1 (Host.rsqrt (addf (varM g) (broadcastInDim S64 ![] bcast_S_S64 (constant (F := F) S_ .f32 0x3727C5AC#32))))))) (broadcastInDim S3072x64 ![0, 1] bcast_S1x64_S3072x64_0_1 (broadcastInDim S1x64 ![1] bcast_S64_S1x64_1 gam))) (broadcastInDim S3072x64 ![0, 1] bcast_S1x64_S3072x64_0_1 (broadcastInDim S1x64 ![1] bcast_S64_S1x64_1 bet))

/-- Each copy node takes its original node's row. -/
def gatherBack (h : (⟨S3072x64, .f32⟩ : BufTy).Contents (Elt F)) (idx : (⟨S147456, .i32⟩ : BufTy).Contents (Elt F)) :
    (⟨S147456x64, .f32⟩ : BufTy).Contents (Elt F) :=
  Host.gather gather_S3072x64_S147456x1_S147456x64_1_0_n_n_0_1_164 h (broadcastInDim S147456x1 ![0] bcast_S147456_S147456x1_0 (select (cmpi .slt idx (broadcastInDim S147456 ![] bcast_S_S147456 (constantI S_ 32 0#32))) (addi idx (broadcastInDim S147456 ![] bcast_S_S147456 (constantI S_ 32 3072#32))) idx))

/-- relu on the copy nodes. -/
def reluN (y : (⟨S147456x64, .f32⟩ : BufTy).Contents (Elt F)) :
    (⟨S147456x64, .f32⟩ : BufTy).Contents (Elt F) :=
  maximumf y (broadcastInDim S147456x64 ![] bcast_S_S147456x64 (constant (F := F) S_ .f32 0x00000000#32))

/-- Mean of the copy nodes' rows per subgraph. -/
def segMeanNS (x : (⟨S147456x64, .f32⟩ : BufTy).Contents (Elt F)) (sb : (⟨S147456, .i32⟩ : BufTy).Contents (Elt F)) :
    (⟨S3072x64, .f32⟩ : BufTy).Contents (Elt F) :=
  Host.divf (Host.scatterAdd scatter_S3072x64_S147456x1_S147456x64_1_0_0_1 (broadcastInDim S3072x64 ![] bcast_S_S3072x64 (constant (F := F) S_ .f32 0x00000000#32)) (broadcastInDim S147456x1 ![0] bcast_S147456_S147456x1_0 sb) x) (broadcastInDim S3072x64 ![0, 1] bcast_S3072x1_S3072x64_0_1 (broadcastInDim S3072x1 ![0] bcast_S3072_S3072x1_0 (maximumf (Host.scatterAdd scatter_S3072_S147456x1_S147456_n_0_0_1 (broadcastInDim S3072 ![] bcast_S_S3072 (constant (F := F) S_ .f32 0x00000000#32)) (broadcastInDim S147456x1 ![0] bcast_S147456_S147456x1_0 sb) (broadcastInDim S147456 ![] bcast_S_S147456 (constant (F := F) S_ .f32 0x3F800000#32))) (broadcastInDim S3072 ![] bcast_S_S3072 (constant (F := F) S_ .f32 0x3F800000#32)))))

/-- Mean of the subgraphs' rows per graph. -/
def segMeanSG (h : (⟨S3072x64, .f32⟩ : BufTy).Contents (Elt F)) (sib : (⟨S3072, .i32⟩ : BufTy).Contents (Elt F)) :
    (⟨S64x64, .f32⟩ : BufTy).Contents (Elt F) :=
  Host.divf (Host.scatterAdd scatter_S64x64_S3072x1_S3072x64_1_0_0_1 (broadcastInDim S64x64 ![] bcast_S_S64x64 (constant (F := F) S_ .f32 0x00000000#32)) (broadcastInDim S3072x1 ![0] bcast_S3072_S3072x1_0 sib) h) (broadcastInDim S64x64 ![0, 1] bcast_S64x1_S64x64_0_1 (broadcastInDim S64x1 ![0] bcast_S64_S64x1_0 (maximumf (Host.scatterAdd scatter_S64_S3072x1_S3072_n_0_0_1 (broadcastInDim S64 ![] bcast_S_S64 (constant (F := F) S_ .f32 0x00000000#32)) (broadcastInDim S3072x1 ![0] bcast_S3072_S3072x1_0 sib) (broadcastInDim S3072 ![] bcast_S_S3072 (constant (F := F) S_ .f32 0x3F800000#32))) (broadcastInDim S64 ![] bcast_S_S64 (constant (F := F) S_ .f32 0x3F800000#32)))))

/-- The final two-layer perceptron on the graphs. -/
def mlpG (h : (⟨S64x64, .f32⟩ : BufTy).Contents (Elt F)) (w1 : (⟨S64x128, .f32⟩ : BufTy).Contents (Elt F)) (b1r : (⟨S1x128, .f32⟩ : BufTy).Contents (Elt F)) (w2 : (⟨S128x10, .f32⟩ : BufTy).Contents (Elt F)) (b2r : (⟨S1x10, .f32⟩ : BufTy).Contents (Elt F)) :
    (⟨S64x10, .f32⟩ : BufTy).Contents (Elt F) :=
  addf (Host.dotGeneral dot_S64x128_S128x10_S64x10_1_0_0_1_n_n none (maximumf (addf (Host.dotGeneral dot_S64x64_S64x128_S64x128_1_0_0_1_n_n none h w1) (broadcastInDim S64x128 ![0, 1] bcast_S1x128_S64x128_0_1 b1r)) (broadcastInDim S64x128 ![] bcast_S_S64x128 (constant (F := F) S_ .f32 0x00000000#32))) w2) (broadcastInDim S64x10 ![0, 1] bcast_S1x10_S64x10_0_1 b2r)

def gW1_0 (a : (⟨S3x64x128, .f32⟩ : BufTy).Contents (Elt F)) :
    (⟨S64x128, .f32⟩ : BufTy).Contents (Elt F) :=
  fun i => shapeCast S64x128 (extractStridedSlice S1x64x128 ![0, 0, 0] a slices_S3x64x128_S1x64x128_0_0_0) shapeCasts_S1x64x128_S64x128 i

def gB1_0 (a : (⟨S3x128, .f32⟩ : BufTy).Contents (Elt F)) :
    (⟨S128, .f32⟩ : BufTy).Contents (Elt F) :=
  fun i => shapeCast S128 (extractStridedSlice S1x128 ![0, 0] a slices_S3x128_S1x128_0_0) shapeCasts_S1x128_S128 i

def gW2_0 (a : (⟨S3x128x64, .f32⟩ : BufTy).Contents (Elt F)) :
    (⟨S128x64, .f32⟩ : BufTy).Contents (Elt F) :=
  fun i => shapeCast S128x64 (extractStridedSlice S1x128x64 ![0, 0, 0] a slices_S3x128x64_S1x128x64_0_0_0) shapeCasts_S1x128x64_S128x64 i

def gB2_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def bnG_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def bnB_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def sW1_0 (a : (⟨S3x64x128, .f32⟩ : BufTy).Contents (Elt F)) :
    (⟨S64x128, .f32⟩ : BufTy).Contents (Elt F) :=
  fun i => shapeCast S64x128 (extractStridedSlice S1x64x128 ![0, 0, 0] a slices_S3x64x128_S1x64x128_0_0_0) shapeCasts_S1x64x128_S64x128 i

def sB1_0 (a : (⟨S3x128, .f32⟩ : BufTy).Contents (Elt F)) :
    (⟨S128, .f32⟩ : BufTy).Contents (Elt F) :=
  fun i => shapeCast S128 (extractStridedSlice S1x128 ![0, 0] a slices_S3x128_S1x128_0_0) shapeCasts_S1x128_S128 i

def sW2_0 (a : (⟨S3x128x64, .f32⟩ : BufTy).Contents (Elt F)) :
    (⟨S128x64, .f32⟩ : BufTy).Contents (Elt F) :=
  fun i => shapeCast S128x64 (extractStridedSlice S1x128x64 ![0, 0, 0] a slices_S3x128x64_S1x128x64_0_0_0) shapeCasts_S1x128x64_S128x64 i

def sB2_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def bsG_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def bsB_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def gW1_1 (a : (⟨S3x64x128, .f32⟩ : BufTy).Contents (Elt F)) :
    (⟨S64x128, .f32⟩ : BufTy).Contents (Elt F) :=
  fun i => shapeCast S64x128 (extractStridedSlice S1x64x128 ![1, 0, 0] a slices_S3x64x128_S1x64x128_1_0_0) shapeCasts_S1x64x128_S64x128 i

def gB1_1 (a : (⟨S3x128, .f32⟩ : BufTy).Contents (Elt F)) :
    (⟨S128, .f32⟩ : BufTy).Contents (Elt F) :=
  fun i => shapeCast S128 (extractStridedSlice S1x128 ![1, 0] a slices_S3x128_S1x128_1_0) shapeCasts_S1x128_S128 i

def gW2_1 (a : (⟨S3x128x64, .f32⟩ : BufTy).Contents (Elt F)) :
    (⟨S128x64, .f32⟩ : BufTy).Contents (Elt F) :=
  fun i => shapeCast S128x64 (extractStridedSlice S1x128x64 ![1, 0, 0] a slices_S3x128x64_S1x128x64_1_0_0) shapeCasts_S1x128x64_S128x64 i

def gB2_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def bnG_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def bnB_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def sW1_1 (a : (⟨S3x64x128, .f32⟩ : BufTy).Contents (Elt F)) :
    (⟨S64x128, .f32⟩ : BufTy).Contents (Elt F) :=
  fun i => shapeCast S64x128 (extractStridedSlice S1x64x128 ![1, 0, 0] a slices_S3x64x128_S1x64x128_1_0_0) shapeCasts_S1x64x128_S64x128 i

def sB1_1 (a : (⟨S3x128, .f32⟩ : BufTy).Contents (Elt F)) :
    (⟨S128, .f32⟩ : BufTy).Contents (Elt F) :=
  fun i => shapeCast S128 (extractStridedSlice S1x128 ![1, 0] a slices_S3x128_S1x128_1_0) shapeCasts_S1x128_S128 i

def sW2_1 (a : (⟨S3x128x64, .f32⟩ : BufTy).Contents (Elt F)) :
    (⟨S128x64, .f32⟩ : BufTy).Contents (Elt F) :=
  fun i => shapeCast S128x64 (extractStridedSlice S1x128x64 ![1, 0, 0] a slices_S3x128x64_S1x128x64_1_0_0) shapeCasts_S1x128x64_S128x64 i

def sB2_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def bsG_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def bsB_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def gW1_2 (a : (⟨S3x64x128, .f32⟩ : BufTy).Contents (Elt F)) :
    (⟨S64x128, .f32⟩ : BufTy).Contents (Elt F) :=
  fun i => shapeCast S64x128 (extractStridedSlice S1x64x128 ![2, 0, 0] a slices_S3x64x128_S1x64x128_2_0_0) shapeCasts_S1x64x128_S64x128 i

def gB1_2 (a : (⟨S3x128, .f32⟩ : BufTy).Contents (Elt F)) :
    (⟨S128, .f32⟩ : BufTy).Contents (Elt F) :=
  fun i => shapeCast S128 (extractStridedSlice S1x128 ![2, 0] a slices_S3x128_S1x128_2_0) shapeCasts_S1x128_S128 i

def gW2_2 (a : (⟨S3x128x64, .f32⟩ : BufTy).Contents (Elt F)) :
    (⟨S128x64, .f32⟩ : BufTy).Contents (Elt F) :=
  fun i => shapeCast S128x64 (extractStridedSlice S1x128x64 ![2, 0, 0] a slices_S3x128x64_S1x128x64_2_0_0) shapeCasts_S1x128x64_S128x64 i

def gB2_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

def bnG_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

def bnB_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

def sW1_2 (a : (⟨S3x64x128, .f32⟩ : BufTy).Contents (Elt F)) :
    (⟨S64x128, .f32⟩ : BufTy).Contents (Elt F) :=
  fun i => shapeCast S64x128 (extractStridedSlice S1x64x128 ![2, 0, 0] a slices_S3x64x128_S1x64x128_2_0_0) shapeCasts_S1x64x128_S64x128 i

def sB1_2 (a : (⟨S3x128, .f32⟩ : BufTy).Contents (Elt F)) :
    (⟨S128, .f32⟩ : BufTy).Contents (Elt F) :=
  fun i => shapeCast S128 (extractStridedSlice S1x128 ![2, 0] a slices_S3x128_S1x128_2_0) shapeCasts_S1x128_S128 i

def sW2_2 (a : (⟨S3x128x64, .f32⟩ : BufTy).Contents (Elt F)) :
    (⟨S128x64, .f32⟩ : BufTy).Contents (Elt F) :=
  fun i => shapeCast S128x64 (extractStridedSlice S1x128x64 ![2, 0, 0] a slices_S3x128x64_S1x128x64_2_0_0) shapeCasts_S1x128x64_S128x64 i

def sB2_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

def bsG_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

def bsB_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

/-- The fused epilogue: relu (g · scale + shift + h), scale and shift as rows. -/
def combine (g : (⟨S147456x64, .f32⟩ : BufTy).Contents (Elt F)) (s : (⟨S1x64, .f32⟩ : BufTy).Contents (Elt F)) (t : (⟨S1x64, .f32⟩ : BufTy).Contents (Elt F)) (h : (⟨S147456x64, .f32⟩ : BufTy).Contents (Elt F)) :
    (⟨S147456x64, .f32⟩ : BufTy).Contents (Elt F) :=
  reluN (addf (addf (mulf g (broadcastInDim S147456x64 ![0, 1] bcast_S1x64_S147456x64_0_1 s)) (broadcastInDim S147456x64 ![0, 1] bcast_S1x64_S147456x64_0_1 t)) h)

/-- One layer as the reference computes it. -/
def layerR (w1 : (⟨S64x128, .f32⟩ : BufTy).Contents (Elt F)) (b1 : (⟨S128, .f32⟩ : BufTy).Contents (Elt F)) (w2 : (⟨S128x64, .f32⟩ : BufTy).Contents (Elt F)) (b2 : (⟨S64, .f32⟩ : BufTy).Contents (Elt F)) (gam : (⟨S64, .f32⟩ : BufTy).Contents (Elt F)) (bet : (⟨S64, .f32⟩ : BufTy).Contents (Elt F)) (w1' : (⟨S64x128, .f32⟩ : BufTy).Contents (Elt F)) (b1' : (⟨S128, .f32⟩ : BufTy).Contents (Elt F)) (w2' : (⟨S128x64, .f32⟩ : BufTy).Contents (Elt F)) (b2' : (⟨S64, .f32⟩ : BufTy).Contents (Elt F)) (gam' : (⟨S64, .f32⟩ : BufTy).Contents (Elt F)) (bet' : (⟨S64, .f32⟩ : BufTy).Contents (Elt F))
    (ea : (⟨S884736x64, .f32⟩ : BufTy).Contents (Elt F)) (oea : (⟨S18432x64, .f32⟩ : BufTy).Contents (Elt F)) (ei : (⟨S2x884736, .i32⟩ : BufTy).Contents (Elt F)) (oei : (⟨S2x18432, .i32⟩ : BufTy).Contents (Elt F)) (idx : (⟨S147456, .i32⟩ : BufTy).Contents (Elt F))
    (x : (⟨S147456x64, .f32⟩ : BufTy).Contents (Elt F)) : (⟨S147456x64, .f32⟩ : BufTy).Contents (Elt F) :=
  reluN (addf (bnRefN (mlpN (ginSumN x ea ei) w1 (rowB128 b1) w2 (rowB64 b2)) gam bet)
    (gatherBack (bnRefM (mlpM (ginSumM (segMeanNM x idx) oea oei) w1' (rowB128 b1') w2' (rowB64 b2')) gam' bet') idx))

/-- The whole network as the reference computes it, a function of the thirty argument arrays. -/
def network (a0 : (⟨S147456x16, .f32⟩ : BufTy).Contents (Elt F)) (a1 : (⟨S884736x8, .f32⟩ : BufTy).Contents (Elt F)) (a2 : (⟨S18432x8, .f32⟩ : BufTy).Contents (Elt F)) (a3 : (⟨S16x64, .f32⟩ : BufTy).Contents (Elt F)) (a4 : (⟨S64, .f32⟩ : BufTy).Contents (Elt F)) (a5 : (⟨S8x64, .f32⟩ : BufTy).Contents (Elt F)) (a6 : (⟨S64, .f32⟩ : BufTy).Contents (Elt F)) (a7 : (⟨S3x64x128, .f32⟩ : BufTy).Contents (Elt F)) (a8 : (⟨S3x128, .f32⟩ : BufTy).Contents (Elt F)) (a9 : (⟨S3x128x64, .f32⟩ : BufTy).Contents (Elt F)) (a10 : (⟨S3x64, .f32⟩ : BufTy).Contents (Elt F)) (a11 : (⟨S3x64, .f32⟩ : BufTy).Contents (Elt F)) (a12 : (⟨S3x64, .f32⟩ : BufTy).Contents (Elt F)) (a13 : (⟨S3x64x128, .f32⟩ : BufTy).Contents (Elt F)) (a14 : (⟨S3x128, .f32⟩ : BufTy).Contents (Elt F)) (a15 : (⟨S3x128x64, .f32⟩ : BufTy).Contents (Elt F)) (a16 : (⟨S3x64, .f32⟩ : BufTy).Contents (Elt F)) (a17 : (⟨S3x64, .f32⟩ : BufTy).Contents (Elt F)) (a18 : (⟨S3x64, .f32⟩ : BufTy).Contents (Elt F)) (a19 : (⟨S64x128, .f32⟩ : BufTy).Contents (Elt F)) (a20 : (⟨S128, .f32⟩ : BufTy).Contents (Elt F)) (a21 : (⟨S128x10, .f32⟩ : BufTy).Contents (Elt F)) (a22 : (⟨S10, .f32⟩ : BufTy).Contents (Elt F)) (a23 : (⟨S2x884736, .i32⟩ : BufTy).Contents (Elt F)) (a24 : (⟨S2x18432, .i32⟩ : BufTy).Contents (Elt F)) (a25 : (⟨S147456, .i32⟩ : BufTy).Contents (Elt F)) (a26 : (⟨S147456, .i32⟩ : BufTy).Contents (Elt F)) (a27 : (⟨S64, .i32⟩ : BufTy).Contents (Elt F)) (a28 : (⟨S147456, .i32⟩ : BufTy).Contents (Elt F)) (a29 : (⟨S3072, .i32⟩ : BufTy).Contents (Elt F)) :
    (⟨S64x10, .f32⟩ : BufTy).Contents (Elt F) :=
  mlpG (segMeanSG (segMeanNS (layerR (gW1_2 a7) (gB1_2 a8) (gW2_2 a9) (gB2_2 a10) (bnG_2 a11) (bnB_2 a12) (sW1_2 a13) (sB1_2 a14) (sW2_2 a15) (sB2_2 a16) (bsG_2 a17) (bsB_2 a18) (encE a1 a5 (rowB64 a6)) (encO a2 a5 (rowB64 a6)) a23 a24 (nodeIdx a27 a25 a26) (layerR (gW1_1 a7) (gB1_1 a8) (gW2_1 a9) (gB2_1 a10) (bnG_1 a11) (bnB_1 a12) (sW1_1 a13) (sB1_1 a14) (sW2_1 a15) (sB2_1 a16) (bsG_1 a17) (bsB_1 a18) (encE a1 a5 (rowB64 a6)) (encO a2 a5 (rowB64 a6)) a23 a24 (nodeIdx a27 a25 a26) (layerR (gW1_0 a7) (gB1_0 a8) (gW2_0 a9) (gB2_0 a10) (bnG_0 a11) (bnB_0 a12) (sW1_0 a13) (sB1_0 a14) (sW2_0 a15) (sB2_0 a16) (bsG_0 a17) (bsB_0 a18) (encE a1 a5 (rowB64 a6)) (encO a2 a5 (rowB64 a6)) a23 a24 (nodeIdx a27 a25 a26) (encX a0 a3 (rowB64 a4))))) a28) a29) a19 (rowB128 a20) a21 (rowB10 a22)

end Cert.Stage

end
-- ==== Proof.StageK.lean ====
/- The host stages of the kernel's program as whole-array functions, in that program's own operations, and their
  composition networkK with the regions' functions (Stage.lean): batch normalisation appears as the [64] vectors
  scale = γ · rsqrt (var + ε) and shift = β - mean · scale. -/
import proofs.«177129_j59004260712467_1_alg».proof.KernelIdeal
import proofs.«177129_j59004260712467_1_alg».proof.Proof.Stage

noncomputable section

namespace Cert.Stage

open Idealize.ShloMosaic Cert.KernelIdeal

variable {F : FTy → Type} [FloatOps F] [Cert.KernelIdeal.Facts] [Cert.ReferenceIdeal.Facts]
open Cert.KernelIdeal.Facts₀ Cert.KernelIdeal.Facts

/-- A [64] vector as one row [1, 64] (a reshape). -/
def row64 (b : (⟨S64, .f32⟩ : BufTy).Contents (Elt F)) :
    (⟨S1x64, .f32⟩ : BufTy).Contents (Elt F) :=
  fun i => shapeCast S1x64 b shapeCasts_S64_S1x64 i

/-- A [128] vector as one row [1, 128] (a reshape). -/
def row128 (b : (⟨S128, .f32⟩ : BufTy).Contents (Elt F)) :
    (⟨S1x128, .f32⟩ : BufTy).Contents (Elt F) :=
  fun i => shapeCast S1x128 b shapeCasts_S128_S1x128 i

/-- A [10] vector as one row [1, 10] (a reshape). -/
def row10 (b : (⟨S10, .f32⟩ : BufTy).Contents (Elt F)) :
    (⟨S1x10, .f32⟩ : BufTy).Contents (Elt F) :=
  fun i => shapeCast S1x10 b shapeCasts_S10_S1x10 i

/-- Copy-node to original-node index. -/
def nodeIdxK (nn : (⟨S64, .i32⟩ : BufTy).Contents (Elt F)) (batch : (⟨S147456, .i32⟩ : BufTy).Contents (Elt F)) (sni : (⟨S147456, .i32⟩ : BufTy).Contents (Elt F)) :
    (⟨S147456, .i32⟩ : BufTy).Contents (Elt F) :=
  addi (Host.gather gather_S65_S147456x1_S147456_n_0_n_n_0_1_1 (concatenate S65 0 [⟨S1, (broadcastInDim S1 ![] bcast_S_S1 (constantI S_ 32 0#32))⟩, ⟨S64, (Host.reduceWindow IntOp.addi ![64] ![1] ![63] ![0] nn (broadcastInDim S_ ![] bcast_S_S_ (constantI S_ 32 0#32)) reduceWindows_S64_S64_w64s1p63_0 h_S_)⟩] concatenates_S1_S64_S65_d0) (broadcastInDim S147456x1 ![0] bcast_S147456_S147456x1_0 (select (cmpi .slt batch (broadcastInDim S147456 ![] bcast_S_S147456 (constantI S_ 32 0#32))) (addi batch (broadcastInDim S147456 ![] bcast_S_S147456 (constantI S_ 32 65#32))) batch))) sni

/-- The subgraph edges' source nodes. -/
def eSrcK (ei : (⟨S2x884736, .i32⟩ : BufTy).Contents (Elt F)) :
    (⟨S884736, .i32⟩ : BufTy).Contents (Elt F) :=
  fun i => shapeCast S884736 (extractStridedSlice S1x884736 ![0, 0] ei slices_S2x884736_S1x884736_0_0) shapeCasts_S1x884736_S884736 i

/-- The subgraph edges' target nodes. -/
def eDstK (ei : (⟨S2x884736, .i32⟩ : BufTy).Contents (Elt F)) :
    (⟨S884736, .i32⟩ : BufTy).Contents (Elt F) :=
  fun i => shapeCast S884736 (extractStridedSlice S1x884736 ![1, 0] ei slices_S2x884736_S1x884736_1_0) shapeCasts_S1x884736_S884736 i

/-- The original edges' source nodes. -/
def oSrcK (oei : (⟨S2x18432, .i32⟩ : BufTy).Contents (Elt F)) :
    (⟨S18432, .i32⟩ : BufTy).Contents (Elt F) :=
  fun i => shapeCast S18432 (extractStridedSlice S1x18432 ![0, 0] oei slices_S2x18432_S1x18432_0_0) shapeCasts_S1x18432_S18432 i

/-- The original edges' target nodes. -/
def oDstK (oei : (⟨S2x18432, .i32⟩ : BufTy).Contents (Elt F)) :
    (⟨S18432, .i32⟩ : BufTy).Contents (Elt F) :=
  fun i => shapeCast S18432 (extractStridedSlice S1x18432 ![1, 0] oei slices_S2x18432_S1x18432_1_0) shapeCasts_S1x18432_S18432 i

/-- x plus, per target node, the sum over incoming edges of relu (x at the source + the edge's embedding). -/
def ginSumNK (x : (⟨S147456x64, .f32⟩ : BufTy).Contents (Elt F)) (ea : (⟨S884736x64, .f32⟩ : BufTy).Contents (Elt F)) (e0 : (⟨S884736, .i32⟩ : BufTy).Contents (Elt F)) (e1 : (⟨S884736, .i32⟩ : BufTy).Contents (Elt F)) :
    (⟨S147456x64, .f32⟩ : BufTy).Contents (Elt F) :=
  addf x (Host.scatterAdd scatter_S147456x64_S884736x1_S884736x64_1_0_0_1 (broadcastInDim S147456x64 ![] bcast_S_S147456x64 (constant (F := F) S_ .f32 0x00000000#32)) (broadcastInDim S884736x1 ![0] bcast_S884736_S884736x1_0 e1) (maximumf (addf (Host.gather gather_S147456x64_S884736x1_S884736x64_1_0_n_n_0_1_164 x (broadcastInDim S884736x1 ![0] bcast_S884736_S884736x1_0 (select (cmpi .slt e0 (broadcastInDim S884736 ![] bcast_S_S884736 (constantI S_ 32 0#32))) (addi e0 (broadcastInDim S884736 ![] bcast_S_S884736 (constantI S_ 32 147456#32))) e0))) ea) (broadcastInDim S884736x64 ![] bcast_S_S884736x64 (constant (F := F) S_ .f32 0x00000000#32))))

/-- Column means over the copy nodes. -/
def meanNK (g : (⟨S147456x64, .f32⟩ : BufTy).Contents (Elt F)) :
    (⟨S64, .f32⟩ : BufTy).Contents (Elt F) :=
  Host.divf (Host.reduceAdd g (constant (F := F) S_ .f32 0x00000000#32) reducesTo_S147456x64_S64_d0 h_S_) (broadcastInDim S64 ![] bcast_S_S64 (constant (F := F) S_ .f32 0x48100000#32))

/-- Column variances over the copy nodes. -/
def varNK (g : (⟨S147456x64, .f32⟩ : BufTy).Contents (Elt F)) :
    (⟨S64, .f32⟩ : BufTy).Contents (Elt F) :=
  select (broadcastInDim S64 ![] bcast_S_S64 (cmpf .ogt (subf (constant (F := F) S_ .f32 0x48100000#32) (sitofp .f32 (constantI S_ 32 0#32))) (constant (F := F) S_ .f32 0x00000000#32))) (Host.divf (Host.reduceAdd (mulf (subf g (broadcastInDim S147456x64 ![0, 1] bcast_S1x64_S147456x64_0_1 (Host.divf (broadcastInDim S1x64 ![1] bcast_S64_S1x64_1 (Host.reduceAdd g (constant (F := F) S_ .f32 0x00000000#32) reducesTo_S147456x64_S64_d0 h_S_)) (broadcastInDim S1x64 ![] bcast_S_S1x64 (constant (F := F) S_ .f32 0x48100000#32))))) (subf g (broadcastInDim S147456x64 ![0, 1] bcast_S1x64_S147456x64_0_1 (Host.divf (broadcastInDim S1x64 ![1] bcast_S64_S1x64_1 (Host.reduceAdd g (constant (F := F) S_ .f32 0x00000000#32) reducesTo_S147456x64_S64_d0 h_S_)) (broadcastInDim S1x64 ![] bcast_S_S1x64 (constant (F := F) S_ .f32 0x48100000#32)))))) (constant (F := F) S_ .f32 0x00000000#32) reducesTo_S147456x64_S64_d0 h_S_) (broadcastInDim S64 ![] bcast_S_S64 (subf (constant (F := F) S_ .f32 0x48100000#32) (sitofp .f32 (constantI S_ 32 0#32))))) (broadcastInDim S64 ![] bcast_S_S64 (constant (F := F) S_ .f32 0x7FC00000#32))

/-- Batch normalisation's scale γ · rsqrt (var + ε), a [64] vector. -/
def scaleN (g : (⟨S147456x64, .f32⟩ : BufTy).Contents (Elt F)) (gam : (⟨S64, .f32⟩ : BufTy).Contents (Elt F)) :
    (⟨S64, .f32⟩ : BufTy).Contents (Elt F) :=
  mulf gam (Host.rsqrt (addf (varNK g) (broadcastInDim S64 ![] bcast_S_S64 (constant (F := F) S_ .f32 0x3727C5AC#32))))

/-- Batch normalisation's shift β - mean · scale, a [64] vector. -/
def shiftN (g : (⟨S147456x64, .f32⟩ : BufTy).Contents (Elt F)) (gam : (⟨S64, .f32⟩ : BufTy).Contents (Elt F)) (bet : (⟨S64, .f32⟩ : BufTy).Contents (Elt F)) :
    (⟨S64, .f32⟩ : BufTy).Contents (Elt F) :=
  subf bet (mulf (meanNK g) (scaleN g gam))

/-- Mean of the copy nodes' rows per original node. -/
def segMeanNMK (x : (⟨S147456x64, .f32⟩ : BufTy).Contents (Elt F)) (idx : (⟨S147456, .i32⟩ : BufTy).Contents (Elt F)) :
    (⟨S3072x64, .f32⟩ : BufTy).Contents (Elt F) :=
  Host.divf (Host.scatterAdd scatter_S3072x64_S147456x1_S147456x64_1_0_0_1 (broadcastInDim S3072x64 ![] bcast_S_S3072x64 (constant (F := F) S_ .f32 0x00000000#32)) (broadcastInDim S147456x1 ![0] bcast_S147456_S147456x1_0 idx) x) (broadcastInDim S3072x64 ![0, 1] bcast_S3072x1_S3072x64_0_1 (broadcastInDim S3072x1 ![0] bcast_S3072_S3072x1_0 (maximumf (Host.scatterAdd scatter_S3072_S147456x1_S147456_n_0_0_1 (broadcastInDim S3072 ![] bcast_S_S3072 (constant (F := F) S_ .f32 0x00000000#32)) (broadcastInDim S147456x1 ![0] bcast_S147456_S147456x1_0 idx) (broadcastInDim S147456 ![] bcast_S_S147456 (constant (F := F) S_ .f32 0x3F800000#32))) (broadcastInDim S3072 ![] bcast_S_S3072 (constant (F := F) S_ .f32 0x3F800000#32)))))

/-- The aggregation on the original graphs. -/
def ginSumMK (x : (⟨S3072x64, .f32⟩ : BufTy).Contents (Elt F)) (oea : (⟨S18432x64, .f32⟩ : BufTy).Contents (Elt F)) (o0 : (⟨S18432, .i32⟩ : BufTy).Contents (Elt F)) (o1 : (⟨S18432, .i32⟩ : BufTy).Contents (Elt F)) :
    (⟨S3072x64, .f32⟩ : BufTy).Contents (Elt F) :=
  addf x (Host.scatterAdd scatter_S3072x64_S18432x1_S18432x64_1_0_0_1 (broadcastInDim S3072x64 ![] bcast_S_S3072x64 (constant (F := F) S_ .f32 0x00000000#32)) (broadcastInDim S18432x1 ![0] bcast_S18432_S18432x1_0 o1) (maximumf (addf (Host.gather gather_S3072x64_S18432x1_S18432x64_1_0_n_n_0_1_164 x (broadcastInDim S18432x1 ![0] bcast_S18432_S18432x1_0 (select (cmpi .slt o0 (broadcastInDim S18432 ![] bcast_S_S18432 (constantI S_ 32 0#32))) (addi o0 (broadcastInDim S18432 ![] bcast_S_S18432 (constantI S_ 32 3072#32))) o0))) oea) (broadcastInDim S18432x64 ![] bcast_S_S18432x64 (constant (F := F) S_ .f32 0x00000000#32))))

/-- Column means over the original nodes. -/
def meanMK (g : (⟨S3072x64, .f32⟩ : BufTy).Contents (Elt F)) :
    (⟨S64, .f32⟩ : BufTy).Contents (Elt F) :=
  Host.divf (Host.reduceAdd g (constant (F := F) S_ .f32 0x00000000#32) reducesTo_S3072x64_S64_d0 h_S_) (broadcastInDim S64 ![] bcast_S_S64 (constant (F := F) S_ .f32 0x45400000#32))

/-- Column variances over the original nodes. -/
def varMK (g : (⟨S3072x64, .f32⟩ : BufTy).Contents (Elt F)) :
    (⟨S64, .f32⟩ : BufTy).Contents (Elt F) :=
  select (broadcastInDim S64 ![] bcast_S_S64 (cmpf .ogt (subf (constant (F := F) S_ .f32 0x45400000#32) (sitofp .f32 (constantI S_ 32 0#32))) (constant (F := F) S_ .f32 0x00000000#32))) (Host.divf (Host.reduceAdd (mulf (subf g (broadcastInDim S3072x64 ![0, 1] bcast_S1x64_S3072x64_0_1 (Host.divf (broadcastInDim S1x64 ![1] bcast_S64_S1x64_1 (Host.reduceAdd g (constant (F := F) S_ .f32 0x00000000#32) reducesTo_S3072x64_S64_d0 h_S_)) (broadcastInDim S1x64 ![] bcast_S_S1x64 (constant (F := F) S_ .f32 0x45400000#32))))) (subf g (broadcastInDim S3072x64 ![0, 1] bcast_S1x64_S3072x64_0_1 (Host.divf (broadcastInDim S1x64 ![1] bcast_S64_S1x64_1 (Host.reduceAdd g (constant (F := F) S_ .f32 0x00000000#32) reducesTo_S3072x64_S64_d0 h_S_)) (broadcastInDim S1x64 ![] bcast_S_S1x64 (constant (F := F) S_ .f32 0x45400000#32)))))) (constant (F := F) S_ .f32 0x00000000#32) reducesTo_S3072x64_S64_d0 h_S_) (broadcastInDim S64 ![] bcast_S_S64 (subf (constant (F := F) S_ .f32 0x45400000#32) (sitofp .f32 (constantI S_ 32 0#32))))) (broadcastInDim S64 ![] bcast_S_S64 (constant (F := F) S_ .f32 0x7FC00000#32))

/-- The scale on the original nodes. -/
def scaleM (g : (⟨S3072x64, .f32⟩ : BufTy).Contents (Elt F)) (gam : (⟨S64, .f32⟩ : BufTy).Contents (Elt F)) :
    (⟨S64, .f32⟩ : BufTy).Contents (Elt F) :=
  mulf gam (Host.rsqrt (addf (varMK g) (broadcastInDim S64 ![] bcast_S_S64 (constant (F := F) S_ .f32 0x3727C5AC#32))))

/-- The shift on the original nodes. -/
def shiftM (g : (⟨S3072x64, .f32⟩ : BufTy).Contents (Elt F)) (gam : (⟨S64, .f32⟩ : BufTy).Contents (Elt F)) (bet : (⟨S64, .f32⟩ : BufTy).Contents (Elt F)) :
    (⟨S64, .f32⟩ : BufTy).Contents (Elt F) :=
  subf bet (mulf (meanMK g) (scaleM g gam))

/-- g · scale + shift, scale and shift broadcast over the rows. -/
def affineM (g : (⟨S3072x64, .f32⟩ : BufTy).Contents (Elt F)) (s : (⟨S64, .f32⟩ : BufTy).Contents (Elt F)) (t : (⟨S64, .f32⟩ : BufTy).Contents (Elt F)) :
    (⟨S3072x64, .f32⟩ : BufTy).Contents (Elt F) :=
  addf (mulf g (broadcastInDim S3072x64 ![0, 1] bcast_S1x64_S3072x64_0_1 (broadcastInDim S1x64 ![1] bcast_S64_S1x64_1 s))) (broadcastInDim S3072x64 ![0, 1] bcast_S1x64_S3072x64_0_1 (broadcastInDim S1x64 ![1] bcast_S64_S1x64_1 t))

/-- Each copy node takes its original node's row. -/
def gatherBackK (h : (⟨S3072x64, .f32⟩ : BufTy).Contents (Elt F)) (idx : (⟨S147456, .i32⟩ : BufTy).Contents (Elt F)) :
    (⟨S147456x64, .f32⟩ : BufTy).Contents (Elt F) :=
  Host.gather gather_S3072x64_S147456x1_S147456x64_1_0_n_n_0_1_164 h (broadcastInDim S147456x1 ![0] bcast_S147456_S147456x1_0 (select (cmpi .slt idx (broadcastInDim S147456 ![] bcast_S_S147456 (constantI S_ 32 0#32))) (addi idx (broadcastInDim S147456 ![] bcast_S_S147456 (constantI S_ 32 3072#32))) idx))

/-- Mean of the copy nodes' rows per subgraph. -/
def segMeanNSK (x : (⟨S147456x64, .f32⟩ : BufTy).Contents (Elt F)) (sb : (⟨S147456, .i32⟩ : BufTy).Contents (Elt F)) :
    (⟨S3072x64, .f32⟩ : BufTy).Contents (Elt F) :=
  Host.divf (Host.scatterAdd scatter_S3072x64_S147456x1_S147456x64_1_0_0_1 (broadcastInDim S3072x64 ![] bcast_S_S3072x64 (constant (F := F) S_ .f32 0x00000000#32)) (broadcastInDim S147456x1 ![0] bcast_S147456_S147456x1_0 sb) x) (broadcastInDim S3072x64 ![0, 1] bcast_S3072x1_S3072x64_0_1 (broadcastInDim S3072x1 ![0] bcast_S3072_S3072x1_0 (maximumf (Host.scatterAdd scatter_S3072_S147456x1_S147456_n_0_0_1 (broadcastInDim S3072 ![] bcast_S_S3072 (constant (F := F) S_ .f32 0x00000000#32)) (broadcastInDim S147456x1 ![0] bcast_S147456_S147456x1_0 sb) (broadcastInDim S147456 ![] bcast_S_S147456 (constant (F := F) S_ .f32 0x3F800000#32))) (broadcastInDim S3072 ![] bcast_S_S3072 (constant (F := F) S_ .f32 0x3F800000#32)))))

/-- Mean of the subgraphs' rows per graph. -/
def segMeanSGK (h : (⟨S3072x64, .f32⟩ : BufTy).Contents (Elt F)) (sib : (⟨S3072, .i32⟩ : BufTy).Contents (Elt F)) :
    (⟨S64x64, .f32⟩ : BufTy).Contents (Elt F) :=
  Host.divf (Host.scatterAdd scatter_S64x64_S3072x1_S3072x64_1_0_0_1 (broadcastInDim S64x64 ![] bcast_S_S64x64 (constant (F := F) S_ .f32 0x00000000#32)) (broadcastInDim S3072x1 ![0] bcast_S3072_S3072x1_0 sib) h) (broadcastInDim S64x64 ![0, 1] bcast_S64x1_S64x64_0_1 (broadcastInDim S64x1 ![0] bcast_S64_S64x1_0 (maximumf (Host.scatterAdd scatter_S64_S3072x1_S3072_n_0_0_1 (broadcastInDim S64 ![] bcast_S_S64 (constant (F := F) S_ .f32 0x00000000#32)) (broadcastInDim S3072x1 ![0] bcast_S3072_S3072x1_0 sib) (broadcastInDim S3072 ![] bcast_S_S3072 (constant (F := F) S_ .f32 0x3F800000#32))) (broadcastInDim S64 ![] bcast_S_S64 (constant (F := F) S_ .f32 0x3F800000#32)))))

def gW1K_0 (a : (⟨S3x64x128, .f32⟩ : BufTy).Contents (Elt F)) :
    (⟨S64x128, .f32⟩ : BufTy).Contents (Elt F) :=
  fun i => shapeCast S64x128 (extractStridedSlice S1x64x128 ![0, 0, 0] a slices_S3x64x128_S1x64x128_0_0_0) shapeCasts_S1x64x128_S64x128 i

def gB1K_0 (a : (⟨S3x128, .f32⟩ : BufTy).Contents (Elt F)) :
    (⟨S128, .f32⟩ : BufTy).Contents (Elt F) :=
  fun i => shapeCast S128 (extractStridedSlice S1x128 ![0, 0] a slices_S3x128_S1x128_0_0) shapeCasts_S1x128_S128 i

def gW2K_0 (a : (⟨S3x128x64, .f32⟩ : BufTy).Contents (Elt F)) :
    (⟨S128x64, .f32⟩ : BufTy).Contents (Elt F) :=
  fun i => shapeCast S128x64 (extractStridedSlice S1x128x64 ![0, 0, 0] a slices_S3x128x64_S1x128x64_0_0_0) shapeCasts_S1x128x64_S128x64 i

def gB2K_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def bnGK_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def bnBK_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def sW1K_0 (a : (⟨S3x64x128, .f32⟩ : BufTy).Contents (Elt F)) :
    (⟨S64x128, .f32⟩ : BufTy).Contents (Elt F) :=
  fun i => shapeCast S64x128 (extractStridedSlice S1x64x128 ![0, 0, 0] a slices_S3x64x128_S1x64x128_0_0_0) shapeCasts_S1x64x128_S64x128 i

def sB1K_0 (a : (⟨S3x128, .f32⟩ : BufTy).Contents (Elt F)) :
    (⟨S128, .f32⟩ : BufTy).Contents (Elt F) :=
  fun i => shapeCast S128 (extractStridedSlice S1x128 ![0, 0] a slices_S3x128_S1x128_0_0) shapeCasts_S1x128_S128 i

def sW2K_0 (a : (⟨S3x128x64, .f32⟩ : BufTy).Contents (Elt F)) :
    (⟨S128x64, .f32⟩ : BufTy).Contents (Elt F) :=
  fun i => shapeCast S128x64 (extractStridedSlice S1x128x64 ![0, 0, 0] a slices_S3x128x64_S1x128x64_0_0_0) shapeCasts_S1x128x64_S128x64 i

def sB2K_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def bsGK_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def bsBK_0 (a : (⟨S3x64, .f32⟩ : BufTy).Contents (Elt F)) :
    (⟨S64, .f32⟩ : BufTy).Contents (Elt F) :=
  fun i => shapeCast S64 (extractStridedSlice S1x64 ![0, 0] a slices_S3x64_S1x64_0_0) shapeCasts_S1x64_S64 i

def gW1K_1 (a : (⟨S3x64x128, .f32⟩ : BufTy).Contents (Elt F)) :
    (⟨S64x128, .f32⟩ : BufTy).Contents (Elt F) :=
  fun i => shapeCast S64x128 (extractStridedSlice S1x64x128 ![1, 0, 0] a slices_S3x64x128_S1x64x128_1_0_0) shapeCasts_S1x64x128_S64x128 i

def gB1K_1 (a : (⟨S3x128, .f32⟩ : BufTy).Contents (Elt F)) :
    (⟨S128, .f32⟩ : BufTy).Contents (Elt F) :=
  fun i => shapeCast S128 (extractStridedSlice S1x128 ![1, 0] a slices_S3x128_S1x128_1_0) shapeCasts_S1x128_S128 i

def gW2K_1 (a : (⟨S3x128x64, .f32⟩ : BufTy).Contents (Elt F)) :
    (⟨S128x64, .f32⟩ : BufTy).Contents (Elt F) :=
  fun i => shapeCast S128x64 (extractStridedSlice S1x128x64 ![1, 0, 0] a slices_S3x128x64_S1x128x64_1_0_0) shapeCasts_S1x128x64_S128x64 i

def gB2K_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def bnGK_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def bnBK_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def sW1K_1 (a : (⟨S3x64x128, .f32⟩ : BufTy).Contents (Elt F)) :
    (⟨S64x128, .f32⟩ : BufTy).Contents (Elt F) :=
  fun i => shapeCast S64x128 (extractStridedSlice S1x64x128 ![1, 0, 0] a slices_S3x64x128_S1x64x128_1_0_0) shapeCasts_S1x64x128_S64x128 i

def sB1K_1 (a : (⟨S3x128, .f32⟩ : BufTy).Contents (Elt F)) :
    (⟨S128, .f32⟩ : BufTy).Contents (Elt F) :=
  fun i => shapeCast S128 (extractStridedSlice S1x128 ![1, 0] a slices_S3x128_S1x128_1_0) shapeCasts_S1x128_S128 i

def sW2K_1 (a : (⟨S3x128x64, .f32⟩ : BufTy).Contents (Elt F)) :
    (⟨S128x64, .f32⟩ : BufTy).Contents (Elt F) :=
  fun i => shapeCast S128x64 (extractStridedSlice S1x128x64 ![1, 0, 0] a slices_S3x128x64_S1x128x64_1_0_0) shapeCasts_S1x128x64_S128x64 i

def sB2K_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def bsGK_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def bsBK_1 (a : (⟨S3x64, .f32⟩ : BufTy).Contents (Elt F)) :
    (⟨S64, .f32⟩ : BufTy).Contents (Elt F) :=
  fun i => shapeCast S64 (extractStridedSlice S1x64 ![1, 0] a slices_S3x64_S1x64_1_0) shapeCasts_S1x64_S64 i

def gW1K_2 (a : (⟨S3x64x128, .f32⟩ : BufTy).Contents (Elt F)) :
    (⟨S64x128, .f32⟩ : BufTy).Contents (Elt F) :=
  fun i => shapeCast S64x128 (extractStridedSlice S1x64x128 ![2, 0, 0] a slices_S3x64x128_S1x64x128_2_0_0) shapeCasts_S1x64x128_S64x128 i

def gB1K_2 (a : (⟨S3x128, .f32⟩ : BufTy).Contents (Elt F)) :
    (⟨S128, .f32⟩ : BufTy).Contents (Elt F) :=
  fun i => shapeCast S128 (extractStridedSlice S1x128 ![2, 0] a slices_S3x128_S1x128_2_0) shapeCasts_S1x128_S128 i

def gW2K_2 (a : (⟨S3x128x64, .f32⟩ : BufTy).Contents (Elt F)) :
    (⟨S128x64, .f32⟩ : BufTy).Contents (Elt F) :=
  fun i => shapeCast S128x64 (extractStridedSlice S1x128x64 ![2, 0, 0] a slices_S3x128x64_S1x128x64_2_0_0) shapeCasts_S1x128x64_S128x64 i

def gB2K_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

def bnGK_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

def bnBK_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

def sW1K_2 (a : (⟨S3x64x128, .f32⟩ : BufTy).Contents (Elt F)) :
    (⟨S64x128, .f32⟩ : BufTy).Contents (Elt F) :=
  fun i => shapeCast S64x128 (extractStridedSlice S1x64x128 ![2, 0, 0] a slices_S3x64x128_S1x64x128_2_0_0) shapeCasts_S1x64x128_S64x128 i

def sB1K_2 (a : (⟨S3x128, .f32⟩ : BufTy).Contents (Elt F)) :
    (⟨S128, .f32⟩ : BufTy).Contents (Elt F) :=
  fun i => shapeCast S128 (extractStridedSlice S1x128 ![2, 0] a slices_S3x128_S1x128_2_0) shapeCasts_S1x128_S128 i

def sW2K_2 (a : (⟨S3x128x64, .f32⟩ : BufTy).Contents (Elt F)) :
    (⟨S128x64, .f32⟩ : BufTy).Contents (Elt F) :=
  fun i => shapeCast S128x64 (extractStridedSlice S1x128x64 ![2, 0, 0] a slices_S3x128x64_S1x128x64_2_0_0) shapeCasts_S1x128x64_S128x64 i

def sB2K_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

def bsGK_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

def bsBK_2 (a : (⟨S3x64, .f32⟩ : BufTy).Contents (Elt F)) :
    (⟨S64, .f32⟩ : BufTy).Contents (Elt F) :=
  fun i => shapeCast S64 (extractStridedSlice S1x64 ![2, 0] a slices_S3x64_S1x64_2_0) shapeCasts_S1x64_S64 i

/-- One layer as the kernel's program computes it: the two perceptrons and the fused epilogue are the regions' functions,
    batch normalisation enters as a scale and a shift. -/
def layerK (w1 : (⟨S64x128, .f32⟩ : BufTy).Contents (Elt F)) (b1 : (⟨S128, .f32⟩ : BufTy).Contents (Elt F)) (w2 : (⟨S128x64, .f32⟩ : BufTy).Contents (Elt F)) (b2 : (⟨S64, .f32⟩ : BufTy).Contents (Elt F)) (gam : (⟨S64, .f32⟩ : BufTy).Contents (Elt F)) (bet : (⟨S64, .f32⟩ : BufTy).Contents (Elt F)) (w1' : (⟨S64x128, .f32⟩ : BufTy).Contents (Elt F)) (b1' : (⟨S128, .f32⟩ : BufTy).Contents (Elt F)) (w2' : (⟨S128x64, .f32⟩ : BufTy).Contents (Elt F)) (b2' : (⟨S64, .f32⟩ : BufTy).Contents (Elt F)) (gam' : (⟨S64, .f32⟩ : BufTy).Contents (Elt F)) (bet' : (⟨S64, .f32⟩ : BufTy).Contents (Elt F))
    (ea : (⟨S884736x64, .f32⟩ : BufTy).Contents (Elt F)) (oea : (⟨S18432x64, .f32⟩ : BufTy).Contents (Elt F)) (e0 e1 : (⟨S884736, .i32⟩ : BufTy).Contents (Elt F)) (o0 o1 : (⟨S18432, .i32⟩ : BufTy).Contents (Elt F)) (idx : (⟨S147456, .i32⟩ : BufTy).Contents (Elt F))
    (x : (⟨S147456x64, .f32⟩ : BufTy).Contents (Elt F)) : (⟨S147456x64, .f32⟩ : BufTy).Contents (Elt F) :=
  let g1 := mlpN (ginSumNK x ea e0 e1) w1 (row128 b1) w2 (row64 b2)
  let g2 := mlpM (ginSumMK (segMeanNMK x idx) oea o0 o1) w1' (row128 b1') w2' (row64 b2')
  combine g1 (row64 (scaleN g1 gam)) (row64 (shiftN g1 gam bet)) (gatherBackK (affineM g2 (scaleM g2 gam') (shiftM g2 gam' bet')) idx)

/-- The whole network as the kernel's program computes it. -/
def networkK (a0 : (⟨S147456x16, .f32⟩ : BufTy).Contents (Elt F)) (a1 : (⟨S884736x8, .f32⟩ : BufTy).Contents (Elt F)) (a2 : (⟨S18432x8, .f32⟩ : BufTy).Contents (Elt F)) (a3 : (⟨S16x64, .f32⟩ : BufTy).Contents (Elt F)) (a4 : (⟨S64, .f32⟩ : BufTy).Contents (Elt F)) (a5 : (⟨S8x64, .f32⟩ : BufTy).Contents (Elt F)) (a6 : (⟨S64, .f32⟩ : BufTy).Contents (Elt F)) (a7 : (⟨S3x64x128, .f32⟩ : BufTy).Contents (Elt F)) (a8 : (⟨S3x128, .f32⟩ : BufTy).Contents (Elt F)) (a9 : (⟨S3x128x64, .f32⟩ : BufTy).Contents (Elt F)) (a10 : (⟨S3x64, .f32⟩ : BufTy).Contents (Elt F)) (a11 : (⟨S3x64, .f32⟩ : BufTy).Contents (Elt F)) (a12 : (⟨S3x64, .f32⟩ : BufTy).Contents (Elt F)) (a13 : (⟨S3x64x128, .f32⟩ : BufTy).Contents (Elt F)) (a14 : (⟨S3x128, .f32⟩ : BufTy).Contents (Elt F)) (a15 : (⟨S3x128x64, .f32⟩ : BufTy).Contents (Elt F)) (a16 : (⟨S3x64, .f32⟩ : BufTy).Contents (Elt F)) (a17 : (⟨S3x64, .f32⟩ : BufTy).Contents (Elt F)) (a18 : (⟨S3x64, .f32⟩ : BufTy).Contents (Elt F)) (a19 : (⟨S64x128, .f32⟩ : BufTy).Contents (Elt F)) (a20 : (⟨S128, .f32⟩ : BufTy).Contents (Elt F)) (a21 : (⟨S128x10, .f32⟩ : BufTy).Contents (Elt F)) (a22 : (⟨S10, .f32⟩ : BufTy).Contents (Elt F)) (a23 : (⟨S2x884736, .i32⟩ : BufTy).Contents (Elt F)) (a24 : (⟨S2x18432, .i32⟩ : BufTy).Contents (Elt F)) (a25 : (⟨S147456, .i32⟩ : BufTy).Contents (Elt F)) (a26 : (⟨S147456, .i32⟩ : BufTy).Contents (Elt F)) (a27 : (⟨S64, .i32⟩ : BufTy).Contents (Elt F)) (a28 : (⟨S147456, .i32⟩ : BufTy).Contents (Elt F)) (a29 : (⟨S3072, .i32⟩ : BufTy).Contents (Elt F)) :
    (⟨S64x10, .f32⟩ : BufTy).Contents (Elt F) :=
  mlpG (segMeanSGK (segMeanNSK (layerK (gW1K_2 a7) (gB1K_2 a8) (gW2K_2 a9) (gB2K_2 a10) (bnGK_2 a11) (bnBK_2 a12) (sW1K_2 a13) (sB1K_2 a14) (sW2K_2 a15) (sB2K_2 a16) (bsGK_2 a17) (bsBK_2 a18) (encE a1 a5 (row64 a6)) (encO a2 a5 (row64 a6)) (eSrcK a23) (eDstK a23) (oSrcK a24) (oDstK a24) (nodeIdxK a27 a25 a26) (layerK (gW1K_1 a7) (gB1K_1 a8) (gW2K_1 a9) (gB2K_1 a10) (bnGK_1 a11) (bnBK_1 a12) (sW1K_1 a13) (sB1K_1 a14) (sW2K_1 a15) (sB2K_1 a16) (bsGK_1 a17) (bsBK_1 a18) (encE a1 a5 (row64 a6)) (encO a2 a5 (row64 a6)) (eSrcK a23) (eDstK a23) (oSrcK a24) (oDstK a24) (nodeIdxK a27 a25 a26) (layerK (gW1K_0 a7) (gB1K_0 a8) (gW2K_0 a9) (gB2K_0 a10) (bnGK_0 a11) (bnBK_0 a12) (sW1K_0 a13) (sB1K_0 a14) (sW2K_0 a15) (sB2K_0 a16) (bsGK_0 a17) (bsBK_0 a18) (encE a1 a5 (row64 a6)) (encO a2 a5 (row64 a6)) (eSrcK a23) (eDstK a23) (oSrcK a24) (oDstK a24) (nodeIdxK a27 a25 a26) (encX a0 a3 (row64 a4))))) a28) a29) a19 (row128 a20) a21 (row10 a22)

end Cert.Stage

end
-- ==== Proof.KWalkHost.lean ====
/- The stretches of host operations of the idealized kernel's @main, read as whole-array functions: from ANY buffer
   contents `W`, what the stretch leaves in each buffer a later segment reads is the named stage function
   (StageK.lean) of what `W` holds in the buffers the stretch reads. Each is the fold of the stretch's operations
   computed once, symbolically; no contents are evaluated. -/
import proofs.«177129_j59004260712467_1_alg».proof.Proof.Gen.KernelIdeal.Launch
import proofs.«177129_j59004260712467_1_alg».proof.Proof.StageK

set_option maxRecDepth 16384

noncomputable section

namespace Cert.KernelIdeal.KRun

open Idealize.ShloMosaic Idealize.ShloMosaic.TcCoe
open Idealize.SL Idealize.SL.Sem
open Cert.KernelIdeal.Gen Cert.Stage

variable {F : FTy → Type} [FloatOps F]
variable [Cert.ReferenceIdeal.Facts]

/-! ## `hostOps0` (boundary 0 to 1) -/

theorem host0_v0 (W : Valuation τ sig (Elt F)) :
    (StableHlo.after hostOps0 W) (Proc.devRef .tc main_v0)
      = row64 (W (Proc.devRef .tc main_arg4)) := by
  simp only [hostOps0]
  after_results_simp
  rfl

/-! ## `hostOps1` (boundary 2 to 3) -/

theorem host2_v2 (W : Valuation τ sig (Elt F)) :
    (StableHlo.after hostOps1 W) (Proc.devRef .tc main_v2)
      = row64 (W (Proc.devRef .tc main_arg6)) := by
  simp only [hostOps1]
  after_results_simp
  rfl

/-! ## `hostOps2` (boundary 4 to 5) -/

theorem host4_v4 (W : Valuation τ sig (Elt F)) :
    (StableHlo.after hostOps2 W) (Proc.devRef .tc main_v4)
      = row64 (W (Proc.devRef .tc main_arg6)) := by
  simp only [hostOps2]
  after_results_simp
  rfl

/-! ## `hostOps3`, `hostOps3_1`, `hostOps3_2`, `hostOps3_3`, `hostOps3_4` (boundary 6 to 11) -/

theorem host6_v16 (W : Valuation τ sig (Elt F)) :
    (StableHlo.after hostOps3_4 (StableHlo.after hostOps3_3 (StableHlo.after hostOps3_2 (StableHlo.after hostOps3_1 (StableHlo.after hostOps3 W))))) (Proc.devRef .tc main_v16)
      = nodeIdxK (W (Proc.devRef .tc main_arg27)) (W (Proc.devRef .tc main_arg25)) (W (Proc.devRef .tc main_arg26)) := by
  simp only [hostOps3, hostOps3_1, hostOps3_2, hostOps3_3, hostOps3_4]
  after_results_simp
  rfl
theorem host6_v18 (W : Valuation τ sig (Elt F)) :
    (StableHlo.after hostOps3_4 (StableHlo.after hostOps3_3 (StableHlo.after hostOps3_2 (StableHlo.after hostOps3_1 (StableHlo.after hostOps3 W))))) (Proc.devRef .tc main_v18)
      = eSrcK (W (Proc.devRef .tc main_arg23)) := by
  simp only [hostOps3, hostOps3_1, hostOps3_2, hostOps3_3, hostOps3_4]
  after_results_simp
  rfl
theorem host6_v20 (W : Valuation τ sig (Elt F)) :
    (StableHlo.after hostOps3_4 (StableHlo.after hostOps3_3 (StableHlo.after hostOps3_2 (StableHlo.after hostOps3_1 (StableHlo.after hostOps3 W))))) (Proc.devRef .tc main_v20)
      = eDstK (W (Proc.devRef .tc main_arg23)) := by
  simp only [hostOps3, hostOps3_1, hostOps3_2, hostOps3_3, hostOps3_4]
  after_results_simp
  rfl
theorem host6_v22 (W : Valuation τ sig (Elt F)) :
    (StableHlo.after hostOps3_4 (StableHlo.after hostOps3_3 (StableHlo.after hostOps3_2 (StableHlo.after hostOps3_1 (StableHlo.after hostOps3 W))))) (Proc.devRef .tc main_v22)
      = oSrcK (W (Proc.devRef .tc main_arg24)) := by
  simp only [hostOps3, hostOps3_1, hostOps3_2, hostOps3_3, hostOps3_4]
  after_results_simp
  rfl
theorem host6_v24 (W : Valuation τ sig (Elt F)) :
    (StableHlo.after hostOps3_4 (StableHlo.after hostOps3_3 (StableHlo.after hostOps3_2 (StableHlo.after hostOps3_1 (StableHlo.after hostOps3 W))))) (Proc.devRef .tc main_v24)
      = oDstK (W (Proc.devRef .tc main_arg24)) := by
  simp only [hostOps3, hostOps3_1, hostOps3_2, hostOps3_3, hostOps3_4]
  after_results_simp
  rfl
theorem host6_v37 (W : Valuation τ sig (Elt F)) :
    (StableHlo.after hostOps3_4 (StableHlo.after hostOps3_3 (StableHlo.after hostOps3_2 (StableHlo.after hostOps3_1 (StableHlo.after hostOps3 W))))) (Proc.devRef .tc main_v37)
      = ginSumNK (W (Proc.devRef .tc main_v1)) (W (Proc.devRef .tc main_v3)) (eSrcK (W (Proc.devRef .tc main_arg23))) (eDstK (W (Proc.devRef .tc main_arg23))) := by
  simp only [hostOps3, hostOps3_1, hostOps3_2, hostOps3_3, hostOps3_4]
  after_results_simp
  rfl
theorem host6_v39 (W : Valuation τ sig (Elt F)) :
    (StableHlo.after hostOps3_4 (StableHlo.after hostOps3_3 (StableHlo.after hostOps3_2 (StableHlo.after hostOps3_1 (StableHlo.after hostOps3 W))))) (Proc.devRef .tc main_v39)
      = gW1K_0 (W (Proc.devRef .tc main_arg7)) := by
  simp only [hostOps3, hostOps3_1, hostOps3_2, hostOps3_3, hostOps3_4]
  after_results_simp
  rfl
theorem host6_v46 (W : Valuation τ sig (Elt F)) :
    (StableHlo.after hostOps3_4 (StableHlo.after hostOps3_3 (StableHlo.after hostOps3_2 (StableHlo.after hostOps3_1 (StableHlo.after hostOps3 W))))) (Proc.devRef .tc main_v46)
      = row128 (gB1K_0 (W (Proc.devRef .tc main_arg8))) := by
  simp only [hostOps3, hostOps3_1, hostOps3_2, hostOps3_3, hostOps3_4]
  after_results_simp
  rfl
theorem host6_v43 (W : Valuation τ sig (Elt F)) :
    (StableHlo.after hostOps3_4 (StableHlo.after hostOps3_3 (StableHlo.after hostOps3_2 (StableHlo.after hostOps3_1 (StableHlo.after hostOps3 W))))) (Proc.devRef .tc main_v43)
      = gW2K_0 (W (Proc.devRef .tc main_arg9)) := by
  simp only [hostOps3, hostOps3_1, hostOps3_2, hostOps3_3, hostOps3_4]
  after_results_simp
  rfl
theorem host6_v47 (W : Valuation τ sig (Elt F)) :
    (StableHlo.after hostOps3_4 (StableHlo.after hostOps3_3 (StableHlo.after hostOps3_2 (StableHlo.after hostOps3_1 (StableHlo.after hostOps3 W))))) (Proc.devRef .tc main_v47)
      = row64 (gB2K_0 (W (Proc.devRef .tc main_arg10))) := by
  simp only [hostOps3, hostOps3_1, hostOps3_2, hostOps3_3, hostOps3_4]
  after_results_simp
  rfl

/-! ## `hostOps4`, `hostOps4_1`, `hostOps4_2`, `hostOps4_3`, `hostOps4_4` (boundary 12 to 17) -/

set_option maxHeartbeats 1000000 in
theorem host12_v60 (W : Valuation τ sig (Elt F)) :
    (StableHlo.after hostOps4_4 (StableHlo.after hostOps4_3 (StableHlo.after hostOps4_2 (StableHlo.after hostOps4_1 (StableHlo.after hostOps4 W))))) (Proc.devRef .tc main_v60)
      = scaleN (W (Proc.devRef .tc main_v48)) (bnGK_0 (W (Proc.devRef .tc main_arg11))) := by
  simp only [hostOps4, hostOps4_1, hostOps4_2, hostOps4_3, hostOps4_4]
  after_results_simp
  rfl
set_option maxHeartbeats 1000000 in
theorem host12_v62 (W : Valuation τ sig (Elt F)) :
    (StableHlo.after hostOps4_4 (StableHlo.after hostOps4_3 (StableHlo.after hostOps4_2 (StableHlo.after hostOps4_1 (StableHlo.after hostOps4 W))))) (Proc.devRef .tc main_v62)
      = shiftN (W (Proc.devRef .tc main_v48)) (bnGK_0 (W (Proc.devRef .tc main_arg11))) (bnBK_0 (W (Proc.devRef .tc main_arg12))) := by
  simp only [hostOps4, hostOps4_1, hostOps4_2, hostOps4_3, hostOps4_4]
  after_results_simp
  rfl
set_option maxHeartbeats 1000000 in
theorem host12_v87 (W : Valuation τ sig (Elt F)) :
    (StableHlo.after hostOps4_4 (StableHlo.after hostOps4_3 (StableHlo.after hostOps4_2 (StableHlo.after hostOps4_1 (StableHlo.after hostOps4 W))))) (Proc.devRef .tc main_v87)
      = ginSumMK (segMeanNMK (W (Proc.devRef .tc main_v1)) (W (Proc.devRef .tc main_v16))) (W (Proc.devRef .tc main_v5)) (W (Proc.devRef .tc main_v22)) (W (Proc.devRef .tc main_v24)) := by
  simp only [hostOps4, hostOps4_1, hostOps4_2, hostOps4_3, hostOps4_4]
  after_results_simp
  rfl
set_option maxHeartbeats 1000000 in
theorem host12_v89 (W : Valuation τ sig (Elt F)) :
    (StableHlo.after hostOps4_4 (StableHlo.after hostOps4_3 (StableHlo.after hostOps4_2 (StableHlo.after hostOps4_1 (StableHlo.after hostOps4 W))))) (Proc.devRef .tc main_v89)
      = sW1K_0 (W (Proc.devRef .tc main_arg13)) := by
  simp only [hostOps4, hostOps4_1, hostOps4_2, hostOps4_3, hostOps4_4]
  after_results_simp
  rfl
set_option maxHeartbeats 1000000 in
theorem host12_v96 (W : Valuation τ sig (Elt F)) :
    (StableHlo.after hostOps4_4 (StableHlo.after hostOps4_3 (StableHlo.after hostOps4_2 (StableHlo.after hostOps4_1 (StableHlo.after hostOps4 W))))) (Proc.devRef .tc main_v96)
      = row128 (sB1K_0 (W (Proc.devRef .tc main_arg14))) := by
  simp only [hostOps4, hostOps4_1, hostOps4_2, hostOps4_3, hostOps4_4]
  after_results_simp
  rfl
set_option maxHeartbeats 1000000 in
theorem host12_v93 (W : Valuation τ sig (Elt F)) :
    (StableHlo.after hostOps4_4 (StableHlo.after hostOps4_3 (StableHlo.after hostOps4_2 (StableHlo.after hostOps4_1 (StableHlo.after hostOps4 W))))) (Proc.devRef .tc main_v93)
      = sW2K_0 (W (Proc.devRef .tc main_arg15)) := by
  simp only [hostOps4, hostOps4_1, hostOps4_2, hostOps4_3, hostOps4_4]
  after_results_simp
  rfl
set_option maxHeartbeats 1000000 in
theorem host12_v97 (W : Valuation τ sig (Elt F)) :
    (StableHlo.after hostOps4_4 (StableHlo.after hostOps4_3 (StableHlo.after hostOps4_2 (StableHlo.after hostOps4_1 (StableHlo.after hostOps4 W))))) (Proc.devRef .tc main_v97)
      = row64 (sB2K_0 (W (Proc.devRef .tc main_arg16))) := by
  simp only [hostOps4, hostOps4_1, hostOps4_2, hostOps4_3, hostOps4_4]
  after_results_simp
  rfl

/-! ## `hostOps5`, `hostOps5_1`, `hostOps5_2` (boundary 18 to 21) -/

theorem host18_v125 (W : Valuation τ sig (Elt F)) :
    (StableHlo.after hostOps5_2 (StableHlo.after hostOps5_1 (StableHlo.after hostOps5 W))) (Proc.devRef .tc main_v125)
      = gatherBackK (affineM (W (Proc.devRef .tc main_v98)) (scaleM (W (Proc.devRef .tc main_v98)) (bsGK_0 (W (Proc.devRef .tc main_arg17)))) (shiftM (W (Proc.devRef .tc main_v98)) (bsGK_0 (W (Proc.devRef .tc main_arg17))) (bsBK_0 (W (Proc.devRef .tc main_arg18))))) (W (Proc.devRef .tc main_v16)) := by
  simp only [hostOps5, hostOps5_1, hostOps5_2]
  after_results_simp
  rfl
theorem host18_v126 (W : Valuation τ sig (Elt F)) :
    (StableHlo.after hostOps5_2 (StableHlo.after hostOps5_1 (StableHlo.after hostOps5 W))) (Proc.devRef .tc main_v126)
      = row64 (W (Proc.devRef .tc main_v60)) := by
  simp only [hostOps5, hostOps5_1, hostOps5_2]
  after_results_simp
  rfl
theorem host18_v127 (W : Valuation τ sig (Elt F)) :
    (StableHlo.after hostOps5_2 (StableHlo.after hostOps5_1 (StableHlo.after hostOps5 W))) (Proc.devRef .tc main_v127)
      = row64 (W (Proc.devRef .tc main_v62)) := by
  simp only [hostOps5, hostOps5_1, hostOps5_2]
  after_results_simp
  rfl

/-! ## `hostOps6`, `hostOps6_1`, `hostOps6_2` (boundary 22 to 25) -/

theorem host22_v141 (W : Valuation τ sig (Elt F)) :
    (StableHlo.after hostOps6_2 (StableHlo.after hostOps6_1 (StableHlo.after hostOps6 W))) (Proc.devRef .tc main_v141)
      = ginSumNK (W (Proc.devRef .tc main_v128)) (W (Proc.devRef .tc main_v3)) (W (Proc.devRef .tc main_v18)) (W (Proc.devRef .tc main_v20)) := by
  simp only [hostOps6, hostOps6_1, hostOps6_2]
  after_results_simp
  rfl
theorem host22_v143 (W : Valuation τ sig (Elt F)) :
    (StableHlo.after hostOps6_2 (StableHlo.after hostOps6_1 (StableHlo.after hostOps6 W))) (Proc.devRef .tc main_v143)
      = gW1K_1 (W (Proc.devRef .tc main_arg7)) := by
  simp only [hostOps6, hostOps6_1, hostOps6_2]
  after_results_simp
  rfl
theorem host22_v150 (W : Valuation τ sig (Elt F)) :
    (StableHlo.after hostOps6_2 (StableHlo.after hostOps6_1 (StableHlo.after hostOps6 W))) (Proc.devRef .tc main_v150)
      = row128 (gB1K_1 (W (Proc.devRef .tc main_arg8))) := by
  simp only [hostOps6, hostOps6_1, hostOps6_2]
  after_results_simp
  rfl
theorem host22_v147 (W : Valuation τ sig (Elt F)) :
    (StableHlo.after hostOps6_2 (StableHlo.after hostOps6_1 (StableHlo.after hostOps6 W))) (Proc.devRef .tc main_v147)
      = gW2K_1 (W (Proc.devRef .tc main_arg9)) := by
  simp only [hostOps6, hostOps6_1, hostOps6_2]
  after_results_simp
  rfl
theorem host22_v151 (W : Valuation τ sig (Elt F)) :
    (StableHlo.after hostOps6_2 (StableHlo.after hostOps6_1 (StableHlo.after hostOps6 W))) (Proc.devRef .tc main_v151)
      = row64 (gB2K_1 (W (Proc.devRef .tc main_arg10))) := by
  simp only [hostOps6, hostOps6_1, hostOps6_2]
  after_results_simp
  rfl

/-! ## `hostOps7`, `hostOps7_1`, `hostOps7_2`, `hostOps7_3`, `hostOps7_4` (boundary 26 to 31) -/

set_option maxHeartbeats 1000000 in
theorem host26_v164 (W : Valuation τ sig (Elt F)) :
    (StableHlo.after hostOps7_4 (StableHlo.after hostOps7_3 (StableHlo.after hostOps7_2 (StableHlo.after hostOps7_1 (StableHlo.after hostOps7 W))))) (Proc.devRef .tc main_v164)
      = scaleN (W (Proc.devRef .tc main_v152)) (bnGK_1 (W (Proc.devRef .tc main_arg11))) := by
  simp only [hostOps7, hostOps7_1, hostOps7_2, hostOps7_3, hostOps7_4]
  after_results_simp
  rfl
set_option maxHeartbeats 1000000 in
theorem host26_v166 (W : Valuation τ sig (Elt F)) :
    (StableHlo.after hostOps7_4 (StableHlo.after hostOps7_3 (StableHlo.after hostOps7_2 (StableHlo.after hostOps7_1 (StableHlo.after hostOps7 W))))) (Proc.devRef .tc main_v166)
      = shiftN (W (Proc.devRef .tc main_v152)) (bnGK_1 (W (Proc.devRef .tc main_arg11))) (bnBK_1 (W (Proc.devRef .tc main_arg12))) := by
  simp only [hostOps7, hostOps7_1, hostOps7_2, hostOps7_3, hostOps7_4]
  after_results_simp
  rfl
set_option maxHeartbeats 1000000 in
theorem host26_v191 (W : Valuation τ sig (Elt F)) :
    (StableHlo.after hostOps7_4 (StableHlo.after hostOps7_3 (StableHlo.after hostOps7_2 (StableHlo.after hostOps7_1 (StableHlo.after hostOps7 W))))) (Proc.devRef .tc main_v191)
      = ginSumMK (segMeanNMK (W (Proc.devRef .tc main_v128)) (W (Proc.devRef .tc main_v16))) (W (Proc.devRef .tc main_v5)) (W (Proc.devRef .tc main_v22)) (W (Proc.devRef .tc main_v24)) := by
  simp only [hostOps7, hostOps7_1, hostOps7_2, hostOps7_3, hostOps7_4]
  after_results_simp
  rfl
set_option maxHeartbeats 1000000 in
theorem host26_v193 (W : Valuation τ sig (Elt F)) :
    (StableHlo.after hostOps7_4 (StableHlo.after hostOps7_3 (StableHlo.after hostOps7_2 (StableHlo.after hostOps7_1 (StableHlo.after hostOps7 W))))) (Proc.devRef .tc main_v193)
      = sW1K_1 (W (Proc.devRef .tc main_arg13)) := by
  simp only [hostOps7, hostOps7_1, hostOps7_2, hostOps7_3, hostOps7_4]
  after_results_simp
  rfl
set_option maxHeartbeats 1000000 in
theorem host26_v200 (W : Valuation τ sig (Elt F)) :
    (StableHlo.after hostOps7_4 (StableHlo.after hostOps7_3 (StableHlo.after hostOps7_2 (StableHlo.after hostOps7_1 (StableHlo.after hostOps7 W))))) (Proc.devRef .tc main_v200)
      = row128 (sB1K_1 (W (Proc.devRef .tc main_arg14))) := by
  simp only [hostOps7, hostOps7_1, hostOps7_2, hostOps7_3, hostOps7_4]
  after_results_simp
  rfl
set_option maxHeartbeats 1000000 in
theorem host26_v197 (W : Valuation τ sig (Elt F)) :
    (StableHlo.after hostOps7_4 (StableHlo.after hostOps7_3 (StableHlo.after hostOps7_2 (StableHlo.after hostOps7_1 (StableHlo.after hostOps7 W))))) (Proc.devRef .tc main_v197)
      = sW2K_1 (W (Proc.devRef .tc main_arg15)) := by
  simp only [hostOps7, hostOps7_1, hostOps7_2, hostOps7_3, hostOps7_4]
  after_results_simp
  rfl
set_option maxHeartbeats 1000000 in
theorem host26_v201 (W : Valuation τ sig (Elt F)) :
    (StableHlo.after hostOps7_4 (StableHlo.after hostOps7_3 (StableHlo.after hostOps7_2 (StableHlo.after hostOps7_1 (StableHlo.after hostOps7 W))))) (Proc.devRef .tc main_v201)
      = row64 (sB2K_1 (W (Proc.devRef .tc main_arg16))) := by
  simp only [hostOps7, hostOps7_1, hostOps7_2, hostOps7_3, hostOps7_4]
  after_results_simp
  rfl

/-! ## `hostOps8`, `hostOps8_1`, `hostOps8_2` (boundary 32 to 35) -/

theorem host32_v229 (W : Valuation τ sig (Elt F)) :
    (StableHlo.after hostOps8_2 (StableHlo.after hostOps8_1 (StableHlo.after hostOps8 W))) (Proc.devRef .tc main_v229)
      = gatherBackK (affineM (W (Proc.devRef .tc main_v202)) (scaleM (W (Proc.devRef .tc main_v202)) (bsGK_1 (W (Proc.devRef .tc main_arg17)))) (shiftM (W (Proc.devRef .tc main_v202)) (bsGK_1 (W (Proc.devRef .tc main_arg17))) (bsBK_1 (W (Proc.devRef .tc main_arg18))))) (W (Proc.devRef .tc main_v16)) := by
  simp only [hostOps8, hostOps8_1, hostOps8_2]
  after_results_simp
  rfl
theorem host32_v230 (W : Valuation τ sig (Elt F)) :
    (StableHlo.after hostOps8_2 (StableHlo.after hostOps8_1 (StableHlo.after hostOps8 W))) (Proc.devRef .tc main_v230)
      = row64 (W (Proc.devRef .tc main_v164)) := by
  simp only [hostOps8, hostOps8_1, hostOps8_2]
  after_results_simp
  rfl
theorem host32_v231 (W : Valuation τ sig (Elt F)) :
    (StableHlo.after hostOps8_2 (StableHlo.after hostOps8_1 (StableHlo.after hostOps8 W))) (Proc.devRef .tc main_v231)
      = row64 (W (Proc.devRef .tc main_v166)) := by
  simp only [hostOps8, hostOps8_1, hostOps8_2]
  after_results_simp
  rfl

/-! ## `hostOps9`, `hostOps9_1`, `hostOps9_2` (boundary 36 to 39) -/

theorem host36_v245 (W : Valuation τ sig (Elt F)) :
    (StableHlo.after hostOps9_2 (StableHlo.after hostOps9_1 (StableHlo.after hostOps9 W))) (Proc.devRef .tc main_v245)
      = ginSumNK (W (Proc.devRef .tc main_v232)) (W (Proc.devRef .tc main_v3)) (W (Proc.devRef .tc main_v18)) (W (Proc.devRef .tc main_v20)) := by
  simp only [hostOps9, hostOps9_1, hostOps9_2]
  after_results_simp
  rfl
theorem host36_v247 (W : Valuation τ sig (Elt F)) :
    (StableHlo.after hostOps9_2 (StableHlo.after hostOps9_1 (StableHlo.after hostOps9 W))) (Proc.devRef .tc main_v247)
      = gW1K_2 (W (Proc.devRef .tc main_arg7)) := by
  simp only [hostOps9, hostOps9_1, hostOps9_2]
  after_results_simp
  rfl
theorem host36_v254 (W : Valuation τ sig (Elt F)) :
    (StableHlo.after hostOps9_2 (StableHlo.after hostOps9_1 (StableHlo.after hostOps9 W))) (Proc.devRef .tc main_v254)
      = row128 (gB1K_2 (W (Proc.devRef .tc main_arg8))) := by
  simp only [hostOps9, hostOps9_1, hostOps9_2]
  after_results_simp
  rfl
theorem host36_v251 (W : Valuation τ sig (Elt F)) :
    (StableHlo.after hostOps9_2 (StableHlo.after hostOps9_1 (StableHlo.after hostOps9 W))) (Proc.devRef .tc main_v251)
      = gW2K_2 (W (Proc.devRef .tc main_arg9)) := by
  simp only [hostOps9, hostOps9_1, hostOps9_2]
  after_results_simp
  rfl
theorem host36_v255 (W : Valuation τ sig (Elt F)) :
    (StableHlo.after hostOps9_2 (StableHlo.after hostOps9_1 (StableHlo.after hostOps9 W))) (Proc.devRef .tc main_v255)
      = row64 (gB2K_2 (W (Proc.devRef .tc main_arg10))) := by
  simp only [hostOps9, hostOps9_1, hostOps9_2]
  after_results_simp
  rfl

/-! ## `hostOps10`, `hostOps10_1`, `hostOps10_2`, `hostOps10_3`, `hostOps10_4` (boundary 40 to 45) -/

set_option maxHeartbeats 1000000 in
theorem host40_v268 (W : Valuation τ sig (Elt F)) :
    (StableHlo.after hostOps10_4 (StableHlo.after hostOps10_3 (StableHlo.after hostOps10_2 (StableHlo.after hostOps10_1 (StableHlo.after hostOps10 W))))) (Proc.devRef .tc main_v268)
      = scaleN (W (Proc.devRef .tc main_v256)) (bnGK_2 (W (Proc.devRef .tc main_arg11))) := by
  simp only [hostOps10, hostOps10_1, hostOps10_2, hostOps10_3, hostOps10_4]
  after_results_simp
  rfl
set_option maxHeartbeats 1000000 in
theorem host40_v270 (W : Valuation τ sig (Elt F)) :
    (StableHlo.after hostOps10_4 (StableHlo.after hostOps10_3 (StableHlo.after hostOps10_2 (StableHlo.after hostOps10_1 (StableHlo.after hostOps10 W))))) (Proc.devRef .tc main_v270)
      = shiftN (W (Proc.devRef .tc main_v256)) (bnGK_2 (W (Proc.devRef .tc main_arg11))) (bnBK_2 (W (Proc.devRef .tc main_arg12))) := by
  simp only [hostOps10, hostOps10_1, hostOps10_2, hostOps10_3, hostOps10_4]
  after_results_simp
  rfl
set_option maxHeartbeats 1000000 in
theorem host40_v295 (W : Valuation τ sig (Elt F)) :
    (StableHlo.after hostOps10_4 (StableHlo.after hostOps10_3 (StableHlo.after hostOps10_2 (StableHlo.after hostOps10_1 (StableHlo.after hostOps10 W))))) (Proc.devRef .tc main_v295)
      = ginSumMK (segMeanNMK (W (Proc.devRef .tc main_v232)) (W (Proc.devRef .tc main_v16))) (W (Proc.devRef .tc main_v5)) (W (Proc.devRef .tc main_v22)) (W (Proc.devRef .tc main_v24)) := by
  simp only [hostOps10, hostOps10_1, hostOps10_2, hostOps10_3, hostOps10_4]
  after_results_simp
  rfl
set_option maxHeartbeats 1000000 in
theorem host40_v297 (W : Valuation τ sig (Elt F)) :
    (StableHlo.after hostOps10_4 (StableHlo.after hostOps10_3 (StableHlo.after hostOps10_2 (StableHlo.after hostOps10_1 (StableHlo.after hostOps10 W))))) (Proc.devRef .tc main_v297)
      = sW1K_2 (W (Proc.devRef .tc main_arg13)) := by
  simp only [hostOps10, hostOps10_1, hostOps10_2, hostOps10_3, hostOps10_4]
  after_results_simp
  rfl
set_option maxHeartbeats 1000000 in
theorem host40_v304 (W : Valuation τ sig (Elt F)) :
    (StableHlo.after hostOps10_4 (StableHlo.after hostOps10_3 (StableHlo.after hostOps10_2 (StableHlo.after hostOps10_1 (StableHlo.after hostOps10 W))))) (Proc.devRef .tc main_v304)
      = row128 (sB1K_2 (W (Proc.devRef .tc main_arg14))) := by
  simp only [hostOps10, hostOps10_1, hostOps10_2, hostOps10_3, hostOps10_4]
  after_results_simp
  rfl
set_option maxHeartbeats 1000000 in
theorem host40_v301 (W : Valuation τ sig (Elt F)) :
    (StableHlo.after hostOps10_4 (StableHlo.after hostOps10_3 (StableHlo.after hostOps10_2 (StableHlo.after hostOps10_1 (StableHlo.after hostOps10 W))))) (Proc.devRef .tc main_v301)
      = sW2K_2 (W (Proc.devRef .tc main_arg15)) := by
  simp only [hostOps10, hostOps10_1, hostOps10_2, hostOps10_3, hostOps10_4]
  after_results_simp
  rfl
set_option maxHeartbeats 1000000 in
theorem host40_v305 (W : Valuation τ sig (Elt F)) :
    (StableHlo.after hostOps10_4 (StableHlo.after hostOps10_3 (StableHlo.after hostOps10_2 (StableHlo.after hostOps10_1 (StableHlo.after hostOps10 W))))) (Proc.devRef .tc main_v305)
      = row64 (sB2K_2 (W (Proc.devRef .tc main_arg16))) := by
  simp only [hostOps10, hostOps10_1, hostOps10_2, hostOps10_3, hostOps10_4]
  after_results_simp
  rfl

/-! ## `hostOps11`, `hostOps11_1`, `hostOps11_2` (boundary 46 to 49) -/

theorem host46_v333 (W : Valuation τ sig (Elt F)) :
    (StableHlo.after hostOps11_2 (StableHlo.after hostOps11_1 (StableHlo.after hostOps11 W))) (Proc.devRef .tc main_v333)
      = gatherBackK (affineM (W (Proc.devRef .tc main_v306)) (scaleM (W (Proc.devRef .tc main_v306)) (bsGK_2 (W (Proc.devRef .tc main_arg17)))) (shiftM (W (Proc.devRef .tc main_v306)) (bsGK_2 (W (Proc.devRef .tc main_arg17))) (bsBK_2 (W (Proc.devRef .tc main_arg18))))) (W (Proc.devRef .tc main_v16)) := by
  simp only [hostOps11, hostOps11_1, hostOps11_2]
  after_results_simp
  rfl
theorem host46_v334 (W : Valuation τ sig (Elt F)) :
    (StableHlo.after hostOps11_2 (StableHlo.after hostOps11_1 (StableHlo.after hostOps11 W))) (Proc.devRef .tc main_v334)
      = row64 (W (Proc.devRef .tc main_v268)) := by
  simp only [hostOps11, hostOps11_1, hostOps11_2]
  after_results_simp
  rfl
theorem host46_v335 (W : Valuation τ sig (Elt F)) :
    (StableHlo.after hostOps11_2 (StableHlo.after hostOps11_1 (StableHlo.after hostOps11 W))) (Proc.devRef .tc main_v335)
      = row64 (W (Proc.devRef .tc main_v270)) := by
  simp only [hostOps11, hostOps11_1, hostOps11_2]
  after_results_simp
  rfl

/-! ## `hostOps12` (boundary 50 to 51) -/

theorem host50_v360 (W : Valuation τ sig (Elt F)) :
    (StableHlo.after hostOps12 W) (Proc.devRef .tc main_v360)
      = segMeanSGK (segMeanNSK (W (Proc.devRef .tc main_v336)) (W (Proc.devRef .tc main_arg28))) (W (Proc.devRef .tc main_arg29)) := by
  simp only [hostOps12]
  after_results_simp
  rfl
theorem host50_v361 (W : Valuation τ sig (Elt F)) :
    (StableHlo.after hostOps12 W) (Proc.devRef .tc main_v361)
      = row128 (W (Proc.devRef .tc main_arg20)) := by
  simp only [hostOps12]
  after_results_simp
  rfl
theorem host50_v362 (W : Valuation τ sig (Elt F)) :
    (StableHlo.after hostOps12 W) (Proc.devRef .tc main_v362)
      = row10 (W (Proc.devRef .tc main_arg22)) := by
  simp only [hostOps12]
  after_results_simp
  rfl

end Cert.KernelIdeal.KRun

end
-- ==== Proof.KWalk.lean ====
/- The value of the idealized kernel's result buffer: the last boundary valuation of @main's fold (`GenP.W52`), read
   at the result buffer, is the network as the kernel's program arranges it (`Cert.Stage.networkK`) of the thirty
   argument arrays as launched. The fold is walked once, forwards: each stretch of host operations is its stage
   function of what the boundary before it holds (KWalkHost.lean), each region's output array is the region's
   function of its input arrays (the thirteen hypotheses below, one per region), and a buffer no segment in between
   writes is carried (KWalkBase.lean). One named value per stage; no contents are evaluated. -/
import proofs.«177129_j59004260712467_1_alg».proof.Proof.KWalkBase
import proofs.«177129_j59004260712467_1_alg».proof.Proof.KWalkHost

set_option maxRecDepth 16384

noncomputable section

namespace Cert.KernelIdeal.KRun

open Idealize.ShloMosaic Idealize.ShloMosaic.TcCoe
open Idealize.SL Idealize.SL.Sem
open Cert.KernelIdeal.Gen Cert.KernelIdeal.GenP Cert.Stage

variable {F : FTy → Type} [FloatOps F]
variable [Cert.ReferenceIdeal.Facts]

/-! ## The regions' hypotheses

Region `p`'s output array, as its write-backs leave it, is the region's whole-array function of its input arrays as the
region finds them, whatever those are (`V`). -/

/-- Region 0 computes `encX`. -/
abbrev HReg0 : Prop := ∀ (V : (c : Dev nD) → (b : Ref sig .tc) → Buf (Elt F) ((c : Thread nD τ).loc b)) (c : Dev nD),
  (dat0 V c).arrAt 3 cfg0.N = encX (V c (Pipeline.arrRef spec0 0)) (V c (Pipeline.arrRef spec0 1)) (V c (Pipeline.arrRef spec0 2))
/-- Region 1 computes `encE`. -/
abbrev HReg1 : Prop := ∀ (V : (c : Dev nD) → (b : Ref sig .tc) → Buf (Elt F) ((c : Thread nD τ).loc b)) (c : Dev nD),
  (dat1 V c).arrAt 3 cfg1.N = encE (V c (Pipeline.arrRef spec1 0)) (V c (Pipeline.arrRef spec1 1)) (V c (Pipeline.arrRef spec1 2))
/-- Region 2 computes `encO`. -/
abbrev HReg2 : Prop := ∀ (V : (c : Dev nD) → (b : Ref sig .tc) → Buf (Elt F) ((c : Thread nD τ).loc b)) (c : Dev nD),
  (dat2 V c).arrAt 3 cfg2.N = encO (V c (Pipeline.arrRef spec2 0)) (V c (Pipeline.arrRef spec2 1)) (V c (Pipeline.arrRef spec2 2))
/-- Region 3 computes `mlpN`. -/
abbrev HReg3 : Prop := ∀ (V : (c : Dev nD) → (b : Ref sig .tc) → Buf (Elt F) ((c : Thread nD τ).loc b)) (c : Dev nD),
  (dat3 V c).arrAt 5 cfg3.N = mlpN (V c (Pipeline.arrRef spec3 0)) (V c (Pipeline.arrRef spec3 1)) (V c (Pipeline.arrRef spec3 2)) (V c (Pipeline.arrRef spec3 3)) (V c (Pipeline.arrRef spec3 4))
/-- Region 4 computes `mlpM`. -/
abbrev HReg4 : Prop := ∀ (V : (c : Dev nD) → (b : Ref sig .tc) → Buf (Elt F) ((c : Thread nD τ).loc b)) (c : Dev nD),
  (dat4 V c).arrAt 5 cfg4.N = mlpM (V c (Pipeline.arrRef spec4 0)) (V c (Pipeline.arrRef spec4 1)) (V c (Pipeline.arrRef spec4 2)) (V c (Pipeline.arrRef spec4 3)) (V c (Pipeline.arrRef spec4 4))
/-- Region 5 computes `combine`. -/
abbrev HReg5 : Prop := ∀ (V : (c : Dev nD) → (b : Ref sig .tc) → Buf (Elt F) ((c : Thread nD τ).loc b)) (c : Dev nD),
  (dat5 V c).arrAt 4 cfg5.N = combine (V c (Pipeline.arrRef spec5 0)) (V c (Pipeline.arrRef spec5 1)) (V c (Pipeline.arrRef spec5 2)) (V c (Pipeline.arrRef spec5 3))
/-- Region 6 computes `mlpN`. -/
abbrev HReg6 : Prop := ∀ (V : (c : Dev nD) → (b : Ref sig .tc) → Buf (Elt F) ((c : Thread nD τ).loc b)) (c : Dev nD),
  (dat6 V c).arrAt 5 cfg6.N = mlpN (V c (Pipeline.arrRef spec6 0)) (V c (Pipeline.arrRef spec6 1)) (V c (Pipeline.arrRef spec6 2)) (V c (Pipeline.arrRef spec6 3)) (V c (Pipeline.arrRef spec6 4))
/-- Region 7 computes `mlpM`. -/
abbrev HReg7 : Prop := ∀ (V : (c : Dev nD) → (b : Ref sig .tc) → Buf (Elt F) ((c : Thread nD τ).loc b)) (c : Dev nD),
  (dat7 V c).arrAt 5 cfg7.N = mlpM (V c (Pipeline.arrRef spec7 0)) (V c (Pipeline.arrRef spec7 1)) (V c (Pipeline.arrRef spec7 2)) (V c (Pipeline.arrRef spec7 3)) (V c (Pipeline.arrRef spec7 4))
/-- Region 8 computes `combine`. -/
abbrev HReg8 : Prop := ∀ (V : (c : Dev nD) → (b : Ref sig .tc) → Buf (Elt F) ((c : Thread nD τ).loc b)) (c : Dev nD),
  (dat8 V c).arrAt 4 cfg8.N = combine (V c (Pipeline.arrRef spec8 0)) (V c (Pipeline.arrRef spec8 1)) (V c (Pipeline.arrRef spec8 2)) (V c (Pipeline.arrRef spec8 3))
/-- Region 9 computes `mlpN`. -/
abbrev HReg9 : Prop := ∀ (V : (c : Dev nD) → (b : Ref sig .tc) → Buf (Elt F) ((c : Thread nD τ).loc b)) (c : Dev nD),
  (dat9 V c).arrAt 5 cfg9.N = mlpN (V c (Pipeline.arrRef spec9 0)) (V c (Pipeline.arrRef spec9 1)) (V c (Pipeline.arrRef spec9 2)) (V c (Pipeline.arrRef spec9 3)) (V c (Pipeline.arrRef spec9 4))
/-- Region 10 computes `mlpM`. -/
abbrev HReg10 : Prop := ∀ (V : (c : Dev nD) → (b : Ref sig .tc) → Buf (Elt F) ((c : Thread nD τ).loc b)) (c : Dev nD),
  (dat10 V c).arrAt 5 cfg10.N = mlpM (V c (Pipeline.arrRef spec10 0)) (V c (Pipeline.arrRef spec10 1)) (V c (Pipeline.arrRef spec10 2)) (V c (Pipeline.arrRef spec10 3)) (V c (Pipeline.arrRef spec10 4))
/-- Region 11 computes `combine`. -/
abbrev HReg11 : Prop := ∀ (V : (c : Dev nD) → (b : Ref sig .tc) → Buf (Elt F) ((c : Thread nD τ).loc b)) (c : Dev nD),
  (dat11 V c).arrAt 4 cfg11.N = combine (V c (Pipeline.arrRef spec11 0)) (V c (Pipeline.arrRef spec11 1)) (V c (Pipeline.arrRef spec11 2)) (V c (Pipeline.arrRef spec11 3))
/-- Region 12 computes `mlpG`. -/
abbrev HReg12 : Prop := ∀ (V : (c : Dev nD) → (b : Ref sig .tc) → Buf (Elt F) ((c : Thread nD τ).loc b)) (c : Dev nD),
  (dat12 V c).arrAt 5 cfg12.N = mlpG (V c (Pipeline.arrRef spec12 0)) (V c (Pipeline.arrRef spec12 1)) (V c (Pipeline.arrRef spec12 2)) (V c (Pipeline.arrRef spec12 3)) (V c (Pipeline.arrRef spec12 4))

/-- The thirteen regions' hypotheses together. -/
structure Regs : Prop where
  h0 : HReg0 (F := F)
  h1 : HReg1 (F := F)
  h2 : HReg2 (F := F)
  h3 : HReg3 (F := F)
  h4 : HReg4 (F := F)
  h5 : HReg5 (F := F)
  h6 : HReg6 (F := F)
  h7 : HReg7 (F := F)
  h8 : HReg8 (F := F)
  h9 : HReg9 (F := F)
  h10 : HReg10 (F := F)
  h11 : HReg11 (F := F)
  h12 : HReg12 (F := F)

variable (m : (ℓ : Loc nD τ sig) → Buf (Elt F) ℓ) (ρ : Dev nD → PrngReg)

/-! ## The stages' values, from the launch memory -/

/-- The encoded node features. -/
def X0 (c : Dev nD) :=
  encX (W0 m ρ c (Proc.devRef .tc main_arg0)) (W0 m ρ c (Proc.devRef .tc main_arg3)) (row64 (W0 m ρ c (Proc.devRef .tc main_arg4)))
/-- The encoded subgraph-edge features. -/
def EA (c : Dev nD) :=
  encE (W0 m ρ c (Proc.devRef .tc main_arg1)) (W0 m ρ c (Proc.devRef .tc main_arg5)) (row64 (W0 m ρ c (Proc.devRef .tc main_arg6)))
/-- The encoded original-edge features. -/
def OEA (c : Dev nD) :=
  encO (W0 m ρ c (Proc.devRef .tc main_arg2)) (W0 m ρ c (Proc.devRef .tc main_arg5)) (row64 (W0 m ρ c (Proc.devRef .tc main_arg6)))
/-- Copy node to original node. -/
def IDX (c : Dev nD) :=
  nodeIdxK (W0 m ρ c (Proc.devRef .tc main_arg27)) (W0 m ρ c (Proc.devRef .tc main_arg25)) (W0 m ρ c (Proc.devRef .tc main_arg26))
/-- Subgraph edges' sources. -/
def ES (c : Dev nD) :=
  eSrcK (W0 m ρ c (Proc.devRef .tc main_arg23))
/-- Subgraph edges' targets. -/
def ED (c : Dev nD) :=
  eDstK (W0 m ρ c (Proc.devRef .tc main_arg23))
/-- Original edges' sources. -/
def OS (c : Dev nD) :=
  oSrcK (W0 m ρ c (Proc.devRef .tc main_arg24))
/-- Original edges' targets. -/
def OD (c : Dev nD) :=
  oDstK (W0 m ρ c (Proc.devRef .tc main_arg24))
/-- Layer 1: the perceptron on the copy nodes. -/
def G1_0 (c : Dev nD) :=
  mlpN (ginSumNK (X0 m ρ c) (EA m ρ c) (ES m ρ c) (ED m ρ c)) (gW1K_0 (W0 m ρ c (Proc.devRef .tc main_arg7))) (row128 (gB1K_0 (W0 m ρ c (Proc.devRef .tc main_arg8)))) (gW2K_0 (W0 m ρ c (Proc.devRef .tc main_arg9))) (row64 (gB2K_0 (W0 m ρ c (Proc.devRef .tc main_arg10))))
/-- Layer 1: the perceptron on the original nodes. -/
def G2_0 (c : Dev nD) :=
  mlpM (ginSumMK (segMeanNMK (X0 m ρ c) (IDX m ρ c)) (OEA m ρ c) (OS m ρ c) (OD m ρ c)) (sW1K_0 (W0 m ρ c (Proc.devRef .tc main_arg13))) (row128 (sB1K_0 (W0 m ρ c (Proc.devRef .tc main_arg14)))) (sW2K_0 (W0 m ρ c (Proc.devRef .tc main_arg15))) (row64 (sB2K_0 (W0 m ρ c (Proc.devRef .tc main_arg16))))
/-- The node features after layer 1. -/
def XL1 (c : Dev nD) :=
  layerK (gW1K_0 (W0 m ρ c (Proc.devRef .tc main_arg7))) (gB1K_0 (W0 m ρ c (Proc.devRef .tc main_arg8))) (gW2K_0 (W0 m ρ c (Proc.devRef .tc main_arg9))) (gB2K_0 (W0 m ρ c (Proc.devRef .tc main_arg10))) (bnGK_0 (W0 m ρ c (Proc.devRef .tc main_arg11))) (bnBK_0 (W0 m ρ c (Proc.devRef .tc main_arg12))) (sW1K_0 (W0 m ρ c (Proc.devRef .tc main_arg13))) (sB1K_0 (W0 m ρ c (Proc.devRef .tc main_arg14))) (sW2K_0 (W0 m ρ c (Proc.devRef .tc main_arg15))) (sB2K_0 (W0 m ρ c (Proc.devRef .tc main_arg16))) (bsGK_0 (W0 m ρ c (Proc.devRef .tc main_arg17))) (bsBK_0 (W0 m ρ c (Proc.devRef .tc main_arg18))) (EA m ρ c) (OEA m ρ c) (ES m ρ c) (ED m ρ c) (OS m ρ c) (OD m ρ c) (IDX m ρ c) (X0 m ρ c)
/-- Layer 2: the perceptron on the copy nodes. -/
def G1_1 (c : Dev nD) :=
  mlpN (ginSumNK (XL1 m ρ c) (EA m ρ c) (ES m ρ c) (ED m ρ c)) (gW1K_1 (W0 m ρ c (Proc.devRef .tc main_arg7))) (row128 (gB1K_1 (W0 m ρ c (Proc.devRef .tc main_arg8)))) (gW2K_1 (W0 m ρ c (Proc.devRef .tc main_arg9))) (row64 (gB2K_1 (W0 m ρ c (Proc.devRef .tc main_arg10))))
/-- Layer 2: the perceptron on the original nodes. -/
def G2_1 (c : Dev nD) :=
  mlpM (ginSumMK (segMeanNMK (XL1 m ρ c) (IDX m ρ c)) (OEA m ρ c) (OS m ρ c) (OD m ρ c)) (sW1K_1 (W0 m ρ c (Proc.devRef .tc main_arg13))) (row128 (sB1K_1 (W0 m ρ c (Proc.devRef .tc main_arg14)))) (sW2K_1 (W0 m ρ c (Proc.devRef .tc main_arg15))) (row64 (sB2K_1 (W0 m ρ c (Proc.devRef .tc main_arg16))))
/-- The node features after layer 2. -/
def XL2 (c : Dev nD) :=
  layerK (gW1K_1 (W0 m ρ c (Proc.devRef .tc main_arg7))) (gB1K_1 (W0 m ρ c (Proc.devRef .tc main_arg8))) (gW2K_1 (W0 m ρ c (Proc.devRef .tc main_arg9))) (gB2K_1 (W0 m ρ c (Proc.devRef .tc main_arg10))) (bnGK_1 (W0 m ρ c (Proc.devRef .tc main_arg11))) (bnBK_1 (W0 m ρ c (Proc.devRef .tc main_arg12))) (sW1K_1 (W0 m ρ c (Proc.devRef .tc main_arg13))) (sB1K_1 (W0 m ρ c (Proc.devRef .tc main_arg14))) (sW2K_1 (W0 m ρ c (Proc.devRef .tc main_arg15))) (sB2K_1 (W0 m ρ c (Proc.devRef .tc main_arg16))) (bsGK_1 (W0 m ρ c (Proc.devRef .tc main_arg17))) (bsBK_1 (W0 m ρ c (Proc.devRef .tc main_arg18))) (EA m ρ c) (OEA m ρ c) (ES m ρ c) (ED m ρ c) (OS m ρ c) (OD m ρ c) (IDX m ρ c) (XL1 m ρ c)
/-- Layer 3: the perceptron on the copy nodes. -/
def G1_2 (c : Dev nD) :=
  mlpN (ginSumNK (XL2 m ρ c) (EA m ρ c) (ES m ρ c) (ED m ρ c)) (gW1K_2 (W0 m ρ c (Proc.devRef .tc main_arg7))) (row128 (gB1K_2 (W0 m ρ c (Proc.devRef .tc main_arg8)))) (gW2K_2 (W0 m ρ c (Proc.devRef .tc main_arg9))) (row64 (gB2K_2 (W0 m ρ c (Proc.devRef .tc main_arg10))))
/-- Layer 3: the perceptron on the original nodes. -/
def G2_2 (c : Dev nD) :=
  mlpM (ginSumMK (segMeanNMK (XL2 m ρ c) (IDX m ρ c)) (OEA m ρ c) (OS m ρ c) (OD m ρ c)) (sW1K_2 (W0 m ρ c (Proc.devRef .tc main_arg13))) (row128 (sB1K_2 (W0 m ρ c (Proc.devRef .tc main_arg14)))) (sW2K_2 (W0 m ρ c (Proc.devRef .tc main_arg15))) (row64 (sB2K_2 (W0 m ρ c (Proc.devRef .tc main_arg16))))
/-- The node features after layer 3. -/
def XL3 (c : Dev nD) :=
  layerK (gW1K_2 (W0 m ρ c (Proc.devRef .tc main_arg7))) (gB1K_2 (W0 m ρ c (Proc.devRef .tc main_arg8))) (gW2K_2 (W0 m ρ c (Proc.devRef .tc main_arg9))) (gB2K_2 (W0 m ρ c (Proc.devRef .tc main_arg10))) (bnGK_2 (W0 m ρ c (Proc.devRef .tc main_arg11))) (bnBK_2 (W0 m ρ c (Proc.devRef .tc main_arg12))) (sW1K_2 (W0 m ρ c (Proc.devRef .tc main_arg13))) (sB1K_2 (W0 m ρ c (Proc.devRef .tc main_arg14))) (sW2K_2 (W0 m ρ c (Proc.devRef .tc main_arg15))) (sB2K_2 (W0 m ρ c (Proc.devRef .tc main_arg16))) (bsGK_2 (W0 m ρ c (Proc.devRef .tc main_arg17))) (bsBK_2 (W0 m ρ c (Proc.devRef .tc main_arg18))) (EA m ρ c) (OEA m ρ c) (ES m ρ c) (ED m ρ c) (OS m ρ c) (OD m ρ c) (IDX m ρ c) (XL2 m ρ c)

/-! A layer is the fused epilogue of its two perceptrons' outputs (`layerK` unfolded once). -/

theorem XL1_eq (c : Dev nD) : XL1 m ρ c = combine (G1_0 m ρ c) (row64 (scaleN (G1_0 m ρ c) (bnGK_0 (W0 m ρ c (Proc.devRef .tc main_arg11))))) (row64 (shiftN (G1_0 m ρ c) (bnGK_0 (W0 m ρ c (Proc.devRef .tc main_arg11))) (bnBK_0 (W0 m ρ c (Proc.devRef .tc main_arg12))))) (gatherBackK (affineM (G2_0 m ρ c) (scaleM (G2_0 m ρ c) (bsGK_0 (W0 m ρ c (Proc.devRef .tc main_arg17)))) (shiftM (G2_0 m ρ c) (bsGK_0 (W0 m ρ c (Proc.devRef .tc main_arg17))) (bsBK_0 (W0 m ρ c (Proc.devRef .tc main_arg18))))) (IDX m ρ c)) := rfl
theorem XL2_eq (c : Dev nD) : XL2 m ρ c = combine (G1_1 m ρ c) (row64 (scaleN (G1_1 m ρ c) (bnGK_1 (W0 m ρ c (Proc.devRef .tc main_arg11))))) (row64 (shiftN (G1_1 m ρ c) (bnGK_1 (W0 m ρ c (Proc.devRef .tc main_arg11))) (bnBK_1 (W0 m ρ c (Proc.devRef .tc main_arg12))))) (gatherBackK (affineM (G2_1 m ρ c) (scaleM (G2_1 m ρ c) (bsGK_1 (W0 m ρ c (Proc.devRef .tc main_arg17)))) (shiftM (G2_1 m ρ c) (bsGK_1 (W0 m ρ c (Proc.devRef .tc main_arg17))) (bsBK_1 (W0 m ρ c (Proc.devRef .tc main_arg18))))) (IDX m ρ c)) := rfl
theorem XL3_eq (c : Dev nD) : XL3 m ρ c = combine (G1_2 m ρ c) (row64 (scaleN (G1_2 m ρ c) (bnGK_2 (W0 m ρ c (Proc.devRef .tc main_arg11))))) (row64 (shiftN (G1_2 m ρ c) (bnGK_2 (W0 m ρ c (Proc.devRef .tc main_arg11))) (bnBK_2 (W0 m ρ c (Proc.devRef .tc main_arg12))))) (gatherBackK (affineM (G2_2 m ρ c) (scaleM (G2_2 m ρ c) (bsGK_2 (W0 m ρ c (Proc.devRef .tc main_arg17)))) (shiftM (G2_2 m ρ c) (bsGK_2 (W0 m ρ c (Proc.devRef .tc main_arg17))) (bsBK_2 (W0 m ρ c (Proc.devRef .tc main_arg18))))) (IDX m ρ c)) := rfl

/-! ## The walk -/

variable (H : Regs (F := F))
include H

theorem W1_v0 (c : Dev nD) : W1 m ρ c (Proc.devRef .tc main_v0) = row64 (W0 m ρ c (Proc.devRef .tc main_arg4)) :=
  host0_v0 (W0 m ρ c)

theorem W2_v1 (c : Dev nD) : W2 m ρ c (Proc.devRef .tc main_v1) = (X0 m ρ c) :=
  ((W2_arr m ρ c 3).trans (H.h0 (V1 m ρ) c)).trans
    (show encX (W1 m ρ c (Proc.devRef .tc main_arg0)) (W1 m ρ c (Proc.devRef .tc main_arg3)) (W1 m ρ c (Proc.devRef .tc main_v0)) = encX (W0 m ρ c (Proc.devRef .tc main_arg0)) (W0 m ρ c (Proc.devRef .tc main_arg3)) (row64 (W0 m ρ c (Proc.devRef .tc main_arg4))) by
      rw [(car_e03_1 m ρ c main_arg0 (by decide)),
        (car_e03_1 m ρ c main_arg3 (by decide)),
        (W1_v0 m ρ H c)])

theorem W3_v2 (c : Dev nD) : W3 m ρ c (Proc.devRef .tc main_v2) = row64 (W0 m ρ c (Proc.devRef .tc main_arg6)) :=
  (host2_v2 (W2 m ρ c)).trans
    (show row64 (W2 m ρ c (Proc.devRef .tc main_arg6)) = row64 (W0 m ρ c (Proc.devRef .tc main_arg6)) by
      rw [(car_e6_2 m ρ c main_arg6 (by decide))])

theorem W4_v3 (c : Dev nD) : W4 m ρ c (Proc.devRef .tc main_v3) = (EA m ρ c) :=
  ((W4_arr m ρ c 3).trans (H.h1 (V3 m ρ) c)).trans
    (show encE (W3 m ρ c (Proc.devRef .tc main_arg1)) (W3 m ρ c (Proc.devRef .tc main_arg5)) (W3 m ρ c (Proc.devRef .tc main_v2)) = encE (W0 m ρ c (Proc.devRef .tc main_arg1)) (W0 m ρ c (Proc.devRef .tc main_arg5)) (row64 (W0 m ρ c (Proc.devRef .tc main_arg6))) by
      rw [(car_e15_3 m ρ c main_arg1 (by decide)),
        (car_e15_3 m ρ c main_arg5 (by decide)),
        (W3_v2 m ρ H c)])

theorem W5_v4 (c : Dev nD) : W5 m ρ c (Proc.devRef .tc main_v4) = row64 (W0 m ρ c (Proc.devRef .tc main_arg6)) :=
  (host4_v4 (W4 m ρ c)).trans
    (show row64 (W4 m ρ c (Proc.devRef .tc main_arg6)) = row64 (W0 m ρ c (Proc.devRef .tc main_arg6)) by
      rw [(car_e6_4 m ρ c main_arg6 (by decide))])

theorem W6_v5 (c : Dev nD) : W6 m ρ c (Proc.devRef .tc main_v5) = (OEA m ρ c) :=
  ((W6_arr m ρ c 3).trans (H.h2 (V5 m ρ) c)).trans
    (show encO (W5 m ρ c (Proc.devRef .tc main_arg2)) (W5 m ρ c (Proc.devRef .tc main_arg5)) (W5 m ρ c (Proc.devRef .tc main_v4)) = encO (W0 m ρ c (Proc.devRef .tc main_arg2)) (W0 m ρ c (Proc.devRef .tc main_arg5)) (row64 (W0 m ρ c (Proc.devRef .tc main_arg6))) by
      rw [(car_e2_5 m ρ c main_arg2 (by decide)),
        ((W5_of m ρ c main_arg5 (by decide)).trans ((W4_arg5 m ρ c).trans (car_e15_3 m ρ c main_arg5 (by decide)))),
        (W5_v4 m ρ H c)])

theorem W11_v16 (c : Dev nD) : W11 m ρ c (Proc.devRef .tc main_v16) = (IDX m ρ c) :=
  (host6_v16 (W6 m ρ c)).trans
    (show nodeIdxK (W6 m ρ c (Proc.devRef .tc main_arg27)) (W6 m ρ c (Proc.devRef .tc main_arg25)) (W6 m ρ c (Proc.devRef .tc main_arg26)) = nodeIdxK (W0 m ρ c (Proc.devRef .tc main_arg27)) (W0 m ρ c (Proc.devRef .tc main_arg25)) (W0 m ρ c (Proc.devRef .tc main_arg26)) by
      rw [(car_args_6 m ρ c main_arg27 (by decide)),
        (car_args_6 m ρ c main_arg25 (by decide)),
        (car_args_6 m ρ c main_arg26 (by decide))])

theorem W11_v18 (c : Dev nD) : W11 m ρ c (Proc.devRef .tc main_v18) = (ES m ρ c) :=
  (host6_v18 (W6 m ρ c)).trans
    (show eSrcK (W6 m ρ c (Proc.devRef .tc main_arg23)) = eSrcK (W0 m ρ c (Proc.devRef .tc main_arg23)) by
      rw [(car_args_6 m ρ c main_arg23 (by decide))])

theorem W11_v20 (c : Dev nD) : W11 m ρ c (Proc.devRef .tc main_v20) = (ED m ρ c) :=
  (host6_v20 (W6 m ρ c)).trans
    (show eDstK (W6 m ρ c (Proc.devRef .tc main_arg23)) = eDstK (W0 m ρ c (Proc.devRef .tc main_arg23)) by
      rw [(car_args_6 m ρ c main_arg23 (by decide))])

theorem W11_v22 (c : Dev nD) : W11 m ρ c (Proc.devRef .tc main_v22) = (OS m ρ c) :=
  (host6_v22 (W6 m ρ c)).trans
    (show oSrcK (W6 m ρ c (Proc.devRef .tc main_arg24)) = oSrcK (W0 m ρ c (Proc.devRef .tc main_arg24)) by
      rw [(car_args_6 m ρ c main_arg24 (by decide))])

theorem W11_v24 (c : Dev nD) : W11 m ρ c (Proc.devRef .tc main_v24) = (OD m ρ c) :=
  (host6_v24 (W6 m ρ c)).trans
    (show oDstK (W6 m ρ c (Proc.devRef .tc main_arg24)) = oDstK (W0 m ρ c (Proc.devRef .tc main_arg24)) by
      rw [(car_args_6 m ρ c main_arg24 (by decide))])

theorem W11_v37 (c : Dev nD) : W11 m ρ c (Proc.devRef .tc main_v37) = ginSumNK (X0 m ρ c) (EA m ρ c) (ES m ρ c) (ED m ρ c) :=
  (host6_v37 (W6 m ρ c)).trans
    (show ginSumNK (W6 m ρ c (Proc.devRef .tc main_v1)) (W6 m ρ c (Proc.devRef .tc main_v3)) (eSrcK (W6 m ρ c (Proc.devRef .tc main_arg23))) (eDstK (W6 m ρ c (Proc.devRef .tc main_arg23))) = ginSumNK (X0 m ρ c) (EA m ρ c) (eSrcK (W0 m ρ c (Proc.devRef .tc main_arg23))) (eDstK (W0 m ρ c (Proc.devRef .tc main_arg23))) by
      rw [((car_v1_6 m ρ c main_v1 (by decide)).trans (W2_v1 m ρ H c)),
        ((car_v3_6 m ρ c main_v3 (by decide)).trans (W4_v3 m ρ H c)),
        (car_args_6 m ρ c main_arg23 (by decide))])

theorem W11_v39 (c : Dev nD) : W11 m ρ c (Proc.devRef .tc main_v39) = gW1K_0 (W0 m ρ c (Proc.devRef .tc main_arg7)) :=
  (host6_v39 (W6 m ρ c)).trans
    (show gW1K_0 (W6 m ρ c (Proc.devRef .tc main_arg7)) = gW1K_0 (W0 m ρ c (Proc.devRef .tc main_arg7)) by
      rw [(car_args_6 m ρ c main_arg7 (by decide))])

theorem W11_v46 (c : Dev nD) : W11 m ρ c (Proc.devRef .tc main_v46) = row128 (gB1K_0 (W0 m ρ c (Proc.devRef .tc main_arg8))) :=
  (host6_v46 (W6 m ρ c)).trans
    (show row128 (gB1K_0 (W6 m ρ c (Proc.devRef .tc main_arg8))) = row128 (gB1K_0 (W0 m ρ c (Proc.devRef .tc main_arg8))) by
      rw [(car_args_6 m ρ c main_arg8 (by decide))])

theorem W11_v43 (c : Dev nD) : W11 m ρ c (Proc.devRef .tc main_v43) = gW2K_0 (W0 m ρ c (Proc.devRef .tc main_arg9)) :=
  (host6_v43 (W6 m ρ c)).trans
    (show gW2K_0 (W6 m ρ c (Proc.devRef .tc main_arg9)) = gW2K_0 (W0 m ρ c (Proc.devRef .tc main_arg9)) by
      rw [(car_args_6 m ρ c main_arg9 (by decide))])

theorem W11_v47 (c : Dev nD) : W11 m ρ c (Proc.devRef .tc main_v47) = row64 (gB2K_0 (W0 m ρ c (Proc.devRef .tc main_arg10))) :=
  (host6_v47 (W6 m ρ c)).trans
    (show row64 (gB2K_0 (W6 m ρ c (Proc.devRef .tc main_arg10))) = row64 (gB2K_0 (W0 m ρ c (Proc.devRef .tc main_arg10))) by
      rw [(car_args_6 m ρ c main_arg10 (by decide))])

theorem W12_v48 (c : Dev nD) : W12 m ρ c (Proc.devRef .tc main_v48) = (G1_0 m ρ c) :=
  ((W12_arr m ρ c 5).trans (H.h3 (V11 m ρ) c)).trans
    (show mlpN (W11 m ρ c (Proc.devRef .tc main_v37)) (W11 m ρ c (Proc.devRef .tc main_v39)) (W11 m ρ c (Proc.devRef .tc main_v46)) (W11 m ρ c (Proc.devRef .tc main_v43)) (W11 m ρ c (Proc.devRef .tc main_v47)) = mlpN (ginSumNK (X0 m ρ c) (EA m ρ c) (ES m ρ c) (ED m ρ c)) (gW1K_0 (W0 m ρ c (Proc.devRef .tc main_arg7))) (row128 (gB1K_0 (W0 m ρ c (Proc.devRef .tc main_arg8)))) (gW2K_0 (W0 m ρ c (Proc.devRef .tc main_arg9))) (row64 (gB2K_0 (W0 m ρ c (Proc.devRef .tc main_arg10)))) by
      rw [(W11_v37 m ρ H c),
        (W11_v39 m ρ H c),
        (W11_v46 m ρ H c),
        (W11_v43 m ρ H c),
        (W11_v47 m ρ H c)])

theorem W17_v60 (c : Dev nD) : W17 m ρ c (Proc.devRef .tc main_v60) = scaleN (G1_0 m ρ c) (bnGK_0 (W0 m ρ c (Proc.devRef .tc main_arg11))) :=
  (host12_v60 (W12 m ρ c)).trans
    (show scaleN (W12 m ρ c (Proc.devRef .tc main_v48)) (bnGK_0 (W12 m ρ c (Proc.devRef .tc main_arg11))) = scaleN (G1_0 m ρ c) (bnGK_0 (W0 m ρ c (Proc.devRef .tc main_arg11))) by
      rw [(W12_v48 m ρ H c),
        (car_args_12 m ρ c main_arg11 (by decide))])

theorem W17_v62 (c : Dev nD) : W17 m ρ c (Proc.devRef .tc main_v62) = shiftN (G1_0 m ρ c) (bnGK_0 (W0 m ρ c (Proc.devRef .tc main_arg11))) (bnBK_0 (W0 m ρ c (Proc.devRef .tc main_arg12))) :=
  (host12_v62 (W12 m ρ c)).trans
    (show shiftN (W12 m ρ c (Proc.devRef .tc main_v48)) (bnGK_0 (W12 m ρ c (Proc.devRef .tc main_arg11))) (bnBK_0 (W12 m ρ c (Proc.devRef .tc main_arg12))) = shiftN (G1_0 m ρ c) (bnGK_0 (W0 m ρ c (Proc.devRef .tc main_arg11))) (bnBK_0 (W0 m ρ c (Proc.devRef .tc main_arg12))) by
      rw [(W12_v48 m ρ H c),
        (car_args_12 m ρ c main_arg11 (by decide)),
        (car_args_12 m ρ c main_arg12 (by decide))])

theorem W17_v87 (c : Dev nD) : W17 m ρ c (Proc.devRef .tc main_v87) = ginSumMK (segMeanNMK (X0 m ρ c) (IDX m ρ c)) (OEA m ρ c) (OS m ρ c) (OD m ρ c) :=
  (host12_v87 (W12 m ρ c)).trans
    (show ginSumMK (segMeanNMK (W12 m ρ c (Proc.devRef .tc main_v1)) (W12 m ρ c (Proc.devRef .tc main_v16))) (W12 m ρ c (Proc.devRef .tc main_v5)) (W12 m ρ c (Proc.devRef .tc main_v22)) (W12 m ρ c (Proc.devRef .tc main_v24)) = ginSumMK (segMeanNMK (X0 m ρ c) (IDX m ρ c)) (OEA m ρ c) (OS m ρ c) (OD m ρ c) by
      rw [((car_v1_12 m ρ c main_v1 (by decide)).trans (W2_v1 m ρ H c)),
        ((car_ix_12 m ρ c main_v16 (by decide)).trans (W11_v16 m ρ H c)),
        ((car_v5_12 m ρ c main_v5 (by decide)).trans (W6_v5 m ρ H c)),
        ((car_ix_12 m ρ c main_v22 (by decide)).trans (W11_v22 m ρ H c)),
        ((car_ix_12 m ρ c main_v24 (by decide)).trans (W11_v24 m ρ H c))])

theorem W17_v89 (c : Dev nD) : W17 m ρ c (Proc.devRef .tc main_v89) = sW1K_0 (W0 m ρ c (Proc.devRef .tc main_arg13)) :=
  (host12_v89 (W12 m ρ c)).trans
    (show sW1K_0 (W12 m ρ c (Proc.devRef .tc main_arg13)) = sW1K_0 (W0 m ρ c (Proc.devRef .tc main_arg13)) by
      rw [(car_args_12 m ρ c main_arg13 (by decide))])

theorem W17_v96 (c : Dev nD) : W17 m ρ c (Proc.devRef .tc main_v96) = row128 (sB1K_0 (W0 m ρ c (Proc.devRef .tc main_arg14))) :=
  (host12_v96 (W12 m ρ c)).trans
    (show row128 (sB1K_0 (W12 m ρ c (Proc.devRef .tc main_arg14))) = row128 (sB1K_0 (W0 m ρ c (Proc.devRef .tc main_arg14))) by
      rw [(car_args_12 m ρ c main_arg14 (by decide))])

theorem W17_v93 (c : Dev nD) : W17 m ρ c (Proc.devRef .tc main_v93) = sW2K_0 (W0 m ρ c (Proc.devRef .tc main_arg15)) :=
  (host12_v93 (W12 m ρ c)).trans
    (show sW2K_0 (W12 m ρ c (Proc.devRef .tc main_arg15)) = sW2K_0 (W0 m ρ c (Proc.devRef .tc main_arg15)) by
      rw [(car_args_12 m ρ c main_arg15 (by decide))])

theorem W17_v97 (c : Dev nD) : W17 m ρ c (Proc.devRef .tc main_v97) = row64 (sB2K_0 (W0 m ρ c (Proc.devRef .tc main_arg16))) :=
  (host12_v97 (W12 m ρ c)).trans
    (show row64 (sB2K_0 (W12 m ρ c (Proc.devRef .tc main_arg16))) = row64 (sB2K_0 (W0 m ρ c (Proc.devRef .tc main_arg16))) by
      rw [(car_args_12 m ρ c main_arg16 (by decide))])

theorem W18_v98 (c : Dev nD) : W18 m ρ c (Proc.devRef .tc main_v98) = (G2_0 m ρ c) :=
  ((W18_arr m ρ c 5).trans (H.h4 (V17 m ρ) c)).trans
    (show mlpM (W17 m ρ c (Proc.devRef .tc main_v87)) (W17 m ρ c (Proc.devRef .tc main_v89)) (W17 m ρ c (Proc.devRef .tc main_v96)) (W17 m ρ c (Proc.devRef .tc main_v93)) (W17 m ρ c (Proc.devRef .tc main_v97)) = mlpM (ginSumMK (segMeanNMK (X0 m ρ c) (IDX m ρ c)) (OEA m ρ c) (OS m ρ c) (OD m ρ c)) (sW1K_0 (W0 m ρ c (Proc.devRef .tc main_arg13))) (row128 (sB1K_0 (W0 m ρ c (Proc.devRef .tc main_arg14)))) (sW2K_0 (W0 m ρ c (Proc.devRef .tc main_arg15))) (row64 (sB2K_0 (W0 m ρ c (Proc.devRef .tc main_arg16)))) by
      rw [(W17_v87 m ρ H c),
        (W17_v89 m ρ H c),
        (W17_v96 m ρ H c),
        (W17_v93 m ρ H c),
        (W17_v97 m ρ H c)])

theorem W21_v125 (c : Dev nD) : W21 m ρ c (Proc.devRef .tc main_v125) = gatherBackK (affineM (G2_0 m ρ c) (scaleM (G2_0 m ρ c) (bsGK_0 (W0 m ρ c (Proc.devRef .tc main_arg17)))) (shiftM (G2_0 m ρ c) (bsGK_0 (W0 m ρ c (Proc.devRef .tc main_arg17))) (bsBK_0 (W0 m ρ c (Proc.devRef .tc main_arg18))))) (IDX m ρ c) :=
  (host18_v125 (W18 m ρ c)).trans
    (show gatherBackK (affineM (W18 m ρ c (Proc.devRef .tc main_v98)) (scaleM (W18 m ρ c (Proc.devRef .tc main_v98)) (bsGK_0 (W18 m ρ c (Proc.devRef .tc main_arg17)))) (shiftM (W18 m ρ c (Proc.devRef .tc main_v98)) (bsGK_0 (W18 m ρ c (Proc.devRef .tc main_arg17))) (bsBK_0 (W18 m ρ c (Proc.devRef .tc main_arg18))))) (W18 m ρ c (Proc.devRef .tc main_v16)) = gatherBackK (affineM (G2_0 m ρ c) (scaleM (G2_0 m ρ c) (bsGK_0 (W0 m ρ c (Proc.devRef .tc main_arg17)))) (shiftM (G2_0 m ρ c) (bsGK_0 (W0 m ρ c (Proc.devRef .tc main_arg17))) (bsBK_0 (W0 m ρ c (Proc.devRef .tc main_arg18))))) (IDX m ρ c) by
      rw [(W18_v98 m ρ H c),
        (car_args_18 m ρ c main_arg17 (by decide)),
        (car_args_18 m ρ c main_arg18 (by decide)),
        ((car_ix_18 m ρ c main_v16 (by decide)).trans (W11_v16 m ρ H c))])

theorem W21_v126 (c : Dev nD) : W21 m ρ c (Proc.devRef .tc main_v126) = row64 (scaleN (G1_0 m ρ c) (bnGK_0 (W0 m ρ c (Proc.devRef .tc main_arg11)))) :=
  (host18_v126 (W18 m ρ c)).trans
    (show row64 (W18 m ρ c (Proc.devRef .tc main_v60)) = row64 (scaleN (G1_0 m ρ c) (bnGK_0 (W0 m ρ c (Proc.devRef .tc main_arg11)))) by
      rw [((car_ssa_18 m ρ c main_v60 (by decide)).trans (W17_v60 m ρ H c))])

theorem W21_v127 (c : Dev nD) : W21 m ρ c (Proc.devRef .tc main_v127) = row64 (shiftN (G1_0 m ρ c) (bnGK_0 (W0 m ρ c (Proc.devRef .tc main_arg11))) (bnBK_0 (W0 m ρ c (Proc.devRef .tc main_arg12)))) :=
  (host18_v127 (W18 m ρ c)).trans
    (show row64 (W18 m ρ c (Proc.devRef .tc main_v62)) = row64 (shiftN (G1_0 m ρ c) (bnGK_0 (W0 m ρ c (Proc.devRef .tc main_arg11))) (bnBK_0 (W0 m ρ c (Proc.devRef .tc main_arg12)))) by
      rw [((car_ssa_18 m ρ c main_v62 (by decide)).trans (W17_v62 m ρ H c))])

theorem W22_v128 (c : Dev nD) : W22 m ρ c (Proc.devRef .tc main_v128) = (XL1 m ρ c) :=
  (((W22_arr m ρ c 4).trans (H.h5 (V21 m ρ) c)).trans
    (show combine (W21 m ρ c (Proc.devRef .tc main_v48)) (W21 m ρ c (Proc.devRef .tc main_v126)) (W21 m ρ c (Proc.devRef .tc main_v127)) (W21 m ρ c (Proc.devRef .tc main_v125)) = combine (G1_0 m ρ c) (row64 (scaleN (G1_0 m ρ c) (bnGK_0 (W0 m ρ c (Proc.devRef .tc main_arg11))))) (row64 (shiftN (G1_0 m ρ c) (bnGK_0 (W0 m ρ c (Proc.devRef .tc main_arg11))) (bnBK_0 (W0 m ρ c (Proc.devRef .tc main_arg12))))) (gatherBackK (affineM (G2_0 m ρ c) (scaleM (G2_0 m ρ c) (bsGK_0 (W0 m ρ c (Proc.devRef .tc main_arg17)))) (shiftM (G2_0 m ρ c) (bsGK_0 (W0 m ρ c (Proc.devRef .tc main_arg17))) (bsBK_0 (W0 m ρ c (Proc.devRef .tc main_arg18))))) (IDX m ρ c)) by
      rw [((car_g1a_21 m ρ c main_v48 (by decide)).trans (W12_v48 m ρ H c)),
        (W21_v126 m ρ H c),
        (W21_v127 m ρ H c),
        (W21_v125 m ρ H c)])).trans (XL1_eq m ρ c).symm

theorem W25_v141 (c : Dev nD) : W25 m ρ c (Proc.devRef .tc main_v141) = ginSumNK (XL1 m ρ c) (EA m ρ c) (ES m ρ c) (ED m ρ c) :=
  (host22_v141 (W22 m ρ c)).trans
    (show ginSumNK (W22 m ρ c (Proc.devRef .tc main_v128)) (W22 m ρ c (Proc.devRef .tc main_v3)) (W22 m ρ c (Proc.devRef .tc main_v18)) (W22 m ρ c (Proc.devRef .tc main_v20)) = ginSumNK (XL1 m ρ c) (EA m ρ c) (ES m ρ c) (ED m ρ c) by
      rw [(W22_v128 m ρ H c),
        ((car_v3_22 m ρ c main_v3 (by decide)).trans (W4_v3 m ρ H c)),
        ((car_ix_22 m ρ c main_v18 (by decide)).trans (W11_v18 m ρ H c)),
        ((car_ix_22 m ρ c main_v20 (by decide)).trans (W11_v20 m ρ H c))])

theorem W25_v143 (c : Dev nD) : W25 m ρ c (Proc.devRef .tc main_v143) = gW1K_1 (W0 m ρ c (Proc.devRef .tc main_arg7)) :=
  (host22_v143 (W22 m ρ c)).trans
    (show gW1K_1 (W22 m ρ c (Proc.devRef .tc main_arg7)) = gW1K_1 (W0 m ρ c (Proc.devRef .tc main_arg7)) by
      rw [(car_args_22 m ρ c main_arg7 (by decide))])

theorem W25_v150 (c : Dev nD) : W25 m ρ c (Proc.devRef .tc main_v150) = row128 (gB1K_1 (W0 m ρ c (Proc.devRef .tc main_arg8))) :=
  (host22_v150 (W22 m ρ c)).trans
    (show row128 (gB1K_1 (W22 m ρ c (Proc.devRef .tc main_arg8))) = row128 (gB1K_1 (W0 m ρ c (Proc.devRef .tc main_arg8))) by
      rw [(car_args_22 m ρ c main_arg8 (by decide))])

theorem W25_v147 (c : Dev nD) : W25 m ρ c (Proc.devRef .tc main_v147) = gW2K_1 (W0 m ρ c (Proc.devRef .tc main_arg9)) :=
  (host22_v147 (W22 m ρ c)).trans
    (show gW2K_1 (W22 m ρ c (Proc.devRef .tc main_arg9)) = gW2K_1 (W0 m ρ c (Proc.devRef .tc main_arg9)) by
      rw [(car_args_22 m ρ c main_arg9 (by decide))])

theorem W25_v151 (c : Dev nD) : W25 m ρ c (Proc.devRef .tc main_v151) = row64 (gB2K_1 (W0 m ρ c (Proc.devRef .tc main_arg10))) :=
  (host22_v151 (W22 m ρ c)).trans
    (show row64 (gB2K_1 (W22 m ρ c (Proc.devRef .tc main_arg10))) = row64 (gB2K_1 (W0 m ρ c (Proc.devRef .tc main_arg10))) by
      rw [(car_args_22 m ρ c main_arg10 (by decide))])

theorem W26_v152 (c : Dev nD) : W26 m ρ c (Proc.devRef .tc main_v152) = (G1_1 m ρ c) :=
  ((W26_arr m ρ c 5).trans (H.h6 (V25 m ρ) c)).trans
    (show mlpN (W25 m ρ c (Proc.devRef .tc main_v141)) (W25 m ρ c (Proc.devRef .tc main_v143)) (W25 m ρ c (Proc.devRef .tc main_v150)) (W25 m ρ c (Proc.devRef .tc main_v147)) (W25 m ρ c (Proc.devRef .tc main_v151)) = mlpN (ginSumNK (XL1 m ρ c) (EA m ρ c) (ES m ρ c) (ED m ρ c)) (gW1K_1 (W0 m ρ c (Proc.devRef .tc main_arg7))) (row128 (gB1K_1 (W0 m ρ c (Proc.devRef .tc main_arg8)))) (gW2K_1 (W0 m ρ c (Proc.devRef .tc main_arg9))) (row64 (gB2K_1 (W0 m ρ c (Proc.devRef .tc main_arg10)))) by
      rw [(W25_v141 m ρ H c),
        (W25_v143 m ρ H c),
        (W25_v150 m ρ H c),
        (W25_v147 m ρ H c),
        (W25_v151 m ρ H c)])

theorem W31_v164 (c : Dev nD) : W31 m ρ c (Proc.devRef .tc main_v164) = scaleN (G1_1 m ρ c) (bnGK_1 (W0 m ρ c (Proc.devRef .tc main_arg11))) :=
  (host26_v164 (W26 m ρ c)).trans
    (show scaleN (W26 m ρ c (Proc.devRef .tc main_v152)) (bnGK_1 (W26 m ρ c (Proc.devRef .tc main_arg11))) = scaleN (G1_1 m ρ c) (bnGK_1 (W0 m ρ c (Proc.devRef .tc main_arg11))) by
      rw [(W26_v152 m ρ H c),
        (car_args_26 m ρ c main_arg11 (by decide))])

theorem W31_v166 (c : Dev nD) : W31 m ρ c (Proc.devRef .tc main_v166) = shiftN (G1_1 m ρ c) (bnGK_1 (W0 m ρ c (Proc.devRef .tc main_arg11))) (bnBK_1 (W0 m ρ c (Proc.devRef .tc main_arg12))) :=
  (host26_v166 (W26 m ρ c)).trans
    (show shiftN (W26 m ρ c (Proc.devRef .tc main_v152)) (bnGK_1 (W26 m ρ c (Proc.devRef .tc main_arg11))) (bnBK_1 (W26 m ρ c (Proc.devRef .tc main_arg12))) = shiftN (G1_1 m ρ c) (bnGK_1 (W0 m ρ c (Proc.devRef .tc main_arg11))) (bnBK_1 (W0 m ρ c (Proc.devRef .tc main_arg12))) by
      rw [(W26_v152 m ρ H c),
        (car_args_26 m ρ c main_arg11 (by decide)),
        (car_args_26 m ρ c main_arg12 (by decide))])

theorem W31_v191 (c : Dev nD) : W31 m ρ c (Proc.devRef .tc main_v191) = ginSumMK (segMeanNMK (XL1 m ρ c) (IDX m ρ c)) (OEA m ρ c) (OS m ρ c) (OD m ρ c) :=
  (host26_v191 (W26 m ρ c)).trans
    (show ginSumMK (segMeanNMK (W26 m ρ c (Proc.devRef .tc main_v128)) (W26 m ρ c (Proc.devRef .tc main_v16))) (W26 m ρ c (Proc.devRef .tc main_v5)) (W26 m ρ c (Proc.devRef .tc main_v22)) (W26 m ρ c (Proc.devRef .tc main_v24)) = ginSumMK (segMeanNMK (XL1 m ρ c) (IDX m ρ c)) (OEA m ρ c) (OS m ρ c) (OD m ρ c) by
      rw [((car_xa_26 m ρ c main_v128 (by decide)).trans (W22_v128 m ρ H c)),
        ((car_ix_26 m ρ c main_v16 (by decide)).trans (W11_v16 m ρ H c)),
        ((car_v5_26 m ρ c main_v5 (by decide)).trans (W6_v5 m ρ H c)),
        ((car_ix_26 m ρ c main_v22 (by decide)).trans (W11_v22 m ρ H c)),
        ((car_ix_26 m ρ c main_v24 (by decide)).trans (W11_v24 m ρ H c))])

theorem W31_v193 (c : Dev nD) : W31 m ρ c (Proc.devRef .tc main_v193) = sW1K_1 (W0 m ρ c (Proc.devRef .tc main_arg13)) :=
  (host26_v193 (W26 m ρ c)).trans
    (show sW1K_1 (W26 m ρ c (Proc.devRef .tc main_arg13)) = sW1K_1 (W0 m ρ c (Proc.devRef .tc main_arg13)) by
      rw [(car_args_26 m ρ c main_arg13 (by decide))])

theorem W31_v200 (c : Dev nD) : W31 m ρ c (Proc.devRef .tc main_v200) = row128 (sB1K_1 (W0 m ρ c (Proc.devRef .tc main_arg14))) :=
  (host26_v200 (W26 m ρ c)).trans
    (show row128 (sB1K_1 (W26 m ρ c (Proc.devRef .tc main_arg14))) = row128 (sB1K_1 (W0 m ρ c (Proc.devRef .tc main_arg14))) by
      rw [(car_args_26 m ρ c main_arg14 (by decide))])

theorem W31_v197 (c : Dev nD) : W31 m ρ c (Proc.devRef .tc main_v197) = sW2K_1 (W0 m ρ c (Proc.devRef .tc main_arg15)) :=
  (host26_v197 (W26 m ρ c)).trans
    (show sW2K_1 (W26 m ρ c (Proc.devRef .tc main_arg15)) = sW2K_1 (W0 m ρ c (Proc.devRef .tc main_arg15)) by
      rw [(car_args_26 m ρ c main_arg15 (by decide))])

theorem W31_v201 (c : Dev nD) : W31 m ρ c (Proc.devRef .tc main_v201) = row64 (sB2K_1 (W0 m ρ c (Proc.devRef .tc main_arg16))) :=
  (host26_v201 (W26 m ρ c)).trans
    (show row64 (sB2K_1 (W26 m ρ c (Proc.devRef .tc main_arg16))) = row64 (sB2K_1 (W0 m ρ c (Proc.devRef .tc main_arg16))) by
      rw [(car_args_26 m ρ c main_arg16 (by decide))])

theorem W32_v202 (c : Dev nD) : W32 m ρ c (Proc.devRef .tc main_v202) = (G2_1 m ρ c) :=
  ((W32_arr m ρ c 5).trans (H.h7 (V31 m ρ) c)).trans
    (show mlpM (W31 m ρ c (Proc.devRef .tc main_v191)) (W31 m ρ c (Proc.devRef .tc main_v193)) (W31 m ρ c (Proc.devRef .tc main_v200)) (W31 m ρ c (Proc.devRef .tc main_v197)) (W31 m ρ c (Proc.devRef .tc main_v201)) = mlpM (ginSumMK (segMeanNMK (XL1 m ρ c) (IDX m ρ c)) (OEA m ρ c) (OS m ρ c) (OD m ρ c)) (sW1K_1 (W0 m ρ c (Proc.devRef .tc main_arg13))) (row128 (sB1K_1 (W0 m ρ c (Proc.devRef .tc main_arg14)))) (sW2K_1 (W0 m ρ c (Proc.devRef .tc main_arg15))) (row64 (sB2K_1 (W0 m ρ c (Proc.devRef .tc main_arg16)))) by
      rw [(W31_v191 m ρ H c),
        (W31_v193 m ρ H c),
        (W31_v200 m ρ H c),
        (W31_v197 m ρ H c),
        (W31_v201 m ρ H c)])

theorem W35_v229 (c : Dev nD) : W35 m ρ c (Proc.devRef .tc main_v229) = gatherBackK (affineM (G2_1 m ρ c) (scaleM (G2_1 m ρ c) (bsGK_1 (W0 m ρ c (Proc.devRef .tc main_arg17)))) (shiftM (G2_1 m ρ c) (bsGK_1 (W0 m ρ c (Proc.devRef .tc main_arg17))) (bsBK_1 (W0 m ρ c (Proc.devRef .tc main_arg18))))) (IDX m ρ c) :=
  (host32_v229 (W32 m ρ c)).trans
    (show gatherBackK (affineM (W32 m ρ c (Proc.devRef .tc main_v202)) (scaleM (W32 m ρ c (Proc.devRef .tc main_v202)) (bsGK_1 (W32 m ρ c (Proc.devRef .tc main_arg17)))) (shiftM (W32 m ρ c (Proc.devRef .tc main_v202)) (bsGK_1 (W32 m ρ c (Proc.devRef .tc main_arg17))) (bsBK_1 (W32 m ρ c (Proc.devRef .tc main_arg18))))) (W32 m ρ c (Proc.devRef .tc main_v16)) = gatherBackK (affineM (G2_1 m ρ c) (scaleM (G2_1 m ρ c) (bsGK_1 (W0 m ρ c (Proc.devRef .tc main_arg17)))) (shiftM (G2_1 m ρ c) (bsGK_1 (W0 m ρ c (Proc.devRef .tc main_arg17))) (bsBK_1 (W0 m ρ c (Proc.devRef .tc main_arg18))))) (IDX m ρ c) by
      rw [(W32_v202 m ρ H c),
        (car_args_32 m ρ c main_arg17 (by decide)),
        (car_args_32 m ρ c main_arg18 (by decide)),
        ((car_ix_32 m ρ c main_v16 (by decide)).trans (W11_v16 m ρ H c))])

theorem W35_v230 (c : Dev nD) : W35 m ρ c (Proc.devRef .tc main_v230) = row64 (scaleN (G1_1 m ρ c) (bnGK_1 (W0 m ρ c (Proc.devRef .tc main_arg11)))) :=
  (host32_v230 (W32 m ρ c)).trans
    (show row64 (W32 m ρ c (Proc.devRef .tc main_v164)) = row64 (scaleN (G1_1 m ρ c) (bnGK_1 (W0 m ρ c (Proc.devRef .tc main_arg11)))) by
      rw [((car_ssb_32 m ρ c main_v164 (by decide)).trans (W31_v164 m ρ H c))])

theorem W35_v231 (c : Dev nD) : W35 m ρ c (Proc.devRef .tc main_v231) = row64 (shiftN (G1_1 m ρ c) (bnGK_1 (W0 m ρ c (Proc.devRef .tc main_arg11))) (bnBK_1 (W0 m ρ c (Proc.devRef .tc main_arg12)))) :=
  (host32_v231 (W32 m ρ c)).trans
    (show row64 (W32 m ρ c (Proc.devRef .tc main_v166)) = row64 (shiftN (G1_1 m ρ c) (bnGK_1 (W0 m ρ c (Proc.devRef .tc main_arg11))) (bnBK_1 (W0 m ρ c (Proc.devRef .tc main_arg12)))) by
      rw [((car_ssb_32 m ρ c main_v166 (by decide)).trans (W31_v166 m ρ H c))])

theorem W36_v232 (c : Dev nD) : W36 m ρ c (Proc.devRef .tc main_v232) = (XL2 m ρ c) :=
  (((W36_arr m ρ c 4).trans (H.h8 (V35 m ρ) c)).trans
    (show combine (W35 m ρ c (Proc.devRef .tc main_v152)) (W35 m ρ c (Proc.devRef .tc main_v230)) (W35 m ρ c (Proc.devRef .tc main_v231)) (W35 m ρ c (Proc.devRef .tc main_v229)) = combine (G1_1 m ρ c) (row64 (scaleN (G1_1 m ρ c) (bnGK_1 (W0 m ρ c (Proc.devRef .tc main_arg11))))) (row64 (shiftN (G1_1 m ρ c) (bnGK_1 (W0 m ρ c (Proc.devRef .tc main_arg11))) (bnBK_1 (W0 m ρ c (Proc.devRef .tc main_arg12))))) (gatherBackK (affineM (G2_1 m ρ c) (scaleM (G2_1 m ρ c) (bsGK_1 (W0 m ρ c (Proc.devRef .tc main_arg17)))) (shiftM (G2_1 m ρ c) (bsGK_1 (W0 m ρ c (Proc.devRef .tc main_arg17))) (bsBK_1 (W0 m ρ c (Proc.devRef .tc main_arg18))))) (IDX m ρ c)) by
      rw [((car_g1b_35 m ρ c main_v152 (by decide)).trans (W26_v152 m ρ H c)),
        (W35_v230 m ρ H c),
        (W35_v231 m ρ H c),
        (W35_v229 m ρ H c)])).trans (XL2_eq m ρ c).symm

theorem W39_v245 (c : Dev nD) : W39 m ρ c (Proc.devRef .tc main_v245) = ginSumNK (XL2 m ρ c) (EA m ρ c) (ES m ρ c) (ED m ρ c) :=
  (host36_v245 (W36 m ρ c)).trans
    (show ginSumNK (W36 m ρ c (Proc.devRef .tc main_v232)) (W36 m ρ c (Proc.devRef .tc main_v3)) (W36 m ρ c (Proc.devRef .tc main_v18)) (W36 m ρ c (Proc.devRef .tc main_v20)) = ginSumNK (XL2 m ρ c) (EA m ρ c) (ES m ρ c) (ED m ρ c) by
      rw [(W36_v232 m ρ H c),
        ((car_v3_36 m ρ c main_v3 (by decide)).trans (W4_v3 m ρ H c)),
        ((car_ix_36 m ρ c main_v18 (by decide)).trans (W11_v18 m ρ H c)),
        ((car_ix_36 m ρ c main_v20 (by decide)).trans (W11_v20 m ρ H c))])

theorem W39_v247 (c : Dev nD) : W39 m ρ c (Proc.devRef .tc main_v247) = gW1K_2 (W0 m ρ c (Proc.devRef .tc main_arg7)) :=
  (host36_v247 (W36 m ρ c)).trans
    (show gW1K_2 (W36 m ρ c (Proc.devRef .tc main_arg7)) = gW1K_2 (W0 m ρ c (Proc.devRef .tc main_arg7)) by
      rw [(car_args_36 m ρ c main_arg7 (by decide))])

theorem W39_v254 (c : Dev nD) : W39 m ρ c (Proc.devRef .tc main_v254) = row128 (gB1K_2 (W0 m ρ c (Proc.devRef .tc main_arg8))) :=
  (host36_v254 (W36 m ρ c)).trans
    (show row128 (gB1K_2 (W36 m ρ c (Proc.devRef .tc main_arg8))) = row128 (gB1K_2 (W0 m ρ c (Proc.devRef .tc main_arg8))) by
      rw [(car_args_36 m ρ c main_arg8 (by decide))])

theorem W39_v251 (c : Dev nD) : W39 m ρ c (Proc.devRef .tc main_v251) = gW2K_2 (W0 m ρ c (Proc.devRef .tc main_arg9)) :=
  (host36_v251 (W36 m ρ c)).trans
    (show gW2K_2 (W36 m ρ c (Proc.devRef .tc main_arg9)) = gW2K_2 (W0 m ρ c (Proc.devRef .tc main_arg9)) by
      rw [(car_args_36 m ρ c main_arg9 (by decide))])

theorem W39_v255 (c : Dev nD) : W39 m ρ c (Proc.devRef .tc main_v255) = row64 (gB2K_2 (W0 m ρ c (Proc.devRef .tc main_arg10))) :=
  (host36_v255 (W36 m ρ c)).trans
    (show row64 (gB2K_2 (W36 m ρ c (Proc.devRef .tc main_arg10))) = row64 (gB2K_2 (W0 m ρ c (Proc.devRef .tc main_arg10))) by
      rw [(car_args_36 m ρ c main_arg10 (by decide))])

theorem W40_v256 (c : Dev nD) : W40 m ρ c (Proc.devRef .tc main_v256) = (G1_2 m ρ c) :=
  ((W40_arr m ρ c 5).trans (H.h9 (V39 m ρ) c)).trans
    (show mlpN (W39 m ρ c (Proc.devRef .tc main_v245)) (W39 m ρ c (Proc.devRef .tc main_v247)) (W39 m ρ c (Proc.devRef .tc main_v254)) (W39 m ρ c (Proc.devRef .tc main_v251)) (W39 m ρ c (Proc.devRef .tc main_v255)) = mlpN (ginSumNK (XL2 m ρ c) (EA m ρ c) (ES m ρ c) (ED m ρ c)) (gW1K_2 (W0 m ρ c (Proc.devRef .tc main_arg7))) (row128 (gB1K_2 (W0 m ρ c (Proc.devRef .tc main_arg8)))) (gW2K_2 (W0 m ρ c (Proc.devRef .tc main_arg9))) (row64 (gB2K_2 (W0 m ρ c (Proc.devRef .tc main_arg10)))) by
      rw [(W39_v245 m ρ H c),
        (W39_v247 m ρ H c),
        (W39_v254 m ρ H c),
        (W39_v251 m ρ H c),
        (W39_v255 m ρ H c)])

theorem W45_v268 (c : Dev nD) : W45 m ρ c (Proc.devRef .tc main_v268) = scaleN (G1_2 m ρ c) (bnGK_2 (W0 m ρ c (Proc.devRef .tc main_arg11))) :=
  (host40_v268 (W40 m ρ c)).trans
    (show scaleN (W40 m ρ c (Proc.devRef .tc main_v256)) (bnGK_2 (W40 m ρ c (Proc.devRef .tc main_arg11))) = scaleN (G1_2 m ρ c) (bnGK_2 (W0 m ρ c (Proc.devRef .tc main_arg11))) by
      rw [(W40_v256 m ρ H c),
        (car_args_40 m ρ c main_arg11 (by decide))])

theorem W45_v270 (c : Dev nD) : W45 m ρ c (Proc.devRef .tc main_v270) = shiftN (G1_2 m ρ c) (bnGK_2 (W0 m ρ c (Proc.devRef .tc main_arg11))) (bnBK_2 (W0 m ρ c (Proc.devRef .tc main_arg12))) :=
  (host40_v270 (W40 m ρ c)).trans
    (show shiftN (W40 m ρ c (Proc.devRef .tc main_v256)) (bnGK_2 (W40 m ρ c (Proc.devRef .tc main_arg11))) (bnBK_2 (W40 m ρ c (Proc.devRef .tc main_arg12))) = shiftN (G1_2 m ρ c) (bnGK_2 (W0 m ρ c (Proc.devRef .tc main_arg11))) (bnBK_2 (W0 m ρ c (Proc.devRef .tc main_arg12))) by
      rw [(W40_v256 m ρ H c),
        (car_args_40 m ρ c main_arg11 (by decide)),
        (car_args_40 m ρ c main_arg12 (by decide))])

theorem W45_v295 (c : Dev nD) : W45 m ρ c (Proc.devRef .tc main_v295) = ginSumMK (segMeanNMK (XL2 m ρ c) (IDX m ρ c)) (OEA m ρ c) (OS m ρ c) (OD m ρ c) :=
  (host40_v295 (W40 m ρ c)).trans
    (show ginSumMK (segMeanNMK (W40 m ρ c (Proc.devRef .tc main_v232)) (W40 m ρ c (Proc.devRef .tc main_v16))) (W40 m ρ c (Proc.devRef .tc main_v5)) (W40 m ρ c (Proc.devRef .tc main_v22)) (W40 m ρ c (Proc.devRef .tc main_v24)) = ginSumMK (segMeanNMK (XL2 m ρ c) (IDX m ρ c)) (OEA m ρ c) (OS m ρ c) (OD m ρ c) by
      rw [((car_xb_40 m ρ c main_v232 (by decide)).trans (W36_v232 m ρ H c)),
        ((car_ix_40 m ρ c main_v16 (by decide)).trans (W11_v16 m ρ H c)),
        ((car_v5_40 m ρ c main_v5 (by decide)).trans (W6_v5 m ρ H c)),
        ((car_ix_40 m ρ c main_v22 (by decide)).trans (W11_v22 m ρ H c)),
        ((car_ix_40 m ρ c main_v24 (by decide)).trans (W11_v24 m ρ H c))])

theorem W45_v297 (c : Dev nD) : W45 m ρ c (Proc.devRef .tc main_v297) = sW1K_2 (W0 m ρ c (Proc.devRef .tc main_arg13)) :=
  (host40_v297 (W40 m ρ c)).trans
    (show sW1K_2 (W40 m ρ c (Proc.devRef .tc main_arg13)) = sW1K_2 (W0 m ρ c (Proc.devRef .tc main_arg13)) by
      rw [(car_args_40 m ρ c main_arg13 (by decide))])

theorem W45_v304 (c : Dev nD) : W45 m ρ c (Proc.devRef .tc main_v304) = row128 (sB1K_2 (W0 m ρ c (Proc.devRef .tc main_arg14))) :=
  (host40_v304 (W40 m ρ c)).trans
    (show row128 (sB1K_2 (W40 m ρ c (Proc.devRef .tc main_arg14))) = row128 (sB1K_2 (W0 m ρ c (Proc.devRef .tc main_arg14))) by
      rw [(car_args_40 m ρ c main_arg14 (by decide))])

theorem W45_v301 (c : Dev nD) : W45 m ρ c (Proc.devRef .tc main_v301) = sW2K_2 (W0 m ρ c (Proc.devRef .tc main_arg15)) :=
  (host40_v301 (W40 m ρ c)).trans
    (show sW2K_2 (W40 m ρ c (Proc.devRef .tc main_arg15)) = sW2K_2 (W0 m ρ c (Proc.devRef .tc main_arg15)) by
      rw [(car_args_40 m ρ c main_arg15 (by decide))])

theorem W45_v305 (c : Dev nD) : W45 m ρ c (Proc.devRef .tc main_v305) = row64 (sB2K_2 (W0 m ρ c (Proc.devRef .tc main_arg16))) :=
  (host40_v305 (W40 m ρ c)).trans
    (show row64 (sB2K_2 (W40 m ρ c (Proc.devRef .tc main_arg16))) = row64 (sB2K_2 (W0 m ρ c (Proc.devRef .tc main_arg16))) by
      rw [(car_args_40 m ρ c main_arg16 (by decide))])

theorem W46_v306 (c : Dev nD) : W46 m ρ c (Proc.devRef .tc main_v306) = (G2_2 m ρ c) :=
  ((W46_arr m ρ c 5).trans (H.h10 (V45 m ρ) c)).trans
    (show mlpM (W45 m ρ c (Proc.devRef .tc main_v295)) (W45 m ρ c (Proc.devRef .tc main_v297)) (W45 m ρ c (Proc.devRef .tc main_v304)) (W45 m ρ c (Proc.devRef .tc main_v301)) (W45 m ρ c (Proc.devRef .tc main_v305)) = mlpM (ginSumMK (segMeanNMK (XL2 m ρ c) (IDX m ρ c)) (OEA m ρ c) (OS m ρ c) (OD m ρ c)) (sW1K_2 (W0 m ρ c (Proc.devRef .tc main_arg13))) (row128 (sB1K_2 (W0 m ρ c (Proc.devRef .tc main_arg14)))) (sW2K_2 (W0 m ρ c (Proc.devRef .tc main_arg15))) (row64 (sB2K_2 (W0 m ρ c (Proc.devRef .tc main_arg16)))) by
      rw [(W45_v295 m ρ H c),
        (W45_v297 m ρ H c),
        (W45_v304 m ρ H c),
        (W45_v301 m ρ H c),
        (W45_v305 m ρ H c)])

theorem W49_v333 (c : Dev nD) : W49 m ρ c (Proc.devRef .tc main_v333) = gatherBackK (affineM (G2_2 m ρ c) (scaleM (G2_2 m ρ c) (bsGK_2 (W0 m ρ c (Proc.devRef .tc main_arg17)))) (shiftM (G2_2 m ρ c) (bsGK_2 (W0 m ρ c (Proc.devRef .tc main_arg17))) (bsBK_2 (W0 m ρ c (Proc.devRef .tc main_arg18))))) (IDX m ρ c) :=
  (host46_v333 (W46 m ρ c)).trans
    (show gatherBackK (affineM (W46 m ρ c (Proc.devRef .tc main_v306)) (scaleM (W46 m ρ c (Proc.devRef .tc main_v306)) (bsGK_2 (W46 m ρ c (Proc.devRef .tc main_arg17)))) (shiftM (W46 m ρ c (Proc.devRef .tc main_v306)) (bsGK_2 (W46 m ρ c (Proc.devRef .tc main_arg17))) (bsBK_2 (W46 m ρ c (Proc.devRef .tc main_arg18))))) (W46 m ρ c (Proc.devRef .tc main_v16)) = gatherBackK (affineM (G2_2 m ρ c) (scaleM (G2_2 m ρ c) (bsGK_2 (W0 m ρ c (Proc.devRef .tc main_arg17)))) (shiftM (G2_2 m ρ c) (bsGK_2 (W0 m ρ c (Proc.devRef .tc main_arg17))) (bsBK_2 (W0 m ρ c (Proc.devRef .tc main_arg18))))) (IDX m ρ c) by
      rw [(W46_v306 m ρ H c),
        (car_args_46 m ρ c main_arg17 (by decide)),
        (car_args_46 m ρ c main_arg18 (by decide)),
        ((car_ix_46 m ρ c main_v16 (by decide)).trans (W11_v16 m ρ H c))])

theorem W49_v334 (c : Dev nD) : W49 m ρ c (Proc.devRef .tc main_v334) = row64 (scaleN (G1_2 m ρ c) (bnGK_2 (W0 m ρ c (Proc.devRef .tc main_arg11)))) :=
  (host46_v334 (W46 m ρ c)).trans
    (show row64 (W46 m ρ c (Proc.devRef .tc main_v268)) = row64 (scaleN (G1_2 m ρ c) (bnGK_2 (W0 m ρ c (Proc.devRef .tc main_arg11)))) by
      rw [((car_ssc_46 m ρ c main_v268 (by decide)).trans (W45_v268 m ρ H c))])

theorem W49_v335 (c : Dev nD) : W49 m ρ c (Proc.devRef .tc main_v335) = row64 (shiftN (G1_2 m ρ c) (bnGK_2 (W0 m ρ c (Proc.devRef .tc main_arg11))) (bnBK_2 (W0 m ρ c (Proc.devRef .tc main_arg12)))) :=
  (host46_v335 (W46 m ρ c)).trans
    (show row64 (W46 m ρ c (Proc.devRef .tc main_v270)) = row64 (shiftN (G1_2 m ρ c) (bnGK_2 (W0 m ρ c (Proc.devRef .tc main_arg11))) (bnBK_2 (W0 m ρ c (Proc.devRef .tc main_arg12)))) by
      rw [((car_ssc_46 m ρ c main_v270 (by decide)).trans (W45_v270 m ρ H c))])

theorem W50_v336 (c : Dev nD) : W50 m ρ c (Proc.devRef .tc main_v336) = (XL3 m ρ c) :=
  (((W50_arr m ρ c 4).trans (H.h11 (V49 m ρ) c)).trans
    (show combine (W49 m ρ c (Proc.devRef .tc main_v256)) (W49 m ρ c (Proc.devRef .tc main_v334)) (W49 m ρ c (Proc.devRef .tc main_v335)) (W49 m ρ c (Proc.devRef .tc main_v333)) = combine (G1_2 m ρ c) (row64 (scaleN (G1_2 m ρ c) (bnGK_2 (W0 m ρ c (Proc.devRef .tc main_arg11))))) (row64 (shiftN (G1_2 m ρ c) (bnGK_2 (W0 m ρ c (Proc.devRef .tc main_arg11))) (bnBK_2 (W0 m ρ c (Proc.devRef .tc main_arg12))))) (gatherBackK (affineM (G2_2 m ρ c) (scaleM (G2_2 m ρ c) (bsGK_2 (W0 m ρ c (Proc.devRef .tc main_arg17)))) (shiftM (G2_2 m ρ c) (bsGK_2 (W0 m ρ c (Proc.devRef .tc main_arg17))) (bsBK_2 (W0 m ρ c (Proc.devRef .tc main_arg18))))) (IDX m ρ c)) by
      rw [((car_g1c_49 m ρ c main_v256 (by decide)).trans (W40_v256 m ρ H c)),
        (W49_v334 m ρ H c),
        (W49_v335 m ρ H c),
        (W49_v333 m ρ H c)])).trans (XL3_eq m ρ c).symm

theorem W51_v360 (c : Dev nD) : W51 m ρ c (Proc.devRef .tc main_v360) = segMeanSGK (segMeanNSK (XL3 m ρ c) (W0 m ρ c (Proc.devRef .tc main_arg28))) (W0 m ρ c (Proc.devRef .tc main_arg29)) :=
  (host50_v360 (W50 m ρ c)).trans
    (show segMeanSGK (segMeanNSK (W50 m ρ c (Proc.devRef .tc main_v336)) (W50 m ρ c (Proc.devRef .tc main_arg28))) (W50 m ρ c (Proc.devRef .tc main_arg29)) = segMeanSGK (segMeanNSK (XL3 m ρ c) (W0 m ρ c (Proc.devRef .tc main_arg28))) (W0 m ρ c (Proc.devRef .tc main_arg29)) by
      rw [(W50_v336 m ρ H c),
        (car_args_50 m ρ c main_arg28 (by decide)),
        (car_args_50 m ρ c main_arg29 (by decide))])

theorem W51_v361 (c : Dev nD) : W51 m ρ c (Proc.devRef .tc main_v361) = row128 (W0 m ρ c (Proc.devRef .tc main_arg20)) :=
  (host50_v361 (W50 m ρ c)).trans
    (show row128 (W50 m ρ c (Proc.devRef .tc main_arg20)) = row128 (W0 m ρ c (Proc.devRef .tc main_arg20)) by
      rw [(car_args_50 m ρ c main_arg20 (by decide))])

theorem W51_v362 (c : Dev nD) : W51 m ρ c (Proc.devRef .tc main_v362) = row10 (W0 m ρ c (Proc.devRef .tc main_arg22)) :=
  (host50_v362 (W50 m ρ c)).trans
    (show row10 (W50 m ρ c (Proc.devRef .tc main_arg22)) = row10 (W0 m ρ c (Proc.devRef .tc main_arg22)) by
      rw [(car_args_50 m ρ c main_arg22 (by decide))])

theorem W52_v363 (c : Dev nD) : W52 m ρ c (Proc.devRef .tc main_v363) = mlpG (segMeanSGK (segMeanNSK (XL3 m ρ c) (W0 m ρ c (Proc.devRef .tc main_arg28))) (W0 m ρ c (Proc.devRef .tc main_arg29))) (W0 m ρ c (Proc.devRef .tc main_arg19)) (row128 (W0 m ρ c (Proc.devRef .tc main_arg20))) (W0 m ρ c (Proc.devRef .tc main_arg21)) (row10 (W0 m ρ c (Proc.devRef .tc main_arg22))) :=
  ((W52_arr m ρ c 5).trans (H.h12 (V51 m ρ) c)).trans
    (show mlpG (W51 m ρ c (Proc.devRef .tc main_v360)) (W51 m ρ c (Proc.devRef .tc main_arg19)) (W51 m ρ c (Proc.devRef .tc main_v361)) (W51 m ρ c (Proc.devRef .tc main_arg21)) (W51 m ρ c (Proc.devRef .tc main_v362)) = mlpG (segMeanSGK (segMeanNSK (XL3 m ρ c) (W0 m ρ c (Proc.devRef .tc main_arg28))) (W0 m ρ c (Proc.devRef .tc main_arg29))) (W0 m ρ c (Proc.devRef .tc main_arg19)) (row128 (W0 m ρ c (Proc.devRef .tc main_arg20))) (W0 m ρ c (Proc.devRef .tc main_arg21)) (row10 (W0 m ρ c (Proc.devRef .tc main_arg22))) by
      rw [(W51_v360 m ρ H c),
        (car_args_51 m ρ c main_arg19 (by decide)),
        (W51_v361 m ρ H c),
        (car_args_51 m ρ c main_arg21 (by decide)),
        (W51_v362 m ρ H c)])

omit H in
/-- THE KERNEL'S VALUE: under the thirteen regions' hypotheses, the last boundary valuation at the result buffer is
    `networkK` of the argument arrays as launched. -/
theorem kernel_value (c : Dev nD)
    (hreg0 : HReg0 (F := F))
    (hreg1 : HReg1 (F := F))
    (hreg2 : HReg2 (F := F))
    (hreg3 : HReg3 (F := F))
    (hreg4 : HReg4 (F := F))
    (hreg5 : HReg5 (F := F))
    (hreg6 : HReg6 (F := F))
    (hreg7 : HReg7 (F := F))
    (hreg8 : HReg8 (F := F))
    (hreg9 : HReg9 (F := F))
    (hreg10 : HReg10 (F := F))
    (hreg11 : HReg11 (F := F))
    (hreg12 : HReg12 (F := F)) :
    W52 m ρ c (Proc.devRef .tc main_v363)
      = networkK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) :=
  W52_v363 m ρ ⟨hreg0, hreg1, hreg2, hreg3, hreg4, hreg5, hreg6, hreg7, hreg8, hreg9, hreg10, hreg11, hreg12⟩ c

end Cert.KernelIdeal.KRun

end
-- ==== Proof.RegRows.lean ====
import Idealize.ShloMosaic.Lib.KernelVsHost

/-!
# Row-local operations of a dense layer, read at an index

A matrix product X · W of an M × K by a K × N matrix, read at row r and column q, is the sum over the
K positions c of X (r, c) * W (c, q): it reads row r of X and nothing else of X. Laying a one-row
matrix along every row, adding, and taking the maximum with a constant are pointwise in the row. So a dense
layer (and a two-layer perceptron, and an affine-plus-residual-plus-relu combine) evaluated on a block of rows of
its input is the same block of rows of the layer evaluated on the whole input. This module states the
index-by-index readings of these operations, once for the vector unit's spelling (a product accumulated into a
zero splat, a one-row cast broadcast down the rows, a maximum with a splat scalar) and once for the host's
(a dot_general, a broadcast_in_dim, a maximum with a broadcast rank-0 constant), for all sizes.
-/

noncomputable section

open Idealize.ShloMosaic Idealize.ShloMosaic.ValueIdx
open scoped BigOperators

namespace Cert.KernelIdeal.Reg

/-- The shape of an m × n matrix. -/
abbrev Mat (m n : Nat) : Shape := ⟨2, ![m, n]⟩

/-- The zero offset of a whole-block access, as a function. -/
theorem zero_off : (![0, 0] : Fin 2 → Nat) = fun _ => 0 := funext fun a => by fin_cases a <;> rfl

section Plain
variable {M K N : Nat}

/-- The contraction index of a plain matrix product is its one coordinate, a position among the K. -/
def plainContr (M K N : Nat) : (DotDims.plain M K N).contr.Idx ≃ Fin K :=
  contrEquiv1 (DotDims.plain M K N) K rfl rfl

/-- At output (r, q) and contraction position c the left operand is read at (r, c) -/
theorem plain_lhsIdx (r : Fin M) (q : Fin N) (c : Fin K) :
    (DotDims.plain M K N).lhsIdx (ix2 r q) ((plainContr M K N).symm c) = ix2 r c := by
  funext a; apply Fin.ext
  match a with
  | ⟨0, _⟩ => rfl
  | ⟨1, _⟩ =>
    exact ((DotDims.plain M K N).lhsIdx_val_of_single (cl := 1) rfl (ix2 r q) _).trans
      (contrEquiv1_symm_val (DotDims.plain M K N) K rfl rfl c)

/-- and the right operand at (c, q). -/
theorem plain_rhsIdx (r : Fin M) (q : Fin N) (c : Fin K) :
    (DotDims.plain M K N).rhsIdx (ix2 r q) ((plainContr M K N).symm c) = ix2 c q := by
  funext a; apply Fin.ext
  match a with
  | ⟨0, _⟩ =>
    exact ((DotDims.plain M K N).rhsIdx_val_of_single (cr := 0) rfl (ix2 r q) _).trans
      (contrEquiv1_symm_val (DotDims.plain M K N) K rfl rfl c)
  | ⟨1, _⟩ => rfl

/-- The product's sum over the contraction index, as the sum over the K positions. -/
theorem sum_plain (lhs : (Mat M K).Idx → EReal) (rhs : (Mat K N).Idx → EReal) (r : Fin M) (q : Fin N) :
    ∑ k : (DotDims.plain M K N).contr.Idx,
        lhs ((DotDims.plain M K N).lhsIdx (ix2 r q) k) * rhs ((DotDims.plain M K N).rhsIdx (ix2 r q) k)
      = ∑ c : Fin K, lhs (ix2 r c) * rhs (ix2 c q) := by
  rw [← Equiv.sum_comp (plainContr M K N).symm]
  exact Finset.sum_congr rfl fun c _ => by rw [plain_lhsIdx, plain_rhsIdx]

/-- The vector unit's product into a zero accumulator, at (r, q). -/
theorem matmul_rows {φ₁ φ₂ : FTy} (d : DotDims (Mat M K) (Mat K N) (Mat M N)) (hd : d = DotDims.plain M K N)
    (prec : Option ContractPrecision) (lhs : FVec Ideal (Mat M K) φ₁) (rhs : FVec Ideal (Mat K N) φ₂)
    (r : Fin M) (q : Fin N) :
    matmul d prec lhs rhs (constant (F := Ideal) (Mat M N) .f32 0x00000000#32) (ix2 r q)
      = ∑ c : Fin K, lhs (ix2 r c) * rhs (ix2 c q) := by
  subst hd
  exact (Ideal.matmul_constant_zero_apply _ prec lhs rhs (ix2 r q)).trans (sum_plain lhs rhs r q)

/-- The host's product, at (r, q). -/
theorem dotGeneral_rows {φ₁ φ₂ : FTy} (d : DotDims (Mat M K) (Mat K N) (Mat M N)) (hd : d = DotDims.plain M K N)
    (prec : Option ContractPrecision) (lhs : FVec Ideal (Mat M K) φ₁) (rhs : FVec Ideal (Mat K N) φ₂)
    (r : Fin M) (q : Fin N) :
    Host.dotGeneral (F := Ideal) d prec lhs rhs (ix2 r q) = ∑ c : Fin K, lhs (ix2 r c) * rhs (ix2 c q) := by
  subst hd
  exact (Ideal.dotGeneral_apply _ prec _ lhs rhs (ix2 r q)).trans (sum_plain lhs rhs r q)

end Plain

section Rows
variable {α : Type} {M N : Nat}

/-- A one-row matrix broadcast down M rows by the vector unit, read at (r, q), is the row at (0, q). -/
theorem broadcastTo_oneRow_apply (hb : (Mat 1 N).Broadcasts (Mat M N)) (y : (Mat 1 N).Idx → α) (r : Fin M) (q : Fin N) :
    broadcastTo (Mat M N) y hb (ix2 r q) = y (ix2 (0 : Fin 1) q) := by
  refine broadcastTo_apply y hb (ix2 r q) (ix2 (0 : Fin 1) q) ?_
  intro a
  match a with
  | ⟨0, _⟩ =>
    show (0 : ℕ) = if (1 : ℕ) = 1 then 0 else _
    simp
  | ⟨1, _⟩ =>
    show q.val = if N = 1 then 0 else q.val
    split_ifs with hn
    · have := q.isLt; omega
    · rfl

/-- A rank-0 constant broadcast by the host to any shape reads the constant everywhere. -/
theorem broadcastInDim_scalar_apply {t : Shape} (hbc : (⟨0, ![]⟩ : Shape).BroadcastsInDim t ![])
    (y : (⟨0, ![]⟩ : Shape).Idx → α) (j : t.Idx) : broadcastInDim t ![] hbc y j = y ix0 :=
  broadcastInDim_apply ![] hbc y j ix0 (fun a => a.elim0)

end Rows

/-! ## The three layers, a block of rows against the whole array

In each statement the left side is the vector unit's spelling on a block of Mb rows (x0 is the block of the
input, the weights and one-row biases are whole), the right side the host's spelling on all R rows, and the
hypothesis says that row r of the block is row Rr of the whole input. -/

section Layers
variable {R Mb K H N : Nat}

/-- Rounding to a narrower format is the identity on the ideal values. -/
theorem truncf_eq {s : Shape} {φ ψ : FTy} (a : FVec Ideal s φ) (h : ψ.bits < φ.bits) (i : s.Idx) :
    (truncf ψ a h : FVec Ideal s ψ) i = a i := rfl

/-- A dense layer x · w + b. -/
theorem linear_block
    (d : DotDims (Mat Mb K) (Mat K N) (Mat Mb N)) (hd : d = DotDims.plain Mb K N)
    (D : DotDims (Mat R K) (Mat K N) (Mat R N)) (hD : D = DotDims.plain R K N)
    (h1 h2 : (FTy.bf16).bits < (FTy.f32).bits)
    (hb : (Mat 1 N).Broadcasts (Mat Mb N)) (hbc : (Mat 1 N).BroadcastsInDim (Mat R N) ![0, 1])
    (x0 : FVec Ideal (Mat Mb K) .f32) (X : FVec Ideal (Mat R K) .f32)
    (w : FVec Ideal (Mat K N) .f32) (b : FVec Ideal (Mat 1 N) .f32)
    (r : Fin Mb) (Rr : Fin R) (q : Fin N) (hx : ∀ c : Fin K, x0 (ix2 r c) = X (ix2 Rr c)) :
    addf (matmul d none (truncf .bf16 x0 h1) (truncf .bf16 w h2) (constant (F := Ideal) (Mat Mb N) .f32 0x00000000#32))
        (broadcastTo (Mat Mb N) b hb) (ix2 r q)
      = addf (Host.dotGeneral (F := Ideal) D none X w) (broadcastInDim (Mat R N) ![0, 1] hbc b) (ix2 Rr q) := by
  show matmul d none (truncf .bf16 x0 h1) (truncf .bf16 w h2) (constant (F := Ideal) (Mat Mb N) .f32 0x00000000#32) (ix2 r q)
        + broadcastTo (Mat Mb N) b hb (ix2 r q)
      = Host.dotGeneral (F := Ideal) D none X w (ix2 Rr q) + broadcastInDim (Mat R N) ![0, 1] hbc b (ix2 Rr q)
  rw [matmul_rows d hd, dotGeneral_rows D hD, broadcastTo_oneRow_apply, broadcastInDim_oneRow_apply]
  refine congrArg (· + b (ix2 (0 : Fin 1) q)) (Finset.sum_congr rfl fun c _ => ?_)
  rw [truncf_eq, truncf_eq, hx c]

/-- The hidden layer of the perceptron, relu (x · w1 + b1), at row r and hidden unit c. -/
theorem hidden_block
    (d : DotDims (Mat Mb K) (Mat K H) (Mat Mb H)) (hd : d = DotDims.plain Mb K H)
    (D : DotDims (Mat R K) (Mat K H) (Mat R H)) (hD : D = DotDims.plain R K H)
    (h1 h2 : (FTy.bf16).bits < (FTy.f32).bits)
    (hb : (Mat 1 H).Broadcasts (Mat Mb H)) (hbc : (Mat 1 H).BroadcastsInDim (Mat R H) ![0, 1])
    (hz : (⟨0, ![]⟩ : Shape).BroadcastsInDim (Mat R H) ![])
    (x0 : FVec Ideal (Mat Mb K) .f32) (X : FVec Ideal (Mat R K) .f32)
    (w : FVec Ideal (Mat K H) .f32) (b : FVec Ideal (Mat 1 H) .f32)
    (r : Fin Mb) (Rr : Fin R) (c : Fin H) (hx : ∀ k : Fin K, x0 (ix2 r k) = X (ix2 Rr k)) :
    maximumf (addf (matmul d none (truncf .bf16 x0 h1) (truncf .bf16 w h2) (constant (F := Ideal) (Mat Mb H) .f32 0x00000000#32))
        (broadcastTo (Mat Mb H) b hb)) (broadcast (Mat Mb H) (Scalar.ofBits (F := Ideal) .f32 0x00000000#32)) (ix2 r c)
      = maximumf (addf (Host.dotGeneral (F := Ideal) D none X w) (broadcastInDim (Mat R H) ![0, 1] hbc b))
          (broadcastInDim (Mat R H) ![] hz (constant (F := Ideal) (⟨0, ![]⟩ : Shape) .f32 0x00000000#32)) (ix2 Rr c) := by
  show max (addf (matmul d none (truncf .bf16 x0 h1) (truncf .bf16 w h2) (constant (F := Ideal) (Mat Mb H) .f32 0x00000000#32))
        (broadcastTo (Mat Mb H) b hb) (ix2 r c)) (broadcast (Mat Mb H) (Scalar.ofBits (F := Ideal) .f32 0x00000000#32) (ix2 r c))
      = max (addf (Host.dotGeneral (F := Ideal) D none X w) (broadcastInDim (Mat R H) ![0, 1] hbc b) (ix2 Rr c))
          (broadcastInDim (Mat R H) ![] hz (constant (F := Ideal) (⟨0, ![]⟩ : Shape) .f32 0x00000000#32) (ix2 Rr c))
  rw [linear_block d hd D hD h1 h2 hb hbc x0 X w b r Rr c hx, broadcastInDim_scalar_apply]
  rfl

/-- The two-layer perceptron relu (x · w1 + b1) · w2 + b2. -/
theorem mlp_block
    (d1 : DotDims (Mat Mb K) (Mat K H) (Mat Mb H)) (hd1 : d1 = DotDims.plain Mb K H)
    (D1 : DotDims (Mat R K) (Mat K H) (Mat R H)) (hD1 : D1 = DotDims.plain R K H)
    (d2 : DotDims (Mat Mb H) (Mat H N) (Mat Mb N)) (hd2 : d2 = DotDims.plain Mb H N)
    (D2 : DotDims (Mat R H) (Mat H N) (Mat R N)) (hD2 : D2 = DotDims.plain R H N)
    (h1 h2 h3 h4 : (FTy.bf16).bits < (FTy.f32).bits)
    (hb1 : (Mat 1 H).Broadcasts (Mat Mb H)) (hbc1 : (Mat 1 H).BroadcastsInDim (Mat R H) ![0, 1])
    (hz : (⟨0, ![]⟩ : Shape).BroadcastsInDim (Mat R H) ![])
    (hb2 : (Mat 1 N).Broadcasts (Mat Mb N)) (hbc2 : (Mat 1 N).BroadcastsInDim (Mat R N) ![0, 1])
    (x0 : FVec Ideal (Mat Mb K) .f32) (X : FVec Ideal (Mat R K) .f32)
    (w1 : FVec Ideal (Mat K H) .f32) (b1 : FVec Ideal (Mat 1 H) .f32)
    (w2 : FVec Ideal (Mat H N) .f32) (b2 : FVec Ideal (Mat 1 N) .f32)
    (r : Fin Mb) (Rr : Fin R) (q : Fin N) (hx : ∀ k : Fin K, x0 (ix2 r k) = X (ix2 Rr k)) :
    addf (matmul d2 none
          (truncf .bf16 (maximumf (addf (matmul d1 none (truncf .bf16 x0 h1) (truncf .bf16 w1 h2) (constant (F := Ideal) (Mat Mb H) .f32 0x00000000#32))
            (broadcastTo (Mat Mb H) b1 hb1)) (broadcast (Mat Mb H) (Scalar.ofBits (F := Ideal) .f32 0x00000000#32))) h3)
          (truncf .bf16 w2 h4) (constant (F := Ideal) (Mat Mb N) .f32 0x00000000#32))
        (broadcastTo (Mat Mb N) b2 hb2) (ix2 r q)
      = addf (Host.dotGeneral (F := Ideal) D2 none
          (maximumf (addf (Host.dotGeneral (F := Ideal) D1 none X w1) (broadcastInDim (Mat R H) ![0, 1] hbc1 b1))
            (broadcastInDim (Mat R H) ![] hz (constant (F := Ideal) (⟨0, ![]⟩ : Shape) .f32 0x00000000#32))) w2)
          (broadcastInDim (Mat R N) ![0, 1] hbc2 b2) (ix2 Rr q) :=
  linear_block d2 hd2 D2 hD2 h3 h4 hb2 hbc2 _ _ w2 b2 r Rr q
    (fun c => hidden_block d1 hd1 D1 hD1 h1 h2 hb1 hbc1 hz x0 X w1 b1 r Rr c hx)

/-- The fused epilogue relu (g · scale + shift + h): pointwise in the row, scale and shift one row each. -/
theorem combine_block
    (hb : (Mat 1 N).Broadcasts (Mat Mb N)) (hbc : (Mat 1 N).BroadcastsInDim (Mat R N) ![0, 1])
    (hz : (⟨0, ![]⟩ : Shape).BroadcastsInDim (Mat R N) ![])
    (g0 h0 : FVec Ideal (Mat Mb N) .f32) (G Hh : FVec Ideal (Mat R N) .f32) (s t : FVec Ideal (Mat 1 N) .f32)
    (r : Fin Mb) (Rr : Fin R) (q : Fin N) (hg : g0 (ix2 r q) = G (ix2 Rr q)) (hh : h0 (ix2 r q) = Hh (ix2 Rr q)) :
    maximumf (addf (addf (mulf g0 (broadcastTo (Mat Mb N) s hb)) (broadcastTo (Mat Mb N) t hb)) h0)
        (broadcast (Mat Mb N) (Scalar.ofBits (F := Ideal) .f32 0x00000000#32)) (ix2 r q)
      = maximumf (addf (addf (mulf G (broadcastInDim (Mat R N) ![0, 1] hbc s)) (broadcastInDim (Mat R N) ![0, 1] hbc t)) Hh)
          (broadcastInDim (Mat R N) ![] hz (constant (F := Ideal) (⟨0, ![]⟩ : Shape) .f32 0x00000000#32)) (ix2 Rr q) := by
  show max (g0 (ix2 r q) * broadcastTo (Mat Mb N) s hb (ix2 r q) + broadcastTo (Mat Mb N) t hb (ix2 r q) + h0 (ix2 r q))
        (broadcast (Mat Mb N) (Scalar.ofBits (F := Ideal) .f32 0x00000000#32) (ix2 r q))
      = max (G (ix2 Rr q) * broadcastInDim (Mat R N) ![0, 1] hbc s (ix2 Rr q) + broadcastInDim (Mat R N) ![0, 1] hbc t (ix2 Rr q) + Hh (ix2 Rr q))
          (broadcastInDim (Mat R N) ![] hz (constant (F := Ideal) (⟨0, ![]⟩ : Shape) .f32 0x00000000#32) (ix2 Rr q))
  rw [broadcastTo_oneRow_apply, broadcastTo_oneRow_apply, broadcastInDim_oneRow_apply, broadcastInDim_oneRow_apply,
    broadcastInDim_scalar_apply, hg, hh]
  rfl

end Layers

end Cert.KernelIdeal.Reg

end
-- ==== Proof.Reg0.lean ====
/- Region 0 of the kernel program is a dense layer x · w + b (one of the three encoders) on 147456 rows, computed 4096 rows at a time over 36 grid points.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.encX). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 0: the dense layer x · w + b, 36 blocks of 4096 rows of 147456 -/

/-- Which array each window of region 0 stages. -/
theorem arrRef0_0 : Pipeline.arrRef spec0 0 = main_arg0 := rfl
theorem arrRef0_1 : Pipeline.arrRef spec0 1 = main_arg3 := rfl
theorem arrRef0_2 : Pipeline.arrRef spec0 2 = main_v0 := rfl
theorem arrRef0_3 : Pipeline.arrRef spec0 3 = main_v1 := rfl

/-- Row r of the block's payload is row Rr of the host's layer on the whole array, when row r of the input block is
    row Rr of the input and the weight and bias blocks are the weight and bias arrays. -/
theorem pay0_point (x0 : FVec Ideal S4096x16 .f32) (X : FVec Ideal S147456x16 .f32) (w' w : FVec Ideal S16x64 .f32) (b' b : FVec Ideal S1x64 .f32)
    (r : Fin 4096) (Rr : Fin 147456) (q : Fin 64) (hw : w' = w) (hb : b' = b) (hx : ∀ k : Fin 16, x0 (ix2 r k) = X (ix2 Rr k)) :
    k0_pay1 (F := Ideal) x0 w' b' (ix2 r q) = Cert.Stage.encX (F := Ideal) X w b (ix2 Rr q) := by
  subst hw; subst hb
  unfold k0_pay1 Cert.Stage.encX
  simp only [shapeCast_self]
  exact linear_block _ rfl _ rfl _ _ _ _ x0 X w' b' r Rr q hx

/-- The index maps over the grid: a row-tiled window's block index is the point, a whole-array window's is zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point t holds rows t · 4096 … of its array. -/
theorem read0_0 (c : Dev nD) (A : Buf (Elt Ideal) ((c : Thread nD τ).loc (Pipeline.arrRef spec0 0))) (t : Fin cfg0.N)
    (r : Fin 4096) (k : Fin 16) (Rr : Fin 147456) (hR : Rr.val = t.val * 4096 + r.val) :
    (((cfg0.win 0).blk t).view.read (Elt Ideal) A : Vec Ideal S4096x16 .f32) (ix2 r k) = (A : Vec Ideal S147456x16 .f32) (ix2 Rr k) := by
  show (A : Vec Ideal S147456x16 .f32) (((cfg0.win 0).blk t).view.emb (ix2 r k)) = _
  refine congrArg (A : Vec Ideal S147456x16 .f32) ?_
  obtain ⟨e0, e1, -⟩ := idx0 t
  funext a; apply Fin.ext
  match a with
  | ⟨0, _⟩ => show win0_0.index t (0 : Fin 2) * 4096 + 1 * r.val = Rr.val; rw [e0, hR]; omega
  | ⟨1, _⟩ => show win0_0.index t (1 : Fin 2) * 16 + 1 * k.val = k.val; rw [e1]; omega

/-- Window 1's block is its whole array at every point. -/
theorem read0_1 (c : Dev nD) (A : Buf (Elt Ideal) ((c : Thread nD τ).loc (Pipeline.arrRef spec0 1))) (t : Fin cfg0.N) :
    (((cfg0.win 1).blk t).view.read (Elt Ideal) A : Vec Ideal S16x64 .f32) = (A : Vec Ideal S16x64 .f32) := by
  funext y
  show (A : Vec Ideal S16x64 .f32) (((cfg0.win 1).blk t).view.emb y) = _
  refine congrArg (A : Vec Ideal S16x64 .f32) ?_
  obtain ⟨-, -, e0, e1, -⟩ := idx0 t
  funext a; apply Fin.ext
  match a with
  | ⟨0, _⟩ => show win0_1.index t (0 : Fin 2) * 16 + 1 * (y 0).val = (y 0).val; rw [e0]; omega
  | ⟨1, _⟩ => show win0_1.index t (1 : Fin 2) * 64 + 1 * (y 1).val = (y 1).val; rw [e1]; omega

/-- Window 2's block is its whole array at every point. -/
theorem read0_2 (c : Dev nD) (A : Buf (Elt Ideal) ((c : Thread nD τ).loc (Pipeline.arrRef spec0 2))) (t : Fin cfg0.N) :
    (((cfg0.win 2).blk t).view.read (Elt Ideal) A : Vec Ideal S1x64 .f32) = (A : Vec Ideal S1x64 .f32) := by
  funext y
  show (A : Vec Ideal S1x64 .f32) (((cfg0.win 2).blk t).view.emb y) = _
  refine congrArg (A : Vec Ideal S1x64 .f32) ?_
  obtain ⟨-, -, -, -, e0, e1, -⟩ := idx0 t
  funext a; apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The output block's entry (r, q) at point t is the array's entry (t · 4096 + r, q). -/
theorem emb0_3 (t : Fin cfg0.N) (r : Fin 4096) (q : Fin 64) (Rr : Fin 147456) (hR : Rr.val = t.val * 4096 + r.val) :
    ((cfg0.win 3).blk t).view.emb (ix2 r q) = (ix2 Rr q : S147456x64.Idx) := by
  obtain ⟨-, -, -, -, -, -, e0, e1⟩ := idx0 t
  funext a; apply Fin.ext
  match a with
  | ⟨0, _⟩ => show win0_3.index t (0 : Fin 2) * 4096 + 1 * r.val = Rr.val; rw [e0, hR]; omega
  | ⟨1, _⟩ => show win0_3.index t (1 : Fin 2) * 64 + 1 * q.val = q.val; rw [e1]; omega

/-- An index of the output array lies in point t's block iff each coordinate lies in the block's range on its axis. -/
theorem mem_blk0_3 (t : Fin cfg0.N) (i : S147456x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v1).slice (win0_3.rect t)).set ↔ _
  rw [View.set_slice_whole, Rect.mem_set_unit]
  exact Iff.rfl

/-- Row R of the output array is written back by the point R / 4096: the blocks cover the array. -/
theorem covered0_3 (i : S147456x64.Idx) : ∃ t : Fin cfg0.N, (cfg0.win 3).flush t = true ∧ i ∈ ((cfg0.win 3).blk t).view.set := by
  have hi0 : (i 0).val < 147456 := (i 0).isLt
  have hi1 : (i 1).val < 64 := (i 1).isLt
  have hN : cfg0.N = 36 := N_0
  have hlt : (i 0).val / 4096 < cfg0.N := by rw [hN]; omega
  obtain ⟨-, -, -, -, -, -, e0, e1⟩ := idx0 ⟨(i 0).val / 4096, hlt⟩
  refine ⟨⟨(i 0).val / 4096, hlt⟩, flush0_3 _, ?_⟩
  rw [mem_blk0_3]
  intro a
  match a with
  | ⟨0, _⟩ =>
    show win0_3.index ⟨(i 0).val / 4096, hlt⟩ (0 : Fin 2) * 4096 ≤ (i 0).val ∧ (i 0).val < win0_3.index ⟨(i 0).val / 4096, hlt⟩ (0 : Fin 2) * 4096 + 4096
    rw [e0]; show (i 0).val / 4096 * 4096 ≤ (i 0).val ∧ (i 0).val < (i 0).val / 4096 * 4096 + 4096; omega
  | ⟨1, _⟩ =>
    show win0_3.index ⟨(i 0).val / 4096, hlt⟩ (1 : Fin 2) * 64 ≤ (i 1).val ∧ (i 1).val < win0_3.index ⟨(i 0).val / 4096, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed0 (c : Dev nD) (t : Fin cfg0.N) :
    (dat0 V c).flushed 3 t = ((cfg0.win 3).blk t).view.read (Elt Ideal)
      (Cert.Stage.encX (F := Ideal) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_off]
  simp only [View.ld_unit_zero (S := S4096x16) zero_off, View.ld_unit_zero (S := S16x64) zero_off, View.ld_unit_zero (S := S1x64) zero_off]
  refine funext fun (j : S4096x64.Idx) => ?_
  obtain ⟨r, q, rfl⟩ : ∃ (r : Fin 4096) (q : Fin 64), j = ix2 r q := ⟨j 0, j 1, eq_ix2 j⟩
  have hN : cfg0.N = 36 := N_0
  have hRr : t.val * 4096 + r.val < 147456 := by have := t.isLt; have := r.isLt; omega
  show k0_pay1 (F := Ideal) (iblk0 V c 0 t) (iblk0 V c 1 t) (iblk0 V c 2 t) (ix2 r q)
    = Cert.Stage.encX (F := Ideal) (V c (Pipeline.arrRef spec0 0)) (V c (Pipeline.arrRef spec0 1)) (V c (Pipeline.arrRef spec0 2)) (((cfg0.win 3).blk t).view.emb (ix2 r q))
  refine (pay0_point (iblk0 V c 0 t) (V c (Pipeline.arrRef spec0 0)) (iblk0 V c 1 t) (V c (Pipeline.arrRef spec0 1)) (iblk0 V c 2 t) (V c (Pipeline.arrRef spec0 2)) r ⟨t.val * 4096 + r.val, hRr⟩ q
      (read0_1 c (V c (Pipeline.arrRef spec0 1)) t) (read0_2 c (V c (Pipeline.arrRef spec0 2)) t) (fun k => read0_0 c (V c (Pipeline.arrRef spec0 0)) t r k ⟨t.val * 4096 + r.val, hRr⟩ rfl)).trans ?_
  exact congrArg (Cert.Stage.encX (F := Ideal) (V c (Pipeline.arrRef spec0 0)) (V c (Pipeline.arrRef spec0 1)) (V c (Pipeline.arrRef spec0 2))) (emb0_3 t r q ⟨t.val * 4096 + r.val, hRr⟩ rfl).symm

set_option maxHeartbeats 1000000 in
/-- THE REGION'S OUTPUT ARRAY after its write-backs: the host's stage of the arrays as the region finds them. -/
theorem value0 (c : Dev nD) :
    (dat0 V c).arrAt 3 cfg0.N = Cert.Stage.encX (F := Ideal) (V c (Pipeline.arrRef spec0 0)) (V c (Pipeline.arrRef spec0 1)) (V c (Pipeline.arrRef spec0 2)) :=
  (dat0 V c).arrAt_eq_of_cover 3 (Cert.Stage.encX (F := Ideal) (V c (Pipeline.arrRef spec0 0)) (V c (Pipeline.arrRef spec0 1)) (V c (Pipeline.arrRef spec0 2))) (fun t _ => flushed0 V c t) covered0_3

end Frame

end Cert.KernelIdeal.Reg

end
-- ==== Proof.Reg1.lean ====
/- Region 1 of the kernel program is a dense layer x · w + b (one of the three encoders) on 884736 rows, computed 8192 rows at a time over 108 grid points.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.encE). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 1: the dense layer x · w + b, 108 blocks of 8192 rows of 884736 -/

/-- Which array each window of region 1 stages. -/
theorem arrRef1_0 : Pipeline.arrRef spec1 0 = main_arg1 := rfl
theorem arrRef1_1 : Pipeline.arrRef spec1 1 = main_arg5 := rfl
theorem arrRef1_2 : Pipeline.arrRef spec1 2 = main_v2 := rfl
theorem arrRef1_3 : Pipeline.arrRef spec1 3 = main_v3 := rfl

/-- Row r of the block's payload is row Rr of the host's layer on the whole array, when row r of the input block is
    row Rr of the input and the weight and bias blocks are the weight and bias arrays. -/
theorem pay1_point (x0 : FVec Ideal S8192x8 .f32) (X : FVec Ideal S884736x8 .f32) (w' w : FVec Ideal S8x64 .f32) (b' b : FVec Ideal S1x64 .f32)
    (r : Fin 8192) (Rr : Fin 884736) (q : Fin 64) (hw : w' = w) (hb : b' = b) (hx : ∀ k : Fin 8, x0 (ix2 r k) = X (ix2 Rr k)) :
    k1_pay1 (F := Ideal) x0 w' b' (ix2 r q) = Cert.Stage.encE (F := Ideal) X w b (ix2 Rr q) := by
  subst hw; subst hb
  unfold k1_pay1 Cert.Stage.encE
  simp only [shapeCast_self]
  exact linear_block _ rfl _ rfl _ _ _ _ x0 X w' b' r Rr q hx

/-- The index maps over the grid: a row-tiled window's block index is the point, a whole-array window's is zero. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point t holds rows t · 8192 … of its array. -/
theorem read1_0 (c : Dev nD) (A : Buf (Elt Ideal) ((c : Thread nD τ).loc (Pipeline.arrRef spec1 0))) (t : Fin cfg1.N)
    (r : Fin 8192) (k : Fin 8) (Rr : Fin 884736) (hR : Rr.val = t.val * 8192 + r.val) :
    (((cfg1.win 0).blk t).view.read (Elt Ideal) A : Vec Ideal S8192x8 .f32) (ix2 r k) = (A : Vec Ideal S884736x8 .f32) (ix2 Rr k) := by
  show (A : Vec Ideal S884736x8 .f32) (((cfg1.win 0).blk t).view.emb (ix2 r k)) = _
  refine congrArg (A : Vec Ideal S884736x8 .f32) ?_
  obtain ⟨e0, e1, -⟩ := idx1 t
  funext a; apply Fin.ext
  match a with
  | ⟨0, _⟩ => show win1_0.index t (0 : Fin 2) * 8192 + 1 * r.val = Rr.val; rw [e0, hR]; omega
  | ⟨1, _⟩ => show win1_0.index t (1 : Fin 2) * 8 + 1 * k.val = k.val; rw [e1]; omega

/-- Window 1's block is its whole array at every point. -/
theorem read1_1 (c : Dev nD) (A : Buf (Elt Ideal) ((c : Thread nD τ).loc (Pipeline.arrRef spec1 1))) (t : Fin cfg1.N) :
    (((cfg1.win 1).blk t).view.read (Elt Ideal) A : Vec Ideal S8x64 .f32) = (A : Vec Ideal S8x64 .f32) := by
  funext y
  show (A : Vec Ideal S8x64 .f32) (((cfg1.win 1).blk t).view.emb y) = _
  refine congrArg (A : Vec Ideal S8x64 .f32) ?_
  obtain ⟨-, -, e0, e1, -⟩ := idx1 t
  funext a; apply Fin.ext
  match a with
  | ⟨0, _⟩ => show win1_1.index t (0 : Fin 2) * 8 + 1 * (y 0).val = (y 0).val; rw [e0]; omega
  | ⟨1, _⟩ => show win1_1.index t (1 : Fin 2) * 64 + 1 * (y 1).val = (y 1).val; rw [e1]; omega

/-- Window 2's block is its whole array at every point. -/
theorem read1_2 (c : Dev nD) (A : Buf (Elt Ideal) ((c : Thread nD τ).loc (Pipeline.arrRef spec1 2))) (t : Fin cfg1.N) :
    (((cfg1.win 2).blk t).view.read (Elt Ideal) A : Vec Ideal S1x64 .f32) = (A : Vec Ideal S1x64 .f32) := by
  funext y
  show (A : Vec Ideal S1x64 .f32) (((cfg1.win 2).blk t).view.emb y) = _
  refine congrArg (A : Vec Ideal S1x64 .f32) ?_
  obtain ⟨-, -, -, -, e0, e1, -⟩ := idx1 t
  funext a; apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- The output block's entry (r, q) at point t is the array's entry (t · 8192 + r, q). -/
theorem emb1_3 (t : Fin cfg1.N) (r : Fin 8192) (q : Fin 64) (Rr : Fin 884736) (hR : Rr.val = t.val * 8192 + r.val) :
    ((cfg1.win 3).blk t).view.emb (ix2 r q) = (ix2 Rr q : S884736x64.Idx) := by
  obtain ⟨-, -, -, -, -, -, e0, e1⟩ := idx1 t
  funext a; apply Fin.ext
  match a with
  | ⟨0, _⟩ => show win1_3.index t (0 : Fin 2) * 8192 + 1 * r.val = Rr.val; rw [e0, hR]; omega
  | ⟨1, _⟩ => show win1_3.index t (1 : Fin 2) * 64 + 1 * q.val = q.val; rw [e1]; omega

/-- An index of the output array lies in point t's block iff each coordinate lies in the block's range on its axis. -/
theorem mem_blk1_3 (t : Fin cfg1.N) (i : S884736x64.Idx) :
    i ∈ ((cfg1.win 3).blk t).view.set ↔ ∀ a : Fin 2, win1_3.index t a * S8192x64.size a ≤ (i a).val ∧ (i a).val < win1_3.index t a * S8192x64.size a + S8192x64.size a := by
  show i ∈ ((View.whole main_v3).slice (win1_3.rect t)).set ↔ _
  rw [View.set_slice_whole, Rect.mem_set_unit]
  exact Iff.rfl

/-- Row R of the output array is written back by the point R / 8192: the blocks cover the array. -/
theorem covered1_3 (i : S884736x64.Idx) : ∃ t : Fin cfg1.N, (cfg1.win 3).flush t = true ∧ i ∈ ((cfg1.win 3).blk t).view.set := by
  have hi0 : (i 0).val < 884736 := (i 0).isLt
  have hi1 : (i 1).val < 64 := (i 1).isLt
  have hN : cfg1.N = 108 := N_1
  have hlt : (i 0).val / 8192 < cfg1.N := by rw [hN]; omega
  obtain ⟨-, -, -, -, -, -, e0, e1⟩ := idx1 ⟨(i 0).val / 8192, hlt⟩
  refine ⟨⟨(i 0).val / 8192, hlt⟩, flush1_3 _, ?_⟩
  rw [mem_blk1_3]
  intro a
  match a with
  | ⟨0, _⟩ =>
    show win1_3.index ⟨(i 0).val / 8192, hlt⟩ (0 : Fin 2) * 8192 ≤ (i 0).val ∧ (i 0).val < win1_3.index ⟨(i 0).val / 8192, hlt⟩ (0 : Fin 2) * 8192 + 8192
    rw [e0]; show (i 0).val / 8192 * 8192 ≤ (i 0).val ∧ (i 0).val < (i 0).val / 8192 * 8192 + 8192; omega
  | ⟨1, _⟩ =>
    show win1_3.index ⟨(i 0).val / 8192, hlt⟩ (1 : Fin 2) * 64 ≤ (i 1).val ∧ (i 1).val < win1_3.index ⟨(i 0).val / 8192, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed1 (c : Dev nD) (t : Fin cfg1.N) :
    (dat1 V c).flushed 3 t = ((cfg1.win 3).blk t).view.read (Elt Ideal)
      (Cert.Stage.encE (F := Ideal) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_off]
  simp only [View.ld_unit_zero (S := S8192x8) zero_off, View.ld_unit_zero (S := S8x64) zero_off, View.ld_unit_zero (S := S1x64) zero_off]
  refine funext fun (j : S8192x64.Idx) => ?_
  obtain ⟨r, q, rfl⟩ : ∃ (r : Fin 8192) (q : Fin 64), j = ix2 r q := ⟨j 0, j 1, eq_ix2 j⟩
  have hN : cfg1.N = 108 := N_1
  have hRr : t.val * 8192 + r.val < 884736 := by have := t.isLt; have := r.isLt; omega
  show k1_pay1 (F := Ideal) (iblk1 V c 0 t) (iblk1 V c 1 t) (iblk1 V c 2 t) (ix2 r q)
    = Cert.Stage.encE (F := Ideal) (V c (Pipeline.arrRef spec1 0)) (V c (Pipeline.arrRef spec1 1)) (V c (Pipeline.arrRef spec1 2)) (((cfg1.win 3).blk t).view.emb (ix2 r q))
  refine (pay1_point (iblk1 V c 0 t) (V c (Pipeline.arrRef spec1 0)) (iblk1 V c 1 t) (V c (Pipeline.arrRef spec1 1)) (iblk1 V c 2 t) (V c (Pipeline.arrRef spec1 2)) r ⟨t.val * 8192 + r.val, hRr⟩ q
      (read1_1 c (V c (Pipeline.arrRef spec1 1)) t) (read1_2 c (V c (Pipeline.arrRef spec1 2)) t) (fun k => read1_0 c (V c (Pipeline.arrRef spec1 0)) t r k ⟨t.val * 8192 + r.val, hRr⟩ rfl)).trans ?_
  exact congrArg (Cert.Stage.encE (F := Ideal) (V c (Pipeline.arrRef spec1 0)) (V c (Pipeline.arrRef spec1 1)) (V c (Pipeline.arrRef spec1 2))) (emb1_3 t r q ⟨t.val * 8192 + r.val, hRr⟩ rfl).symm

set_option maxHeartbeats 1000000 in
/-- THE REGION'S OUTPUT ARRAY after its write-backs: the host's stage of the arrays as the region finds them. -/
theorem value1 (c : Dev nD) :
    (dat1 V c).arrAt 3 cfg1.N = Cert.Stage.encE (F := Ideal) (V c (Pipeline.arrRef spec1 0)) (V c (Pipeline.arrRef spec1 1)) (V c (Pipeline.arrRef spec1 2)) :=
  (dat1 V c).arrAt_eq_of_cover 3 (Cert.Stage.encE (F := Ideal) (V c (Pipeline.arrRef spec1 0)) (V c (Pipeline.arrRef spec1 1)) (V c (Pipeline.arrRef spec1 2))) (fun t _ => flushed1 V c t) covered1_3

end Frame

end Cert.KernelIdeal.Reg

end
-- ==== Proof.Reg2.lean ====
/- Region 2 of the kernel program is a dense layer x · w + b (one of the three encoders) on 18432 rows, computed 2048 rows at a time over 9 grid points.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.encO). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 2: the dense layer x · w + b, 9 blocks of 2048 rows of 18432 -/

/-- Which array each window of region 2 stages. -/
theorem arrRef2_0 : Pipeline.arrRef spec2 0 = main_arg2 := rfl
theorem arrRef2_1 : Pipeline.arrRef spec2 1 = main_arg5 := rfl
theorem arrRef2_2 : Pipeline.arrRef spec2 2 = main_v4 := rfl
theorem arrRef2_3 : Pipeline.arrRef spec2 3 = main_v5 := rfl

/-- Row r of the block's payload is row Rr of the host's layer on the whole array, when row r of the input block is
    row Rr of the input and the weight and bias blocks are the weight and bias arrays. -/
theorem pay2_point (x0 : FVec Ideal S2048x8 .f32) (X : FVec Ideal S18432x8 .f32) (w' w : FVec Ideal S8x64 .f32) (b' b : FVec Ideal S1x64 .f32)
    (r : Fin 2048) (Rr : Fin 18432) (q : Fin 64) (hw : w' = w) (hb : b' = b) (hx : ∀ k : Fin 8, x0 (ix2 r k) = X (ix2 Rr k)) :
    k2_pay1 (F := Ideal) x0 w' b' (ix2 r q) = Cert.Stage.encO (F := Ideal) X w b (ix2 Rr q) := by
  subst hw; subst hb
  unfold k2_pay1 Cert.Stage.encO
  simp only [shapeCast_self]
  exact linear_block _ rfl _ rfl _ _ _ _ x0 X w' b' r Rr q hx

/-- The index maps over the grid: a row-tiled window's block index is the point, a whole-array window's is zero. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point t holds rows t · 2048 … of its array. -/
theorem read2_0 (c : Dev nD) (A : Buf (Elt Ideal) ((c : Thread nD τ).loc (Pipeline.arrRef spec2 0))) (t : Fin cfg2.N)
    (r : Fin 2048) (k : Fin 8) (Rr : Fin 18432) (hR : Rr.val = t.val * 2048 + r.val) :
    (((cfg2.win 0).blk t).view.read (Elt Ideal) A : Vec Ideal S2048x8 .f32) (ix2 r k) = (A : Vec Ideal S18432x8 .f32) (ix2 Rr k) := by
  show (A : Vec Ideal S18432x8 .f32) (((cfg2.win 0).blk t).view.emb (ix2 r k)) = _
  refine congrArg (A : Vec Ideal S18432x8 .f32) ?_
  obtain ⟨e0, e1, -⟩ := idx2 t
  funext a; apply Fin.ext
  match a with
  | ⟨0, _⟩ => show win2_0.index t (0 : Fin 2) * 2048 + 1 * r.val = Rr.val; rw [e0, hR]; omega
  | ⟨1, _⟩ => show win2_0.index t (1 : Fin 2) * 8 + 1 * k.val = k.val; rw [e1]; omega

/-- Window 1's block is its whole array at every point. -/
theorem read2_1 (c : Dev nD) (A : Buf (Elt Ideal) ((c : Thread nD τ).loc (Pipeline.arrRef spec2 1))) (t : Fin cfg2.N) :
    (((cfg2.win 1).blk t).view.read (Elt Ideal) A : Vec Ideal S8x64 .f32) = (A : Vec Ideal S8x64 .f32) := by
  funext y
  show (A : Vec Ideal S8x64 .f32) (((cfg2.win 1).blk t).view.emb y) = _
  refine congrArg (A : Vec Ideal S8x64 .f32) ?_
  obtain ⟨-, -, e0, e1, -⟩ := idx2 t
  funext a; apply Fin.ext
  match a with
  | ⟨0, _⟩ => show win2_1.index t (0 : Fin 2) * 8 + 1 * (y 0).val = (y 0).val; rw [e0]; omega
  | ⟨1, _⟩ => show win2_1.index t (1 : Fin 2) * 64 + 1 * (y 1).val = (y 1).val; rw [e1]; omega

/-- Window 2's block is its whole array at every point. -/
theorem read2_2 (c : Dev nD) (A : Buf (Elt Ideal) ((c : Thread nD τ).loc (Pipeline.arrRef spec2 2))) (t : Fin cfg2.N) :
    (((cfg2.win 2).blk t).view.read (Elt Ideal) A : Vec Ideal S1x64 .f32) = (A : Vec Ideal S1x64 .f32) := by
  funext y
  show (A : Vec Ideal S1x64 .f32) (((cfg2.win 2).blk t).view.emb y) = _
  refine congrArg (A : Vec Ideal S1x64 .f32) ?_
  obtain ⟨-, -, -, -, e0, e1, -⟩ := idx2 t
  funext a; apply Fin.ext
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- The output block's entry (r, q) at point t is the array's entry (t · 2048 + r, q). -/
theorem emb2_3 (t : Fin cfg2.N) (r : Fin 2048) (q : Fin 64) (Rr : Fin 18432) (hR : Rr.val = t.val * 2048 + r.val) :
    ((cfg2.win 3).blk t).view.emb (ix2 r q) = (ix2 Rr q : S18432x64.Idx) := by
  obtain ⟨-, -, -, -, -, -, e0, e1⟩ := idx2 t
  funext a; apply Fin.ext
  match a with
  | ⟨0, _⟩ => show win2_3.index t (0 : Fin 2) * 2048 + 1 * r.val = Rr.val; rw [e0, hR]; omega
  | ⟨1, _⟩ => show win2_3.index t (1 : Fin 2) * 64 + 1 * q.val = q.val; rw [e1]; omega

/-- An index of the output array lies in point t's block iff each coordinate lies in the block's range on its axis. -/
theorem mem_blk2_3 (t : Fin cfg2.N) (i : S18432x64.Idx) :
    i ∈ ((cfg2.win 3).blk t).view.set ↔ ∀ a : Fin 2, win2_3.index t a * S2048x64.size a ≤ (i a).val ∧ (i a).val < win2_3.index t a * S2048x64.size a + S2048x64.size a := by
  show i ∈ ((View.whole main_v5).slice (win2_3.rect t)).set ↔ _
  rw [View.set_slice_whole, Rect.mem_set_unit]
  exact Iff.rfl

/-- Row R of the output array is written back by the point R / 2048: the blocks cover the array. -/
theorem covered2_3 (i : S18432x64.Idx) : ∃ t : Fin cfg2.N, (cfg2.win 3).flush t = true ∧ i ∈ ((cfg2.win 3).blk t).view.set := by
  have hi0 : (i 0).val < 18432 := (i 0).isLt
  have hi1 : (i 1).val < 64 := (i 1).isLt
  have hN : cfg2.N = 9 := N_2
  have hlt : (i 0).val / 2048 < cfg2.N := by rw [hN]; omega
  obtain ⟨-, -, -, -, -, -, e0, e1⟩ := idx2 ⟨(i 0).val / 2048, hlt⟩
  refine ⟨⟨(i 0).val / 2048, hlt⟩, flush2_3 _, ?_⟩
  rw [mem_blk2_3]
  intro a
  match a with
  | ⟨0, _⟩ =>
    show win2_3.index ⟨(i 0).val / 2048, hlt⟩ (0 : Fin 2) * 2048 ≤ (i 0).val ∧ (i 0).val < win2_3.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win2_3.index ⟨(i 0).val / 2048, hlt⟩ (1 : Fin 2) * 64 ≤ (i 1).val ∧ (i 1).val < win2_3.index ⟨(i 0).val / 2048, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed2 (c : Dev nD) (t : Fin cfg2.N) :
    (dat2 V c).flushed 3 t = ((cfg2.win 3).blk t).view.read (Elt Ideal)
      (Cert.Stage.encO (F := Ideal) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_off]
  simp only [View.ld_unit_zero (S := S2048x8) zero_off, View.ld_unit_zero (S := S8x64) zero_off, View.ld_unit_zero (S := S1x64) zero_off]
  refine funext fun (j : S2048x64.Idx) => ?_
  obtain ⟨r, q, rfl⟩ : ∃ (r : Fin 2048) (q : Fin 64), j = ix2 r q := ⟨j 0, j 1, eq_ix2 j⟩
  have hN : cfg2.N = 9 := N_2
  have hRr : t.val * 2048 + r.val < 18432 := by have := t.isLt; have := r.isLt; omega
  show k2_pay1 (F := Ideal) (iblk2 V c 0 t) (iblk2 V c 1 t) (iblk2 V c 2 t) (ix2 r q)
    = Cert.Stage.encO (F := Ideal) (V c (Pipeline.arrRef spec2 0)) (V c (Pipeline.arrRef spec2 1)) (V c (Pipeline.arrRef spec2 2)) (((cfg2.win 3).blk t).view.emb (ix2 r q))
  refine (pay2_point (iblk2 V c 0 t) (V c (Pipeline.arrRef spec2 0)) (iblk2 V c 1 t) (V c (Pipeline.arrRef spec2 1)) (iblk2 V c 2 t) (V c (Pipeline.arrRef spec2 2)) r ⟨t.val * 2048 + r.val, hRr⟩ q
      (read2_1 c (V c (Pipeline.arrRef spec2 1)) t) (read2_2 c (V c (Pipeline.arrRef spec2 2)) t) (fun k => read2_0 c (V c (Pipeline.arrRef spec2 0)) t r k ⟨t.val * 2048 + r.val, hRr⟩ rfl)).trans ?_
  exact congrArg (Cert.Stage.encO (F := Ideal) (V c (Pipeline.arrRef spec2 0)) (V c (Pipeline.arrRef spec2 1)) (V c (Pipeline.arrRef spec2 2))) (emb2_3 t r q ⟨t.val * 2048 + r.val, hRr⟩ rfl).symm

set_option maxHeartbeats 1000000 in
/-- THE REGION'S OUTPUT ARRAY after its write-backs: the host's stage of the arrays as the region finds them. -/
theorem value2 (c : Dev nD) :
    (dat2 V c).arrAt 3 cfg2.N = Cert.Stage.encO (F := Ideal) (V c (Pipeline.arrRef spec2 0)) (V c (Pipeline.arrRef spec2 1)) (V c (Pipeline.arrRef spec2 2)) :=
  (dat2 V c).arrAt_eq_of_cover 3 (Cert.Stage.encO (F := Ideal) (V c (Pipeline.arrRef spec2 0)) (V c (Pipeline.arrRef spec2 1)) (V c (Pipeline.arrRef spec2 2))) (fun t _ => flushed2 V c t) covered2_3

end Frame

end Cert.KernelIdeal.Reg

end
-- ==== Proof.Reg3.lean ====
/- Region 3 of the kernel program is a two-layer perceptron relu (h · w1 + b1) · w2 + b2 on 147456 rows, computed 4096 rows at a time over 36 grid points.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.mlpN). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 3: the two-layer perceptron relu (h · w1 + b1) · w2 + b2, 36 blocks of 4096 rows of 147456 -/

/-- Which array each window of region 3 stages. -/
theorem arrRef3_0 : Pipeline.arrRef spec3 0 = main_v37 := rfl
theorem arrRef3_1 : Pipeline.arrRef spec3 1 = main_v39 := rfl
theorem arrRef3_2 : Pipeline.arrRef spec3 2 = main_v46 := rfl
theorem arrRef3_3 : Pipeline.arrRef spec3 3 = main_v43 := rfl
theorem arrRef3_4 : Pipeline.arrRef spec3 4 = main_v47 := rfl
theorem arrRef3_5 : Pipeline.arrRef spec3 5 = main_v48 := rfl

/-- Row r of the block's payload is row Rr of the host's perceptron on the whole array, when row r of the input
    block is row Rr of the input and the weight and bias blocks are the weight and bias arrays. -/
theorem pay3_point (x0 : FVec Ideal S4096x64 .f32) (X : FVec Ideal S147456x64 .f32) (w1' w1 : FVec Ideal S64x128 .f32) (b1' b1 : FVec Ideal S1x128 .f32)
    (w2' w2 : FVec Ideal S128x64 .f32) (b2' b2 : FVec Ideal S1x64 .f32)
    (r : Fin 4096) (Rr : Fin 147456) (q : Fin 64) (hw1 : w1' = w1) (hb1 : b1' = b1) (hw2 : w2' = w2) (hb2 : b2' = b2)
    (hx : ∀ k : Fin 64, x0 (ix2 r k) = X (ix2 Rr k)) :
    k3_pay1 (F := Ideal) x0 w1' b1' w2' b2' (ix2 r q) = Cert.Stage.mlpN (F := Ideal) X w1 b1 w2 b2 (ix2 Rr q) := by
  subst hw1; subst hb1; subst hw2; subst hb2
  unfold k3_pay1 Cert.Stage.mlpN
  simp only [shapeCast_self]
  exact mlp_block _ rfl _ rfl _ rfl _ rfl _ _ _ _ _ _ _ _ _ x0 X w1' b1' w2' b2' r Rr q hx

/-- The index maps over the grid: a row-tiled window's block index is the point, a whole-array window's is zero. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point t holds rows t · 4096 … of its array. -/
theorem read3_0 (c : Dev nD) (A : Buf (Elt Ideal) ((c : Thread nD τ).loc (Pipeline.arrRef spec3 0))) (t : Fin cfg3.N)
    (r : Fin 4096) (k : Fin 64) (Rr : Fin 147456) (hR : Rr.val = t.val * 4096 + r.val) :
    (((cfg3.win 0).blk t).view.read (Elt Ideal) A : Vec Ideal S4096x64 .f32) (ix2 r k) = (A : Vec Ideal S147456x64 .f32) (ix2 Rr k) := by
  show (A : Vec Ideal S147456x64 .f32) (((cfg3.win 0).blk t).view.emb (ix2 r k)) = _
  refine congrArg (A : Vec Ideal S147456x64 .f32) ?_
  obtain ⟨e0, e1, -⟩ := idx3 t
  funext a; apply Fin.ext
  match a with
  | ⟨0, _⟩ => show win3_0.index t (0 : Fin 2) * 4096 + 1 * r.val = Rr.val; rw [e0, hR]; omega
  | ⟨1, _⟩ => show win3_0.index t (1 : Fin 2) * 64 + 1 * k.val = k.val; rw [e1]; omega

/-- Window 1's block is its whole array at every point. -/
theorem read3_1 (c : Dev nD) (A : Buf (Elt Ideal) ((c : Thread nD τ).loc (Pipeline.arrRef spec3 1))) (t : Fin cfg3.N) :
    (((cfg3.win 1).blk t).view.read (Elt Ideal) A : Vec Ideal S64x128 .f32) = (A : Vec Ideal S64x128 .f32) := by
  funext y
  show (A : Vec Ideal S64x128 .f32) (((cfg3.win 1).blk t).view.emb y) = _
  refine congrArg (A : Vec Ideal S64x128 .f32) ?_
  obtain ⟨-, -, e0, e1, -⟩ := idx3 t
  funext a; apply Fin.ext
  match a with
  | ⟨0, _⟩ => show win3_1.index t (0 : Fin 2) * 64 + 1 * (y 0).val = (y 0).val; rw [e0]; omega
  | ⟨1, _⟩ => show win3_1.index t (1 : Fin 2) * 128 + 1 * (y 1).val = (y 1).val; rw [e1]; omega

/-- Window 2's block is its whole array at every point. -/
theorem read3_2 (c : Dev nD) (A : Buf (Elt Ideal) ((c : Thread nD τ).loc (Pipeline.arrRef spec3 2))) (t : Fin cfg3.N) :
    (((cfg3.win 2).blk t).view.read (Elt Ideal) A : Vec Ideal S1x128 .f32) = (A : Vec Ideal S1x128 .f32) := by
  funext y
  show (A : Vec Ideal S1x128 .f32) (((cfg3.win 2).blk t).view.emb y) = _
  refine congrArg (A : Vec Ideal S1x128 .f32) ?_
  obtain ⟨-, -, -, -, e0, e1, -⟩ := idx3 t
  funext a; apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- Window 3's block is its whole array at every point. -/
theorem read3_3 (c : Dev nD) (A : Buf (Elt Ideal) ((c : Thread nD τ).loc (Pipeline.arrRef spec3 3))) (t : Fin cfg3.N) :
    (((cfg3.win 3).blk t).view.read (Elt Ideal) A : Vec Ideal S128x64 .f32) = (A : Vec Ideal S128x64 .f32) := by
  funext y
  show (A : Vec Ideal S128x64 .f32) (((cfg3.win 3).blk t).view.emb y) = _
  refine congrArg (A : Vec Ideal S128x64 .f32) ?_
  obtain ⟨-, -, -, -, -, -, e0, e1, -⟩ := idx3 t
  funext a; apply Fin.ext
  match a with
  | ⟨0, _⟩ => show win3_3.index t (0 : Fin 2) * 128 + 1 * (y 0).val = (y 0).val; rw [e0]; omega
  | ⟨1, _⟩ => show win3_3.index t (1 : Fin 2) * 64 + 1 * (y 1).val = (y 1).val; rw [e1]; omega

/-- Window 4's block is its whole array at every point. -/
theorem read3_4 (c : Dev nD) (A : Buf (Elt Ideal) ((c : Thread nD τ).loc (Pipeline.arrRef spec3 4))) (t : Fin cfg3.N) :
    (((cfg3.win 4).blk t).view.read (Elt Ideal) A : Vec Ideal S1x64 .f32) = (A : Vec Ideal S1x64 .f32) := by
  funext y
  show (A : Vec Ideal S1x64 .f32) (((cfg3.win 4).blk t).view.emb y) = _
  refine congrArg (A : Vec Ideal S1x64 .f32) ?_
  obtain ⟨-, -, -, -, -, -, -, -, e0, e1, -⟩ := idx3 t
  funext a; apply Fin.ext
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

/-- The output block's entry (r, q) at point t is the array's entry (t · 4096 + r, q). -/
theorem emb3_5 (t : Fin cfg3.N) (r : Fin 4096) (q : Fin 64) (Rr : Fin 147456) (hR : Rr.val = t.val * 4096 + r.val) :
    ((cfg3.win 5).blk t).view.emb (ix2 r q) = (ix2 Rr q : S147456x64.Idx) := by
  obtain ⟨-, -, -, -, -, -, -, -, -, -, e0, e1⟩ := idx3 t
  funext a; apply Fin.ext
  match a with
  | ⟨0, _⟩ => show win3_5.index t (0 : Fin 2) * 4096 + 1 * r.val = Rr.val; rw [e0, hR]; omega
  | ⟨1, _⟩ => show win3_5.index t (1 : Fin 2) * 64 + 1 * q.val = q.val; rw [e1]; omega

/-- An index of the output array lies in point t's block iff each coordinate lies in the block's range on its axis. -/
theorem mem_blk3_5 (t : Fin cfg3.N) (i : S147456x64.Idx) :
    i ∈ ((cfg3.win 5).blk t).view.set ↔ ∀ a : Fin 2, win3_5.index t a * S4096x64.size a ≤ (i a).val ∧ (i a).val < win3_5.index t a * S4096x64.size a + S4096x64.size a := by
  show i ∈ ((View.whole main_v48).slice (win3_5.rect t)).set ↔ _
  rw [View.set_slice_whole, Rect.mem_set_unit]
  exact Iff.rfl

/-- Row R of the output array is written back by the point R / 4096: the blocks cover the array. -/
theorem covered3_5 (i : S147456x64.Idx) : ∃ t : Fin cfg3.N, (cfg3.win 5).flush t = true ∧ i ∈ ((cfg3.win 5).blk t).view.set := by
  have hi0 : (i 0).val < 147456 := (i 0).isLt
  have hi1 : (i 1).val < 64 := (i 1).isLt
  have hN : cfg3.N = 36 := N_3
  have hlt : (i 0).val / 4096 < cfg3.N := by rw [hN]; omega
  obtain ⟨-, -, -, -, -, -, -, -, -, -, e0, e1⟩ := idx3 ⟨(i 0).val / 4096, hlt⟩
  refine ⟨⟨(i 0).val / 4096, hlt⟩, flush3_5 _, ?_⟩
  rw [mem_blk3_5]
  intro a
  match a with
  | ⟨0, _⟩ =>
    show win3_5.index ⟨(i 0).val / 4096, hlt⟩ (0 : Fin 2) * 4096 ≤ (i 0).val ∧ (i 0).val < win3_5.index ⟨(i 0).val / 4096, hlt⟩ (0 : Fin 2) * 4096 + 4096
    rw [e0]; show (i 0).val / 4096 * 4096 ≤ (i 0).val ∧ (i 0).val < (i 0).val / 4096 * 4096 + 4096; omega
  | ⟨1, _⟩ =>
    show win3_5.index ⟨(i 0).val / 4096, hlt⟩ (1 : Fin 2) * 64 ≤ (i 1).val ∧ (i 1).val < win3_5.index ⟨(i 0).val / 4096, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed3 (c : Dev nD) (t : Fin cfg3.N) :
    (dat3 V c).flushed 5 t = ((cfg3.win 5).blk t).view.read (Elt Ideal)
      (Cert.Stage.mlpN (F := Ideal) (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero zero_off]
  simp only [View.ld_unit_zero (S := S4096x64) zero_off, View.ld_unit_zero (S := S64x128) zero_off, View.ld_unit_zero (S := S1x128) zero_off, View.ld_unit_zero (S := S128x64) zero_off, View.ld_unit_zero (S := S1x64) zero_off]
  refine funext fun (j : S4096x64.Idx) => ?_
  obtain ⟨r, q, rfl⟩ : ∃ (r : Fin 4096) (q : Fin 64), j = ix2 r q := ⟨j 0, j 1, eq_ix2 j⟩
  have hN : cfg3.N = 36 := N_3
  have hRr : t.val * 4096 + r.val < 147456 := by have := t.isLt; have := r.isLt; omega
  show k3_pay1 (F := Ideal) (iblk3 V c 0 t) (iblk3 V c 1 t) (iblk3 V c 2 t) (iblk3 V c 3 t) (iblk3 V c 4 t) (ix2 r q)
    = Cert.Stage.mlpN (F := Ideal) (V c (Pipeline.arrRef spec3 0)) (V c (Pipeline.arrRef spec3 1)) (V c (Pipeline.arrRef spec3 2)) (V c (Pipeline.arrRef spec3 3)) (V c (Pipeline.arrRef spec3 4)) (((cfg3.win 5).blk t).view.emb (ix2 r q))
  refine (pay3_point (iblk3 V c 0 t) (V c (Pipeline.arrRef spec3 0)) (iblk3 V c 1 t) (V c (Pipeline.arrRef spec3 1)) (iblk3 V c 2 t) (V c (Pipeline.arrRef spec3 2)) (iblk3 V c 3 t) (V c (Pipeline.arrRef spec3 3)) (iblk3 V c 4 t) (V c (Pipeline.arrRef spec3 4)) r ⟨t.val * 4096 + r.val, hRr⟩ q
      (read3_1 c (V c (Pipeline.arrRef spec3 1)) t) (read3_2 c (V c (Pipeline.arrRef spec3 2)) t) (read3_3 c (V c (Pipeline.arrRef spec3 3)) t) (read3_4 c (V c (Pipeline.arrRef spec3 4)) t) (fun k => read3_0 c (V c (Pipeline.arrRef spec3 0)) t r k ⟨t.val * 4096 + r.val, hRr⟩ rfl)).trans ?_
  exact congrArg (Cert.Stage.mlpN (F := Ideal) (V c (Pipeline.arrRef spec3 0)) (V c (Pipeline.arrRef spec3 1)) (V c (Pipeline.arrRef spec3 2)) (V c (Pipeline.arrRef spec3 3)) (V c (Pipeline.arrRef spec3 4))) (emb3_5 t r q ⟨t.val * 4096 + r.val, hRr⟩ rfl).symm

set_option maxHeartbeats 1000000 in
/-- THE REGION'S OUTPUT ARRAY after its write-backs: the host's stage of the arrays as the region finds them. -/
theorem value3 (c : Dev nD) :
    (dat3 V c).arrAt 5 cfg3.N = Cert.Stage.mlpN (F := Ideal) (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 (Cert.Stage.mlpN (F := Ideal) (V c (Pipeline.arrRef spec3 0)) (V c (Pipeline.arrRef spec3 1)) (V c (Pipeline.arrRef spec3 2)) (V c (Pipeline.arrRef spec3 3)) (V c (Pipeline.arrRef spec3 4))) (fun t _ => flushed3 V c t) covered3_5

end Frame

end Cert.KernelIdeal.Reg

end
-- ==== Proof.Reg4.lean ====
/- Region 4 of the kernel program is a two-layer perceptron relu (h · w1 + b1) · w2 + b2 on 3072 rows, computed 3072 rows at a time over 1 grid point.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.mlpM). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 4: the two-layer perceptron relu (h · w1 + b1) · w2 + b2, 1 block of 3072 rows of 3072 -/

/-- Which array each window of region 4 stages. -/
theorem arrRef4_0 : Pipeline.arrRef spec4 0 = main_v87 := rfl
theorem arrRef4_1 : Pipeline.arrRef spec4 1 = main_v89 := rfl
theorem arrRef4_2 : Pipeline.arrRef spec4 2 = main_v96 := rfl
theorem arrRef4_3 : Pipeline.arrRef spec4 3 = main_v93 := rfl
theorem arrRef4_4 : Pipeline.arrRef spec4 4 = main_v97 := rfl
theorem arrRef4_5 : Pipeline.arrRef spec4 5 = main_v98 := rfl

/-- Row r of the block's payload is row Rr of the host's perceptron on the whole array, when row r of the input
    block is row Rr of the input and the weight and bias blocks are the weight and bias arrays. -/
theorem pay4_point (x0 : FVec Ideal S3072x64 .f32) (X : FVec Ideal S3072x64 .f32) (w1' w1 : FVec Ideal S64x128 .f32) (b1' b1 : FVec Ideal S1x128 .f32)
    (w2' w2 : FVec Ideal S128x64 .f32) (b2' b2 : FVec Ideal S1x64 .f32)
    (r : Fin 3072) (Rr : Fin 3072) (q : Fin 64) (hw1 : w1' = w1) (hb1 : b1' = b1) (hw2 : w2' = w2) (hb2 : b2' = b2)
    (hx : ∀ k : Fin 64, x0 (ix2 r k) = X (ix2 Rr k)) :
    k4_pay1 (F := Ideal) x0 w1' b1' w2' b2' (ix2 r q) = Cert.Stage.mlpM (F := Ideal) X w1 b1 w2 b2 (ix2 Rr q) := by
  subst hw1; subst hb1; subst hw2; subst hb2
  unfold k4_pay1 Cert.Stage.mlpM
  simp only [shapeCast_self]
  exact mlp_block _ rfl _ rfl _ rfl _ rfl _ _ _ _ _ _ _ _ _ x0 X w1' b1' w2' b2' r Rr q hx

/-- The index maps over the grid: a row-tiled window's block index is the point, a whole-array window's is zero. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Window 0's block at point t holds rows t · 3072 … of its array. -/
theorem read4_0 (c : Dev nD) (A : Buf (Elt Ideal) ((c : Thread nD τ).loc (Pipeline.arrRef spec4 0))) (t : Fin cfg4.N)
    (r : Fin 3072) (k : Fin 64) (Rr : Fin 3072) (hR : Rr.val = t.val * 3072 + r.val) :
    (((cfg4.win 0).blk t).view.read (Elt Ideal) A : Vec Ideal S3072x64 .f32) (ix2 r k) = (A : Vec Ideal S3072x64 .f32) (ix2 Rr k) := by
  show (A : Vec Ideal S3072x64 .f32) (((cfg4.win 0).blk t).view.emb (ix2 r k)) = _
  refine congrArg (A : Vec Ideal S3072x64 .f32) ?_
  obtain ⟨e0, e1, -⟩ := idx4 t
  funext a; apply Fin.ext
  match a with
  | ⟨0, _⟩ => show win4_0.index t (0 : Fin 2) * 3072 + 1 * r.val = Rr.val; rw [e0, hR]; omega
  | ⟨1, _⟩ => show win4_0.index t (1 : Fin 2) * 64 + 1 * k.val = k.val; rw [e1]; omega

/-- Window 1's block is its whole array at every point. -/
theorem read4_1 (c : Dev nD) (A : Buf (Elt Ideal) ((c : Thread nD τ).loc (Pipeline.arrRef spec4 1))) (t : Fin cfg4.N) :
    (((cfg4.win 1).blk t).view.read (Elt Ideal) A : Vec Ideal S64x128 .f32) = (A : Vec Ideal S64x128 .f32) := by
  funext y
  show (A : Vec Ideal S64x128 .f32) (((cfg4.win 1).blk t).view.emb y) = _
  refine congrArg (A : Vec Ideal S64x128 .f32) ?_
  obtain ⟨-, -, e0, e1, -⟩ := idx4 t
  funext a; apply Fin.ext
  match a with
  | ⟨0, _⟩ => show win4_1.index t (0 : Fin 2) * 64 + 1 * (y 0).val = (y 0).val; rw [e0]; omega
  | ⟨1, _⟩ => show win4_1.index t (1 : Fin 2) * 128 + 1 * (y 1).val = (y 1).val; rw [e1]; omega

/-- Window 2's block is its whole array at every point. -/
theorem read4_2 (c : Dev nD) (A : Buf (Elt Ideal) ((c : Thread nD τ).loc (Pipeline.arrRef spec4 2))) (t : Fin cfg4.N) :
    (((cfg4.win 2).blk t).view.read (Elt Ideal) A : Vec Ideal S1x128 .f32) = (A : Vec Ideal S1x128 .f32) := by
  funext y
  show (A : Vec Ideal S1x128 .f32) (((cfg4.win 2).blk t).view.emb y) = _
  refine congrArg (A : Vec Ideal S1x128 .f32) ?_
  obtain ⟨-, -, -, -, e0, e1, -⟩ := idx4 t
  funext a; apply Fin.ext
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- Window 3's block is its whole array at every point. -/
theorem read4_3 (c : Dev nD) (A : Buf (Elt Ideal) ((c : Thread nD τ).loc (Pipeline.arrRef spec4 3))) (t : Fin cfg4.N) :
    (((cfg4.win 3).blk t).view.read (Elt Ideal) A : Vec Ideal S128x64 .f32) = (A : Vec Ideal S128x64 .f32) := by
  funext y
  show (A : Vec Ideal S128x64 .f32) (((cfg4.win 3).blk t).view.emb y) = _
  refine congrArg (A : Vec Ideal S128x64 .f32) ?_
  obtain ⟨-, -, -, -, -, -, e0, e1, -⟩ := idx4 t
  funext a; apply Fin.ext
  match a with
  | ⟨0, _⟩ => show win4_3.index t (0 : Fin 2) * 128 + 1 * (y 0).val = (y 0).val; rw [e0]; omega
  | ⟨1, _⟩ => show win4_3.index t (1 : Fin 2) * 64 + 1 * (y 1).val = (y 1).val; rw [e1]; omega

/-- Window 4's block is its whole array at every point. -/
theorem read4_4 (c : Dev nD) (A : Buf (Elt Ideal) ((c : Thread nD τ).loc (Pipeline.arrRef spec4 4))) (t : Fin cfg4.N) :
    (((cfg4.win 4).blk t).view.read (Elt Ideal) A : Vec Ideal S1x64 .f32) = (A : Vec Ideal S1x64 .f32) := by
  funext y
  show (A : Vec Ideal S1x64 .f32) (((cfg4.win 4).blk t).view.emb y) = _
  refine congrArg (A : Vec Ideal S1x64 .f32) ?_
  obtain ⟨-, -, -, -, -, -, -, -, e0, e1, -⟩ := idx4 t
  funext a; apply Fin.ext
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- The output block's entry (r, q) at point t is the array's entry (t · 3072 + r, q). -/
theorem emb4_5 (t : Fin cfg4.N) (r : Fin 3072) (q : Fin 64) (Rr : Fin 3072) (hR : Rr.val = t.val * 3072 + r.val) :
    ((cfg4.win 5).blk t).view.emb (ix2 r q) = (ix2 Rr q : S3072x64.Idx) := by
  obtain ⟨-, -, -, -, -, -, -, -, -, -, e0, e1⟩ := idx4 t
  funext a; apply Fin.ext
  match a with
  | ⟨0, _⟩ => show win4_5.index t (0 : Fin 2) * 3072 + 1 * r.val = Rr.val; rw [e0, hR]; omega
  | ⟨1, _⟩ => show win4_5.index t (1 : Fin 2) * 64 + 1 * q.val = q.val; rw [e1]; omega

/-- An index of the output array lies in point t's block iff each coordinate lies in the block's range on its axis. -/
theorem mem_blk4_5 (t : Fin cfg4.N) (i : S3072x64.Idx) :
    i ∈ ((cfg4.win 5).blk t).view.set ↔ ∀ a : Fin 2, win4_5.index t a * S3072x64.size a ≤ (i a).val ∧ (i a).val < win4_5.index t a * S3072x64.size a + S3072x64.size a := by
  show i ∈ ((View.whole main_v98).slice (win4_5.rect t)).set ↔ _
  rw [View.set_slice_whole, Rect.mem_set_unit]
  exact Iff.rfl

/-- Row R of the output array is written back by the point R / 3072: the blocks cover the array. -/
theorem covered4_5 (i : S3072x64.Idx) : ∃ t : Fin cfg4.N, (cfg4.win 5).flush t = true ∧ i ∈ ((cfg4.win 5).blk t).view.set := by
  have hi0 : (i 0).val < 3072 := (i 0).isLt
  have hi1 : (i 1).val < 64 := (i 1).isLt
  have hN : cfg4.N = 1 := N_4
  have hlt : (i 0).val / 3072 < cfg4.N := by rw [hN]; omega
  obtain ⟨-, -, -, -, -, -, -, -, -, -, e0, e1⟩ := idx4 ⟨(i 0).val / 3072, hlt⟩
  refine ⟨⟨(i 0).val / 3072, hlt⟩, flush4_5 _, ?_⟩
  rw [mem_blk4_5]
  intro a
  match a with
  | ⟨0, _⟩ =>
    show win4_5.index ⟨(i 0).val / 3072, hlt⟩ (0 : Fin 2) * 3072 ≤ (i 0).val ∧ (i 0).val < win4_5.index ⟨(i 0).val / 3072, hlt⟩ (0 : Fin 2) * 3072 + 3072
    rw [e0]; show (i 0).val / 3072 * 3072 ≤ (i 0).val ∧ (i 0).val < (i 0).val / 3072 * 3072 + 3072; omega
  | ⟨1, _⟩ =>
    show win4_5.index ⟨(i 0).val / 3072, hlt⟩ (1 : Fin 2) * 64 ≤ (i 1).val ∧ (i 1).val < win4_5.index ⟨(i 0).val / 3072, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed4 (c : Dev nD) (t : Fin cfg4.N) :
    (dat4 V c).flushed 5 t = ((cfg4.win 5).blk t).view.read (Elt Ideal)
      (Cert.Stage.mlpM (F := Ideal) (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 V c).after 5 t) = _
  rw [after4_5]
  unfold out4_5
  rw [View.canon_unit_zero zero_off]
  simp only [View.ld_unit_zero (S := S3072x64) zero_off, View.ld_unit_zero (S := S64x128) zero_off, View.ld_unit_zero (S := S1x128) zero_off, View.ld_unit_zero (S := S128x64) zero_off, View.ld_unit_zero (S := S1x64) zero_off]
  refine funext fun (j : S3072x64.Idx) => ?_
  obtain ⟨r, q, rfl⟩ : ∃ (r : Fin 3072) (q : Fin 64), j = ix2 r q := ⟨j 0, j 1, eq_ix2 j⟩
  have hN : cfg4.N = 1 := N_4
  have hRr : t.val * 3072 + r.val < 3072 := by have := t.isLt; have := r.isLt; omega
  show k4_pay1 (F := Ideal) (iblk4 V c 0 t) (iblk4 V c 1 t) (iblk4 V c 2 t) (iblk4 V c 3 t) (iblk4 V c 4 t) (ix2 r q)
    = Cert.Stage.mlpM (F := Ideal) (V c (Pipeline.arrRef spec4 0)) (V c (Pipeline.arrRef spec4 1)) (V c (Pipeline.arrRef spec4 2)) (V c (Pipeline.arrRef spec4 3)) (V c (Pipeline.arrRef spec4 4)) (((cfg4.win 5).blk t).view.emb (ix2 r q))
  refine (pay4_point (iblk4 V c 0 t) (V c (Pipeline.arrRef spec4 0)) (iblk4 V c 1 t) (V c (Pipeline.arrRef spec4 1)) (iblk4 V c 2 t) (V c (Pipeline.arrRef spec4 2)) (iblk4 V c 3 t) (V c (Pipeline.arrRef spec4 3)) (iblk4 V c 4 t) (V c (Pipeline.arrRef spec4 4)) r ⟨t.val * 3072 + r.val, hRr⟩ q
      (read4_1 c (V c (Pipeline.arrRef spec4 1)) t) (read4_2 c (V c (Pipeline.arrRef spec4 2)) t) (read4_3 c (V c (Pipeline.arrRef spec4 3)) t) (read4_4 c (V c (Pipeline.arrRef spec4 4)) t) (fun k => read4_0 c (V c (Pipeline.arrRef spec4 0)) t r k ⟨t.val * 3072 + r.val, hRr⟩ rfl)).trans ?_
  exact congrArg (Cert.Stage.mlpM (F := Ideal) (V c (Pipeline.arrRef spec4 0)) (V c (Pipeline.arrRef spec4 1)) (V c (Pipeline.arrRef spec4 2)) (V c (Pipeline.arrRef spec4 3)) (V c (Pipeline.arrRef spec4 4))) (emb4_5 t r q ⟨t.val * 3072 + r.val, hRr⟩ rfl).symm

set_option maxHeartbeats 1000000 in
/-- THE REGION'S OUTPUT ARRAY after its write-backs: the host's stage of the arrays as the region finds them. -/
theorem value4 (c : Dev nD) :
    (dat4 V c).arrAt 5 cfg4.N = Cert.Stage.mlpM (F := Ideal) (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 5 (Cert.Stage.mlpM (F := Ideal) (V c (Pipeline.arrRef spec4 0)) (V c (Pipeline.arrRef spec4 1)) (V c (Pipeline.arrRef spec4 2)) (V c (Pipeline.arrRef spec4 3)) (V c (Pipeline.arrRef spec4 4))) (fun t _ => flushed4 V c t) covered4_5

end Frame

end Cert.KernelIdeal.Reg

end
-- ==== Proof.Reg5.lean ====
/- Region 5 of the kernel program is the fused epilogue relu (g · scale + shift + h) on 147456 rows, computed 8192 rows at a time over 18 grid points.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.combine). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 5: the fused epilogue relu (g · scale + shift + h), 18 blocks of 8192 rows of 147456 -/

/-- Which array each window of region 5 stages. -/
theorem arrRef5_0 : Pipeline.arrRef spec5 0 = main_v48 := rfl
theorem arrRef5_1 : Pipeline.arrRef spec5 1 = main_v126 := rfl
theorem arrRef5_2 : Pipeline.arrRef spec5 2 = main_v127 := rfl
theorem arrRef5_3 : Pipeline.arrRef spec5 3 = main_v125 := rfl
theorem arrRef5_4 : Pipeline.arrRef spec5 4 = main_v128 := rfl

/-- Entry (r, q) of the block's payload is entry (Rr, q) of the host's epilogue on the whole arrays, when the two
    row-tiled blocks hold there what the two arrays hold at (Rr, q) and the scale and shift blocks are the arrays. -/
theorem pay5_point (g0 h0 : FVec Ideal S8192x64 .f32) (G Hh : FVec Ideal S147456x64 .f32) (s' s t' t : FVec Ideal S1x64 .f32)
    (r : Fin 8192) (Rr : Fin 147456) (q : Fin 64) (hs : s' = s) (ht : t' = t)
    (hg : g0 (ix2 r q) = G (ix2 Rr q)) (hh : h0 (ix2 r q) = Hh (ix2 Rr q)) :
    k5_pay1 (F := Ideal) g0 s' t' h0 (ix2 r q) = Cert.Stage.combine (F := Ideal) G s t Hh (ix2 Rr q) := by
  subst hs; subst ht
  unfold k5_pay1 Cert.Stage.combine Cert.Stage.reluN
  simp only [shapeCast_self]
  exact combine_block _ _ _ g0 h0 G Hh s' t' r Rr q hg hh

/-- The index maps over the grid: a row-tiled window's block index is the point, a whole-array window's is zero. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Window 0's block at point t holds rows t · 8192 … of its array. -/
theorem read5_0 (c : Dev nD) (A : Buf (Elt Ideal) ((c : Thread nD τ).loc (Pipeline.arrRef spec5 0))) (t : Fin cfg5.N)
    (r : Fin 8192) (k : Fin 64) (Rr : Fin 147456) (hR : Rr.val = t.val * 8192 + r.val) :
    (((cfg5.win 0).blk t).view.read (Elt Ideal) A : Vec Ideal S8192x64 .f32) (ix2 r k) = (A : Vec Ideal S147456x64 .f32) (ix2 Rr k) := by
  show (A : Vec Ideal S147456x64 .f32) (((cfg5.win 0).blk t).view.emb (ix2 r k)) = _
  refine congrArg (A : Vec Ideal S147456x64 .f32) ?_
  obtain ⟨e0, e1, -⟩ := idx5 t
  funext a; apply Fin.ext
  match a with
  | ⟨0, _⟩ => show win5_0.index t (0 : Fin 2) * 8192 + 1 * r.val = Rr.val; rw [e0, hR]; omega
  | ⟨1, _⟩ => show win5_0.index t (1 : Fin 2) * 64 + 1 * k.val = k.val; rw [e1]; omega

/-- Window 1's block is its whole array at every point. -/
theorem read5_1 (c : Dev nD) (A : Buf (Elt Ideal) ((c : Thread nD τ).loc (Pipeline.arrRef spec5 1))) (t : Fin cfg5.N) :
    (((cfg5.win 1).blk t).view.read (Elt Ideal) A : Vec Ideal S1x64 .f32) = (A : Vec Ideal S1x64 .f32) := by
  funext y
  show (A : Vec Ideal S1x64 .f32) (((cfg5.win 1).blk t).view.emb y) = _
  refine congrArg (A : Vec Ideal S1x64 .f32) ?_
  obtain ⟨-, -, e0, e1, -⟩ := idx5 t
  funext a; apply Fin.ext
  match a with
  | ⟨0, _⟩ => show win5_1.index t (0 : Fin 2) * 1 + 1 * (y 0).val = (y 0).val; rw [e0]; omega
  | ⟨1, _⟩ => show win5_1.index t (1 : Fin 2) * 64 + 1 * (y 1).val = (y 1).val; rw [e1]; omega

/-- Window 2's block is its whole array at every point. -/
theorem read5_2 (c : Dev nD) (A : Buf (Elt Ideal) ((c : Thread nD τ).loc (Pipeline.arrRef spec5 2))) (t : Fin cfg5.N) :
    (((cfg5.win 2).blk t).view.read (Elt Ideal) A : Vec Ideal S1x64 .f32) = (A : Vec Ideal S1x64 .f32) := by
  funext y
  show (A : Vec Ideal S1x64 .f32) (((cfg5.win 2).blk t).view.emb y) = _
  refine congrArg (A : Vec Ideal S1x64 .f32) ?_
  obtain ⟨-, -, -, -, e0, e1, -⟩ := idx5 t
  funext a; apply Fin.ext
  match a with
  | ⟨0, _⟩ => show win5_2.index t (0 : Fin 2) * 1 + 1 * (y 0).val = (y 0).val; rw [e0]; omega
  | ⟨1, _⟩ => show win5_2.index t (1 : Fin 2) * 64 + 1 * (y 1).val = (y 1).val; rw [e1]; omega

/-- Window 3's block at point t holds rows t · 8192 … of its array. -/
theorem read5_3 (c : Dev nD) (A : Buf (Elt Ideal) ((c : Thread nD τ).loc (Pipeline.arrRef spec5 3))) (t : Fin cfg5.N)
    (r : Fin 8192) (k : Fin 64) (Rr : Fin 147456) (hR : Rr.val = t.val * 8192 + r.val) :
    (((cfg5.win 3).blk t).view.read (Elt Ideal) A : Vec Ideal S8192x64 .f32) (ix2 r k) = (A : Vec Ideal S147456x64 .f32) (ix2 Rr k) := by
  show (A : Vec Ideal S147456x64 .f32) (((cfg5.win 3).blk t).view.emb (ix2 r k)) = _
  refine congrArg (A : Vec Ideal S147456x64 .f32) ?_
  obtain ⟨-, -, -, -, -, -, e0, e1, -⟩ := idx5 t
  funext a; apply Fin.ext
  match a with
  | ⟨0, _⟩ => show win5_3.index t (0 : Fin 2) * 8192 + 1 * r.val = Rr.val; rw [e0, hR]; omega
  | ⟨1, _⟩ => show win5_3.index t (1 : Fin 2) * 64 + 1 * k.val = k.val; rw [e1]; omega

/-- The output block's entry (r, q) at point t is the array's entry (t · 8192 + r, q). -/
theorem emb5_4 (t : Fin cfg5.N) (r : Fin 8192) (q : Fin 64) (Rr : Fin 147456) (hR : Rr.val = t.val * 8192 + r.val) :
    ((cfg5.win 4).blk t).view.emb (ix2 r q) = (ix2 Rr q : S147456x64.Idx) := by
  obtain ⟨-, -, -, -, -, -, -, -, e0, e1⟩ := idx5 t
  funext a; apply Fin.ext
  match a with
  | ⟨0, _⟩ => show win5_4.index t (0 : Fin 2) * 8192 + 1 * r.val = Rr.val; rw [e0, hR]; omega
  | ⟨1, _⟩ => show win5_4.index t (1 : Fin 2) * 64 + 1 * q.val = q.val; rw [e1]; omega

/-- An index of the output array lies in point t's block iff each coordinate lies in the block's range on its axis. -/
theorem mem_blk5_4 (t : Fin cfg5.N) (i : S147456x64.Idx) :
    i ∈ ((cfg5.win 4).blk t).view.set ↔ ∀ a : Fin 2, win5_4.index t a * S8192x64.size a ≤ (i a).val ∧ (i a).val < win5_4.index t a * S8192x64.size a + S8192x64.size a := by
  show i ∈ ((View.whole main_v128).slice (win5_4.rect t)).set ↔ _
  rw [View.set_slice_whole, Rect.mem_set_unit]
  exact Iff.rfl

/-- Row R of the output array is written back by the point R / 8192: the blocks cover the array. -/
theorem covered5_4 (i : S147456x64.Idx) : ∃ t : Fin cfg5.N, (cfg5.win 4).flush t = true ∧ i ∈ ((cfg5.win 4).blk t).view.set := by
  have hi0 : (i 0).val < 147456 := (i 0).isLt
  have hi1 : (i 1).val < 64 := (i 1).isLt
  have hN : cfg5.N = 18 := N_5
  have hlt : (i 0).val / 8192 < cfg5.N := by rw [hN]; omega
  obtain ⟨-, -, -, -, -, -, -, -, e0, e1⟩ := idx5 ⟨(i 0).val / 8192, hlt⟩
  refine ⟨⟨(i 0).val / 8192, hlt⟩, flush5_4 _, ?_⟩
  rw [mem_blk5_4]
  intro a
  match a with
  | ⟨0, _⟩ =>
    show win5_4.index ⟨(i 0).val / 8192, hlt⟩ (0 : Fin 2) * 8192 ≤ (i 0).val ∧ (i 0).val < win5_4.index ⟨(i 0).val / 8192, hlt⟩ (0 : Fin 2) * 8192 + 8192
    rw [e0]; show (i 0).val / 8192 * 8192 ≤ (i 0).val ∧ (i 0).val < (i 0).val / 8192 * 8192 + 8192; omega
  | ⟨1, _⟩ =>
    show win5_4.index ⟨(i 0).val / 8192, hlt⟩ (1 : Fin 2) * 64 ≤ (i 1).val ∧ (i 1).val < win5_4.index ⟨(i 0).val / 8192, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed5 (c : Dev nD) (t : Fin cfg5.N) :
    (dat5 V c).flushed 4 t = ((cfg5.win 4).blk t).view.read (Elt Ideal)
      (Cert.Stage.combine (F := Ideal) (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero zero_off]
  simp only [View.ld_unit_zero (S := S8192x64) zero_off, View.ld_unit_zero (S := S1x64) zero_off]
  refine funext fun (j : S8192x64.Idx) => ?_
  obtain ⟨r, q, rfl⟩ : ∃ (r : Fin 8192) (q : Fin 64), j = ix2 r q := ⟨j 0, j 1, eq_ix2 j⟩
  have hN : cfg5.N = 18 := N_5
  have hRr : t.val * 8192 + r.val < 147456 := by have := t.isLt; have := r.isLt; omega
  show k5_pay1 (F := Ideal) (iblk5 V c 0 t) (iblk5 V c 1 t) (iblk5 V c 2 t) (iblk5 V c 3 t) (ix2 r q)
    = Cert.Stage.combine (F := Ideal) (V c (Pipeline.arrRef spec5 0)) (V c (Pipeline.arrRef spec5 1)) (V c (Pipeline.arrRef spec5 2)) (V c (Pipeline.arrRef spec5 3)) (((cfg5.win 4).blk t).view.emb (ix2 r q))
  refine (pay5_point (iblk5 V c 0 t) (iblk5 V c 3 t) (V c (Pipeline.arrRef spec5 0)) (V c (Pipeline.arrRef spec5 3)) (iblk5 V c 1 t) (V c (Pipeline.arrRef spec5 1)) (iblk5 V c 2 t) (V c (Pipeline.arrRef spec5 2)) r ⟨t.val * 8192 + r.val, hRr⟩ q
      (read5_1 c (V c (Pipeline.arrRef spec5 1)) t) (read5_2 c (V c (Pipeline.arrRef spec5 2)) t) (read5_0 c (V c (Pipeline.arrRef spec5 0)) t r q ⟨t.val * 8192 + r.val, hRr⟩ rfl) (read5_3 c (V c (Pipeline.arrRef spec5 3)) t r q ⟨t.val * 8192 + r.val, hRr⟩ rfl)).trans ?_
  exact congrArg (Cert.Stage.combine (F := Ideal) (V c (Pipeline.arrRef spec5 0)) (V c (Pipeline.arrRef spec5 1)) (V c (Pipeline.arrRef spec5 2)) (V c (Pipeline.arrRef spec5 3))) (emb5_4 t r q ⟨t.val * 8192 + r.val, hRr⟩ rfl).symm

set_option maxHeartbeats 1000000 in
/-- THE REGION'S OUTPUT ARRAY after its write-backs: the host's stage of the arrays as the region finds them. -/
theorem value5 (c : Dev nD) :
    (dat5 V c).arrAt 4 cfg5.N = Cert.Stage.combine (F := Ideal) (V c (Pipeline.arrRef spec5 0)) (V c (Pipeline.arrRef spec5 1)) (V c (Pipeline.arrRef spec5 2)) (V c (Pipeline.arrRef spec5 3)) :=
  (dat5 V c).arrAt_eq_of_cover 4 (Cert.Stage.combine (F := Ideal) (V c (Pipeline.arrRef spec5 0)) (V c (Pipeline.arrRef spec5 1)) (V c (Pipeline.arrRef spec5 2)) (V c (Pipeline.arrRef spec5 3))) (fun t _ => flushed5 V c t) covered5_4

end Frame

end Cert.KernelIdeal.Reg

end
-- ==== Proof.Reg6.lean ====
/- Region 6 of the kernel program is a two-layer perceptron relu (h · w1 + b1) · w2 + b2 on 147456 rows, computed 4096 rows at a time over 36 grid points.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.mlpN). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 6: the two-layer perceptron relu (h · w1 + b1) · w2 + b2, 36 blocks of 4096 rows of 147456 -/

/-- Which array each window of region 6 stages. -/
theorem arrRef6_0 : Pipeline.arrRef spec6 0 = main_v141 := rfl
theorem arrRef6_1 : Pipeline.arrRef spec6 1 = main_v143 := rfl
theorem arrRef6_2 : Pipeline.arrRef spec6 2 = main_v150 := rfl
theorem arrRef6_3 : Pipeline.arrRef spec6 3 = main_v147 := rfl
theorem arrRef6_4 : Pipeline.arrRef spec6 4 = main_v151 := rfl
theorem arrRef6_5 : Pipeline.arrRef spec6 5 = main_v152 := rfl

/-- Row r of the block's payload is row Rr of the host's perceptron on the whole array, when row r of the input
    block is row Rr of the input and the weight and bias blocks are the weight and bias arrays. -/
theorem pay6_point (x0 : FVec Ideal S4096x64 .f32) (X : FVec Ideal S147456x64 .f32) (w1' w1 : FVec Ideal S64x128 .f32) (b1' b1 : FVec Ideal S1x128 .f32)
    (w2' w2 : FVec Ideal S128x64 .f32) (b2' b2 : FVec Ideal S1x64 .f32)
    (r : Fin 4096) (Rr : Fin 147456) (q : Fin 64) (hw1 : w1' = w1) (hb1 : b1' = b1) (hw2 : w2' = w2) (hb2 : b2' = b2)
    (hx : ∀ k : Fin 64, x0 (ix2 r k) = X (ix2 Rr k)) :
    k6_pay1 (F := Ideal) x0 w1' b1' w2' b2' (ix2 r q) = Cert.Stage.mlpN (F := Ideal) X w1 b1 w2 b2 (ix2 Rr q) := by
  subst hw1; subst hb1; subst hw2; subst hb2
  unfold k6_pay1 Cert.Stage.mlpN
  simp only [shapeCast_self]
  exact mlp_block _ rfl _ rfl _ rfl _ rfl _ _ _ _ _ _ _ _ _ x0 X w1' b1' w2' b2' r Rr q hx

/-- The index maps over the grid: a row-tiled window's block index is the point, a whole-array window's is zero. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Window 0's block at point t holds rows t · 4096 … of its array. -/
theorem read6_0 (c : Dev nD) (A : Buf (Elt Ideal) ((c : Thread nD τ).loc (Pipeline.arrRef spec6 0))) (t : Fin cfg6.N)
    (r : Fin 4096) (k : Fin 64) (Rr : Fin 147456) (hR : Rr.val = t.val * 4096 + r.val) :
    (((cfg6.win 0).blk t).view.read (Elt Ideal) A : Vec Ideal S4096x64 .f32) (ix2 r k) = (A : Vec Ideal S147456x64 .f32) (ix2 Rr k) := by
  show (A : Vec Ideal S147456x64 .f32) (((cfg6.win 0).blk t).view.emb (ix2 r k)) = _
  refine congrArg (A : Vec Ideal S147456x64 .f32) ?_
  obtain ⟨e0, e1, -⟩ := idx6 t
  funext a; apply Fin.ext
  match a with
  | ⟨0, _⟩ => show win6_0.index t (0 : Fin 2) * 4096 + 1 * r.val = Rr.val; rw [e0, hR]; omega
  | ⟨1, _⟩ => show win6_0.index t (1 : Fin 2) * 64 + 1 * k.val = k.val; rw [e1]; omega

/-- Window 1's block is its whole array at every point. -/
theorem read6_1 (c : Dev nD) (A : Buf (Elt Ideal) ((c : Thread nD τ).loc (Pipeline.arrRef spec6 1))) (t : Fin cfg6.N) :
    (((cfg6.win 1).blk t).view.read (Elt Ideal) A : Vec Ideal S64x128 .f32) = (A : Vec Ideal S64x128 .f32) := by
  funext y
  show (A : Vec Ideal S64x128 .f32) (((cfg6.win 1).blk t).view.emb y) = _
  refine congrArg (A : Vec Ideal S64x128 .f32) ?_
  obtain ⟨-, -, e0, e1, -⟩ := idx6 t
  funext a; apply Fin.ext
  match a with
  | ⟨0, _⟩ => show win6_1.index t (0 : Fin 2) * 64 + 1 * (y 0).val = (y 0).val; rw [e0]; omega
  | ⟨1, _⟩ => show win6_1.index t (1 : Fin 2) * 128 + 1 * (y 1).val = (y 1).val; rw [e1]; omega

/-- Window 2's block is its whole array at every point. -/
theorem read6_2 (c : Dev nD) (A : Buf (Elt Ideal) ((c : Thread nD τ).loc (Pipeline.arrRef spec6 2))) (t : Fin cfg6.N) :
    (((cfg6.win 2).blk t).view.read (Elt Ideal) A : Vec Ideal S1x128 .f32) = (A : Vec Ideal S1x128 .f32) := by
  funext y
  show (A : Vec Ideal S1x128 .f32) (((cfg6.win 2).blk t).view.emb y) = _
  refine congrArg (A : Vec Ideal S1x128 .f32) ?_
  obtain ⟨-, -, -, -, e0, e1, -⟩ := idx6 t
  funext a; apply Fin.ext
  match a with
  | ⟨0, _⟩ => show win6_2.index t (0 : Fin 2) * 1 + 1 * (y 0).val = (y 0).val; rw [e0]; omega
  | ⟨1, _⟩ => show win6_2.index t (1 : Fin 2) * 128 + 1 * (y 1).val = (y 1).val; rw [e1]; omega

/-- Window 3's block is its whole array at every point. -/
theorem read6_3 (c : Dev nD) (A : Buf (Elt Ideal) ((c : Thread nD τ).loc (Pipeline.arrRef spec6 3))) (t : Fin cfg6.N) :
    (((cfg6.win 3).blk t).view.read (Elt Ideal) A : Vec Ideal S128x64 .f32) = (A : Vec Ideal S128x64 .f32) := by
  funext y
  show (A : Vec Ideal S128x64 .f32) (((cfg6.win 3).blk t).view.emb y) = _
  refine congrArg (A : Vec Ideal S128x64 .f32) ?_
  obtain ⟨-, -, -, -, -, -, e0, e1, -⟩ := idx6 t
  funext a; apply Fin.ext
  match a with
  | ⟨0, _⟩ => show win6_3.index t (0 : Fin 2) * 128 + 1 * (y 0).val = (y 0).val; rw [e0]; omega
  | ⟨1, _⟩ => show win6_3.index t (1 : Fin 2) * 64 + 1 * (y 1).val = (y 1).val; rw [e1]; omega

/-- Window 4's block is its whole array at every point. -/
theorem read6_4 (c : Dev nD) (A : Buf (Elt Ideal) ((c : Thread nD τ).loc (Pipeline.arrRef spec6 4))) (t : Fin cfg6.N) :
    (((cfg6.win 4).blk t).view.read (Elt Ideal) A : Vec Ideal S1x64 .f32) = (A : Vec Ideal S1x64 .f32) := by
  funext y
  show (A : Vec Ideal S1x64 .f32) (((cfg6.win 4).blk t).view.emb y) = _
  refine congrArg (A : Vec Ideal S1x64 .f32) ?_
  obtain ⟨-, -, -, -, -, -, -, -, e0, e1, -⟩ := idx6 t
  funext a; apply Fin.ext
  match a with
  | ⟨0, _⟩ => show win6_4.index t (0 : Fin 2) * 1 + 1 * (y 0).val = (y 0).val; rw [e0]; omega
  | ⟨1, _⟩ => show win6_4.index t (1 : Fin 2) * 64 + 1 * (y 1).val = (y 1).val; rw [e1]; omega

/-- The output block's entry (r, q) at point t is the array's entry (t · 4096 + r, q). -/
theorem emb6_5 (t : Fin cfg6.N) (r : Fin 4096) (q : Fin 64) (Rr : Fin 147456) (hR : Rr.val = t.val * 4096 + r.val) :
    ((cfg6.win 5).blk t).view.emb (ix2 r q) = (ix2 Rr q : S147456x64.Idx) := by
  obtain ⟨-, -, -, -, -, -, -, -, -, -, e0, e1⟩ := idx6 t
  funext a; apply Fin.ext
  match a with
  | ⟨0, _⟩ => show win6_5.index t (0 : Fin 2) * 4096 + 1 * r.val = Rr.val; rw [e0, hR]; omega
  | ⟨1, _⟩ => show win6_5.index t (1 : Fin 2) * 64 + 1 * q.val = q.val; rw [e1]; omega

/-- An index of the output array lies in point t's block iff each coordinate lies in the block's range on its axis. -/
theorem mem_blk6_5 (t : Fin cfg6.N) (i : S147456x64.Idx) :
    i ∈ ((cfg6.win 5).blk t).view.set ↔ ∀ a : Fin 2, win6_5.index t a * S4096x64.size a ≤ (i a).val ∧ (i a).val < win6_5.index t a * S4096x64.size a + S4096x64.size a := by
  show i ∈ ((View.whole main_v152).slice (win6_5.rect t)).set ↔ _
  rw [View.set_slice_whole, Rect.mem_set_unit]
  exact Iff.rfl

/-- Row R of the output array is written back by the point R / 4096: the blocks cover the array. -/
theorem covered6_5 (i : S147456x64.Idx) : ∃ t : Fin cfg6.N, (cfg6.win 5).flush t = true ∧ i ∈ ((cfg6.win 5).blk t).view.set := by
  have hi0 : (i 0).val < 147456 := (i 0).isLt
  have hi1 : (i 1).val < 64 := (i 1).isLt
  have hN : cfg6.N = 36 := N_6
  have hlt : (i 0).val / 4096 < cfg6.N := by rw [hN]; omega
  obtain ⟨-, -, -, -, -, -, -, -, -, -, e0, e1⟩ := idx6 ⟨(i 0).val / 4096, hlt⟩
  refine ⟨⟨(i 0).val / 4096, hlt⟩, flush6_5 _, ?_⟩
  rw [mem_blk6_5]
  intro a
  match a with
  | ⟨0, _⟩ =>
    show win6_5.index ⟨(i 0).val / 4096, hlt⟩ (0 : Fin 2) * 4096 ≤ (i 0).val ∧ (i 0).val < win6_5.index ⟨(i 0).val / 4096, hlt⟩ (0 : Fin 2) * 4096 + 4096
    rw [e0]; show (i 0).val / 4096 * 4096 ≤ (i 0).val ∧ (i 0).val < (i 0).val / 4096 * 4096 + 4096; omega
  | ⟨1, _⟩ =>
    show win6_5.index ⟨(i 0).val / 4096, hlt⟩ (1 : Fin 2) * 64 ≤ (i 1).val ∧ (i 1).val < win6_5.index ⟨(i 0).val / 4096, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed6 (c : Dev nD) (t : Fin cfg6.N) :
    (dat6 V c).flushed 5 t = ((cfg6.win 5).blk t).view.read (Elt Ideal)
      (Cert.Stage.mlpN (F := Ideal) (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero zero_off]
  simp only [View.ld_unit_zero (S := S4096x64) zero_off, View.ld_unit_zero (S := S64x128) zero_off, View.ld_unit_zero (S := S1x128) zero_off, View.ld_unit_zero (S := S128x64) zero_off, View.ld_unit_zero (S := S1x64) zero_off]
  refine funext fun (j : S4096x64.Idx) => ?_
  obtain ⟨r, q, rfl⟩ : ∃ (r : Fin 4096) (q : Fin 64), j = ix2 r q := ⟨j 0, j 1, eq_ix2 j⟩
  have hN : cfg6.N = 36 := N_6
  have hRr : t.val * 4096 + r.val < 147456 := by have := t.isLt; have := r.isLt; omega
  show k6_pay1 (F := Ideal) (iblk6 V c 0 t) (iblk6 V c 1 t) (iblk6 V c 2 t) (iblk6 V c 3 t) (iblk6 V c 4 t) (ix2 r q)
    = Cert.Stage.mlpN (F := Ideal) (V c (Pipeline.arrRef spec6 0)) (V c (Pipeline.arrRef spec6 1)) (V c (Pipeline.arrRef spec6 2)) (V c (Pipeline.arrRef spec6 3)) (V c (Pipeline.arrRef spec6 4)) (((cfg6.win 5).blk t).view.emb (ix2 r q))
  refine (pay6_point (iblk6 V c 0 t) (V c (Pipeline.arrRef spec6 0)) (iblk6 V c 1 t) (V c (Pipeline.arrRef spec6 1)) (iblk6 V c 2 t) (V c (Pipeline.arrRef spec6 2)) (iblk6 V c 3 t) (V c (Pipeline.arrRef spec6 3)) (iblk6 V c 4 t) (V c (Pipeline.arrRef spec6 4)) r ⟨t.val * 4096 + r.val, hRr⟩ q
      (read6_1 c (V c (Pipeline.arrRef spec6 1)) t) (read6_2 c (V c (Pipeline.arrRef spec6 2)) t) (read6_3 c (V c (Pipeline.arrRef spec6 3)) t) (read6_4 c (V c (Pipeline.arrRef spec6 4)) t) (fun k => read6_0 c (V c (Pipeline.arrRef spec6 0)) t r k ⟨t.val * 4096 + r.val, hRr⟩ rfl)).trans ?_
  exact congrArg (Cert.Stage.mlpN (F := Ideal) (V c (Pipeline.arrRef spec6 0)) (V c (Pipeline.arrRef spec6 1)) (V c (Pipeline.arrRef spec6 2)) (V c (Pipeline.arrRef spec6 3)) (V c (Pipeline.arrRef spec6 4))) (emb6_5 t r q ⟨t.val * 4096 + r.val, hRr⟩ rfl).symm

set_option maxHeartbeats 1000000 in
/-- THE REGION'S OUTPUT ARRAY after its write-backs: the host's stage of the arrays as the region finds them. -/
theorem value6 (c : Dev nD) :
    (dat6 V c).arrAt 5 cfg6.N = Cert.Stage.mlpN (F := Ideal) (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 5 (Cert.Stage.mlpN (F := Ideal) (V c (Pipeline.arrRef spec6 0)) (V c (Pipeline.arrRef spec6 1)) (V c (Pipeline.arrRef spec6 2)) (V c (Pipeline.arrRef spec6 3)) (V c (Pipeline.arrRef spec6 4))) (fun t _ => flushed6 V c t) covered6_5

end Frame

end Cert.KernelIdeal.Reg

end
-- ==== Proof.Reg7.lean ====
/- Region 7 of the kernel program is a two-layer perceptron relu (h · w1 + b1) · w2 + b2 on 3072 rows, computed 3072 rows at a time over 1 grid point.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.mlpM). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 7: the two-layer perceptron relu (h · w1 + b1) · w2 + b2, 1 block of 3072 rows of 3072 -/

/-- Which array each window of region 7 stages. -/
theorem arrRef7_0 : Pipeline.arrRef spec7 0 = main_v191 := rfl
theorem arrRef7_1 : Pipeline.arrRef spec7 1 = main_v193 := rfl
theorem arrRef7_2 : Pipeline.arrRef spec7 2 = main_v200 := rfl
theorem arrRef7_3 : Pipeline.arrRef spec7 3 = main_v197 := rfl
theorem arrRef7_4 : Pipeline.arrRef spec7 4 = main_v201 := rfl
theorem arrRef7_5 : Pipeline.arrRef spec7 5 = main_v202 := rfl

/-- Row r of the block's payload is row Rr of the host's perceptron on the whole array, when row r of the input
    block is row Rr of the input and the weight and bias blocks are the weight and bias arrays. -/
theorem pay7_point (x0 : FVec Ideal S3072x64 .f32) (X : FVec Ideal S3072x64 .f32) (w1' w1 : FVec Ideal S64x128 .f32) (b1' b1 : FVec Ideal S1x128 .f32)
    (w2' w2 : FVec Ideal S128x64 .f32) (b2' b2 : FVec Ideal S1x64 .f32)
    (r : Fin 3072) (Rr : Fin 3072) (q : Fin 64) (hw1 : w1' = w1) (hb1 : b1' = b1) (hw2 : w2' = w2) (hb2 : b2' = b2)
    (hx : ∀ k : Fin 64, x0 (ix2 r k) = X (ix2 Rr k)) :
    k7_pay1 (F := Ideal) x0 w1' b1' w2' b2' (ix2 r q) = Cert.Stage.mlpM (F := Ideal) X w1 b1 w2 b2 (ix2 Rr q) := by
  subst hw1; subst hb1; subst hw2; subst hb2
  unfold k7_pay1 Cert.Stage.mlpM
  simp only [shapeCast_self]
  exact mlp_block _ rfl _ rfl _ rfl _ rfl _ _ _ _ _ _ _ _ _ x0 X w1' b1' w2' b2' r Rr q hx

/-- The index maps over the grid: a row-tiled window's block index is the point, a whole-array window's is zero. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Window 0's block at point t holds rows t · 3072 … of its array. -/
theorem read7_0 (c : Dev nD) (A : Buf (Elt Ideal) ((c : Thread nD τ).loc (Pipeline.arrRef spec7 0))) (t : Fin cfg7.N)
    (r : Fin 3072) (k : Fin 64) (Rr : Fin 3072) (hR : Rr.val = t.val * 3072 + r.val) :
    (((cfg7.win 0).blk t).view.read (Elt Ideal) A : Vec Ideal S3072x64 .f32) (ix2 r k) = (A : Vec Ideal S3072x64 .f32) (ix2 Rr k) := by
  show (A : Vec Ideal S3072x64 .f32) (((cfg7.win 0).blk t).view.emb (ix2 r k)) = _
  refine congrArg (A : Vec Ideal S3072x64 .f32) ?_
  obtain ⟨e0, e1, -⟩ := idx7 t
  funext a; apply Fin.ext
  match a with
  | ⟨0, _⟩ => show win7_0.index t (0 : Fin 2) * 3072 + 1 * r.val = Rr.val; rw [e0, hR]; omega
  | ⟨1, _⟩ => show win7_0.index t (1 : Fin 2) * 64 + 1 * k.val = k.val; rw [e1]; omega

/-- Window 1's block is its whole array at every point. -/
theorem read7_1 (c : Dev nD) (A : Buf (Elt Ideal) ((c : Thread nD τ).loc (Pipeline.arrRef spec7 1))) (t : Fin cfg7.N) :
    (((cfg7.win 1).blk t).view.read (Elt Ideal) A : Vec Ideal S64x128 .f32) = (A : Vec Ideal S64x128 .f32) := by
  funext y
  show (A : Vec Ideal S64x128 .f32) (((cfg7.win 1).blk t).view.emb y) = _
  refine congrArg (A : Vec Ideal S64x128 .f32) ?_
  obtain ⟨-, -, e0, e1, -⟩ := idx7 t
  funext a; apply Fin.ext
  match a with
  | ⟨0, _⟩ => show win7_1.index t (0 : Fin 2) * 64 + 1 * (y 0).val = (y 0).val; rw [e0]; omega
  | ⟨1, _⟩ => show win7_1.index t (1 : Fin 2) * 128 + 1 * (y 1).val = (y 1).val; rw [e1]; omega

/-- Window 2's block is its whole array at every point. -/
theorem read7_2 (c : Dev nD) (A : Buf (Elt Ideal) ((c : Thread nD τ).loc (Pipeline.arrRef spec7 2))) (t : Fin cfg7.N) :
    (((cfg7.win 2).blk t).view.read (Elt Ideal) A : Vec Ideal S1x128 .f32) = (A : Vec Ideal S1x128 .f32) := by
  funext y
  show (A : Vec Ideal S1x128 .f32) (((cfg7.win 2).blk t).view.emb y) = _
  refine congrArg (A : Vec Ideal S1x128 .f32) ?_
  obtain ⟨-, -, -, -, e0, e1, -⟩ := idx7 t
  funext a; apply Fin.ext
  match a with
  | ⟨0, _⟩ => show win7_2.index t (0 : Fin 2) * 1 + 1 * (y 0).val = (y 0).val; rw [e0]; omega
  | ⟨1, _⟩ => show win7_2.index t (1 : Fin 2) * 128 + 1 * (y 1).val = (y 1).val; rw [e1]; omega

/-- Window 3's block is its whole array at every point. -/
theorem read7_3 (c : Dev nD) (A : Buf (Elt Ideal) ((c : Thread nD τ).loc (Pipeline.arrRef spec7 3))) (t : Fin cfg7.N) :
    (((cfg7.win 3).blk t).view.read (Elt Ideal) A : Vec Ideal S128x64 .f32) = (A : Vec Ideal S128x64 .f32) := by
  funext y
  show (A : Vec Ideal S128x64 .f32) (((cfg7.win 3).blk t).view.emb y) = _
  refine congrArg (A : Vec Ideal S128x64 .f32) ?_
  obtain ⟨-, -, -, -, -, -, e0, e1, -⟩ := idx7 t
  funext a; apply Fin.ext
  match a with
  | ⟨0, _⟩ => show win7_3.index t (0 : Fin 2) * 128 + 1 * (y 0).val = (y 0).val; rw [e0]; omega
  | ⟨1, _⟩ => show win7_3.index t (1 : Fin 2) * 64 + 1 * (y 1).val = (y 1).val; rw [e1]; omega

/-- Window 4's block is its whole array at every point. -/
theorem read7_4 (c : Dev nD) (A : Buf (Elt Ideal) ((c : Thread nD τ).loc (Pipeline.arrRef spec7 4))) (t : Fin cfg7.N) :
    (((cfg7.win 4).blk t).view.read (Elt Ideal) A : Vec Ideal S1x64 .f32) = (A : Vec Ideal S1x64 .f32) := by
  funext y
  show (A : Vec Ideal S1x64 .f32) (((cfg7.win 4).blk t).view.emb y) = _
  refine congrArg (A : Vec Ideal S1x64 .f32) ?_
  obtain ⟨-, -, -, -, -, -, -, -, e0, e1, -⟩ := idx7 t
  funext a; apply Fin.ext
  match a with
  | ⟨0, _⟩ => show win7_4.index t (0 : Fin 2) * 1 + 1 * (y 0).val = (y 0).val; rw [e0]; omega
  | ⟨1, _⟩ => show win7_4.index t (1 : Fin 2) * 64 + 1 * (y 1).val = (y 1).val; rw [e1]; omega

/-- The output block's entry (r, q) at point t is the array's entry (t · 3072 + r, q). -/
theorem emb7_5 (t : Fin cfg7.N) (r : Fin 3072) (q : Fin 64) (Rr : Fin 3072) (hR : Rr.val = t.val * 3072 + r.val) :
    ((cfg7.win 5).blk t).view.emb (ix2 r q) = (ix2 Rr q : S3072x64.Idx) := by
  obtain ⟨-, -, -, -, -, -, -, -, -, -, e0, e1⟩ := idx7 t
  funext a; apply Fin.ext
  match a with
  | ⟨0, _⟩ => show win7_5.index t (0 : Fin 2) * 3072 + 1 * r.val = Rr.val; rw [e0, hR]; omega
  | ⟨1, _⟩ => show win7_5.index t (1 : Fin 2) * 64 + 1 * q.val = q.val; rw [e1]; omega

/-- An index of the output array lies in point t's block iff each coordinate lies in the block's range on its axis. -/
theorem mem_blk7_5 (t : Fin cfg7.N) (i : S3072x64.Idx) :
    i ∈ ((cfg7.win 5).blk t).view.set ↔ ∀ a : Fin 2, win7_5.index t a * S3072x64.size a ≤ (i a).val ∧ (i a).val < win7_5.index t a * S3072x64.size a + S3072x64.size a := by
  show i ∈ ((View.whole main_v202).slice (win7_5.rect t)).set ↔ _
  rw [View.set_slice_whole, Rect.mem_set_unit]
  exact Iff.rfl

/-- Row R of the output array is written back by the point R / 3072: the blocks cover the array. -/
theorem covered7_5 (i : S3072x64.Idx) : ∃ t : Fin cfg7.N, (cfg7.win 5).flush t = true ∧ i ∈ ((cfg7.win 5).blk t).view.set := by
  have hi0 : (i 0).val < 3072 := (i 0).isLt
  have hi1 : (i 1).val < 64 := (i 1).isLt
  have hN : cfg7.N = 1 := N_7
  have hlt : (i 0).val / 3072 < cfg7.N := by rw [hN]; omega
  obtain ⟨-, -, -, -, -, -, -, -, -, -, e0, e1⟩ := idx7 ⟨(i 0).val / 3072, hlt⟩
  refine ⟨⟨(i 0).val / 3072, hlt⟩, flush7_5 _, ?_⟩
  rw [mem_blk7_5]
  intro a
  match a with
  | ⟨0, _⟩ =>
    show win7_5.index ⟨(i 0).val / 3072, hlt⟩ (0 : Fin 2) * 3072 ≤ (i 0).val ∧ (i 0).val < win7_5.index ⟨(i 0).val / 3072, hlt⟩ (0 : Fin 2) * 3072 + 3072
    rw [e0]; show (i 0).val / 3072 * 3072 ≤ (i 0).val ∧ (i 0).val < (i 0).val / 3072 * 3072 + 3072; omega
  | ⟨1, _⟩ =>
    show win7_5.index ⟨(i 0).val / 3072, hlt⟩ (1 : Fin 2) * 64 ≤ (i 1).val ∧ (i 1).val < win7_5.index ⟨(i 0).val / 3072, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed7 (c : Dev nD) (t : Fin cfg7.N) :
    (dat7 V c).flushed 5 t = ((cfg7.win 5).blk t).view.read (Elt Ideal)
      (Cert.Stage.mlpM (F := Ideal) (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero zero_off]
  simp only [View.ld_unit_zero (S := S3072x64) zero_off, View.ld_unit_zero (S := S64x128) zero_off, View.ld_unit_zero (S := S1x128) zero_off, View.ld_unit_zero (S := S128x64) zero_off, View.ld_unit_zero (S := S1x64) zero_off]
  refine funext fun (j : S3072x64.Idx) => ?_
  obtain ⟨r, q, rfl⟩ : ∃ (r : Fin 3072) (q : Fin 64), j = ix2 r q := ⟨j 0, j 1, eq_ix2 j⟩
  have hN : cfg7.N = 1 := N_7
  have hRr : t.val * 3072 + r.val < 3072 := by have := t.isLt; have := r.isLt; omega
  show k7_pay1 (F := Ideal) (iblk7 V c 0 t) (iblk7 V c 1 t) (iblk7 V c 2 t) (iblk7 V c 3 t) (iblk7 V c 4 t) (ix2 r q)
    = Cert.Stage.mlpM (F := Ideal) (V c (Pipeline.arrRef spec7 0)) (V c (Pipeline.arrRef spec7 1)) (V c (Pipeline.arrRef spec7 2)) (V c (Pipeline.arrRef spec7 3)) (V c (Pipeline.arrRef spec7 4)) (((cfg7.win 5).blk t).view.emb (ix2 r q))
  refine (pay7_point (iblk7 V c 0 t) (V c (Pipeline.arrRef spec7 0)) (iblk7 V c 1 t) (V c (Pipeline.arrRef spec7 1)) (iblk7 V c 2 t) (V c (Pipeline.arrRef spec7 2)) (iblk7 V c 3 t) (V c (Pipeline.arrRef spec7 3)) (iblk7 V c 4 t) (V c (Pipeline.arrRef spec7 4)) r ⟨t.val * 3072 + r.val, hRr⟩ q
      (read7_1 c (V c (Pipeline.arrRef spec7 1)) t) (read7_2 c (V c (Pipeline.arrRef spec7 2)) t) (read7_3 c (V c (Pipeline.arrRef spec7 3)) t) (read7_4 c (V c (Pipeline.arrRef spec7 4)) t) (fun k => read7_0 c (V c (Pipeline.arrRef spec7 0)) t r k ⟨t.val * 3072 + r.val, hRr⟩ rfl)).trans ?_
  exact congrArg (Cert.Stage.mlpM (F := Ideal) (V c (Pipeline.arrRef spec7 0)) (V c (Pipeline.arrRef spec7 1)) (V c (Pipeline.arrRef spec7 2)) (V c (Pipeline.arrRef spec7 3)) (V c (Pipeline.arrRef spec7 4))) (emb7_5 t r q ⟨t.val * 3072 + r.val, hRr⟩ rfl).symm

set_option maxHeartbeats 1000000 in
/-- THE REGION'S OUTPUT ARRAY after its write-backs: the host's stage of the arrays as the region finds them. -/
theorem value7 (c : Dev nD) :
    (dat7 V c).arrAt 5 cfg7.N = Cert.Stage.mlpM (F := Ideal) (V c (Pipeline.arrRef spec7 0)) (V c (Pipeline.arrRef spec7 1)) (V c (Pipeline.arrRef spec7 2)) (V c (Pipeline.arrRef spec7 3)) (V c (Pipeline.arrRef spec7 4)) :=
  (dat7 V c).arrAt_eq_of_cover 5 (Cert.Stage.mlpM (F := Ideal) (V c (Pipeline.arrRef spec7 0)) (V c (Pipeline.arrRef spec7 1)) (V c (Pipeline.arrRef spec7 2)) (V c (Pipeline.arrRef spec7 3)) (V c (Pipeline.arrRef spec7 4))) (fun t _ => flushed7 V c t) covered7_5

end Frame

end Cert.KernelIdeal.Reg

end
-- ==== Proof.Reg8.lean ====
/- Region 8 of the kernel program is the fused epilogue relu (g · scale + shift + h) on 147456 rows, computed 8192 rows at a time over 18 grid points.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.combine). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 8: the fused epilogue relu (g · scale + shift + h), 18 blocks of 8192 rows of 147456 -/

/-- Which array each window of region 8 stages. -/
theorem arrRef8_0 : Pipeline.arrRef spec8 0 = main_v152 := rfl
theorem arrRef8_1 : Pipeline.arrRef spec8 1 = main_v230 := rfl
theorem arrRef8_2 : Pipeline.arrRef spec8 2 = main_v231 := rfl
theorem arrRef8_3 : Pipeline.arrRef spec8 3 = main_v229 := rfl
theorem arrRef8_4 : Pipeline.arrRef spec8 4 = main_v232 := rfl

/-- Entry (r, q) of the block's payload is entry (Rr, q) of the host's epilogue on the whole arrays, when the two
    row-tiled blocks hold there what the two arrays hold at (Rr, q) and the scale and shift blocks are the arrays. -/
theorem pay8_point (g0 h0 : FVec Ideal S8192x64 .f32) (G Hh : FVec Ideal S147456x64 .f32) (s' s t' t : FVec Ideal S1x64 .f32)
    (r : Fin 8192) (Rr : Fin 147456) (q : Fin 64) (hs : s' = s) (ht : t' = t)
    (hg : g0 (ix2 r q) = G (ix2 Rr q)) (hh : h0 (ix2 r q) = Hh (ix2 Rr q)) :
    k8_pay1 (F := Ideal) g0 s' t' h0 (ix2 r q) = Cert.Stage.combine (F := Ideal) G s t Hh (ix2 Rr q) := by
  subst hs; subst ht
  unfold k8_pay1 Cert.Stage.combine Cert.Stage.reluN
  simp only [shapeCast_self]
  exact combine_block _ _ _ g0 h0 G Hh s' t' r Rr q hg hh

/-- The index maps over the grid: a row-tiled window's block index is the point, a whole-array window's is zero. -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- Window 0's block at point t holds rows t · 8192 … of its array. -/
theorem read8_0 (c : Dev nD) (A : Buf (Elt Ideal) ((c : Thread nD τ).loc (Pipeline.arrRef spec8 0))) (t : Fin cfg8.N)
    (r : Fin 8192) (k : Fin 64) (Rr : Fin 147456) (hR : Rr.val = t.val * 8192 + r.val) :
    (((cfg8.win 0).blk t).view.read (Elt Ideal) A : Vec Ideal S8192x64 .f32) (ix2 r k) = (A : Vec Ideal S147456x64 .f32) (ix2 Rr k) := by
  show (A : Vec Ideal S147456x64 .f32) (((cfg8.win 0).blk t).view.emb (ix2 r k)) = _
  refine congrArg (A : Vec Ideal S147456x64 .f32) ?_
  obtain ⟨e0, e1, -⟩ := idx8 t
  funext a; apply Fin.ext
  match a with
  | ⟨0, _⟩ => show win8_0.index t (0 : Fin 2) * 8192 + 1 * r.val = Rr.val; rw [e0, hR]; omega
  | ⟨1, _⟩ => show win8_0.index t (1 : Fin 2) * 64 + 1 * k.val = k.val; rw [e1]; omega

/-- Window 1's block is its whole array at every point. -/
theorem read8_1 (c : Dev nD) (A : Buf (Elt Ideal) ((c : Thread nD τ).loc (Pipeline.arrRef spec8 1))) (t : Fin cfg8.N) :
    (((cfg8.win 1).blk t).view.read (Elt Ideal) A : Vec Ideal S1x64 .f32) = (A : Vec Ideal S1x64 .f32) := by
  funext y
  show (A : Vec Ideal S1x64 .f32) (((cfg8.win 1).blk t).view.emb y) = _
  refine congrArg (A : Vec Ideal S1x64 .f32) ?_
  obtain ⟨-, -, e0, e1, -⟩ := idx8 t
  funext a; apply Fin.ext
  match a with
  | ⟨0, _⟩ => show win8_1.index t (0 : Fin 2) * 1 + 1 * (y 0).val = (y 0).val; rw [e0]; omega
  | ⟨1, _⟩ => show win8_1.index t (1 : Fin 2) * 64 + 1 * (y 1).val = (y 1).val; rw [e1]; omega

/-- Window 2's block is its whole array at every point. -/
theorem read8_2 (c : Dev nD) (A : Buf (Elt Ideal) ((c : Thread nD τ).loc (Pipeline.arrRef spec8 2))) (t : Fin cfg8.N) :
    (((cfg8.win 2).blk t).view.read (Elt Ideal) A : Vec Ideal S1x64 .f32) = (A : Vec Ideal S1x64 .f32) := by
  funext y
  show (A : Vec Ideal S1x64 .f32) (((cfg8.win 2).blk t).view.emb y) = _
  refine congrArg (A : Vec Ideal S1x64 .f32) ?_
  obtain ⟨-, -, -, -, e0, e1, -⟩ := idx8 t
  funext a; apply Fin.ext
  match a with
  | ⟨0, _⟩ => show win8_2.index t (0 : Fin 2) * 1 + 1 * (y 0).val = (y 0).val; rw [e0]; omega
  | ⟨1, _⟩ => show win8_2.index t (1 : Fin 2) * 64 + 1 * (y 1).val = (y 1).val; rw [e1]; omega

/-- Window 3's block at point t holds rows t · 8192 … of its array. -/
theorem read8_3 (c : Dev nD) (A : Buf (Elt Ideal) ((c : Thread nD τ).loc (Pipeline.arrRef spec8 3))) (t : Fin cfg8.N)
    (r : Fin 8192) (k : Fin 64) (Rr : Fin 147456) (hR : Rr.val = t.val * 8192 + r.val) :
    (((cfg8.win 3).blk t).view.read (Elt Ideal) A : Vec Ideal S8192x64 .f32) (ix2 r k) = (A : Vec Ideal S147456x64 .f32) (ix2 Rr k) := by
  show (A : Vec Ideal S147456x64 .f32) (((cfg8.win 3).blk t).view.emb (ix2 r k)) = _
  refine congrArg (A : Vec Ideal S147456x64 .f32) ?_
  obtain ⟨-, -, -, -, -, -, e0, e1, -⟩ := idx8 t
  funext a; apply Fin.ext
  match a with
  | ⟨0, _⟩ => show win8_3.index t (0 : Fin 2) * 8192 + 1 * r.val = Rr.val; rw [e0, hR]; omega
  | ⟨1, _⟩ => show win8_3.index t (1 : Fin 2) * 64 + 1 * k.val = k.val; rw [e1]; omega

/-- The output block's entry (r, q) at point t is the array's entry (t · 8192 + r, q). -/
theorem emb8_4 (t : Fin cfg8.N) (r : Fin 8192) (q : Fin 64) (Rr : Fin 147456) (hR : Rr.val = t.val * 8192 + r.val) :
    ((cfg8.win 4).blk t).view.emb (ix2 r q) = (ix2 Rr q : S147456x64.Idx) := by
  obtain ⟨-, -, -, -, -, -, -, -, e0, e1⟩ := idx8 t
  funext a; apply Fin.ext
  match a with
  | ⟨0, _⟩ => show win8_4.index t (0 : Fin 2) * 8192 + 1 * r.val = Rr.val; rw [e0, hR]; omega
  | ⟨1, _⟩ => show win8_4.index t (1 : Fin 2) * 64 + 1 * q.val = q.val; rw [e1]; omega

/-- An index of the output array lies in point t's block iff each coordinate lies in the block's range on its axis. -/
theorem mem_blk8_4 (t : Fin cfg8.N) (i : S147456x64.Idx) :
    i ∈ ((cfg8.win 4).blk t).view.set ↔ ∀ a : Fin 2, win8_4.index t a * S8192x64.size a ≤ (i a).val ∧ (i a).val < win8_4.index t a * S8192x64.size a + S8192x64.size a := by
  show i ∈ ((View.whole main_v232).slice (win8_4.rect t)).set ↔ _
  rw [View.set_slice_whole, Rect.mem_set_unit]
  exact Iff.rfl

/-- Row R of the output array is written back by the point R / 8192: the blocks cover the array. -/
theorem covered8_4 (i : S147456x64.Idx) : ∃ t : Fin cfg8.N, (cfg8.win 4).flush t = true ∧ i ∈ ((cfg8.win 4).blk t).view.set := by
  have hi0 : (i 0).val < 147456 := (i 0).isLt
  have hi1 : (i 1).val < 64 := (i 1).isLt
  have hN : cfg8.N = 18 := N_8
  have hlt : (i 0).val / 8192 < cfg8.N := by rw [hN]; omega
  obtain ⟨-, -, -, -, -, -, -, -, e0, e1⟩ := idx8 ⟨(i 0).val / 8192, hlt⟩
  refine ⟨⟨(i 0).val / 8192, hlt⟩, flush8_4 _, ?_⟩
  rw [mem_blk8_4]
  intro a
  match a with
  | ⟨0, _⟩ =>
    show win8_4.index ⟨(i 0).val / 8192, hlt⟩ (0 : Fin 2) * 8192 ≤ (i 0).val ∧ (i 0).val < win8_4.index ⟨(i 0).val / 8192, hlt⟩ (0 : Fin 2) * 8192 + 8192
    rw [e0]; show (i 0).val / 8192 * 8192 ≤ (i 0).val ∧ (i 0).val < (i 0).val / 8192 * 8192 + 8192; omega
  | ⟨1, _⟩ =>
    show win8_4.index ⟨(i 0).val / 8192, hlt⟩ (1 : Fin 2) * 64 ≤ (i 1).val ∧ (i 1).val < win8_4.index ⟨(i 0).val / 8192, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed8 (c : Dev nD) (t : Fin cfg8.N) :
    (dat8 V c).flushed 4 t = ((cfg8.win 4).blk t).view.read (Elt Ideal)
      (Cert.Stage.combine (F := Ideal) (V c (Pipeline.arrRef spec8 0)) (V c (Pipeline.arrRef spec8 1)) (V c (Pipeline.arrRef spec8 2)) (V c (Pipeline.arrRef spec8 3))) := by
  show (cfg8.win 4).cut (grid8.coords t) ((dat8 V c).after 4 t) = _
  rw [after8_4]
  unfold out8_4
  rw [View.canon_unit_zero zero_off]
  simp only [View.ld_unit_zero (S := S8192x64) zero_off, View.ld_unit_zero (S := S1x64) zero_off]
  refine funext fun (j : S8192x64.Idx) => ?_
  obtain ⟨r, q, rfl⟩ : ∃ (r : Fin 8192) (q : Fin 64), j = ix2 r q := ⟨j 0, j 1, eq_ix2 j⟩
  have hN : cfg8.N = 18 := N_8
  have hRr : t.val * 8192 + r.val < 147456 := by have := t.isLt; have := r.isLt; omega
  show k8_pay1 (F := Ideal) (iblk8 V c 0 t) (iblk8 V c 1 t) (iblk8 V c 2 t) (iblk8 V c 3 t) (ix2 r q)
    = Cert.Stage.combine (F := Ideal) (V c (Pipeline.arrRef spec8 0)) (V c (Pipeline.arrRef spec8 1)) (V c (Pipeline.arrRef spec8 2)) (V c (Pipeline.arrRef spec8 3)) (((cfg8.win 4).blk t).view.emb (ix2 r q))
  refine (pay8_point (iblk8 V c 0 t) (iblk8 V c 3 t) (V c (Pipeline.arrRef spec8 0)) (V c (Pipeline.arrRef spec8 3)) (iblk8 V c 1 t) (V c (Pipeline.arrRef spec8 1)) (iblk8 V c 2 t) (V c (Pipeline.arrRef spec8 2)) r ⟨t.val * 8192 + r.val, hRr⟩ q
      (read8_1 c (V c (Pipeline.arrRef spec8 1)) t) (read8_2 c (V c (Pipeline.arrRef spec8 2)) t) (read8_0 c (V c (Pipeline.arrRef spec8 0)) t r q ⟨t.val * 8192 + r.val, hRr⟩ rfl) (read8_3 c (V c (Pipeline.arrRef spec8 3)) t r q ⟨t.val * 8192 + r.val, hRr⟩ rfl)).trans ?_
  exact congrArg (Cert.Stage.combine (F := Ideal) (V c (Pipeline.arrRef spec8 0)) (V c (Pipeline.arrRef spec8 1)) (V c (Pipeline.arrRef spec8 2)) (V c (Pipeline.arrRef spec8 3))) (emb8_4 t r q ⟨t.val * 8192 + r.val, hRr⟩ rfl).symm

set_option maxHeartbeats 1000000 in
/-- THE REGION'S OUTPUT ARRAY after its write-backs: the host's stage of the arrays as the region finds them. -/
theorem value8 (c : Dev nD) :
    (dat8 V c).arrAt 4 cfg8.N = Cert.Stage.combine (F := Ideal) (V c (Pipeline.arrRef spec8 0)) (V c (Pipeline.arrRef spec8 1)) (V c (Pipeline.arrRef spec8 2)) (V c (Pipeline.arrRef spec8 3)) :=
  (dat8 V c).arrAt_eq_of_cover 4 (Cert.Stage.combine (F := Ideal) (V c (Pipeline.arrRef spec8 0)) (V c (Pipeline.arrRef spec8 1)) (V c (Pipeline.arrRef spec8 2)) (V c (Pipeline.arrRef spec8 3))) (fun t _ => flushed8 V c t) covered8_4

end Frame

end Cert.KernelIdeal.Reg

end
-- ==== Proof.Reg9.lean ====
/- Region 9 of the kernel program is a two-layer perceptron relu (h · w1 + b1) · w2 + b2 on 147456 rows, computed 4096 rows at a time over 36 grid points.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.mlpN). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 9: the two-layer perceptron relu (h · w1 + b1) · w2 + b2, 36 blocks of 4096 rows of 147456 -/

/-- Which array each window of region 9 stages. -/
theorem arrRef9_0 : Pipeline.arrRef spec9 0 = main_v245 := rfl
theorem arrRef9_1 : Pipeline.arrRef spec9 1 = main_v247 := rfl
theorem arrRef9_2 : Pipeline.arrRef spec9 2 = main_v254 := rfl
theorem arrRef9_3 : Pipeline.arrRef spec9 3 = main_v251 := rfl
theorem arrRef9_4 : Pipeline.arrRef spec9 4 = main_v255 := rfl
theorem arrRef9_5 : Pipeline.arrRef spec9 5 = main_v256 := rfl

/-- Row r of the block's payload is row Rr of the host's perceptron on the whole array, when row r of the input
    block is row Rr of the input and the weight and bias blocks are the weight and bias arrays. -/
theorem pay9_point (x0 : FVec Ideal S4096x64 .f32) (X : FVec Ideal S147456x64 .f32) (w1' w1 : FVec Ideal S64x128 .f32) (b1' b1 : FVec Ideal S1x128 .f32)
    (w2' w2 : FVec Ideal S128x64 .f32) (b2' b2 : FVec Ideal S1x64 .f32)
    (r : Fin 4096) (Rr : Fin 147456) (q : Fin 64) (hw1 : w1' = w1) (hb1 : b1' = b1) (hw2 : w2' = w2) (hb2 : b2' = b2)
    (hx : ∀ k : Fin 64, x0 (ix2 r k) = X (ix2 Rr k)) :
    k9_pay1 (F := Ideal) x0 w1' b1' w2' b2' (ix2 r q) = Cert.Stage.mlpN (F := Ideal) X w1 b1 w2 b2 (ix2 Rr q) := by
  subst hw1; subst hb1; subst hw2; subst hb2
  unfold k9_pay1 Cert.Stage.mlpN
  simp only [shapeCast_self]
  exact mlp_block _ rfl _ rfl _ rfl _ rfl _ _ _ _ _ _ _ _ _ x0 X w1' b1' w2' b2' r Rr q hx

/-- The index maps over the grid: a row-tiled window's block index is the point, a whole-array window's is zero. -/
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Window 0's block at point t holds rows t · 4096 … of its array. -/
theorem read9_0 (c : Dev nD) (A : Buf (Elt Ideal) ((c : Thread nD τ).loc (Pipeline.arrRef spec9 0))) (t : Fin cfg9.N)
    (r : Fin 4096) (k : Fin 64) (Rr : Fin 147456) (hR : Rr.val = t.val * 4096 + r.val) :
    (((cfg9.win 0).blk t).view.read (Elt Ideal) A : Vec Ideal S4096x64 .f32) (ix2 r k) = (A : Vec Ideal S147456x64 .f32) (ix2 Rr k) := by
  show (A : Vec Ideal S147456x64 .f32) (((cfg9.win 0).blk t).view.emb (ix2 r k)) = _
  refine congrArg (A : Vec Ideal S147456x64 .f32) ?_
  obtain ⟨e0, e1, -⟩ := idx9 t
  funext a; apply Fin.ext
  match a with
  | ⟨0, _⟩ => show win9_0.index t (0 : Fin 2) * 4096 + 1 * r.val = Rr.val; rw [e0, hR]; omega
  | ⟨1, _⟩ => show win9_0.index t (1 : Fin 2) * 64 + 1 * k.val = k.val; rw [e1]; omega

/-- Window 1's block is its whole array at every point. -/
theorem read9_1 (c : Dev nD) (A : Buf (Elt Ideal) ((c : Thread nD τ).loc (Pipeline.arrRef spec9 1))) (t : Fin cfg9.N) :
    (((cfg9.win 1).blk t).view.read (Elt Ideal) A : Vec Ideal S64x128 .f32) = (A : Vec Ideal S64x128 .f32) := by
  funext y
  show (A : Vec Ideal S64x128 .f32) (((cfg9.win 1).blk t).view.emb y) = _
  refine congrArg (A : Vec Ideal S64x128 .f32) ?_
  obtain ⟨-, -, e0, e1, -⟩ := idx9 t
  funext a; apply Fin.ext
  match a with
  | ⟨0, _⟩ => show win9_1.index t (0 : Fin 2) * 64 + 1 * (y 0).val = (y 0).val; rw [e0]; omega
  | ⟨1, _⟩ => show win9_1.index t (1 : Fin 2) * 128 + 1 * (y 1).val = (y 1).val; rw [e1]; omega

/-- Window 2's block is its whole array at every point. -/
theorem read9_2 (c : Dev nD) (A : Buf (Elt Ideal) ((c : Thread nD τ).loc (Pipeline.arrRef spec9 2))) (t : Fin cfg9.N) :
    (((cfg9.win 2).blk t).view.read (Elt Ideal) A : Vec Ideal S1x128 .f32) = (A : Vec Ideal S1x128 .f32) := by
  funext y
  show (A : Vec Ideal S1x128 .f32) (((cfg9.win 2).blk t).view.emb y) = _
  refine congrArg (A : Vec Ideal S1x128 .f32) ?_
  obtain ⟨-, -, -, -, e0, e1, -⟩ := idx9 t
  funext a; apply Fin.ext
  match a with
  | ⟨0, _⟩ => show win9_2.index t (0 : Fin 2) * 1 + 1 * (y 0).val = (y 0).val; rw [e0]; omega
  | ⟨1, _⟩ => show win9_2.index t (1 : Fin 2) * 128 + 1 * (y 1).val = (y 1).val; rw [e1]; omega

/-- Window 3's block is its whole array at every point. -/
theorem read9_3 (c : Dev nD) (A : Buf (Elt Ideal) ((c : Thread nD τ).loc (Pipeline.arrRef spec9 3))) (t : Fin cfg9.N) :
    (((cfg9.win 3).blk t).view.read (Elt Ideal) A : Vec Ideal S128x64 .f32) = (A : Vec Ideal S128x64 .f32) := by
  funext y
  show (A : Vec Ideal S128x64 .f32) (((cfg9.win 3).blk t).view.emb y) = _
  refine congrArg (A : Vec Ideal S128x64 .f32) ?_
  obtain ⟨-, -, -, -, -, -, e0, e1, -⟩ := idx9 t
  funext a; apply Fin.ext
  match a with
  | ⟨0, _⟩ => show win9_3.index t (0 : Fin 2) * 128 + 1 * (y 0).val = (y 0).val; rw [e0]; omega
  | ⟨1, _⟩ => show win9_3.index t (1 : Fin 2) * 64 + 1 * (y 1).val = (y 1).val; rw [e1]; omega

/-- Window 4's block is its whole array at every point. -/
theorem read9_4 (c : Dev nD) (A : Buf (Elt Ideal) ((c : Thread nD τ).loc (Pipeline.arrRef spec9 4))) (t : Fin cfg9.N) :
    (((cfg9.win 4).blk t).view.read (Elt Ideal) A : Vec Ideal S1x64 .f32) = (A : Vec Ideal S1x64 .f32) := by
  funext y
  show (A : Vec Ideal S1x64 .f32) (((cfg9.win 4).blk t).view.emb y) = _
  refine congrArg (A : Vec Ideal S1x64 .f32) ?_
  obtain ⟨-, -, -, -, -, -, -, -, e0, e1, -⟩ := idx9 t
  funext a; apply Fin.ext
  match a with
  | ⟨0, _⟩ => show win9_4.index t (0 : Fin 2) * 1 + 1 * (y 0).val = (y 0).val; rw [e0]; omega
  | ⟨1, _⟩ => show win9_4.index t (1 : Fin 2) * 64 + 1 * (y 1).val = (y 1).val; rw [e1]; omega

/-- The output block's entry (r, q) at point t is the array's entry (t · 4096 + r, q). -/
theorem emb9_5 (t : Fin cfg9.N) (r : Fin 4096) (q : Fin 64) (Rr : Fin 147456) (hR : Rr.val = t.val * 4096 + r.val) :
    ((cfg9.win 5).blk t).view.emb (ix2 r q) = (ix2 Rr q : S147456x64.Idx) := by
  obtain ⟨-, -, -, -, -, -, -, -, -, -, e0, e1⟩ := idx9 t
  funext a; apply Fin.ext
  match a with
  | ⟨0, _⟩ => show win9_5.index t (0 : Fin 2) * 4096 + 1 * r.val = Rr.val; rw [e0, hR]; omega
  | ⟨1, _⟩ => show win9_5.index t (1 : Fin 2) * 64 + 1 * q.val = q.val; rw [e1]; omega

/-- An index of the output array lies in point t's block iff each coordinate lies in the block's range on its axis. -/
theorem mem_blk9_5 (t : Fin cfg9.N) (i : S147456x64.Idx) :
    i ∈ ((cfg9.win 5).blk t).view.set ↔ ∀ a : Fin 2, win9_5.index t a * S4096x64.size a ≤ (i a).val ∧ (i a).val < win9_5.index t a * S4096x64.size a + S4096x64.size a := by
  show i ∈ ((View.whole main_v256).slice (win9_5.rect t)).set ↔ _
  rw [View.set_slice_whole, Rect.mem_set_unit]
  exact Iff.rfl

/-- Row R of the output array is written back by the point R / 4096: the blocks cover the array. -/
theorem covered9_5 (i : S147456x64.Idx) : ∃ t : Fin cfg9.N, (cfg9.win 5).flush t = true ∧ i ∈ ((cfg9.win 5).blk t).view.set := by
  have hi0 : (i 0).val < 147456 := (i 0).isLt
  have hi1 : (i 1).val < 64 := (i 1).isLt
  have hN : cfg9.N = 36 := N_9
  have hlt : (i 0).val / 4096 < cfg9.N := by rw [hN]; omega
  obtain ⟨-, -, -, -, -, -, -, -, -, -, e0, e1⟩ := idx9 ⟨(i 0).val / 4096, hlt⟩
  refine ⟨⟨(i 0).val / 4096, hlt⟩, flush9_5 _, ?_⟩
  rw [mem_blk9_5]
  intro a
  match a with
  | ⟨0, _⟩ =>
    show win9_5.index ⟨(i 0).val / 4096, hlt⟩ (0 : Fin 2) * 4096 ≤ (i 0).val ∧ (i 0).val < win9_5.index ⟨(i 0).val / 4096, hlt⟩ (0 : Fin 2) * 4096 + 4096
    rw [e0]; show (i 0).val / 4096 * 4096 ≤ (i 0).val ∧ (i 0).val < (i 0).val / 4096 * 4096 + 4096; omega
  | ⟨1, _⟩ =>
    show win9_5.index ⟨(i 0).val / 4096, hlt⟩ (1 : Fin 2) * 64 ≤ (i 1).val ∧ (i 1).val < win9_5.index ⟨(i 0).val / 4096, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed9 (c : Dev nD) (t : Fin cfg9.N) :
    (dat9 V c).flushed 5 t = ((cfg9.win 5).blk t).view.read (Elt Ideal)
      (Cert.Stage.mlpN (F := Ideal) (V c (Pipeline.arrRef spec9 0)) (V c (Pipeline.arrRef spec9 1)) (V c (Pipeline.arrRef spec9 2)) (V c (Pipeline.arrRef spec9 3)) (V c (Pipeline.arrRef spec9 4))) := by
  show (cfg9.win 5).cut (grid9.coords t) ((dat9 V c).after 5 t) = _
  rw [after9_5]
  unfold out9_5
  rw [View.canon_unit_zero zero_off]
  simp only [View.ld_unit_zero (S := S4096x64) zero_off, View.ld_unit_zero (S := S64x128) zero_off, View.ld_unit_zero (S := S1x128) zero_off, View.ld_unit_zero (S := S128x64) zero_off, View.ld_unit_zero (S := S1x64) zero_off]
  refine funext fun (j : S4096x64.Idx) => ?_
  obtain ⟨r, q, rfl⟩ : ∃ (r : Fin 4096) (q : Fin 64), j = ix2 r q := ⟨j 0, j 1, eq_ix2 j⟩
  have hN : cfg9.N = 36 := N_9
  have hRr : t.val * 4096 + r.val < 147456 := by have := t.isLt; have := r.isLt; omega
  show k9_pay1 (F := Ideal) (iblk9 V c 0 t) (iblk9 V c 1 t) (iblk9 V c 2 t) (iblk9 V c 3 t) (iblk9 V c 4 t) (ix2 r q)
    = Cert.Stage.mlpN (F := Ideal) (V c (Pipeline.arrRef spec9 0)) (V c (Pipeline.arrRef spec9 1)) (V c (Pipeline.arrRef spec9 2)) (V c (Pipeline.arrRef spec9 3)) (V c (Pipeline.arrRef spec9 4)) (((cfg9.win 5).blk t).view.emb (ix2 r q))
  refine (pay9_point (iblk9 V c 0 t) (V c (Pipeline.arrRef spec9 0)) (iblk9 V c 1 t) (V c (Pipeline.arrRef spec9 1)) (iblk9 V c 2 t) (V c (Pipeline.arrRef spec9 2)) (iblk9 V c 3 t) (V c (Pipeline.arrRef spec9 3)) (iblk9 V c 4 t) (V c (Pipeline.arrRef spec9 4)) r ⟨t.val * 4096 + r.val, hRr⟩ q
      (read9_1 c (V c (Pipeline.arrRef spec9 1)) t) (read9_2 c (V c (Pipeline.arrRef spec9 2)) t) (read9_3 c (V c (Pipeline.arrRef spec9 3)) t) (read9_4 c (V c (Pipeline.arrRef spec9 4)) t) (fun k => read9_0 c (V c (Pipeline.arrRef spec9 0)) t r k ⟨t.val * 4096 + r.val, hRr⟩ rfl)).trans ?_
  exact congrArg (Cert.Stage.mlpN (F := Ideal) (V c (Pipeline.arrRef spec9 0)) (V c (Pipeline.arrRef spec9 1)) (V c (Pipeline.arrRef spec9 2)) (V c (Pipeline.arrRef spec9 3)) (V c (Pipeline.arrRef spec9 4))) (emb9_5 t r q ⟨t.val * 4096 + r.val, hRr⟩ rfl).symm

set_option maxHeartbeats 1000000 in
/-- THE REGION'S OUTPUT ARRAY after its write-backs: the host's stage of the arrays as the region finds them. -/
theorem value9 (c : Dev nD) :
    (dat9 V c).arrAt 5 cfg9.N = Cert.Stage.mlpN (F := Ideal) (V c (Pipeline.arrRef spec9 0)) (V c (Pipeline.arrRef spec9 1)) (V c (Pipeline.arrRef spec9 2)) (V c (Pipeline.arrRef spec9 3)) (V c (Pipeline.arrRef spec9 4)) :=
  (dat9 V c).arrAt_eq_of_cover 5 (Cert.Stage.mlpN (F := Ideal) (V c (Pipeline.arrRef spec9 0)) (V c (Pipeline.arrRef spec9 1)) (V c (Pipeline.arrRef spec9 2)) (V c (Pipeline.arrRef spec9 3)) (V c (Pipeline.arrRef spec9 4))) (fun t _ => flushed9 V c t) covered9_5

end Frame

end Cert.KernelIdeal.Reg

end
-- ==== Proof.Reg10.lean ====
/- Region 10 of the kernel program is a two-layer perceptron relu (h · w1 + b1) · w2 + b2 on 3072 rows, computed 3072 rows at a time over 1 grid point.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.mlpM). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 10: the two-layer perceptron relu (h · w1 + b1) · w2 + b2, 1 block of 3072 rows of 3072 -/

/-- Which array each window of region 10 stages. -/
theorem arrRef10_0 : Pipeline.arrRef spec10 0 = main_v295 := rfl
theorem arrRef10_1 : Pipeline.arrRef spec10 1 = main_v297 := rfl
theorem arrRef10_2 : Pipeline.arrRef spec10 2 = main_v304 := rfl
theorem arrRef10_3 : Pipeline.arrRef spec10 3 = main_v301 := rfl
theorem arrRef10_4 : Pipeline.arrRef spec10 4 = main_v305 := rfl
theorem arrRef10_5 : Pipeline.arrRef spec10 5 = main_v306 := rfl

/-- Row r of the block's payload is row Rr of the host's perceptron on the whole array, when row r of the input
    block is row Rr of the input and the weight and bias blocks are the weight and bias arrays. -/
theorem pay10_point (x0 : FVec Ideal S3072x64 .f32) (X : FVec Ideal S3072x64 .f32) (w1' w1 : FVec Ideal S64x128 .f32) (b1' b1 : FVec Ideal S1x128 .f32)
    (w2' w2 : FVec Ideal S128x64 .f32) (b2' b2 : FVec Ideal S1x64 .f32)
    (r : Fin 3072) (Rr : Fin 3072) (q : Fin 64) (hw1 : w1' = w1) (hb1 : b1' = b1) (hw2 : w2' = w2) (hb2 : b2' = b2)
    (hx : ∀ k : Fin 64, x0 (ix2 r k) = X (ix2 Rr k)) :
    k10_pay1 (F := Ideal) x0 w1' b1' w2' b2' (ix2 r q) = Cert.Stage.mlpM (F := Ideal) X w1 b1 w2 b2 (ix2 Rr q) := by
  subst hw1; subst hb1; subst hw2; subst hb2
  unfold k10_pay1 Cert.Stage.mlpM
  simp only [shapeCast_self]
  exact mlp_block _ rfl _ rfl _ rfl _ rfl _ _ _ _ _ _ _ _ _ x0 X w1' b1' w2' b2' r Rr q hx

/-- The index maps over the grid: a row-tiled window's block index is the point, a whole-array window's is zero. -/
theorem idx10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Window 0's block at point t holds rows t · 3072 … of its array. -/
theorem read10_0 (c : Dev nD) (A : Buf (Elt Ideal) ((c : Thread nD τ).loc (Pipeline.arrRef spec10 0))) (t : Fin cfg10.N)
    (r : Fin 3072) (k : Fin 64) (Rr : Fin 3072) (hR : Rr.val = t.val * 3072 + r.val) :
    (((cfg10.win 0).blk t).view.read (Elt Ideal) A : Vec Ideal S3072x64 .f32) (ix2 r k) = (A : Vec Ideal S3072x64 .f32) (ix2 Rr k) := by
  show (A : Vec Ideal S3072x64 .f32) (((cfg10.win 0).blk t).view.emb (ix2 r k)) = _
  refine congrArg (A : Vec Ideal S3072x64 .f32) ?_
  obtain ⟨e0, e1, -⟩ := idx10 t
  funext a; apply Fin.ext
  match a with
  | ⟨0, _⟩ => show win10_0.index t (0 : Fin 2) * 3072 + 1 * r.val = Rr.val; rw [e0, hR]; omega
  | ⟨1, _⟩ => show win10_0.index t (1 : Fin 2) * 64 + 1 * k.val = k.val; rw [e1]; omega

/-- Window 1's block is its whole array at every point. -/
theorem read10_1 (c : Dev nD) (A : Buf (Elt Ideal) ((c : Thread nD τ).loc (Pipeline.arrRef spec10 1))) (t : Fin cfg10.N) :
    (((cfg10.win 1).blk t).view.read (Elt Ideal) A : Vec Ideal S64x128 .f32) = (A : Vec Ideal S64x128 .f32) := by
  funext y
  show (A : Vec Ideal S64x128 .f32) (((cfg10.win 1).blk t).view.emb y) = _
  refine congrArg (A : Vec Ideal S64x128 .f32) ?_
  obtain ⟨-, -, e0, e1, -⟩ := idx10 t
  funext a; apply Fin.ext
  match a with
  | ⟨0, _⟩ => show win10_1.index t (0 : Fin 2) * 64 + 1 * (y 0).val = (y 0).val; rw [e0]; omega
  | ⟨1, _⟩ => show win10_1.index t (1 : Fin 2) * 128 + 1 * (y 1).val = (y 1).val; rw [e1]; omega

/-- Window 2's block is its whole array at every point. -/
theorem read10_2 (c : Dev nD) (A : Buf (Elt Ideal) ((c : Thread nD τ).loc (Pipeline.arrRef spec10 2))) (t : Fin cfg10.N) :
    (((cfg10.win 2).blk t).view.read (Elt Ideal) A : Vec Ideal S1x128 .f32) = (A : Vec Ideal S1x128 .f32) := by
  funext y
  show (A : Vec Ideal S1x128 .f32) (((cfg10.win 2).blk t).view.emb y) = _
  refine congrArg (A : Vec Ideal S1x128 .f32) ?_
  obtain ⟨-, -, -, -, e0, e1, -⟩ := idx10 t
  funext a; apply Fin.ext
  match a with
  | ⟨0, _⟩ => show win10_2.index t (0 : Fin 2) * 1 + 1 * (y 0).val = (y 0).val; rw [e0]; omega
  | ⟨1, _⟩ => show win10_2.index t (1 : Fin 2) * 128 + 1 * (y 1).val = (y 1).val; rw [e1]; omega

/-- Window 3's block is its whole array at every point. -/
theorem read10_3 (c : Dev nD) (A : Buf (Elt Ideal) ((c : Thread nD τ).loc (Pipeline.arrRef spec10 3))) (t : Fin cfg10.N) :
    (((cfg10.win 3).blk t).view.read (Elt Ideal) A : Vec Ideal S128x64 .f32) = (A : Vec Ideal S128x64 .f32) := by
  funext y
  show (A : Vec Ideal S128x64 .f32) (((cfg10.win 3).blk t).view.emb y) = _
  refine congrArg (A : Vec Ideal S128x64 .f32) ?_
  obtain ⟨-, -, -, -, -, -, e0, e1, -⟩ := idx10 t
  funext a; apply Fin.ext
  match a with
  | ⟨0, _⟩ => show win10_3.index t (0 : Fin 2) * 128 + 1 * (y 0).val = (y 0).val; rw [e0]; omega
  | ⟨1, _⟩ => show win10_3.index t (1 : Fin 2) * 64 + 1 * (y 1).val = (y 1).val; rw [e1]; omega

/-- Window 4's block is its whole array at every point. -/
theorem read10_4 (c : Dev nD) (A : Buf (Elt Ideal) ((c : Thread nD τ).loc (Pipeline.arrRef spec10 4))) (t : Fin cfg10.N) :
    (((cfg10.win 4).blk t).view.read (Elt Ideal) A : Vec Ideal S1x64 .f32) = (A : Vec Ideal S1x64 .f32) := by
  funext y
  show (A : Vec Ideal S1x64 .f32) (((cfg10.win 4).blk t).view.emb y) = _
  refine congrArg (A : Vec Ideal S1x64 .f32) ?_
  obtain ⟨-, -, -, -, -, -, -, -, e0, e1, -⟩ := idx10 t
  funext a; apply Fin.ext
  match a with
  | ⟨0, _⟩ => show win10_4.index t (0 : Fin 2) * 1 + 1 * (y 0).val = (y 0).val; rw [e0]; omega
  | ⟨1, _⟩ => show win10_4.index t (1 : Fin 2) * 64 + 1 * (y 1).val = (y 1).val; rw [e1]; omega

/-- The output block's entry (r, q) at point t is the array's entry (t · 3072 + r, q). -/
theorem emb10_5 (t : Fin cfg10.N) (r : Fin 3072) (q : Fin 64) (Rr : Fin 3072) (hR : Rr.val = t.val * 3072 + r.val) :
    ((cfg10.win 5).blk t).view.emb (ix2 r q) = (ix2 Rr q : S3072x64.Idx) := by
  obtain ⟨-, -, -, -, -, -, -, -, -, -, e0, e1⟩ := idx10 t
  funext a; apply Fin.ext
  match a with
  | ⟨0, _⟩ => show win10_5.index t (0 : Fin 2) * 3072 + 1 * r.val = Rr.val; rw [e0, hR]; omega
  | ⟨1, _⟩ => show win10_5.index t (1 : Fin 2) * 64 + 1 * q.val = q.val; rw [e1]; omega

/-- An index of the output array lies in point t's block iff each coordinate lies in the block's range on its axis. -/
theorem mem_blk10_5 (t : Fin cfg10.N) (i : S3072x64.Idx) :
    i ∈ ((cfg10.win 5).blk t).view.set ↔ ∀ a : Fin 2, win10_5.index t a * S3072x64.size a ≤ (i a).val ∧ (i a).val < win10_5.index t a * S3072x64.size a + S3072x64.size a := by
  show i ∈ ((View.whole main_v306).slice (win10_5.rect t)).set ↔ _
  rw [View.set_slice_whole, Rect.mem_set_unit]
  exact Iff.rfl

/-- Row R of the output array is written back by the point R / 3072: the blocks cover the array. -/
theorem covered10_5 (i : S3072x64.Idx) : ∃ t : Fin cfg10.N, (cfg10.win 5).flush t = true ∧ i ∈ ((cfg10.win 5).blk t).view.set := by
  have hi0 : (i 0).val < 3072 := (i 0).isLt
  have hi1 : (i 1).val < 64 := (i 1).isLt
  have hN : cfg10.N = 1 := N_10
  have hlt : (i 0).val / 3072 < cfg10.N := by rw [hN]; omega
  obtain ⟨-, -, -, -, -, -, -, -, -, -, e0, e1⟩ := idx10 ⟨(i 0).val / 3072, hlt⟩
  refine ⟨⟨(i 0).val / 3072, hlt⟩, flush10_5 _, ?_⟩
  rw [mem_blk10_5]
  intro a
  match a with
  | ⟨0, _⟩ =>
    show win10_5.index ⟨(i 0).val / 3072, hlt⟩ (0 : Fin 2) * 3072 ≤ (i 0).val ∧ (i 0).val < win10_5.index ⟨(i 0).val / 3072, hlt⟩ (0 : Fin 2) * 3072 + 3072
    rw [e0]; show (i 0).val / 3072 * 3072 ≤ (i 0).val ∧ (i 0).val < (i 0).val / 3072 * 3072 + 3072; omega
  | ⟨1, _⟩ =>
    show win10_5.index ⟨(i 0).val / 3072, hlt⟩ (1 : Fin 2) * 64 ≤ (i 1).val ∧ (i 1).val < win10_5.index ⟨(i 0).val / 3072, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed10 (c : Dev nD) (t : Fin cfg10.N) :
    (dat10 V c).flushed 5 t = ((cfg10.win 5).blk t).view.read (Elt Ideal)
      (Cert.Stage.mlpM (F := Ideal) (V c (Pipeline.arrRef spec10 0)) (V c (Pipeline.arrRef spec10 1)) (V c (Pipeline.arrRef spec10 2)) (V c (Pipeline.arrRef spec10 3)) (V c (Pipeline.arrRef spec10 4))) := by
  show (cfg10.win 5).cut (grid10.coords t) ((dat10 V c).after 5 t) = _
  rw [after10_5]
  unfold out10_5
  rw [View.canon_unit_zero zero_off]
  simp only [View.ld_unit_zero (S := S3072x64) zero_off, View.ld_unit_zero (S := S64x128) zero_off, View.ld_unit_zero (S := S1x128) zero_off, View.ld_unit_zero (S := S128x64) zero_off, View.ld_unit_zero (S := S1x64) zero_off]
  refine funext fun (j : S3072x64.Idx) => ?_
  obtain ⟨r, q, rfl⟩ : ∃ (r : Fin 3072) (q : Fin 64), j = ix2 r q := ⟨j 0, j 1, eq_ix2 j⟩
  have hN : cfg10.N = 1 := N_10
  have hRr : t.val * 3072 + r.val < 3072 := by have := t.isLt; have := r.isLt; omega
  show k10_pay1 (F := Ideal) (iblk10 V c 0 t) (iblk10 V c 1 t) (iblk10 V c 2 t) (iblk10 V c 3 t) (iblk10 V c 4 t) (ix2 r q)
    = Cert.Stage.mlpM (F := Ideal) (V c (Pipeline.arrRef spec10 0)) (V c (Pipeline.arrRef spec10 1)) (V c (Pipeline.arrRef spec10 2)) (V c (Pipeline.arrRef spec10 3)) (V c (Pipeline.arrRef spec10 4)) (((cfg10.win 5).blk t).view.emb (ix2 r q))
  refine (pay10_point (iblk10 V c 0 t) (V c (Pipeline.arrRef spec10 0)) (iblk10 V c 1 t) (V c (Pipeline.arrRef spec10 1)) (iblk10 V c 2 t) (V c (Pipeline.arrRef spec10 2)) (iblk10 V c 3 t) (V c (Pipeline.arrRef spec10 3)) (iblk10 V c 4 t) (V c (Pipeline.arrRef spec10 4)) r ⟨t.val * 3072 + r.val, hRr⟩ q
      (read10_1 c (V c (Pipeline.arrRef spec10 1)) t) (read10_2 c (V c (Pipeline.arrRef spec10 2)) t) (read10_3 c (V c (Pipeline.arrRef spec10 3)) t) (read10_4 c (V c (Pipeline.arrRef spec10 4)) t) (fun k => read10_0 c (V c (Pipeline.arrRef spec10 0)) t r k ⟨t.val * 3072 + r.val, hRr⟩ rfl)).trans ?_
  exact congrArg (Cert.Stage.mlpM (F := Ideal) (V c (Pipeline.arrRef spec10 0)) (V c (Pipeline.arrRef spec10 1)) (V c (Pipeline.arrRef spec10 2)) (V c (Pipeline.arrRef spec10 3)) (V c (Pipeline.arrRef spec10 4))) (emb10_5 t r q ⟨t.val * 3072 + r.val, hRr⟩ rfl).symm

set_option maxHeartbeats 1000000 in
/-- THE REGION'S OUTPUT ARRAY after its write-backs: the host's stage of the arrays as the region finds them. -/
theorem value10 (c : Dev nD) :
    (dat10 V c).arrAt 5 cfg10.N = Cert.Stage.mlpM (F := Ideal) (V c (Pipeline.arrRef spec10 0)) (V c (Pipeline.arrRef spec10 1)) (V c (Pipeline.arrRef spec10 2)) (V c (Pipeline.arrRef spec10 3)) (V c (Pipeline.arrRef spec10 4)) :=
  (dat10 V c).arrAt_eq_of_cover 5 (Cert.Stage.mlpM (F := Ideal) (V c (Pipeline.arrRef spec10 0)) (V c (Pipeline.arrRef spec10 1)) (V c (Pipeline.arrRef spec10 2)) (V c (Pipeline.arrRef spec10 3)) (V c (Pipeline.arrRef spec10 4))) (fun t _ => flushed10 V c t) covered10_5

end Frame

end Cert.KernelIdeal.Reg

end
-- ==== Proof.Reg11.lean ====
/- Region 11 of the kernel program is the fused epilogue relu (g · scale + shift + h) on 147456 rows, computed 8192 rows at a time over 18 grid points.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.combine). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 11: the fused epilogue relu (g · scale + shift + h), 18 blocks of 8192 rows of 147456 -/

/-- Which array each window of region 11 stages. -/
theorem arrRef11_0 : Pipeline.arrRef spec11 0 = main_v256 := rfl
theorem arrRef11_1 : Pipeline.arrRef spec11 1 = main_v334 := rfl
theorem arrRef11_2 : Pipeline.arrRef spec11 2 = main_v335 := rfl
theorem arrRef11_3 : Pipeline.arrRef spec11 3 = main_v333 := rfl
theorem arrRef11_4 : Pipeline.arrRef spec11 4 = main_v336 := rfl

/-- Entry (r, q) of the block's payload is entry (Rr, q) of the host's epilogue on the whole arrays, when the two
    row-tiled blocks hold there what the two arrays hold at (Rr, q) and the scale and shift blocks are the arrays. -/
theorem pay11_point (g0 h0 : FVec Ideal S8192x64 .f32) (G Hh : FVec Ideal S147456x64 .f32) (s' s t' t : FVec Ideal S1x64 .f32)
    (r : Fin 8192) (Rr : Fin 147456) (q : Fin 64) (hs : s' = s) (ht : t' = t)
    (hg : g0 (ix2 r q) = G (ix2 Rr q)) (hh : h0 (ix2 r q) = Hh (ix2 Rr q)) :
    k11_pay1 (F := Ideal) g0 s' t' h0 (ix2 r q) = Cert.Stage.combine (F := Ideal) G s t Hh (ix2 Rr q) := by
  subst hs; subst ht
  unfold k11_pay1 Cert.Stage.combine Cert.Stage.reluN
  simp only [shapeCast_self]
  exact combine_block _ _ _ g0 h0 G Hh s' t' r Rr q hg hh

/-- The index maps over the grid: a row-tiled window's block index is the point, a whole-array window's is zero. -/
theorem idx11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0 :=
  (by decide +kernel : ∀ t : Fin grid11.N, _)

/-- Window 0's block at point t holds rows t · 8192 … of its array. -/
theorem read11_0 (c : Dev nD) (A : Buf (Elt Ideal) ((c : Thread nD τ).loc (Pipeline.arrRef spec11 0))) (t : Fin cfg11.N)
    (r : Fin 8192) (k : Fin 64) (Rr : Fin 147456) (hR : Rr.val = t.val * 8192 + r.val) :
    (((cfg11.win 0).blk t).view.read (Elt Ideal) A : Vec Ideal S8192x64 .f32) (ix2 r k) = (A : Vec Ideal S147456x64 .f32) (ix2 Rr k) := by
  show (A : Vec Ideal S147456x64 .f32) (((cfg11.win 0).blk t).view.emb (ix2 r k)) = _
  refine congrArg (A : Vec Ideal S147456x64 .f32) ?_
  obtain ⟨e0, e1, -⟩ := idx11 t
  funext a; apply Fin.ext
  match a with
  | ⟨0, _⟩ => show win11_0.index t (0 : Fin 2) * 8192 + 1 * r.val = Rr.val; rw [e0, hR]; omega
  | ⟨1, _⟩ => show win11_0.index t (1 : Fin 2) * 64 + 1 * k.val = k.val; rw [e1]; omega

/-- Window 1's block is its whole array at every point. -/
theorem read11_1 (c : Dev nD) (A : Buf (Elt Ideal) ((c : Thread nD τ).loc (Pipeline.arrRef spec11 1))) (t : Fin cfg11.N) :
    (((cfg11.win 1).blk t).view.read (Elt Ideal) A : Vec Ideal S1x64 .f32) = (A : Vec Ideal S1x64 .f32) := by
  funext y
  show (A : Vec Ideal S1x64 .f32) (((cfg11.win 1).blk t).view.emb y) = _
  refine congrArg (A : Vec Ideal S1x64 .f32) ?_
  obtain ⟨-, -, e0, e1, -⟩ := idx11 t
  funext a; apply Fin.ext
  match a with
  | ⟨0, _⟩ => show win11_1.index t (0 : Fin 2) * 1 + 1 * (y 0).val = (y 0).val; rw [e0]; omega
  | ⟨1, _⟩ => show win11_1.index t (1 : Fin 2) * 64 + 1 * (y 1).val = (y 1).val; rw [e1]; omega

/-- Window 2's block is its whole array at every point. -/
theorem read11_2 (c : Dev nD) (A : Buf (Elt Ideal) ((c : Thread nD τ).loc (Pipeline.arrRef spec11 2))) (t : Fin cfg11.N) :
    (((cfg11.win 2).blk t).view.read (Elt Ideal) A : Vec Ideal S1x64 .f32) = (A : Vec Ideal S1x64 .f32) := by
  funext y
  show (A : Vec Ideal S1x64 .f32) (((cfg11.win 2).blk t).view.emb y) = _
  refine congrArg (A : Vec Ideal S1x64 .f32) ?_
  obtain ⟨-, -, -, -, e0, e1, -⟩ := idx11 t
  funext a; apply Fin.ext
  match a with
  | ⟨0, _⟩ => show win11_2.index t (0 : Fin 2) * 1 + 1 * (y 0).val = (y 0).val; rw [e0]; omega
  | ⟨1, _⟩ => show win11_2.index t (1 : Fin 2) * 64 + 1 * (y 1).val = (y 1).val; rw [e1]; omega

/-- Window 3's block at point t holds rows t · 8192 … of its array. -/
theorem read11_3 (c : Dev nD) (A : Buf (Elt Ideal) ((c : Thread nD τ).loc (Pipeline.arrRef spec11 3))) (t : Fin cfg11.N)
    (r : Fin 8192) (k : Fin 64) (Rr : Fin 147456) (hR : Rr.val = t.val * 8192 + r.val) :
    (((cfg11.win 3).blk t).view.read (Elt Ideal) A : Vec Ideal S8192x64 .f32) (ix2 r k) = (A : Vec Ideal S147456x64 .f32) (ix2 Rr k) := by
  show (A : Vec Ideal S147456x64 .f32) (((cfg11.win 3).blk t).view.emb (ix2 r k)) = _
  refine congrArg (A : Vec Ideal S147456x64 .f32) ?_
  obtain ⟨-, -, -, -, -, -, e0, e1, -⟩ := idx11 t
  funext a; apply Fin.ext
  match a with
  | ⟨0, _⟩ => show win11_3.index t (0 : Fin 2) * 8192 + 1 * r.val = Rr.val; rw [e0, hR]; omega
  | ⟨1, _⟩ => show win11_3.index t (1 : Fin 2) * 64 + 1 * k.val = k.val; rw [e1]; omega

/-- The output block's entry (r, q) at point t is the array's entry (t · 8192 + r, q). -/
theorem emb11_4 (t : Fin cfg11.N) (r : Fin 8192) (q : Fin 64) (Rr : Fin 147456) (hR : Rr.val = t.val * 8192 + r.val) :
    ((cfg11.win 4).blk t).view.emb (ix2 r q) = (ix2 Rr q : S147456x64.Idx) := by
  obtain ⟨-, -, -, -, -, -, -, -, e0, e1⟩ := idx11 t
  funext a; apply Fin.ext
  match a with
  | ⟨0, _⟩ => show win11_4.index t (0 : Fin 2) * 8192 + 1 * r.val = Rr.val; rw [e0, hR]; omega
  | ⟨1, _⟩ => show win11_4.index t (1 : Fin 2) * 64 + 1 * q.val = q.val; rw [e1]; omega

/-- An index of the output array lies in point t's block iff each coordinate lies in the block's range on its axis. -/
theorem mem_blk11_4 (t : Fin cfg11.N) (i : S147456x64.Idx) :
    i ∈ ((cfg11.win 4).blk t).view.set ↔ ∀ a : Fin 2, win11_4.index t a * S8192x64.size a ≤ (i a).val ∧ (i a).val < win11_4.index t a * S8192x64.size a + S8192x64.size a := by
  show i ∈ ((View.whole main_v336).slice (win11_4.rect t)).set ↔ _
  rw [View.set_slice_whole, Rect.mem_set_unit]
  exact Iff.rfl

/-- Row R of the output array is written back by the point R / 8192: the blocks cover the array. -/
theorem covered11_4 (i : S147456x64.Idx) : ∃ t : Fin cfg11.N, (cfg11.win 4).flush t = true ∧ i ∈ ((cfg11.win 4).blk t).view.set := by
  have hi0 : (i 0).val < 147456 := (i 0).isLt
  have hi1 : (i 1).val < 64 := (i 1).isLt
  have hN : cfg11.N = 18 := N_11
  have hlt : (i 0).val / 8192 < cfg11.N := by rw [hN]; omega
  obtain ⟨-, -, -, -, -, -, -, -, e0, e1⟩ := idx11 ⟨(i 0).val / 8192, hlt⟩
  refine ⟨⟨(i 0).val / 8192, hlt⟩, flush11_4 _, ?_⟩
  rw [mem_blk11_4]
  intro a
  match a with
  | ⟨0, _⟩ =>
    show win11_4.index ⟨(i 0).val / 8192, hlt⟩ (0 : Fin 2) * 8192 ≤ (i 0).val ∧ (i 0).val < win11_4.index ⟨(i 0).val / 8192, hlt⟩ (0 : Fin 2) * 8192 + 8192
    rw [e0]; show (i 0).val / 8192 * 8192 ≤ (i 0).val ∧ (i 0).val < (i 0).val / 8192 * 8192 + 8192; omega
  | ⟨1, _⟩ =>
    show win11_4.index ⟨(i 0).val / 8192, hlt⟩ (1 : Fin 2) * 64 ≤ (i 1).val ∧ (i 1).val < win11_4.index ⟨(i 0).val / 8192, hlt⟩ (1 : Fin 2) * 64 + 64
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed11 (c : Dev nD) (t : Fin cfg11.N) :
    (dat11 V c).flushed 4 t = ((cfg11.win 4).blk t).view.read (Elt Ideal)
      (Cert.Stage.combine (F := Ideal) (V c (Pipeline.arrRef spec11 0)) (V c (Pipeline.arrRef spec11 1)) (V c (Pipeline.arrRef spec11 2)) (V c (Pipeline.arrRef spec11 3))) := by
  show (cfg11.win 4).cut (grid11.coords t) ((dat11 V c).after 4 t) = _
  rw [after11_4]
  unfold out11_4
  rw [View.canon_unit_zero zero_off]
  simp only [View.ld_unit_zero (S := S8192x64) zero_off, View.ld_unit_zero (S := S1x64) zero_off]
  refine funext fun (j : S8192x64.Idx) => ?_
  obtain ⟨r, q, rfl⟩ : ∃ (r : Fin 8192) (q : Fin 64), j = ix2 r q := ⟨j 0, j 1, eq_ix2 j⟩
  have hN : cfg11.N = 18 := N_11
  have hRr : t.val * 8192 + r.val < 147456 := by have := t.isLt; have := r.isLt; omega
  show k11_pay1 (F := Ideal) (iblk11 V c 0 t) (iblk11 V c 1 t) (iblk11 V c 2 t) (iblk11 V c 3 t) (ix2 r q)
    = Cert.Stage.combine (F := Ideal) (V c (Pipeline.arrRef spec11 0)) (V c (Pipeline.arrRef spec11 1)) (V c (Pipeline.arrRef spec11 2)) (V c (Pipeline.arrRef spec11 3)) (((cfg11.win 4).blk t).view.emb (ix2 r q))
  refine (pay11_point (iblk11 V c 0 t) (iblk11 V c 3 t) (V c (Pipeline.arrRef spec11 0)) (V c (Pipeline.arrRef spec11 3)) (iblk11 V c 1 t) (V c (Pipeline.arrRef spec11 1)) (iblk11 V c 2 t) (V c (Pipeline.arrRef spec11 2)) r ⟨t.val * 8192 + r.val, hRr⟩ q
      (read11_1 c (V c (Pipeline.arrRef spec11 1)) t) (read11_2 c (V c (Pipeline.arrRef spec11 2)) t) (read11_0 c (V c (Pipeline.arrRef spec11 0)) t r q ⟨t.val * 8192 + r.val, hRr⟩ rfl) (read11_3 c (V c (Pipeline.arrRef spec11 3)) t r q ⟨t.val * 8192 + r.val, hRr⟩ rfl)).trans ?_
  exact congrArg (Cert.Stage.combine (F := Ideal) (V c (Pipeline.arrRef spec11 0)) (V c (Pipeline.arrRef spec11 1)) (V c (Pipeline.arrRef spec11 2)) (V c (Pipeline.arrRef spec11 3))) (emb11_4 t r q ⟨t.val * 8192 + r.val, hRr⟩ rfl).symm

set_option maxHeartbeats 1000000 in
/-- THE REGION'S OUTPUT ARRAY after its write-backs: the host's stage of the arrays as the region finds them. -/
theorem value11 (c : Dev nD) :
    (dat11 V c).arrAt 4 cfg11.N = Cert.Stage.combine (F := Ideal) (V c (Pipeline.arrRef spec11 0)) (V c (Pipeline.arrRef spec11 1)) (V c (Pipeline.arrRef spec11 2)) (V c (Pipeline.arrRef spec11 3)) :=
  (dat11 V c).arrAt_eq_of_cover 4 (Cert.Stage.combine (F := Ideal) (V c (Pipeline.arrRef spec11 0)) (V c (Pipeline.arrRef spec11 1)) (V c (Pipeline.arrRef spec11 2)) (V c (Pipeline.arrRef spec11 3))) (fun t _ => flushed11 V c t) covered11_4

end Frame

end Cert.KernelIdeal.Reg

end
-- ==== Proof.Reg12.lean ====
/- Region 12 of the kernel program is a two-layer perceptron relu (h · w1 + b1) · w2 + b2 on 64 rows, computed 64 rows at a time over 1 grid point.
  Every operation of the layer is local to a row (a matrix product reads one row of its left operand; a bias row laid along every row, an
  addition and a maximum with a constant are pointwise), so the block a grid point computes from its rows of the input is the same rows of
  the layer applied to the whole input; the blocks tile the output array, so after the write-backs the array holds the layer of the whole
  input, in the host program's own spelling of it (Cert.Stage.mlpG). -/
import proofs.«177129_j59004260712467_1_alg».proof.Proof.FrameKernelIdeal
import proofs.«177129_j59004260712467_1_alg».proof.Proof.Stage
import proofs.«177129_j59004260712467_1_alg».proof.Proof.RegRows

noncomputable section

open Idealize.ShloMosaic Idealize.ShloMosaic.TcCoe Idealize.ShloMosaic.ValueIdx Idealize.SL.Sem
open Idealize.ShloMosaic.Pipeline (Dat)

namespace Cert.KernelIdeal.Reg

open Cert.KernelIdeal Cert.KernelIdeal.Gen Cert.KernelIdeal.GenP

variable [Cert.ReferenceIdeal.Facts]

/-! ## Region 12: the two-layer perceptron relu (h · w1 + b1) · w2 + b2, 1 block of 64 rows of 64 -/

/-- Which array each window of region 12 stages. -/
theorem arrRef12_0 : Pipeline.arrRef spec12 0 = main_v360 := rfl
theorem arrRef12_1 : Pipeline.arrRef spec12 1 = main_arg19 := rfl
theorem arrRef12_2 : Pipeline.arrRef spec12 2 = main_v361 := rfl
theorem arrRef12_3 : Pipeline.arrRef spec12 3 = main_arg21 := rfl
theorem arrRef12_4 : Pipeline.arrRef spec12 4 = main_v362 := rfl
theorem arrRef12_5 : Pipeline.arrRef spec12 5 = main_v363 := rfl

/-- Row r of the block's payload is row Rr of the host's perceptron on the whole array, when row r of the input
    block is row Rr of the input and the weight and bias blocks are the weight and bias arrays. -/
theorem pay12_point (x0 : FVec Ideal S64x64 .f32) (X : FVec Ideal S64x64 .f32) (w1' w1 : FVec Ideal S64x128 .f32) (b1' b1 : FVec Ideal S1x128 .f32)
    (w2' w2 : FVec Ideal S128x10 .f32) (b2' b2 : FVec Ideal S1x10 .f32)
    (r : Fin 64) (Rr : Fin 64) (q : Fin 10) (hw1 : w1' = w1) (hb1 : b1' = b1) (hw2 : w2' = w2) (hb2 : b2' = b2)
    (hx : ∀ k : Fin 64, x0 (ix2 r k) = X (ix2 Rr k)) :
    k12_pay1 (F := Ideal) x0 w1' b1' w2' b2' (ix2 r q) = Cert.Stage.mlpG (F := Ideal) X w1 b1 w2 b2 (ix2 Rr q) := by
  subst hw1; subst hb1; subst hw2; subst hb2
  unfold k12_pay1 Cert.Stage.mlpG
  simp only [shapeCast_self]
  exact mlp_block _ rfl _ rfl _ rfl _ rfl _ _ _ _ _ _ _ _ _ x0 X w1' b1' w2' b2' r Rr q hx

/-- The index maps over the grid: a row-tiled window's block index is the point, a whole-array window's is zero. -/
theorem idx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- Window 0's block at point t holds rows t · 64 … of its array. -/
theorem read12_0 (c : Dev nD) (A : Buf (Elt Ideal) ((c : Thread nD τ).loc (Pipeline.arrRef spec12 0))) (t : Fin cfg12.N)
    (r : Fin 64) (k : Fin 64) (Rr : Fin 64) (hR : Rr.val = t.val * 64 + r.val) :
    (((cfg12.win 0).blk t).view.read (Elt Ideal) A : Vec Ideal S64x64 .f32) (ix2 r k) = (A : Vec Ideal S64x64 .f32) (ix2 Rr k) := by
  show (A : Vec Ideal S64x64 .f32) (((cfg12.win 0).blk t).view.emb (ix2 r k)) = _
  refine congrArg (A : Vec Ideal S64x64 .f32) ?_
  obtain ⟨e0, e1, -⟩ := idx12 t
  funext a; apply Fin.ext
  match a with
  | ⟨0, _⟩ => show win12_0.index t (0 : Fin 2) * 64 + 1 * r.val = Rr.val; rw [e0, hR]; omega
  | ⟨1, _⟩ => show win12_0.index t (1 : Fin 2) * 64 + 1 * k.val = k.val; rw [e1]; omega

/-- Window 1's block is its whole array at every point. -/
theorem read12_1 (c : Dev nD) (A : Buf (Elt Ideal) ((c : Thread nD τ).loc (Pipeline.arrRef spec12 1))) (t : Fin cfg12.N) :
    (((cfg12.win 1).blk t).view.read (Elt Ideal) A : Vec Ideal S64x128 .f32) = (A : Vec Ideal S64x128 .f32) := by
  funext y
  show (A : Vec Ideal S64x128 .f32) (((cfg12.win 1).blk t).view.emb y) = _
  refine congrArg (A : Vec Ideal S64x128 .f32) ?_
  obtain ⟨-, -, e0, e1, -⟩ := idx12 t
  funext a; apply Fin.ext
  match a with
  | ⟨0, _⟩ => show win12_1.index t (0 : Fin 2) * 64 + 1 * (y 0).val = (y 0).val; rw [e0]; omega
  | ⟨1, _⟩ => show win12_1.index t (1 : Fin 2) * 128 + 1 * (y 1).val = (y 1).val; rw [e1]; omega

/-- Window 2's block is its whole array at every point. -/
theorem read12_2 (c : Dev nD) (A : Buf (Elt Ideal) ((c : Thread nD τ).loc (Pipeline.arrRef spec12 2))) (t : Fin cfg12.N) :
    (((cfg12.win 2).blk t).view.read (Elt Ideal) A : Vec Ideal S1x128 .f32) = (A : Vec Ideal S1x128 .f32) := by
  funext y
  show (A : Vec Ideal S1x128 .f32) (((cfg12.win 2).blk t).view.emb y) = _
  refine congrArg (A : Vec Ideal S1x128 .f32) ?_
  obtain ⟨-, -, -, -, e0, e1, -⟩ := idx12 t
  funext a; apply Fin.ext
  match a with
  | ⟨0, _⟩ => show win12_2.index t (0 : Fin 2) * 1 + 1 * (y 0).val = (y 0).val; rw [e0]; omega
  | ⟨1, _⟩ => show win12_2.index t (1 : Fin 2) * 128 + 1 * (y 1).val = (y 1).val; rw [e1]; omega

/-- Window 3's block is its whole array at every point. -/
theorem read12_3 (c : Dev nD) (A : Buf (Elt Ideal) ((c : Thread nD τ).loc (Pipeline.arrRef spec12 3))) (t : Fin cfg12.N) :
    (((cfg12.win 3).blk t).view.read (Elt Ideal) A : Vec Ideal S128x10 .f32) = (A : Vec Ideal S128x10 .f32) := by
  funext y
  show (A : Vec Ideal S128x10 .f32) (((cfg12.win 3).blk t).view.emb y) = _
  refine congrArg (A : Vec Ideal S128x10 .f32) ?_
  obtain ⟨-, -, -, -, -, -, e0, e1, -⟩ := idx12 t
  funext a; apply Fin.ext
  match a with
  | ⟨0, _⟩ => show win12_3.index t (0 : Fin 2) * 128 + 1 * (y 0).val = (y 0).val; rw [e0]; omega
  | ⟨1, _⟩ => show win12_3.index t (1 : Fin 2) * 10 + 1 * (y 1).val = (y 1).val; rw [e1]; omega

/-- Window 4's block is its whole array at every point. -/
theorem read12_4 (c : Dev nD) (A : Buf (Elt Ideal) ((c : Thread nD τ).loc (Pipeline.arrRef spec12 4))) (t : Fin cfg12.N) :
    (((cfg12.win 4).blk t).view.read (Elt Ideal) A : Vec Ideal S1x10 .f32) = (A : Vec Ideal S1x10 .f32) := by
  funext y
  show (A : Vec Ideal S1x10 .f32) (((cfg12.win 4).blk t).view.emb y) = _
  refine congrArg (A : Vec Ideal S1x10 .f32) ?_
  obtain ⟨-, -, -, -, -, -, -, -, e0, e1, -⟩ := idx12 t
  funext a; apply Fin.ext
  match a with
  | ⟨0, _⟩ => show win12_4.index t (0 : Fin 2) * 1 + 1 * (y 0).val = (y 0).val; rw [e0]; omega
  | ⟨1, _⟩ => show win12_4.index t (1 : Fin 2) * 10 + 1 * (y 1).val = (y 1).val; rw [e1]; omega

/-- The output block's entry (r, q) at point t is the array's entry (t · 64 + r, q). -/
theorem emb12_5 (t : Fin cfg12.N) (r : Fin 64) (q : Fin 10) (Rr : Fin 64) (hR : Rr.val = t.val * 64 + r.val) :
    ((cfg12.win 5).blk t).view.emb (ix2 r q) = (ix2 Rr q : S64x10.Idx) := by
  obtain ⟨-, -, -, -, -, -, -, -, -, -, e0, e1⟩ := idx12 t
  funext a; apply Fin.ext
  match a with
  | ⟨0, _⟩ => show win12_5.index t (0 : Fin 2) * 64 + 1 * r.val = Rr.val; rw [e0, hR]; omega
  | ⟨1, _⟩ => show win12_5.index t (1 : Fin 2) * 10 + 1 * q.val = q.val; rw [e1]; omega

/-- An index of the output array lies in point t's block iff each coordinate lies in the block's range on its axis. -/
theorem mem_blk12_5 (t : Fin cfg12.N) (i : S64x10.Idx) :
    i ∈ ((cfg12.win 5).blk t).view.set ↔ ∀ a : Fin 2, win12_5.index t a * S64x10.size a ≤ (i a).val ∧ (i a).val < win12_5.index t a * S64x10.size a + S64x10.size a := by
  show i ∈ ((View.whole main_v363).slice (win12_5.rect t)).set ↔ _
  rw [View.set_slice_whole, Rect.mem_set_unit]
  exact Iff.rfl

/-- Row R of the output array is written back by the point R / 64: the blocks cover the array. -/
theorem covered12_5 (i : S64x10.Idx) : ∃ t : Fin cfg12.N, (cfg12.win 5).flush t = true ∧ i ∈ ((cfg12.win 5).blk t).view.set := by
  have hi0 : (i 0).val < 64 := (i 0).isLt
  have hi1 : (i 1).val < 10 := (i 1).isLt
  have hN : cfg12.N = 1 := N_12
  have hlt : (i 0).val / 64 < cfg12.N := by rw [hN]; omega
  obtain ⟨-, -, -, -, -, -, -, -, -, -, e0, e1⟩ := idx12 ⟨(i 0).val / 64, hlt⟩
  refine ⟨⟨(i 0).val / 64, hlt⟩, flush12_5 _, ?_⟩
  rw [mem_blk12_5]
  intro a
  match a with
  | ⟨0, _⟩ =>
    show win12_5.index ⟨(i 0).val / 64, hlt⟩ (0 : Fin 2) * 64 ≤ (i 0).val ∧ (i 0).val < win12_5.index ⟨(i 0).val / 64, hlt⟩ (0 : Fin 2) * 64 + 64
    rw [e0]; show (i 0).val / 64 * 64 ≤ (i 0).val ∧ (i 0).val < (i 0).val / 64 * 64 + 64; omega
  | ⟨1, _⟩ =>
    show win12_5.index ⟨(i 0).val / 64, hlt⟩ (1 : Fin 2) * 10 ≤ (i 1).val ∧ (i 1).val < win12_5.index ⟨(i 0).val / 64, hlt⟩ (1 : Fin 2) * 10 + 10
    rw [e1]; omega

section Frame
variable (V : (c : Dev nD) → (b : Ref sig .tc) → Buf (Elt Ideal) ((c : Thread nD τ).loc b))

set_option maxHeartbeats 1000000 in
/-- What point t writes back is block t of the host's stage applied to the arrays as the region finds them. -/
theorem flushed12 (c : Dev nD) (t : Fin cfg12.N) :
    (dat12 V c).flushed 5 t = ((cfg12.win 5).blk t).view.read (Elt Ideal)
      (Cert.Stage.mlpG (F := Ideal) (V c (Pipeline.arrRef spec12 0)) (V c (Pipeline.arrRef spec12 1)) (V c (Pipeline.arrRef spec12 2)) (V c (Pipeline.arrRef spec12 3)) (V c (Pipeline.arrRef spec12 4))) := by
  show (cfg12.win 5).cut (grid12.coords t) ((dat12 V c).after 5 t) = _
  rw [after12_5]
  unfold out12_5
  rw [View.canon_unit_zero zero_off]
  simp only [View.ld_unit_zero (S := S64x64) zero_off, View.ld_unit_zero (S := S64x128) zero_off, View.ld_unit_zero (S := S1x128) zero_off, View.ld_unit_zero (S := S128x10) zero_off, View.ld_unit_zero (S := S1x10) zero_off]
  refine funext fun (j : S64x10.Idx) => ?_
  obtain ⟨r, q, rfl⟩ : ∃ (r : Fin 64) (q : Fin 10), j = ix2 r q := ⟨j 0, j 1, eq_ix2 j⟩
  have hN : cfg12.N = 1 := N_12
  have hRr : t.val * 64 + r.val < 64 := by have := t.isLt; have := r.isLt; omega
  show k12_pay1 (F := Ideal) (iblk12 V c 0 t) (iblk12 V c 1 t) (iblk12 V c 2 t) (iblk12 V c 3 t) (iblk12 V c 4 t) (ix2 r q)
    = Cert.Stage.mlpG (F := Ideal) (V c (Pipeline.arrRef spec12 0)) (V c (Pipeline.arrRef spec12 1)) (V c (Pipeline.arrRef spec12 2)) (V c (Pipeline.arrRef spec12 3)) (V c (Pipeline.arrRef spec12 4)) (((cfg12.win 5).blk t).view.emb (ix2 r q))
  refine (pay12_point (iblk12 V c 0 t) (V c (Pipeline.arrRef spec12 0)) (iblk12 V c 1 t) (V c (Pipeline.arrRef spec12 1)) (iblk12 V c 2 t) (V c (Pipeline.arrRef spec12 2)) (iblk12 V c 3 t) (V c (Pipeline.arrRef spec12 3)) (iblk12 V c 4 t) (V c (Pipeline.arrRef spec12 4)) r ⟨t.val * 64 + r.val, hRr⟩ q
      (read12_1 c (V c (Pipeline.arrRef spec12 1)) t) (read12_2 c (V c (Pipeline.arrRef spec12 2)) t) (read12_3 c (V c (Pipeline.arrRef spec12 3)) t) (read12_4 c (V c (Pipeline.arrRef spec12 4)) t) (fun k => read12_0 c (V c (Pipeline.arrRef spec12 0)) t r k ⟨t.val * 64 + r.val, hRr⟩ rfl)).trans ?_
  exact congrArg (Cert.Stage.mlpG (F := Ideal) (V c (Pipeline.arrRef spec12 0)) (V c (Pipeline.arrRef spec12 1)) (V c (Pipeline.arrRef spec12 2)) (V c (Pipeline.arrRef spec12 3)) (V c (Pipeline.arrRef spec12 4))) (emb12_5 t r q ⟨t.val * 64 + r.val, hRr⟩ rfl).symm

set_option maxHeartbeats 1000000 in
/-- THE REGION'S OUTPUT ARRAY after its write-backs: the host's stage of the arrays as the region finds them. -/
theorem value12 (c : Dev nD) :
    (dat12 V c).arrAt 5 cfg12.N = Cert.Stage.mlpG (F := Ideal) (V c (Pipeline.arrRef spec12 0)) (V c (Pipeline.arrRef spec12 1)) (V c (Pipeline.arrRef spec12 2)) (V c (Pipeline.arrRef spec12 3)) (V c (Pipeline.arrRef spec12 4)) :=
  (dat12 V c).arrAt_eq_of_cover 5 (Cert.Stage.mlpG (F := Ideal) (V c (Pipeline.arrRef spec12 0)) (V c (Pipeline.arrRef spec12 1)) (V c (Pipeline.arrRef spec12 2)) (V c (Pipeline.arrRef spec12 3)) (V c (Pipeline.arrRef spec12 4))) (fun t _ => flushed12 V c t) covered12_5

end Frame

end Cert.KernelIdeal.Reg

end
-- ==== Proof.RefOps.lean ====
import proofs.«177129_j59004260712467_1_alg».proof.Proof.Gen.ReferenceIdeal
import Idealize.ShloMosaic.Lib.StableHlo.Run

/-! The reference program's host operations, in order: one list per window of @main, each entry the
    operation of one printed statement; a call of a module-local function is its body's operations over
    the call's buffer record (the callee's parameters replaced by the operands, its record by the call's).
    Beside each window, the list of the references its operations write. -/

noncomputable section

namespace Cert.ReferenceIdeal.RefRun

open Cert.ReferenceIdeal Cert.ReferenceIdeal.Gen Idealize.ShloMosaic Idealize.SL.Sem

variable {F : FTy → Type} [FloatOps F]

/-- Window 0 of @main: 66 operations. -/
abbrev ops_part0 : List (HloOp τ sig (Elt F)) :=
  [ StableHlo.binary main_arg0 main_arg3 main_v0 ((fun l r => Host.dotGeneral dot_S147456x16_S16x64_S147456x64_1_0_0_1_n_n none l r) : (⟨S147456x16, .f32⟩ : BufTy).Contents (Elt F) → (⟨S16x64, .f32⟩ : BufTy).Contents (Elt F) → (⟨S147456x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S147456x64 ![0, 1] bcast_S1x64_S147456x64_0_1 : (⟨S1x64, .f32⟩ : BufTy).Contents (Elt F) → (⟨S147456x64, .f32⟩ : BufTy).Contents (Elt F)),
    StableHlo.binary main_v0 main_v2 main_v3 (addf : (⟨S147456x64, .f32⟩ : BufTy).Contents (Elt F) → (⟨S147456x64, .f32⟩ : BufTy).Contents (Elt F) → (⟨S147456x64, .f32⟩ : BufTy).Contents (Elt F)),
    StableHlo.binary main_arg1 main_arg5 main_v4 ((fun l r => Host.dotGeneral dot_S884736x8_S8x64_S884736x64_1_0_0_1_n_n none l r) : (⟨S884736x8, .f32⟩ : BufTy).Contents (Elt F) → (⟨S8x64, .f32⟩ : BufTy).Contents (Elt F) → (⟨S884736x64, .f32⟩ : BufTy).Contents (Elt F)),
    StableHlo.unary main_arg6 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S884736x64 ![0, 1] bcast_S1x64_S884736x64_0_1 : (⟨S1x64, .f32⟩ : BufTy).Contents (Elt F) → (⟨S884736x64, .f32⟩ : BufTy).Contents (Elt F)),
    StableHlo.binary main_v4 main_v6 main_v7 (addf : (⟨S884736x64, .f32⟩ : BufTy).Contents (Elt F) → (⟨S884736x64, .f32⟩ : BufTy).Contents (Elt F) → (⟨S884736x64, .f32⟩ : BufTy).Contents (Elt F)),
    StableHlo.binary main_arg2 main_arg5 main_v8 ((fun l r => Host.dotGeneral dot_S18432x8_S8x64_S18432x64_1_0_0_1_n_n none l r) : (⟨S18432x8, .f32⟩ : BufTy).Contents (Elt F) → (⟨S8x64, .f32⟩ : BufTy).Contents (Elt F) → (⟨S18432x64, .f32⟩ : BufTy).Contents (Elt F)),
    StableHlo.unary main_arg6 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S18432x64 ![0, 1] bcast_S1x64_S18432x64_0_1 : (⟨S1x64, .f32⟩ : BufTy).Contents (Elt F) → (⟨S18432x64, .f32⟩ : BufTy).Contents (Elt F)),
    StableHlo.binary main_v8 main_v10 main_v11 (addf : (⟨S18432x64, .f32⟩ : BufTy).Contents (Elt F) → (⟨S18432x64, .f32⟩ : BufTy).Contents (Elt F) → (⟨S18432x64, .f32⟩ : BufTy).Contents (Elt F)),
    StableHlo.nullary main_c (constantI S_ 32 0#32),
    StableHlo.unary main_c main_v12 (broadcastInDim S1 ![] bcast_S_S1 : (⟨S_, .i32⟩ : BufTy).Contents (Elt F) → (⟨S1, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (.of main_arg27 : StableHlo.TRef sig ⟨S64, .i32⟩) main_call0.call0.v0 main_call0.call0.v1 (fun x v => Host.reduceWindow IntOp.addi ![64] ![1] ![63] ![0] x v reduceWindows_S64_S64_w64s1p63_0 h_S_),
    StableHlo.binary main_v12 main_v13 main_v14 ((fun a b => concatenate S65 0 [⟨S1, a⟩, ⟨S64, b⟩] concatenates_S1_S64_S65_d0) : (⟨S1, .i32⟩ : BufTy).Contents (Elt F) → (⟨S64, .i32⟩ : BufTy).Contents (Elt F) → (⟨S65, .i32⟩ : BufTy).Contents (Elt F)),
    StableHlo.nullary main_c_0 (constantI S_ 32 0#32),
    StableHlo.unary main_c_0 main_v15 (broadcastInDim S147456 ![] bcast_S_S147456 : (⟨S_, .i32⟩ : BufTy).Contents (Elt F) → (⟨S147456, .i32⟩ : BufTy).Contents (Elt F)),
    StableHlo.binary main_arg25 main_v15 main_v16 (cmpi .slt : (⟨S147456, .i32⟩ : BufTy).Contents (Elt F) → (⟨S147456, .i32⟩ : BufTy).Contents (Elt F) → (⟨S147456, .i1⟩ : BufTy).Contents (Elt F)),
    StableHlo.nullary main_c_1 (constantI S_ 32 65#32),
    StableHlo.unary main_c_1 main_v17 (broadcastInDim S147456 ![] bcast_S_S147456 : (⟨S_, .i32⟩ : BufTy).Contents (Elt F) → (⟨S147456, .i32⟩ : BufTy).Contents (Elt F)),
    StableHlo.binary main_arg25 main_v17 main_v18 (addi : (⟨S147456, .i32⟩ : BufTy).Contents (Elt F) → (⟨S147456, .i32⟩ : BufTy).Contents (Elt F) → (⟨S147456, .i32⟩ : BufTy).Contents (Elt F)),
    StableHlo.ternary main_v16 main_v18 main_arg25 main_v19 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v19 main_v20 (broadcastInDim S147456x1 ![0] bcast_S147456_S147456x1_0 : (⟨S147456, .i32⟩ : BufTy).Contents (Elt F) → (⟨S147456x1, .i32⟩ : BufTy).Contents (Elt F)),
    StableHlo.binary main_v14 main_v20 main_v21 ((fun x i => Host.gather gather_S65_S147456x1_S147456_n_0_n_n_0_1_1 x i) : (⟨S65, .i32⟩ : BufTy).Contents (Elt F) → (⟨S147456x1, .i32⟩ : BufTy).Contents (Elt F) → (⟨S147456, .i32⟩ : BufTy).Contents (Elt F)),
    StableHlo.binary main_v21 main_arg26 main_v22 (addi : (⟨S147456, .i32⟩ : BufTy).Contents (Elt F) → (⟨S147456, .i32⟩ : BufTy).Contents (Elt F) → (⟨S147456, .i32⟩ : BufTy).Contents (Elt F)),
    StableHlo.unary main_arg7 main_v23 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v23 main_v24 rfl shapeCasts_S1x64x128_S64x128,
    StableHlo.unary main_arg8 main_v25 ((extractStridedSlice S1x128 ![0, 0] · slices_S3x128_S1x128_0_0) : (⟨S3x128, .f32⟩ : BufTy).Contents (Elt F) → (⟨S1x128, .f32⟩ : BufTy).Contents (Elt F)),
    StableHlo.reshape main_v25 main_v26 rfl shapeCasts_S1x128_S128,
    StableHlo.unary main_arg9 main_v27 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v27 main_v28 rfl shapeCasts_S1x128x64_S128x64,
    StableHlo.unary main_arg10 main_v29 ((extractStridedSlice S1x64 ![0, 0] · slices_S3x64_S1x64_0_0) : (⟨S3x64, .f32⟩ : BufTy).Contents (Elt F) → (⟨S1x64, .f32⟩ : BufTy).Contents (Elt F)),
    StableHlo.reshape main_v29 main_v30 rfl shapeCasts_S1x64_S64,
    StableHlo.unary main_arg23 main_v31 ((extractStridedSlice S1x884736 ![0, 0] · slices_S2x884736_S1x884736_0_0) : (⟨S2x884736, .i32⟩ : BufTy).Contents (Elt F) → (⟨S1x884736, .i32⟩ : BufTy).Contents (Elt F)),
    StableHlo.reshape main_v31 main_v32 rfl shapeCasts_S1x884736_S884736,
    StableHlo.nullary main_c_2 (constantI S_ 32 0#32),
    StableHlo.unary main_c_2 main_v33 (broadcastInDim S884736 ![] bcast_S_S884736 : (⟨S_, .i32⟩ : BufTy).Contents (Elt F) → (⟨S884736, .i32⟩ : BufTy).Contents (Elt F)),
    StableHlo.binary main_v32 main_v33 main_v34 (cmpi .slt : (⟨S884736, .i32⟩ : BufTy).Contents (Elt F) → (⟨S884736, .i32⟩ : BufTy).Contents (Elt F) → (⟨S884736, .i1⟩ : BufTy).Contents (Elt F)),
    StableHlo.nullary main_c_3 (constantI S_ 32 147456#32),
    StableHlo.unary main_c_3 main_v35 (broadcastInDim S884736 ![] bcast_S_S884736 : (⟨S_, .i32⟩ : BufTy).Contents (Elt F) → (⟨S884736, .i32⟩ : BufTy).Contents (Elt F)),
    StableHlo.binary main_v32 main_v35 main_v36 (addi : (⟨S884736, .i32⟩ : BufTy).Contents (Elt F) → (⟨S884736, .i32⟩ : BufTy).Contents (Elt F) → (⟨S884736, .i32⟩ : BufTy).Contents (Elt F)),
    StableHlo.ternary main_v34 main_v36 main_v32 main_v37 (select : (⟨S884736, .i1⟩ : BufTy).Contents (Elt F) → (⟨S884736, .i32⟩ : BufTy).Contents (Elt F) → (⟨S884736, .i32⟩ : BufTy).Contents (Elt F) → (⟨S884736, .i32⟩ : BufTy).Contents (Elt F)),
    StableHlo.unary main_v37 main_v38 (broadcastInDim S884736x1 ![0] bcast_S884736_S884736x1_0 : (⟨S884736, .i32⟩ : BufTy).Contents (Elt F) → (⟨S884736x1, .i32⟩ : BufTy).Contents (Elt F)),
    StableHlo.binary main_v3 main_v38 main_v39 ((fun x i => Host.gather gather_S147456x64_S884736x1_S884736x64_1_0_n_n_0_1_164 x i) : (⟨S147456x64, .f32⟩ : BufTy).Contents (Elt F) → (⟨S884736x1, .i32⟩ : BufTy).Contents (Elt F) → (⟨S884736x64, .f32⟩ : BufTy).Contents (Elt F)),
    StableHlo.binary main_v39 main_v7 main_v40 (addf : (⟨S884736x64, .f32⟩ : BufTy).Contents (Elt F) → (⟨S884736x64, .f32⟩ : BufTy).Contents (Elt F) → (⟨S884736x64, .f32⟩ : BufTy).Contents (Elt F)),
    StableHlo.TRef.nullary main_call1.cst (constant S_ .f32 0x00000000#32),
    StableHlo.TRef.unary main_call1.cst main_call1.v0 (broadcastInDim S884736x64 ![] bcast_S_S884736x64),
    StableHlo.TRef.binary (.of main_v40 : StableHlo.TRef sig ⟨S884736x64, .f32⟩) main_call1.v0 main_call1.v1 maximumf,
    StableHlo.unary main_arg23 main_v42 ((extractStridedSlice S1x884736 ![1, 0] · slices_S2x884736_S1x884736_1_0) : (⟨S2x884736, .i32⟩ : BufTy).Contents (Elt F) → (⟨S1x884736, .i32⟩ : BufTy).Contents (Elt F)),
    StableHlo.reshape main_v42 main_v43 rfl shapeCasts_S1x884736_S884736,
    StableHlo.nullary main_cst (constant S_ .f32 0x00000000#32),
    StableHlo.unary main_cst main_v44 (broadcastInDim S147456x64 ![] bcast_S_S147456x64 : (⟨S_, .f32⟩ : BufTy).Contents (Elt F) → (⟨S147456x64, .f32⟩ : BufTy).Contents (Elt F)),
    StableHlo.unary main_v43 main_v45 (broadcastInDim S884736x1 ![0] bcast_S884736_S884736x1_0 : (⟨S884736, .i32⟩ : BufTy).Contents (Elt F) → (⟨S884736x1, .i32⟩ : BufTy).Contents (Elt F)),
    StableHlo.ternary main_v44 main_v45 main_v41 main_v46 ((fun x i u => Host.scatterAdd scatter_S147456x64_S884736x1_S884736x64_1_0_0_1 x i u) : (⟨S147456x64, .f32⟩ : BufTy).Contents (Elt F) → (⟨S884736x1, .i32⟩ : BufTy).Contents (Elt F) → (⟨S884736x64, .f32⟩ : BufTy).Contents (Elt F) → (⟨S147456x64, .f32⟩ : BufTy).Contents (Elt F)),
    StableHlo.binary main_v3 main_v46 main_v47 (addf : (⟨S147456x64, .f32⟩ : BufTy).Contents (Elt F) → (⟨S147456x64, .f32⟩ : BufTy).Contents (Elt F) → (⟨S147456x64, .f32⟩ : BufTy).Contents (Elt F)),
    StableHlo.binary main_v47 main_v24 main_v48 ((fun l r => Host.dotGeneral dot_S147456x64_S64x128_S147456x128_1_0_0_1_n_n none l r) : (⟨S147456x64, .f32⟩ : BufTy).Contents (Elt F) → (⟨S64x128, .f32⟩ : BufTy).Contents (Elt F) → (⟨S147456x128, .f32⟩ : BufTy).Contents (Elt F)),
    StableHlo.unary main_v26 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S147456x128 ![0, 1] bcast_S1x128_S147456x128_0_1 : (⟨S1x128, .f32⟩ : BufTy).Contents (Elt F) → (⟨S147456x128, .f32⟩ : BufTy).Contents (Elt F)),
    StableHlo.binary main_v48 main_v50 main_v51 (addf : (⟨S147456x128, .f32⟩ : BufTy).Contents (Elt F) → (⟨S147456x128, .f32⟩ : BufTy).Contents (Elt F) → (⟨S147456x128, .f32⟩ : BufTy).Contents (Elt F)),
    StableHlo.TRef.nullary main_call2.cst (constant S_ .f32 0x00000000#32),
    StableHlo.TRef.unary main_call2.cst main_call2.v0 (broadcastInDim S147456x128 ![] bcast_S_S147456x128),
    StableHlo.TRef.binary (.of main_v51 : StableHlo.TRef sig ⟨S147456x128, .f32⟩) main_call2.v0 main_call2.v1 maximumf,
    StableHlo.binary main_v52 main_v28 main_v53 ((fun l r => Host.dotGeneral dot_S147456x128_S128x64_S147456x64_1_0_0_1_n_n none l r) : (⟨S147456x128, .f32⟩ : BufTy).Contents (Elt F) → (⟨S128x64, .f32⟩ : BufTy).Contents (Elt F) → (⟨S147456x64, .f32⟩ : BufTy).Contents (Elt F)) ]

/-- The references window 0's operations write, in order. -/
abbrev ops_part0_W : List (Ref sig .tc) :=
  [main_v0, main_v1, main_v2, main_v3, main_v4, main_v5, main_v6, main_v7, main_v8, main_v9, main_v10, main_v11, main_c, main_v12, main_call0_call0_c, main_call0_call0_v0, main_v13, main_v14, main_c_0, main_v15, main_v16, main_c_1, main_v17, main_v18, main_v19, main_v20, main_v21, main_v22, main_v23, main_v24, main_v25, main_v26, main_v27, main_v28, main_v29, main_v30, main_v31, main_v32, main_c_2, main_v33, main_v34, main_c_3, main_v35, main_v36, main_v37, main_v38, main_v39, main_v40, main_call1_cst, main_call1_v0, main_v41, main_v42, main_v43, main_cst, main_v44, main_v45, main_v46, main_v47, main_v48, main_v49, main_v50, main_v51, main_call2_cst, main_call2_v0, main_v52, main_v53]

/-- Window 1 of @main: 81 operations. -/
abbrev ops_part1 : List (HloOp τ sig (Elt F)) :=
  [ StableHlo.unary main_v30 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S147456x64 ![0, 1] bcast_S1x64_S147456x64_0_1 : (⟨S1x64, .f32⟩ : BufTy).Contents (Elt F) → (⟨S147456x64, .f32⟩ : BufTy).Contents (Elt F)),
    StableHlo.binary main_v53 main_v55 main_v56 (addf : (⟨S147456x64, .f32⟩ : BufTy).Contents (Elt F) → (⟨S147456x64, .f32⟩ : BufTy).Contents (Elt F) → (⟨S147456x64, .f32⟩ : BufTy).Contents (Elt F)),
    StableHlo.unary main_arg11 main_v57 ((extractStridedSlice S1x64 ![0, 0] · slices_S3x64_S1x64_0_0) : (⟨S3x64, .f32⟩ : BufTy).Contents (Elt F) → (⟨S1x64, .f32⟩ : BufTy).Contents (Elt F)),
    StableHlo.reshape main_v57 main_v58 rfl shapeCasts_S1x64_S64,
    StableHlo.unary main_arg12 main_v59 ((extractStridedSlice S1x64 ![0, 0] · slices_S3x64_S1x64_0_0) : (⟨S3x64, .f32⟩ : BufTy).Contents (Elt F) → (⟨S1x64, .f32⟩ : BufTy).Contents (Elt F)),
    StableHlo.reshape main_v59 main_v60 rfl shapeCasts_S1x64_S64,
    StableHlo.nullary main_cst_4 (constant S_ .f32 0x00000000#32),
    StableHlo.binary main_v56 main_cst_4 main_v61 ((fun x v => Host.reduceAdd x v reducesTo_S147456x64_S64_d0 h_S_) : (⟨S147456x64, .f32⟩ : BufTy).Contents (Elt F) → (⟨S_, .f32⟩ : BufTy).Contents (Elt F) → (⟨S64, .f32⟩ : BufTy).Contents (Elt F)),
    StableHlo.nullary main_cst_5 (constant S_ .f32 0x48100000#32),
    StableHlo.unary main_cst_5 main_v62 (broadcastInDim S64 ![] bcast_S_S64 : (⟨S_, .f32⟩ : BufTy).Contents (Elt F) → (⟨S64, .f32⟩ : BufTy).Contents (Elt F)),
    StableHlo.binary main_v61 main_v62 main_v63 (Host.divf : (⟨S64, .f32⟩ : BufTy).Contents (Elt F) → (⟨S64, .f32⟩ : BufTy).Contents (Elt F) → (⟨S64, .f32⟩ : BufTy).Contents (Elt F)),
    StableHlo.nullary main_c_6 (constantI S_ 32 0#32),
    StableHlo.TRef.nullary main_call3.cst (constant S_ .f32 0x00000000#32),
    StableHlo.TRef.binary (.of main_v56 : StableHlo.TRef sig ⟨S147456x64, .f32⟩) main_call3.cst main_call3.v0 (fun x v => Host.reduceAdd x v reducesTo_S147456x64_S64_d0 h_S_),
    StableHlo.TRef.unary main_call3.v0 main_call3.v1 (broadcastInDim S1x64 ![1] bcast_S64_S1x64_1),
    StableHlo.TRef.nullary main_call3.cst_0 (constant S_ .f32 0x48100000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S147456x64 ![0, 1] bcast_S1x64_S147456x64_0_1),
    StableHlo.TRef.binary (.of main_v56 : StableHlo.TRef sig ⟨S147456x64, .f32⟩) main_call3.v4 main_call3.v5 subf,
    StableHlo.TRef.binary main_call3.v5 main_call3.v5 main_call3.v6 mulf,
    StableHlo.TRef.unary (.of main_c_6 : StableHlo.TRef sig ⟨S_, .i32⟩) main_call3.v7 (sitofp .f32),
    StableHlo.TRef.nullary main_call3.cst_1 (constant S_ .f32 0x48100000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S147456x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v63 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S147456x64 ![0, 1] bcast_S1x64_S147456x64_0_1 : (⟨S1x64, .f32⟩ : BufTy).Contents (Elt F) → (⟨S147456x64, .f32⟩ : BufTy).Contents (Elt F)),
    StableHlo.binary main_v56 main_v66 main_v67 (subf : (⟨S147456x64, .f32⟩ : BufTy).Contents (Elt F) → (⟨S147456x64, .f32⟩ : BufTy).Contents (Elt F) → (⟨S147456x64, .f32⟩ : BufTy).Contents (Elt F)),
    StableHlo.nullary main_cst_7 (constant S_ .f32 0x3727C5AC#32),
    StableHlo.unary main_cst_7 main_v68 (broadcastInDim S64 ![] bcast_S_S64 : (⟨S_, .f32⟩ : BufTy).Contents (Elt F) → (⟨S64, .f32⟩ : BufTy).Contents (Elt F)),
    StableHlo.binary main_v64 main_v68 main_v69 (addf : (⟨S64, .f32⟩ : BufTy).Contents (Elt F) → (⟨S64, .f32⟩ : BufTy).Contents (Elt F) → (⟨S64, .f32⟩ : BufTy).Contents (Elt F)),
    StableHlo.unary main_v69 main_v70 (Host.rsqrt : (⟨S64, .f32⟩ : BufTy).Contents (Elt F) → (⟨S64, .f32⟩ : BufTy).Contents (Elt F)),
    StableHlo.unary main_v70 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S147456x64 ![0, 1] bcast_S1x64_S147456x64_0_1 : (⟨S1x64, .f32⟩ : BufTy).Contents (Elt F) → (⟨S147456x64, .f32⟩ : BufTy).Contents (Elt F)),
    StableHlo.binary main_v67 main_v72 main_v73 (mulf : (⟨S147456x64, .f32⟩ : BufTy).Contents (Elt F) → (⟨S147456x64, .f32⟩ : BufTy).Contents (Elt F) → (⟨S147456x64, .f32⟩ : BufTy).Contents (Elt F)),
    StableHlo.unary main_v58 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S147456x64 ![0, 1] bcast_S1x64_S147456x64_0_1 : (⟨S1x64, .f32⟩ : BufTy).Contents (Elt F) → (⟨S147456x64, .f32⟩ : BufTy).Contents (Elt F)),
    StableHlo.binary main_v73 main_v75 main_v76 (mulf : (⟨S147456x64, .f32⟩ : BufTy).Contents (Elt F) → (⟨S147456x64, .f32⟩ : BufTy).Contents (Elt F) → (⟨S147456x64, .f32⟩ : BufTy).Contents (Elt F)),
    StableHlo.unary main_v60 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S147456x64 ![0, 1] bcast_S1x64_S147456x64_0_1 : (⟨S1x64, .f32⟩ : BufTy).Contents (Elt F) → (⟨S147456x64, .f32⟩ : BufTy).Contents (Elt F)),
    StableHlo.binary main_v76 main_v78 main_v79 (addf : (⟨S147456x64, .f32⟩ : BufTy).Contents (Elt F) → (⟨S147456x64, .f32⟩ : BufTy).Contents (Elt F) → (⟨S147456x64, .f32⟩ : BufTy).Contents (Elt F)),
    StableHlo.nullary main_cst_8 (constant S_ .f32 0x3F800000#32),
    StableHlo.unary main_cst_8 main_v80 (broadcastInDim S147456 ![] bcast_S_S147456 : (⟨S_, .f32⟩ : BufTy).Contents (Elt F) → (⟨S147456, .f32⟩ : BufTy).Contents (Elt F)),
    StableHlo.nullary main_cst_9 (constant S_ .f32 0x00000000#32),
    StableHlo.unary main_cst_9 main_v81 (broadcastInDim S3072 ![] bcast_S_S3072 : (⟨S_, .f32⟩ : BufTy).Contents (Elt F) → (⟨S3072, .f32⟩ : BufTy).Contents (Elt F)),
    StableHlo.unary main_v22 main_v82 (broadcastInDim S147456x1 ![0] bcast_S147456_S147456x1_0 : (⟨S147456, .i32⟩ : BufTy).Contents (Elt F) → (⟨S147456x1, .i32⟩ : BufTy).Contents (Elt F)),
    StableHlo.ternary main_v81 main_v82 main_v80 main_v83 ((fun x i u => Host.scatterAdd scatter_S3072_S147456x1_S147456_n_0_0_1 x i u) : (⟨S3072, .f32⟩ : BufTy).Contents (Elt F) → (⟨S147456x1, .i32⟩ : BufTy).Contents (Elt F) → (⟨S147456, .f32⟩ : BufTy).Contents (Elt F) → (⟨S3072, .f32⟩ : BufTy).Contents (Elt F)),
    StableHlo.nullary main_cst_10 (constant S_ .f32 0x3F800000#32),
    StableHlo.unary main_cst_10 main_v84 (broadcastInDim S3072 ![] bcast_S_S3072 : (⟨S_, .f32⟩ : BufTy).Contents (Elt F) → (⟨S3072, .f32⟩ : BufTy).Contents (Elt F)),
    StableHlo.binary main_v83 main_v84 main_v85 (maximumf : (⟨S3072, .f32⟩ : BufTy).Contents (Elt F) → (⟨S3072, .f32⟩ : BufTy).Contents (Elt F) → (⟨S3072, .f32⟩ : BufTy).Contents (Elt F)),
    StableHlo.nullary main_cst_11 (constant S_ .f32 0x00000000#32),
    StableHlo.unary main_cst_11 main_v86 (broadcastInDim S3072x64 ![] bcast_S_S3072x64 : (⟨S_, .f32⟩ : BufTy).Contents (Elt F) → (⟨S3072x64, .f32⟩ : BufTy).Contents (Elt F)),
    StableHlo.unary main_v22 main_v87 (broadcastInDim S147456x1 ![0] bcast_S147456_S147456x1_0 : (⟨S147456, .i32⟩ : BufTy).Contents (Elt F) → (⟨S147456x1, .i32⟩ : BufTy).Contents (Elt F)),
    StableHlo.ternary main_v86 main_v87 main_v3 main_v88 ((fun x i u => Host.scatterAdd scatter_S3072x64_S147456x1_S147456x64_1_0_0_1 x i u) : (⟨S3072x64, .f32⟩ : BufTy).Contents (Elt F) → (⟨S147456x1, .i32⟩ : BufTy).Contents (Elt F) → (⟨S147456x64, .f32⟩ : BufTy).Contents (Elt F) → (⟨S3072x64, .f32⟩ : BufTy).Contents (Elt F)),
    StableHlo.unary main_v85 main_v89 (broadcastInDim S3072x1 ![0] bcast_S3072_S3072x1_0 : (⟨S3072, .f32⟩ : BufTy).Contents (Elt F) → (⟨S3072x1, .f32⟩ : BufTy).Contents (Elt F)),
    StableHlo.unary main_v89 main_v90 (broadcastInDim S3072x64 ![0, 1] bcast_S3072x1_S3072x64_0_1 : (⟨S3072x1, .f32⟩ : BufTy).Contents (Elt F) → (⟨S3072x64, .f32⟩ : BufTy).Contents (Elt F)),
    StableHlo.binary main_v88 main_v90 main_v91 (Host.divf : (⟨S3072x64, .f32⟩ : BufTy).Contents (Elt F) → (⟨S3072x64, .f32⟩ : BufTy).Contents (Elt F) → (⟨S3072x64, .f32⟩ : BufTy).Contents (Elt F)),
    StableHlo.unary main_arg13 main_v92 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v92 main_v93 rfl shapeCasts_S1x64x128_S64x128,
    StableHlo.unary main_arg14 main_v94 ((extractStridedSlice S1x128 ![0, 0] · slices_S3x128_S1x128_0_0) : (⟨S3x128, .f32⟩ : BufTy).Contents (Elt F) → (⟨S1x128, .f32⟩ : BufTy).Contents (Elt F)),
    StableHlo.reshape main_v94 main_v95 rfl shapeCasts_S1x128_S128,
    StableHlo.unary main_arg15 main_v96 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v96 main_v97 rfl shapeCasts_S1x128x64_S128x64,
    StableHlo.unary main_arg16 main_v98 ((extractStridedSlice S1x64 ![0, 0] · slices_S3x64_S1x64_0_0) : (⟨S3x64, .f32⟩ : BufTy).Contents (Elt F) → (⟨S1x64, .f32⟩ : BufTy).Contents (Elt F)),
    StableHlo.reshape main_v98 main_v99 rfl shapeCasts_S1x64_S64,
    StableHlo.unary main_arg24 main_v100 ((extractStridedSlice S1x18432 ![0, 0] · slices_S2x18432_S1x18432_0_0) : (⟨S2x18432, .i32⟩ : BufTy).Contents (Elt F) → (⟨S1x18432, .i32⟩ : BufTy).Contents (Elt F)),
    StableHlo.reshape main_v100 main_v101 rfl shapeCasts_S1x18432_S18432,
    StableHlo.nullary main_c_12 (constantI S_ 32 0#32),
    StableHlo.unary main_c_12 main_v102 (broadcastInDim S18432 ![] bcast_S_S18432 : (⟨S_, .i32⟩ : BufTy).Contents (Elt F) → (⟨S18432, .i32⟩ : BufTy).Contents (Elt F)),
    StableHlo.binary main_v101 main_v102 main_v103 (cmpi .slt : (⟨S18432, .i32⟩ : BufTy).Contents (Elt F) → (⟨S18432, .i32⟩ : BufTy).Contents (Elt F) → (⟨S18432, .i1⟩ : BufTy).Contents (Elt F)),
    StableHlo.nullary main_c_13 (constantI S_ 32 3072#32) ]

/-- The references window 1's operations write, in order. -/
abbrev ops_part1_W : List (Ref sig .tc) :=
  [main_v54, main_v55, main_v56, main_v57, main_v58, main_v59, main_v60, main_cst_4, main_v61, main_cst_5, main_v62, main_v63, main_c_6, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v64, main_v65, main_v66, main_v67, main_cst_7, main_v68, main_v69, main_v70, main_v71, main_v72, main_v73, main_v74, main_v75, main_v76, main_v77, main_v78, main_v79, main_cst_8, main_v80, main_cst_9, main_v81, main_v82, main_v83, main_cst_10, main_v84, main_v85, main_cst_11, main_v86, main_v87, main_v88, main_v89, main_v90, main_v91, main_v92, main_v93, main_v94, main_v95, main_v96, main_v97, main_v98, main_v99, main_v100, main_v101, main_c_12, main_v102, main_v103, main_c_13]

/-- Window 2 of @main: 85 operations. -/
abbrev ops_part2 : List (HloOp τ sig (Elt F)) :=
  [ StableHlo.unary main_c_13 main_v104 (broadcastInDim S18432 ![] bcast_S_S18432 : (⟨S_, .i32⟩ : BufTy).Contents (Elt F) → (⟨S18432, .i32⟩ : BufTy).Contents (Elt F)),
    StableHlo.binary main_v101 main_v104 main_v105 (addi : (⟨S18432, .i32⟩ : BufTy).Contents (Elt F) → (⟨S18432, .i32⟩ : BufTy).Contents (Elt F) → (⟨S18432, .i32⟩ : BufTy).Contents (Elt F)),
    StableHlo.ternary main_v103 main_v105 main_v101 main_v106 (select : (⟨S18432, .i1⟩ : BufTy).Contents (Elt F) → (⟨S18432, .i32⟩ : BufTy).Contents (Elt F) → (⟨S18432, .i32⟩ : BufTy).Contents (Elt F) → (⟨S18432, .i32⟩ : BufTy).Contents (Elt F)),
    StableHlo.unary main_v106 main_v107 (broadcastInDim S18432x1 ![0] bcast_S18432_S18432x1_0 : (⟨S18432, .i32⟩ : BufTy).Contents (Elt F) → (⟨S18432x1, .i32⟩ : BufTy).Contents (Elt F)),
    StableHlo.binary main_v91 main_v107 main_v108 ((fun x i => Host.gather gather_S3072x64_S18432x1_S18432x64_1_0_n_n_0_1_164 x i) : (⟨S3072x64, .f32⟩ : BufTy).Contents (Elt F) → (⟨S18432x1, .i32⟩ : BufTy).Contents (Elt F) → (⟨S18432x64, .f32⟩ : BufTy).Contents (Elt F)),
    StableHlo.binary main_v108 main_v11 main_v109 (addf : (⟨S18432x64, .f32⟩ : BufTy).Contents (Elt F) → (⟨S18432x64, .f32⟩ : BufTy).Contents (Elt F) → (⟨S18432x64, .f32⟩ : BufTy).Contents (Elt F)),
    StableHlo.TRef.nullary main_call4.cst (constant S_ .f32 0x00000000#32),
    StableHlo.TRef.unary main_call4.cst main_call4.v0 (broadcastInDim S18432x64 ![] bcast_S_S18432x64),
    StableHlo.TRef.binary (.of main_v109 : StableHlo.TRef sig ⟨S18432x64, .f32⟩) main_call4.v0 main_call4.v1 maximumf,
    StableHlo.unary main_arg24 main_v111 ((extractStridedSlice S1x18432 ![1, 0] · slices_S2x18432_S1x18432_1_0) : (⟨S2x18432, .i32⟩ : BufTy).Contents (Elt F) → (⟨S1x18432, .i32⟩ : BufTy).Contents (Elt F)),
    StableHlo.reshape main_v111 main_v112 rfl shapeCasts_S1x18432_S18432,
    StableHlo.nullary main_cst_14 (constant S_ .f32 0x00000000#32),
    StableHlo.unary main_cst_14 main_v113 (broadcastInDim S3072x64 ![] bcast_S_S3072x64 : (⟨S_, .f32⟩ : BufTy).Contents (Elt F) → (⟨S3072x64, .f32⟩ : BufTy).Contents (Elt F)),
    StableHlo.unary main_v112 main_v114 (broadcastInDim S18432x1 ![0] bcast_S18432_S18432x1_0 : (⟨S18432, .i32⟩ : BufTy).Contents (Elt F) → (⟨S18432x1, .i32⟩ : BufTy).Contents (Elt F)),
    StableHlo.ternary main_v113 main_v114 main_v110 main_v115 ((fun x i u => Host.scatterAdd scatter_S3072x64_S18432x1_S18432x64_1_0_0_1 x i u) : (⟨S3072x64, .f32⟩ : BufTy).Contents (Elt F) → (⟨S18432x1, .i32⟩ : BufTy).Contents (Elt F) → (⟨S18432x64, .f32⟩ : BufTy).Contents (Elt F) → (⟨S3072x64, .f32⟩ : BufTy).Contents (Elt F)),
    StableHlo.binary main_v91 main_v115 main_v116 (addf : (⟨S3072x64, .f32⟩ : BufTy).Contents (Elt F) → (⟨S3072x64, .f32⟩ : BufTy).Contents (Elt F) → (⟨S3072x64, .f32⟩ : BufTy).Contents (Elt F)),
    StableHlo.binary main_v116 main_v93 main_v117 ((fun l r => Host.dotGeneral dot_S3072x64_S64x128_S3072x128_1_0_0_1_n_n none l r) : (⟨S3072x64, .f32⟩ : BufTy).Contents (Elt F) → (⟨S64x128, .f32⟩ : BufTy).Contents (Elt F) → (⟨S3072x128, .f32⟩ : BufTy).Contents (Elt F)),
    StableHlo.unary main_v95 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S3072x128 ![0, 1] bcast_S1x128_S3072x128_0_1 : (⟨S1x128, .f32⟩ : BufTy).Contents (Elt F) → (⟨S3072x128, .f32⟩ : BufTy).Contents (Elt F)),
    StableHlo.binary main_v117 main_v119 main_v120 (addf : (⟨S3072x128, .f32⟩ : BufTy).Contents (Elt F) → (⟨S3072x128, .f32⟩ : BufTy).Contents (Elt F) → (⟨S3072x128, .f32⟩ : BufTy).Contents (Elt F)),
    StableHlo.TRef.nullary main_call5.cst (constant S_ .f32 0x00000000#32),
    StableHlo.TRef.unary main_call5.cst main_call5.v0 (broadcastInDim S3072x128 ![] bcast_S_S3072x128),
    StableHlo.TRef.binary (.of main_v120 : StableHlo.TRef sig ⟨S3072x128, .f32⟩) main_call5.v0 main_call5.v1 maximumf,
    StableHlo.binary main_v121 main_v97 main_v122 ((fun l r => Host.dotGeneral dot_S3072x128_S128x64_S3072x64_1_0_0_1_n_n none l r) : (⟨S3072x128, .f32⟩ : BufTy).Contents (Elt F) → (⟨S128x64, .f32⟩ : BufTy).Contents (Elt F) → (⟨S3072x64, .f32⟩ : BufTy).Contents (Elt F)),
    StableHlo.unary main_v99 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S3072x64 ![0, 1] bcast_S1x64_S3072x64_0_1 : (⟨S1x64, .f32⟩ : BufTy).Contents (Elt F) → (⟨S3072x64, .f32⟩ : BufTy).Contents (Elt F)),
    StableHlo.binary main_v122 main_v124 main_v125 (addf : (⟨S3072x64, .f32⟩ : BufTy).Contents (Elt F) → (⟨S3072x64, .f32⟩ : BufTy).Contents (Elt F) → (⟨S3072x64, .f32⟩ : BufTy).Contents (Elt F)),
    StableHlo.unary main_arg17 main_v126 ((extractStridedSlice S1x64 ![0, 0] · slices_S3x64_S1x64_0_0) : (⟨S3x64, .f32⟩ : BufTy).Contents (Elt F) → (⟨S1x64, .f32⟩ : BufTy).Contents (Elt F)),
    StableHlo.reshape main_v126 main_v127 rfl shapeCasts_S1x64_S64,
    StableHlo.unary main_arg18 main_v128 ((extractStridedSlice S1x64 ![0, 0] · slices_S3x64_S1x64_0_0) : (⟨S3x64, .f32⟩ : BufTy).Contents (Elt F) → (⟨S1x64, .f32⟩ : BufTy).Contents (Elt F)),
    StableHlo.reshape main_v128 main_v129 rfl shapeCasts_S1x64_S64,
    StableHlo.nullary main_cst_15 (constant S_ .f32 0x00000000#32),
    StableHlo.binary main_v125 main_cst_15 main_v130 ((fun x v => Host.reduceAdd x v reducesTo_S3072x64_S64_d0 h_S_) : (⟨S3072x64, .f32⟩ : BufTy).Contents (Elt F) → (⟨S_, .f32⟩ : BufTy).Contents (Elt F) → (⟨S64, .f32⟩ : BufTy).Contents (Elt F)),
    StableHlo.nullary main_cst_16 (constant S_ .f32 0x45400000#32),
    StableHlo.unary main_cst_16 main_v131 (broadcastInDim S64 ![] bcast_S_S64 : (⟨S_, .f32⟩ : BufTy).Contents (Elt F) → (⟨S64, .f32⟩ : BufTy).Contents (Elt F)),
    StableHlo.binary main_v130 main_v131 main_v132 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call6.cst (constant S_ .f32 0x00000000#32),
    StableHlo.TRef.binary (.of main_v125 : StableHlo.TRef sig ⟨S3072x64, .f32⟩) main_call6.cst main_call6.v0 (fun x v => Host.reduceAdd x v reducesTo_S3072x64_S64_d0 h_S_),
    StableHlo.TRef.unary main_call6.v0 main_call6.v1 (broadcastInDim S1x64 ![1] bcast_S64_S1x64_1),
    StableHlo.TRef.nullary main_call6.cst_0 (constant S_ .f32 0x45400000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S3072x64 ![0, 1] bcast_S1x64_S3072x64_0_1),
    StableHlo.TRef.binary (.of main_v125 : StableHlo.TRef sig ⟨S3072x64, .f32⟩) main_call6.v4 main_call6.v5 subf,
    StableHlo.TRef.binary main_call6.v5 main_call6.v5 main_call6.v6 mulf,
    StableHlo.TRef.unary (.of main_c_17 : StableHlo.TRef sig ⟨S_, .i32⟩) main_call6.v7 (sitofp .f32),
    StableHlo.TRef.nullary main_call6.cst_1 (constant S_ .f32 0x45400000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S3072x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v132 main_v134 (broadcastInDim S1x64 ![1] bcast_S64_S1x64_1 : (⟨S64, .f32⟩ : BufTy).Contents (Elt F) → (⟨S1x64, .f32⟩ : BufTy).Contents (Elt F)),
    StableHlo.unary main_v134 main_v135 (broadcastInDim S3072x64 ![0, 1] bcast_S1x64_S3072x64_0_1 : (⟨S1x64, .f32⟩ : BufTy).Contents (Elt F) → (⟨S3072x64, .f32⟩ : BufTy).Contents (Elt F)),
    StableHlo.binary main_v125 main_v135 main_v136 (subf : (⟨S3072x64, .f32⟩ : BufTy).Contents (Elt F) → (⟨S3072x64, .f32⟩ : BufTy).Contents (Elt F) → (⟨S3072x64, .f32⟩ : BufTy).Contents (Elt F)),
    StableHlo.nullary main_cst_18 (constant S_ .f32 0x3727C5AC#32),
    StableHlo.unary main_cst_18 main_v137 (broadcastInDim S64 ![] bcast_S_S64 : (⟨S_, .f32⟩ : BufTy).Contents (Elt F) → (⟨S64, .f32⟩ : BufTy).Contents (Elt F)),
    StableHlo.binary main_v133 main_v137 main_v138 (addf : (⟨S64, .f32⟩ : BufTy).Contents (Elt F) → (⟨S64, .f32⟩ : BufTy).Contents (Elt F) → (⟨S64, .f32⟩ : BufTy).Contents (Elt F)),
    StableHlo.unary main_v138 main_v139 (Host.rsqrt : (⟨S64, .f32⟩ : BufTy).Contents (Elt F) → (⟨S64, .f32⟩ : BufTy).Contents (Elt F)),
    StableHlo.unary main_v139 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S3072x64 ![0, 1] bcast_S1x64_S3072x64_0_1 : (⟨S1x64, .f32⟩ : BufTy).Contents (Elt F) → (⟨S3072x64, .f32⟩ : BufTy).Contents (Elt F)),
    StableHlo.binary main_v136 main_v141 main_v142 (mulf : (⟨S3072x64, .f32⟩ : BufTy).Contents (Elt F) → (⟨S3072x64, .f32⟩ : BufTy).Contents (Elt F) → (⟨S3072x64, .f32⟩ : BufTy).Contents (Elt F)),
    StableHlo.unary main_v127 main_v143 (broadcastInDim S1x64 ![1] bcast_S64_S1x64_1 : (⟨S64, .f32⟩ : BufTy).Contents (Elt F) → (⟨S1x64, .f32⟩ : BufTy).Contents (Elt F)),
    StableHlo.unary main_v143 main_v144 (broadcastInDim S3072x64 ![0, 1] bcast_S1x64_S3072x64_0_1 : (⟨S1x64, .f32⟩ : BufTy).Contents (Elt F) → (⟨S3072x64, .f32⟩ : BufTy).Contents (Elt F)),
    StableHlo.binary main_v142 main_v144 main_v145 (mulf : (⟨S3072x64, .f32⟩ : BufTy).Contents (Elt F) → (⟨S3072x64, .f32⟩ : BufTy).Contents (Elt F) → (⟨S3072x64, .f32⟩ : BufTy).Contents (Elt F)),
    StableHlo.unary main_v129 main_v146 (broadcastInDim S1x64 ![1] bcast_S64_S1x64_1 : (⟨S64, .f32⟩ : BufTy).Contents (Elt F) → (⟨S1x64, .f32⟩ : BufTy).Contents (Elt F)),
    StableHlo.unary main_v146 main_v147 (broadcastInDim S3072x64 ![0, 1] bcast_S1x64_S3072x64_0_1 : (⟨S1x64, .f32⟩ : BufTy).Contents (Elt F) → (⟨S3072x64, .f32⟩ : BufTy).Contents (Elt F)),
    StableHlo.binary main_v145 main_v147 main_v148 (addf : (⟨S3072x64, .f32⟩ : BufTy).Contents (Elt F) → (⟨S3072x64, .f32⟩ : BufTy).Contents (Elt F) → (⟨S3072x64, .f32⟩ : BufTy).Contents (Elt F)),
    StableHlo.nullary main_c_19 (constantI S_ 32 0#32),
    StableHlo.unary main_c_19 main_v149 (broadcastInDim S147456 ![] bcast_S_S147456 : (⟨S_, .i32⟩ : BufTy).Contents (Elt F) → (⟨S147456, .i32⟩ : BufTy).Contents (Elt F)),
    StableHlo.binary main_v22 main_v149 main_v150 (cmpi .slt : (⟨S147456, .i32⟩ : BufTy).Contents (Elt F) → (⟨S147456, .i32⟩ : BufTy).Contents (Elt F) → (⟨S147456, .i1⟩ : BufTy).Contents (Elt F)),
    StableHlo.nullary main_c_20 (constantI S_ 32 3072#32),
    StableHlo.unary main_c_20 main_v151 (broadcastInDim S147456 ![] bcast_S_S147456 : (⟨S_, .i32⟩ : BufTy).Contents (Elt F) → (⟨S147456, .i32⟩ : BufTy).Contents (Elt F)),
    StableHlo.binary main_v22 main_v151 main_v152 (addi : (⟨S147456, .i32⟩ : BufTy).Contents (Elt F) → (⟨S147456, .i32⟩ : BufTy).Contents (Elt F) → (⟨S147456, .i32⟩ : BufTy).Contents (Elt F)),
    StableHlo.ternary main_v150 main_v152 main_v22 main_v153 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v153 main_v154 (broadcastInDim S147456x1 ![0] bcast_S147456_S147456x1_0 : (⟨S147456, .i32⟩ : BufTy).Contents (Elt F) → (⟨S147456x1, .i32⟩ : BufTy).Contents (Elt F)),
    StableHlo.binary main_v148 main_v154 main_v155 ((fun x i => Host.gather gather_S3072x64_S147456x1_S147456x64_1_0_n_n_0_1_164 x i) : (⟨S3072x64, .f32⟩ : BufTy).Contents (Elt F) → (⟨S147456x1, .i32⟩ : BufTy).Contents (Elt F) → (⟨S147456x64, .f32⟩ : BufTy).Contents (Elt F)),
    StableHlo.binary main_v79 main_v155 main_v156 (addf : (⟨S147456x64, .f32⟩ : BufTy).Contents (Elt F) → (⟨S147456x64, .f32⟩ : BufTy).Contents (Elt F) → (⟨S147456x64, .f32⟩ : BufTy).Contents (Elt F)) ]

/-- The references window 2's operations write, in order. -/
abbrev ops_part2_W : List (Ref sig .tc) :=
  [main_v104, main_v105, main_v106, main_v107, main_v108, main_v109, main_call4_cst, main_call4_v0, main_v110, main_v111, main_v112, main_cst_14, main_v113, main_v114, main_v115, main_v116, main_v117, main_v118, main_v119, main_v120, main_call5_cst, main_call5_v0, main_v121, main_v122, main_v123, main_v124, main_v125, main_v126, main_v127, main_v128, main_v129, main_cst_15, main_v130, main_cst_16, main_v131, main_v132, main_c_17, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v133, main_v134, main_v135, main_v136, main_cst_18, main_v137, main_v138, main_v139, main_v140, main_v141, main_v142, main_v143, main_v144, main_v145, main_v146, main_v147, main_v148, main_c_19, main_v149, main_v150, main_c_20, main_v151, main_v152, main_v153, main_v154, main_v155, main_v156]

/-- Window 3 of @main: 87 operations. -/
abbrev ops_part3 : List (HloOp τ sig (Elt F)) :=
  [ StableHlo.TRef.nullary main_call7.cst (constant S_ .f32 0x00000000#32),
    StableHlo.TRef.unary main_call7.cst main_call7.v0 (broadcastInDim S147456x64 ![] bcast_S_S147456x64),
    StableHlo.TRef.binary (.of main_v156 : StableHlo.TRef sig ⟨S147456x64, .f32⟩) main_call7.v0 main_call7.v1 maximumf,
    StableHlo.unary main_arg7 main_v158 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v158 main_v159 rfl shapeCasts_S1x64x128_S64x128,
    StableHlo.unary main_arg8 main_v160 ((extractStridedSlice S1x128 ![1, 0] · slices_S3x128_S1x128_1_0) : (⟨S3x128, .f32⟩ : BufTy).Contents (Elt F) → (⟨S1x128, .f32⟩ : BufTy).Contents (Elt F)),
    StableHlo.reshape main_v160 main_v161 rfl shapeCasts_S1x128_S128,
    StableHlo.unary main_arg9 main_v162 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v162 main_v163 rfl shapeCasts_S1x128x64_S128x64,
    StableHlo.unary main_arg10 main_v164 ((extractStridedSlice S1x64 ![1, 0] · slices_S3x64_S1x64_1_0) : (⟨S3x64, .f32⟩ : BufTy).Contents (Elt F) → (⟨S1x64, .f32⟩ : BufTy).Contents (Elt F)),
    StableHlo.reshape main_v164 main_v165 rfl shapeCasts_S1x64_S64,
    StableHlo.unary main_arg23 main_v166 ((extractStridedSlice S1x884736 ![0, 0] · slices_S2x884736_S1x884736_0_0) : (⟨S2x884736, .i32⟩ : BufTy).Contents (Elt F) → (⟨S1x884736, .i32⟩ : BufTy).Contents (Elt F)),
    StableHlo.reshape main_v166 main_v167 rfl shapeCasts_S1x884736_S884736,
    StableHlo.nullary main_c_21 (constantI S_ 32 0#32),
    StableHlo.unary main_c_21 main_v168 (broadcastInDim S884736 ![] bcast_S_S884736 : (⟨S_, .i32⟩ : BufTy).Contents (Elt F) → (⟨S884736, .i32⟩ : BufTy).Contents (Elt F)),
    StableHlo.binary main_v167 main_v168 main_v169 (cmpi .slt : (⟨S884736, .i32⟩ : BufTy).Contents (Elt F) → (⟨S884736, .i32⟩ : BufTy).Contents (Elt F) → (⟨S884736, .i1⟩ : BufTy).Contents (Elt F)),
    StableHlo.nullary main_c_22 (constantI S_ 32 147456#32),
    StableHlo.unary main_c_22 main_v170 (broadcastInDim S884736 ![] bcast_S_S884736 : (⟨S_, .i32⟩ : BufTy).Contents (Elt F) → (⟨S884736, .i32⟩ : BufTy).Contents (Elt F)),
    StableHlo.binary main_v167 main_v170 main_v171 (addi : (⟨S884736, .i32⟩ : BufTy).Contents (Elt F) → (⟨S884736, .i32⟩ : BufTy).Contents (Elt F) → (⟨S884736, .i32⟩ : BufTy).Contents (Elt F)),
    StableHlo.ternary main_v169 main_v171 main_v167 main_v172 (select : (⟨S884736, .i1⟩ : BufTy).Contents (Elt F) → (⟨S884736, .i32⟩ : BufTy).Contents (Elt F) → (⟨S884736, .i32⟩ : BufTy).Contents (Elt F) → (⟨S884736, .i32⟩ : BufTy).Contents (Elt F)),
    StableHlo.unary main_v172 main_v173 (broadcastInDim S884736x1 ![0] bcast_S884736_S884736x1_0 : (⟨S884736, .i32⟩ : BufTy).Contents (Elt F) → (⟨S884736x1, .i32⟩ : BufTy).Contents (Elt F)),
    StableHlo.binary main_v157 main_v173 main_v174 ((fun x i => Host.gather gather_S147456x64_S884736x1_S884736x64_1_0_n_n_0_1_164 x i) : (⟨S147456x64, .f32⟩ : BufTy).Contents (Elt F) → (⟨S884736x1, .i32⟩ : BufTy).Contents (Elt F) → (⟨S884736x64, .f32⟩ : BufTy).Contents (Elt F)),
    StableHlo.binary main_v174 main_v7 main_v175 (addf : (⟨S884736x64, .f32⟩ : BufTy).Contents (Elt F) → (⟨S884736x64, .f32⟩ : BufTy).Contents (Elt F) → (⟨S884736x64, .f32⟩ : BufTy).Contents (Elt F)),
    StableHlo.TRef.nullary main_call8.cst (constant S_ .f32 0x00000000#32),
    StableHlo.TRef.unary main_call8.cst main_call8.v0 (broadcastInDim S884736x64 ![] bcast_S_S884736x64),
    StableHlo.TRef.binary (.of main_v175 : StableHlo.TRef sig ⟨S884736x64, .f32⟩) main_call8.v0 main_call8.v1 maximumf,
    StableHlo.unary main_arg23 main_v177 ((extractStridedSlice S1x884736 ![1, 0] · slices_S2x884736_S1x884736_1_0) : (⟨S2x884736, .i32⟩ : BufTy).Contents (Elt F) → (⟨S1x884736, .i32⟩ : BufTy).Contents (Elt F)),
    StableHlo.reshape main_v177 main_v178 rfl shapeCasts_S1x884736_S884736,
    StableHlo.nullary main_cst_23 (constant S_ .f32 0x00000000#32),
    StableHlo.unary main_cst_23 main_v179 (broadcastInDim S147456x64 ![] bcast_S_S147456x64 : (⟨S_, .f32⟩ : BufTy).Contents (Elt F) → (⟨S147456x64, .f32⟩ : BufTy).Contents (Elt F)),
    StableHlo.unary main_v178 main_v180 (broadcastInDim S884736x1 ![0] bcast_S884736_S884736x1_0 : (⟨S884736, .i32⟩ : BufTy).Contents (Elt F) → (⟨S884736x1, .i32⟩ : BufTy).Contents (Elt F)),
    StableHlo.ternary main_v179 main_v180 main_v176 main_v181 ((fun x i u => Host.scatterAdd scatter_S147456x64_S884736x1_S884736x64_1_0_0_1 x i u) : (⟨S147456x64, .f32⟩ : BufTy).Contents (Elt F) → (⟨S884736x1, .i32⟩ : BufTy).Contents (Elt F) → (⟨S884736x64, .f32⟩ : BufTy).Contents (Elt F) → (⟨S147456x64, .f32⟩ : BufTy).Contents (Elt F)),
    StableHlo.binary main_v157 main_v181 main_v182 (addf : (⟨S147456x64, .f32⟩ : BufTy).Contents (Elt F) → (⟨S147456x64, .f32⟩ : BufTy).Contents (Elt F) → (⟨S147456x64, .f32⟩ : BufTy).Contents (Elt F)),
    StableHlo.binary main_v182 main_v159 main_v183 ((fun l r => Host.dotGeneral dot_S147456x64_S64x128_S147456x128_1_0_0_1_n_n none l r) : (⟨S147456x64, .f32⟩ : BufTy).Contents (Elt F) → (⟨S64x128, .f32⟩ : BufTy).Contents (Elt F) → (⟨S147456x128, .f32⟩ : BufTy).Contents (Elt F)),
    StableHlo.unary main_v161 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S147456x128 ![0, 1] bcast_S1x128_S147456x128_0_1 : (⟨S1x128, .f32⟩ : BufTy).Contents (Elt F) → (⟨S147456x128, .f32⟩ : BufTy).Contents (Elt F)),
    StableHlo.binary main_v183 main_v185 main_v186 (addf : (⟨S147456x128, .f32⟩ : BufTy).Contents (Elt F) → (⟨S147456x128, .f32⟩ : BufTy).Contents (Elt F) → (⟨S147456x128, .f32⟩ : BufTy).Contents (Elt F)),
    StableHlo.TRef.nullary main_call9.cst (constant S_ .f32 0x00000000#32),
    StableHlo.TRef.unary main_call9.cst main_call9.v0 (broadcastInDim S147456x128 ![] bcast_S_S147456x128),
    StableHlo.TRef.binary (.of main_v186 : StableHlo.TRef sig ⟨S147456x128, .f32⟩) main_call9.v0 main_call9.v1 maximumf,
    StableHlo.binary main_v187 main_v163 main_v188 ((fun l r => Host.dotGeneral dot_S147456x128_S128x64_S147456x64_1_0_0_1_n_n none l r) : (⟨S147456x128, .f32⟩ : BufTy).Contents (Elt F) → (⟨S128x64, .f32⟩ : BufTy).Contents (Elt F) → (⟨S147456x64, .f32⟩ : BufTy).Contents (Elt F)),
    StableHlo.unary main_v165 main_v189 (broadcastInDim S1x64 ![1] bcast_S64_S1x64_1 : (⟨S64, .f32⟩ : BufTy).Contents (Elt F) → (⟨S1x64, .f32⟩ : BufTy).Contents (Elt F)),
    StableHlo.unary main_v189 main_v190 (broadcastInDim S147456x64 ![0, 1] bcast_S1x64_S147456x64_0_1 : (⟨S1x64, .f32⟩ : BufTy).Contents (Elt F) → (⟨S147456x64, .f32⟩ : BufTy).Contents (Elt F)),
    StableHlo.binary main_v188 main_v190 main_v191 (addf : (⟨S147456x64, .f32⟩ : BufTy).Contents (Elt F) → (⟨S147456x64, .f32⟩ : BufTy).Contents (Elt F) → (⟨S147456x64, .f32⟩ : BufTy).Contents (Elt F)),
    StableHlo.unary main_arg11 main_v192 ((extractStridedSlice S1x64 ![1, 0] · slices_S3x64_S1x64_1_0) : (⟨S3x64, .f32⟩ : BufTy).Contents (Elt F) → (⟨S1x64, .f32⟩ : BufTy).Contents (Elt F)),
    StableHlo.reshape main_v192 main_v193 rfl shapeCasts_S1x64_S64,
    StableHlo.unary main_arg12 main_v194 ((extractStridedSlice S1x64 ![1, 0] · slices_S3x64_S1x64_1_0) : (⟨S3x64, .f32⟩ : BufTy).Contents (Elt F) → (⟨S1x64, .f32⟩ : BufTy).Contents (Elt F)),
    StableHlo.reshape main_v194 main_v195 rfl shapeCasts_S1x64_S64,
    StableHlo.nullary main_cst_24 (constant S_ .f32 0x00000000#32),
    StableHlo.binary main_v191 main_cst_24 main_v196 ((fun x v => Host.reduceAdd x v reducesTo_S147456x64_S64_d0 h_S_) : (⟨S147456x64, .f32⟩ : BufTy).Contents (Elt F) → (⟨S_, .f32⟩ : BufTy).Contents (Elt F) → (⟨S64, .f32⟩ : BufTy).Contents (Elt F)),
    StableHlo.nullary main_cst_25 (constant S_ .f32 0x48100000#32),
    StableHlo.unary main_cst_25 main_v197 (broadcastInDim S64 ![] bcast_S_S64 : (⟨S_, .f32⟩ : BufTy).Contents (Elt F) → (⟨S64, .f32⟩ : BufTy).Contents (Elt F)),
    StableHlo.binary main_v196 main_v197 main_v198 (Host.divf : (⟨S64, .f32⟩ : BufTy).Contents (Elt F) → (⟨S64, .f32⟩ : BufTy).Contents (Elt F) → (⟨S64, .f32⟩ : BufTy).Contents (Elt F)),
    StableHlo.nullary main_c_26 (constantI S_ 32 0#32),
    StableHlo.TRef.nullary main_call10.cst (constant S_ .f32 0x00000000#32),
    StableHlo.TRef.binary (.of main_v191 : StableHlo.TRef sig ⟨S147456x64, .f32⟩) main_call10.cst main_call10.v0 (fun x v => Host.reduceAdd x v reducesTo_S147456x64_S64_d0 h_S_),
    StableHlo.TRef.unary main_call10.v0 main_call10.v1 (broadcastInDim S1x64 ![1] bcast_S64_S1x64_1),
    StableHlo.TRef.nullary main_call10.cst_0 (constant S_ .f32 0x48100000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S147456x64 ![0, 1] bcast_S1x64_S147456x64_0_1),
    StableHlo.TRef.binary (.of main_v191 : StableHlo.TRef sig ⟨S147456x64, .f32⟩) main_call10.v4 main_call10.v5 subf,
    StableHlo.TRef.binary main_call10.v5 main_call10.v5 main_call10.v6 mulf,
    StableHlo.TRef.unary (.of main_c_26 : StableHlo.TRef sig ⟨S_, .i32⟩) main_call10.v7 (sitofp .f32),
    StableHlo.TRef.nullary main_call10.cst_1 (constant S_ .f32 0x48100000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S147456x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v198 main_v200 (broadcastInDim S1x64 ![1] bcast_S64_S1x64_1 : (⟨S64, .f32⟩ : BufTy).Contents (Elt F) → (⟨S1x64, .f32⟩ : BufTy).Contents (Elt F)),
    StableHlo.unary main_v200 main_v201 (broadcastInDim S147456x64 ![0, 1] bcast_S1x64_S147456x64_0_1 : (⟨S1x64, .f32⟩ : BufTy).Contents (Elt F) → (⟨S147456x64, .f32⟩ : BufTy).Contents (Elt F)),
    StableHlo.binary main_v191 main_v201 main_v202 (subf : (⟨S147456x64, .f32⟩ : BufTy).Contents (Elt F) → (⟨S147456x64, .f32⟩ : BufTy).Contents (Elt F) → (⟨S147456x64, .f32⟩ : BufTy).Contents (Elt F)),
    StableHlo.nullary main_cst_27 (constant S_ .f32 0x3727C5AC#32),
    StableHlo.unary main_cst_27 main_v203 (broadcastInDim S64 ![] bcast_S_S64 : (⟨S_, .f32⟩ : BufTy).Contents (Elt F) → (⟨S64, .f32⟩ : BufTy).Contents (Elt F)),
    StableHlo.binary main_v199 main_v203 main_v204 (addf : (⟨S64, .f32⟩ : BufTy).Contents (Elt F) → (⟨S64, .f32⟩ : BufTy).Contents (Elt F) → (⟨S64, .f32⟩ : BufTy).Contents (Elt F)),
    StableHlo.unary main_v204 main_v205 (Host.rsqrt : (⟨S64, .f32⟩ : BufTy).Contents (Elt F) → (⟨S64, .f32⟩ : BufTy).Contents (Elt F)),
    StableHlo.unary main_v205 main_v206 (broadcastInDim S1x64 ![1] bcast_S64_S1x64_1 : (⟨S64, .f32⟩ : BufTy).Contents (Elt F) → (⟨S1x64, .f32⟩ : BufTy).Contents (Elt F)),
    StableHlo.unary main_v206 main_v207 (broadcastInDim S147456x64 ![0, 1] bcast_S1x64_S147456x64_0_1 : (⟨S1x64, .f32⟩ : BufTy).Contents (Elt F) → (⟨S147456x64, .f32⟩ : BufTy).Contents (Elt F)),
    StableHlo.binary main_v202 main_v207 main_v208 (mulf : (⟨S147456x64, .f32⟩ : BufTy).Contents (Elt F) → (⟨S147456x64, .f32⟩ : BufTy).Contents (Elt F) → (⟨S147456x64, .f32⟩ : BufTy).Contents (Elt F)),
    StableHlo.unary main_v193 main_v209 (broadcastInDim S1x64 ![1] bcast_S64_S1x64_1 : (⟨S64, .f32⟩ : BufTy).Contents (Elt F) → (⟨S1x64, .f32⟩ : BufTy).Contents (Elt F)) ]

/-- The references window 3's operations write, in order. -/
abbrev ops_part3_W : List (Ref sig .tc) :=
  [main_call7_cst, main_call7_v0, main_v157, main_v158, main_v159, main_v160, main_v161, main_v162, main_v163, main_v164, main_v165, main_v166, main_v167, main_c_21, main_v168, main_v169, main_c_22, main_v170, main_v171, main_v172, main_v173, main_v174, main_v175, main_call8_cst, main_call8_v0, main_v176, main_v177, main_v178, main_cst_23, main_v179, main_v180, main_v181, main_v182, main_v183, main_v184, main_v185, main_v186, main_call9_cst, main_call9_v0, main_v187, main_v188, main_v189, main_v190, main_v191, main_v192, main_v193, main_v194, main_v195, main_cst_24, main_v196, main_cst_25, main_v197, main_v198, main_c_26, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v199, main_v200, main_v201, main_v202, main_cst_27, main_v203, main_v204, main_v205, main_v206, main_v207, main_v208, main_v209]

/-- Window 4 of @main: 64 operations. -/
abbrev ops_part4 : List (HloOp τ sig (Elt F)) :=
  [ StableHlo.unary main_v209 main_v210 (broadcastInDim S147456x64 ![0, 1] bcast_S1x64_S147456x64_0_1 : (⟨S1x64, .f32⟩ : BufTy).Contents (Elt F) → (⟨S147456x64, .f32⟩ : BufTy).Contents (Elt F)),
    StableHlo.binary main_v208 main_v210 main_v211 (mulf : (⟨S147456x64, .f32⟩ : BufTy).Contents (Elt F) → (⟨S147456x64, .f32⟩ : BufTy).Contents (Elt F) → (⟨S147456x64, .f32⟩ : BufTy).Contents (Elt F)),
    StableHlo.unary main_v195 main_v212 (broadcastInDim S1x64 ![1] bcast_S64_S1x64_1 : (⟨S64, .f32⟩ : BufTy).Contents (Elt F) → (⟨S1x64, .f32⟩ : BufTy).Contents (Elt F)),
    StableHlo.unary main_v212 main_v213 (broadcastInDim S147456x64 ![0, 1] bcast_S1x64_S147456x64_0_1 : (⟨S1x64, .f32⟩ : BufTy).Contents (Elt F) → (⟨S147456x64, .f32⟩ : BufTy).Contents (Elt F)),
    StableHlo.binary main_v211 main_v213 main_v214 (addf : (⟨S147456x64, .f32⟩ : BufTy).Contents (Elt F) → (⟨S147456x64, .f32⟩ : BufTy).Contents (Elt F) → (⟨S147456x64, .f32⟩ : BufTy).Contents (Elt F)),
    StableHlo.nullary main_cst_28 (constant S_ .f32 0x3F800000#32),
    StableHlo.unary main_cst_28 main_v215 (broadcastInDim S147456 ![] bcast_S_S147456 : (⟨S_, .f32⟩ : BufTy).Contents (Elt F) → (⟨S147456, .f32⟩ : BufTy).Contents (Elt F)),
    StableHlo.nullary main_cst_29 (constant S_ .f32 0x00000000#32),
    StableHlo.unary main_cst_29 main_v216 (broadcastInDim S3072 ![] bcast_S_S3072 : (⟨S_, .f32⟩ : BufTy).Contents (Elt F) → (⟨S3072, .f32⟩ : BufTy).Contents (Elt F)),
    StableHlo.unary main_v22 main_v217 (broadcastInDim S147456x1 ![0] bcast_S147456_S147456x1_0 : (⟨S147456, .i32⟩ : BufTy).Contents (Elt F) → (⟨S147456x1, .i32⟩ : BufTy).Contents (Elt F)),
    StableHlo.ternary main_v216 main_v217 main_v215 main_v218 ((fun x i u => Host.scatterAdd scatter_S3072_S147456x1_S147456_n_0_0_1 x i u) : (⟨S3072, .f32⟩ : BufTy).Contents (Elt F) → (⟨S147456x1, .i32⟩ : BufTy).Contents (Elt F) → (⟨S147456, .f32⟩ : BufTy).Contents (Elt F) → (⟨S3072, .f32⟩ : BufTy).Contents (Elt F)),
    StableHlo.nullary main_cst_30 (constant S_ .f32 0x3F800000#32),
    StableHlo.unary main_cst_30 main_v219 (broadcastInDim S3072 ![] bcast_S_S3072 : (⟨S_, .f32⟩ : BufTy).Contents (Elt F) → (⟨S3072, .f32⟩ : BufTy).Contents (Elt F)),
    StableHlo.binary main_v218 main_v219 main_v220 (maximumf : (⟨S3072, .f32⟩ : BufTy).Contents (Elt F) → (⟨S3072, .f32⟩ : BufTy).Contents (Elt F) → (⟨S3072, .f32⟩ : BufTy).Contents (Elt F)),
    StableHlo.nullary main_cst_31 (constant S_ .f32 0x00000000#32),
    StableHlo.unary main_cst_31 main_v221 (broadcastInDim S3072x64 ![] bcast_S_S3072x64 : (⟨S_, .f32⟩ : BufTy).Contents (Elt F) → (⟨S3072x64, .f32⟩ : BufTy).Contents (Elt F)),
    StableHlo.unary main_v22 main_v222 (broadcastInDim S147456x1 ![0] bcast_S147456_S147456x1_0 : (⟨S147456, .i32⟩ : BufTy).Contents (Elt F) → (⟨S147456x1, .i32⟩ : BufTy).Contents (Elt F)),
    StableHlo.ternary main_v221 main_v222 main_v157 main_v223 ((fun x i u => Host.scatterAdd scatter_S3072x64_S147456x1_S147456x64_1_0_0_1 x i u) : (⟨S3072x64, .f32⟩ : BufTy).Contents (Elt F) → (⟨S147456x1, .i32⟩ : BufTy).Contents (Elt F) → (⟨S147456x64, .f32⟩ : BufTy).Contents (Elt F) → (⟨S3072x64, .f32⟩ : BufTy).Contents (Elt F)),
    StableHlo.unary main_v220 main_v224 (broadcastInDim S3072x1 ![0] bcast_S3072_S3072x1_0 : (⟨S3072, .f32⟩ : BufTy).Contents (Elt F) → (⟨S3072x1, .f32⟩ : BufTy).Contents (Elt F)),
    StableHlo.unary main_v224 main_v225 (broadcastInDim S3072x64 ![0, 1] bcast_S3072x1_S3072x64_0_1 : (⟨S3072x1, .f32⟩ : BufTy).Contents (Elt F) → (⟨S3072x64, .f32⟩ : BufTy).Contents (Elt F)),
    StableHlo.binary main_v223 main_v225 main_v226 (Host.divf : (⟨S3072x64, .f32⟩ : BufTy).Contents (Elt F) → (⟨S3072x64, .f32⟩ : BufTy).Contents (Elt F) → (⟨S3072x64, .f32⟩ : BufTy).Contents (Elt F)),
    StableHlo.unary main_arg13 main_v227 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v227 main_v228 rfl shapeCasts_S1x64x128_S64x128,
    StableHlo.unary main_arg14 main_v229 ((extractStridedSlice S1x128 ![1, 0] · slices_S3x128_S1x128_1_0) : (⟨S3x128, .f32⟩ : BufTy).Contents (Elt F) → (⟨S1x128, .f32⟩ : BufTy).Contents (Elt F)),
    StableHlo.reshape main_v229 main_v230 rfl shapeCasts_S1x128_S128,
    StableHlo.unary main_arg15 main_v231 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v231 main_v232 rfl shapeCasts_S1x128x64_S128x64,
    StableHlo.unary main_arg16 main_v233 ((extractStridedSlice S1x64 ![1, 0] · slices_S3x64_S1x64_1_0) : (⟨S3x64, .f32⟩ : BufTy).Contents (Elt F) → (⟨S1x64, .f32⟩ : BufTy).Contents (Elt F)),
    StableHlo.reshape main_v233 main_v234 rfl shapeCasts_S1x64_S64,
    StableHlo.unary main_arg24 main_v235 ((extractStridedSlice S1x18432 ![0, 0] · slices_S2x18432_S1x18432_0_0) : (⟨S2x18432, .i32⟩ : BufTy).Contents (Elt F) → (⟨S1x18432, .i32⟩ : BufTy).Contents (Elt F)),
    StableHlo.reshape main_v235 main_v236 rfl shapeCasts_S1x18432_S18432,
    StableHlo.nullary main_c_32 (constantI S_ 32 0#32),
    StableHlo.unary main_c_32 main_v237 (broadcastInDim S18432 ![] bcast_S_S18432 : (⟨S_, .i32⟩ : BufTy).Contents (Elt F) → (⟨S18432, .i32⟩ : BufTy).Contents (Elt F)),
    StableHlo.binary main_v236 main_v237 main_v238 (cmpi .slt : (⟨S18432, .i32⟩ : BufTy).Contents (Elt F) → (⟨S18432, .i32⟩ : BufTy).Contents (Elt F) → (⟨S18432, .i1⟩ : BufTy).Contents (Elt F)),
    StableHlo.nullary main_c_33 (constantI S_ 32 3072#32),
    StableHlo.unary main_c_33 main_v239 (broadcastInDim S18432 ![] bcast_S_S18432 : (⟨S_, .i32⟩ : BufTy).Contents (Elt F) → (⟨S18432, .i32⟩ : BufTy).Contents (Elt F)),
    StableHlo.binary main_v236 main_v239 main_v240 (addi : (⟨S18432, .i32⟩ : BufTy).Contents (Elt F) → (⟨S18432, .i32⟩ : BufTy).Contents (Elt F) → (⟨S18432, .i32⟩ : BufTy).Contents (Elt F)),
    StableHlo.ternary main_v238 main_v240 main_v236 main_v241 (select : (⟨S18432, .i1⟩ : BufTy).Contents (Elt F) → (⟨S18432, .i32⟩ : BufTy).Contents (Elt F) → (⟨S18432, .i32⟩ : BufTy).Contents (Elt F) → (⟨S18432, .i32⟩ : BufTy).Contents (Elt F)),
    StableHlo.unary main_v241 main_v242 (broadcastInDim S18432x1 ![0] bcast_S18432_S18432x1_0 : (⟨S18432, .i32⟩ : BufTy).Contents (Elt F) → (⟨S18432x1, .i32⟩ : BufTy).Contents (Elt F)),
    StableHlo.binary main_v226 main_v242 main_v243 ((fun x i => Host.gather gather_S3072x64_S18432x1_S18432x64_1_0_n_n_0_1_164 x i) : (⟨S3072x64, .f32⟩ : BufTy).Contents (Elt F) → (⟨S18432x1, .i32⟩ : BufTy).Contents (Elt F) → (⟨S18432x64, .f32⟩ : BufTy).Contents (Elt F)),
    StableHlo.binary main_v243 main_v11 main_v244 (addf : (⟨S18432x64, .f32⟩ : BufTy).Contents (Elt F) → (⟨S18432x64, .f32⟩ : BufTy).Contents (Elt F) → (⟨S18432x64, .f32⟩ : BufTy).Contents (Elt F)),
    StableHlo.TRef.nullary main_call11.cst (constant S_ .f32 0x00000000#32),
    StableHlo.TRef.unary main_call11.cst main_call11.v0 (broadcastInDim S18432x64 ![] bcast_S_S18432x64),
    StableHlo.TRef.binary (.of main_v244 : StableHlo.TRef sig ⟨S18432x64, .f32⟩) main_call11.v0 main_call11.v1 maximumf,
    StableHlo.unary main_arg24 main_v246 ((extractStridedSlice S1x18432 ![1, 0] · slices_S2x18432_S1x18432_1_0) : (⟨S2x18432, .i32⟩ : BufTy).Contents (Elt F) → (⟨S1x18432, .i32⟩ : BufTy).Contents (Elt F)),
    StableHlo.reshape main_v246 main_v247 rfl shapeCasts_S1x18432_S18432,
    StableHlo.nullary main_cst_34 (constant S_ .f32 0x00000000#32),
    StableHlo.unary main_cst_34 main_v248 (broadcastInDim S3072x64 ![] bcast_S_S3072x64 : (⟨S_, .f32⟩ : BufTy).Contents (Elt F) → (⟨S3072x64, .f32⟩ : BufTy).Contents (Elt F)),
    StableHlo.unary main_v247 main_v249 (broadcastInDim S18432x1 ![0] bcast_S18432_S18432x1_0 : (⟨S18432, .i32⟩ : BufTy).Contents (Elt F) → (⟨S18432x1, .i32⟩ : BufTy).Contents (Elt F)),
    StableHlo.ternary main_v248 main_v249 main_v245 main_v250 ((fun x i u => Host.scatterAdd scatter_S3072x64_S18432x1_S18432x64_1_0_0_1 x i u) : (⟨S3072x64, .f32⟩ : BufTy).Contents (Elt F) → (⟨S18432x1, .i32⟩ : BufTy).Contents (Elt F) → (⟨S18432x64, .f32⟩ : BufTy).Contents (Elt F) → (⟨S3072x64, .f32⟩ : BufTy).Contents (Elt F)),
    StableHlo.binary main_v226 main_v250 main_v251 (addf : (⟨S3072x64, .f32⟩ : BufTy).Contents (Elt F) → (⟨S3072x64, .f32⟩ : BufTy).Contents (Elt F) → (⟨S3072x64, .f32⟩ : BufTy).Contents (Elt F)),
    StableHlo.binary main_v251 main_v228 main_v252 ((fun l r => Host.dotGeneral dot_S3072x64_S64x128_S3072x128_1_0_0_1_n_n none l r) : (⟨S3072x64, .f32⟩ : BufTy).Contents (Elt F) → (⟨S64x128, .f32⟩ : BufTy).Contents (Elt F) → (⟨S3072x128, .f32⟩ : BufTy).Contents (Elt F)),
    StableHlo.unary main_v230 main_v253 (broadcastInDim S1x128 ![1] bcast_S128_S1x128_1 : (⟨S128, .f32⟩ : BufTy).Contents (Elt F) → (⟨S1x128, .f32⟩ : BufTy).Contents (Elt F)),
    StableHlo.unary main_v253 main_v254 (broadcastInDim S3072x128 ![0, 1] bcast_S1x128_S3072x128_0_1 : (⟨S1x128, .f32⟩ : BufTy).Contents (Elt F) → (⟨S3072x128, .f32⟩ : BufTy).Contents (Elt F)),
    StableHlo.binary main_v252 main_v254 main_v255 (addf : (⟨S3072x128, .f32⟩ : BufTy).Contents (Elt F) → (⟨S3072x128, .f32⟩ : BufTy).Contents (Elt F) → (⟨S3072x128, .f32⟩ : BufTy).Contents (Elt F)),
    StableHlo.TRef.nullary main_call12.cst (constant S_ .f32 0x00000000#32),
    StableHlo.TRef.unary main_call12.cst main_call12.v0 (broadcastInDim S3072x128 ![] bcast_S_S3072x128),
    StableHlo.TRef.binary (.of main_v255 : StableHlo.TRef sig ⟨S3072x128, .f32⟩) main_call12.v0 main_call12.v1 maximumf,
    StableHlo.binary main_v256 main_v232 main_v257 ((fun l r => Host.dotGeneral dot_S3072x128_S128x64_S3072x64_1_0_0_1_n_n none l r) : (⟨S3072x128, .f32⟩ : BufTy).Contents (Elt F) → (⟨S128x64, .f32⟩ : BufTy).Contents (Elt F) → (⟨S3072x64, .f32⟩ : BufTy).Contents (Elt F)),
    StableHlo.unary main_v234 main_v258 (broadcastInDim S1x64 ![1] bcast_S64_S1x64_1 : (⟨S64, .f32⟩ : BufTy).Contents (Elt F) → (⟨S1x64, .f32⟩ : BufTy).Contents (Elt F)),
    StableHlo.unary main_v258 main_v259 (broadcastInDim S3072x64 ![0, 1] bcast_S1x64_S3072x64_0_1 : (⟨S1x64, .f32⟩ : BufTy).Contents (Elt F) → (⟨S3072x64, .f32⟩ : BufTy).Contents (Elt F)),
    StableHlo.binary main_v257 main_v259 main_v260 (addf : (⟨S3072x64, .f32⟩ : BufTy).Contents (Elt F) → (⟨S3072x64, .f32⟩ : BufTy).Contents (Elt F) → (⟨S3072x64, .f32⟩ : BufTy).Contents (Elt F)),
    StableHlo.unary main_arg17 main_v261 ((extractStridedSlice S1x64 ![1, 0] · slices_S3x64_S1x64_1_0) : (⟨S3x64, .f32⟩ : BufTy).Contents (Elt F) → (⟨S1x64, .f32⟩ : BufTy).Contents (Elt F)),
    StableHlo.reshape main_v261 main_v262 rfl shapeCasts_S1x64_S64 ]

/-- The references window 4's operations write, in order. -/
abbrev ops_part4_W : List (Ref sig .tc) :=
  [main_v210, main_v211, main_v212, main_v213, main_v214, main_cst_28, main_v215, main_cst_29, main_v216, main_v217, main_v218, main_cst_30, main_v219, main_v220, main_cst_31, main_v221, main_v222, main_v223, main_v224, main_v225, main_v226, main_v227, main_v228, main_v229, main_v230, main_v231, main_v232, main_v233, main_v234, main_v235, main_v236, main_c_32, main_v237, main_v238, main_c_33, main_v239, main_v240, main_v241, main_v242, main_v243, main_v244, main_call11_cst, main_call11_v0, main_v245, main_v246, main_v247, main_cst_34, main_v248, main_v249, main_v250, main_v251, main_v252, main_v253, main_v254, main_v255, main_call12_cst, main_call12_v0, main_v256, main_v257, main_v258, main_v259, main_v260, main_v261, main_v262]

/-- Window 5 of @main: 85 operations. -/
abbrev ops_part5 : List (HloOp τ sig (Elt F)) :=
  [ StableHlo.unary main_arg18 main_v263 ((extractStridedSlice S1x64 ![1, 0] · slices_S3x64_S1x64_1_0) : (⟨S3x64, .f32⟩ : BufTy).Contents (Elt F) → (⟨S1x64, .f32⟩ : BufTy).Contents (Elt F)),
    StableHlo.reshape main_v263 main_v264 rfl shapeCasts_S1x64_S64,
    StableHlo.nullary main_cst_35 (constant S_ .f32 0x00000000#32),
    StableHlo.binary main_v260 main_cst_35 main_v265 ((fun x v => Host.reduceAdd x v reducesTo_S3072x64_S64_d0 h_S_) : (⟨S3072x64, .f32⟩ : BufTy).Contents (Elt F) → (⟨S_, .f32⟩ : BufTy).Contents (Elt F) → (⟨S64, .f32⟩ : BufTy).Contents (Elt F)),
    StableHlo.nullary main_cst_36 (constant S_ .f32 0x45400000#32),
    StableHlo.unary main_cst_36 main_v266 (broadcastInDim S64 ![] bcast_S_S64 : (⟨S_, .f32⟩ : BufTy).Contents (Elt F) → (⟨S64, .f32⟩ : BufTy).Contents (Elt F)),
    StableHlo.binary main_v265 main_v266 main_v267 (Host.divf : (⟨S64, .f32⟩ : BufTy).Contents (Elt F) → (⟨S64, .f32⟩ : BufTy).Contents (Elt F) → (⟨S64, .f32⟩ : BufTy).Contents (Elt F)),
    StableHlo.nullary main_c_37 (constantI S_ 32 0#32),
    StableHlo.TRef.nullary main_call13.cst (constant S_ .f32 0x00000000#32),
    StableHlo.TRef.binary (.of main_v260 : StableHlo.TRef sig ⟨S3072x64, .f32⟩) main_call13.cst main_call13.v0 (fun x v => Host.reduceAdd x v reducesTo_S3072x64_S64_d0 h_S_),
    StableHlo.TRef.unary main_call13.v0 main_call13.v1 (broadcastInDim S1x64 ![1] bcast_S64_S1x64_1),
    StableHlo.TRef.nullary main_call13.cst_0 (constant S_ .f32 0x45400000#32),
    StableHlo.TRef.unary main_call13.cst_0 main_call13.v2 (broadcastInDim S1x64 ![] bcast_S_S1x64),
    StableHlo.TRef.binary main_call13.v1 main_call13.v2 main_call13.v3 Host.divf,
    StableHlo.TRef.unary main_call13.v3 main_call13.v4 (broadcastInDim S3072x64 ![0, 1] bcast_S1x64_S3072x64_0_1),
    StableHlo.TRef.binary (.of main_v260 : StableHlo.TRef sig ⟨S3072x64, .f32⟩) main_call13.v4 main_call13.v5 subf,
    StableHlo.TRef.binary main_call13.v5 main_call13.v5 main_call13.v6 mulf,
    StableHlo.TRef.unary (.of main_c_37 : StableHlo.TRef sig ⟨S_, .i32⟩) main_call13.v7 (sitofp .f32),
    StableHlo.TRef.nullary main_call13.cst_1 (constant S_ .f32 0x45400000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S3072x64_S64_d0 h_S_),
    StableHlo.TRef.unary main_call13.v8 main_call13.v10 (broadcastInDim S64 ![] bcast_S_S64),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S64 ![] bcast_S_S64),
    StableHlo.TRef.ternary main_call13.v12 main_call13.v11 main_call13.call0.v1 main_call13.call0.v2 (fun p a b => select (broadcastInDim S64 ![] bcast_S_S64 p) a b),
    StableHlo.unary main_v267 main_v269 (broadcastInDim S1x64 ![1] bcast_S64_S1x64_1 : (⟨S64, .f32⟩ : BufTy).Contents (Elt F) → (⟨S1x64, .f32⟩ : BufTy).Contents (Elt F)),
    StableHlo.unary main_v269 main_v270 (broadcastInDim S3072x64 ![0, 1] bcast_S1x64_S3072x64_0_1 : (⟨S1x64, .f32⟩ : BufTy).Contents (Elt F) → (⟨S3072x64, .f32⟩ : BufTy).Contents (Elt F)),
    StableHlo.binary main_v260 main_v270 main_v271 (subf : (⟨S3072x64, .f32⟩ : BufTy).Contents (Elt F) → (⟨S3072x64, .f32⟩ : BufTy).Contents (Elt F) → (⟨S3072x64, .f32⟩ : BufTy).Contents (Elt F)),
    StableHlo.nullary main_cst_38 (constant S_ .f32 0x3727C5AC#32),
    StableHlo.unary main_cst_38 main_v272 (broadcastInDim S64 ![] bcast_S_S64 : (⟨S_, .f32⟩ : BufTy).Contents (Elt F) → (⟨S64, .f32⟩ : BufTy).Contents (Elt F)),
    StableHlo.binary main_v268 main_v272 main_v273 (addf : (⟨S64, .f32⟩ : BufTy).Contents (Elt F) → (⟨S64, .f32⟩ : BufTy).Contents (Elt F) → (⟨S64, .f32⟩ : BufTy).Contents (Elt F)),
    StableHlo.unary main_v273 main_v274 (Host.rsqrt : (⟨S64, .f32⟩ : BufTy).Contents (Elt F) → (⟨S64, .f32⟩ : BufTy).Contents (Elt F)),
    StableHlo.unary main_v274 main_v275 (broadcastInDim S1x64 ![1] bcast_S64_S1x64_1 : (⟨S64, .f32⟩ : BufTy).Contents (Elt F) → (⟨S1x64, .f32⟩ : BufTy).Contents (Elt F)),
    StableHlo.unary main_v275 main_v276 (broadcastInDim S3072x64 ![0, 1] bcast_S1x64_S3072x64_0_1 : (⟨S1x64, .f32⟩ : BufTy).Contents (Elt F) → (⟨S3072x64, .f32⟩ : BufTy).Contents (Elt F)),
    StableHlo.binary main_v271 main_v276 main_v277 (mulf : (⟨S3072x64, .f32⟩ : BufTy).Contents (Elt F) → (⟨S3072x64, .f32⟩ : BufTy).Contents (Elt F) → (⟨S3072x64, .f32⟩ : BufTy).Contents (Elt F)),
    StableHlo.unary main_v262 main_v278 (broadcastInDim S1x64 ![1] bcast_S64_S1x64_1 : (⟨S64, .f32⟩ : BufTy).Contents (Elt F) → (⟨S1x64, .f32⟩ : BufTy).Contents (Elt F)),
    StableHlo.unary main_v278 main_v279 (broadcastInDim S3072x64 ![0, 1] bcast_S1x64_S3072x64_0_1 : (⟨S1x64, .f32⟩ : BufTy).Contents (Elt F) → (⟨S3072x64, .f32⟩ : BufTy).Contents (Elt F)),
    StableHlo.binary main_v277 main_v279 main_v280 (mulf : (⟨S3072x64, .f32⟩ : BufTy).Contents (Elt F) → (⟨S3072x64, .f32⟩ : BufTy).Contents (Elt F) → (⟨S3072x64, .f32⟩ : BufTy).Contents (Elt F)),
    StableHlo.unary main_v264 main_v281 (broadcastInDim S1x64 ![1] bcast_S64_S1x64_1 : (⟨S64, .f32⟩ : BufTy).Contents (Elt F) → (⟨S1x64, .f32⟩ : BufTy).Contents (Elt F)),
    StableHlo.unary main_v281 main_v282 (broadcastInDim S3072x64 ![0, 1] bcast_S1x64_S3072x64_0_1 : (⟨S1x64, .f32⟩ : BufTy).Contents (Elt F) → (⟨S3072x64, .f32⟩ : BufTy).Contents (Elt F)),
    StableHlo.binary main_v280 main_v282 main_v283 (addf : (⟨S3072x64, .f32⟩ : BufTy).Contents (Elt F) → (⟨S3072x64, .f32⟩ : BufTy).Contents (Elt F) → (⟨S3072x64, .f32⟩ : BufTy).Contents (Elt F)),
    StableHlo.nullary main_c_39 (constantI S_ 32 0#32),
    StableHlo.unary main_c_39 main_v284 (broadcastInDim S147456 ![] bcast_S_S147456 : (⟨S_, .i32⟩ : BufTy).Contents (Elt F) → (⟨S147456, .i32⟩ : BufTy).Contents (Elt F)),
    StableHlo.binary main_v22 main_v284 main_v285 (cmpi .slt : (⟨S147456, .i32⟩ : BufTy).Contents (Elt F) → (⟨S147456, .i32⟩ : BufTy).Contents (Elt F) → (⟨S147456, .i1⟩ : BufTy).Contents (Elt F)),
    StableHlo.nullary main_c_40 (constantI S_ 32 3072#32),
    StableHlo.unary main_c_40 main_v286 (broadcastInDim S147456 ![] bcast_S_S147456 : (⟨S_, .i32⟩ : BufTy).Contents (Elt F) → (⟨S147456, .i32⟩ : BufTy).Contents (Elt F)),
    StableHlo.binary main_v22 main_v286 main_v287 (addi : (⟨S147456, .i32⟩ : BufTy).Contents (Elt F) → (⟨S147456, .i32⟩ : BufTy).Contents (Elt F) → (⟨S147456, .i32⟩ : BufTy).Contents (Elt F)),
    StableHlo.ternary main_v285 main_v287 main_v22 main_v288 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v288 main_v289 (broadcastInDim S147456x1 ![0] bcast_S147456_S147456x1_0 : (⟨S147456, .i32⟩ : BufTy).Contents (Elt F) → (⟨S147456x1, .i32⟩ : BufTy).Contents (Elt F)),
    StableHlo.binary main_v283 main_v289 main_v290 ((fun x i => Host.gather gather_S3072x64_S147456x1_S147456x64_1_0_n_n_0_1_164 x i) : (⟨S3072x64, .f32⟩ : BufTy).Contents (Elt F) → (⟨S147456x1, .i32⟩ : BufTy).Contents (Elt F) → (⟨S147456x64, .f32⟩ : BufTy).Contents (Elt F)),
    StableHlo.binary main_v214 main_v290 main_v291 (addf : (⟨S147456x64, .f32⟩ : BufTy).Contents (Elt F) → (⟨S147456x64, .f32⟩ : BufTy).Contents (Elt F) → (⟨S147456x64, .f32⟩ : BufTy).Contents (Elt F)),
    StableHlo.TRef.nullary main_call14.cst (constant S_ .f32 0x00000000#32),
    StableHlo.TRef.unary main_call14.cst main_call14.v0 (broadcastInDim S147456x64 ![] bcast_S_S147456x64),
    StableHlo.TRef.binary (.of main_v291 : StableHlo.TRef sig ⟨S147456x64, .f32⟩) main_call14.v0 main_call14.v1 maximumf,
    StableHlo.unary main_arg7 main_v293 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v293 main_v294 rfl shapeCasts_S1x64x128_S64x128,
    StableHlo.unary main_arg8 main_v295 ((extractStridedSlice S1x128 ![2, 0] · slices_S3x128_S1x128_2_0) : (⟨S3x128, .f32⟩ : BufTy).Contents (Elt F) → (⟨S1x128, .f32⟩ : BufTy).Contents (Elt F)),
    StableHlo.reshape main_v295 main_v296 rfl shapeCasts_S1x128_S128,
    StableHlo.unary main_arg9 main_v297 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v297 main_v298 rfl shapeCasts_S1x128x64_S128x64,
    StableHlo.unary main_arg10 main_v299 ((extractStridedSlice S1x64 ![2, 0] · slices_S3x64_S1x64_2_0) : (⟨S3x64, .f32⟩ : BufTy).Contents (Elt F) → (⟨S1x64, .f32⟩ : BufTy).Contents (Elt F)),
    StableHlo.reshape main_v299 main_v300 rfl shapeCasts_S1x64_S64,
    StableHlo.unary main_arg23 main_v301 ((extractStridedSlice S1x884736 ![0, 0] · slices_S2x884736_S1x884736_0_0) : (⟨S2x884736, .i32⟩ : BufTy).Contents (Elt F) → (⟨S1x884736, .i32⟩ : BufTy).Contents (Elt F)),
    StableHlo.reshape main_v301 main_v302 rfl shapeCasts_S1x884736_S884736,
    StableHlo.nullary main_c_41 (constantI S_ 32 0#32),
    StableHlo.unary main_c_41 main_v303 (broadcastInDim S884736 ![] bcast_S_S884736 : (⟨S_, .i32⟩ : BufTy).Contents (Elt F) → (⟨S884736, .i32⟩ : BufTy).Contents (Elt F)),
    StableHlo.binary main_v302 main_v303 main_v304 (cmpi .slt : (⟨S884736, .i32⟩ : BufTy).Contents (Elt F) → (⟨S884736, .i32⟩ : BufTy).Contents (Elt F) → (⟨S884736, .i1⟩ : BufTy).Contents (Elt F)),
    StableHlo.nullary main_c_42 (constantI S_ 32 147456#32),
    StableHlo.unary main_c_42 main_v305 (broadcastInDim S884736 ![] bcast_S_S884736 : (⟨S_, .i32⟩ : BufTy).Contents (Elt F) → (⟨S884736, .i32⟩ : BufTy).Contents (Elt F)),
    StableHlo.binary main_v302 main_v305 main_v306 (addi : (⟨S884736, .i32⟩ : BufTy).Contents (Elt F) → (⟨S884736, .i32⟩ : BufTy).Contents (Elt F) → (⟨S884736, .i32⟩ : BufTy).Contents (Elt F)),
    StableHlo.ternary main_v304 main_v306 main_v302 main_v307 (select : (⟨S884736, .i1⟩ : BufTy).Contents (Elt F) → (⟨S884736, .i32⟩ : BufTy).Contents (Elt F) → (⟨S884736, .i32⟩ : BufTy).Contents (Elt F) → (⟨S884736, .i32⟩ : BufTy).Contents (Elt F)),
    StableHlo.unary main_v307 main_v308 (broadcastInDim S884736x1 ![0] bcast_S884736_S884736x1_0 : (⟨S884736, .i32⟩ : BufTy).Contents (Elt F) → (⟨S884736x1, .i32⟩ : BufTy).Contents (Elt F)),
    StableHlo.binary main_v292 main_v308 main_v309 ((fun x i => Host.gather gather_S147456x64_S884736x1_S884736x64_1_0_n_n_0_1_164 x i) : (⟨S147456x64, .f32⟩ : BufTy).Contents (Elt F) → (⟨S884736x1, .i32⟩ : BufTy).Contents (Elt F) → (⟨S884736x64, .f32⟩ : BufTy).Contents (Elt F)),
    StableHlo.binary main_v309 main_v7 main_v310 (addf : (⟨S884736x64, .f32⟩ : BufTy).Contents (Elt F) → (⟨S884736x64, .f32⟩ : BufTy).Contents (Elt F) → (⟨S884736x64, .f32⟩ : BufTy).Contents (Elt F)),
    StableHlo.TRef.nullary main_call15.cst (constant S_ .f32 0x00000000#32),
    StableHlo.TRef.unary main_call15.cst main_call15.v0 (broadcastInDim S884736x64 ![] bcast_S_S884736x64),
    StableHlo.TRef.binary (.of main_v310 : StableHlo.TRef sig ⟨S884736x64, .f32⟩) main_call15.v0 main_call15.v1 maximumf,
    StableHlo.unary main_arg23 main_v312 ((extractStridedSlice S1x884736 ![1, 0] · slices_S2x884736_S1x884736_1_0) : (⟨S2x884736, .i32⟩ : BufTy).Contents (Elt F) → (⟨S1x884736, .i32⟩ : BufTy).Contents (Elt F)),
    StableHlo.reshape main_v312 main_v313 rfl shapeCasts_S1x884736_S884736,
    StableHlo.nullary main_cst_43 (constant S_ .f32 0x00000000#32) ]

/-- The references window 5's operations write, in order. -/
abbrev ops_part5_W : List (Ref sig .tc) :=
  [main_v263, main_v264, main_cst_35, main_v265, main_cst_36, main_v266, main_v267, main_c_37, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v268, main_v269, main_v270, main_v271, main_cst_38, main_v272, main_v273, main_v274, main_v275, main_v276, main_v277, main_v278, main_v279, main_v280, main_v281, main_v282, main_v283, main_c_39, main_v284, main_v285, main_c_40, main_v286, main_v287, main_v288, main_v289, main_v290, main_v291, main_call14_cst, main_call14_v0, main_v292, main_v293, main_v294, main_v295, main_v296, main_v297, main_v298, main_v299, main_v300, main_v301, main_v302, main_c_41, main_v303, main_v304, main_c_42, main_v305, main_v306, main_v307, main_v308, main_v309, main_v310, main_call15_cst, main_call15_v0, main_v311, main_v312, main_v313, main_cst_43]

/-- Window 6 of @main: 83 operations. -/
abbrev ops_part6 : List (HloOp τ sig (Elt F)) :=
  [ StableHlo.unary main_cst_43 main_v314 (broadcastInDim S147456x64 ![] bcast_S_S147456x64 : (⟨S_, .f32⟩ : BufTy).Contents (Elt F) → (⟨S147456x64, .f32⟩ : BufTy).Contents (Elt F)),
    StableHlo.unary main_v313 main_v315 (broadcastInDim S884736x1 ![0] bcast_S884736_S884736x1_0 : (⟨S884736, .i32⟩ : BufTy).Contents (Elt F) → (⟨S884736x1, .i32⟩ : BufTy).Contents (Elt F)),
    StableHlo.ternary main_v314 main_v315 main_v311 main_v316 ((fun x i u => Host.scatterAdd scatter_S147456x64_S884736x1_S884736x64_1_0_0_1 x i u) : (⟨S147456x64, .f32⟩ : BufTy).Contents (Elt F) → (⟨S884736x1, .i32⟩ : BufTy).Contents (Elt F) → (⟨S884736x64, .f32⟩ : BufTy).Contents (Elt F) → (⟨S147456x64, .f32⟩ : BufTy).Contents (Elt F)),
    StableHlo.binary main_v292 main_v316 main_v317 (addf : (⟨S147456x64, .f32⟩ : BufTy).Contents (Elt F) → (⟨S147456x64, .f32⟩ : BufTy).Contents (Elt F) → (⟨S147456x64, .f32⟩ : BufTy).Contents (Elt F)),
    StableHlo.binary main_v317 main_v294 main_v318 ((fun l r => Host.dotGeneral dot_S147456x64_S64x128_S147456x128_1_0_0_1_n_n none l r) : (⟨S147456x64, .f32⟩ : BufTy).Contents (Elt F) → (⟨S64x128, .f32⟩ : BufTy).Contents (Elt F) → (⟨S147456x128, .f32⟩ : BufTy).Contents (Elt F)),
    StableHlo.unary main_v296 main_v319 (broadcastInDim S1x128 ![1] bcast_S128_S1x128_1 : (⟨S128, .f32⟩ : BufTy).Contents (Elt F) → (⟨S1x128, .f32⟩ : BufTy).Contents (Elt F)),
    StableHlo.unary main_v319 main_v320 (broadcastInDim S147456x128 ![0, 1] bcast_S1x128_S147456x128_0_1 : (⟨S1x128, .f32⟩ : BufTy).Contents (Elt F) → (⟨S147456x128, .f32⟩ : BufTy).Contents (Elt F)),
    StableHlo.binary main_v318 main_v320 main_v321 (addf : (⟨S147456x128, .f32⟩ : BufTy).Contents (Elt F) → (⟨S147456x128, .f32⟩ : BufTy).Contents (Elt F) → (⟨S147456x128, .f32⟩ : BufTy).Contents (Elt F)),
    StableHlo.TRef.nullary main_call16.cst (constant S_ .f32 0x00000000#32),
    StableHlo.TRef.unary main_call16.cst main_call16.v0 (broadcastInDim S147456x128 ![] bcast_S_S147456x128),
    StableHlo.TRef.binary (.of main_v321 : StableHlo.TRef sig ⟨S147456x128, .f32⟩) main_call16.v0 main_call16.v1 maximumf,
    StableHlo.binary main_v322 main_v298 main_v323 ((fun l r => Host.dotGeneral dot_S147456x128_S128x64_S147456x64_1_0_0_1_n_n none l r) : (⟨S147456x128, .f32⟩ : BufTy).Contents (Elt F) → (⟨S128x64, .f32⟩ : BufTy).Contents (Elt F) → (⟨S147456x64, .f32⟩ : BufTy).Contents (Elt F)),
    StableHlo.unary main_v300 main_v324 (broadcastInDim S1x64 ![1] bcast_S64_S1x64_1 : (⟨S64, .f32⟩ : BufTy).Contents (Elt F) → (⟨S1x64, .f32⟩ : BufTy).Contents (Elt F)),
    StableHlo.unary main_v324 main_v325 (broadcastInDim S147456x64 ![0, 1] bcast_S1x64_S147456x64_0_1 : (⟨S1x64, .f32⟩ : BufTy).Contents (Elt F) → (⟨S147456x64, .f32⟩ : BufTy).Contents (Elt F)),
    StableHlo.binary main_v323 main_v325 main_v326 (addf : (⟨S147456x64, .f32⟩ : BufTy).Contents (Elt F) → (⟨S147456x64, .f32⟩ : BufTy).Contents (Elt F) → (⟨S147456x64, .f32⟩ : BufTy).Contents (Elt F)),
    StableHlo.unary main_arg11 main_v327 ((extractStridedSlice S1x64 ![2, 0] · slices_S3x64_S1x64_2_0) : (⟨S3x64, .f32⟩ : BufTy).Contents (Elt F) → (⟨S1x64, .f32⟩ : BufTy).Contents (Elt F)),
    StableHlo.reshape main_v327 main_v328 rfl shapeCasts_S1x64_S64,
    StableHlo.unary main_arg12 main_v329 ((extractStridedSlice S1x64 ![2, 0] · slices_S3x64_S1x64_2_0) : (⟨S3x64, .f32⟩ : BufTy).Contents (Elt F) → (⟨S1x64, .f32⟩ : BufTy).Contents (Elt F)),
    StableHlo.reshape main_v329 main_v330 rfl shapeCasts_S1x64_S64,
    StableHlo.nullary main_cst_44 (constant S_ .f32 0x00000000#32),
    StableHlo.binary main_v326 main_cst_44 main_v331 ((fun x v => Host.reduceAdd x v reducesTo_S147456x64_S64_d0 h_S_) : (⟨S147456x64, .f32⟩ : BufTy).Contents (Elt F) → (⟨S_, .f32⟩ : BufTy).Contents (Elt F) → (⟨S64, .f32⟩ : BufTy).Contents (Elt F)),
    StableHlo.nullary main_cst_45 (constant S_ .f32 0x48100000#32),
    StableHlo.unary main_cst_45 main_v332 (broadcastInDim S64 ![] bcast_S_S64 : (⟨S_, .f32⟩ : BufTy).Contents (Elt F) → (⟨S64, .f32⟩ : BufTy).Contents (Elt F)),
    StableHlo.binary main_v331 main_v332 main_v333 (Host.divf : (⟨S64, .f32⟩ : BufTy).Contents (Elt F) → (⟨S64, .f32⟩ : BufTy).Contents (Elt F) → (⟨S64, .f32⟩ : BufTy).Contents (Elt F)),
    StableHlo.nullary main_c_46 (constantI S_ 32 0#32),
    StableHlo.TRef.nullary main_call17.cst (constant S_ .f32 0x00000000#32),
    StableHlo.TRef.binary (.of main_v326 : StableHlo.TRef sig ⟨S147456x64, .f32⟩) main_call17.cst main_call17.v0 (fun x v => Host.reduceAdd x v reducesTo_S147456x64_S64_d0 h_S_),
    StableHlo.TRef.unary main_call17.v0 main_call17.v1 (broadcastInDim S1x64 ![1] bcast_S64_S1x64_1),
    StableHlo.TRef.nullary main_call17.cst_0 (constant S_ .f32 0x48100000#32),
    StableHlo.TRef.unary main_call17.cst_0 main_call17.v2 (broadcastInDim S1x64 ![] bcast_S_S1x64),
    StableHlo.TRef.binary main_call17.v1 main_call17.v2 main_call17.v3 Host.divf,
    StableHlo.TRef.unary main_call17.v3 main_call17.v4 (broadcastInDim S147456x64 ![0, 1] bcast_S1x64_S147456x64_0_1),
    StableHlo.TRef.binary (.of main_v326 : StableHlo.TRef sig ⟨S147456x64, .f32⟩) main_call17.v4 main_call17.v5 subf,
    StableHlo.TRef.binary main_call17.v5 main_call17.v5 main_call17.v6 mulf,
    StableHlo.TRef.unary (.of main_c_46 : StableHlo.TRef sig ⟨S_, .i32⟩) main_call17.v7 (sitofp .f32),
    StableHlo.TRef.nullary main_call17.cst_1 (constant S_ .f32 0x48100000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S147456x64_S64_d0 h_S_),
    StableHlo.TRef.unary main_call17.v8 main_call17.v10 (broadcastInDim S64 ![] bcast_S_S64),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S64 ![] bcast_S_S64),
    StableHlo.TRef.ternary main_call17.v12 main_call17.v11 main_call17.call0.v1 main_call17.call0.v2 (fun p a b => select (broadcastInDim S64 ![] bcast_S_S64 p) a b),
    StableHlo.unary main_v333 main_v335 (broadcastInDim S1x64 ![1] bcast_S64_S1x64_1 : (⟨S64, .f32⟩ : BufTy).Contents (Elt F) → (⟨S1x64, .f32⟩ : BufTy).Contents (Elt F)),
    StableHlo.unary main_v335 main_v336 (broadcastInDim S147456x64 ![0, 1] bcast_S1x64_S147456x64_0_1 : (⟨S1x64, .f32⟩ : BufTy).Contents (Elt F) → (⟨S147456x64, .f32⟩ : BufTy).Contents (Elt F)),
    StableHlo.binary main_v326 main_v336 main_v337 (subf : (⟨S147456x64, .f32⟩ : BufTy).Contents (Elt F) → (⟨S147456x64, .f32⟩ : BufTy).Contents (Elt F) → (⟨S147456x64, .f32⟩ : BufTy).Contents (Elt F)),
    StableHlo.nullary main_cst_47 (constant S_ .f32 0x3727C5AC#32),
    StableHlo.unary main_cst_47 main_v338 (broadcastInDim S64 ![] bcast_S_S64 : (⟨S_, .f32⟩ : BufTy).Contents (Elt F) → (⟨S64, .f32⟩ : BufTy).Contents (Elt F)),
    StableHlo.binary main_v334 main_v338 main_v339 (addf : (⟨S64, .f32⟩ : BufTy).Contents (Elt F) → (⟨S64, .f32⟩ : BufTy).Contents (Elt F) → (⟨S64, .f32⟩ : BufTy).Contents (Elt F)),
    StableHlo.unary main_v339 main_v340 (Host.rsqrt : (⟨S64, .f32⟩ : BufTy).Contents (Elt F) → (⟨S64, .f32⟩ : BufTy).Contents (Elt F)),
    StableHlo.unary main_v340 main_v341 (broadcastInDim S1x64 ![1] bcast_S64_S1x64_1 : (⟨S64, .f32⟩ : BufTy).Contents (Elt F) → (⟨S1x64, .f32⟩ : BufTy).Contents (Elt F)),
    StableHlo.unary main_v341 main_v342 (broadcastInDim S147456x64 ![0, 1] bcast_S1x64_S147456x64_0_1 : (⟨S1x64, .f32⟩ : BufTy).Contents (Elt F) → (⟨S147456x64, .f32⟩ : BufTy).Contents (Elt F)),
    StableHlo.binary main_v337 main_v342 main_v343 (mulf : (⟨S147456x64, .f32⟩ : BufTy).Contents (Elt F) → (⟨S147456x64, .f32⟩ : BufTy).Contents (Elt F) → (⟨S147456x64, .f32⟩ : BufTy).Contents (Elt F)),
    StableHlo.unary main_v328 main_v344 (broadcastInDim S1x64 ![1] bcast_S64_S1x64_1 : (⟨S64, .f32⟩ : BufTy).Contents (Elt F) → (⟨S1x64, .f32⟩ : BufTy).Contents (Elt F)),
    StableHlo.unary main_v344 main_v345 (broadcastInDim S147456x64 ![0, 1] bcast_S1x64_S147456x64_0_1 : (⟨S1x64, .f32⟩ : BufTy).Contents (Elt F) → (⟨S147456x64, .f32⟩ : BufTy).Contents (Elt F)),
    StableHlo.binary main_v343 main_v345 main_v346 (mulf : (⟨S147456x64, .f32⟩ : BufTy).Contents (Elt F) → (⟨S147456x64, .f32⟩ : BufTy).Contents (Elt F) → (⟨S147456x64, .f32⟩ : BufTy).Contents (Elt F)),
    StableHlo.unary main_v330 main_v347 (broadcastInDim S1x64 ![1] bcast_S64_S1x64_1 : (⟨S64, .f32⟩ : BufTy).Contents (Elt F) → (⟨S1x64, .f32⟩ : BufTy).Contents (Elt F)),
    StableHlo.unary main_v347 main_v348 (broadcastInDim S147456x64 ![0, 1] bcast_S1x64_S147456x64_0_1 : (⟨S1x64, .f32⟩ : BufTy).Contents (Elt F) → (⟨S147456x64, .f32⟩ : BufTy).Contents (Elt F)),
    StableHlo.binary main_v346 main_v348 main_v349 (addf : (⟨S147456x64, .f32⟩ : BufTy).Contents (Elt F) → (⟨S147456x64, .f32⟩ : BufTy).Contents (Elt F) → (⟨S147456x64, .f32⟩ : BufTy).Contents (Elt F)),
    StableHlo.nullary main_cst_48 (constant S_ .f32 0x3F800000#32),
    StableHlo.unary main_cst_48 main_v350 (broadcastInDim S147456 ![] bcast_S_S147456 : (⟨S_, .f32⟩ : BufTy).Contents (Elt F) → (⟨S147456, .f32⟩ : BufTy).Contents (Elt F)),
    StableHlo.nullary main_cst_49 (constant S_ .f32 0x00000000#32),
    StableHlo.unary main_cst_49 main_v351 (broadcastInDim S3072 ![] bcast_S_S3072 : (⟨S_, .f32⟩ : BufTy).Contents (Elt F) → (⟨S3072, .f32⟩ : BufTy).Contents (Elt F)),
    StableHlo.unary main_v22 main_v352 (broadcastInDim S147456x1 ![0] bcast_S147456_S147456x1_0 : (⟨S147456, .i32⟩ : BufTy).Contents (Elt F) → (⟨S147456x1, .i32⟩ : BufTy).Contents (Elt F)),
    StableHlo.ternary main_v351 main_v352 main_v350 main_v353 ((fun x i u => Host.scatterAdd scatter_S3072_S147456x1_S147456_n_0_0_1 x i u) : (⟨S3072, .f32⟩ : BufTy).Contents (Elt F) → (⟨S147456x1, .i32⟩ : BufTy).Contents (Elt F) → (⟨S147456, .f32⟩ : BufTy).Contents (Elt F) → (⟨S3072, .f32⟩ : BufTy).Contents (Elt F)),
    StableHlo.nullary main_cst_50 (constant S_ .f32 0x3F800000#32),
    StableHlo.unary main_cst_50 main_v354 (broadcastInDim S3072 ![] bcast_S_S3072 : (⟨S_, .f32⟩ : BufTy).Contents (Elt F) → (⟨S3072, .f32⟩ : BufTy).Contents (Elt F)),
    StableHlo.binary main_v353 main_v354 main_v355 (maximumf : (⟨S3072, .f32⟩ : BufTy).Contents (Elt F) → (⟨S3072, .f32⟩ : BufTy).Contents (Elt F) → (⟨S3072, .f32⟩ : BufTy).Contents (Elt F)),
    StableHlo.nullary main_cst_51 (constant S_ .f32 0x00000000#32),
    StableHlo.unary main_cst_51 main_v356 (broadcastInDim S3072x64 ![] bcast_S_S3072x64 : (⟨S_, .f32⟩ : BufTy).Contents (Elt F) → (⟨S3072x64, .f32⟩ : BufTy).Contents (Elt F)),
    StableHlo.unary main_v22 main_v357 (broadcastInDim S147456x1 ![0] bcast_S147456_S147456x1_0 : (⟨S147456, .i32⟩ : BufTy).Contents (Elt F) → (⟨S147456x1, .i32⟩ : BufTy).Contents (Elt F)),
    StableHlo.ternary main_v356 main_v357 main_v292 main_v358 ((fun x i u => Host.scatterAdd scatter_S3072x64_S147456x1_S147456x64_1_0_0_1 x i u) : (⟨S3072x64, .f32⟩ : BufTy).Contents (Elt F) → (⟨S147456x1, .i32⟩ : BufTy).Contents (Elt F) → (⟨S147456x64, .f32⟩ : BufTy).Contents (Elt F) → (⟨S3072x64, .f32⟩ : BufTy).Contents (Elt F)),
    StableHlo.unary main_v355 main_v359 (broadcastInDim S3072x1 ![0] bcast_S3072_S3072x1_0 : (⟨S3072, .f32⟩ : BufTy).Contents (Elt F) → (⟨S3072x1, .f32⟩ : BufTy).Contents (Elt F)),
    StableHlo.unary main_v359 main_v360 (broadcastInDim S3072x64 ![0, 1] bcast_S3072x1_S3072x64_0_1 : (⟨S3072x1, .f32⟩ : BufTy).Contents (Elt F) → (⟨S3072x64, .f32⟩ : BufTy).Contents (Elt F)),
    StableHlo.binary main_v358 main_v360 main_v361 (Host.divf : (⟨S3072x64, .f32⟩ : BufTy).Contents (Elt F) → (⟨S3072x64, .f32⟩ : BufTy).Contents (Elt F) → (⟨S3072x64, .f32⟩ : BufTy).Contents (Elt F)),
    StableHlo.unary main_arg13 main_v362 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v362 main_v363 rfl shapeCasts_S1x64x128_S64x128,
    StableHlo.unary main_arg14 main_v364 ((extractStridedSlice S1x128 ![2, 0] · slices_S3x128_S1x128_2_0) : (⟨S3x128, .f32⟩ : BufTy).Contents (Elt F) → (⟨S1x128, .f32⟩ : BufTy).Contents (Elt F)),
    StableHlo.reshape main_v364 main_v365 rfl shapeCasts_S1x128_S128 ]

/-- The references window 6's operations write, in order. -/
abbrev ops_part6_W : List (Ref sig .tc) :=
  [main_v314, main_v315, main_v316, main_v317, main_v318, main_v319, main_v320, main_v321, main_call16_cst, main_call16_v0, main_v322, main_v323, main_v324, main_v325, main_v326, main_v327, main_v328, main_v329, main_v330, main_cst_44, main_v331, main_cst_45, main_v332, main_v333, main_c_46, main_call17_cst, main_call17_v0, main_call17_v1, main_call17_cst_0, main_call17_v2, main_call17_v3, main_call17_v4, main_call17_v5, main_call17_v6, main_call17_v7, main_call17_cst_1, main_call17_v8, main_call17_cst_2, main_call17_v9, main_call17_v10, main_call17_v11, main_call17_cst_3, main_call17_v12, main_call17_cst_4, main_call17_call0_v0, main_call17_call0_v1, main_v334, main_v335, main_v336, main_v337, main_cst_47, main_v338, main_v339, main_v340, main_v341, main_v342, main_v343, main_v344, main_v345, main_v346, main_v347, main_v348, main_v349, main_cst_48, main_v350, main_cst_49, main_v351, main_v352, main_v353, main_cst_50, main_v354, main_v355, main_cst_51, main_v356, main_v357, main_v358, main_v359, main_v360, main_v361, main_v362, main_v363, main_v364, main_v365]

/-- Window 7 of @main: 85 operations. -/
abbrev ops_part7 : List (HloOp τ sig (Elt F)) :=
  [ StableHlo.unary main_arg15 main_v366 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v366 main_v367 rfl shapeCasts_S1x128x64_S128x64,
    StableHlo.unary main_arg16 main_v368 ((extractStridedSlice S1x64 ![2, 0] · slices_S3x64_S1x64_2_0) : (⟨S3x64, .f32⟩ : BufTy).Contents (Elt F) → (⟨S1x64, .f32⟩ : BufTy).Contents (Elt F)),
    StableHlo.reshape main_v368 main_v369 rfl shapeCasts_S1x64_S64,
    StableHlo.unary main_arg24 main_v370 ((extractStridedSlice S1x18432 ![0, 0] · slices_S2x18432_S1x18432_0_0) : (⟨S2x18432, .i32⟩ : BufTy).Contents (Elt F) → (⟨S1x18432, .i32⟩ : BufTy).Contents (Elt F)),
    StableHlo.reshape main_v370 main_v371 rfl shapeCasts_S1x18432_S18432,
    StableHlo.nullary main_c_52 (constantI S_ 32 0#32),
    StableHlo.unary main_c_52 main_v372 (broadcastInDim S18432 ![] bcast_S_S18432 : (⟨S_, .i32⟩ : BufTy).Contents (Elt F) → (⟨S18432, .i32⟩ : BufTy).Contents (Elt F)),
    StableHlo.binary main_v371 main_v372 main_v373 (cmpi .slt : (⟨S18432, .i32⟩ : BufTy).Contents (Elt F) → (⟨S18432, .i32⟩ : BufTy).Contents (Elt F) → (⟨S18432, .i1⟩ : BufTy).Contents (Elt F)),
    StableHlo.nullary main_c_53 (constantI S_ 32 3072#32),
    StableHlo.unary main_c_53 main_v374 (broadcastInDim S18432 ![] bcast_S_S18432 : (⟨S_, .i32⟩ : BufTy).Contents (Elt F) → (⟨S18432, .i32⟩ : BufTy).Contents (Elt F)),
    StableHlo.binary main_v371 main_v374 main_v375 (addi : (⟨S18432, .i32⟩ : BufTy).Contents (Elt F) → (⟨S18432, .i32⟩ : BufTy).Contents (Elt F) → (⟨S18432, .i32⟩ : BufTy).Contents (Elt F)),
    StableHlo.ternary main_v373 main_v375 main_v371 main_v376 (select : (⟨S18432, .i1⟩ : BufTy).Contents (Elt F) → (⟨S18432, .i32⟩ : BufTy).Contents (Elt F) → (⟨S18432, .i32⟩ : BufTy).Contents (Elt F) → (⟨S18432, .i32⟩ : BufTy).Contents (Elt F)),
    StableHlo.unary main_v376 main_v377 (broadcastInDim S18432x1 ![0] bcast_S18432_S18432x1_0 : (⟨S18432, .i32⟩ : BufTy).Contents (Elt F) → (⟨S18432x1, .i32⟩ : BufTy).Contents (Elt F)),
    StableHlo.binary main_v361 main_v377 main_v378 ((fun x i => Host.gather gather_S3072x64_S18432x1_S18432x64_1_0_n_n_0_1_164 x i) : (⟨S3072x64, .f32⟩ : BufTy).Contents (Elt F) → (⟨S18432x1, .i32⟩ : BufTy).Contents (Elt F) → (⟨S18432x64, .f32⟩ : BufTy).Contents (Elt F)),
    StableHlo.binary main_v378 main_v11 main_v379 (addf : (⟨S18432x64, .f32⟩ : BufTy).Contents (Elt F) → (⟨S18432x64, .f32⟩ : BufTy).Contents (Elt F) → (⟨S18432x64, .f32⟩ : BufTy).Contents (Elt F)),
    StableHlo.TRef.nullary main_call18.cst (constant S_ .f32 0x00000000#32),
    StableHlo.TRef.unary main_call18.cst main_call18.v0 (broadcastInDim S18432x64 ![] bcast_S_S18432x64),
    StableHlo.TRef.binary (.of main_v379 : StableHlo.TRef sig ⟨S18432x64, .f32⟩) main_call18.v0 main_call18.v1 maximumf,
    StableHlo.unary main_arg24 main_v381 ((extractStridedSlice S1x18432 ![1, 0] · slices_S2x18432_S1x18432_1_0) : (⟨S2x18432, .i32⟩ : BufTy).Contents (Elt F) → (⟨S1x18432, .i32⟩ : BufTy).Contents (Elt F)),
    StableHlo.reshape main_v381 main_v382 rfl shapeCasts_S1x18432_S18432,
    StableHlo.nullary main_cst_54 (constant S_ .f32 0x00000000#32),
    StableHlo.unary main_cst_54 main_v383 (broadcastInDim S3072x64 ![] bcast_S_S3072x64 : (⟨S_, .f32⟩ : BufTy).Contents (Elt F) → (⟨S3072x64, .f32⟩ : BufTy).Contents (Elt F)),
    StableHlo.unary main_v382 main_v384 (broadcastInDim S18432x1 ![0] bcast_S18432_S18432x1_0 : (⟨S18432, .i32⟩ : BufTy).Contents (Elt F) → (⟨S18432x1, .i32⟩ : BufTy).Contents (Elt F)),
    StableHlo.ternary main_v383 main_v384 main_v380 main_v385 ((fun x i u => Host.scatterAdd scatter_S3072x64_S18432x1_S18432x64_1_0_0_1 x i u) : (⟨S3072x64, .f32⟩ : BufTy).Contents (Elt F) → (⟨S18432x1, .i32⟩ : BufTy).Contents (Elt F) → (⟨S18432x64, .f32⟩ : BufTy).Contents (Elt F) → (⟨S3072x64, .f32⟩ : BufTy).Contents (Elt F)),
    StableHlo.binary main_v361 main_v385 main_v386 (addf : (⟨S3072x64, .f32⟩ : BufTy).Contents (Elt F) → (⟨S3072x64, .f32⟩ : BufTy).Contents (Elt F) → (⟨S3072x64, .f32⟩ : BufTy).Contents (Elt F)),
    StableHlo.binary main_v386 main_v363 main_v387 ((fun l r => Host.dotGeneral dot_S3072x64_S64x128_S3072x128_1_0_0_1_n_n none l r) : (⟨S3072x64, .f32⟩ : BufTy).Contents (Elt F) → (⟨S64x128, .f32⟩ : BufTy).Contents (Elt F) → (⟨S3072x128, .f32⟩ : BufTy).Contents (Elt F)),
    StableHlo.unary main_v365 main_v388 (broadcastInDim S1x128 ![1] bcast_S128_S1x128_1 : (⟨S128, .f32⟩ : BufTy).Contents (Elt F) → (⟨S1x128, .f32⟩ : BufTy).Contents (Elt F)),
    StableHlo.unary main_v388 main_v389 (broadcastInDim S3072x128 ![0, 1] bcast_S1x128_S3072x128_0_1 : (⟨S1x128, .f32⟩ : BufTy).Contents (Elt F) → (⟨S3072x128, .f32⟩ : BufTy).Contents (Elt F)),
    StableHlo.binary main_v387 main_v389 main_v390 (addf : (⟨S3072x128, .f32⟩ : BufTy).Contents (Elt F) → (⟨S3072x128, .f32⟩ : BufTy).Contents (Elt F) → (⟨S3072x128, .f32⟩ : BufTy).Contents (Elt F)),
    StableHlo.TRef.nullary main_call19.cst (constant S_ .f32 0x00000000#32),
    StableHlo.TRef.unary main_call19.cst main_call19.v0 (broadcastInDim S3072x128 ![] bcast_S_S3072x128),
    StableHlo.TRef.binary (.of main_v390 : StableHlo.TRef sig ⟨S3072x128, .f32⟩) main_call19.v0 main_call19.v1 maximumf,
    StableHlo.binary main_v391 main_v367 main_v392 ((fun l r => Host.dotGeneral dot_S3072x128_S128x64_S3072x64_1_0_0_1_n_n none l r) : (⟨S3072x128, .f32⟩ : BufTy).Contents (Elt F) → (⟨S128x64, .f32⟩ : BufTy).Contents (Elt F) → (⟨S3072x64, .f32⟩ : BufTy).Contents (Elt F)),
    StableHlo.unary main_v369 main_v393 (broadcastInDim S1x64 ![1] bcast_S64_S1x64_1 : (⟨S64, .f32⟩ : BufTy).Contents (Elt F) → (⟨S1x64, .f32⟩ : BufTy).Contents (Elt F)),
    StableHlo.unary main_v393 main_v394 (broadcastInDim S3072x64 ![0, 1] bcast_S1x64_S3072x64_0_1 : (⟨S1x64, .f32⟩ : BufTy).Contents (Elt F) → (⟨S3072x64, .f32⟩ : BufTy).Contents (Elt F)),
    StableHlo.binary main_v392 main_v394 main_v395 (addf : (⟨S3072x64, .f32⟩ : BufTy).Contents (Elt F) → (⟨S3072x64, .f32⟩ : BufTy).Contents (Elt F) → (⟨S3072x64, .f32⟩ : BufTy).Contents (Elt F)),
    StableHlo.unary main_arg17 main_v396 ((extractStridedSlice S1x64 ![2, 0] · slices_S3x64_S1x64_2_0) : (⟨S3x64, .f32⟩ : BufTy).Contents (Elt F) → (⟨S1x64, .f32⟩ : BufTy).Contents (Elt F)),
    StableHlo.reshape main_v396 main_v397 rfl shapeCasts_S1x64_S64,
    StableHlo.unary main_arg18 main_v398 ((extractStridedSlice S1x64 ![2, 0] · slices_S3x64_S1x64_2_0) : (⟨S3x64, .f32⟩ : BufTy).Contents (Elt F) → (⟨S1x64, .f32⟩ : BufTy).Contents (Elt F)),
    StableHlo.reshape main_v398 main_v399 rfl shapeCasts_S1x64_S64,
    StableHlo.nullary main_cst_55 (constant S_ .f32 0x00000000#32),
    StableHlo.binary main_v395 main_cst_55 main_v400 ((fun x v => Host.reduceAdd x v reducesTo_S3072x64_S64_d0 h_S_) : (⟨S3072x64, .f32⟩ : BufTy).Contents (Elt F) → (⟨S_, .f32⟩ : BufTy).Contents (Elt F) → (⟨S64, .f32⟩ : BufTy).Contents (Elt F)),
    StableHlo.nullary main_cst_56 (constant S_ .f32 0x45400000#32),
    StableHlo.unary main_cst_56 main_v401 (broadcastInDim S64 ![] bcast_S_S64 : (⟨S_, .f32⟩ : BufTy).Contents (Elt F) → (⟨S64, .f32⟩ : BufTy).Contents (Elt F)),
    StableHlo.binary main_v400 main_v401 main_v402 (Host.divf : (⟨S64, .f32⟩ : BufTy).Contents (Elt F) → (⟨S64, .f32⟩ : BufTy).Contents (Elt F) → (⟨S64, .f32⟩ : BufTy).Contents (Elt F)),
    StableHlo.nullary main_c_57 (constantI S_ 32 0#32),
    StableHlo.TRef.nullary main_call20.cst (constant S_ .f32 0x00000000#32),
    StableHlo.TRef.binary (.of main_v395 : StableHlo.TRef sig ⟨S3072x64, .f32⟩) main_call20.cst main_call20.v0 (fun x v => Host.reduceAdd x v reducesTo_S3072x64_S64_d0 h_S_),
    StableHlo.TRef.unary main_call20.v0 main_call20.v1 (broadcastInDim S1x64 ![1] bcast_S64_S1x64_1),
    StableHlo.TRef.nullary main_call20.cst_0 (constant S_ .f32 0x45400000#32),
    StableHlo.TRef.unary main_call20.cst_0 main_call20.v2 (broadcastInDim S1x64 ![] bcast_S_S1x64),
    StableHlo.TRef.binary main_call20.v1 main_call20.v2 main_call20.v3 Host.divf,
    StableHlo.TRef.unary main_call20.v3 main_call20.v4 (broadcastInDim S3072x64 ![0, 1] bcast_S1x64_S3072x64_0_1),
    StableHlo.TRef.binary (.of main_v395 : StableHlo.TRef sig ⟨S3072x64, .f32⟩) main_call20.v4 main_call20.v5 subf,
    StableHlo.TRef.binary main_call20.v5 main_call20.v5 main_call20.v6 mulf,
    StableHlo.TRef.unary (.of main_c_57 : StableHlo.TRef sig ⟨S_, .i32⟩) main_call20.v7 (sitofp .f32),
    StableHlo.TRef.nullary main_call20.cst_1 (constant S_ .f32 0x45400000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S3072x64_S64_d0 h_S_),
    StableHlo.TRef.unary main_call20.v8 main_call20.v10 (broadcastInDim S64 ![] bcast_S_S64),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S64 ![] bcast_S_S64),
    StableHlo.TRef.ternary main_call20.v12 main_call20.v11 main_call20.call0.v1 main_call20.call0.v2 (fun p a b => select (broadcastInDim S64 ![] bcast_S_S64 p) a b),
    StableHlo.unary main_v402 main_v404 (broadcastInDim S1x64 ![1] bcast_S64_S1x64_1 : (⟨S64, .f32⟩ : BufTy).Contents (Elt F) → (⟨S1x64, .f32⟩ : BufTy).Contents (Elt F)),
    StableHlo.unary main_v404 main_v405 (broadcastInDim S3072x64 ![0, 1] bcast_S1x64_S3072x64_0_1 : (⟨S1x64, .f32⟩ : BufTy).Contents (Elt F) → (⟨S3072x64, .f32⟩ : BufTy).Contents (Elt F)),
    StableHlo.binary main_v395 main_v405 main_v406 (subf : (⟨S3072x64, .f32⟩ : BufTy).Contents (Elt F) → (⟨S3072x64, .f32⟩ : BufTy).Contents (Elt F) → (⟨S3072x64, .f32⟩ : BufTy).Contents (Elt F)),
    StableHlo.nullary main_cst_58 (constant S_ .f32 0x3727C5AC#32),
    StableHlo.unary main_cst_58 main_v407 (broadcastInDim S64 ![] bcast_S_S64 : (⟨S_, .f32⟩ : BufTy).Contents (Elt F) → (⟨S64, .f32⟩ : BufTy).Contents (Elt F)),
    StableHlo.binary main_v403 main_v407 main_v408 (addf : (⟨S64, .f32⟩ : BufTy).Contents (Elt F) → (⟨S64, .f32⟩ : BufTy).Contents (Elt F) → (⟨S64, .f32⟩ : BufTy).Contents (Elt F)),
    StableHlo.unary main_v408 main_v409 (Host.rsqrt : (⟨S64, .f32⟩ : BufTy).Contents (Elt F) → (⟨S64, .f32⟩ : BufTy).Contents (Elt F)),
    StableHlo.unary main_v409 main_v410 (broadcastInDim S1x64 ![1] bcast_S64_S1x64_1 : (⟨S64, .f32⟩ : BufTy).Contents (Elt F) → (⟨S1x64, .f32⟩ : BufTy).Contents (Elt F)),
    StableHlo.unary main_v410 main_v411 (broadcastInDim S3072x64 ![0, 1] bcast_S1x64_S3072x64_0_1 : (⟨S1x64, .f32⟩ : BufTy).Contents (Elt F) → (⟨S3072x64, .f32⟩ : BufTy).Contents (Elt F)),
    StableHlo.binary main_v406 main_v411 main_v412 (mulf : (⟨S3072x64, .f32⟩ : BufTy).Contents (Elt F) → (⟨S3072x64, .f32⟩ : BufTy).Contents (Elt F) → (⟨S3072x64, .f32⟩ : BufTy).Contents (Elt F)),
    StableHlo.unary main_v397 main_v413 (broadcastInDim S1x64 ![1] bcast_S64_S1x64_1 : (⟨S64, .f32⟩ : BufTy).Contents (Elt F) → (⟨S1x64, .f32⟩ : BufTy).Contents (Elt F)),
    StableHlo.unary main_v413 main_v414 (broadcastInDim S3072x64 ![0, 1] bcast_S1x64_S3072x64_0_1 : (⟨S1x64, .f32⟩ : BufTy).Contents (Elt F) → (⟨S3072x64, .f32⟩ : BufTy).Contents (Elt F)),
    StableHlo.binary main_v412 main_v414 main_v415 (mulf : (⟨S3072x64, .f32⟩ : BufTy).Contents (Elt F) → (⟨S3072x64, .f32⟩ : BufTy).Contents (Elt F) → (⟨S3072x64, .f32⟩ : BufTy).Contents (Elt F)),
    StableHlo.unary main_v399 main_v416 (broadcastInDim S1x64 ![1] bcast_S64_S1x64_1 : (⟨S64, .f32⟩ : BufTy).Contents (Elt F) → (⟨S1x64, .f32⟩ : BufTy).Contents (Elt F)),
    StableHlo.unary main_v416 main_v417 (broadcastInDim S3072x64 ![0, 1] bcast_S1x64_S3072x64_0_1 : (⟨S1x64, .f32⟩ : BufTy).Contents (Elt F) → (⟨S3072x64, .f32⟩ : BufTy).Contents (Elt F)),
    StableHlo.binary main_v415 main_v417 main_v418 (addf : (⟨S3072x64, .f32⟩ : BufTy).Contents (Elt F) → (⟨S3072x64, .f32⟩ : BufTy).Contents (Elt F) → (⟨S3072x64, .f32⟩ : BufTy).Contents (Elt F)) ]

/-- The references window 7's operations write, in order. -/
abbrev ops_part7_W : List (Ref sig .tc) :=
  [main_v366, main_v367, main_v368, main_v369, main_v370, main_v371, main_c_52, main_v372, main_v373, main_c_53, main_v374, main_v375, main_v376, main_v377, main_v378, main_v379, main_call18_cst, main_call18_v0, main_v380, main_v381, main_v382, main_cst_54, main_v383, main_v384, main_v385, main_v386, main_v387, main_v388, main_v389, main_v390, main_call19_cst, main_call19_v0, main_v391, main_v392, main_v393, main_v394, main_v395, main_v396, main_v397, main_v398, main_v399, main_cst_55, main_v400, main_cst_56, main_v401, main_v402, main_c_57, main_call20_cst, main_call20_v0, main_call20_v1, main_call20_cst_0, main_call20_v2, main_call20_v3, main_call20_v4, main_call20_v5, main_call20_v6, main_call20_v7, main_call20_cst_1, main_call20_v8, main_call20_cst_2, main_call20_v9, main_call20_v10, main_call20_v11, main_call20_cst_3, main_call20_v12, main_call20_cst_4, main_call20_call0_v0, main_call20_call0_v1, main_v403, main_v404, main_v405, main_v406, main_cst_58, main_v407, main_v408, main_v409, main_v410, main_v411, main_v412, main_v413, main_v414, main_v415, main_v416, main_v417, main_v418]

/-- Window 8 of @main: 56 operations. -/
abbrev ops_part8 : List (HloOp τ sig (Elt F)) :=
  [ StableHlo.nullary main_c_59 (constantI S_ 32 0#32),
    StableHlo.unary main_c_59 main_v419 (broadcastInDim S147456 ![] bcast_S_S147456 : (⟨S_, .i32⟩ : BufTy).Contents (Elt F) → (⟨S147456, .i32⟩ : BufTy).Contents (Elt F)),
    StableHlo.binary main_v22 main_v419 main_v420 (cmpi .slt : (⟨S147456, .i32⟩ : BufTy).Contents (Elt F) → (⟨S147456, .i32⟩ : BufTy).Contents (Elt F) → (⟨S147456, .i1⟩ : BufTy).Contents (Elt F)),
    StableHlo.nullary main_c_60 (constantI S_ 32 3072#32),
    StableHlo.unary main_c_60 main_v421 (broadcastInDim S147456 ![] bcast_S_S147456 : (⟨S_, .i32⟩ : BufTy).Contents (Elt F) → (⟨S147456, .i32⟩ : BufTy).Contents (Elt F)),
    StableHlo.binary main_v22 main_v421 main_v422 (addi : (⟨S147456, .i32⟩ : BufTy).Contents (Elt F) → (⟨S147456, .i32⟩ : BufTy).Contents (Elt F) → (⟨S147456, .i32⟩ : BufTy).Contents (Elt F)),
    StableHlo.ternary main_v420 main_v422 main_v22 main_v423 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v423 main_v424 (broadcastInDim S147456x1 ![0] bcast_S147456_S147456x1_0 : (⟨S147456, .i32⟩ : BufTy).Contents (Elt F) → (⟨S147456x1, .i32⟩ : BufTy).Contents (Elt F)),
    StableHlo.binary main_v418 main_v424 main_v425 ((fun x i => Host.gather gather_S3072x64_S147456x1_S147456x64_1_0_n_n_0_1_164 x i) : (⟨S3072x64, .f32⟩ : BufTy).Contents (Elt F) → (⟨S147456x1, .i32⟩ : BufTy).Contents (Elt F) → (⟨S147456x64, .f32⟩ : BufTy).Contents (Elt F)),
    StableHlo.binary main_v349 main_v425 main_v426 (addf : (⟨S147456x64, .f32⟩ : BufTy).Contents (Elt F) → (⟨S147456x64, .f32⟩ : BufTy).Contents (Elt F) → (⟨S147456x64, .f32⟩ : BufTy).Contents (Elt F)),
    StableHlo.TRef.nullary main_call21.cst (constant S_ .f32 0x00000000#32),
    StableHlo.TRef.unary main_call21.cst main_call21.v0 (broadcastInDim S147456x64 ![] bcast_S_S147456x64),
    StableHlo.TRef.binary (.of main_v426 : StableHlo.TRef sig ⟨S147456x64, .f32⟩) main_call21.v0 main_call21.v1 maximumf,
    StableHlo.nullary main_cst_61 (constant S_ .f32 0x3F800000#32),
    StableHlo.unary main_cst_61 main_v428 (broadcastInDim S147456 ![] bcast_S_S147456 : (⟨S_, .f32⟩ : BufTy).Contents (Elt F) → (⟨S147456, .f32⟩ : BufTy).Contents (Elt F)),
    StableHlo.nullary main_cst_62 (constant S_ .f32 0x00000000#32),
    StableHlo.unary main_cst_62 main_v429 (broadcastInDim S3072 ![] bcast_S_S3072 : (⟨S_, .f32⟩ : BufTy).Contents (Elt F) → (⟨S3072, .f32⟩ : BufTy).Contents (Elt F)),
    StableHlo.unary main_arg28 main_v430 (broadcastInDim S147456x1 ![0] bcast_S147456_S147456x1_0 : (⟨S147456, .i32⟩ : BufTy).Contents (Elt F) → (⟨S147456x1, .i32⟩ : BufTy).Contents (Elt F)),
    StableHlo.ternary main_v429 main_v430 main_v428 main_v431 ((fun x i u => Host.scatterAdd scatter_S3072_S147456x1_S147456_n_0_0_1 x i u) : (⟨S3072, .f32⟩ : BufTy).Contents (Elt F) → (⟨S147456x1, .i32⟩ : BufTy).Contents (Elt F) → (⟨S147456, .f32⟩ : BufTy).Contents (Elt F) → (⟨S3072, .f32⟩ : BufTy).Contents (Elt F)),
    StableHlo.nullary main_cst_63 (constant S_ .f32 0x3F800000#32),
    StableHlo.unary main_cst_63 main_v432 (broadcastInDim S3072 ![] bcast_S_S3072 : (⟨S_, .f32⟩ : BufTy).Contents (Elt F) → (⟨S3072, .f32⟩ : BufTy).Contents (Elt F)),
    StableHlo.binary main_v431 main_v432 main_v433 (maximumf : (⟨S3072, .f32⟩ : BufTy).Contents (Elt F) → (⟨S3072, .f32⟩ : BufTy).Contents (Elt F) → (⟨S3072, .f32⟩ : BufTy).Contents (Elt F)),
    StableHlo.nullary main_cst_64 (constant S_ .f32 0x00000000#32),
    StableHlo.unary main_cst_64 main_v434 (broadcastInDim S3072x64 ![] bcast_S_S3072x64 : (⟨S_, .f32⟩ : BufTy).Contents (Elt F) → (⟨S3072x64, .f32⟩ : BufTy).Contents (Elt F)),
    StableHlo.unary main_arg28 main_v435 (broadcastInDim S147456x1 ![0] bcast_S147456_S147456x1_0 : (⟨S147456, .i32⟩ : BufTy).Contents (Elt F) → (⟨S147456x1, .i32⟩ : BufTy).Contents (Elt F)),
    StableHlo.ternary main_v434 main_v435 main_v427 main_v436 ((fun x i u => Host.scatterAdd scatter_S3072x64_S147456x1_S147456x64_1_0_0_1 x i u) : (⟨S3072x64, .f32⟩ : BufTy).Contents (Elt F) → (⟨S147456x1, .i32⟩ : BufTy).Contents (Elt F) → (⟨S147456x64, .f32⟩ : BufTy).Contents (Elt F) → (⟨S3072x64, .f32⟩ : BufTy).Contents (Elt F)),
    StableHlo.unary main_v433 main_v437 (broadcastInDim S3072x1 ![0] bcast_S3072_S3072x1_0 : (⟨S3072, .f32⟩ : BufTy).Contents (Elt F) → (⟨S3072x1, .f32⟩ : BufTy).Contents (Elt F)),
    StableHlo.unary main_v437 main_v438 (broadcastInDim S3072x64 ![0, 1] bcast_S3072x1_S3072x64_0_1 : (⟨S3072x1, .f32⟩ : BufTy).Contents (Elt F) → (⟨S3072x64, .f32⟩ : BufTy).Contents (Elt F)),
    StableHlo.binary main_v436 main_v438 main_v439 (Host.divf : (⟨S3072x64, .f32⟩ : BufTy).Contents (Elt F) → (⟨S3072x64, .f32⟩ : BufTy).Contents (Elt F) → (⟨S3072x64, .f32⟩ : BufTy).Contents (Elt F)),
    StableHlo.nullary main_cst_65 (constant S_ .f32 0x3F800000#32),
    StableHlo.unary main_cst_65 main_v440 (broadcastInDim S3072 ![] bcast_S_S3072 : (⟨S_, .f32⟩ : BufTy).Contents (Elt F) → (⟨S3072, .f32⟩ : BufTy).Contents (Elt F)),
    StableHlo.nullary main_cst_66 (constant S_ .f32 0x00000000#32),
    StableHlo.unary main_cst_66 main_v441 (broadcastInDim S64 ![] bcast_S_S64 : (⟨S_, .f32⟩ : BufTy).Contents (Elt F) → (⟨S64, .f32⟩ : BufTy).Contents (Elt F)),
    StableHlo.unary main_arg29 main_v442 (broadcastInDim S3072x1 ![0] bcast_S3072_S3072x1_0 : (⟨S3072, .i32⟩ : BufTy).Contents (Elt F) → (⟨S3072x1, .i32⟩ : BufTy).Contents (Elt F)),
    StableHlo.ternary main_v441 main_v442 main_v440 main_v443 ((fun x i u => Host.scatterAdd scatter_S64_S3072x1_S3072_n_0_0_1 x i u) : (⟨S64, .f32⟩ : BufTy).Contents (Elt F) → (⟨S3072x1, .i32⟩ : BufTy).Contents (Elt F) → (⟨S3072, .f32⟩ : BufTy).Contents (Elt F) → (⟨S64, .f32⟩ : BufTy).Contents (Elt F)),
    StableHlo.nullary main_cst_67 (constant S_ .f32 0x3F800000#32),
    StableHlo.unary main_cst_67 main_v444 (broadcastInDim S64 ![] bcast_S_S64 : (⟨S_, .f32⟩ : BufTy).Contents (Elt F) → (⟨S64, .f32⟩ : BufTy).Contents (Elt F)),
    StableHlo.binary main_v443 main_v444 main_v445 (maximumf : (⟨S64, .f32⟩ : BufTy).Contents (Elt F) → (⟨S64, .f32⟩ : BufTy).Contents (Elt F) → (⟨S64, .f32⟩ : BufTy).Contents (Elt F)),
    StableHlo.nullary main_cst_68 (constant S_ .f32 0x00000000#32),
    StableHlo.unary main_cst_68 main_v446 (broadcastInDim S64x64 ![] bcast_S_S64x64 : (⟨S_, .f32⟩ : BufTy).Contents (Elt F) → (⟨S64x64, .f32⟩ : BufTy).Contents (Elt F)),
    StableHlo.unary main_arg29 main_v447 (broadcastInDim S3072x1 ![0] bcast_S3072_S3072x1_0 : (⟨S3072, .i32⟩ : BufTy).Contents (Elt F) → (⟨S3072x1, .i32⟩ : BufTy).Contents (Elt F)),
    StableHlo.ternary main_v446 main_v447 main_v439 main_v448 ((fun x i u => Host.scatterAdd scatter_S64x64_S3072x1_S3072x64_1_0_0_1 x i u) : (⟨S64x64, .f32⟩ : BufTy).Contents (Elt F) → (⟨S3072x1, .i32⟩ : BufTy).Contents (Elt F) → (⟨S3072x64, .f32⟩ : BufTy).Contents (Elt F) → (⟨S64x64, .f32⟩ : BufTy).Contents (Elt F)),
    StableHlo.unary main_v445 main_v449 (broadcastInDim S64x1 ![0] bcast_S64_S64x1_0 : (⟨S64, .f32⟩ : BufTy).Contents (Elt F) → (⟨S64x1, .f32⟩ : BufTy).Contents (Elt F)),
    StableHlo.unary main_v449 main_v450 (broadcastInDim S64x64 ![0, 1] bcast_S64x1_S64x64_0_1 : (⟨S64x1, .f32⟩ : BufTy).Contents (Elt F) → (⟨S64x64, .f32⟩ : BufTy).Contents (Elt F)),
    StableHlo.binary main_v448 main_v450 main_v451 (Host.divf : (⟨S64x64, .f32⟩ : BufTy).Contents (Elt F) → (⟨S64x64, .f32⟩ : BufTy).Contents (Elt F) → (⟨S64x64, .f32⟩ : BufTy).Contents (Elt F)),
    StableHlo.binary main_v451 main_arg19 main_v452 ((fun l r => Host.dotGeneral dot_S64x64_S64x128_S64x128_1_0_0_1_n_n none l r) : (⟨S64x64, .f32⟩ : BufTy).Contents (Elt F) → (⟨S64x128, .f32⟩ : BufTy).Contents (Elt F) → (⟨S64x128, .f32⟩ : BufTy).Contents (Elt F)),
    StableHlo.unary main_arg20 main_v453 (broadcastInDim S1x128 ![1] bcast_S128_S1x128_1 : (⟨S128, .f32⟩ : BufTy).Contents (Elt F) → (⟨S1x128, .f32⟩ : BufTy).Contents (Elt F)),
    StableHlo.unary main_v453 main_v454 (broadcastInDim S64x128 ![0, 1] bcast_S1x128_S64x128_0_1 : (⟨S1x128, .f32⟩ : BufTy).Contents (Elt F) → (⟨S64x128, .f32⟩ : BufTy).Contents (Elt F)),
    StableHlo.binary main_v452 main_v454 main_v455 (addf : (⟨S64x128, .f32⟩ : BufTy).Contents (Elt F) → (⟨S64x128, .f32⟩ : BufTy).Contents (Elt F) → (⟨S64x128, .f32⟩ : BufTy).Contents (Elt F)),
    StableHlo.TRef.nullary main_call22.cst (constant S_ .f32 0x00000000#32),
    StableHlo.TRef.unary main_call22.cst main_call22.v0 (broadcastInDim S64x128 ![] bcast_S_S64x128),
    StableHlo.TRef.binary (.of main_v455 : StableHlo.TRef sig ⟨S64x128, .f32⟩) main_call22.v0 main_call22.v1 maximumf,
    StableHlo.binary main_v456 main_arg21 main_v457 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    StableHlo.unary main_arg22 main_v458 (broadcastInDim S1x10 ![1] bcast_S10_S1x10_1 : (⟨S10, .f32⟩ : BufTy).Contents (Elt F) → (⟨S1x10, .f32⟩ : BufTy).Contents (Elt F)),
    StableHlo.unary main_v458 main_v459 (broadcastInDim S64x10 ![0, 1] bcast_S1x10_S64x10_0_1 : (⟨S1x10, .f32⟩ : BufTy).Contents (Elt F) → (⟨S64x10, .f32⟩ : BufTy).Contents (Elt F)),
    StableHlo.binary main_v457 main_v459 main_v460 (addf : (⟨S64x10, .f32⟩ : BufTy).Contents (Elt F) → (⟨S64x10, .f32⟩ : BufTy).Contents (Elt F) → (⟨S64x10, .f32⟩ : BufTy).Contents (Elt F)) ]

/-- The references window 8's operations write, in order. -/
abbrev ops_part8_W : List (Ref sig .tc) :=
  [main_c_59, main_v419, main_v420, main_c_60, main_v421, main_v422, main_v423, main_v424, main_v425, main_v426, main_call21_cst, main_call21_v0, main_v427, main_cst_61, main_v428, main_cst_62, main_v429, main_v430, main_v431, main_cst_63, main_v432, main_v433, main_cst_64, main_v434, main_v435, main_v436, main_v437, main_v438, main_v439, main_cst_65, main_v440, main_cst_66, main_v441, main_v442, main_v443, main_cst_67, main_v444, main_v445, main_cst_68, main_v446, main_v447, main_v448, main_v449, main_v450, main_v451, main_v452, main_v453, main_v454, main_v455, main_call22_cst, main_call22_v0, main_v456, main_v457, main_v458, main_v459, main_v460]

/-- @main's 692 operations, in order. -/
abbrev ops : List (HloOp τ sig (Elt F)) :=
  ops_part0 ++ (ops_part1 ++ (ops_part2 ++ (ops_part3 ++ (ops_part4 ++ (ops_part5 ++ (ops_part6 ++ (ops_part7 ++ (ops_part8))))))))

end Cert.ReferenceIdeal.RefRun

end
-- ==== Proof.RefRun.lean ====
import proofs.«177129_j59004260712467_1_alg».proof.Proof.RefOps

/-! The reference program's run, read back. @main is the straight line of its operations (main_eq: window by
    window, the module-local functions unfolding at their calls), so every weakly fair execution of it ends with
    each buffer at the fold of the operations' results over the launch contents (run_all), and a buffer that no
    operation writes keeps its launch contents (keep_all, kept_argK). -/

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- The fold over a concatenation is the fold over the second list from the fold over the first. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-! ## @main is the line of its operations

Each window of @main is the line of its own list: both sides are one chain of host steps, the module-local
functions' bodies unfolding at their calls into the steps listed in their place, and sequencing computes
(a step continued by the rest of the line). -/

set_option maxRecDepth 8192 in
theorem main_part0_eq (c : Dev nD) : main_part0 (F := F) c = seq ops_part0 := rfl

set_option maxRecDepth 8192 in
theorem main_part1_eq (c : Dev nD) : main_part1 (F := F) c = seq ops_part1 := rfl

set_option maxRecDepth 8192 in
theorem main_part2_eq (c : Dev nD) : main_part2 (F := F) c = seq ops_part2 := rfl

set_option maxRecDepth 8192 in
theorem main_part3_eq (c : Dev nD) : main_part3 (F := F) c = seq ops_part3 := rfl

set_option maxRecDepth 8192 in
theorem main_part4_eq (c : Dev nD) : main_part4 (F := F) c = seq ops_part4 := rfl

set_option maxRecDepth 8192 in
theorem main_part5_eq (c : Dev nD) : main_part5 (F := F) c = seq ops_part5 := rfl

set_option maxRecDepth 8192 in
theorem main_part6_eq (c : Dev nD) : main_part6 (F := F) c = seq ops_part6 := rfl

set_option maxRecDepth 8192 in
theorem main_part7_eq (c : Dev nD) : main_part7 (F := F) c = seq ops_part7 := rfl

set_option maxRecDepth 8192 in
theorem main_part8_eq (c : Dev nD) : main_part8 (F := F) c = seq ops_part8 := rfl

/-- @main runs its windows in order, and two lines run in order are their concatenation run as one. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## What the operations touch

Every operation touches TensorCore references only, allocates nothing, and writes its one result reference, which
is listed beside its window. -/

set_option maxRecDepth 8192 in
theorem ops_part0_sub : (ops_part0 : List (HloOp τ sig (Elt F))).Forall fun op => op.bufs ⊆ tcRefs τ sig := by
  simp only [List.Forall, nullary_bufs_sub, unary_bufs_sub, binary_bufs_sub, ternary_bufs_sub, reshape_bufs_sub, and_self]

theorem ops_part0_fresh : (ops_part0 : List (HloOp τ sig (Elt F))).Forall fun op => op.fresh = ∅ := by
  simp only [List.Forall]; repeat' constructor

set_option maxRecDepth 8192 in
theorem ops_part0_writes : (ops_part0 : List (HloOp τ sig (Elt F))).Forall fun op =>
    op.writes ⊆ (ops_part0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference window 0 does not write keeps its contents through it. -/
theorem keep_part0 (W : Valuation τ sig (Elt F)) (r : Ref sig .tc) (h : r ∉ ops_part0_W) :
    after ops_part0 W (Proc.devRef .tc r) = W (Proc.devRef .tc r) :=
  after_of_writes_sub ops_part0 W ops_part0_writes h

set_option maxRecDepth 8192 in
theorem ops_part1_sub : (ops_part1 : List (HloOp τ sig (Elt F))).Forall fun op => op.bufs ⊆ tcRefs τ sig := by
  simp only [List.Forall, nullary_bufs_sub, unary_bufs_sub, binary_bufs_sub, ternary_bufs_sub, reshape_bufs_sub, and_self]

theorem ops_part1_fresh : (ops_part1 : List (HloOp τ sig (Elt F))).Forall fun op => op.fresh = ∅ := by
  simp only [List.Forall]; repeat' constructor

set_option maxRecDepth 8192 in
theorem ops_part1_writes : (ops_part1 : List (HloOp τ sig (Elt F))).Forall fun op =>
    op.writes ⊆ (ops_part1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference window 1 does not write keeps its contents through it. -/
theorem keep_part1 (W : Valuation τ sig (Elt F)) (r : Ref sig .tc) (h : r ∉ ops_part1_W) :
    after ops_part1 W (Proc.devRef .tc r) = W (Proc.devRef .tc r) :=
  after_of_writes_sub ops_part1 W ops_part1_writes h

set_option maxRecDepth 8192 in
theorem ops_part2_sub : (ops_part2 : List (HloOp τ sig (Elt F))).Forall fun op => op.bufs ⊆ tcRefs τ sig := by
  simp only [List.Forall, nullary_bufs_sub, unary_bufs_sub, binary_bufs_sub, ternary_bufs_sub, reshape_bufs_sub, and_self]

theorem ops_part2_fresh : (ops_part2 : List (HloOp τ sig (Elt F))).Forall fun op => op.fresh = ∅ := by
  simp only [List.Forall]; repeat' constructor

set_option maxRecDepth 8192 in
theorem ops_part2_writes : (ops_part2 : List (HloOp τ sig (Elt F))).Forall fun op =>
    op.writes ⊆ (ops_part2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference window 2 does not write keeps its contents through it. -/
theorem keep_part2 (W : Valuation τ sig (Elt F)) (r : Ref sig .tc) (h : r ∉ ops_part2_W) :
    after ops_part2 W (Proc.devRef .tc r) = W (Proc.devRef .tc r) :=
  after_of_writes_sub ops_part2 W ops_part2_writes h

set_option maxRecDepth 8192 in
theorem ops_part3_sub : (ops_part3 : List (HloOp τ sig (Elt F))).Forall fun op => op.bufs ⊆ tcRefs τ sig := by
  simp only [List.Forall, nullary_bufs_sub, unary_bufs_sub, binary_bufs_sub, ternary_bufs_sub, reshape_bufs_sub, and_self]

theorem ops_part3_fresh : (ops_part3 : List (HloOp τ sig (Elt F))).Forall fun op => op.fresh = ∅ := by
  simp only [List.Forall]; repeat' constructor

set_option maxRecDepth 8192 in
theorem ops_part3_writes : (ops_part3 : List (HloOp τ sig (Elt F))).Forall fun op =>
    op.writes ⊆ (ops_part3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference window 3 does not write keeps its contents through it. -/
theorem keep_part3 (W : Valuation τ sig (Elt F)) (r : Ref sig .tc) (h : r ∉ ops_part3_W) :
    after ops_part3 W (Proc.devRef .tc r) = W (Proc.devRef .tc r) :=
  after_of_writes_sub ops_part3 W ops_part3_writes h

set_option maxRecDepth 8192 in
theorem ops_part4_sub : (ops_part4 : List (HloOp τ sig (Elt F))).Forall fun op => op.bufs ⊆ tcRefs τ sig := by
  simp only [List.Forall, nullary_bufs_sub, unary_bufs_sub, binary_bufs_sub, ternary_bufs_sub, reshape_bufs_sub, and_self]

theorem ops_part4_fresh : (ops_part4 : List (HloOp τ sig (Elt F))).Forall fun op => op.fresh = ∅ := by
  simp only [List.Forall]; repeat' constructor

set_option maxRecDepth 8192 in
theorem ops_part4_writes : (ops_part4 : List (HloOp τ sig (Elt F))).Forall fun op =>
    op.writes ⊆ (ops_part4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference window 4 does not write keeps its contents through it. -/
theorem keep_part4 (W : Valuation τ sig (Elt F)) (r : Ref sig .tc) (h : r ∉ ops_part4_W) :
    after ops_part4 W (Proc.devRef .tc r) = W (Proc.devRef .tc r) :=
  after_of_writes_sub ops_part4 W ops_part4_writes h

set_option maxRecDepth 8192 in
theorem ops_part5_sub : (ops_part5 : List (HloOp τ sig (Elt F))).Forall fun op => op.bufs ⊆ tcRefs τ sig := by
  simp only [List.Forall, nullary_bufs_sub, unary_bufs_sub, binary_bufs_sub, ternary_bufs_sub, reshape_bufs_sub, and_self]

theorem ops_part5_fresh : (ops_part5 : List (HloOp τ sig (Elt F))).Forall fun op => op.fresh = ∅ := by
  simp only [List.Forall]; repeat' constructor

set_option maxRecDepth 8192 in
theorem ops_part5_writes : (ops_part5 : List (HloOp τ sig (Elt F))).Forall fun op =>
    op.writes ⊆ (ops_part5_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference window 5 does not write keeps its contents through it. -/
theorem keep_part5 (W : Valuation τ sig (Elt F)) (r : Ref sig .tc) (h : r ∉ ops_part5_W) :
    after ops_part5 W (Proc.devRef .tc r) = W (Proc.devRef .tc r) :=
  after_of_writes_sub ops_part5 W ops_part5_writes h

set_option maxRecDepth 8192 in
theorem ops_part6_sub : (ops_part6 : List (HloOp τ sig (Elt F))).Forall fun op => op.bufs ⊆ tcRefs τ sig := by
  simp only [List.Forall, nullary_bufs_sub, unary_bufs_sub, binary_bufs_sub, ternary_bufs_sub, reshape_bufs_sub, and_self]

theorem ops_part6_fresh : (ops_part6 : List (HloOp τ sig (Elt F))).Forall fun op => op.fresh = ∅ := by
  simp only [List.Forall]; repeat' constructor

set_option maxRecDepth 8192 in
theorem ops_part6_writes : (ops_part6 : List (HloOp τ sig (Elt F))).Forall fun op =>
    op.writes ⊆ (ops_part6_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference window 6 does not write keeps its contents through it. -/
theorem keep_part6 (W : Valuation τ sig (Elt F)) (r : Ref sig .tc) (h : r ∉ ops_part6_W) :
    after ops_part6 W (Proc.devRef .tc r) = W (Proc.devRef .tc r) :=
  after_of_writes_sub ops_part6 W ops_part6_writes h

set_option maxRecDepth 8192 in
theorem ops_part7_sub : (ops_part7 : List (HloOp τ sig (Elt F))).Forall fun op => op.bufs ⊆ tcRefs τ sig := by
  simp only [List.Forall, nullary_bufs_sub, unary_bufs_sub, binary_bufs_sub, ternary_bufs_sub, reshape_bufs_sub, and_self]

theorem ops_part7_fresh : (ops_part7 : List (HloOp τ sig (Elt F))).Forall fun op => op.fresh = ∅ := by
  simp only [List.Forall]; repeat' constructor

set_option maxRecDepth 8192 in
theorem ops_part7_writes : (ops_part7 : List (HloOp τ sig (Elt F))).Forall fun op =>
    op.writes ⊆ (ops_part7_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference window 7 does not write keeps its contents through it. -/
theorem keep_part7 (W : Valuation τ sig (Elt F)) (r : Ref sig .tc) (h : r ∉ ops_part7_W) :
    after ops_part7 W (Proc.devRef .tc r) = W (Proc.devRef .tc r) :=
  after_of_writes_sub ops_part7 W ops_part7_writes h

set_option maxRecDepth 8192 in
theorem ops_part8_sub : (ops_part8 : List (HloOp τ sig (Elt F))).Forall fun op => op.bufs ⊆ tcRefs τ sig := by
  simp only [List.Forall, nullary_bufs_sub, unary_bufs_sub, binary_bufs_sub, ternary_bufs_sub, reshape_bufs_sub, and_self]

theorem ops_part8_fresh : (ops_part8 : List (HloOp τ sig (Elt F))).Forall fun op => op.fresh = ∅ := by
  simp only [List.Forall]; repeat' constructor

set_option maxRecDepth 8192 in
theorem ops_part8_writes : (ops_part8 : List (HloOp τ sig (Elt F))).Forall fun op =>
    op.writes ⊆ (ops_part8_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference window 8 does not write keeps its contents through it. -/
theorem keep_part8 (W : Valuation τ sig (Elt F)) (r : Ref sig .tc) (h : r ∉ ops_part8_W) :
    after ops_part8 W (Proc.devRef .tc r) = W (Proc.devRef .tc r) :=
  after_of_writes_sub ops_part8 W ops_part8_writes h

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h, List.forall_iff_forall_mem.mp ops_part7_sub op h, List.forall_iff_forall_mem.mp ops_part8_sub op h]

theorem ops_fresh : ∀ op ∈ (ops : List (HloOp τ sig (Elt F))), op.fresh = ∅ := fun op h => by
  simp only [ops, List.mem_append] at h
  rcases h with h | h | h | h | h | h | h | h | h
  exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h, List.forall_iff_forall_mem.mp ops_part6_fresh op h, List.forall_iff_forall_mem.mp ops_part7_fresh op h, List.forall_iff_forall_mem.mp ops_part8_fresh op h]

/-! ## The run -/

/-- On every device, for any float values, from any memory with zero counters: every weakly fair execution of
    @main terminates, and every final state has each TensorCore buffer at the fold of the operations' results
    over its launch contents. -/
theorem run_all (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

/-! ## What no operation writes -/

/-- The fold over the whole line, window after window. -/
theorem after_ops (V : Valuation τ sig (Elt F)) :
    after ops V = after ops_part8 (after ops_part7 (after ops_part6 (after ops_part5 (after ops_part4 (after ops_part3 (after ops_part2 (after ops_part1 (after ops_part0 (V))))))))) := by
  simp only [ops, after_append]

/-- A reference no window writes keeps its contents through the whole line. -/
theorem keep_all (V : Valuation τ sig (Elt F)) (r : Ref sig .tc)
    (h0 : r ∉ ops_part0_W) (h1 : r ∉ ops_part1_W) (h2 : r ∉ ops_part2_W) (h3 : r ∉ ops_part3_W) (h4 : r ∉ ops_part4_W) (h5 : r ∉ ops_part5_W) (h6 : r ∉ ops_part6_W) (h7 : r ∉ ops_part7_W) (h8 : r ∉ ops_part8_W) :
    after ops V (Proc.devRef .tc r) = V (Proc.devRef .tc r) := by
  rw [after_ops, keep_part8 _ r h8, keep_part7 _ r h7, keep_part6 _ r h6, keep_part5 _ r h5, keep_part4 _ r h4, keep_part3 _ r h3, keep_part2 _ r h2, keep_part1 _ r h1, keep_part0 _ r h0]

theorem kept_arg0 (V : Valuation τ sig (Elt F)) :
    StableHlo.after ops V (Proc.devRef .tc main_arg0) = V (Proc.devRef .tc main_arg0) :=
  keep_all V main_arg0 (by decide) (by decide) (by decide) (by decide) (by decide) (by decide) (by decide) (by decide) (by decide)

theorem kept_arg1 (V : Valuation τ sig (Elt F)) :
    StableHlo.after ops V (Proc.devRef .tc main_arg1) = V (Proc.devRef .tc main_arg1) :=
  keep_all V main_arg1 (by decide) (by decide) (by decide) (by decide) (by decide) (by decide) (by decide) (by decide) (by decide)

theorem kept_arg2 (V : Valuation τ sig (Elt F)) :
    StableHlo.after ops V (Proc.devRef .tc main_arg2) = V (Proc.devRef .tc main_arg2) :=
  keep_all V main_arg2 (by decide) (by decide) (by decide) (by decide) (by decide) (by decide) (by decide) (by decide) (by decide)

theorem kept_arg3 (V : Valuation τ sig (Elt F)) :
    StableHlo.after ops V (Proc.devRef .tc main_arg3) = V (Proc.devRef .tc main_arg3) :=
  keep_all V main_arg3 (by decide) (by decide) (by decide) (by decide) (by decide) (by decide) (by decide) (by decide) (by decide)

theorem kept_arg4 (V : Valuation τ sig (Elt F)) :
    StableHlo.after ops V (Proc.devRef .tc main_arg4) = V (Proc.devRef .tc main_arg4) :=
  keep_all V main_arg4 (by decide) (by decide) (by decide) (by decide) (by decide) (by decide) (by decide) (by decide) (by decide)

theorem kept_arg5 (V : Valuation τ sig (Elt F)) :
    StableHlo.after ops V (Proc.devRef .tc main_arg5) = V (Proc.devRef .tc main_arg5) :=
  keep_all V main_arg5 (by decide) (by decide) (by decide) (by decide) (by decide) (by decide) (by decide) (by decide) (by decide)

theorem kept_arg6 (V : Valuation τ sig (Elt F)) :
    StableHlo.after ops V (Proc.devRef .tc main_arg6) = V (Proc.devRef .tc main_arg6) :=
  keep_all V main_arg6 (by decide) (by decide) (by decide) (by decide) (by decide) (by decide) (by decide) (by decide) (by decide)

theorem kept_arg7 (V : Valuation τ sig (Elt F)) :
    StableHlo.after ops V (Proc.devRef .tc main_arg7) = V (Proc.devRef .tc main_arg7) :=
  keep_all V main_arg7 (by decide) (by decide) (by decide) (by decide) (by decide) (by decide) (by decide) (by decide) (by decide)

theorem kept_arg8 (V : Valuation τ sig (Elt F)) :
    StableHlo.after ops V (Proc.devRef .tc main_arg8) = V (Proc.devRef .tc main_arg8) :=
  keep_all V main_arg8 (by decide) (by decide) (by decide) (by decide) (by decide) (by decide) (by decide) (by decide) (by decide)

theorem kept_arg9 (V : Valuation τ sig (Elt F)) :
    StableHlo.after ops V (Proc.devRef .tc main_arg9) = V (Proc.devRef .tc main_arg9) :=
  keep_all V main_arg9 (by decide) (by decide) (by decide) (by decide) (by decide) (by decide) (by decide) (by decide) (by decide)

theorem kept_arg10 (V : Valuation τ sig (Elt F)) :
    StableHlo.after ops V (Proc.devRef .tc main_arg10) = V (Proc.devRef .tc main_arg10) :=
  keep_all V main_arg10 (by decide) (by decide) (by decide) (by decide) (by decide) (by decide) (by decide) (by decide) (by decide)

theorem kept_arg11 (V : Valuation τ sig (Elt F)) :
    StableHlo.after ops V (Proc.devRef .tc main_arg11) = V (Proc.devRef .tc main_arg11) :=
  keep_all V main_arg11 (by decide) (by decide) (by decide) (by decide) (by decide) (by decide) (by decide) (by decide) (by decide)

theorem kept_arg12 (V : Valuation τ sig (Elt F)) :
    StableHlo.after ops V (Proc.devRef .tc main_arg12) = V (Proc.devRef .tc main_arg12) :=
  keep_all V main_arg12 (by decide) (by decide) (by decide) (by decide) (by decide) (by decide) (by decide) (by decide) (by decide)

theorem kept_arg13 (V : Valuation τ sig (Elt F)) :
    StableHlo.after ops V (Proc.devRef .tc main_arg13) = V (Proc.devRef .tc main_arg13) :=
  keep_all V main_arg13 (by decide) (by decide) (by decide) (by decide) (by decide) (by decide) (by decide) (by decide) (by decide)

theorem kept_arg14 (V : Valuation τ sig (Elt F)) :
    StableHlo.after ops V (Proc.devRef .tc main_arg14) = V (Proc.devRef .tc main_arg14) :=
  keep_all V main_arg14 (by decide) (by decide) (by decide) (by decide) (by decide) (by decide) (by decide) (by decide) (by decide)

theorem kept_arg15 (V : Valuation τ sig (Elt F)) :
    StableHlo.after ops V (Proc.devRef .tc main_arg15) = V (Proc.devRef .tc main_arg15) :=
  keep_all V main_arg15 (by decide) (by decide) (by decide) (by decide) (by decide) (by decide) (by decide) (by decide) (by decide)

theorem kept_arg16 (V : Valuation τ sig (Elt F)) :
    StableHlo.after ops V (Proc.devRef .tc main_arg16) = V (Proc.devRef .tc main_arg16) :=
  keep_all V main_arg16 (by decide) (by decide) (by decide) (by decide) (by decide) (by decide) (by decide) (by decide) (by decide)

theorem kept_arg17 (V : Valuation τ sig (Elt F)) :
    StableHlo.after ops V (Proc.devRef .tc main_arg17) = V (Proc.devRef .tc main_arg17) :=
  keep_all V main_arg17 (by decide) (by decide) (by decide) (by decide) (by decide) (by decide) (by decide) (by decide) (by decide)

theorem kept_arg18 (V : Valuation τ sig (Elt F)) :
    StableHlo.after ops V (Proc.devRef .tc main_arg18) = V (Proc.devRef .tc main_arg18) :=
  keep_all V main_arg18 (by decide) (by decide) (by decide) (by decide) (by decide) (by decide) (by decide) (by decide) (by decide)

theorem kept_arg19 (V : Valuation τ sig (Elt F)) :
    StableHlo.after ops V (Proc.devRef .tc main_arg19) = V (Proc.devRef .tc main_arg19) :=
  keep_all V main_arg19 (by decide) (by decide) (by decide) (by decide) (by decide) (by decide) (by decide) (by decide) (by decide)

theorem kept_arg20 (V : Valuation τ sig (Elt F)) :
    StableHlo.after ops V (Proc.devRef .tc main_arg20) = V (Proc.devRef .tc main_arg20) :=
  keep_all V main_arg20 (by decide) (by decide) (by decide) (by decide) (by decide) (by decide) (by decide) (by decide) (by decide)

theorem kept_arg21 (V : Valuation τ sig (Elt F)) :
    StableHlo.after ops V (Proc.devRef .tc main_arg21) = V (Proc.devRef .tc main_arg21) :=
  keep_all V main_arg21 (by decide) (by decide) (by decide) (by decide) (by decide) (by decide) (by decide) (by decide) (by decide)

theorem kept_arg22 (V : Valuation τ sig (Elt F)) :
    StableHlo.after ops V (Proc.devRef .tc main_arg22) = V (Proc.devRef .tc main_arg22) :=
  keep_all V main_arg22 (by decide) (by decide) (by decide) (by decide) (by decide) (by decide) (by decide) (by decide) (by decide)

theorem kept_arg23 (V : Valuation τ sig (Elt F)) :
    StableHlo.after ops V (Proc.devRef .tc main_arg23) = V (Proc.devRef .tc main_arg23) :=
  keep_all V main_arg23 (by decide) (by decide) (by decide) (by decide) (by decide) (by decide) (by decide) (by decide) (by decide)

theorem kept_arg24 (V : Valuation τ sig (Elt F)) :
    StableHlo.after ops V (Proc.devRef .tc main_arg24) = V (Proc.devRef .tc main_arg24) :=
  keep_all V main_arg24 (by decide) (by decide) (by decide) (by decide) (by decide) (by decide) (by decide) (by decide) (by decide)

theorem kept_arg25 (V : Valuation τ sig (Elt F)) :
    StableHlo.after ops V (Proc.devRef .tc main_arg25) = V (Proc.devRef .tc main_arg25) :=
  keep_all V main_arg25 (by decide) (by decide) (by decide) (by decide) (by decide) (by decide) (by decide) (by decide) (by decide)

theorem kept_arg26 (V : Valuation τ sig (Elt F)) :
    StableHlo.after ops V (Proc.devRef .tc main_arg26) = V (Proc.devRef .tc main_arg26) :=
  keep_all V main_arg26 (by decide) (by decide) (by decide) (by decide) (by decide) (by decide) (by decide) (by decide) (by decide)

theorem kept_arg27 (V : Valuation τ sig (Elt F)) :
    StableHlo.after ops V (Proc.devRef .tc main_arg27) = V (Proc.devRef .tc main_arg27) :=
  keep_all V main_arg27 (by decide) (by decide) (by decide) (by decide) (by decide) (by decide) (by decide) (by decide) (by decide)

theorem kept_arg28 (V : Valuation τ sig (Elt F)) :
    StableHlo.after ops V (Proc.devRef .tc main_arg28) = V (Proc.devRef .tc main_arg28) :=
  keep_all V main_arg28 (by decide) (by decide) (by decide) (by decide) (by decide) (by decide) (by decide) (by decide) (by decide)

theorem kept_arg29 (V : Valuation τ sig (Elt F)) :
    StableHlo.after ops V (Proc.devRef .tc main_arg29) = V (Proc.devRef .tc main_arg29) :=
  keep_all V main_arg29 (by decide) (by decide) (by decide) (by decide) (by decide) (by decide) (by decide) (by decide) (by decide)

end Cert.ReferenceIdeal.RefRun

end
-- ==== Proof.RefCuts.lean ====
import proofs.«177129_j59004260712467_1_alg».proof.Proof.RefOps

/-! The reference program's operations again, the same line in the same order, cut where a stage of the network
    is complete: P the encoders and the node index; per layer k, Ak the copy-node branch up to its batch
    normalisation, Bk the mean over copies per original node, Ck the original-node branch up to its batch
    normalisation, Dk the gather back, the sum and the relu; E the two poolings and the final perceptron.
    Beside each stretch, the list of the references its operations write. -/

noncomputable section

namespace Cert.ReferenceIdeal.RefRun

open Cert.ReferenceIdeal Cert.ReferenceIdeal.Gen Idealize.ShloMosaic Idealize.SL.Sem

variable {F : FTy → Type} [FloatOps F]

/-- Stretch P: operations 0 … 27 of @main's line. -/
abbrev str_P : List (HloOp τ sig (Elt F)) :=
  [ StableHlo.binary main_arg0 main_arg3 main_v0 ((fun l r => Host.dotGeneral dot_S147456x16_S16x64_S147456x64_1_0_0_1_n_n none l r) : (⟨S147456x16, .f32⟩ : BufTy).Contents (Elt F) → (⟨S16x64, .f32⟩ : BufTy).Contents (Elt F) → (⟨S147456x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S147456x64 ![0, 1] bcast_S1x64_S147456x64_0_1 : (⟨S1x64, .f32⟩ : BufTy).Contents (Elt F) → (⟨S147456x64, .f32⟩ : BufTy).Contents (Elt F)),
    StableHlo.binary main_v0 main_v2 main_v3 (addf : (⟨S147456x64, .f32⟩ : BufTy).Contents (Elt F) → (⟨S147456x64, .f32⟩ : BufTy).Contents (Elt F) → (⟨S147456x64, .f32⟩ : BufTy).Contents (Elt F)),
    StableHlo.binary main_arg1 main_arg5 main_v4 ((fun l r => Host.dotGeneral dot_S884736x8_S8x64_S884736x64_1_0_0_1_n_n none l r) : (⟨S884736x8, .f32⟩ : BufTy).Contents (Elt F) → (⟨S8x64, .f32⟩ : BufTy).Contents (Elt F) → (⟨S884736x64, .f32⟩ : BufTy).Contents (Elt F)),
    StableHlo.unary main_arg6 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S884736x64 ![0, 1] bcast_S1x64_S884736x64_0_1 : (⟨S1x64, .f32⟩ : BufTy).Contents (Elt F) → (⟨S884736x64, .f32⟩ : BufTy).Contents (Elt F)),
    StableHlo.binary main_v4 main_v6 main_v7 (addf : (⟨S884736x64, .f32⟩ : BufTy).Contents (Elt F) → (⟨S884736x64, .f32⟩ : BufTy).Contents (Elt F) → (⟨S884736x64, .f32⟩ : BufTy).Contents (Elt F)),
    StableHlo.binary main_arg2 main_arg5 main_v8 ((fun l r => Host.dotGeneral dot_S18432x8_S8x64_S18432x64_1_0_0_1_n_n none l r) : (⟨S18432x8, .f32⟩ : BufTy).Contents (Elt F) → (⟨S8x64, .f32⟩ : BufTy).Contents (Elt F) → (⟨S18432x64, .f32⟩ : BufTy).Contents (Elt F)),
    StableHlo.unary main_arg6 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S18432x64 ![0, 1] bcast_S1x64_S18432x64_0_1 : (⟨S1x64, .f32⟩ : BufTy).Contents (Elt F) → (⟨S18432x64, .f32⟩ : BufTy).Contents (Elt F)),
    StableHlo.binary main_v8 main_v10 main_v11 (addf : (⟨S18432x64, .f32⟩ : BufTy).Contents (Elt F) → (⟨S18432x64, .f32⟩ : BufTy).Contents (Elt F) → (⟨S18432x64, .f32⟩ : BufTy).Contents (Elt F)),
    StableHlo.nullary main_c (constantI S_ 32 0#32),
    StableHlo.unary main_c main_v12 (broadcastInDim S1 ![] bcast_S_S1 : (⟨S_, .i32⟩ : BufTy).Contents (Elt F) → (⟨S1, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (.of main_arg27 : StableHlo.TRef sig ⟨S64, .i32⟩) main_call0.call0.v0 main_call0.call0.v1 (fun x v => Host.reduceWindow IntOp.addi ![64] ![1] ![63] ![0] x v reduceWindows_S64_S64_w64s1p63_0 h_S_),
    StableHlo.binary main_v12 main_v13 main_v14 ((fun a b => concatenate S65 0 [⟨S1, a⟩, ⟨S64, b⟩] concatenates_S1_S64_S65_d0) : (⟨S1, .i32⟩ : BufTy).Contents (Elt F) → (⟨S64, .i32⟩ : BufTy).Contents (Elt F) → (⟨S65, .i32⟩ : BufTy).Contents (Elt F)),
    StableHlo.nullary main_c_0 (constantI S_ 32 0#32),
    StableHlo.unary main_c_0 main_v15 (broadcastInDim S147456 ![] bcast_S_S147456 : (⟨S_, .i32⟩ : BufTy).Contents (Elt F) → (⟨S147456, .i32⟩ : BufTy).Contents (Elt F)),
    StableHlo.binary main_arg25 main_v15 main_v16 (cmpi .slt : (⟨S147456, .i32⟩ : BufTy).Contents (Elt F) → (⟨S147456, .i32⟩ : BufTy).Contents (Elt F) → (⟨S147456, .i1⟩ : BufTy).Contents (Elt F)),
    StableHlo.nullary main_c_1 (constantI S_ 32 65#32),
    StableHlo.unary main_c_1 main_v17 (broadcastInDim S147456 ![] bcast_S_S147456 : (⟨S_, .i32⟩ : BufTy).Contents (Elt F) → (⟨S147456, .i32⟩ : BufTy).Contents (Elt F)),
    StableHlo.binary main_arg25 main_v17 main_v18 (addi : (⟨S147456, .i32⟩ : BufTy).Contents (Elt F) → (⟨S147456, .i32⟩ : BufTy).Contents (Elt F) → (⟨S147456, .i32⟩ : BufTy).Contents (Elt F)),
    StableHlo.ternary main_v16 main_v18 main_arg25 main_v19 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v19 main_v20 (broadcastInDim S147456x1 ![0] bcast_S147456_S147456x1_0 : (⟨S147456, .i32⟩ : BufTy).Contents (Elt F) → (⟨S147456x1, .i32⟩ : BufTy).Contents (Elt F)),
    StableHlo.binary main_v14 main_v20 main_v21 ((fun x i => Host.gather gather_S65_S147456x1_S147456_n_0_n_n_0_1_1 x i) : (⟨S65, .i32⟩ : BufTy).Contents (Elt F) → (⟨S147456x1, .i32⟩ : BufTy).Contents (Elt F) → (⟨S147456, .i32⟩ : BufTy).Contents (Elt F)),
    StableHlo.binary main_v21 main_arg26 main_v22 (addi : (⟨S147456, .i32⟩ : BufTy).Contents (Elt F) → (⟨S147456, .i32⟩ : BufTy).Contents (Elt F) → (⟨S147456, .i32⟩ : BufTy).Contents (Elt F)) ]

/-- The references stretch P's operations write, in order. -/
abbrev str_P_W : List (Ref sig .tc) :=
  [main_v0, main_v1, main_v2, main_v3, main_v4, main_v5, main_v6, main_v7, main_v8, main_v9, main_v10, main_v11, main_c, main_v12, main_call0_call0_c, main_call0_call0_v0, main_v13, main_v14, main_c_0, main_v15, main_v16, main_c_1, main_v17, main_v18, main_v19, main_v20, main_v21, main_v22]

/-- Stretch A0: operations 28 … 116 of @main's line. -/
abbrev str_A0 : List (HloOp τ sig (Elt F)) :=
  [ StableHlo.unary main_arg7 main_v23 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v23 main_v24 rfl shapeCasts_S1x64x128_S64x128,
    StableHlo.unary main_arg8 main_v25 ((extractStridedSlice S1x128 ![0, 0] · slices_S3x128_S1x128_0_0) : (⟨S3x128, .f32⟩ : BufTy).Contents (Elt F) → (⟨S1x128, .f32⟩ : BufTy).Contents (Elt F)),
    StableHlo.reshape main_v25 main_v26 rfl shapeCasts_S1x128_S128,
    StableHlo.unary main_arg9 main_v27 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v27 main_v28 rfl shapeCasts_S1x128x64_S128x64,
    StableHlo.unary main_arg10 main_v29 ((extractStridedSlice S1x64 ![0, 0] · slices_S3x64_S1x64_0_0) : (⟨S3x64, .f32⟩ : BufTy).Contents (Elt F) → (⟨S1x64, .f32⟩ : BufTy).Contents (Elt F)),
    StableHlo.reshape main_v29 main_v30 rfl shapeCasts_S1x64_S64,
    StableHlo.unary main_arg23 main_v31 ((extractStridedSlice S1x884736 ![0, 0] · slices_S2x884736_S1x884736_0_0) : (⟨S2x884736, .i32⟩ : BufTy).Contents (Elt F) → (⟨S1x884736, .i32⟩ : BufTy).Contents (Elt F)),
    StableHlo.reshape main_v31 main_v32 rfl shapeCasts_S1x884736_S884736,
    StableHlo.nullary main_c_2 (constantI S_ 32 0#32),
    StableHlo.unary main_c_2 main_v33 (broadcastInDim S884736 ![] bcast_S_S884736 : (⟨S_, .i32⟩ : BufTy).Contents (Elt F) → (⟨S884736, .i32⟩ : BufTy).Contents (Elt F)),
    StableHlo.binary main_v32 main_v33 main_v34 (cmpi .slt : (⟨S884736, .i32⟩ : BufTy).Contents (Elt F) → (⟨S884736, .i32⟩ : BufTy).Contents (Elt F) → (⟨S884736, .i1⟩ : BufTy).Contents (Elt F)),
    StableHlo.nullary main_c_3 (constantI S_ 32 147456#32),
    StableHlo.unary main_c_3 main_v35 (broadcastInDim S884736 ![] bcast_S_S884736 : (⟨S_, .i32⟩ : BufTy).Contents (Elt F) → (⟨S884736, .i32⟩ : BufTy).Contents (Elt F)),
    StableHlo.binary main_v32 main_v35 main_v36 (addi : (⟨S884736, .i32⟩ : BufTy).Contents (Elt F) → (⟨S884736, .i32⟩ : BufTy).Contents (Elt F) → (⟨S884736, .i32⟩ : BufTy).Contents (Elt F)),
    StableHlo.ternary main_v34 main_v36 main_v32 main_v37 (select : (⟨S884736, .i1⟩ : BufTy).Contents (Elt F) → (⟨S884736, .i32⟩ : BufTy).Contents (Elt F) → (⟨S884736, .i32⟩ : BufTy).Contents (Elt F) → (⟨S884736, .i32⟩ : BufTy).Contents (Elt F)),
    StableHlo.unary main_v37 main_v38 (broadcastInDim S884736x1 ![0] bcast_S884736_S884736x1_0 : (⟨S884736, .i32⟩ : BufTy).Contents (Elt F) → (⟨S884736x1, .i32⟩ : BufTy).Contents (Elt F)),
    StableHlo.binary main_v3 main_v38 main_v39 ((fun x i => Host.gather gather_S147456x64_S884736x1_S884736x64_1_0_n_n_0_1_164 x i) : (⟨S147456x64, .f32⟩ : BufTy).Contents (Elt F) → (⟨S884736x1, .i32⟩ : BufTy).Contents (Elt F) → (⟨S884736x64, .f32⟩ : BufTy).Contents (Elt F)),
    StableHlo.binary main_v39 main_v7 main_v40 (addf : (⟨S884736x64, .f32⟩ : BufTy).Contents (Elt F) → (⟨S884736x64, .f32⟩ : BufTy).Contents (Elt F) → (⟨S884736x64, .f32⟩ : BufTy).Contents (Elt F)),
    StableHlo.TRef.nullary main_call1.cst (constant S_ .f32 0x00000000#32),
    StableHlo.TRef.unary main_call1.cst main_call1.v0 (broadcastInDim S884736x64 ![] bcast_S_S884736x64),
    StableHlo.TRef.binary (.of main_v40 : StableHlo.TRef sig ⟨S884736x64, .f32⟩) main_call1.v0 main_call1.v1 maximumf,
    StableHlo.unary main_arg23 main_v42 ((extractStridedSlice S1x884736 ![1, 0] · slices_S2x884736_S1x884736_1_0) : (⟨S2x884736, .i32⟩ : BufTy).Contents (Elt F) → (⟨S1x884736, .i32⟩ : BufTy).Contents (Elt F)),
    StableHlo.reshape main_v42 main_v43 rfl shapeCasts_S1x884736_S884736,
    StableHlo.nullary main_cst (constant S_ .f32 0x00000000#32),
    StableHlo.unary main_cst main_v44 (broadcastInDim S147456x64 ![] bcast_S_S147456x64 : (⟨S_, .f32⟩ : BufTy).Contents (Elt F) → (⟨S147456x64, .f32⟩ : BufTy).Contents (Elt F)),
    StableHlo.unary main_v43 main_v45 (broadcastInDim S884736x1 ![0] bcast_S884736_S884736x1_0 : (⟨S884736, .i32⟩ : BufTy).Contents (Elt F) → (⟨S884736x1, .i32⟩ : BufTy).Contents (Elt F)),
    StableHlo.ternary main_v44 main_v45 main_v41 main_v46 ((fun x i u => Host.scatterAdd scatter_S147456x64_S884736x1_S884736x64_1_0_0_1 x i u) : (⟨S147456x64, .f32⟩ : BufTy).Contents (Elt F) → (⟨S884736x1, .i32⟩ : BufTy).Contents (Elt F) → (⟨S884736x64, .f32⟩ : BufTy).Contents (Elt F) → (⟨S147456x64, .f32⟩ : BufTy).Contents (Elt F)),
    StableHlo.binary main_v3 main_v46 main_v47 (addf : (⟨S147456x64, .f32⟩ : BufTy).Contents (Elt F) → (⟨S147456x64, .f32⟩ : BufTy).Contents (Elt F) → (⟨S147456x64, .f32⟩ : BufTy).Contents (Elt F)),
    StableHlo.binary main_v47 main_v24 main_v48 ((fun l r => Host.dotGeneral dot_S147456x64_S64x128_S147456x128_1_0_0_1_n_n none l r) : (⟨S147456x64, .f32⟩ : BufTy).Contents (Elt F) → (⟨S64x128, .f32⟩ : BufTy).Contents (Elt F) → (⟨S147456x128, .f32⟩ : BufTy).Contents (Elt F)),
    StableHlo.unary main_v26 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S147456x128 ![0, 1] bcast_S1x128_S147456x128_0_1 : (⟨S1x128, .f32⟩ : BufTy).Contents (Elt F) → (⟨S147456x128, .f32⟩ : BufTy).Contents (Elt F)),
    StableHlo.binary main_v48 main_v50 main_v51 (addf : (⟨S147456x128, .f32⟩ : BufTy).Contents (Elt F) → (⟨S147456x128, .f32⟩ : BufTy).Contents (Elt F) → (⟨S147456x128, .f32⟩ : BufTy).Contents (Elt F)),
    StableHlo.TRef.nullary main_call2.cst (constant S_ .f32 0x00000000#32),
    StableHlo.TRef.unary main_call2.cst main_call2.v0 (broadcastInDim S147456x128 ![] bcast_S_S147456x128),
    StableHlo.TRef.binary (.of main_v51 : StableHlo.TRef sig ⟨S147456x128, .f32⟩) main_call2.v0 main_call2.v1 maximumf,
    StableHlo.binary main_v52 main_v28 main_v53 ((fun l r => Host.dotGeneral dot_S147456x128_S128x64_S147456x64_1_0_0_1_n_n none l r) : (⟨S147456x128, .f32⟩ : BufTy).Contents (Elt F) → (⟨S128x64, .f32⟩ : BufTy).Contents (Elt F) → (⟨S147456x64, .f32⟩ : BufTy).Contents (Elt F)),
    StableHlo.unary main_v30 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S147456x64 ![0, 1] bcast_S1x64_S147456x64_0_1 : (⟨S1x64, .f32⟩ : BufTy).Contents (Elt F) → (⟨S147456x64, .f32⟩ : BufTy).Contents (Elt F)),
    StableHlo.binary main_v53 main_v55 main_v56 (addf : (⟨S147456x64, .f32⟩ : BufTy).Contents (Elt F) → (⟨S147456x64, .f32⟩ : BufTy).Contents (Elt F) → (⟨S147456x64, .f32⟩ : BufTy).Contents (Elt F)),
    StableHlo.unary main_arg11 main_v57 ((extractStridedSlice S1x64 ![0, 0] · slices_S3x64_S1x64_0_0) : (⟨S3x64, .f32⟩ : BufTy).Contents (Elt F) → (⟨S1x64, .f32⟩ : BufTy).Contents (Elt F)),
    StableHlo.reshape main_v57 main_v58 rfl shapeCasts_S1x64_S64,
    StableHlo.unary main_arg12 main_v59 ((extractStridedSlice S1x64 ![0, 0] · slices_S3x64_S1x64_0_0) : (⟨S3x64, .f32⟩ : BufTy).Contents (Elt F) → (⟨S1x64, .f32⟩ : BufTy).Contents (Elt F)),
    StableHlo.reshape main_v59 main_v60 rfl shapeCasts_S1x64_S64,
    StableHlo.nullary main_cst_4 (constant S_ .f32 0x00000000#32),
    StableHlo.binary main_v56 main_cst_4 main_v61 ((fun x v => Host.reduceAdd x v reducesTo_S147456x64_S64_d0 h_S_) : (⟨S147456x64, .f32⟩ : BufTy).Contents (Elt F) → (⟨S_, .f32⟩ : BufTy).Contents (Elt F) → (⟨S64, .f32⟩ : BufTy).Contents (Elt F)),
    StableHlo.nullary main_cst_5 (constant S_ .f32 0x48100000#32),
    StableHlo.unary main_cst_5 main_v62 (broadcastInDim S64 ![] bcast_S_S64 : (⟨S_, .f32⟩ : BufTy).Contents (Elt F) → (⟨S64, .f32⟩ : BufTy).Contents (Elt F)),
    StableHlo.binary main_v61 main_v62 main_v63 (Host.divf : (⟨S64, .f32⟩ : BufTy).Contents (Elt F) → (⟨S64, .f32⟩ : BufTy).Contents (Elt F) → (⟨S64, .f32⟩ : BufTy).Contents (Elt F)),
    StableHlo.nullary main_c_6 (constantI S_ 32 0#32),
    StableHlo.TRef.nullary main_call3.cst (constant S_ .f32 0x00000000#32),
    StableHlo.TRef.binary (.of main_v56 : StableHlo.TRef sig ⟨S147456x64, .f32⟩) main_call3.cst main_call3.v0 (fun x v => Host.reduceAdd x v reducesTo_S147456x64_S64_d0 h_S_),
    StableHlo.TRef.unary main_call3.v0 main_call3.v1 (broadcastInDim S1x64 ![1] bcast_S64_S1x64_1),
    StableHlo.TRef.nullary main_call3.cst_0 (constant S_ .f32 0x48100000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S147456x64 ![0, 1] bcast_S1x64_S147456x64_0_1),
    StableHlo.TRef.binary (.of main_v56 : StableHlo.TRef sig ⟨S147456x64, .f32⟩) main_call3.v4 main_call3.v5 subf,
    StableHlo.TRef.binary main_call3.v5 main_call3.v5 main_call3.v6 mulf,
    StableHlo.TRef.unary (.of main_c_6 : StableHlo.TRef sig ⟨S_, .i32⟩) main_call3.v7 (sitofp .f32),
    StableHlo.TRef.nullary main_call3.cst_1 (constant S_ .f32 0x48100000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S147456x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v63 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S147456x64 ![0, 1] bcast_S1x64_S147456x64_0_1 : (⟨S1x64, .f32⟩ : BufTy).Contents (Elt F) → (⟨S147456x64, .f32⟩ : BufTy).Contents (Elt F)),
    StableHlo.binary main_v56 main_v66 main_v67 (subf : (⟨S147456x64, .f32⟩ : BufTy).Contents (Elt F) → (⟨S147456x64, .f32⟩ : BufTy).Contents (Elt F) → (⟨S147456x64, .f32⟩ : BufTy).Contents (Elt F)),
    StableHlo.nullary main_cst_7 (constant S_ .f32 0x3727C5AC#32),
    StableHlo.unary main_cst_7 main_v68 (broadcastInDim S64 ![] bcast_S_S64 : (⟨S_, .f32⟩ : BufTy).Contents (Elt F) → (⟨S64, .f32⟩ : BufTy).Contents (Elt F)),
    StableHlo.binary main_v64 main_v68 main_v69 (addf : (⟨S64, .f32⟩ : BufTy).Contents (Elt F) → (⟨S64, .f32⟩ : BufTy).Contents (Elt F) → (⟨S64, .f32⟩ : BufTy).Contents (Elt F)),
    StableHlo.unary main_v69 main_v70 (Host.rsqrt : (⟨S64, .f32⟩ : BufTy).Contents (Elt F) → (⟨S64, .f32⟩ : BufTy).Contents (Elt F)),
    StableHlo.unary main_v70 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S147456x64 ![0, 1] bcast_S1x64_S147456x64_0_1 : (⟨S1x64, .f32⟩ : BufTy).Contents (Elt F) → (⟨S147456x64, .f32⟩ : BufTy).Contents (Elt F)),
    StableHlo.binary main_v67 main_v72 main_v73 (mulf : (⟨S147456x64, .f32⟩ : BufTy).Contents (Elt F) → (⟨S147456x64, .f32⟩ : BufTy).Contents (Elt F) → (⟨S147456x64, .f32⟩ : BufTy).Contents (Elt F)),
    StableHlo.unary main_v58 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S147456x64 ![0, 1] bcast_S1x64_S147456x64_0_1 : (⟨S1x64, .f32⟩ : BufTy).Contents (Elt F) → (⟨S147456x64, .f32⟩ : BufTy).Contents (Elt F)),
    StableHlo.binary main_v73 main_v75 main_v76 (mulf : (⟨S147456x64, .f32⟩ : BufTy).Contents (Elt F) → (⟨S147456x64, .f32⟩ : BufTy).Contents (Elt F) → (⟨S147456x64, .f32⟩ : BufTy).Contents (Elt F)),
    StableHlo.unary main_v60 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S147456x64 ![0, 1] bcast_S1x64_S147456x64_0_1 : (⟨S1x64, .f32⟩ : BufTy).Contents (Elt F) → (⟨S147456x64, .f32⟩ : BufTy).Contents (Elt F)),
    StableHlo.binary main_v76 main_v78 main_v79 (addf : (⟨S147456x64, .f32⟩ : BufTy).Contents (Elt F) → (⟨S147456x64, .f32⟩ : BufTy).Contents (Elt F) → (⟨S147456x64, .f32⟩ : BufTy).Contents (Elt F)) ]

/-- The references stretch A0's operations write, in order. -/
abbrev str_A0_W : List (Ref sig .tc) :=
  [main_v23, main_v24, main_v25, main_v26, main_v27, main_v28, main_v29, main_v30, main_v31, main_v32, main_c_2, main_v33, main_v34, main_c_3, main_v35, main_v36, main_v37, main_v38, main_v39, main_v40, main_call1_cst, main_call1_v0, main_v41, main_v42, main_v43, main_cst, main_v44, main_v45, main_v46, main_v47, main_v48, main_v49, main_v50, main_v51, main_call2_cst, main_call2_v0, main_v52, main_v53, main_v54, main_v55, main_v56, main_v57, main_v58, main_v59, main_v60, main_cst_4, main_v61, main_cst_5, main_v62, main_v63, main_c_6, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v64, main_v65, main_v66, main_v67, main_cst_7, main_v68, main_v69, main_v70, main_v71, main_v72, main_v73, main_v74, main_v75, main_v76, main_v77, main_v78, main_v79]

/-- Stretch B0: operations 117 … 132 of @main's line. -/
abbrev str_B0 : List (HloOp τ sig (Elt F)) :=
  [ StableHlo.nullary main_cst_8 (constant S_ .f32 0x3F800000#32),
    StableHlo.unary main_cst_8 main_v80 (broadcastInDim S147456 ![] bcast_S_S147456 : (⟨S_, .f32⟩ : BufTy).Contents (Elt F) → (⟨S147456, .f32⟩ : BufTy).Contents (Elt F)),
    StableHlo.nullary main_cst_9 (constant S_ .f32 0x00000000#32),
    StableHlo.unary main_cst_9 main_v81 (broadcastInDim S3072 ![] bcast_S_S3072 : (⟨S_, .f32⟩ : BufTy).Contents (Elt F) → (⟨S3072, .f32⟩ : BufTy).Contents (Elt F)),
    StableHlo.unary main_v22 main_v82 (broadcastInDim S147456x1 ![0] bcast_S147456_S147456x1_0 : (⟨S147456, .i32⟩ : BufTy).Contents (Elt F) → (⟨S147456x1, .i32⟩ : BufTy).Contents (Elt F)),
    StableHlo.ternary main_v81 main_v82 main_v80 main_v83 ((fun x i u => Host.scatterAdd scatter_S3072_S147456x1_S147456_n_0_0_1 x i u) : (⟨S3072, .f32⟩ : BufTy).Contents (Elt F) → (⟨S147456x1, .i32⟩ : BufTy).Contents (Elt F) → (⟨S147456, .f32⟩ : BufTy).Contents (Elt F) → (⟨S3072, .f32⟩ : BufTy).Contents (Elt F)),
    StableHlo.nullary main_cst_10 (constant S_ .f32 0x3F800000#32),
    StableHlo.unary main_cst_10 main_v84 (broadcastInDim S3072 ![] bcast_S_S3072 : (⟨S_, .f32⟩ : BufTy).Contents (Elt F) → (⟨S3072, .f32⟩ : BufTy).Contents (Elt F)),
    StableHlo.binary main_v83 main_v84 main_v85 (maximumf : (⟨S3072, .f32⟩ : BufTy).Contents (Elt F) → (⟨S3072, .f32⟩ : BufTy).Contents (Elt F) → (⟨S3072, .f32⟩ : BufTy).Contents (Elt F)),
    StableHlo.nullary main_cst_11 (constant S_ .f32 0x00000000#32),
    StableHlo.unary main_cst_11 main_v86 (broadcastInDim S3072x64 ![] bcast_S_S3072x64 : (⟨S_, .f32⟩ : BufTy).Contents (Elt F) → (⟨S3072x64, .f32⟩ : BufTy).Contents (Elt F)),
    StableHlo.unary main_v22 main_v87 (broadcastInDim S147456x1 ![0] bcast_S147456_S147456x1_0 : (⟨S147456, .i32⟩ : BufTy).Contents (Elt F) → (⟨S147456x1, .i32⟩ : BufTy).Contents (Elt F)),
    StableHlo.ternary main_v86 main_v87 main_v3 main_v88 ((fun x i u => Host.scatterAdd scatter_S3072x64_S147456x1_S147456x64_1_0_0_1 x i u) : (⟨S3072x64, .f32⟩ : BufTy).Contents (Elt F) → (⟨S147456x1, .i32⟩ : BufTy).Contents (Elt F) → (⟨S147456x64, .f32⟩ : BufTy).Contents (Elt F) → (⟨S3072x64, .f32⟩ : BufTy).Contents (Elt F)),
    StableHlo.unary main_v85 main_v89 (broadcastInDim S3072x1 ![0] bcast_S3072_S3072x1_0 : (⟨S3072, .f32⟩ : BufTy).Contents (Elt F) → (⟨S3072x1, .f32⟩ : BufTy).Contents (Elt F)),
    StableHlo.unary main_v89 main_v90 (broadcastInDim S3072x64 ![0, 1] bcast_S3072x1_S3072x64_0_1 : (⟨S3072x1, .f32⟩ : BufTy).Contents (Elt F) → (⟨S3072x64, .f32⟩ : BufTy).Contents (Elt F)),
    StableHlo.binary main_v88 main_v90 main_v91 (Host.divf : (⟨S3072x64, .f32⟩ : BufTy).Contents (Elt F) → (⟨S3072x64, .f32⟩ : BufTy).Contents (Elt F) → (⟨S3072x64, .f32⟩ : BufTy).Contents (Elt F)) ]

/-- The references stretch B0's operations write, in order. -/
abbrev str_B0_W : List (Ref sig .tc) :=
  [main_cst_8, main_v80, main_cst_9, main_v81, main_v82, main_v83, main_cst_10, main_v84, main_v85, main_cst_11, main_v86, main_v87, main_v88, main_v89, main_v90, main_v91]

/-- Stretch C0: operations 133 … 221 of @main's line. -/
abbrev str_C0 : List (HloOp τ sig (Elt F)) :=
  [ StableHlo.unary main_arg13 main_v92 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v92 main_v93 rfl shapeCasts_S1x64x128_S64x128,
    StableHlo.unary main_arg14 main_v94 ((extractStridedSlice S1x128 ![0, 0] · slices_S3x128_S1x128_0_0) : (⟨S3x128, .f32⟩ : BufTy).Contents (Elt F) → (⟨S1x128, .f32⟩ : BufTy).Contents (Elt F)),
    StableHlo.reshape main_v94 main_v95 rfl shapeCasts_S1x128_S128,
    StableHlo.unary main_arg15 main_v96 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v96 main_v97 rfl shapeCasts_S1x128x64_S128x64,
    StableHlo.unary main_arg16 main_v98 ((extractStridedSlice S1x64 ![0, 0] · slices_S3x64_S1x64_0_0) : (⟨S3x64, .f32⟩ : BufTy).Contents (Elt F) → (⟨S1x64, .f32⟩ : BufTy).Contents (Elt F)),
    StableHlo.reshape main_v98 main_v99 rfl shapeCasts_S1x64_S64,
    StableHlo.unary main_arg24 main_v100 ((extractStridedSlice S1x18432 ![0, 0] · slices_S2x18432_S1x18432_0_0) : (⟨S2x18432, .i32⟩ : BufTy).Contents (Elt F) → (⟨S1x18432, .i32⟩ : BufTy).Contents (Elt F)),
    StableHlo.reshape main_v100 main_v101 rfl shapeCasts_S1x18432_S18432,
    StableHlo.nullary main_c_12 (constantI S_ 32 0#32),
    StableHlo.unary main_c_12 main_v102 (broadcastInDim S18432 ![] bcast_S_S18432 : (⟨S_, .i32⟩ : BufTy).Contents (Elt F) → (⟨S18432, .i32⟩ : BufTy).Contents (Elt F)),
    StableHlo.binary main_v101 main_v102 main_v103 (cmpi .slt : (⟨S18432, .i32⟩ : BufTy).Contents (Elt F) → (⟨S18432, .i32⟩ : BufTy).Contents (Elt F) → (⟨S18432, .i1⟩ : BufTy).Contents (Elt F)),
    StableHlo.nullary main_c_13 (constantI S_ 32 3072#32),
    StableHlo.unary main_c_13 main_v104 (broadcastInDim S18432 ![] bcast_S_S18432 : (⟨S_, .i32⟩ : BufTy).Contents (Elt F) → (⟨S18432, .i32⟩ : BufTy).Contents (Elt F)),
    StableHlo.binary main_v101 main_v104 main_v105 (addi : (⟨S18432, .i32⟩ : BufTy).Contents (Elt F) → (⟨S18432, .i32⟩ : BufTy).Contents (Elt F) → (⟨S18432, .i32⟩ : BufTy).Contents (Elt F)),
    StableHlo.ternary main_v103 main_v105 main_v101 main_v106 (select : (⟨S18432, .i1⟩ : BufTy).Contents (Elt F) → (⟨S18432, .i32⟩ : BufTy).Contents (Elt F) → (⟨S18432, .i32⟩ : BufTy).Contents (Elt F) → (⟨S18432, .i32⟩ : BufTy).Contents (Elt F)),
    StableHlo.unary main_v106 main_v107 (broadcastInDim S18432x1 ![0] bcast_S18432_S18432x1_0 : (⟨S18432, .i32⟩ : BufTy).Contents (Elt F) → (⟨S18432x1, .i32⟩ : BufTy).Contents (Elt F)),
    StableHlo.binary main_v91 main_v107 main_v108 ((fun x i => Host.gather gather_S3072x64_S18432x1_S18432x64_1_0_n_n_0_1_164 x i) : (⟨S3072x64, .f32⟩ : BufTy).Contents (Elt F) → (⟨S18432x1, .i32⟩ : BufTy).Contents (Elt F) → (⟨S18432x64, .f32⟩ : BufTy).Contents (Elt F)),
    StableHlo.binary main_v108 main_v11 main_v109 (addf : (⟨S18432x64, .f32⟩ : BufTy).Contents (Elt F) → (⟨S18432x64, .f32⟩ : BufTy).Contents (Elt F) → (⟨S18432x64, .f32⟩ : BufTy).Contents (Elt F)),
    StableHlo.TRef.nullary main_call4.cst (constant S_ .f32 0x00000000#32),
    StableHlo.TRef.unary main_call4.cst main_call4.v0 (broadcastInDim S18432x64 ![] bcast_S_S18432x64),
    StableHlo.TRef.binary (.of main_v109 : StableHlo.TRef sig ⟨S18432x64, .f32⟩) main_call4.v0 main_call4.v1 maximumf,
    StableHlo.unary main_arg24 main_v111 ((extractStridedSlice S1x18432 ![1, 0] · slices_S2x18432_S1x18432_1_0) : (⟨S2x18432, .i32⟩ : BufTy).Contents (Elt F) → (⟨S1x18432, .i32⟩ : BufTy).Contents (Elt F)),
    StableHlo.reshape main_v111 main_v112 rfl shapeCasts_S1x18432_S18432,
    StableHlo.nullary main_cst_14 (constant S_ .f32 0x00000000#32),
    StableHlo.unary main_cst_14 main_v113 (broadcastInDim S3072x64 ![] bcast_S_S3072x64 : (⟨S_, .f32⟩ : BufTy).Contents (Elt F) → (⟨S3072x64, .f32⟩ : BufTy).Contents (Elt F)),
    StableHlo.unary main_v112 main_v114 (broadcastInDim S18432x1 ![0] bcast_S18432_S18432x1_0 : (⟨S18432, .i32⟩ : BufTy).Contents (Elt F) → (⟨S18432x1, .i32⟩ : BufTy).Contents (Elt F)),
    StableHlo.ternary main_v113 main_v114 main_v110 main_v115 ((fun x i u => Host.scatterAdd scatter_S3072x64_S18432x1_S18432x64_1_0_0_1 x i u) : (⟨S3072x64, .f32⟩ : BufTy).Contents (Elt F) → (⟨S18432x1, .i32⟩ : BufTy).Contents (Elt F) → (⟨S18432x64, .f32⟩ : BufTy).Contents (Elt F) → (⟨S3072x64, .f32⟩ : BufTy).Contents (Elt F)),
    StableHlo.binary main_v91 main_v115 main_v116 (addf : (⟨S3072x64, .f32⟩ : BufTy).Contents (Elt F) → (⟨S3072x64, .f32⟩ : BufTy).Contents (Elt F) → (⟨S3072x64, .f32⟩ : BufTy).Contents (Elt F)),
    StableHlo.binary main_v116 main_v93 main_v117 ((fun l r => Host.dotGeneral dot_S3072x64_S64x128_S3072x128_1_0_0_1_n_n none l r) : (⟨S3072x64, .f32⟩ : BufTy).Contents (Elt F) → (⟨S64x128, .f32⟩ : BufTy).Contents (Elt F) → (⟨S3072x128, .f32⟩ : BufTy).Contents (Elt F)),
    StableHlo.unary main_v95 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S3072x128 ![0, 1] bcast_S1x128_S3072x128_0_1 : (⟨S1x128, .f32⟩ : BufTy).Contents (Elt F) → (⟨S3072x128, .f32⟩ : BufTy).Contents (Elt F)),
    StableHlo.binary main_v117 main_v119 main_v120 (addf : (⟨S3072x128, .f32⟩ : BufTy).Contents (Elt F) → (⟨S3072x128, .f32⟩ : BufTy).Contents (Elt F) → (⟨S3072x128, .f32⟩ : BufTy).Contents (Elt F)),
    StableHlo.TRef.nullary main_call5.cst (constant S_ .f32 0x00000000#32),
    StableHlo.TRef.unary main_call5.cst main_call5.v0 (broadcastInDim S3072x128 ![] bcast_S_S3072x128),
    StableHlo.TRef.binary (.of main_v120 : StableHlo.TRef sig ⟨S3072x128, .f32⟩) main_call5.v0 main_call5.v1 maximumf,
    StableHlo.binary main_v121 main_v97 main_v122 ((fun l r => Host.dotGeneral dot_S3072x128_S128x64_S3072x64_1_0_0_1_n_n none l r) : (⟨S3072x128, .f32⟩ : BufTy).Contents (Elt F) → (⟨S128x64, .f32⟩ : BufTy).Contents (Elt F) → (⟨S3072x64, .f32⟩ : BufTy).Contents (Elt F)),
    StableHlo.unary main_v99 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S3072x64 ![0, 1] bcast_S1x64_S3072x64_0_1 : (⟨S1x64, .f32⟩ : BufTy).Contents (Elt F) → (⟨S3072x64, .f32⟩ : BufTy).Contents (Elt F)),
    StableHlo.binary main_v122 main_v124 main_v125 (addf : (⟨S3072x64, .f32⟩ : BufTy).Contents (Elt F) → (⟨S3072x64, .f32⟩ : BufTy).Contents (Elt F) → (⟨S3072x64, .f32⟩ : BufTy).Contents (Elt F)),
    StableHlo.unary main_arg17 main_v126 ((extractStridedSlice S1x64 ![0, 0] · slices_S3x64_S1x64_0_0) : (⟨S3x64, .f32⟩ : BufTy).Contents (Elt F) → (⟨S1x64, .f32⟩ : BufTy).Contents (Elt F)),
    StableHlo.reshape main_v126 main_v127 rfl shapeCasts_S1x64_S64,
    StableHlo.unary main_arg18 main_v128 ((extractStridedSlice S1x64 ![0, 0] · slices_S3x64_S1x64_0_0) : (⟨S3x64, .f32⟩ : BufTy).Contents (Elt F) → (⟨S1x64, .f32⟩ : BufTy).Contents (Elt F)),
    StableHlo.reshape main_v128 main_v129 rfl shapeCasts_S1x64_S64,
    StableHlo.nullary main_cst_15 (constant S_ .f32 0x00000000#32),
    StableHlo.binary main_v125 main_cst_15 main_v130 ((fun x v => Host.reduceAdd x v reducesTo_S3072x64_S64_d0 h_S_) : (⟨S3072x64, .f32⟩ : BufTy).Contents (Elt F) → (⟨S_, .f32⟩ : BufTy).Contents (Elt F) → (⟨S64, .f32⟩ : BufTy).Contents (Elt F)),
    StableHlo.nullary main_cst_16 (constant S_ .f32 0x45400000#32),
    StableHlo.unary main_cst_16 main_v131 (broadcastInDim S64 ![] bcast_S_S64 : (⟨S_, .f32⟩ : BufTy).Contents (Elt F) → (⟨S64, .f32⟩ : BufTy).Contents (Elt F)),
    StableHlo.binary main_v130 main_v131 main_v132 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call6.cst (constant S_ .f32 0x00000000#32),
    StableHlo.TRef.binary (.of main_v125 : StableHlo.TRef sig ⟨S3072x64, .f32⟩) main_call6.cst main_call6.v0 (fun x v => Host.reduceAdd x v reducesTo_S3072x64_S64_d0 h_S_),
    StableHlo.TRef.unary main_call6.v0 main_call6.v1 (broadcastInDim S1x64 ![1] bcast_S64_S1x64_1),
    StableHlo.TRef.nullary main_call6.cst_0 (constant S_ .f32 0x45400000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S3072x64 ![0, 1] bcast_S1x64_S3072x64_0_1),
    StableHlo.TRef.binary (.of main_v125 : StableHlo.TRef sig ⟨S3072x64, .f32⟩) main_call6.v4 main_call6.v5 subf,
    StableHlo.TRef.binary main_call6.v5 main_call6.v5 main_call6.v6 mulf,
    StableHlo.TRef.unary (.of main_c_17 : StableHlo.TRef sig ⟨S_, .i32⟩) main_call6.v7 (sitofp .f32),
    StableHlo.TRef.nullary main_call6.cst_1 (constant S_ .f32 0x45400000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S3072x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v132 main_v134 (broadcastInDim S1x64 ![1] bcast_S64_S1x64_1 : (⟨S64, .f32⟩ : BufTy).Contents (Elt F) → (⟨S1x64, .f32⟩ : BufTy).Contents (Elt F)),
    StableHlo.unary main_v134 main_v135 (broadcastInDim S3072x64 ![0, 1] bcast_S1x64_S3072x64_0_1 : (⟨S1x64, .f32⟩ : BufTy).Contents (Elt F) → (⟨S3072x64, .f32⟩ : BufTy).Contents (Elt F)),
    StableHlo.binary main_v125 main_v135 main_v136 (subf : (⟨S3072x64, .f32⟩ : BufTy).Contents (Elt F) → (⟨S3072x64, .f32⟩ : BufTy).Contents (Elt F) → (⟨S3072x64, .f32⟩ : BufTy).Contents (Elt F)),
    StableHlo.nullary main_cst_18 (constant S_ .f32 0x3727C5AC#32),
    StableHlo.unary main_cst_18 main_v137 (broadcastInDim S64 ![] bcast_S_S64 : (⟨S_, .f32⟩ : BufTy).Contents (Elt F) → (⟨S64, .f32⟩ : BufTy).Contents (Elt F)),
    StableHlo.binary main_v133 main_v137 main_v138 (addf : (⟨S64, .f32⟩ : BufTy).Contents (Elt F) → (⟨S64, .f32⟩ : BufTy).Contents (Elt F) → (⟨S64, .f32⟩ : BufTy).Contents (Elt F)),
    StableHlo.unary main_v138 main_v139 (Host.rsqrt : (⟨S64, .f32⟩ : BufTy).Contents (Elt F) → (⟨S64, .f32⟩ : BufTy).Contents (Elt F)),
    StableHlo.unary main_v139 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S3072x64 ![0, 1] bcast_S1x64_S3072x64_0_1 : (⟨S1x64, .f32⟩ : BufTy).Contents (Elt F) → (⟨S3072x64, .f32⟩ : BufTy).Contents (Elt F)),
    StableHlo.binary main_v136 main_v141 main_v142 (mulf : (⟨S3072x64, .f32⟩ : BufTy).Contents (Elt F) → (⟨S3072x64, .f32⟩ : BufTy).Contents (Elt F) → (⟨S3072x64, .f32⟩ : BufTy).Contents (Elt F)),
    StableHlo.unary main_v127 main_v143 (broadcastInDim S1x64 ![1] bcast_S64_S1x64_1 : (⟨S64, .f32⟩ : BufTy).Contents (Elt F) → (⟨S1x64, .f32⟩ : BufTy).Contents (Elt F)),
    StableHlo.unary main_v143 main_v144 (broadcastInDim S3072x64 ![0, 1] bcast_S1x64_S3072x64_0_1 : (⟨S1x64, .f32⟩ : BufTy).Contents (Elt F) → (⟨S3072x64, .f32⟩ : BufTy).Contents (Elt F)),
    StableHlo.binary main_v142 main_v144 main_v145 (mulf : (⟨S3072x64, .f32⟩ : BufTy).Contents (Elt F) → (⟨S3072x64, .f32⟩ : BufTy).Contents (Elt F) → (⟨S3072x64, .f32⟩ : BufTy).Contents (Elt F)),
    StableHlo.unary main_v129 main_v146 (broadcastInDim S1x64 ![1] bcast_S64_S1x64_1 : (⟨S64, .f32⟩ : BufTy).Contents (Elt F) → (⟨S1x64, .f32⟩ : BufTy).Contents (Elt F)),
    StableHlo.unary main_v146 main_v147 (broadcastInDim S3072x64 ![0, 1] bcast_S1x64_S3072x64_0_1 : (⟨S1x64, .f32⟩ : BufTy).Contents (Elt F) → (⟨S3072x64, .f32⟩ : BufTy).Contents (Elt F)),
    StableHlo.binary main_v145 main_v147 main_v148 (addf : (⟨S3072x64, .f32⟩ : BufTy).Contents (Elt F) → (⟨S3072x64, .f32⟩ : BufTy).Contents (Elt F) → (⟨S3072x64, .f32⟩ : BufTy).Contents (Elt F)) ]

/-- The references stretch C0's operations write, in order. -/
abbrev str_C0_W : List (Ref sig .tc) :=
  [main_v92, main_v93, main_v94, main_v95, main_v96, main_v97, main_v98, main_v99, main_v100, main_v101, main_c_12, main_v102, main_v103, main_c_13, main_v104, main_v105, main_v106, main_v107, main_v108, main_v109, main_call4_cst, main_call4_v0, main_v110, main_v111, main_v112, main_cst_14, main_v113, main_v114, main_v115, main_v116, main_v117, main_v118, main_v119, main_v120, main_call5_cst, main_call5_v0, main_v121, main_v122, main_v123, main_v124, main_v125, main_v126, main_v127, main_v128, main_v129, main_cst_15, main_v130, main_cst_16, main_v131, main_v132, main_c_17, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v133, main_v134, main_v135, main_v136, main_cst_18, main_v137, main_v138, main_v139, main_v140, main_v141, main_v142, main_v143, main_v144, main_v145, main_v146, main_v147, main_v148]

/-- Stretch D0: operations 222 … 234 of @main's line. -/
abbrev str_D0 : List (HloOp τ sig (Elt F)) :=
  [ StableHlo.nullary main_c_19 (constantI S_ 32 0#32),
    StableHlo.unary main_c_19 main_v149 (broadcastInDim S147456 ![] bcast_S_S147456 : (⟨S_, .i32⟩ : BufTy).Contents (Elt F) → (⟨S147456, .i32⟩ : BufTy).Contents (Elt F)),
    StableHlo.binary main_v22 main_v149 main_v150 (cmpi .slt : (⟨S147456, .i32⟩ : BufTy).Contents (Elt F) → (⟨S147456, .i32⟩ : BufTy).Contents (Elt F) → (⟨S147456, .i1⟩ : BufTy).Contents (Elt F)),
    StableHlo.nullary main_c_20 (constantI S_ 32 3072#32),
    StableHlo.unary main_c_20 main_v151 (broadcastInDim S147456 ![] bcast_S_S147456 : (⟨S_, .i32⟩ : BufTy).Contents (Elt F) → (⟨S147456, .i32⟩ : BufTy).Contents (Elt F)),
    StableHlo.binary main_v22 main_v151 main_v152 (addi : (⟨S147456, .i32⟩ : BufTy).Contents (Elt F) → (⟨S147456, .i32⟩ : BufTy).Contents (Elt F) → (⟨S147456, .i32⟩ : BufTy).Contents (Elt F)),
    StableHlo.ternary main_v150 main_v152 main_v22 main_v153 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v153 main_v154 (broadcastInDim S147456x1 ![0] bcast_S147456_S147456x1_0 : (⟨S147456, .i32⟩ : BufTy).Contents (Elt F) → (⟨S147456x1, .i32⟩ : BufTy).Contents (Elt F)),
    StableHlo.binary main_v148 main_v154 main_v155 ((fun x i => Host.gather gather_S3072x64_S147456x1_S147456x64_1_0_n_n_0_1_164 x i) : (⟨S3072x64, .f32⟩ : BufTy).Contents (Elt F) → (⟨S147456x1, .i32⟩ : BufTy).Contents (Elt F) → (⟨S147456x64, .f32⟩ : BufTy).Contents (Elt F)),
    StableHlo.binary main_v79 main_v155 main_v156 (addf : (⟨S147456x64, .f32⟩ : BufTy).Contents (Elt F) → (⟨S147456x64, .f32⟩ : BufTy).Contents (Elt F) → (⟨S147456x64, .f32⟩ : BufTy).Contents (Elt F)),
    StableHlo.TRef.nullary main_call7.cst (constant S_ .f32 0x00000000#32),
    StableHlo.TRef.unary main_call7.cst main_call7.v0 (broadcastInDim S147456x64 ![] bcast_S_S147456x64),
    StableHlo.TRef.binary (.of main_v156 : StableHlo.TRef sig ⟨S147456x64, .f32⟩) main_call7.v0 main_call7.v1 maximumf ]

/-- The references stretch D0's operations write, in order. -/
abbrev str_D0_W : List (Ref sig .tc) :=
  [main_c_19, main_v149, main_v150, main_c_20, main_v151, main_v152, main_v153, main_v154, main_v155, main_v156, main_call7_cst, main_call7_v0, main_v157]

/-- Stretch A1: operations 235 … 323 of @main's line. -/
abbrev str_A1 : List (HloOp τ sig (Elt F)) :=
  [ StableHlo.unary main_arg7 main_v158 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v158 main_v159 rfl shapeCasts_S1x64x128_S64x128,
    StableHlo.unary main_arg8 main_v160 ((extractStridedSlice S1x128 ![1, 0] · slices_S3x128_S1x128_1_0) : (⟨S3x128, .f32⟩ : BufTy).Contents (Elt F) → (⟨S1x128, .f32⟩ : BufTy).Contents (Elt F)),
    StableHlo.reshape main_v160 main_v161 rfl shapeCasts_S1x128_S128,
    StableHlo.unary main_arg9 main_v162 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v162 main_v163 rfl shapeCasts_S1x128x64_S128x64,
    StableHlo.unary main_arg10 main_v164 ((extractStridedSlice S1x64 ![1, 0] · slices_S3x64_S1x64_1_0) : (⟨S3x64, .f32⟩ : BufTy).Contents (Elt F) → (⟨S1x64, .f32⟩ : BufTy).Contents (Elt F)),
    StableHlo.reshape main_v164 main_v165 rfl shapeCasts_S1x64_S64,
    StableHlo.unary main_arg23 main_v166 ((extractStridedSlice S1x884736 ![0, 0] · slices_S2x884736_S1x884736_0_0) : (⟨S2x884736, .i32⟩ : BufTy).Contents (Elt F) → (⟨S1x884736, .i32⟩ : BufTy).Contents (Elt F)),
    StableHlo.reshape main_v166 main_v167 rfl shapeCasts_S1x884736_S884736,
    StableHlo.nullary main_c_21 (constantI S_ 32 0#32),
    StableHlo.unary main_c_21 main_v168 (broadcastInDim S884736 ![] bcast_S_S884736 : (⟨S_, .i32⟩ : BufTy).Contents (Elt F) → (⟨S884736, .i32⟩ : BufTy).Contents (Elt F)),
    StableHlo.binary main_v167 main_v168 main_v169 (cmpi .slt : (⟨S884736, .i32⟩ : BufTy).Contents (Elt F) → (⟨S884736, .i32⟩ : BufTy).Contents (Elt F) → (⟨S884736, .i1⟩ : BufTy).Contents (Elt F)),
    StableHlo.nullary main_c_22 (constantI S_ 32 147456#32),
    StableHlo.unary main_c_22 main_v170 (broadcastInDim S884736 ![] bcast_S_S884736 : (⟨S_, .i32⟩ : BufTy).Contents (Elt F) → (⟨S884736, .i32⟩ : BufTy).Contents (Elt F)),
    StableHlo.binary main_v167 main_v170 main_v171 (addi : (⟨S884736, .i32⟩ : BufTy).Contents (Elt F) → (⟨S884736, .i32⟩ : BufTy).Contents (Elt F) → (⟨S884736, .i32⟩ : BufTy).Contents (Elt F)),
    StableHlo.ternary main_v169 main_v171 main_v167 main_v172 (select : (⟨S884736, .i1⟩ : BufTy).Contents (Elt F) → (⟨S884736, .i32⟩ : BufTy).Contents (Elt F) → (⟨S884736, .i32⟩ : BufTy).Contents (Elt F) → (⟨S884736, .i32⟩ : BufTy).Contents (Elt F)),
    StableHlo.unary main_v172 main_v173 (broadcastInDim S884736x1 ![0] bcast_S884736_S884736x1_0 : (⟨S884736, .i32⟩ : BufTy).Contents (Elt F) → (⟨S884736x1, .i32⟩ : BufTy).Contents (Elt F)),
    StableHlo.binary main_v157 main_v173 main_v174 ((fun x i => Host.gather gather_S147456x64_S884736x1_S884736x64_1_0_n_n_0_1_164 x i) : (⟨S147456x64, .f32⟩ : BufTy).Contents (Elt F) → (⟨S884736x1, .i32⟩ : BufTy).Contents (Elt F) → (⟨S884736x64, .f32⟩ : BufTy).Contents (Elt F)),
    StableHlo.binary main_v174 main_v7 main_v175 (addf : (⟨S884736x64, .f32⟩ : BufTy).Contents (Elt F) → (⟨S884736x64, .f32⟩ : BufTy).Contents (Elt F) → (⟨S884736x64, .f32⟩ : BufTy).Contents (Elt F)),
    StableHlo.TRef.nullary main_call8.cst (constant S_ .f32 0x00000000#32),
    StableHlo.TRef.unary main_call8.cst main_call8.v0 (broadcastInDim S884736x64 ![] bcast_S_S884736x64),
    StableHlo.TRef.binary (.of main_v175 : StableHlo.TRef sig ⟨S884736x64, .f32⟩) main_call8.v0 main_call8.v1 maximumf,
    StableHlo.unary main_arg23 main_v177 ((extractStridedSlice S1x884736 ![1, 0] · slices_S2x884736_S1x884736_1_0) : (⟨S2x884736, .i32⟩ : BufTy).Contents (Elt F) → (⟨S1x884736, .i32⟩ : BufTy).Contents (Elt F)),
    StableHlo.reshape main_v177 main_v178 rfl shapeCasts_S1x884736_S884736,
    StableHlo.nullary main_cst_23 (constant S_ .f32 0x00000000#32),
    StableHlo.unary main_cst_23 main_v179 (broadcastInDim S147456x64 ![] bcast_S_S147456x64 : (⟨S_, .f32⟩ : BufTy).Contents (Elt F) → (⟨S147456x64, .f32⟩ : BufTy).Contents (Elt F)),
    StableHlo.unary main_v178 main_v180 (broadcastInDim S884736x1 ![0] bcast_S884736_S884736x1_0 : (⟨S884736, .i32⟩ : BufTy).Contents (Elt F) → (⟨S884736x1, .i32⟩ : BufTy).Contents (Elt F)),
    StableHlo.ternary main_v179 main_v180 main_v176 main_v181 ((fun x i u => Host.scatterAdd scatter_S147456x64_S884736x1_S884736x64_1_0_0_1 x i u) : (⟨S147456x64, .f32⟩ : BufTy).Contents (Elt F) → (⟨S884736x1, .i32⟩ : BufTy).Contents (Elt F) → (⟨S884736x64, .f32⟩ : BufTy).Contents (Elt F) → (⟨S147456x64, .f32⟩ : BufTy).Contents (Elt F)),
    StableHlo.binary main_v157 main_v181 main_v182 (addf : (⟨S147456x64, .f32⟩ : BufTy).Contents (Elt F) → (⟨S147456x64, .f32⟩ : BufTy).Contents (Elt F) → (⟨S147456x64, .f32⟩ : BufTy).Contents (Elt F)),
    StableHlo.binary main_v182 main_v159 main_v183 ((fun l r => Host.dotGeneral dot_S147456x64_S64x128_S147456x128_1_0_0_1_n_n none l r) : (⟨S147456x64, .f32⟩ : BufTy).Contents (Elt F) → (⟨S64x128, .f32⟩ : BufTy).Contents (Elt F) → (⟨S147456x128, .f32⟩ : BufTy).Contents (Elt F)),
    StableHlo.unary main_v161 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S147456x128 ![0, 1] bcast_S1x128_S147456x128_0_1 : (⟨S1x128, .f32⟩ : BufTy).Contents (Elt F) → (⟨S147456x128, .f32⟩ : BufTy).Contents (Elt F)),
    StableHlo.binary main_v183 main_v185 main_v186 (addf : (⟨S147456x128, .f32⟩ : BufTy).Contents (Elt F) → (⟨S147456x128, .f32⟩ : BufTy).Contents (Elt F) → (⟨S147456x128, .f32⟩ : BufTy).Contents (Elt F)),
    StableHlo.TRef.nullary main_call9.cst (constant S_ .f32 0x00000000#32),
    StableHlo.TRef.unary main_call9.cst main_call9.v0 (broadcastInDim S147456x128 ![] bcast_S_S147456x128),
    StableHlo.TRef.binary (.of main_v186 : StableHlo.TRef sig ⟨S147456x128, .f32⟩) main_call9.v0 main_call9.v1 maximumf,
    StableHlo.binary main_v187 main_v163 main_v188 ((fun l r => Host.dotGeneral dot_S147456x128_S128x64_S147456x64_1_0_0_1_n_n none l r) : (⟨S147456x128, .f32⟩ : BufTy).Contents (Elt F) → (⟨S128x64, .f32⟩ : BufTy).Contents (Elt F) → (⟨S147456x64, .f32⟩ : BufTy).Contents (Elt F)),
    StableHlo.unary main_v165 main_v189 (broadcastInDim S1x64 ![1] bcast_S64_S1x64_1 : (⟨S64, .f32⟩ : BufTy).Contents (Elt F) → (⟨S1x64, .f32⟩ : BufTy).Contents (Elt F)),
    StableHlo.unary main_v189 main_v190 (broadcastInDim S147456x64 ![0, 1] bcast_S1x64_S147456x64_0_1 : (⟨S1x64, .f32⟩ : BufTy).Contents (Elt F) → (⟨S147456x64, .f32⟩ : BufTy).Contents (Elt F)),
    StableHlo.binary main_v188 main_v190 main_v191 (addf : (⟨S147456x64, .f32⟩ : BufTy).Contents (Elt F) → (⟨S147456x64, .f32⟩ : BufTy).Contents (Elt F) → (⟨S147456x64, .f32⟩ : BufTy).Contents (Elt F)),
    StableHlo.unary main_arg11 main_v192 ((extractStridedSlice S1x64 ![1, 0] · slices_S3x64_S1x64_1_0) : (⟨S3x64, .f32⟩ : BufTy).Contents (Elt F) → (⟨S1x64, .f32⟩ : BufTy).Contents (Elt F)),
    StableHlo.reshape main_v192 main_v193 rfl shapeCasts_S1x64_S64,
    StableHlo.unary main_arg12 main_v194 ((extractStridedSlice S1x64 ![1, 0] · slices_S3x64_S1x64_1_0) : (⟨S3x64, .f32⟩ : BufTy).Contents (Elt F) → (⟨S1x64, .f32⟩ : BufTy).Contents (Elt F)),
    StableHlo.reshape main_v194 main_v195 rfl shapeCasts_S1x64_S64,
    StableHlo.nullary main_cst_24 (constant S_ .f32 0x00000000#32),
    StableHlo.binary main_v191 main_cst_24 main_v196 ((fun x v => Host.reduceAdd x v reducesTo_S147456x64_S64_d0 h_S_) : (⟨S147456x64, .f32⟩ : BufTy).Contents (Elt F) → (⟨S_, .f32⟩ : BufTy).Contents (Elt F) → (⟨S64, .f32⟩ : BufTy).Contents (Elt F)),
    StableHlo.nullary main_cst_25 (constant S_ .f32 0x48100000#32),
    StableHlo.unary main_cst_25 main_v197 (broadcastInDim S64 ![] bcast_S_S64 : (⟨S_, .f32⟩ : BufTy).Contents (Elt F) → (⟨S64, .f32⟩ : BufTy).Contents (Elt F)),
    StableHlo.binary main_v196 main_v197 main_v198 (Host.divf : (⟨S64, .f32⟩ : BufTy).Contents (Elt F) → (⟨S64, .f32⟩ : BufTy).Contents (Elt F) → (⟨S64, .f32⟩ : BufTy).Contents (Elt F)),
    StableHlo.nullary main_c_26 (constantI S_ 32 0#32),
    StableHlo.TRef.nullary main_call10.cst (constant S_ .f32 0x00000000#32),
    StableHlo.TRef.binary (.of main_v191 : StableHlo.TRef sig ⟨S147456x64, .f32⟩) main_call10.cst main_call10.v0 (fun x v => Host.reduceAdd x v reducesTo_S147456x64_S64_d0 h_S_),
    StableHlo.TRef.unary main_call10.v0 main_call10.v1 (broadcastInDim S1x64 ![1] bcast_S64_S1x64_1),
    StableHlo.TRef.nullary main_call10.cst_0 (constant S_ .f32 0x48100000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S147456x64 ![0, 1] bcast_S1x64_S147456x64_0_1),
    StableHlo.TRef.binary (.of main_v191 : StableHlo.TRef sig ⟨S147456x64, .f32⟩) main_call10.v4 main_call10.v5 subf,
    StableHlo.TRef.binary main_call10.v5 main_call10.v5 main_call10.v6 mulf,
    StableHlo.TRef.unary (.of main_c_26 : StableHlo.TRef sig ⟨S_, .i32⟩) main_call10.v7 (sitofp .f32),
    StableHlo.TRef.nullary main_call10.cst_1 (constant S_ .f32 0x48100000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S147456x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v198 main_v200 (broadcastInDim S1x64 ![1] bcast_S64_S1x64_1 : (⟨S64, .f32⟩ : BufTy).Contents (Elt F) → (⟨S1x64, .f32⟩ : BufTy).Contents (Elt F)),
    StableHlo.unary main_v200 main_v201 (broadcastInDim S147456x64 ![0, 1] bcast_S1x64_S147456x64_0_1 : (⟨S1x64, .f32⟩ : BufTy).Contents (Elt F) → (⟨S147456x64, .f32⟩ : BufTy).Contents (Elt F)),
    StableHlo.binary main_v191 main_v201 main_v202 (subf : (⟨S147456x64, .f32⟩ : BufTy).Contents (Elt F) → (⟨S147456x64, .f32⟩ : BufTy).Contents (Elt F) → (⟨S147456x64, .f32⟩ : BufTy).Contents (Elt F)),
    StableHlo.nullary main_cst_27 (constant S_ .f32 0x3727C5AC#32),
    StableHlo.unary main_cst_27 main_v203 (broadcastInDim S64 ![] bcast_S_S64 : (⟨S_, .f32⟩ : BufTy).Contents (Elt F) → (⟨S64, .f32⟩ : BufTy).Contents (Elt F)),
    StableHlo.binary main_v199 main_v203 main_v204 (addf : (⟨S64, .f32⟩ : BufTy).Contents (Elt F) → (⟨S64, .f32⟩ : BufTy).Contents (Elt F) → (⟨S64, .f32⟩ : BufTy).Contents (Elt F)),
    StableHlo.unary main_v204 main_v205 (Host.rsqrt : (⟨S64, .f32⟩ : BufTy).Contents (Elt F) → (⟨S64, .f32⟩ : BufTy).Contents (Elt F)),
    StableHlo.unary main_v205 main_v206 (broadcastInDim S1x64 ![1] bcast_S64_S1x64_1 : (⟨S64, .f32⟩ : BufTy).Contents (Elt F) → (⟨S1x64, .f32⟩ : BufTy).Contents (Elt F)),
    StableHlo.unary main_v206 main_v207 (broadcastInDim S147456x64 ![0, 1] bcast_S1x64_S147456x64_0_1 : (⟨S1x64, .f32⟩ : BufTy).Contents (Elt F) → (⟨S147456x64, .f32⟩ : BufTy).Contents (Elt F)),
    StableHlo.binary main_v202 main_v207 main_v208 (mulf : (⟨S147456x64, .f32⟩ : BufTy).Contents (Elt F) → (⟨S147456x64, .f32⟩ : BufTy).Contents (Elt F) → (⟨S147456x64, .f32⟩ : BufTy).Contents (Elt F)),
    StableHlo.unary main_v193 main_v209 (broadcastInDim S1x64 ![1] bcast_S64_S1x64_1 : (⟨S64, .f32⟩ : BufTy).Contents (Elt F) → (⟨S1x64, .f32⟩ : BufTy).Contents (Elt F)),
    StableHlo.unary main_v209 main_v210 (broadcastInDim S147456x64 ![0, 1] bcast_S1x64_S147456x64_0_1 : (⟨S1x64, .f32⟩ : BufTy).Contents (Elt F) → (⟨S147456x64, .f32⟩ : BufTy).Contents (Elt F)),
    StableHlo.binary main_v208 main_v210 main_v211 (mulf : (⟨S147456x64, .f32⟩ : BufTy).Contents (Elt F) → (⟨S147456x64, .f32⟩ : BufTy).Contents (Elt F) → (⟨S147456x64, .f32⟩ : BufTy).Contents (Elt F)),
    StableHlo.unary main_v195 main_v212 (broadcastInDim S1x64 ![1] bcast_S64_S1x64_1 : (⟨S64, .f32⟩ : BufTy).Contents (Elt F) → (⟨S1x64, .f32⟩ : BufTy).Contents (Elt F)),
    StableHlo.unary main_v212 main_v213 (broadcastInDim S147456x64 ![0, 1] bcast_S1x64_S147456x64_0_1 : (⟨S1x64, .f32⟩ : BufTy).Contents (Elt F) → (⟨S147456x64, .f32⟩ : BufTy).Contents (Elt F)),
    StableHlo.binary main_v211 main_v213 main_v214 (addf : (⟨S147456x64, .f32⟩ : BufTy).Contents (Elt F) → (⟨S147456x64, .f32⟩ : BufTy).Contents (Elt F) → (⟨S147456x64, .f32⟩ : BufTy).Contents (Elt F)) ]

/-- The references stretch A1's operations write, in order. -/
abbrev str_A1_W : List (Ref sig .tc) :=
  [main_v158, main_v159, main_v160, main_v161, main_v162, main_v163, main_v164, main_v165, main_v166, main_v167, main_c_21, main_v168, main_v169, main_c_22, main_v170, main_v171, main_v172, main_v173, main_v174, main_v175, main_call8_cst, main_call8_v0, main_v176, main_v177, main_v178, main_cst_23, main_v179, main_v180, main_v181, main_v182, main_v183, main_v184, main_v185, main_v186, main_call9_cst, main_call9_v0, main_v187, main_v188, main_v189, main_v190, main_v191, main_v192, main_v193, main_v194, main_v195, main_cst_24, main_v196, main_cst_25, main_v197, main_v198, main_c_26, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v199, main_v200, main_v201, main_v202, main_cst_27, main_v203, main_v204, main_v205, main_v206, main_v207, main_v208, main_v209, main_v210, main_v211, main_v212, main_v213, main_v214]

/-- Stretch B1: operations 324 … 339 of @main's line. -/
abbrev str_B1 : List (HloOp τ sig (Elt F)) :=
  [ StableHlo.nullary main_cst_28 (constant S_ .f32 0x3F800000#32),
    StableHlo.unary main_cst_28 main_v215 (broadcastInDim S147456 ![] bcast_S_S147456 : (⟨S_, .f32⟩ : BufTy).Contents (Elt F) → (⟨S147456, .f32⟩ : BufTy).Contents (Elt F)),
    StableHlo.nullary main_cst_29 (constant S_ .f32 0x00000000#32),
    StableHlo.unary main_cst_29 main_v216 (broadcastInDim S3072 ![] bcast_S_S3072 : (⟨S_, .f32⟩ : BufTy).Contents (Elt F) → (⟨S3072, .f32⟩ : BufTy).Contents (Elt F)),
    StableHlo.unary main_v22 main_v217 (broadcastInDim S147456x1 ![0] bcast_S147456_S147456x1_0 : (⟨S147456, .i32⟩ : BufTy).Contents (Elt F) → (⟨S147456x1, .i32⟩ : BufTy).Contents (Elt F)),
    StableHlo.ternary main_v216 main_v217 main_v215 main_v218 ((fun x i u => Host.scatterAdd scatter_S3072_S147456x1_S147456_n_0_0_1 x i u) : (⟨S3072, .f32⟩ : BufTy).Contents (Elt F) → (⟨S147456x1, .i32⟩ : BufTy).Contents (Elt F) → (⟨S147456, .f32⟩ : BufTy).Contents (Elt F) → (⟨S3072, .f32⟩ : BufTy).Contents (Elt F)),
    StableHlo.nullary main_cst_30 (constant S_ .f32 0x3F800000#32),
    StableHlo.unary main_cst_30 main_v219 (broadcastInDim S3072 ![] bcast_S_S3072 : (⟨S_, .f32⟩ : BufTy).Contents (Elt F) → (⟨S3072, .f32⟩ : BufTy).Contents (Elt F)),
    StableHlo.binary main_v218 main_v219 main_v220 (maximumf : (⟨S3072, .f32⟩ : BufTy).Contents (Elt F) → (⟨S3072, .f32⟩ : BufTy).Contents (Elt F) → (⟨S3072, .f32⟩ : BufTy).Contents (Elt F)),
    StableHlo.nullary main_cst_31 (constant S_ .f32 0x00000000#32),
    StableHlo.unary main_cst_31 main_v221 (broadcastInDim S3072x64 ![] bcast_S_S3072x64 : (⟨S_, .f32⟩ : BufTy).Contents (Elt F) → (⟨S3072x64, .f32⟩ : BufTy).Contents (Elt F)),
    StableHlo.unary main_v22 main_v222 (broadcastInDim S147456x1 ![0] bcast_S147456_S147456x1_0 : (⟨S147456, .i32⟩ : BufTy).Contents (Elt F) → (⟨S147456x1, .i32⟩ : BufTy).Contents (Elt F)),
    StableHlo.ternary main_v221 main_v222 main_v157 main_v223 ((fun x i u => Host.scatterAdd scatter_S3072x64_S147456x1_S147456x64_1_0_0_1 x i u) : (⟨S3072x64, .f32⟩ : BufTy).Contents (Elt F) → (⟨S147456x1, .i32⟩ : BufTy).Contents (Elt F) → (⟨S147456x64, .f32⟩ : BufTy).Contents (Elt F) → (⟨S3072x64, .f32⟩ : BufTy).Contents (Elt F)),
    StableHlo.unary main_v220 main_v224 (broadcastInDim S3072x1 ![0] bcast_S3072_S3072x1_0 : (⟨S3072, .f32⟩ : BufTy).Contents (Elt F) → (⟨S3072x1, .f32⟩ : BufTy).Contents (Elt F)),
    StableHlo.unary main_v224 main_v225 (broadcastInDim S3072x64 ![0, 1] bcast_S3072x1_S3072x64_0_1 : (⟨S3072x1, .f32⟩ : BufTy).Contents (Elt F) → (⟨S3072x64, .f32⟩ : BufTy).Contents (Elt F)),
    StableHlo.binary main_v223 main_v225 main_v226 (Host.divf : (⟨S3072x64, .f32⟩ : BufTy).Contents (Elt F) → (⟨S3072x64, .f32⟩ : BufTy).Contents (Elt F) → (⟨S3072x64, .f32⟩ : BufTy).Contents (Elt F)) ]

/-- The references stretch B1's operations write, in order. -/
abbrev str_B1_W : List (Ref sig .tc) :=
  [main_cst_28, main_v215, main_cst_29, main_v216, main_v217, main_v218, main_cst_30, main_v219, main_v220, main_cst_31, main_v221, main_v222, main_v223, main_v224, main_v225, main_v226]

/-- Stretch C1: operations 340 … 428 of @main's line. -/
abbrev str_C1 : List (HloOp τ sig (Elt F)) :=
  [ StableHlo.unary main_arg13 main_v227 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v227 main_v228 rfl shapeCasts_S1x64x128_S64x128,
    StableHlo.unary main_arg14 main_v229 ((extractStridedSlice S1x128 ![1, 0] · slices_S3x128_S1x128_1_0) : (⟨S3x128, .f32⟩ : BufTy).Contents (Elt F) → (⟨S1x128, .f32⟩ : BufTy).Contents (Elt F)),
    StableHlo.reshape main_v229 main_v230 rfl shapeCasts_S1x128_S128,
    StableHlo.unary main_arg15 main_v231 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v231 main_v232 rfl shapeCasts_S1x128x64_S128x64,
    StableHlo.unary main_arg16 main_v233 ((extractStridedSlice S1x64 ![1, 0] · slices_S3x64_S1x64_1_0) : (⟨S3x64, .f32⟩ : BufTy).Contents (Elt F) → (⟨S1x64, .f32⟩ : BufTy).Contents (Elt F)),
    StableHlo.reshape main_v233 main_v234 rfl shapeCasts_S1x64_S64,
    StableHlo.unary main_arg24 main_v235 ((extractStridedSlice S1x18432 ![0, 0] · slices_S2x18432_S1x18432_0_0) : (⟨S2x18432, .i32⟩ : BufTy).Contents (Elt F) → (⟨S1x18432, .i32⟩ : BufTy).Contents (Elt F)),
    StableHlo.reshape main_v235 main_v236 rfl shapeCasts_S1x18432_S18432,
    StableHlo.nullary main_c_32 (constantI S_ 32 0#32),
    StableHlo.unary main_c_32 main_v237 (broadcastInDim S18432 ![] bcast_S_S18432 : (⟨S_, .i32⟩ : BufTy).Contents (Elt F) → (⟨S18432, .i32⟩ : BufTy).Contents (Elt F)),
    StableHlo.binary main_v236 main_v237 main_v238 (cmpi .slt : (⟨S18432, .i32⟩ : BufTy).Contents (Elt F) → (⟨S18432, .i32⟩ : BufTy).Contents (Elt F) → (⟨S18432, .i1⟩ : BufTy).Contents (Elt F)),
    StableHlo.nullary main_c_33 (constantI S_ 32 3072#32),
    StableHlo.unary main_c_33 main_v239 (broadcastInDim S18432 ![] bcast_S_S18432 : (⟨S_, .i32⟩ : BufTy).Contents (Elt F) → (⟨S18432, .i32⟩ : BufTy).Contents (Elt F)),
    StableHlo.binary main_v236 main_v239 main_v240 (addi : (⟨S18432, .i32⟩ : BufTy).Contents (Elt F) → (⟨S18432, .i32⟩ : BufTy).Contents (Elt F) → (⟨S18432, .i32⟩ : BufTy).Contents (Elt F)),
    StableHlo.ternary main_v238 main_v240 main_v236 main_v241 (select : (⟨S18432, .i1⟩ : BufTy).Contents (Elt F) → (⟨S18432, .i32⟩ : BufTy).Contents (Elt F) → (⟨S18432, .i32⟩ : BufTy).Contents (Elt F) → (⟨S18432, .i32⟩ : BufTy).Contents (Elt F)),
    StableHlo.unary main_v241 main_v242 (broadcastInDim S18432x1 ![0] bcast_S18432_S18432x1_0 : (⟨S18432, .i32⟩ : BufTy).Contents (Elt F) → (⟨S18432x1, .i32⟩ : BufTy).Contents (Elt F)),
    StableHlo.binary main_v226 main_v242 main_v243 ((fun x i => Host.gather gather_S3072x64_S18432x1_S18432x64_1_0_n_n_0_1_164 x i) : (⟨S3072x64, .f32⟩ : BufTy).Contents (Elt F) → (⟨S18432x1, .i32⟩ : BufTy).Contents (Elt F) → (⟨S18432x64, .f32⟩ : BufTy).Contents (Elt F)),
    StableHlo.binary main_v243 main_v11 main_v244 (addf : (⟨S18432x64, .f32⟩ : BufTy).Contents (Elt F) → (⟨S18432x64, .f32⟩ : BufTy).Contents (Elt F) → (⟨S18432x64, .f32⟩ : BufTy).Contents (Elt F)),
    StableHlo.TRef.nullary main_call11.cst (constant S_ .f32 0x00000000#32),
    StableHlo.TRef.unary main_call11.cst main_call11.v0 (broadcastInDim S18432x64 ![] bcast_S_S18432x64),
    StableHlo.TRef.binary (.of main_v244 : StableHlo.TRef sig ⟨S18432x64, .f32⟩) main_call11.v0 main_call11.v1 maximumf,
    StableHlo.unary main_arg24 main_v246 ((extractStridedSlice S1x18432 ![1, 0] · slices_S2x18432_S1x18432_1_0) : (⟨S2x18432, .i32⟩ : BufTy).Contents (Elt F) → (⟨S1x18432, .i32⟩ : BufTy).Contents (Elt F)),
    StableHlo.reshape main_v246 main_v247 rfl shapeCasts_S1x18432_S18432,
    StableHlo.nullary main_cst_34 (constant S_ .f32 0x00000000#32),
    StableHlo.unary main_cst_34 main_v248 (broadcastInDim S3072x64 ![] bcast_S_S3072x64 : (⟨S_, .f32⟩ : BufTy).Contents (Elt F) → (⟨S3072x64, .f32⟩ : BufTy).Contents (Elt F)),
    StableHlo.unary main_v247 main_v249 (broadcastInDim S18432x1 ![0] bcast_S18432_S18432x1_0 : (⟨S18432, .i32⟩ : BufTy).Contents (Elt F) → (⟨S18432x1, .i32⟩ : BufTy).Contents (Elt F)),
    StableHlo.ternary main_v248 main_v249 main_v245 main_v250 ((fun x i u => Host.scatterAdd scatter_S3072x64_S18432x1_S18432x64_1_0_0_1 x i u) : (⟨S3072x64, .f32⟩ : BufTy).Contents (Elt F) → (⟨S18432x1, .i32⟩ : BufTy).Contents (Elt F) → (⟨S18432x64, .f32⟩ : BufTy).Contents (Elt F) → (⟨S3072x64, .f32⟩ : BufTy).Contents (Elt F)),
    StableHlo.binary main_v226 main_v250 main_v251 (addf : (⟨S3072x64, .f32⟩ : BufTy).Contents (Elt F) → (⟨S3072x64, .f32⟩ : BufTy).Contents (Elt F) → (⟨S3072x64, .f32⟩ : BufTy).Contents (Elt F)),
    StableHlo.binary main_v251 main_v228 main_v252 ((fun l r => Host.dotGeneral dot_S3072x64_S64x128_S3072x128_1_0_0_1_n_n none l r) : (⟨S3072x64, .f32⟩ : BufTy).Contents (Elt F) → (⟨S64x128, .f32⟩ : BufTy).Contents (Elt F) → (⟨S3072x128, .f32⟩ : BufTy).Contents (Elt F)),
    StableHlo.unary main_v230 main_v253 (broadcastInDim S1x128 ![1] bcast_S128_S1x128_1 : (⟨S128, .f32⟩ : BufTy).Contents (Elt F) → (⟨S1x128, .f32⟩ : BufTy).Contents (Elt F)),
    StableHlo.unary main_v253 main_v254 (broadcastInDim S3072x128 ![0, 1] bcast_S1x128_S3072x128_0_1 : (⟨S1x128, .f32⟩ : BufTy).Contents (Elt F) → (⟨S3072x128, .f32⟩ : BufTy).Contents (Elt F)),
    StableHlo.binary main_v252 main_v254 main_v255 (addf : (⟨S3072x128, .f32⟩ : BufTy).Contents (Elt F) → (⟨S3072x128, .f32⟩ : BufTy).Contents (Elt F) → (⟨S3072x128, .f32⟩ : BufTy).Contents (Elt F)),
    StableHlo.TRef.nullary main_call12.cst (constant S_ .f32 0x00000000#32),
    StableHlo.TRef.unary main_call12.cst main_call12.v0 (broadcastInDim S3072x128 ![] bcast_S_S3072x128),
    StableHlo.TRef.binary (.of main_v255 : StableHlo.TRef sig ⟨S3072x128, .f32⟩) main_call12.v0 main_call12.v1 maximumf,
    StableHlo.binary main_v256 main_v232 main_v257 ((fun l r => Host.dotGeneral dot_S3072x128_S128x64_S3072x64_1_0_0_1_n_n none l r) : (⟨S3072x128, .f32⟩ : BufTy).Contents (Elt F) → (⟨S128x64, .f32⟩ : BufTy).Contents (Elt F) → (⟨S3072x64, .f32⟩ : BufTy).Contents (Elt F)),
    StableHlo.unary main_v234 main_v258 (broadcastInDim S1x64 ![1] bcast_S64_S1x64_1 : (⟨S64, .f32⟩ : BufTy).Contents (Elt F) → (⟨S1x64, .f32⟩ : BufTy).Contents (Elt F)),
    StableHlo.unary main_v258 main_v259 (broadcastInDim S3072x64 ![0, 1] bcast_S1x64_S3072x64_0_1 : (⟨S1x64, .f32⟩ : BufTy).Contents (Elt F) → (⟨S3072x64, .f32⟩ : BufTy).Contents (Elt F)),
    StableHlo.binary main_v257 main_v259 main_v260 (addf : (⟨S3072x64, .f32⟩ : BufTy).Contents (Elt F) → (⟨S3072x64, .f32⟩ : BufTy).Contents (Elt F) → (⟨S3072x64, .f32⟩ : BufTy).Contents (Elt F)),
    StableHlo.unary main_arg17 main_v261 ((extractStridedSlice S1x64 ![1, 0] · slices_S3x64_S1x64_1_0) : (⟨S3x64, .f32⟩ : BufTy).Contents (Elt F) → (⟨S1x64, .f32⟩ : BufTy).Contents (Elt F)),
    StableHlo.reshape main_v261 main_v262 rfl shapeCasts_S1x64_S64,
    StableHlo.unary main_arg18 main_v263 ((extractStridedSlice S1x64 ![1, 0] · slices_S3x64_S1x64_1_0) : (⟨S3x64, .f32⟩ : BufTy).Contents (Elt F) → (⟨S1x64, .f32⟩ : BufTy).Contents (Elt F)),
    StableHlo.reshape main_v263 main_v264 rfl shapeCasts_S1x64_S64,
    StableHlo.nullary main_cst_35 (constant S_ .f32 0x00000000#32),
    StableHlo.binary main_v260 main_cst_35 main_v265 ((fun x v => Host.reduceAdd x v reducesTo_S3072x64_S64_d0 h_S_) : (⟨S3072x64, .f32⟩ : BufTy).Contents (Elt F) → (⟨S_, .f32⟩ : BufTy).Contents (Elt F) → (⟨S64, .f32⟩ : BufTy).Contents (Elt F)),
    StableHlo.nullary main_cst_36 (constant S_ .f32 0x45400000#32),
    StableHlo.unary main_cst_36 main_v266 (broadcastInDim S64 ![] bcast_S_S64 : (⟨S_, .f32⟩ : BufTy).Contents (Elt F) → (⟨S64, .f32⟩ : BufTy).Contents (Elt F)),
    StableHlo.binary main_v265 main_v266 main_v267 (Host.divf : (⟨S64, .f32⟩ : BufTy).Contents (Elt F) → (⟨S64, .f32⟩ : BufTy).Contents (Elt F) → (⟨S64, .f32⟩ : BufTy).Contents (Elt F)),
    StableHlo.nullary main_c_37 (constantI S_ 32 0#32),
    StableHlo.TRef.nullary main_call13.cst (constant S_ .f32 0x00000000#32),
    StableHlo.TRef.binary (.of main_v260 : StableHlo.TRef sig ⟨S3072x64, .f32⟩) main_call13.cst main_call13.v0 (fun x v => Host.reduceAdd x v reducesTo_S3072x64_S64_d0 h_S_),
    StableHlo.TRef.unary main_call13.v0 main_call13.v1 (broadcastInDim S1x64 ![1] bcast_S64_S1x64_1),
    StableHlo.TRef.nullary main_call13.cst_0 (constant S_ .f32 0x45400000#32),
    StableHlo.TRef.unary main_call13.cst_0 main_call13.v2 (broadcastInDim S1x64 ![] bcast_S_S1x64),
    StableHlo.TRef.binary main_call13.v1 main_call13.v2 main_call13.v3 Host.divf,
    StableHlo.TRef.unary main_call13.v3 main_call13.v4 (broadcastInDim S3072x64 ![0, 1] bcast_S1x64_S3072x64_0_1),
    StableHlo.TRef.binary (.of main_v260 : StableHlo.TRef sig ⟨S3072x64, .f32⟩) main_call13.v4 main_call13.v5 subf,
    StableHlo.TRef.binary main_call13.v5 main_call13.v5 main_call13.v6 mulf,
    StableHlo.TRef.unary (.of main_c_37 : StableHlo.TRef sig ⟨S_, .i32⟩) main_call13.v7 (sitofp .f32),
    StableHlo.TRef.nullary main_call13.cst_1 (constant S_ .f32 0x45400000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S3072x64_S64_d0 h_S_),
    StableHlo.TRef.unary main_call13.v8 main_call13.v10 (broadcastInDim S64 ![] bcast_S_S64),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S64 ![] bcast_S_S64),
    StableHlo.TRef.ternary main_call13.v12 main_call13.v11 main_call13.call0.v1 main_call13.call0.v2 (fun p a b => select (broadcastInDim S64 ![] bcast_S_S64 p) a b),
    StableHlo.unary main_v267 main_v269 (broadcastInDim S1x64 ![1] bcast_S64_S1x64_1 : (⟨S64, .f32⟩ : BufTy).Contents (Elt F) → (⟨S1x64, .f32⟩ : BufTy).Contents (Elt F)),
    StableHlo.unary main_v269 main_v270 (broadcastInDim S3072x64 ![0, 1] bcast_S1x64_S3072x64_0_1 : (⟨S1x64, .f32⟩ : BufTy).Contents (Elt F) → (⟨S3072x64, .f32⟩ : BufTy).Contents (Elt F)),
    StableHlo.binary main_v260 main_v270 main_v271 (subf : (⟨S3072x64, .f32⟩ : BufTy).Contents (Elt F) → (⟨S3072x64, .f32⟩ : BufTy).Contents (Elt F) → (⟨S3072x64, .f32⟩ : BufTy).Contents (Elt F)),
    StableHlo.nullary main_cst_38 (constant S_ .f32 0x3727C5AC#32),
    StableHlo.unary main_cst_38 main_v272 (broadcastInDim S64 ![] bcast_S_S64 : (⟨S_, .f32⟩ : BufTy).Contents (Elt F) → (⟨S64, .f32⟩ : BufTy).Contents (Elt F)),
    StableHlo.binary main_v268 main_v272 main_v273 (addf : (⟨S64, .f32⟩ : BufTy).Contents (Elt F) → (⟨S64, .f32⟩ : BufTy).Contents (Elt F) → (⟨S64, .f32⟩ : BufTy).Contents (Elt F)),
    StableHlo.unary main_v273 main_v274 (Host.rsqrt : (⟨S64, .f32⟩ : BufTy).Contents (Elt F) → (⟨S64, .f32⟩ : BufTy).Contents (Elt F)),
    StableHlo.unary main_v274 main_v275 (broadcastInDim S1x64 ![1] bcast_S64_S1x64_1 : (⟨S64, .f32⟩ : BufTy).Contents (Elt F) → (⟨S1x64, .f32⟩ : BufTy).Contents (Elt F)),
    StableHlo.unary main_v275 main_v276 (broadcastInDim S3072x64 ![0, 1] bcast_S1x64_S3072x64_0_1 : (⟨S1x64, .f32⟩ : BufTy).Contents (Elt F) → (⟨S3072x64, .f32⟩ : BufTy).Contents (Elt F)),
    StableHlo.binary main_v271 main_v276 main_v277 (mulf : (⟨S3072x64, .f32⟩ : BufTy).Contents (Elt F) → (⟨S3072x64, .f32⟩ : BufTy).Contents (Elt F) → (⟨S3072x64, .f32⟩ : BufTy).Contents (Elt F)),
    StableHlo.unary main_v262 main_v278 (broadcastInDim S1x64 ![1] bcast_S64_S1x64_1 : (⟨S64, .f32⟩ : BufTy).Contents (Elt F) → (⟨S1x64, .f32⟩ : BufTy).Contents (Elt F)),
    StableHlo.unary main_v278 main_v279 (broadcastInDim S3072x64 ![0, 1] bcast_S1x64_S3072x64_0_1 : (⟨S1x64, .f32⟩ : BufTy).Contents (Elt F) → (⟨S3072x64, .f32⟩ : BufTy).Contents (Elt F)),
    StableHlo.binary main_v277 main_v279 main_v280 (mulf : (⟨S3072x64, .f32⟩ : BufTy).Contents (Elt F) → (⟨S3072x64, .f32⟩ : BufTy).Contents (Elt F) → (⟨S3072x64, .f32⟩ : BufTy).Contents (Elt F)),
    StableHlo.unary main_v264 main_v281 (broadcastInDim S1x64 ![1] bcast_S64_S1x64_1 : (⟨S64, .f32⟩ : BufTy).Contents (Elt F) → (⟨S1x64, .f32⟩ : BufTy).Contents (Elt F)),
    StableHlo.unary main_v281 main_v282 (broadcastInDim S3072x64 ![0, 1] bcast_S1x64_S3072x64_0_1 : (⟨S1x64, .f32⟩ : BufTy).Contents (Elt F) → (⟨S3072x64, .f32⟩ : BufTy).Contents (Elt F)),
    StableHlo.binary main_v280 main_v282 main_v283 (addf : (⟨S3072x64, .f32⟩ : BufTy).Contents (Elt F) → (⟨S3072x64, .f32⟩ : BufTy).Contents (Elt F) → (⟨S3072x64, .f32⟩ : BufTy).Contents (Elt F)) ]

/-- The references stretch C1's operations write, in order. -/
abbrev str_C1_W : List (Ref sig .tc) :=
  [main_v227, main_v228, main_v229, main_v230, main_v231, main_v232, main_v233, main_v234, main_v235, main_v236, main_c_32, main_v237, main_v238, main_c_33, main_v239, main_v240, main_v241, main_v242, main_v243, main_v244, main_call11_cst, main_call11_v0, main_v245, main_v246, main_v247, main_cst_34, main_v248, main_v249, main_v250, main_v251, main_v252, main_v253, main_v254, main_v255, main_call12_cst, main_call12_v0, main_v256, main_v257, main_v258, main_v259, main_v260, main_v261, main_v262, main_v263, main_v264, main_cst_35, main_v265, main_cst_36, main_v266, main_v267, main_c_37, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v268, main_v269, main_v270, main_v271, main_cst_38, main_v272, main_v273, main_v274, main_v275, main_v276, main_v277, main_v278, main_v279, main_v280, main_v281, main_v282, main_v283]

/-- Stretch D1: operations 429 … 441 of @main's line. -/
abbrev str_D1 : List (HloOp τ sig (Elt F)) :=
  [ StableHlo.nullary main_c_39 (constantI S_ 32 0#32),
    StableHlo.unary main_c_39 main_v284 (broadcastInDim S147456 ![] bcast_S_S147456 : (⟨S_, .i32⟩ : BufTy).Contents (Elt F) → (⟨S147456, .i32⟩ : BufTy).Contents (Elt F)),
    StableHlo.binary main_v22 main_v284 main_v285 (cmpi .slt : (⟨S147456, .i32⟩ : BufTy).Contents (Elt F) → (⟨S147456, .i32⟩ : BufTy).Contents (Elt F) → (⟨S147456, .i1⟩ : BufTy).Contents (Elt F)),
    StableHlo.nullary main_c_40 (constantI S_ 32 3072#32),
    StableHlo.unary main_c_40 main_v286 (broadcastInDim S147456 ![] bcast_S_S147456 : (⟨S_, .i32⟩ : BufTy).Contents (Elt F) → (⟨S147456, .i32⟩ : BufTy).Contents (Elt F)),
    StableHlo.binary main_v22 main_v286 main_v287 (addi : (⟨S147456, .i32⟩ : BufTy).Contents (Elt F) → (⟨S147456, .i32⟩ : BufTy).Contents (Elt F) → (⟨S147456, .i32⟩ : BufTy).Contents (Elt F)),
    StableHlo.ternary main_v285 main_v287 main_v22 main_v288 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v288 main_v289 (broadcastInDim S147456x1 ![0] bcast_S147456_S147456x1_0 : (⟨S147456, .i32⟩ : BufTy).Contents (Elt F) → (⟨S147456x1, .i32⟩ : BufTy).Contents (Elt F)),
    StableHlo.binary main_v283 main_v289 main_v290 ((fun x i => Host.gather gather_S3072x64_S147456x1_S147456x64_1_0_n_n_0_1_164 x i) : (⟨S3072x64, .f32⟩ : BufTy).Contents (Elt F) → (⟨S147456x1, .i32⟩ : BufTy).Contents (Elt F) → (⟨S147456x64, .f32⟩ : BufTy).Contents (Elt F)),
    StableHlo.binary main_v214 main_v290 main_v291 (addf : (⟨S147456x64, .f32⟩ : BufTy).Contents (Elt F) → (⟨S147456x64, .f32⟩ : BufTy).Contents (Elt F) → (⟨S147456x64, .f32⟩ : BufTy).Contents (Elt F)),
    StableHlo.TRef.nullary main_call14.cst (constant S_ .f32 0x00000000#32),
    StableHlo.TRef.unary main_call14.cst main_call14.v0 (broadcastInDim S147456x64 ![] bcast_S_S147456x64),
    StableHlo.TRef.binary (.of main_v291 : StableHlo.TRef sig ⟨S147456x64, .f32⟩) main_call14.v0 main_call14.v1 maximumf ]

/-- The references stretch D1's operations write, in order. -/
abbrev str_D1_W : List (Ref sig .tc) :=
  [main_c_39, main_v284, main_v285, main_c_40, main_v286, main_v287, main_v288, main_v289, main_v290, main_v291, main_call14_cst, main_call14_v0, main_v292]

/-- Stretch A2: operations 442 … 530 of @main's line. -/
abbrev str_A2 : List (HloOp τ sig (Elt F)) :=
  [ StableHlo.unary main_arg7 main_v293 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v293 main_v294 rfl shapeCasts_S1x64x128_S64x128,
    StableHlo.unary main_arg8 main_v295 ((extractStridedSlice S1x128 ![2, 0] · slices_S3x128_S1x128_2_0) : (⟨S3x128, .f32⟩ : BufTy).Contents (Elt F) → (⟨S1x128, .f32⟩ : BufTy).Contents (Elt F)),
    StableHlo.reshape main_v295 main_v296 rfl shapeCasts_S1x128_S128,
    StableHlo.unary main_arg9 main_v297 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v297 main_v298 rfl shapeCasts_S1x128x64_S128x64,
    StableHlo.unary main_arg10 main_v299 ((extractStridedSlice S1x64 ![2, 0] · slices_S3x64_S1x64_2_0) : (⟨S3x64, .f32⟩ : BufTy).Contents (Elt F) → (⟨S1x64, .f32⟩ : BufTy).Contents (Elt F)),
    StableHlo.reshape main_v299 main_v300 rfl shapeCasts_S1x64_S64,
    StableHlo.unary main_arg23 main_v301 ((extractStridedSlice S1x884736 ![0, 0] · slices_S2x884736_S1x884736_0_0) : (⟨S2x884736, .i32⟩ : BufTy).Contents (Elt F) → (⟨S1x884736, .i32⟩ : BufTy).Contents (Elt F)),
    StableHlo.reshape main_v301 main_v302 rfl shapeCasts_S1x884736_S884736,
    StableHlo.nullary main_c_41 (constantI S_ 32 0#32),
    StableHlo.unary main_c_41 main_v303 (broadcastInDim S884736 ![] bcast_S_S884736 : (⟨S_, .i32⟩ : BufTy).Contents (Elt F) → (⟨S884736, .i32⟩ : BufTy).Contents (Elt F)),
    StableHlo.binary main_v302 main_v303 main_v304 (cmpi .slt : (⟨S884736, .i32⟩ : BufTy).Contents (Elt F) → (⟨S884736, .i32⟩ : BufTy).Contents (Elt F) → (⟨S884736, .i1⟩ : BufTy).Contents (Elt F)),
    StableHlo.nullary main_c_42 (constantI S_ 32 147456#32),
    StableHlo.unary main_c_42 main_v305 (broadcastInDim S884736 ![] bcast_S_S884736 : (⟨S_, .i32⟩ : BufTy).Contents (Elt F) → (⟨S884736, .i32⟩ : BufTy).Contents (Elt F)),
    StableHlo.binary main_v302 main_v305 main_v306 (addi : (⟨S884736, .i32⟩ : BufTy).Contents (Elt F) → (⟨S884736, .i32⟩ : BufTy).Contents (Elt F) → (⟨S884736, .i32⟩ : BufTy).Contents (Elt F)),
    StableHlo.ternary main_v304 main_v306 main_v302 main_v307 (select : (⟨S884736, .i1⟩ : BufTy).Contents (Elt F) → (⟨S884736, .i32⟩ : BufTy).Contents (Elt F) → (⟨S884736, .i32⟩ : BufTy).Contents (Elt F) → (⟨S884736, .i32⟩ : BufTy).Contents (Elt F)),
    StableHlo.unary main_v307 main_v308 (broadcastInDim S884736x1 ![0] bcast_S884736_S884736x1_0 : (⟨S884736, .i32⟩ : BufTy).Contents (Elt F) → (⟨S884736x1, .i32⟩ : BufTy).Contents (Elt F)),
    StableHlo.binary main_v292 main_v308 main_v309 ((fun x i => Host.gather gather_S147456x64_S884736x1_S884736x64_1_0_n_n_0_1_164 x i) : (⟨S147456x64, .f32⟩ : BufTy).Contents (Elt F) → (⟨S884736x1, .i32⟩ : BufTy).Contents (Elt F) → (⟨S884736x64, .f32⟩ : BufTy).Contents (Elt F)),
    StableHlo.binary main_v309 main_v7 main_v310 (addf : (⟨S884736x64, .f32⟩ : BufTy).Contents (Elt F) → (⟨S884736x64, .f32⟩ : BufTy).Contents (Elt F) → (⟨S884736x64, .f32⟩ : BufTy).Contents (Elt F)),
    StableHlo.TRef.nullary main_call15.cst (constant S_ .f32 0x00000000#32),
    StableHlo.TRef.unary main_call15.cst main_call15.v0 (broadcastInDim S884736x64 ![] bcast_S_S884736x64),
    StableHlo.TRef.binary (.of main_v310 : StableHlo.TRef sig ⟨S884736x64, .f32⟩) main_call15.v0 main_call15.v1 maximumf,
    StableHlo.unary main_arg23 main_v312 ((extractStridedSlice S1x884736 ![1, 0] · slices_S2x884736_S1x884736_1_0) : (⟨S2x884736, .i32⟩ : BufTy).Contents (Elt F) → (⟨S1x884736, .i32⟩ : BufTy).Contents (Elt F)),
    StableHlo.reshape main_v312 main_v313 rfl shapeCasts_S1x884736_S884736,
    StableHlo.nullary main_cst_43 (constant S_ .f32 0x00000000#32),
    StableHlo.unary main_cst_43 main_v314 (broadcastInDim S147456x64 ![] bcast_S_S147456x64 : (⟨S_, .f32⟩ : BufTy).Contents (Elt F) → (⟨S147456x64, .f32⟩ : BufTy).Contents (Elt F)),
    StableHlo.unary main_v313 main_v315 (broadcastInDim S884736x1 ![0] bcast_S884736_S884736x1_0 : (⟨S884736, .i32⟩ : BufTy).Contents (Elt F) → (⟨S884736x1, .i32⟩ : BufTy).Contents (Elt F)),
    StableHlo.ternary main_v314 main_v315 main_v311 main_v316 ((fun x i u => Host.scatterAdd scatter_S147456x64_S884736x1_S884736x64_1_0_0_1 x i u) : (⟨S147456x64, .f32⟩ : BufTy).Contents (Elt F) → (⟨S884736x1, .i32⟩ : BufTy).Contents (Elt F) → (⟨S884736x64, .f32⟩ : BufTy).Contents (Elt F) → (⟨S147456x64, .f32⟩ : BufTy).Contents (Elt F)),
    StableHlo.binary main_v292 main_v316 main_v317 (addf : (⟨S147456x64, .f32⟩ : BufTy).Contents (Elt F) → (⟨S147456x64, .f32⟩ : BufTy).Contents (Elt F) → (⟨S147456x64, .f32⟩ : BufTy).Contents (Elt F)),
    StableHlo.binary main_v317 main_v294 main_v318 ((fun l r => Host.dotGeneral dot_S147456x64_S64x128_S147456x128_1_0_0_1_n_n none l r) : (⟨S147456x64, .f32⟩ : BufTy).Contents (Elt F) → (⟨S64x128, .f32⟩ : BufTy).Contents (Elt F) → (⟨S147456x128, .f32⟩ : BufTy).Contents (Elt F)),
    StableHlo.unary main_v296 main_v319 (broadcastInDim S1x128 ![1] bcast_S128_S1x128_1 : (⟨S128, .f32⟩ : BufTy).Contents (Elt F) → (⟨S1x128, .f32⟩ : BufTy).Contents (Elt F)),
    StableHlo.unary main_v319 main_v320 (broadcastInDim S147456x128 ![0, 1] bcast_S1x128_S147456x128_0_1 : (⟨S1x128, .f32⟩ : BufTy).Contents (Elt F) → (⟨S147456x128, .f32⟩ : BufTy).Contents (Elt F)),
    StableHlo.binary main_v318 main_v320 main_v321 (addf : (⟨S147456x128, .f32⟩ : BufTy).Contents (Elt F) → (⟨S147456x128, .f32⟩ : BufTy).Contents (Elt F) → (⟨S147456x128, .f32⟩ : BufTy).Contents (Elt F)),
    StableHlo.TRef.nullary main_call16.cst (constant S_ .f32 0x00000000#32),
    StableHlo.TRef.unary main_call16.cst main_call16.v0 (broadcastInDim S147456x128 ![] bcast_S_S147456x128),
    StableHlo.TRef.binary (.of main_v321 : StableHlo.TRef sig ⟨S147456x128, .f32⟩) main_call16.v0 main_call16.v1 maximumf,
    StableHlo.binary main_v322 main_v298 main_v323 ((fun l r => Host.dotGeneral dot_S147456x128_S128x64_S147456x64_1_0_0_1_n_n none l r) : (⟨S147456x128, .f32⟩ : BufTy).Contents (Elt F) → (⟨S128x64, .f32⟩ : BufTy).Contents (Elt F) → (⟨S147456x64, .f32⟩ : BufTy).Contents (Elt F)),
    StableHlo.unary main_v300 main_v324 (broadcastInDim S1x64 ![1] bcast_S64_S1x64_1 : (⟨S64, .f32⟩ : BufTy).Contents (Elt F) → (⟨S1x64, .f32⟩ : BufTy).Contents (Elt F)),
    StableHlo.unary main_v324 main_v325 (broadcastInDim S147456x64 ![0, 1] bcast_S1x64_S147456x64_0_1 : (⟨S1x64, .f32⟩ : BufTy).Contents (Elt F) → (⟨S147456x64, .f32⟩ : BufTy).Contents (Elt F)),
    StableHlo.binary main_v323 main_v325 main_v326 (addf : (⟨S147456x64, .f32⟩ : BufTy).Contents (Elt F) → (⟨S147456x64, .f32⟩ : BufTy).Contents (Elt F) → (⟨S147456x64, .f32⟩ : BufTy).Contents (Elt F)),
    StableHlo.unary main_arg11 main_v327 ((extractStridedSlice S1x64 ![2, 0] · slices_S3x64_S1x64_2_0) : (⟨S3x64, .f32⟩ : BufTy).Contents (Elt F) → (⟨S1x64, .f32⟩ : BufTy).Contents (Elt F)),
    StableHlo.reshape main_v327 main_v328 rfl shapeCasts_S1x64_S64,
    StableHlo.unary main_arg12 main_v329 ((extractStridedSlice S1x64 ![2, 0] · slices_S3x64_S1x64_2_0) : (⟨S3x64, .f32⟩ : BufTy).Contents (Elt F) → (⟨S1x64, .f32⟩ : BufTy).Contents (Elt F)),
    StableHlo.reshape main_v329 main_v330 rfl shapeCasts_S1x64_S64,
    StableHlo.nullary main_cst_44 (constant S_ .f32 0x00000000#32),
    StableHlo.binary main_v326 main_cst_44 main_v331 ((fun x v => Host.reduceAdd x v reducesTo_S147456x64_S64_d0 h_S_) : (⟨S147456x64, .f32⟩ : BufTy).Contents (Elt F) → (⟨S_, .f32⟩ : BufTy).Contents (Elt F) → (⟨S64, .f32⟩ : BufTy).Contents (Elt F)),
    StableHlo.nullary main_cst_45 (constant S_ .f32 0x48100000#32),
    StableHlo.unary main_cst_45 main_v332 (broadcastInDim S64 ![] bcast_S_S64 : (⟨S_, .f32⟩ : BufTy).Contents (Elt F) → (⟨S64, .f32⟩ : BufTy).Contents (Elt F)),
    StableHlo.binary main_v331 main_v332 main_v333 (Host.divf : (⟨S64, .f32⟩ : BufTy).Contents (Elt F) → (⟨S64, .f32⟩ : BufTy).Contents (Elt F) → (⟨S64, .f32⟩ : BufTy).Contents (Elt F)),
    StableHlo.nullary main_c_46 (constantI S_ 32 0#32),
    StableHlo.TRef.nullary main_call17.cst (constant S_ .f32 0x00000000#32),
    StableHlo.TRef.binary (.of main_v326 : StableHlo.TRef sig ⟨S147456x64, .f32⟩) main_call17.cst main_call17.v0 (fun x v => Host.reduceAdd x v reducesTo_S147456x64_S64_d0 h_S_),
    StableHlo.TRef.unary main_call17.v0 main_call17.v1 (broadcastInDim S1x64 ![1] bcast_S64_S1x64_1),
    StableHlo.TRef.nullary main_call17.cst_0 (constant S_ .f32 0x48100000#32),
    StableHlo.TRef.unary main_call17.cst_0 main_call17.v2 (broadcastInDim S1x64 ![] bcast_S_S1x64),
    StableHlo.TRef.binary main_call17.v1 main_call17.v2 main_call17.v3 Host.divf,
    StableHlo.TRef.unary main_call17.v3 main_call17.v4 (broadcastInDim S147456x64 ![0, 1] bcast_S1x64_S147456x64_0_1),
    StableHlo.TRef.binary (.of main_v326 : StableHlo.TRef sig ⟨S147456x64, .f32⟩) main_call17.v4 main_call17.v5 subf,
    StableHlo.TRef.binary main_call17.v5 main_call17.v5 main_call17.v6 mulf,
    StableHlo.TRef.unary (.of main_c_46 : StableHlo.TRef sig ⟨S_, .i32⟩) main_call17.v7 (sitofp .f32),
    StableHlo.TRef.nullary main_call17.cst_1 (constant S_ .f32 0x48100000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S147456x64_S64_d0 h_S_),
    StableHlo.TRef.unary main_call17.v8 main_call17.v10 (broadcastInDim S64 ![] bcast_S_S64),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S64 ![] bcast_S_S64),
    StableHlo.TRef.ternary main_call17.v12 main_call17.v11 main_call17.call0.v1 main_call17.call0.v2 (fun p a b => select (broadcastInDim S64 ![] bcast_S_S64 p) a b),
    StableHlo.unary main_v333 main_v335 (broadcastInDim S1x64 ![1] bcast_S64_S1x64_1 : (⟨S64, .f32⟩ : BufTy).Contents (Elt F) → (⟨S1x64, .f32⟩ : BufTy).Contents (Elt F)),
    StableHlo.unary main_v335 main_v336 (broadcastInDim S147456x64 ![0, 1] bcast_S1x64_S147456x64_0_1 : (⟨S1x64, .f32⟩ : BufTy).Contents (Elt F) → (⟨S147456x64, .f32⟩ : BufTy).Contents (Elt F)),
    StableHlo.binary main_v326 main_v336 main_v337 (subf : (⟨S147456x64, .f32⟩ : BufTy).Contents (Elt F) → (⟨S147456x64, .f32⟩ : BufTy).Contents (Elt F) → (⟨S147456x64, .f32⟩ : BufTy).Contents (Elt F)),
    StableHlo.nullary main_cst_47 (constant S_ .f32 0x3727C5AC#32),
    StableHlo.unary main_cst_47 main_v338 (broadcastInDim S64 ![] bcast_S_S64 : (⟨S_, .f32⟩ : BufTy).Contents (Elt F) → (⟨S64, .f32⟩ : BufTy).Contents (Elt F)),
    StableHlo.binary main_v334 main_v338 main_v339 (addf : (⟨S64, .f32⟩ : BufTy).Contents (Elt F) → (⟨S64, .f32⟩ : BufTy).Contents (Elt F) → (⟨S64, .f32⟩ : BufTy).Contents (Elt F)),
    StableHlo.unary main_v339 main_v340 (Host.rsqrt : (⟨S64, .f32⟩ : BufTy).Contents (Elt F) → (⟨S64, .f32⟩ : BufTy).Contents (Elt F)),
    StableHlo.unary main_v340 main_v341 (broadcastInDim S1x64 ![1] bcast_S64_S1x64_1 : (⟨S64, .f32⟩ : BufTy).Contents (Elt F) → (⟨S1x64, .f32⟩ : BufTy).Contents (Elt F)),
    StableHlo.unary main_v341 main_v342 (broadcastInDim S147456x64 ![0, 1] bcast_S1x64_S147456x64_0_1 : (⟨S1x64, .f32⟩ : BufTy).Contents (Elt F) → (⟨S147456x64, .f32⟩ : BufTy).Contents (Elt F)),
    StableHlo.binary main_v337 main_v342 main_v343 (mulf : (⟨S147456x64, .f32⟩ : BufTy).Contents (Elt F) → (⟨S147456x64, .f32⟩ : BufTy).Contents (Elt F) → (⟨S147456x64, .f32⟩ : BufTy).Contents (Elt F)),
    StableHlo.unary main_v328 main_v344 (broadcastInDim S1x64 ![1] bcast_S64_S1x64_1 : (⟨S64, .f32⟩ : BufTy).Contents (Elt F) → (⟨S1x64, .f32⟩ : BufTy).Contents (Elt F)),
    StableHlo.unary main_v344 main_v345 (broadcastInDim S147456x64 ![0, 1] bcast_S1x64_S147456x64_0_1 : (⟨S1x64, .f32⟩ : BufTy).Contents (Elt F) → (⟨S147456x64, .f32⟩ : BufTy).Contents (Elt F)),
    StableHlo.binary main_v343 main_v345 main_v346 (mulf : (⟨S147456x64, .f32⟩ : BufTy).Contents (Elt F) → (⟨S147456x64, .f32⟩ : BufTy).Contents (Elt F) → (⟨S147456x64, .f32⟩ : BufTy).Contents (Elt F)),
    StableHlo.unary main_v330 main_v347 (broadcastInDim S1x64 ![1] bcast_S64_S1x64_1 : (⟨S64, .f32⟩ : BufTy).Contents (Elt F) → (⟨S1x64, .f32⟩ : BufTy).Contents (Elt F)),
    StableHlo.unary main_v347 main_v348 (broadcastInDim S147456x64 ![0, 1] bcast_S1x64_S147456x64_0_1 : (⟨S1x64, .f32⟩ : BufTy).Contents (Elt F) → (⟨S147456x64, .f32⟩ : BufTy).Contents (Elt F)),
    StableHlo.binary main_v346 main_v348 main_v349 (addf : (⟨S147456x64, .f32⟩ : BufTy).Contents (Elt F) → (⟨S147456x64, .f32⟩ : BufTy).Contents (Elt F) → (⟨S147456x64, .f32⟩ : BufTy).Contents (Elt F)) ]

/-- The references stretch A2's operations write, in order. -/
abbrev str_A2_W : List (Ref sig .tc) :=
  [main_v293, main_v294, main_v295, main_v296, main_v297, main_v298, main_v299, main_v300, main_v301, main_v302, main_c_41, main_v303, main_v304, main_c_42, main_v305, main_v306, main_v307, main_v308, main_v309, main_v310, main_call15_cst, main_call15_v0, main_v311, main_v312, main_v313, main_cst_43, main_v314, main_v315, main_v316, main_v317, main_v318, main_v319, main_v320, main_v321, main_call16_cst, main_call16_v0, main_v322, main_v323, main_v324, main_v325, main_v326, main_v327, main_v328, main_v329, main_v330, main_cst_44, main_v331, main_cst_45, main_v332, main_v333, main_c_46, main_call17_cst, main_call17_v0, main_call17_v1, main_call17_cst_0, main_call17_v2, main_call17_v3, main_call17_v4, main_call17_v5, main_call17_v6, main_call17_v7, main_call17_cst_1, main_call17_v8, main_call17_cst_2, main_call17_v9, main_call17_v10, main_call17_v11, main_call17_cst_3, main_call17_v12, main_call17_cst_4, main_call17_call0_v0, main_call17_call0_v1, main_v334, main_v335, main_v336, main_v337, main_cst_47, main_v338, main_v339, main_v340, main_v341, main_v342, main_v343, main_v344, main_v345, main_v346, main_v347, main_v348, main_v349]

/-- Stretch B2: operations 531 … 546 of @main's line. -/
abbrev str_B2 : List (HloOp τ sig (Elt F)) :=
  [ StableHlo.nullary main_cst_48 (constant S_ .f32 0x3F800000#32),
    StableHlo.unary main_cst_48 main_v350 (broadcastInDim S147456 ![] bcast_S_S147456 : (⟨S_, .f32⟩ : BufTy).Contents (Elt F) → (⟨S147456, .f32⟩ : BufTy).Contents (Elt F)),
    StableHlo.nullary main_cst_49 (constant S_ .f32 0x00000000#32),
    StableHlo.unary main_cst_49 main_v351 (broadcastInDim S3072 ![] bcast_S_S3072 : (⟨S_, .f32⟩ : BufTy).Contents (Elt F) → (⟨S3072, .f32⟩ : BufTy).Contents (Elt F)),
    StableHlo.unary main_v22 main_v352 (broadcastInDim S147456x1 ![0] bcast_S147456_S147456x1_0 : (⟨S147456, .i32⟩ : BufTy).Contents (Elt F) → (⟨S147456x1, .i32⟩ : BufTy).Contents (Elt F)),
    StableHlo.ternary main_v351 main_v352 main_v350 main_v353 ((fun x i u => Host.scatterAdd scatter_S3072_S147456x1_S147456_n_0_0_1 x i u) : (⟨S3072, .f32⟩ : BufTy).Contents (Elt F) → (⟨S147456x1, .i32⟩ : BufTy).Contents (Elt F) → (⟨S147456, .f32⟩ : BufTy).Contents (Elt F) → (⟨S3072, .f32⟩ : BufTy).Contents (Elt F)),
    StableHlo.nullary main_cst_50 (constant S_ .f32 0x3F800000#32),
    StableHlo.unary main_cst_50 main_v354 (broadcastInDim S3072 ![] bcast_S_S3072 : (⟨S_, .f32⟩ : BufTy).Contents (Elt F) → (⟨S3072, .f32⟩ : BufTy).Contents (Elt F)),
    StableHlo.binary main_v353 main_v354 main_v355 (maximumf : (⟨S3072, .f32⟩ : BufTy).Contents (Elt F) → (⟨S3072, .f32⟩ : BufTy).Contents (Elt F) → (⟨S3072, .f32⟩ : BufTy).Contents (Elt F)),
    StableHlo.nullary main_cst_51 (constant S_ .f32 0x00000000#32),
    StableHlo.unary main_cst_51 main_v356 (broadcastInDim S3072x64 ![] bcast_S_S3072x64 : (⟨S_, .f32⟩ : BufTy).Contents (Elt F) → (⟨S3072x64, .f32⟩ : BufTy).Contents (Elt F)),
    StableHlo.unary main_v22 main_v357 (broadcastInDim S147456x1 ![0] bcast_S147456_S147456x1_0 : (⟨S147456, .i32⟩ : BufTy).Contents (Elt F) → (⟨S147456x1, .i32⟩ : BufTy).Contents (Elt F)),
    StableHlo.ternary main_v356 main_v357 main_v292 main_v358 ((fun x i u => Host.scatterAdd scatter_S3072x64_S147456x1_S147456x64_1_0_0_1 x i u) : (⟨S3072x64, .f32⟩ : BufTy).Contents (Elt F) → (⟨S147456x1, .i32⟩ : BufTy).Contents (Elt F) → (⟨S147456x64, .f32⟩ : BufTy).Contents (Elt F) → (⟨S3072x64, .f32⟩ : BufTy).Contents (Elt F)),
    StableHlo.unary main_v355 main_v359 (broadcastInDim S3072x1 ![0] bcast_S3072_S3072x1_0 : (⟨S3072, .f32⟩ : BufTy).Contents (Elt F) → (⟨S3072x1, .f32⟩ : BufTy).Contents (Elt F)),
    StableHlo.unary main_v359 main_v360 (broadcastInDim S3072x64 ![0, 1] bcast_S3072x1_S3072x64_0_1 : (⟨S3072x1, .f32⟩ : BufTy).Contents (Elt F) → (⟨S3072x64, .f32⟩ : BufTy).Contents (Elt F)),
    StableHlo.binary main_v358 main_v360 main_v361 (Host.divf : (⟨S3072x64, .f32⟩ : BufTy).Contents (Elt F) → (⟨S3072x64, .f32⟩ : BufTy).Contents (Elt F) → (⟨S3072x64, .f32⟩ : BufTy).Contents (Elt F)) ]

/-- The references stretch B2's operations write, in order. -/
abbrev str_B2_W : List (Ref sig .tc) :=
  [main_cst_48, main_v350, main_cst_49, main_v351, main_v352, main_v353, main_cst_50, main_v354, main_v355, main_cst_51, main_v356, main_v357, main_v358, main_v359, main_v360, main_v361]

/-- Stretch C2: operations 547 … 635 of @main's line. -/
abbrev str_C2 : List (HloOp τ sig (Elt F)) :=
  [ StableHlo.unary main_arg13 main_v362 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v362 main_v363 rfl shapeCasts_S1x64x128_S64x128,
    StableHlo.unary main_arg14 main_v364 ((extractStridedSlice S1x128 ![2, 0] · slices_S3x128_S1x128_2_0) : (⟨S3x128, .f32⟩ : BufTy).Contents (Elt F) → (⟨S1x128, .f32⟩ : BufTy).Contents (Elt F)),
    StableHlo.reshape main_v364 main_v365 rfl shapeCasts_S1x128_S128,
    StableHlo.unary main_arg15 main_v366 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v366 main_v367 rfl shapeCasts_S1x128x64_S128x64,
    StableHlo.unary main_arg16 main_v368 ((extractStridedSlice S1x64 ![2, 0] · slices_S3x64_S1x64_2_0) : (⟨S3x64, .f32⟩ : BufTy).Contents (Elt F) → (⟨S1x64, .f32⟩ : BufTy).Contents (Elt F)),
    StableHlo.reshape main_v368 main_v369 rfl shapeCasts_S1x64_S64,
    StableHlo.unary main_arg24 main_v370 ((extractStridedSlice S1x18432 ![0, 0] · slices_S2x18432_S1x18432_0_0) : (⟨S2x18432, .i32⟩ : BufTy).Contents (Elt F) → (⟨S1x18432, .i32⟩ : BufTy).Contents (Elt F)),
    StableHlo.reshape main_v370 main_v371 rfl shapeCasts_S1x18432_S18432,
    StableHlo.nullary main_c_52 (constantI S_ 32 0#32),
    StableHlo.unary main_c_52 main_v372 (broadcastInDim S18432 ![] bcast_S_S18432 : (⟨S_, .i32⟩ : BufTy).Contents (Elt F) → (⟨S18432, .i32⟩ : BufTy).Contents (Elt F)),
    StableHlo.binary main_v371 main_v372 main_v373 (cmpi .slt : (⟨S18432, .i32⟩ : BufTy).Contents (Elt F) → (⟨S18432, .i32⟩ : BufTy).Contents (Elt F) → (⟨S18432, .i1⟩ : BufTy).Contents (Elt F)),
    StableHlo.nullary main_c_53 (constantI S_ 32 3072#32),
    StableHlo.unary main_c_53 main_v374 (broadcastInDim S18432 ![] bcast_S_S18432 : (⟨S_, .i32⟩ : BufTy).Contents (Elt F) → (⟨S18432, .i32⟩ : BufTy).Contents (Elt F)),
    StableHlo.binary main_v371 main_v374 main_v375 (addi : (⟨S18432, .i32⟩ : BufTy).Contents (Elt F) → (⟨S18432, .i32⟩ : BufTy).Contents (Elt F) → (⟨S18432, .i32⟩ : BufTy).Contents (Elt F)),
    StableHlo.ternary main_v373 main_v375 main_v371 main_v376 (select : (⟨S18432, .i1⟩ : BufTy).Contents (Elt F) → (⟨S18432, .i32⟩ : BufTy).Contents (Elt F) → (⟨S18432, .i32⟩ : BufTy).Contents (Elt F) → (⟨S18432, .i32⟩ : BufTy).Contents (Elt F)),
    StableHlo.unary main_v376 main_v377 (broadcastInDim S18432x1 ![0] bcast_S18432_S18432x1_0 : (⟨S18432, .i32⟩ : BufTy).Contents (Elt F) → (⟨S18432x1, .i32⟩ : BufTy).Contents (Elt F)),
    StableHlo.binary main_v361 main_v377 main_v378 ((fun x i => Host.gather gather_S3072x64_S18432x1_S18432x64_1_0_n_n_0_1_164 x i) : (⟨S3072x64, .f32⟩ : BufTy).Contents (Elt F) → (⟨S18432x1, .i32⟩ : BufTy).Contents (Elt F) → (⟨S18432x64, .f32⟩ : BufTy).Contents (Elt F)),
    StableHlo.binary main_v378 main_v11 main_v379 (addf : (⟨S18432x64, .f32⟩ : BufTy).Contents (Elt F) → (⟨S18432x64, .f32⟩ : BufTy).Contents (Elt F) → (⟨S18432x64, .f32⟩ : BufTy).Contents (Elt F)),
    StableHlo.TRef.nullary main_call18.cst (constant S_ .f32 0x00000000#32),
    StableHlo.TRef.unary main_call18.cst main_call18.v0 (broadcastInDim S18432x64 ![] bcast_S_S18432x64),
    StableHlo.TRef.binary (.of main_v379 : StableHlo.TRef sig ⟨S18432x64, .f32⟩) main_call18.v0 main_call18.v1 maximumf,
    StableHlo.unary main_arg24 main_v381 ((extractStridedSlice S1x18432 ![1, 0] · slices_S2x18432_S1x18432_1_0) : (⟨S2x18432, .i32⟩ : BufTy).Contents (Elt F) → (⟨S1x18432, .i32⟩ : BufTy).Contents (Elt F)),
    StableHlo.reshape main_v381 main_v382 rfl shapeCasts_S1x18432_S18432,
    StableHlo.nullary main_cst_54 (constant S_ .f32 0x00000000#32),
    StableHlo.unary main_cst_54 main_v383 (broadcastInDim S3072x64 ![] bcast_S_S3072x64 : (⟨S_, .f32⟩ : BufTy).Contents (Elt F) → (⟨S3072x64, .f32⟩ : BufTy).Contents (Elt F)),
    StableHlo.unary main_v382 main_v384 (broadcastInDim S18432x1 ![0] bcast_S18432_S18432x1_0 : (⟨S18432, .i32⟩ : BufTy).Contents (Elt F) → (⟨S18432x1, .i32⟩ : BufTy).Contents (Elt F)),
    StableHlo.ternary main_v383 main_v384 main_v380 main_v385 ((fun x i u => Host.scatterAdd scatter_S3072x64_S18432x1_S18432x64_1_0_0_1 x i u) : (⟨S3072x64, .f32⟩ : BufTy).Contents (Elt F) → (⟨S18432x1, .i32⟩ : BufTy).Contents (Elt F) → (⟨S18432x64, .f32⟩ : BufTy).Contents (Elt F) → (⟨S3072x64, .f32⟩ : BufTy).Contents (Elt F)),
    StableHlo.binary main_v361 main_v385 main_v386 (addf : (⟨S3072x64, .f32⟩ : BufTy).Contents (Elt F) → (⟨S3072x64, .f32⟩ : BufTy).Contents (Elt F) → (⟨S3072x64, .f32⟩ : BufTy).Contents (Elt F)),
    StableHlo.binary main_v386 main_v363 main_v387 ((fun l r => Host.dotGeneral dot_S3072x64_S64x128_S3072x128_1_0_0_1_n_n none l r) : (⟨S3072x64, .f32⟩ : BufTy).Contents (Elt F) → (⟨S64x128, .f32⟩ : BufTy).Contents (Elt F) → (⟨S3072x128, .f32⟩ : BufTy).Contents (Elt F)),
    StableHlo.unary main_v365 main_v388 (broadcastInDim S1x128 ![1] bcast_S128_S1x128_1 : (⟨S128, .f32⟩ : BufTy).Contents (Elt F) → (⟨S1x128, .f32⟩ : BufTy).Contents (Elt F)),
    StableHlo.unary main_v388 main_v389 (broadcastInDim S3072x128 ![0, 1] bcast_S1x128_S3072x128_0_1 : (⟨S1x128, .f32⟩ : BufTy).Contents (Elt F) → (⟨S3072x128, .f32⟩ : BufTy).Contents (Elt F)),
    StableHlo.binary main_v387 main_v389 main_v390 (addf : (⟨S3072x128, .f32⟩ : BufTy).Contents (Elt F) → (⟨S3072x128, .f32⟩ : BufTy).Contents (Elt F) → (⟨S3072x128, .f32⟩ : BufTy).Contents (Elt F)),
    StableHlo.TRef.nullary main_call19.cst (constant S_ .f32 0x00000000#32),
    StableHlo.TRef.unary main_call19.cst main_call19.v0 (broadcastInDim S3072x128 ![] bcast_S_S3072x128),
    StableHlo.TRef.binary (.of main_v390 : StableHlo.TRef sig ⟨S3072x128, .f32⟩) main_call19.v0 main_call19.v1 maximumf,
    StableHlo.binary main_v391 main_v367 main_v392 ((fun l r => Host.dotGeneral dot_S3072x128_S128x64_S3072x64_1_0_0_1_n_n none l r) : (⟨S3072x128, .f32⟩ : BufTy).Contents (Elt F) → (⟨S128x64, .f32⟩ : BufTy).Contents (Elt F) → (⟨S3072x64, .f32⟩ : BufTy).Contents (Elt F)),
    StableHlo.unary main_v369 main_v393 (broadcastInDim S1x64 ![1] bcast_S64_S1x64_1 : (⟨S64, .f32⟩ : BufTy).Contents (Elt F) → (⟨S1x64, .f32⟩ : BufTy).Contents (Elt F)),
    StableHlo.unary main_v393 main_v394 (broadcastInDim S3072x64 ![0, 1] bcast_S1x64_S3072x64_0_1 : (⟨S1x64, .f32⟩ : BufTy).Contents (Elt F) → (⟨S3072x64, .f32⟩ : BufTy).Contents (Elt F)),
    StableHlo.binary main_v392 main_v394 main_v395 (addf : (⟨S3072x64, .f32⟩ : BufTy).Contents (Elt F) → (⟨S3072x64, .f32⟩ : BufTy).Contents (Elt F) → (⟨S3072x64, .f32⟩ : BufTy).Contents (Elt F)),
    StableHlo.unary main_arg17 main_v396 ((extractStridedSlice S1x64 ![2, 0] · slices_S3x64_S1x64_2_0) : (⟨S3x64, .f32⟩ : BufTy).Contents (Elt F) → (⟨S1x64, .f32⟩ : BufTy).Contents (Elt F)),
    StableHlo.reshape main_v396 main_v397 rfl shapeCasts_S1x64_S64,
    StableHlo.unary main_arg18 main_v398 ((extractStridedSlice S1x64 ![2, 0] · slices_S3x64_S1x64_2_0) : (⟨S3x64, .f32⟩ : BufTy).Contents (Elt F) → (⟨S1x64, .f32⟩ : BufTy).Contents (Elt F)),
    StableHlo.reshape main_v398 main_v399 rfl shapeCasts_S1x64_S64,
    StableHlo.nullary main_cst_55 (constant S_ .f32 0x00000000#32),
    StableHlo.binary main_v395 main_cst_55 main_v400 ((fun x v => Host.reduceAdd x v reducesTo_S3072x64_S64_d0 h_S_) : (⟨S3072x64, .f32⟩ : BufTy).Contents (Elt F) → (⟨S_, .f32⟩ : BufTy).Contents (Elt F) → (⟨S64, .f32⟩ : BufTy).Contents (Elt F)),
    StableHlo.nullary main_cst_56 (constant S_ .f32 0x45400000#32),
    StableHlo.unary main_cst_56 main_v401 (broadcastInDim S64 ![] bcast_S_S64 : (⟨S_, .f32⟩ : BufTy).Contents (Elt F) → (⟨S64, .f32⟩ : BufTy).Contents (Elt F)),
    StableHlo.binary main_v400 main_v401 main_v402 (Host.divf : (⟨S64, .f32⟩ : BufTy).Contents (Elt F) → (⟨S64, .f32⟩ : BufTy).Contents (Elt F) → (⟨S64, .f32⟩ : BufTy).Contents (Elt F)),
    StableHlo.nullary main_c_57 (constantI S_ 32 0#32),
    StableHlo.TRef.nullary main_call20.cst (constant S_ .f32 0x00000000#32),
    StableHlo.TRef.binary (.of main_v395 : StableHlo.TRef sig ⟨S3072x64, .f32⟩) main_call20.cst main_call20.v0 (fun x v => Host.reduceAdd x v reducesTo_S3072x64_S64_d0 h_S_),
    StableHlo.TRef.unary main_call20.v0 main_call20.v1 (broadcastInDim S1x64 ![1] bcast_S64_S1x64_1),
    StableHlo.TRef.nullary main_call20.cst_0 (constant S_ .f32 0x45400000#32),
    StableHlo.TRef.unary main_call20.cst_0 main_call20.v2 (broadcastInDim S1x64 ![] bcast_S_S1x64),
    StableHlo.TRef.binary main_call20.v1 main_call20.v2 main_call20.v3 Host.divf,
    StableHlo.TRef.unary main_call20.v3 main_call20.v4 (broadcastInDim S3072x64 ![0, 1] bcast_S1x64_S3072x64_0_1),
    StableHlo.TRef.binary (.of main_v395 : StableHlo.TRef sig ⟨S3072x64, .f32⟩) main_call20.v4 main_call20.v5 subf,
    StableHlo.TRef.binary main_call20.v5 main_call20.v5 main_call20.v6 mulf,
    StableHlo.TRef.unary (.of main_c_57 : StableHlo.TRef sig ⟨S_, .i32⟩) main_call20.v7 (sitofp .f32),
    StableHlo.TRef.nullary main_call20.cst_1 (constant S_ .f32 0x45400000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S3072x64_S64_d0 h_S_),
    StableHlo.TRef.unary main_call20.v8 main_call20.v10 (broadcastInDim S64 ![] bcast_S_S64),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S64 ![] bcast_S_S64),
    StableHlo.TRef.ternary main_call20.v12 main_call20.v11 main_call20.call0.v1 main_call20.call0.v2 (fun p a b => select (broadcastInDim S64 ![] bcast_S_S64 p) a b),
    StableHlo.unary main_v402 main_v404 (broadcastInDim S1x64 ![1] bcast_S64_S1x64_1 : (⟨S64, .f32⟩ : BufTy).Contents (Elt F) → (⟨S1x64, .f32⟩ : BufTy).Contents (Elt F)),
    StableHlo.unary main_v404 main_v405 (broadcastInDim S3072x64 ![0, 1] bcast_S1x64_S3072x64_0_1 : (⟨S1x64, .f32⟩ : BufTy).Contents (Elt F) → (⟨S3072x64, .f32⟩ : BufTy).Contents (Elt F)),
    StableHlo.binary main_v395 main_v405 main_v406 (subf : (⟨S3072x64, .f32⟩ : BufTy).Contents (Elt F) → (⟨S3072x64, .f32⟩ : BufTy).Contents (Elt F) → (⟨S3072x64, .f32⟩ : BufTy).Contents (Elt F)),
    StableHlo.nullary main_cst_58 (constant S_ .f32 0x3727C5AC#32),
    StableHlo.unary main_cst_58 main_v407 (broadcastInDim S64 ![] bcast_S_S64 : (⟨S_, .f32⟩ : BufTy).Contents (Elt F) → (⟨S64, .f32⟩ : BufTy).Contents (Elt F)),
    StableHlo.binary main_v403 main_v407 main_v408 (addf : (⟨S64, .f32⟩ : BufTy).Contents (Elt F) → (⟨S64, .f32⟩ : BufTy).Contents (Elt F) → (⟨S64, .f32⟩ : BufTy).Contents (Elt F)),
    StableHlo.unary main_v408 main_v409 (Host.rsqrt : (⟨S64, .f32⟩ : BufTy).Contents (Elt F) → (⟨S64, .f32⟩ : BufTy).Contents (Elt F)),
    StableHlo.unary main_v409 main_v410 (broadcastInDim S1x64 ![1] bcast_S64_S1x64_1 : (⟨S64, .f32⟩ : BufTy).Contents (Elt F) → (⟨S1x64, .f32⟩ : BufTy).Contents (Elt F)),
    StableHlo.unary main_v410 main_v411 (broadcastInDim S3072x64 ![0, 1] bcast_S1x64_S3072x64_0_1 : (⟨S1x64, .f32⟩ : BufTy).Contents (Elt F) → (⟨S3072x64, .f32⟩ : BufTy).Contents (Elt F)),
    StableHlo.binary main_v406 main_v411 main_v412 (mulf : (⟨S3072x64, .f32⟩ : BufTy).Contents (Elt F) → (⟨S3072x64, .f32⟩ : BufTy).Contents (Elt F) → (⟨S3072x64, .f32⟩ : BufTy).Contents (Elt F)),
    StableHlo.unary main_v397 main_v413 (broadcastInDim S1x64 ![1] bcast_S64_S1x64_1 : (⟨S64, .f32⟩ : BufTy).Contents (Elt F) → (⟨S1x64, .f32⟩ : BufTy).Contents (Elt F)),
    StableHlo.unary main_v413 main_v414 (broadcastInDim S3072x64 ![0, 1] bcast_S1x64_S3072x64_0_1 : (⟨S1x64, .f32⟩ : BufTy).Contents (Elt F) → (⟨S3072x64, .f32⟩ : BufTy).Contents (Elt F)),
    StableHlo.binary main_v412 main_v414 main_v415 (mulf : (⟨S3072x64, .f32⟩ : BufTy).Contents (Elt F) → (⟨S3072x64, .f32⟩ : BufTy).Contents (Elt F) → (⟨S3072x64, .f32⟩ : BufTy).Contents (Elt F)),
    StableHlo.unary main_v399 main_v416 (broadcastInDim S1x64 ![1] bcast_S64_S1x64_1 : (⟨S64, .f32⟩ : BufTy).Contents (Elt F) → (⟨S1x64, .f32⟩ : BufTy).Contents (Elt F)),
    StableHlo.unary main_v416 main_v417 (broadcastInDim S3072x64 ![0, 1] bcast_S1x64_S3072x64_0_1 : (⟨S1x64, .f32⟩ : BufTy).Contents (Elt F) → (⟨S3072x64, .f32⟩ : BufTy).Contents (Elt F)),
    StableHlo.binary main_v415 main_v417 main_v418 (addf : (⟨S3072x64, .f32⟩ : BufTy).Contents (Elt F) → (⟨S3072x64, .f32⟩ : BufTy).Contents (Elt F) → (⟨S3072x64, .f32⟩ : BufTy).Contents (Elt F)) ]

/-- The references stretch C2's operations write, in order. -/
abbrev str_C2_W : List (Ref sig .tc) :=
  [main_v362, main_v363, main_v364, main_v365, main_v366, main_v367, main_v368, main_v369, main_v370, main_v371, main_c_52, main_v372, main_v373, main_c_53, main_v374, main_v375, main_v376, main_v377, main_v378, main_v379, main_call18_cst, main_call18_v0, main_v380, main_v381, main_v382, main_cst_54, main_v383, main_v384, main_v385, main_v386, main_v387, main_v388, main_v389, main_v390, main_call19_cst, main_call19_v0, main_v391, main_v392, main_v393, main_v394, main_v395, main_v396, main_v397, main_v398, main_v399, main_cst_55, main_v400, main_cst_56, main_v401, main_v402, main_c_57, main_call20_cst, main_call20_v0, main_call20_v1, main_call20_cst_0, main_call20_v2, main_call20_v3, main_call20_v4, main_call20_v5, main_call20_v6, main_call20_v7, main_call20_cst_1, main_call20_v8, main_call20_cst_2, main_call20_v9, main_call20_v10, main_call20_v11, main_call20_cst_3, main_call20_v12, main_call20_cst_4, main_call20_call0_v0, main_call20_call0_v1, main_v403, main_v404, main_v405, main_v406, main_cst_58, main_v407, main_v408, main_v409, main_v410, main_v411, main_v412, main_v413, main_v414, main_v415, main_v416, main_v417, main_v418]

/-- Stretch D2: operations 636 … 648 of @main's line. -/
abbrev str_D2 : List (HloOp τ sig (Elt F)) :=
  [ StableHlo.nullary main_c_59 (constantI S_ 32 0#32),
    StableHlo.unary main_c_59 main_v419 (broadcastInDim S147456 ![] bcast_S_S147456 : (⟨S_, .i32⟩ : BufTy).Contents (Elt F) → (⟨S147456, .i32⟩ : BufTy).Contents (Elt F)),
    StableHlo.binary main_v22 main_v419 main_v420 (cmpi .slt : (⟨S147456, .i32⟩ : BufTy).Contents (Elt F) → (⟨S147456, .i32⟩ : BufTy).Contents (Elt F) → (⟨S147456, .i1⟩ : BufTy).Contents (Elt F)),
    StableHlo.nullary main_c_60 (constantI S_ 32 3072#32),
    StableHlo.unary main_c_60 main_v421 (broadcastInDim S147456 ![] bcast_S_S147456 : (⟨S_, .i32⟩ : BufTy).Contents (Elt F) → (⟨S147456, .i32⟩ : BufTy).Contents (Elt F)),
    StableHlo.binary main_v22 main_v421 main_v422 (addi : (⟨S147456, .i32⟩ : BufTy).Contents (Elt F) → (⟨S147456, .i32⟩ : BufTy).Contents (Elt F) → (⟨S147456, .i32⟩ : BufTy).Contents (Elt F)),
    StableHlo.ternary main_v420 main_v422 main_v22 main_v423 (select : (⟨S147456, .i1⟩ : BufTy).Contents (Elt F) → (⟨S147456, .i32⟩ : BufTy).Contents (Elt F) → (⟨S147456, .i32⟩ : BufTy).Contents (Elt F) → (⟨S147456, .i32⟩ : BufTy).Contents (Elt F)),
    StableHlo.unary main_v423 main_v424 (broadcastInDim S147456x1 ![0] bcast_S147456_S147456x1_0 : (⟨S147456, .i32⟩ : BufTy).Contents (Elt F) → (⟨S147456x1, .i32⟩ : BufTy).Contents (Elt F)),
    StableHlo.binary main_v418 main_v424 main_v425 ((fun x i => Host.gather gather_S3072x64_S147456x1_S147456x64_1_0_n_n_0_1_164 x i) : (⟨S3072x64, .f32⟩ : BufTy).Contents (Elt F) → (⟨S147456x1, .i32⟩ : BufTy).Contents (Elt F) → (⟨S147456x64, .f32⟩ : BufTy).Contents (Elt F)),
    StableHlo.binary main_v349 main_v425 main_v426 (addf : (⟨S147456x64, .f32⟩ : BufTy).Contents (Elt F) → (⟨S147456x64, .f32⟩ : BufTy).Contents (Elt F) → (⟨S147456x64, .f32⟩ : BufTy).Contents (Elt F)),
    StableHlo.TRef.nullary main_call21.cst (constant S_ .f32 0x00000000#32),
    StableHlo.TRef.unary main_call21.cst main_call21.v0 (broadcastInDim S147456x64 ![] bcast_S_S147456x64),
    StableHlo.TRef.binary (.of main_v426 : StableHlo.TRef sig ⟨S147456x64, .f32⟩) main_call21.v0 main_call21.v1 maximumf ]

/-- The references stretch D2's operations write, in order. -/
abbrev str_D2_W : List (Ref sig .tc) :=
  [main_c_59, main_v419, main_v420, main_c_60, main_v421, main_v422, main_v423, main_v424, main_v425, main_v426, main_call21_cst, main_call21_v0, main_v427]

/-- Stretch E: operations 649 … 691 of @main's line. -/
abbrev str_E : List (HloOp τ sig (Elt F)) :=
  [ StableHlo.nullary main_cst_61 (constant S_ .f32 0x3F800000#32),
    StableHlo.unary main_cst_61 main_v428 (broadcastInDim S147456 ![] bcast_S_S147456 : (⟨S_, .f32⟩ : BufTy).Contents (Elt F) → (⟨S147456, .f32⟩ : BufTy).Contents (Elt F)),
    StableHlo.nullary main_cst_62 (constant S_ .f32 0x00000000#32),
    StableHlo.unary main_cst_62 main_v429 (broadcastInDim S3072 ![] bcast_S_S3072 : (⟨S_, .f32⟩ : BufTy).Contents (Elt F) → (⟨S3072, .f32⟩ : BufTy).Contents (Elt F)),
    StableHlo.unary main_arg28 main_v430 (broadcastInDim S147456x1 ![0] bcast_S147456_S147456x1_0 : (⟨S147456, .i32⟩ : BufTy).Contents (Elt F) → (⟨S147456x1, .i32⟩ : BufTy).Contents (Elt F)),
    StableHlo.ternary main_v429 main_v430 main_v428 main_v431 ((fun x i u => Host.scatterAdd scatter_S3072_S147456x1_S147456_n_0_0_1 x i u) : (⟨S3072, .f32⟩ : BufTy).Contents (Elt F) → (⟨S147456x1, .i32⟩ : BufTy).Contents (Elt F) → (⟨S147456, .f32⟩ : BufTy).Contents (Elt F) → (⟨S3072, .f32⟩ : BufTy).Contents (Elt F)),
    StableHlo.nullary main_cst_63 (constant S_ .f32 0x3F800000#32),
    StableHlo.unary main_cst_63 main_v432 (broadcastInDim S3072 ![] bcast_S_S3072 : (⟨S_, .f32⟩ : BufTy).Contents (Elt F) → (⟨S3072, .f32⟩ : BufTy).Contents (Elt F)),
    StableHlo.binary main_v431 main_v432 main_v433 (maximumf : (⟨S3072, .f32⟩ : BufTy).Contents (Elt F) → (⟨S3072, .f32⟩ : BufTy).Contents (Elt F) → (⟨S3072, .f32⟩ : BufTy).Contents (Elt F)),
    StableHlo.nullary main_cst_64 (constant S_ .f32 0x00000000#32),
    StableHlo.unary main_cst_64 main_v434 (broadcastInDim S3072x64 ![] bcast_S_S3072x64 : (⟨S_, .f32⟩ : BufTy).Contents (Elt F) → (⟨S3072x64, .f32⟩ : BufTy).Contents (Elt F)),
    StableHlo.unary main_arg28 main_v435 (broadcastInDim S147456x1 ![0] bcast_S147456_S147456x1_0 : (⟨S147456, .i32⟩ : BufTy).Contents (Elt F) → (⟨S147456x1, .i32⟩ : BufTy).Contents (Elt F)),
    StableHlo.ternary main_v434 main_v435 main_v427 main_v436 ((fun x i u => Host.scatterAdd scatter_S3072x64_S147456x1_S147456x64_1_0_0_1 x i u) : (⟨S3072x64, .f32⟩ : BufTy).Contents (Elt F) → (⟨S147456x1, .i32⟩ : BufTy).Contents (Elt F) → (⟨S147456x64, .f32⟩ : BufTy).Contents (Elt F) → (⟨S3072x64, .f32⟩ : BufTy).Contents (Elt F)),
    StableHlo.unary main_v433 main_v437 (broadcastInDim S3072x1 ![0] bcast_S3072_S3072x1_0 : (⟨S3072, .f32⟩ : BufTy).Contents (Elt F) → (⟨S3072x1, .f32⟩ : BufTy).Contents (Elt F)),
    StableHlo.unary main_v437 main_v438 (broadcastInDim S3072x64 ![0, 1] bcast_S3072x1_S3072x64_0_1 : (⟨S3072x1, .f32⟩ : BufTy).Contents (Elt F) → (⟨S3072x64, .f32⟩ : BufTy).Contents (Elt F)),
    StableHlo.binary main_v436 main_v438 main_v439 (Host.divf : (⟨S3072x64, .f32⟩ : BufTy).Contents (Elt F) → (⟨S3072x64, .f32⟩ : BufTy).Contents (Elt F) → (⟨S3072x64, .f32⟩ : BufTy).Contents (Elt F)),
    StableHlo.nullary main_cst_65 (constant S_ .f32 0x3F800000#32),
    StableHlo.unary main_cst_65 main_v440 (broadcastInDim S3072 ![] bcast_S_S3072 : (⟨S_, .f32⟩ : BufTy).Contents (Elt F) → (⟨S3072, .f32⟩ : BufTy).Contents (Elt F)),
    StableHlo.nullary main_cst_66 (constant S_ .f32 0x00000000#32),
    StableHlo.unary main_cst_66 main_v441 (broadcastInDim S64 ![] bcast_S_S64 : (⟨S_, .f32⟩ : BufTy).Contents (Elt F) → (⟨S64, .f32⟩ : BufTy).Contents (Elt F)),
    StableHlo.unary main_arg29 main_v442 (broadcastInDim S3072x1 ![0] bcast_S3072_S3072x1_0 : (⟨S3072, .i32⟩ : BufTy).Contents (Elt F) → (⟨S3072x1, .i32⟩ : BufTy).Contents (Elt F)),
    StableHlo.ternary main_v441 main_v442 main_v440 main_v443 ((fun x i u => Host.scatterAdd scatter_S64_S3072x1_S3072_n_0_0_1 x i u) : (⟨S64, .f32⟩ : BufTy).Contents (Elt F) → (⟨S3072x1, .i32⟩ : BufTy).Contents (Elt F) → (⟨S3072, .f32⟩ : BufTy).Contents (Elt F) → (⟨S64, .f32⟩ : BufTy).Contents (Elt F)),
    StableHlo.nullary main_cst_67 (constant S_ .f32 0x3F800000#32),
    StableHlo.unary main_cst_67 main_v444 (broadcastInDim S64 ![] bcast_S_S64 : (⟨S_, .f32⟩ : BufTy).Contents (Elt F) → (⟨S64, .f32⟩ : BufTy).Contents (Elt F)),
    StableHlo.binary main_v443 main_v444 main_v445 (maximumf : (⟨S64, .f32⟩ : BufTy).Contents (Elt F) → (⟨S64, .f32⟩ : BufTy).Contents (Elt F) → (⟨S64, .f32⟩ : BufTy).Contents (Elt F)),
    StableHlo.nullary main_cst_68 (constant S_ .f32 0x00000000#32),
    StableHlo.unary main_cst_68 main_v446 (broadcastInDim S64x64 ![] bcast_S_S64x64 : (⟨S_, .f32⟩ : BufTy).Contents (Elt F) → (⟨S64x64, .f32⟩ : BufTy).Contents (Elt F)),
    StableHlo.unary main_arg29 main_v447 (broadcastInDim S3072x1 ![0] bcast_S3072_S3072x1_0 : (⟨S3072, .i32⟩ : BufTy).Contents (Elt F) → (⟨S3072x1, .i32⟩ : BufTy).Contents (Elt F)),
    StableHlo.ternary main_v446 main_v447 main_v439 main_v448 ((fun x i u => Host.scatterAdd scatter_S64x64_S3072x1_S3072x64_1_0_0_1 x i u) : (⟨S64x64, .f32⟩ : BufTy).Contents (Elt F) → (⟨S3072x1, .i32⟩ : BufTy).Contents (Elt F) → (⟨S3072x64, .f32⟩ : BufTy).Contents (Elt F) → (⟨S64x64, .f32⟩ : BufTy).Contents (Elt F)),
    StableHlo.unary main_v445 main_v449 (broadcastInDim S64x1 ![0] bcast_S64_S64x1_0 : (⟨S64, .f32⟩ : BufTy).Contents (Elt F) → (⟨S64x1, .f32⟩ : BufTy).Contents (Elt F)),
    StableHlo.unary main_v449 main_v450 (broadcastInDim S64x64 ![0, 1] bcast_S64x1_S64x64_0_1 : (⟨S64x1, .f32⟩ : BufTy).Contents (Elt F) → (⟨S64x64, .f32⟩ : BufTy).Contents (Elt F)),
    StableHlo.binary main_v448 main_v450 main_v451 (Host.divf : (⟨S64x64, .f32⟩ : BufTy).Contents (Elt F) → (⟨S64x64, .f32⟩ : BufTy).Contents (Elt F) → (⟨S64x64, .f32⟩ : BufTy).Contents (Elt F)),
    StableHlo.binary main_v451 main_arg19 main_v452 ((fun l r => Host.dotGeneral dot_S64x64_S64x128_S64x128_1_0_0_1_n_n none l r) : (⟨S64x64, .f32⟩ : BufTy).Contents (Elt F) → (⟨S64x128, .f32⟩ : BufTy).Contents (Elt F) → (⟨S64x128, .f32⟩ : BufTy).Contents (Elt F)),
    StableHlo.unary main_arg20 main_v453 (broadcastInDim S1x128 ![1] bcast_S128_S1x128_1 : (⟨S128, .f32⟩ : BufTy).Contents (Elt F) → (⟨S1x128, .f32⟩ : BufTy).Contents (Elt F)),
    StableHlo.unary main_v453 main_v454 (broadcastInDim S64x128 ![0, 1] bcast_S1x128_S64x128_0_1 : (⟨S1x128, .f32⟩ : BufTy).Contents (Elt F) → (⟨S64x128, .f32⟩ : BufTy).Contents (Elt F)),
    StableHlo.binary main_v452 main_v454 main_v455 (addf : (⟨S64x128, .f32⟩ : BufTy).Contents (Elt F) → (⟨S64x128, .f32⟩ : BufTy).Contents (Elt F) → (⟨S64x128, .f32⟩ : BufTy).Contents (Elt F)),
    StableHlo.TRef.nullary main_call22.cst (constant S_ .f32 0x00000000#32),
    StableHlo.TRef.unary main_call22.cst main_call22.v0 (broadcastInDim S64x128 ![] bcast_S_S64x128),
    StableHlo.TRef.binary (.of main_v455 : StableHlo.TRef sig ⟨S64x128, .f32⟩) main_call22.v0 main_call22.v1 maximumf,
    StableHlo.binary main_v456 main_arg21 main_v457 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    StableHlo.unary main_arg22 main_v458 (broadcastInDim S1x10 ![1] bcast_S10_S1x10_1 : (⟨S10, .f32⟩ : BufTy).Contents (Elt F) → (⟨S1x10, .f32⟩ : BufTy).Contents (Elt F)),
    StableHlo.unary main_v458 main_v459 (broadcastInDim S64x10 ![0, 1] bcast_S1x10_S64x10_0_1 : (⟨S1x10, .f32⟩ : BufTy).Contents (Elt F) → (⟨S64x10, .f32⟩ : BufTy).Contents (Elt F)),
    StableHlo.binary main_v457 main_v459 main_v460 (addf : (⟨S64x10, .f32⟩ : BufTy).Contents (Elt F) → (⟨S64x10, .f32⟩ : BufTy).Contents (Elt F) → (⟨S64x10, .f32⟩ : BufTy).Contents (Elt F)) ]

/-- The references stretch E's operations write, in order. -/
abbrev str_E_W : List (Ref sig .tc) :=
  [main_cst_61, main_v428, main_cst_62, main_v429, main_v430, main_v431, main_cst_63, main_v432, main_v433, main_cst_64, main_v434, main_v435, main_v436, main_v437, main_v438, main_v439, main_cst_65, main_v440, main_cst_66, main_v441, main_v442, main_v443, main_cst_67, main_v444, main_v445, main_cst_68, main_v446, main_v447, main_v448, main_v449, main_v450, main_v451, main_v452, main_v453, main_v454, main_v455, main_call22_cst, main_call22_v0, main_v456, main_v457, main_v458, main_v459, main_v460]

/-- The stretches in order. -/
abbrev cuts : List (HloOp τ sig (Elt F)) :=
  str_P ++ (str_A0 ++ (str_B0 ++ (str_C0 ++ (str_D0 ++ (str_A1 ++ (str_B1 ++ (str_C1 ++ (str_D1 ++ (str_A2 ++ (str_B2 ++ (str_C2 ++ (str_D2 ++ (str_E)))))))))))))

end Cert.ReferenceIdeal.RefRun

end
-- ==== Proof.RefRead.lean ====
import proofs.«177129_j59004260712467_1_alg».proof.Proof.RefRun
import proofs.«177129_j59004260712467_1_alg».proof.Proof.RefCuts
import proofs.«177129_j59004260712467_1_alg».proof.Proof.Stage

/-! The reference program's result, read back as the network of its arguments. The line of operations is cut where a
    stage of the network is complete; each stretch, run from any contents, leaves its stage's function of the
    contents it reads (the fold computes to the composed term, which is the stage's body); a buffer a stretch does
    not write passes through it. Chaining the stretches from the launch contents, the live buffers are the stages'
    values as functions of the arguments' contents, the arguments themselves never written; the last stretch leaves
    the final perceptron of the pooled third layer, which is the network of the thirty arguments. -/

noncomputable section

namespace Cert.ReferenceIdeal.RefRun

open Cert.ReferenceIdeal Cert.ReferenceIdeal.Gen Idealize.ShloMosaic Idealize.SL.Sem Idealize.ShloMosaic.StableHlo Cert.Stage

variable {F : FTy → Type} [FloatOps F]

/-! ## The line, cut at the stages -/

set_option maxRecDepth 65536 in
/-- The stretches in order are the line. -/
theorem ops_eq_cuts : (ops : List (HloOp τ sig (Elt F))) = cuts := rfl

/-! ## What each stretch writes, and what it keeps -/

set_option maxRecDepth 8192 in
theorem str_P_writes : (str_P : List (HloOp τ sig (Elt F))).Forall fun op =>
    op.writes ⊆ (str_P_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch P does not write keeps its contents through it. -/
theorem keep_P (W : Valuation τ sig (Elt F)) (r : Ref sig .tc) (h : r ∉ str_P_W) :
    after str_P W (Proc.devRef .tc r) = W (Proc.devRef .tc r) :=
  after_of_writes_sub str_P W str_P_writes h

set_option maxRecDepth 8192 in
theorem str_A0_writes : (str_A0 : List (HloOp τ sig (Elt F))).Forall fun op =>
    op.writes ⊆ (str_A0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch A0 does not write keeps its contents through it. -/
theorem keep_A0 (W : Valuation τ sig (Elt F)) (r : Ref sig .tc) (h : r ∉ str_A0_W) :
    after str_A0 W (Proc.devRef .tc r) = W (Proc.devRef .tc r) :=
  after_of_writes_sub str_A0 W str_A0_writes h

set_option maxRecDepth 8192 in
theorem str_B0_writes : (str_B0 : List (HloOp τ sig (Elt F))).Forall fun op =>
    op.writes ⊆ (str_B0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch B0 does not write keeps its contents through it. -/
theorem keep_B0 (W : Valuation τ sig (Elt F)) (r : Ref sig .tc) (h : r ∉ str_B0_W) :
    after str_B0 W (Proc.devRef .tc r) = W (Proc.devRef .tc r) :=
  after_of_writes_sub str_B0 W str_B0_writes h

set_option maxRecDepth 8192 in
theorem str_C0_writes : (str_C0 : List (HloOp τ sig (Elt F))).Forall fun op =>
    op.writes ⊆ (str_C0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch C0 does not write keeps its contents through it. -/
theorem keep_C0 (W : Valuation τ sig (Elt F)) (r : Ref sig .tc) (h : r ∉ str_C0_W) :
    after str_C0 W (Proc.devRef .tc r) = W (Proc.devRef .tc r) :=
  after_of_writes_sub str_C0 W str_C0_writes h

set_option maxRecDepth 8192 in
theorem str_D0_writes : (str_D0 : List (HloOp τ sig (Elt F))).Forall fun op =>
    op.writes ⊆ (str_D0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch D0 does not write keeps its contents through it. -/
theorem keep_D0 (W : Valuation τ sig (Elt F)) (r : Ref sig .tc) (h : r ∉ str_D0_W) :
    after str_D0 W (Proc.devRef .tc r) = W (Proc.devRef .tc r) :=
  after_of_writes_sub str_D0 W str_D0_writes h

set_option maxRecDepth 8192 in
theorem str_A1_writes : (str_A1 : List (HloOp τ sig (Elt F))).Forall fun op =>
    op.writes ⊆ (str_A1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch A1 does not write keeps its contents through it. -/
theorem keep_A1 (W : Valuation τ sig (Elt F)) (r : Ref sig .tc) (h : r ∉ str_A1_W) :
    after str_A1 W (Proc.devRef .tc r) = W (Proc.devRef .tc r) :=
  after_of_writes_sub str_A1 W str_A1_writes h

set_option maxRecDepth 8192 in
theorem str_B1_writes : (str_B1 : List (HloOp τ sig (Elt F))).Forall fun op =>
    op.writes ⊆ (str_B1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch B1 does not write keeps its contents through it. -/
theorem keep_B1 (W : Valuation τ sig (Elt F)) (r : Ref sig .tc) (h : r ∉ str_B1_W) :
    after str_B1 W (Proc.devRef .tc r) = W (Proc.devRef .tc r) :=
  after_of_writes_sub str_B1 W str_B1_writes h

set_option maxRecDepth 8192 in
theorem str_C1_writes : (str_C1 : List (HloOp τ sig (Elt F))).Forall fun op =>
    op.writes ⊆ (str_C1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch C1 does not write keeps its contents through it. -/
theorem keep_C1 (W : Valuation τ sig (Elt F)) (r : Ref sig .tc) (h : r ∉ str_C1_W) :
    after str_C1 W (Proc.devRef .tc r) = W (Proc.devRef .tc r) :=
  after_of_writes_sub str_C1 W str_C1_writes h

set_option maxRecDepth 8192 in
theorem str_D1_writes : (str_D1 : List (HloOp τ sig (Elt F))).Forall fun op =>
    op.writes ⊆ (str_D1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch D1 does not write keeps its contents through it. -/
theorem keep_D1 (W : Valuation τ sig (Elt F)) (r : Ref sig .tc) (h : r ∉ str_D1_W) :
    after str_D1 W (Proc.devRef .tc r) = W (Proc.devRef .tc r) :=
  after_of_writes_sub str_D1 W str_D1_writes h

set_option maxRecDepth 8192 in
theorem str_A2_writes : (str_A2 : List (HloOp τ sig (Elt F))).Forall fun op =>
    op.writes ⊆ (str_A2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch A2 does not write keeps its contents through it. -/
theorem keep_A2 (W : Valuation τ sig (Elt F)) (r : Ref sig .tc) (h : r ∉ str_A2_W) :
    after str_A2 W (Proc.devRef .tc r) = W (Proc.devRef .tc r) :=
  after_of_writes_sub str_A2 W str_A2_writes h

set_option maxRecDepth 8192 in
theorem str_B2_writes : (str_B2 : List (HloOp τ sig (Elt F))).Forall fun op =>
    op.writes ⊆ (str_B2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch B2 does not write keeps its contents through it. -/
theorem keep_B2 (W : Valuation τ sig (Elt F)) (r : Ref sig .tc) (h : r ∉ str_B2_W) :
    after str_B2 W (Proc.devRef .tc r) = W (Proc.devRef .tc r) :=
  after_of_writes_sub str_B2 W str_B2_writes h

set_option maxRecDepth 8192 in
theorem str_C2_writes : (str_C2 : List (HloOp τ sig (Elt F))).Forall fun op =>
    op.writes ⊆ (str_C2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch C2 does not write keeps its contents through it. -/
theorem keep_C2 (W : Valuation τ sig (Elt F)) (r : Ref sig .tc) (h : r ∉ str_C2_W) :
    after str_C2 W (Proc.devRef .tc r) = W (Proc.devRef .tc r) :=
  after_of_writes_sub str_C2 W str_C2_writes h

set_option maxRecDepth 8192 in
theorem str_D2_writes : (str_D2 : List (HloOp τ sig (Elt F))).Forall fun op =>
    op.writes ⊆ (str_D2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch D2 does not write keeps its contents through it. -/
theorem keep_D2 (W : Valuation τ sig (Elt F)) (r : Ref sig .tc) (h : r ∉ str_D2_W) :
    after str_D2 W (Proc.devRef .tc r) = W (Proc.devRef .tc r) :=
  after_of_writes_sub str_D2 W str_D2_writes h

set_option maxRecDepth 8192 in
theorem str_E_writes : (str_E : List (HloOp τ sig (Elt F))).Forall fun op =>
    op.writes ⊆ (str_E_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference stretch E does not write keeps its contents through it. -/
theorem keep_E (W : Valuation τ sig (Elt F)) (r : Ref sig .tc) (h : r ∉ str_E_W) :
    after str_E W (Proc.devRef .tc r) = W (Proc.devRef .tc r) :=
  after_of_writes_sub str_E W str_E_writes h

/-- The arguments the layers and the final stage read. -/
abbrev args : List (Ref sig .tc) :=
  [main_arg23, main_arg7, main_arg8, main_arg9, main_arg10, main_arg11, main_arg12, main_arg24, main_arg13, main_arg14, main_arg15, main_arg16, main_arg17, main_arg18, main_arg28, main_arg29, main_arg19, main_arg20, main_arg21, main_arg22]

theorem args_not_P : ∀ r ∈ args, r ∉ str_P_W := by decide +kernel

theorem args_not_A0 : ∀ r ∈ args, r ∉ str_A0_W := by decide +kernel

theorem args_not_B0 : ∀ r ∈ args, r ∉ str_B0_W := by decide +kernel

theorem args_not_C0 : ∀ r ∈ args, r ∉ str_C0_W := by decide +kernel

theorem args_not_D0 : ∀ r ∈ args, r ∉ str_D0_W := by decide +kernel

theorem args_not_A1 : ∀ r ∈ args, r ∉ str_A1_W := by decide +kernel

theorem args_not_B1 : ∀ r ∈ args, r ∉ str_B1_W := by decide +kernel

theorem args_not_C1 : ∀ r ∈ args, r ∉ str_C1_W := by decide +kernel

theorem args_not_D1 : ∀ r ∈ args, r ∉ str_D1_W := by decide +kernel

theorem args_not_A2 : ∀ r ∈ args, r ∉ str_A2_W := by decide +kernel

theorem args_not_B2 : ∀ r ∈ args, r ∉ str_B2_W := by decide +kernel

theorem args_not_C2 : ∀ r ∈ args, r ∉ str_C2_W := by decide +kernel

theorem args_not_D2 : ∀ r ∈ args, r ∉ str_D2_W := by decide +kernel

/-! ## Each stretch read over any contents

The result of a stretch is its stage's function of the contents the stretch starts from, at the buffers the
stage reads: the fold computes, operation by operation, to the composed term, which is the stage's body. -/

set_option maxRecDepth 8192 in
theorem read_P_x (W : Valuation τ sig (Elt F)) :
    after str_P W (Proc.devRef .tc main_v3) = encX (W (Proc.devRef .tc main_arg0)) (W (Proc.devRef .tc main_arg3)) (rowB64 (W (Proc.devRef .tc main_arg4))) := by
  after_results_simp
  rfl

set_option maxRecDepth 8192 in
theorem read_P_ea (W : Valuation τ sig (Elt F)) :
    after str_P W (Proc.devRef .tc main_v7) = encE (W (Proc.devRef .tc main_arg1)) (W (Proc.devRef .tc main_arg5)) (rowB64 (W (Proc.devRef .tc main_arg6))) := by
  after_results_simp
  rfl

set_option maxRecDepth 8192 in
theorem read_P_oea (W : Valuation τ sig (Elt F)) :
    after str_P W (Proc.devRef .tc main_v11) = encO (W (Proc.devRef .tc main_arg2)) (W (Proc.devRef .tc main_arg5)) (rowB64 (W (Proc.devRef .tc main_arg6))) := by
  after_results_simp
  rfl

set_option maxRecDepth 8192 in
theorem read_P_ni (W : Valuation τ sig (Elt F)) :
    after str_P W (Proc.devRef .tc main_v22) = nodeIdx (W (Proc.devRef .tc main_arg27)) (W (Proc.devRef .tc main_arg25)) (W (Proc.devRef .tc main_arg26)) := by
  after_results_simp
  rfl

set_option maxRecDepth 8192 in
set_option maxHeartbeats 2000000 in
theorem read_A0 (W : Valuation τ sig (Elt F)) :
    after str_A0 W (Proc.devRef .tc main_v79)
      = bnRefN (mlpN (ginSumN (W (Proc.devRef .tc main_v3)) (W (Proc.devRef .tc main_v7)) (W (Proc.devRef .tc main_arg23)))
            (gW1_0 (W (Proc.devRef .tc main_arg7))) (rowB128 (gB1_0 (W (Proc.devRef .tc main_arg8))))
            (gW2_0 (W (Proc.devRef .tc main_arg9))) (rowB64 (gB2_0 (W (Proc.devRef .tc main_arg10)))))
          (bnG_0 (W (Proc.devRef .tc main_arg11))) (bnB_0 (W (Proc.devRef .tc main_arg12))) := by
  after_results_simp
  rfl

set_option maxRecDepth 8192 in
theorem read_B0 (W : Valuation τ sig (Elt F)) :
    after str_B0 W (Proc.devRef .tc main_v91) = segMeanNM (W (Proc.devRef .tc main_v3)) (W (Proc.devRef .tc main_v22)) := by
  after_results_simp
  rfl

set_option maxRecDepth 8192 in
set_option maxHeartbeats 2000000 in
theorem read_C0 (W : Valuation τ sig (Elt F)) :
    after str_C0 W (Proc.devRef .tc main_v148)
      = bnRefM (mlpM (ginSumM (W (Proc.devRef .tc main_v91)) (W (Proc.devRef .tc main_v11)) (W (Proc.devRef .tc main_arg24)))
            (sW1_0 (W (Proc.devRef .tc main_arg13))) (rowB128 (sB1_0 (W (Proc.devRef .tc main_arg14))))
            (sW2_0 (W (Proc.devRef .tc main_arg15))) (rowB64 (sB2_0 (W (Proc.devRef .tc main_arg16)))))
          (bsG_0 (W (Proc.devRef .tc main_arg17))) (bsB_0 (W (Proc.devRef .tc main_arg18))) := by
  after_results_simp
  rfl

set_option maxRecDepth 8192 in
theorem read_D0 (W : Valuation τ sig (Elt F)) :
    after str_D0 W (Proc.devRef .tc main_v157)
      = reluN (addf (W (Proc.devRef .tc main_v79)) (gatherBack (W (Proc.devRef .tc main_v148)) (W (Proc.devRef .tc main_v22)))) := by
  after_results_simp
  rfl

set_option maxRecDepth 8192 in
set_option maxHeartbeats 2000000 in
theorem read_A1 (W : Valuation τ sig (Elt F)) :
    after str_A1 W (Proc.devRef .tc main_v214)
      = bnRefN (mlpN (ginSumN (W (Proc.devRef .tc main_v157)) (W (Proc.devRef .tc main_v7)) (W (Proc.devRef .tc main_arg23)))
            (gW1_1 (W (Proc.devRef .tc main_arg7))) (rowB128 (gB1_1 (W (Proc.devRef .tc main_arg8))))
            (gW2_1 (W (Proc.devRef .tc main_arg9))) (rowB64 (gB2_1 (W (Proc.devRef .tc main_arg10)))))
          (bnG_1 (W (Proc.devRef .tc main_arg11))) (bnB_1 (W (Proc.devRef .tc main_arg12))) := by
  after_results_simp
  rfl

set_option maxRecDepth 8192 in
theorem read_B1 (W : Valuation τ sig (Elt F)) :
    after str_B1 W (Proc.devRef .tc main_v226) = segMeanNM (W (Proc.devRef .tc main_v157)) (W (Proc.devRef .tc main_v22)) := by
  after_results_simp
  rfl

set_option maxRecDepth 8192 in
set_option maxHeartbeats 2000000 in
theorem read_C1 (W : Valuation τ sig (Elt F)) :
    after str_C1 W (Proc.devRef .tc main_v283)
      = bnRefM (mlpM (ginSumM (W (Proc.devRef .tc main_v226)) (W (Proc.devRef .tc main_v11)) (W (Proc.devRef .tc main_arg24)))
            (sW1_1 (W (Proc.devRef .tc main_arg13))) (rowB128 (sB1_1 (W (Proc.devRef .tc main_arg14))))
            (sW2_1 (W (Proc.devRef .tc main_arg15))) (rowB64 (sB2_1 (W (Proc.devRef .tc main_arg16)))))
          (bsG_1 (W (Proc.devRef .tc main_arg17))) (bsB_1 (W (Proc.devRef .tc main_arg18))) := by
  after_results_simp
  rfl

set_option maxRecDepth 8192 in
theorem read_D1 (W : Valuation τ sig (Elt F)) :
    after str_D1 W (Proc.devRef .tc main_v292)
      = reluN (addf (W (Proc.devRef .tc main_v214)) (gatherBack (W (Proc.devRef .tc main_v283)) (W (Proc.devRef .tc main_v22)))) := by
  after_results_simp
  rfl

set_option maxRecDepth 8192 in
set_option maxHeartbeats 2000000 in
theorem read_A2 (W : Valuation τ sig (Elt F)) :
    after str_A2 W (Proc.devRef .tc main_v349)
      = bnRefN (mlpN (ginSumN (W (Proc.devRef .tc main_v292)) (W (Proc.devRef .tc main_v7)) (W (Proc.devRef .tc main_arg23)))
            (gW1_2 (W (Proc.devRef .tc main_arg7))) (rowB128 (gB1_2 (W (Proc.devRef .tc main_arg8))))
            (gW2_2 (W (Proc.devRef .tc main_arg9))) (rowB64 (gB2_2 (W (Proc.devRef .tc main_arg10)))))
          (bnG_2 (W (Proc.devRef .tc main_arg11))) (bnB_2 (W (Proc.devRef .tc main_arg12))) := by
  after_results_simp
  rfl

set_option maxRecDepth 8192 in
theorem read_B2 (W : Valuation τ sig (Elt F)) :
    after str_B2 W (Proc.devRef .tc main_v361) = segMeanNM (W (Proc.devRef .tc main_v292)) (W (Proc.devRef .tc main_v22)) := by
  after_results_simp
  rfl

set_option maxRecDepth 8192 in
set_option maxHeartbeats 2000000 in
theorem read_C2 (W : Valuation τ sig (Elt F)) :
    after str_C2 W (Proc.devRef .tc main_v418)
      = bnRefM (mlpM (ginSumM (W (Proc.devRef .tc main_v361)) (W (Proc.devRef .tc main_v11)) (W (Proc.devRef .tc main_arg24)))
            (sW1_2 (W (Proc.devRef .tc main_arg13))) (rowB128 (sB1_2 (W (Proc.devRef .tc main_arg14))))
            (sW2_2 (W (Proc.devRef .tc main_arg15))) (rowB64 (sB2_2 (W (Proc.devRef .tc main_arg16)))))
          (bsG_2 (W (Proc.devRef .tc main_arg17))) (bsB_2 (W (Proc.devRef .tc main_arg18))) := by
  after_results_simp
  rfl

set_option maxRecDepth 8192 in
theorem read_D2 (W : Valuation τ sig (Elt F)) :
    after str_D2 W (Proc.devRef .tc main_v427)
      = reluN (addf (W (Proc.devRef .tc main_v349)) (gatherBack (W (Proc.devRef .tc main_v418)) (W (Proc.devRef .tc main_v22)))) := by
  after_results_simp
  rfl

set_option maxRecDepth 8192 in
set_option maxHeartbeats 2000000 in
theorem read_E (W : Valuation τ sig (Elt F)) :
    after str_E W (Proc.devRef .tc main_v460)
      = mlpG (segMeanSG (segMeanNS (W (Proc.devRef .tc main_v427)) (W (Proc.devRef .tc main_arg28))) (W (Proc.devRef .tc main_arg29)))
          (W (Proc.devRef .tc main_arg19)) (rowB128 (W (Proc.devRef .tc main_arg20))) (W (Proc.devRef .tc main_arg21)) (rowB10 (W (Proc.devRef .tc main_arg22))) := by
  after_results_simp
  rfl

/-! ## The contents after each stretch -/

/-- The contents after stretch P from V. -/
def at_P (V : Valuation τ sig (Elt F)) : Valuation τ sig (Elt F) := after str_P V
/-- The contents after stretch A0. -/
def at_A0 (V : Valuation τ sig (Elt F)) : Valuation τ sig (Elt F) := after str_A0 (at_P V)
/-- The contents after stretch B0. -/
def at_B0 (V : Valuation τ sig (Elt F)) : Valuation τ sig (Elt F) := after str_B0 (at_A0 V)
/-- The contents after stretch C0. -/
def at_C0 (V : Valuation τ sig (Elt F)) : Valuation τ sig (Elt F) := after str_C0 (at_B0 V)
/-- The contents after stretch D0. -/
def at_D0 (V : Valuation τ sig (Elt F)) : Valuation τ sig (Elt F) := after str_D0 (at_C0 V)
/-- The contents after stretch A1. -/
def at_A1 (V : Valuation τ sig (Elt F)) : Valuation τ sig (Elt F) := after str_A1 (at_D0 V)
/-- The contents after stretch B1. -/
def at_B1 (V : Valuation τ sig (Elt F)) : Valuation τ sig (Elt F) := after str_B1 (at_A1 V)
/-- The contents after stretch C1. -/
def at_C1 (V : Valuation τ sig (Elt F)) : Valuation τ sig (Elt F) := after str_C1 (at_B1 V)
/-- The contents after stretch D1. -/
def at_D1 (V : Valuation τ sig (Elt F)) : Valuation τ sig (Elt F) := after str_D1 (at_C1 V)
/-- The contents after stretch A2. -/
def at_A2 (V : Valuation τ sig (Elt F)) : Valuation τ sig (Elt F) := after str_A2 (at_D1 V)
/-- The contents after stretch B2. -/
def at_B2 (V : Valuation τ sig (Elt F)) : Valuation τ sig (Elt F) := after str_B2 (at_A2 V)
/-- The contents after stretch C2. -/
def at_C2 (V : Valuation τ sig (Elt F)) : Valuation τ sig (Elt F) := after str_C2 (at_B2 V)
/-- The contents after stretch D2. -/
def at_D2 (V : Valuation τ sig (Elt F)) : Valuation τ sig (Elt F) := after str_D2 (at_C2 V)
/-- The contents after stretch E. -/
def at_E (V : Valuation τ sig (Elt F)) : Valuation τ sig (Elt F) := after str_E (at_D2 V)

/-- The fold over the whole line is the fold stretch after stretch. -/
theorem after_ops_cuts (V : Valuation τ sig (Elt F)) : after ops V = at_E V := by
  rw [ops_eq_cuts]
  simp only [cuts, after_append]
  rfl

/-! ### The arguments are never written -/

theorem at_P_arg (V : Valuation τ sig (Elt F)) (r : Ref sig .tc) (hr : r ∈ args) :
    at_P V (Proc.devRef .tc r) = V (Proc.devRef .tc r) :=
  keep_P V r (args_not_P r hr)

theorem at_A0_arg (V : Valuation τ sig (Elt F)) (r : Ref sig .tc) (hr : r ∈ args) :
    at_A0 V (Proc.devRef .tc r) = V (Proc.devRef .tc r) :=
  (keep_A0 _ r (args_not_A0 r hr)).trans (at_P_arg V r hr)

theorem at_B0_arg (V : Valuation τ sig (Elt F)) (r : Ref sig .tc) (hr : r ∈ args) :
    at_B0 V (Proc.devRef .tc r) = V (Proc.devRef .tc r) :=
  (keep_B0 _ r (args_not_B0 r hr)).trans (at_A0_arg V r hr)

theorem at_C0_arg (V : Valuation τ sig (Elt F)) (r : Ref sig .tc) (hr : r ∈ args) :
    at_C0 V (Proc.devRef .tc r) = V (Proc.devRef .tc r) :=
  (keep_C0 _ r (args_not_C0 r hr)).trans (at_B0_arg V r hr)

theorem at_D0_arg (V : Valuation τ sig (Elt F)) (r : Ref sig .tc) (hr : r ∈ args) :
    at_D0 V (Proc.devRef .tc r) = V (Proc.devRef .tc r) :=
  (keep_D0 _ r (args_not_D0 r hr)).trans (at_C0_arg V r hr)

theorem at_A1_arg (V : Valuation τ sig (Elt F)) (r : Ref sig .tc) (hr : r ∈ args) :
    at_A1 V (Proc.devRef .tc r) = V (Proc.devRef .tc r) :=
  (keep_A1 _ r (args_not_A1 r hr)).trans (at_D0_arg V r hr)

theorem at_B1_arg (V : Valuation τ sig (Elt F)) (r : Ref sig .tc) (hr : r ∈ args) :
    at_B1 V (Proc.devRef .tc r) = V (Proc.devRef .tc r) :=
  (keep_B1 _ r (args_not_B1 r hr)).trans (at_A1_arg V r hr)

theorem at_C1_arg (V : Valuation τ sig (Elt F)) (r : Ref sig .tc) (hr : r ∈ args) :
    at_C1 V (Proc.devRef .tc r) = V (Proc.devRef .tc r) :=
  (keep_C1 _ r (args_not_C1 r hr)).trans (at_B1_arg V r hr)

theorem at_D1_arg (V : Valuation τ sig (Elt F)) (r : Ref sig .tc) (hr : r ∈ args) :
    at_D1 V (Proc.devRef .tc r) = V (Proc.devRef .tc r) :=
  (keep_D1 _ r (args_not_D1 r hr)).trans (at_C1_arg V r hr)

theorem at_A2_arg (V : Valuation τ sig (Elt F)) (r : Ref sig .tc) (hr : r ∈ args) :
    at_A2 V (Proc.devRef .tc r) = V (Proc.devRef .tc r) :=
  (keep_A2 _ r (args_not_A2 r hr)).trans (at_D1_arg V r hr)

theorem at_B2_arg (V : Valuation τ sig (Elt F)) (r : Ref sig .tc) (hr : r ∈ args) :
    at_B2 V (Proc.devRef .tc r) = V (Proc.devRef .tc r) :=
  (keep_B2 _ r (args_not_B2 r hr)).trans (at_A2_arg V r hr)

theorem at_C2_arg (V : Valuation τ sig (Elt F)) (r : Ref sig .tc) (hr : r ∈ args) :
    at_C2 V (Proc.devRef .tc r) = V (Proc.devRef .tc r) :=
  (keep_C2 _ r (args_not_C2 r hr)).trans (at_B2_arg V r hr)

theorem at_D2_arg (V : Valuation τ sig (Elt F)) (r : Ref sig .tc) (hr : r ∈ args) :
    at_D2 V (Proc.devRef .tc r) = V (Proc.devRef .tc r) :=
  (keep_D2 _ r (args_not_D2 r hr)).trans (at_C2_arg V r hr)

/-! ### The stages' values, as functions of the arguments' contents -/

/-- The encoded subgraph edges. -/
def EA (V : Valuation τ sig (Elt F)) : (⟨S884736x64, .f32⟩ : BufTy).Contents (Elt F) := encE (V (Proc.devRef .tc main_arg1)) (V (Proc.devRef .tc main_arg5)) (rowB64 (V (Proc.devRef .tc main_arg6)))
/-- The encoded original-graph edges. -/
def OEA (V : Valuation τ sig (Elt F)) : (⟨S18432x64, .f32⟩ : BufTy).Contents (Elt F) := encO (V (Proc.devRef .tc main_arg2)) (V (Proc.devRef .tc main_arg5)) (rowB64 (V (Proc.devRef .tc main_arg6)))
/-- The copy-node to original-node index. -/
def NI (V : Valuation τ sig (Elt F)) : (⟨S147456, .i32⟩ : BufTy).Contents (Elt F) := nodeIdx (V (Proc.devRef .tc main_arg27)) (V (Proc.devRef .tc main_arg25)) (V (Proc.devRef .tc main_arg26))
/-- The encoded copy nodes: the first layer's input. -/
def X0 (V : Valuation τ sig (Elt F)) : (⟨S147456x64, .f32⟩ : BufTy).Contents (Elt F) := encX (V (Proc.devRef .tc main_arg0)) (V (Proc.devRef .tc main_arg3)) (rowB64 (V (Proc.devRef .tc main_arg4)))

/-- Layer 0: the copy-node branch after its batch normalisation. -/
def H1_0 (V : Valuation τ sig (Elt F)) : (⟨S147456x64, .f32⟩ : BufTy).Contents (Elt F) :=
  bnRefN (mlpN (ginSumN (X0 V) (EA V) (V (Proc.devRef .tc main_arg23))) (gW1_0 (V (Proc.devRef .tc main_arg7))) (rowB128 (gB1_0 (V (Proc.devRef .tc main_arg8))))
    (gW2_0 (V (Proc.devRef .tc main_arg9))) (rowB64 (gB2_0 (V (Proc.devRef .tc main_arg10))))) (bnG_0 (V (Proc.devRef .tc main_arg11))) (bnB_0 (V (Proc.devRef .tc main_arg12)))
/-- Layer 0: the mean over copies per original node. -/
def XS_0 (V : Valuation τ sig (Elt F)) : (⟨S3072x64, .f32⟩ : BufTy).Contents (Elt F) := segMeanNM (X0 V) (NI V)
/-- Layer 0: the original-node branch after its batch normalisation. -/
def H2_0 (V : Valuation τ sig (Elt F)) : (⟨S3072x64, .f32⟩ : BufTy).Contents (Elt F) :=
  bnRefM (mlpM (ginSumM (XS_0 V) (OEA V) (V (Proc.devRef .tc main_arg24))) (sW1_0 (V (Proc.devRef .tc main_arg13))) (rowB128 (sB1_0 (V (Proc.devRef .tc main_arg14))))
    (sW2_0 (V (Proc.devRef .tc main_arg15))) (rowB64 (sB2_0 (V (Proc.devRef .tc main_arg16))))) (bsG_0 (V (Proc.devRef .tc main_arg17))) (bsB_0 (V (Proc.devRef .tc main_arg18)))
/-- Layer 0's output. -/
def X1 (V : Valuation τ sig (Elt F)) : (⟨S147456x64, .f32⟩ : BufTy).Contents (Elt F) :=
  reluN (addf (H1_0 V) (gatherBack (H2_0 V) (NI V)))

/-- Layer 1: the copy-node branch after its batch normalisation. -/
def H1_1 (V : Valuation τ sig (Elt F)) : (⟨S147456x64, .f32⟩ : BufTy).Contents (Elt F) :=
  bnRefN (mlpN (ginSumN (X1 V) (EA V) (V (Proc.devRef .tc main_arg23))) (gW1_1 (V (Proc.devRef .tc main_arg7))) (rowB128 (gB1_1 (V (Proc.devRef .tc main_arg8))))
    (gW2_1 (V (Proc.devRef .tc main_arg9))) (rowB64 (gB2_1 (V (Proc.devRef .tc main_arg10))))) (bnG_1 (V (Proc.devRef .tc main_arg11))) (bnB_1 (V (Proc.devRef .tc main_arg12)))
/-- Layer 1: the mean over copies per original node. -/
def XS_1 (V : Valuation τ sig (Elt F)) : (⟨S3072x64, .f32⟩ : BufTy).Contents (Elt F) := segMeanNM (X1 V) (NI V)
/-- Layer 1: the original-node branch after its batch normalisation. -/
def H2_1 (V : Valuation τ sig (Elt F)) : (⟨S3072x64, .f32⟩ : BufTy).Contents (Elt F) :=
  bnRefM (mlpM (ginSumM (XS_1 V) (OEA V) (V (Proc.devRef .tc main_arg24))) (sW1_1 (V (Proc.devRef .tc main_arg13))) (rowB128 (sB1_1 (V (Proc.devRef .tc main_arg14))))
    (sW2_1 (V (Proc.devRef .tc main_arg15))) (rowB64 (sB2_1 (V (Proc.devRef .tc main_arg16))))) (bsG_1 (V (Proc.devRef .tc main_arg17))) (bsB_1 (V (Proc.devRef .tc main_arg18)))
/-- Layer 1's output. -/
def X2 (V : Valuation τ sig (Elt F)) : (⟨S147456x64, .f32⟩ : BufTy).Contents (Elt F) :=
  reluN (addf (H1_1 V) (gatherBack (H2_1 V) (NI V)))

/-- Layer 2: the copy-node branch after its batch normalisation. -/
def H1_2 (V : Valuation τ sig (Elt F)) : (⟨S147456x64, .f32⟩ : BufTy).Contents (Elt F) :=
  bnRefN (mlpN (ginSumN (X2 V) (EA V) (V (Proc.devRef .tc main_arg23))) (gW1_2 (V (Proc.devRef .tc main_arg7))) (rowB128 (gB1_2 (V (Proc.devRef .tc main_arg8))))
    (gW2_2 (V (Proc.devRef .tc main_arg9))) (rowB64 (gB2_2 (V (Proc.devRef .tc main_arg10))))) (bnG_2 (V (Proc.devRef .tc main_arg11))) (bnB_2 (V (Proc.devRef .tc main_arg12)))
/-- Layer 2: the mean over copies per original node. -/
def XS_2 (V : Valuation τ sig (Elt F)) : (⟨S3072x64, .f32⟩ : BufTy).Contents (Elt F) := segMeanNM (X2 V) (NI V)
/-- Layer 2: the original-node branch after its batch normalisation. -/
def H2_2 (V : Valuation τ sig (Elt F)) : (⟨S3072x64, .f32⟩ : BufTy).Contents (Elt F) :=
  bnRefM (mlpM (ginSumM (XS_2 V) (OEA V) (V (Proc.devRef .tc main_arg24))) (sW1_2 (V (Proc.devRef .tc main_arg13))) (rowB128 (sB1_2 (V (Proc.devRef .tc main_arg14))))
    (sW2_2 (V (Proc.devRef .tc main_arg15))) (rowB64 (sB2_2 (V (Proc.devRef .tc main_arg16))))) (bsG_2 (V (Proc.devRef .tc main_arg17))) (bsB_2 (V (Proc.devRef .tc main_arg18)))
/-- Layer 2's output. -/
def X3 (V : Valuation τ sig (Elt F)) : (⟨S147456x64, .f32⟩ : BufTy).Contents (Elt F) :=
  reluN (addf (H1_2 V) (gatherBack (H2_2 V) (NI V)))

/-- The network's output. -/
def OUT (V : Valuation τ sig (Elt F)) : (⟨S64x10, .f32⟩ : BufTy).Contents (Elt F) :=
  mlpG (segMeanSG (segMeanNS (X3 V) (V (Proc.devRef .tc main_arg28))) (V (Proc.devRef .tc main_arg29))) (V (Proc.devRef .tc main_arg19)) (rowB128 (V (Proc.devRef .tc main_arg20))) (V (Proc.devRef .tc main_arg21)) (rowB10 (V (Proc.devRef .tc main_arg22)))

/-- That output is the network of the thirty arguments: the layers unfold to the same composition. -/
theorem OUT_eq_network (V : Valuation τ sig (Elt F)) :
    OUT V = Cert.Stage.network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) := rfl

/-! ### The live buffers, stretch by stretch -/

theorem at_P_v3 (V : Valuation τ sig (Elt F)) : at_P V (Proc.devRef .tc main_v3) = X0 V := read_P_x V
theorem at_P_v7 (V : Valuation τ sig (Elt F)) : at_P V (Proc.devRef .tc main_v7) = EA V := read_P_ea V
theorem at_P_v11 (V : Valuation τ sig (Elt F)) : at_P V (Proc.devRef .tc main_v11) = OEA V := read_P_oea V
theorem at_P_v22 (V : Valuation τ sig (Elt F)) : at_P V (Proc.devRef .tc main_v22) = NI V := read_P_ni V

theorem at_A0_v79 (V : Valuation τ sig (Elt F)) : at_A0 V (Proc.devRef .tc main_v79) = H1_0 V := by
  have h := read_A0 (F := F) (at_P V)
  rw [at_P_v3, at_P_v7, at_P_arg V main_arg23 (by decide), at_P_arg V main_arg7 (by decide), at_P_arg V main_arg8 (by decide), at_P_arg V main_arg9 (by decide), at_P_arg V main_arg10 (by decide), at_P_arg V main_arg11 (by decide), at_P_arg V main_arg12 (by decide)] at h
  exact h
theorem at_A0_v3 (V : Valuation τ sig (Elt F)) : at_A0 V (Proc.devRef .tc main_v3) = X0 V :=
  (keep_A0 _ main_v3 (by decide)).trans (at_P_v3 V)
theorem at_A0_v7 (V : Valuation τ sig (Elt F)) : at_A0 V (Proc.devRef .tc main_v7) = EA V :=
  (keep_A0 _ main_v7 (by decide)).trans (at_P_v7 V)
theorem at_A0_v11 (V : Valuation τ sig (Elt F)) : at_A0 V (Proc.devRef .tc main_v11) = OEA V :=
  (keep_A0 _ main_v11 (by decide)).trans (at_P_v11 V)
theorem at_A0_v22 (V : Valuation τ sig (Elt F)) : at_A0 V (Proc.devRef .tc main_v22) = NI V :=
  (keep_A0 _ main_v22 (by decide)).trans (at_P_v22 V)

theorem at_B0_v91 (V : Valuation τ sig (Elt F)) : at_B0 V (Proc.devRef .tc main_v91) = XS_0 V := by
  have h := read_B0 (F := F) (at_A0 V)
  rw [at_A0_v3, at_A0_v22] at h
  exact h
theorem at_B0_v79 (V : Valuation τ sig (Elt F)) : at_B0 V (Proc.devRef .tc main_v79) = H1_0 V :=
  (keep_B0 _ main_v79 (by decide)).trans (at_A0_v79 V)
theorem at_B0_v7 (V : Valuation τ sig (Elt F)) : at_B0 V (Proc.devRef .tc main_v7) = EA V :=
  (keep_B0 _ main_v7 (by decide)).trans (at_A0_v7 V)
theorem at_B0_v11 (V : Valuation τ sig (Elt F)) : at_B0 V (Proc.devRef .tc main_v11) = OEA V :=
  (keep_B0 _ main_v11 (by decide)).trans (at_A0_v11 V)
theorem at_B0_v22 (V : Valuation τ sig (Elt F)) : at_B0 V (Proc.devRef .tc main_v22) = NI V :=
  (keep_B0 _ main_v22 (by decide)).trans (at_A0_v22 V)

theorem at_C0_v148 (V : Valuation τ sig (Elt F)) : at_C0 V (Proc.devRef .tc main_v148) = H2_0 V := by
  have h := read_C0 (F := F) (at_B0 V)
  rw [at_B0_v91, at_B0_v11, at_B0_arg V main_arg24 (by decide), at_B0_arg V main_arg13 (by decide), at_B0_arg V main_arg14 (by decide), at_B0_arg V main_arg15 (by decide), at_B0_arg V main_arg16 (by decide), at_B0_arg V main_arg17 (by decide), at_B0_arg V main_arg18 (by decide)] at h
  exact h
theorem at_C0_v79 (V : Valuation τ sig (Elt F)) : at_C0 V (Proc.devRef .tc main_v79) = H1_0 V :=
  (keep_C0 _ main_v79 (by decide)).trans (at_B0_v79 V)
theorem at_C0_v7 (V : Valuation τ sig (Elt F)) : at_C0 V (Proc.devRef .tc main_v7) = EA V :=
  (keep_C0 _ main_v7 (by decide)).trans (at_B0_v7 V)
theorem at_C0_v11 (V : Valuation τ sig (Elt F)) : at_C0 V (Proc.devRef .tc main_v11) = OEA V :=
  (keep_C0 _ main_v11 (by decide)).trans (at_B0_v11 V)
theorem at_C0_v22 (V : Valuation τ sig (Elt F)) : at_C0 V (Proc.devRef .tc main_v22) = NI V :=
  (keep_C0 _ main_v22 (by decide)).trans (at_B0_v22 V)

theorem at_D0_v157 (V : Valuation τ sig (Elt F)) : at_D0 V (Proc.devRef .tc main_v157) = X1 V := by
  have h := read_D0 (F := F) (at_C0 V)
  rw [at_C0_v79, at_C0_v148, at_C0_v22] at h
  exact h
theorem at_D0_v7 (V : Valuation τ sig (Elt F)) : at_D0 V (Proc.devRef .tc main_v7) = EA V :=
  (keep_D0 _ main_v7 (by decide)).trans (at_C0_v7 V)
theorem at_D0_v11 (V : Valuation τ sig (Elt F)) : at_D0 V (Proc.devRef .tc main_v11) = OEA V :=
  (keep_D0 _ main_v11 (by decide)).trans (at_C0_v11 V)
theorem at_D0_v22 (V : Valuation τ sig (Elt F)) : at_D0 V (Proc.devRef .tc main_v22) = NI V :=
  (keep_D0 _ main_v22 (by decide)).trans (at_C0_v22 V)

theorem at_A1_v214 (V : Valuation τ sig (Elt F)) : at_A1 V (Proc.devRef .tc main_v214) = H1_1 V := by
  have h := read_A1 (F := F) (at_D0 V)
  rw [at_D0_v157, at_D0_v7, at_D0_arg V main_arg23 (by decide), at_D0_arg V main_arg7 (by decide), at_D0_arg V main_arg8 (by decide), at_D0_arg V main_arg9 (by decide), at_D0_arg V main_arg10 (by decide), at_D0_arg V main_arg11 (by decide), at_D0_arg V main_arg12 (by decide)] at h
  exact h
theorem at_A1_v157 (V : Valuation τ sig (Elt F)) : at_A1 V (Proc.devRef .tc main_v157) = X1 V :=
  (keep_A1 _ main_v157 (by decide)).trans (at_D0_v157 V)
theorem at_A1_v7 (V : Valuation τ sig (Elt F)) : at_A1 V (Proc.devRef .tc main_v7) = EA V :=
  (keep_A1 _ main_v7 (by decide)).trans (at_D0_v7 V)
theorem at_A1_v11 (V : Valuation τ sig (Elt F)) : at_A1 V (Proc.devRef .tc main_v11) = OEA V :=
  (keep_A1 _ main_v11 (by decide)).trans (at_D0_v11 V)
theorem at_A1_v22 (V : Valuation τ sig (Elt F)) : at_A1 V (Proc.devRef .tc main_v22) = NI V :=
  (keep_A1 _ main_v22 (by decide)).trans (at_D0_v22 V)

theorem at_B1_v226 (V : Valuation τ sig (Elt F)) : at_B1 V (Proc.devRef .tc main_v226) = XS_1 V := by
  have h := read_B1 (F := F) (at_A1 V)
  rw [at_A1_v157, at_A1_v22] at h
  exact h
theorem at_B1_v214 (V : Valuation τ sig (Elt F)) : at_B1 V (Proc.devRef .tc main_v214) = H1_1 V :=
  (keep_B1 _ main_v214 (by decide)).trans (at_A1_v214 V)
theorem at_B1_v7 (V : Valuation τ sig (Elt F)) : at_B1 V (Proc.devRef .tc main_v7) = EA V :=
  (keep_B1 _ main_v7 (by decide)).trans (at_A1_v7 V)
theorem at_B1_v11 (V : Valuation τ sig (Elt F)) : at_B1 V (Proc.devRef .tc main_v11) = OEA V :=
  (keep_B1 _ main_v11 (by decide)).trans (at_A1_v11 V)
theorem at_B1_v22 (V : Valuation τ sig (Elt F)) : at_B1 V (Proc.devRef .tc main_v22) = NI V :=
  (keep_B1 _ main_v22 (by decide)).trans (at_A1_v22 V)

theorem at_C1_v283 (V : Valuation τ sig (Elt F)) : at_C1 V (Proc.devRef .tc main_v283) = H2_1 V := by
  have h := read_C1 (F := F) (at_B1 V)
  rw [at_B1_v226, at_B1_v11, at_B1_arg V main_arg24 (by decide), at_B1_arg V main_arg13 (by decide), at_B1_arg V main_arg14 (by decide), at_B1_arg V main_arg15 (by decide), at_B1_arg V main_arg16 (by decide), at_B1_arg V main_arg17 (by decide), at_B1_arg V main_arg18 (by decide)] at h
  exact h
theorem at_C1_v214 (V : Valuation τ sig (Elt F)) : at_C1 V (Proc.devRef .tc main_v214) = H1_1 V :=
  (keep_C1 _ main_v214 (by decide)).trans (at_B1_v214 V)
theorem at_C1_v7 (V : Valuation τ sig (Elt F)) : at_C1 V (Proc.devRef .tc main_v7) = EA V :=
  (keep_C1 _ main_v7 (by decide)).trans (at_B1_v7 V)
theorem at_C1_v11 (V : Valuation τ sig (Elt F)) : at_C1 V (Proc.devRef .tc main_v11) = OEA V :=
  (keep_C1 _ main_v11 (by decide)).trans (at_B1_v11 V)
theorem at_C1_v22 (V : Valuation τ sig (Elt F)) : at_C1 V (Proc.devRef .tc main_v22) = NI V :=
  (keep_C1 _ main_v22 (by decide)).trans (at_B1_v22 V)

theorem at_D1_v292 (V : Valuation τ sig (Elt F)) : at_D1 V (Proc.devRef .tc main_v292) = X2 V := by
  have h := read_D1 (F := F) (at_C1 V)
  rw [at_C1_v214, at_C1_v283, at_C1_v22] at h
  exact h
theorem at_D1_v7 (V : Valuation τ sig (Elt F)) : at_D1 V (Proc.devRef .tc main_v7) = EA V :=
  (keep_D1 _ main_v7 (by decide)).trans (at_C1_v7 V)
theorem at_D1_v11 (V : Valuation τ sig (Elt F)) : at_D1 V (Proc.devRef .tc main_v11) = OEA V :=
  (keep_D1 _ main_v11 (by decide)).trans (at_C1_v11 V)
theorem at_D1_v22 (V : Valuation τ sig (Elt F)) : at_D1 V (Proc.devRef .tc main_v22) = NI V :=
  (keep_D1 _ main_v22 (by decide)).trans (at_C1_v22 V)

theorem at_A2_v349 (V : Valuation τ sig (Elt F)) : at_A2 V (Proc.devRef .tc main_v349) = H1_2 V := by
  have h := read_A2 (F := F) (at_D1 V)
  rw [at_D1_v292, at_D1_v7, at_D1_arg V main_arg23 (by decide), at_D1_arg V main_arg7 (by decide), at_D1_arg V main_arg8 (by decide), at_D1_arg V main_arg9 (by decide), at_D1_arg V main_arg10 (by decide), at_D1_arg V main_arg11 (by decide), at_D1_arg V main_arg12 (by decide)] at h
  exact h
theorem at_A2_v292 (V : Valuation τ sig (Elt F)) : at_A2 V (Proc.devRef .tc main_v292) = X2 V :=
  (keep_A2 _ main_v292 (by decide)).trans (at_D1_v292 V)
theorem at_A2_v11 (V : Valuation τ sig (Elt F)) : at_A2 V (Proc.devRef .tc main_v11) = OEA V :=
  (keep_A2 _ main_v11 (by decide)).trans (at_D1_v11 V)
theorem at_A2_v22 (V : Valuation τ sig (Elt F)) : at_A2 V (Proc.devRef .tc main_v22) = NI V :=
  (keep_A2 _ main_v22 (by decide)).trans (at_D1_v22 V)

theorem at_B2_v361 (V : Valuation τ sig (Elt F)) : at_B2 V (Proc.devRef .tc main_v361) = XS_2 V := by
  have h := read_B2 (F := F) (at_A2 V)
  rw [at_A2_v292, at_A2_v22] at h
  exact h
theorem at_B2_v349 (V : Valuation τ sig (Elt F)) : at_B2 V (Proc.devRef .tc main_v349) = H1_2 V :=
  (keep_B2 _ main_v349 (by decide)).trans (at_A2_v349 V)
theorem at_B2_v11 (V : Valuation τ sig (Elt F)) : at_B2 V (Proc.devRef .tc main_v11) = OEA V :=
  (keep_B2 _ main_v11 (by decide)).trans (at_A2_v11 V)
theorem at_B2_v22 (V : Valuation τ sig (Elt F)) : at_B2 V (Proc.devRef .tc main_v22) = NI V :=
  (keep_B2 _ main_v22 (by decide)).trans (at_A2_v22 V)

theorem at_C2_v418 (V : Valuation τ sig (Elt F)) : at_C2 V (Proc.devRef .tc main_v418) = H2_2 V := by
  have h := read_C2 (F := F) (at_B2 V)
  rw [at_B2_v361, at_B2_v11, at_B2_arg V main_arg24 (by decide), at_B2_arg V main_arg13 (by decide), at_B2_arg V main_arg14 (by decide), at_B2_arg V main_arg15 (by decide), at_B2_arg V main_arg16 (by decide), at_B2_arg V main_arg17 (by decide), at_B2_arg V main_arg18 (by decide)] at h
  exact h
theorem at_C2_v349 (V : Valuation τ sig (Elt F)) : at_C2 V (Proc.devRef .tc main_v349) = H1_2 V :=
  (keep_C2 _ main_v349 (by decide)).trans (at_B2_v349 V)
theorem at_C2_v22 (V : Valuation τ sig (Elt F)) : at_C2 V (Proc.devRef .tc main_v22) = NI V :=
  (keep_C2 _ main_v22 (by decide)).trans (at_B2_v22 V)

theorem at_D2_v427 (V : Valuation τ sig (Elt F)) : at_D2 V (Proc.devRef .tc main_v427) = X3 V := by
  have h := read_D2 (F := F) (at_C2 V)
  rw [at_C2_v349, at_C2_v418, at_C2_v22] at h
  exact h

theorem at_E_v460 (V : Valuation τ sig (Elt F)) : at_E V (Proc.devRef .tc main_v460) = OUT V := by
  have h := read_E (F := F) (at_D2 V)
  rw [at_D2_v427, at_D2_arg V main_arg28 (by decide), at_D2_arg V main_arg29 (by decide), at_D2_arg V main_arg19 (by decide), at_D2_arg V main_arg20 (by decide), at_D2_arg V main_arg21 (by decide), at_D2_arg V main_arg22 (by decide)] at h
  exact h

/-! ## The result -/

/-- After the whole line, the result buffer holds the network of the arguments' contents. -/
theorem result_eq (V : Valuation τ sig (Elt F)) :
    StableHlo.after ops V (Proc.devRef .tc main_v460)
      = Cert.Stage.network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) := by
  rw [after_ops_cuts, at_E_v460, OUT_eq_network]

end Cert.ReferenceIdeal.RefRun

end
-- ==== Proof.FinDef.lean ====
/-
  An array of extended reals all of whose entries are real numbers, and how that is read off a float array that
  passes the test |x| < +∞ at every index (the form in which the precondition states finiteness).
-/
import Idealize.ShloMosaic.PureOps.Ideal
import Idealize.ShloMosaic.PureOps.Ideal.Laws
import Idealize.ShloMosaic.Lib.ReduceAll

noncomputable section

namespace Cert.Math

open Idealize.ShloMosaic

/-- Every entry of the array is a real number (neither infinity). -/
def Fin' {S : Shape} (v : S.Idx → EReal) : Prop := ∀ i, ∃ r : ℝ, v i = (r : EReal)

/-- The pattern 0x7F800000 is +∞. -/
theorem ofBits_inf_f32 : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

end Cert.Math

end
-- ==== Proof.LibFiniteOps.lean ====
/-
  Finiteness on the extended reals. At the ideal float values an array entry is an extended real, and
  the algebraic laws that rearrange a normalisation (distributivity, cancelling a difference) hold only
  where every entry involved is a real number. This module states "every entry is a real" for an array
  (Fin'), refinements of it (every entry a nonnegative / positive / nonzero real, or a real at least one),
  and shows that each whole-array operation met in a message-passing network keeps these properties:
  the pointwise arithmetic, the re-indexings (broadcast, reshape, slice, gather: every entry of the
  result IS an entry of the operand), the exact sums (a contraction, a reduction, an accumulating
  scatter: finite sums of reals are real), a quotient by nonzero reals and a reciprocal square root of
  positive reals.
-/
import Idealize.ShloMosaic.PureOps.Ideal.Laws
import Idealize.ShloMosaic.PureOps.Contract
import Idealize.ShloMosaic.PureOps.ShapeOps
import Idealize.ShloMosaic.Lib.ValueIdx
import proofs.«177129_j59004260712467_1_alg».proof.Proof.FinDef

noncomputable section

open scoped BigOperators

namespace Cert.Math

open Idealize.ShloMosaic

/-! ## One extended real -/

/-- The extended real x is a real number. -/
def IsReal (x : EReal) : Prop := ∃ r : ℝ, x = (r : EReal)

/-- A real number is a real number. -/
theorem isReal_coe (r : ℝ) : IsReal (r : EReal) := ⟨r, rfl⟩

/-- Zero is a real number. -/
theorem isReal_zero : IsReal 0 := ⟨0, rfl⟩

/-- One is a real number. -/
theorem isReal_one : IsReal 1 := ⟨1, rfl⟩

/-- The sum of two reals is a real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two reals is a real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two reals is a real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The larger of two reals is a real. -/
theorem IsReal.max {x y : EReal} (hx : IsReal x) (hy : IsReal y) : IsReal (max x y) := by
  rcases max_choice x y with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The real value of a finite sum of reals: the sum of the real values. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of nonnegative reals is a nonnegative real. -/
theorem sum_nonneg_real {ι : Type*} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_refl _, by simp⟩
  | insert a s ha ih =>
    obtain ⟨r, hr, er⟩ := h a (Finset.mem_insert_self a s)
    obtain ⟨t, ht, et⟩ := ih fun i hi => h i (Finset.mem_insert_of_mem hi)
    exact ⟨r + t, add_nonneg hr ht, by rw [Finset.sum_insert ha, er, et, EReal.coe_add]⟩

/-- The ideal quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul]
  congr 1
  rw [one_div, div_eq_mul_inv]

/-- The ideal reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

/-- Normalisation at one entry: with every quantity a real, x · (c · r) + (b - m · (c · r)) is
    ((x - m) · r) · c + b. On the extended reals this needs the reals: at an infinite entry the
    difference b - m · (c · r) loses the term it should cancel. -/
theorem bn_entry {x m r c b : EReal} (hx : IsReal x) (hm : IsReal m) (hr : IsReal r) (hc : IsReal c) (hb : IsReal b) :
    x * (c * r) + (b - m * (c * r)) = ((x - m) * r) * c + b := by
  obtain ⟨x, rfl⟩ := hx; obtain ⟨m, rfl⟩ := hm; obtain ⟨r, rfl⟩ := hr; obtain ⟨c, rfl⟩ := hc; obtain ⟨b, rfl⟩ := hb
  simp only [← EReal.coe_mul, ← EReal.coe_sub, ← EReal.coe_add]
  congr 1; ring

/-! ## Arrays of extended reals -/

/-- Every entry of the array is a nonnegative real. -/
def NonNeg' {S : Shape} (v : S.Idx → EReal) : Prop := ∀ i, ∃ r : ℝ, 0 ≤ r ∧ v i = (r : EReal)

/-- Every entry of the array is a positive real. -/
def Pos' {S : Shape} (v : S.Idx → EReal) : Prop := ∀ i, ∃ r : ℝ, 0 < r ∧ v i = (r : EReal)

/-- Every entry of the array is a nonzero real. -/
def NonZero' {S : Shape} (v : S.Idx → EReal) : Prop := ∀ i, ∃ r : ℝ, r ≠ 0 ∧ v i = (r : EReal)

/-- Every entry of the array is a real at least one. -/
def GeOne' {S : Shape} (v : S.Idx → EReal) : Prop := ∀ i, ∃ r : ℝ, 1 ≤ r ∧ v i = (r : EReal)

/-- Nonnegative reals are reals. -/
theorem NonNeg'.fin {S : Shape} {v : S.Idx → EReal} (h : NonNeg' v) : Fin' v :=
  fun i => let ⟨r, _, e⟩ := h i; ⟨r, e⟩
/-- Positive reals are reals. -/
theorem Pos'.fin {S : Shape} {v : S.Idx → EReal} (h : Pos' v) : Fin' v :=
  fun i => let ⟨r, _, e⟩ := h i; ⟨r, e⟩
/-- Positive reals are nonnegative reals. -/
theorem Pos'.nonneg {S : Shape} {v : S.Idx → EReal} (h : Pos' v) : NonNeg' v :=
  fun i => let ⟨r, hr, e⟩ := h i; ⟨r, hr.le, e⟩
/-- Positive reals are nonzero reals. -/
theorem Pos'.nonzero {S : Shape} {v : S.Idx → EReal} (h : Pos' v) : NonZero' v :=
  fun i => let ⟨r, hr, e⟩ := h i; ⟨r, hr.ne', e⟩
/-- Nonzero reals are reals. -/
theorem NonZero'.fin {S : Shape} {v : S.Idx → EReal} (h : NonZero' v) : Fin' v :=
  fun i => let ⟨r, _, e⟩ := h i; ⟨r, e⟩
/-- Reals at least one are positive reals. -/
theorem GeOne'.pos {S : Shape} {v : S.Idx → EReal} (h : GeOne' v) : Pos' v :=
  fun i => let ⟨r, hr, e⟩ := h i; ⟨r, lt_of_lt_of_le one_pos hr, e⟩
/-- Reals at least one are reals. -/
theorem GeOne'.fin {S : Shape} {v : S.Idx → EReal} (h : GeOne' v) : Fin' v := h.pos.fin

section Ops
variable {S : Shape} {φ : FTy}

/-! ### Pointwise arithmetic -/

/-- A sum of finite arrays is finite. -/
theorem fin_addf (x y : FVec Ideal S φ) (hx : Fin' x) (hy : Fin' y) : Fin' (addf x y) :=
  fun i => IsReal.add (hx i) (hy i)

/-- A difference of finite arrays is finite. -/
theorem fin_subf (x y : FVec Ideal S φ) (hx : Fin' x) (hy : Fin' y) : Fin' (subf x y) :=
  fun i => IsReal.sub (hx i) (hy i)

/-- A product of finite arrays is finite. -/
theorem fin_mulf (x y : FVec Ideal S φ) (hx : Fin' x) (hy : Fin' y) : Fin' (mulf x y) :=
  fun i => IsReal.mul (hx i) (hy i)

/-- An entrywise maximum of finite arrays (a rectifier against a zero array) is finite. -/
theorem fin_maximumf (x y : FVec Ideal S φ) (hx : Fin' x) (hy : Fin' y) : Fin' (maximumf x y) :=
  fun i => IsReal.max (hx i) (hy i)

/-- A splat of a pattern that denotes a real is finite. -/
theorem fin_constant (b : BitVec φ.bits) (h : ∃ r : ℝ, Ideal.ofBits φ b = (r : EReal)) :
    Fin' (constant (F := Ideal) S φ b) :=
  fun _ => h

/-- A quotient of a finite array by an array of nonzero reals is finite. -/
theorem fin_hostDivf (x y : FVec Ideal S φ) (hx : Fin' x) (hy : NonZero' y) : Fin' (Host.divf x y) := by
  intro i
  obtain ⟨a, ea⟩ := hx i; obtain ⟨b, hb, eb⟩ := hy i
  refine ⟨a / b, ?_⟩
  show Ideal.div (x i) (y i) = _
  rw [ea, eb, div_coe_coe a hb]

/-- The reciprocal square root of an array of positive reals is an array of positive reals. -/
theorem pos_hostRsqrt (x : FVec Ideal S φ) (hx : Pos' x) : Pos' (Host.rsqrt x) := by
  intro i
  obtain ⟨a, ha, ea⟩ := hx i
  refine ⟨(Real.sqrt a)⁻¹, inv_pos.mpr (Real.sqrt_pos.mpr ha), ?_⟩
  show Ideal.rsqrt (x i) = _
  rw [ea, rsqrt_coe_pos ha]

/-- The reciprocal square root of an array of positive reals is finite. -/
theorem fin_hostRsqrt (x : FVec Ideal S φ) (hx : Pos' x) : Fin' (Host.rsqrt x) := (pos_hostRsqrt x hx).fin

/-- The square of a finite array has nonnegative real entries. -/
theorem nonneg_mulf_self (x : FVec Ideal S φ) (hx : Fin' x) : NonNeg' (mulf x x) := by
  intro i
  obtain ⟨a, ea⟩ := hx i
  refine ⟨a * a, mul_self_nonneg a, ?_⟩
  show x i * x i = _
  rw [ea, EReal.coe_mul]

/-- Nonnegative plus positive is positive (a variance plus a positive stabiliser). -/
theorem pos_addf (x y : FVec Ideal S φ) (hx : NonNeg' x) (hy : Pos' y) : Pos' (addf x y) := by
  intro i
  obtain ⟨a, ha, ea⟩ := hx i; obtain ⟨b, hb, eb⟩ := hy i
  refine ⟨a + b, add_pos_of_nonneg_of_pos ha hb, ?_⟩
  show x i + y i = _
  rw [ea, eb, EReal.coe_add]

/-- A quotient of nonnegative reals by positive reals is nonnegative. -/
theorem nonneg_hostDivf (x y : FVec Ideal S φ) (hx : NonNeg' x) (hy : Pos' y) : NonNeg' (Host.divf x y) := by
  intro i
  obtain ⟨a, ha, ea⟩ := hx i; obtain ⟨b, hb, eb⟩ := hy i
  refine ⟨a / b, div_nonneg ha hb.le, ?_⟩
  show Ideal.div (x i) (y i) = _
  rw [ea, eb, div_coe_coe a hb.ne']

/-- The entrywise maximum of a finite array with an array of ones has real entries at least one
    (segment sizes guarded against empty segments). -/
theorem geOne_maximumf_ones (x o : FVec Ideal S φ) (hx : Fin' x) (ho : ∀ i, o i = 1) : GeOne' (maximumf x o) := by
  intro i
  obtain ⟨a, ea⟩ := hx i
  refine ⟨max a 1, le_max_right a 1, ?_⟩
  show max (x i) (o i) = _
  rw [ea, ho i]
  rcases le_total a 1 with h | h
  · rw [max_eq_right h, max_eq_right (by exact_mod_cast h)]; rfl
  · rw [max_eq_left h, max_eq_left (by exact_mod_cast h)]

end Ops

/-! ### Re-indexings: every entry of the result is an entry of the operand -/

section Reindex
variable {s t : Shape}

/-- A broadcast along named axes of a finite array is finite. -/
theorem fin_broadcastInDim (dims : Fin s.rank → Fin t.rank) (h : s.BroadcastsInDim t dims) (x : s.Idx → EReal)
    (hx : Fin' x) : Fin' (broadcastInDim t dims h x) :=
  fun _ => hx _

/-- A reshape of a finite array is finite. -/
theorem fin_shapeCast (x : s.Idx → EReal) (h : s.ShapeCasts t) (hx : Fin' x) : Fin' (shapeCast t x h) :=
  fun _ => hx _

/-- A block cut out of a finite array is finite. -/
theorem fin_extractStridedSlice (off : Fin s.rank → Nat) (x : s.Idx → EReal) (h : s.Slices off t) (hx : Fin' x) :
    Fin' (extractStridedSlice t off x h) :=
  fun _ => hx _

/-- A gather from a finite array is finite, whatever the start indices hold: each result entry is the
    operand's entry at the (clamped) operand index. -/
theorem fin_gather {si : Shape} {w : Nat} (d : GatherDims s si t) (x : s.Idx → EReal) (idx : IVec si w)
    (hx : Fin' x) : Fin' (Host.gather d x idx) :=
  fun _ => hx _

/-- The same re-indexings keep "every entry a positive real". -/
theorem pos_broadcastInDim (dims : Fin s.rank → Fin t.rank) (h : s.BroadcastsInDim t dims) (x : s.Idx → EReal)
    (hx : Pos' x) : Pos' (broadcastInDim t dims h x) :=
  fun _ => hx _
/-- … and "every entry a real at least one" … -/
theorem geOne_broadcastInDim (dims : Fin s.rank → Fin t.rank) (h : s.BroadcastsInDim t dims) (x : s.Idx → EReal)
    (hx : GeOne' x) : GeOne' (broadcastInDim t dims h x) :=
  fun _ => hx _
/-- … and "every entry a nonnegative real". -/
theorem nonneg_broadcastInDim (dims : Fin s.rank → Fin t.rank) (h : s.BroadcastsInDim t dims) (x : s.Idx → EReal)
    (hx : NonNeg' x) : NonNeg' (broadcastInDim t dims h x) :=
  fun _ => hx _
/-- A reshape of an array of positive reals is one. -/
theorem pos_shapeCast (x : s.Idx → EReal) (h : s.ShapeCasts t) (hx : Pos' x) : Pos' (shapeCast t x h) :=
  fun _ => hx _

end Reindex

/-! ### Exact sums -/

section Sums

/-- A host contraction of finite arrays is finite: each entry is a finite sum of products. -/
theorem fin_dotGeneral {sl sr so : Shape} {φ₁ φ₂ : FTy} (d : DotDims sl sr so) (prec : Option ContractPrecision)
    (lhs : FVec Ideal sl φ₁) (rhs : FVec Ideal sr φ₂) (hl : Fin' lhs) (hr : Fin' rhs) :
    Fin' (Host.dotGeneral d prec lhs rhs) := by
  intro j
  show IsReal (FloatOps.dotGeneral d prec .single lhs rhs j)
  rw [Ideal.dotGeneral_apply]
  exact IsReal.sum _ _ fun k _ => IsReal.mul (hl _) (hr _)

/-- A host sum of a finite array from a real initial value is finite. -/
theorem fin_hostReduceAdd {s t u : Shape} {φ : FTy} {axes : List (Fin s.rank)} (x : FVec Ideal s φ)
    (init : u.Idx → Ideal φ) (h : s.ReducesTo axes t) (hu : 0 < u.numel) (hx : Fin' x) (hi : Fin' init) :
    Fin' (Host.reduceAdd x init h hu) := by
  intro j
  show IsReal (init (Shape.Idx.first hu) + ∑ i ∈ Finset.univ.filter (fun i => h.drop i = j), x i)
  exact IsReal.add (hi _) (IsReal.sum _ _ fun i _ => hx i)

/-- A host sum of nonnegative reals from a nonnegative real is a nonnegative real. -/
theorem nonneg_hostReduceAdd {s t u : Shape} {φ : FTy} {axes : List (Fin s.rank)} (x : FVec Ideal s φ)
    (init : u.Idx → Ideal φ) (h : s.ReducesTo axes t) (hu : 0 < u.numel) (hx : NonNeg' x) (hi : NonNeg' init) :
    NonNeg' (Host.reduceAdd x init h hu) := by
  intro j
  show ∃ r : ℝ, 0 ≤ r ∧ init (Shape.Idx.first hu) + ∑ i ∈ Finset.univ.filter (fun i => h.drop i = j), x i = (r : EReal)
  obtain ⟨a, ha, ea⟩ := hi (Shape.Idx.first hu)
  obtain ⟨b, hb, eb⟩ := sum_nonneg_real (Finset.univ.filter (fun i => h.drop i = j)) x fun i _ => hx i
  exact ⟨a + b, add_nonneg ha hb, by rw [ea, eb, EReal.coe_add]⟩

/-- An accumulating host scatter of finite updates into a finite array is finite: each entry is the
    operand's entry plus a finite sum of update entries. -/
theorem fin_scatterAdd {s si u : Shape} {φ : FTy} {w : Nat} (d : ScatterDims s si u) (x : FVec Ideal s φ)
    (idx : IVec si w) (upd : FVec Ideal u φ) (hx : Fin' x) (hu : Fin' upd) : Fin' (Host.scatterAdd d x idx upd) := by
  intro i
  show IsReal (x i + ∑ j ∈ Finset.univ.filter (fun j => d.resultIdx? j idx = some i), upd j)
  exact IsReal.add (hx i) (IsReal.sum _ _ fun j _ => hu j)

end Sums

/-! ### The float words of the network, as reals -/

/-- The word of positive zero denotes the real zero. -/
theorem ofBits_zero : Ideal.ofBits .f32 0x00000000#32 = ((0 : ℝ) : EReal) := by
  simp [Ideal.ofBits, Ideal.ieee]

/-- The word of one denotes the real one. -/
theorem ofBits_one : Ideal.ofBits .f32 0x3F800000#32 = ((1 : ℝ) : EReal) := by
  simp [Ideal.ofBits, Ideal.ieee, -EReal.coe_mul]; norm_num

/-- The stabiliser added to a variance, 10995116 / 2^40 (the float nearest 1e-5), as a real. -/
theorem ofBits_eps : Ideal.ofBits .f32 0x3727C5AC#32 = ((10995116 / 2 ^ 40 : ℝ) : EReal) := by
  simp [Ideal.ofBits, Ideal.ieee, -EReal.coe_mul]; norm_num

/-- The word of 3072 denotes the real 3072. -/
theorem ofBits_3072 : Ideal.ofBits .f32 0x45400000#32 = ((3072 : ℝ) : EReal) := by
  simp [Ideal.ofBits, Ideal.ieee, -EReal.coe_mul]; norm_num

/-- The word of 147456 denotes the real 147456. -/
theorem ofBits_147456 : Ideal.ofBits .f32 0x48100000#32 = ((147456 : ℝ) : EReal) := by
  simp [Ideal.ofBits, Ideal.ieee, -EReal.coe_mul]; norm_num

/-- The stabiliser is a positive real. -/
theorem ofBits_eps_pos : ∃ r : ℝ, 0 < r ∧ Ideal.ofBits .f32 0x3727C5AC#32 = (r : EReal) :=
  ⟨10995116 / 2 ^ 40, by norm_num, ofBits_eps⟩

end Cert.Math

end
-- ==== Proof.StageFinite.lean ====
/-
  Every stage of the network keeps finiteness: if the float arrays going into a stage have real entries,
  so has the array coming out, whatever the integer index arrays hold (a gather reads an entry of its
  operand wherever the clamped index lands; an accumulating scatter adds finitely many update entries).
  Along the way: the column variance of a finite array is a nonnegative real (a sum of squares over a
  positive count), so variance plus the positive stabiliser is a positive real and its reciprocal square
  root a positive real; and a segment's size, the scattered count guarded by a maximum with one, is a
  real at least one, so a segment mean divides by a nonzero real.
-/
import proofs.«177129_j59004260712467_1_alg».proof.Proof.Stage
import proofs.«177129_j59004260712467_1_alg».proof.Proof.LibFiniteOps

noncomputable section
open scoped BigOperators
namespace Cert.Math
open Idealize.ShloMosaic Idealize.ShloMosaic.ValueIdx Cert.Stage

variable [Cert.ReferenceIdeal.Facts]

/-! ## The constants of the network, broadcast -/

/-- A broadcast scalar zero is a finite (indeed nonnegative) array. -/
theorem nonneg_bc_zero {t : Shape} (dims : Fin Cert.ReferenceIdeal.S_.rank → Fin t.rank)
    (h : Cert.ReferenceIdeal.S_.BroadcastsInDim t dims) :
    NonNeg' (broadcastInDim t dims h (constant (F := Ideal) Cert.ReferenceIdeal.S_ .f32 0x00000000#32)) :=
  fun _ => ⟨0, le_refl _, ofBits_zero⟩

/-- A broadcast scalar zero is a finite array. -/
theorem fin_bc_zero {t : Shape} (dims : Fin Cert.ReferenceIdeal.S_.rank → Fin t.rank)
    (h : Cert.ReferenceIdeal.S_.BroadcastsInDim t dims) :
    Fin' (broadcastInDim t dims h (constant (F := Ideal) Cert.ReferenceIdeal.S_ .f32 0x00000000#32)) :=
  (nonneg_bc_zero dims h).fin

/-- The scalar zero is a nonnegative real. -/
theorem nonneg_zero : NonNeg' (constant (F := Ideal) Cert.ReferenceIdeal.S_ .f32 0x00000000#32) :=
  fun _ => ⟨0, le_refl _, ofBits_zero⟩

/-- A broadcast scalar one is an array of ones. -/
theorem bc_one_apply {t : Shape} (dims : Fin Cert.ReferenceIdeal.S_.rank → Fin t.rank)
    (h : Cert.ReferenceIdeal.S_.BroadcastsInDim t dims) (i : t.Idx) :
    broadcastInDim t dims h (constant (F := Ideal) Cert.ReferenceIdeal.S_ .f32 0x3F800000#32) i = 1 := by
  show Ideal.ofBits .f32 0x3F800000#32 = 1
  rw [ofBits_one]; rfl

/-- A broadcast scalar one is a finite array. -/
theorem fin_bc_one {t : Shape} (dims : Fin Cert.ReferenceIdeal.S_.rank → Fin t.rank)
    (h : Cert.ReferenceIdeal.S_.BroadcastsInDim t dims) :
    Fin' (broadcastInDim t dims h (constant (F := Ideal) Cert.ReferenceIdeal.S_ .f32 0x3F800000#32)) :=
  fun _ => ⟨1, ofBits_one⟩

/-- The broadcast stabiliser is an array of positive reals. -/
theorem pos_bc_eps {t : Shape} (dims : Fin Cert.ReferenceIdeal.S_.rank → Fin t.rank)
    (h : Cert.ReferenceIdeal.S_.BroadcastsInDim t dims) :
    Pos' (broadcastInDim t dims h (constant (F := Ideal) Cert.ReferenceIdeal.S_ .f32 0x3727C5AC#32)) :=
  fun _ => ofBits_eps_pos

/-- The signed reading of the zero word is zero. -/
theorem toInt_zero32 : ((0#32 : BitVec 32).toInt : ℝ) = 0 := by norm_num

/-- A count minus the zero correction is the count: if the word b denotes the real a, so does its value
    minus the signed reading of the zero word. -/
theorem count_sub_zero (b : BitVec 32) {a : ℝ} (hb : Ideal.ofBits .f32 b = (a : EReal)) :
    Ideal.ofBits .f32 b - (((0#32 : BitVec 32).toInt : ℝ) : EReal) = (a : EReal) := by
  rw [hb, toInt_zero32, ← EReal.coe_sub, sub_zero]

/-- The guard "count minus correction is positive" holds. -/
theorem guard_one (b : BitVec 32) {a : ℝ} (hb : Ideal.ofBits .f32 b = (a : EReal)) (ha : 0 < a) :
    Ideal.cmp .ogt (Ideal.ofBits .f32 b - (((0#32 : BitVec 32).toInt : ℝ) : EReal)) (Ideal.ofBits .f32 0x00000000#32) = 1#1 := by
  rw [count_sub_zero b hb, ofBits_zero]
  simp [Ideal.cmp, ha]

/-- A select whose condition holds everywhere keeps "nonnegative real entries" of its first operand. -/
theorem nonneg_select {S : Shape} (c : IVec S 1) (a b : S.Idx → EReal) (hc : ∀ i, c i = 1#1) (ha : NonNeg' a) :
    NonNeg' (select c a b) := by
  intro i
  show ∃ r : ℝ, 0 ≤ r ∧ Scalar.select (c i) (a i) (b i) = (r : EReal)
  rw [hc i, select_one]; exact ha i

/-! ## The stages on the original nodes -/

/-- The column means of a finite array are real: a finite sum over a nonzero real count. -/
theorem fin_meanM (g : (⟨Cert.ReferenceIdeal.S3072x64, .f32⟩ : BufTy).Contents (Elt Ideal)) (hg : Fin' g) : Fin' (meanM (F := Ideal) g) := by
  unfold meanM
  exact fin_hostDivf _ _ (fin_hostReduceAdd _ _ _ _ hg nonneg_zero.fin)
    (fun _ => ⟨3072, by norm_num, ofBits_3072⟩)

/-- The column variances of a finite array are nonnegative reals: the guard on the count holds, and a sum of squares over a positive count is nonnegative. -/
theorem nonneg_varM (g : (⟨Cert.ReferenceIdeal.S3072x64, .f32⟩ : BufTy).Contents (Elt Ideal)) (hg : Fin' g) : NonNeg' (varM (F := Ideal) g) := by
  unfold varM
  refine nonneg_select _ _ _ (fun _ => guard_one _ ofBits_3072 (by norm_num)) ?_
  refine nonneg_hostDivf _ _ (nonneg_hostReduceAdd _ _ _ _ (nonneg_mulf_self _ ?_) nonneg_zero) ?_
  · exact fin_subf _ _ hg (fin_broadcastInDim _ _ _ (fin_hostDivf _ _
      (fin_broadcastInDim _ _ _ (fin_hostReduceAdd _ _ _ _ hg nonneg_zero.fin))
      (fun _ => ⟨3072, by norm_num, ofBits_3072⟩)))
  · exact fun _ => ⟨3072, by norm_num, count_sub_zero _ ofBits_3072⟩

/-- Variance plus the stabiliser is a positive real in every column. -/
theorem pos_varM_eps (g : (⟨Cert.ReferenceIdeal.S3072x64, .f32⟩ : BufTy).Contents (Elt Ideal)) (hg : Fin' g) :
    Pos' (addf (varM (F := Ideal) g) (broadcastInDim Cert.ReferenceIdeal.S64 ![] Cert.ReferenceIdeal.Facts₀.bcast_S_S64 (constant (F := Ideal) Cert.ReferenceIdeal.S_ .f32 0x3727C5AC#32))) :=
  pos_addf _ _ (nonneg_varM g hg) (pos_bc_eps _ _)

/-- The reciprocal standard deviation of a finite array is a positive real in every column. -/
theorem pos_rstdM (g : (⟨Cert.ReferenceIdeal.S3072x64, .f32⟩ : BufTy).Contents (Elt Ideal)) (hg : Fin' g) :
    Pos' (Host.rsqrt (addf (varM (F := Ideal) g) (broadcastInDim Cert.ReferenceIdeal.S64 ![] Cert.ReferenceIdeal.Facts₀.bcast_S_S64 (constant (F := Ideal) Cert.ReferenceIdeal.S_ .f32 0x3727C5AC#32)))) :=
  pos_hostRsqrt _ (pos_varM_eps g hg)

/-! ## The stages on the copy nodes -/

/-- The column means of a finite array are real: a finite sum over a nonzero real count. -/
theorem fin_meanN (g : (⟨Cert.ReferenceIdeal.S147456x64, .f32⟩ : BufTy).Contents (Elt Ideal)) (hg : Fin' g) : Fin' (meanN (F := Ideal) g) := by
  unfold meanN
  exact fin_hostDivf _ _ (fin_hostReduceAdd _ _ _ _ hg nonneg_zero.fin)
    (fun _ => ⟨147456, by norm_num, ofBits_147456⟩)

/-- The column variances of a finite array are nonnegative reals: the guard on the count holds, and a sum of squares over a positive count is nonnegative. -/
theorem nonneg_varN (g : (⟨Cert.ReferenceIdeal.S147456x64, .f32⟩ : BufTy).Contents (Elt Ideal)) (hg : Fin' g) : NonNeg' (varN (F := Ideal) g) := by
  unfold varN
  refine nonneg_select _ _ _ (fun _ => guard_one _ ofBits_147456 (by norm_num)) ?_
  refine nonneg_hostDivf _ _ (nonneg_hostReduceAdd _ _ _ _ (nonneg_mulf_self _ ?_) nonneg_zero) ?_
  · exact fin_subf _ _ hg (fin_broadcastInDim _ _ _ (fin_hostDivf _ _
      (fin_broadcastInDim _ _ _ (fin_hostReduceAdd _ _ _ _ hg nonneg_zero.fin))
      (fun _ => ⟨147456, by norm_num, ofBits_147456⟩)))
  · exact fun _ => ⟨147456, by norm_num, count_sub_zero _ ofBits_147456⟩

/-- Variance plus the stabiliser is a positive real in every column. -/
theorem pos_varN_eps (g : (⟨Cert.ReferenceIdeal.S147456x64, .f32⟩ : BufTy).Contents (Elt Ideal)) (hg : Fin' g) :
    Pos' (addf (varN (F := Ideal) g) (broadcastInDim Cert.ReferenceIdeal.S64 ![] Cert.ReferenceIdeal.Facts₀.bcast_S_S64 (constant (F := Ideal) Cert.ReferenceIdeal.S_ .f32 0x3727C5AC#32))) :=
  pos_addf _ _ (nonneg_varN g hg) (pos_bc_eps _ _)

/-- The reciprocal standard deviation of a finite array is a positive real in every column. -/
theorem pos_rstdN (g : (⟨Cert.ReferenceIdeal.S147456x64, .f32⟩ : BufTy).Contents (Elt Ideal)) (hg : Fin' g) :
    Pos' (Host.rsqrt (addf (varN (F := Ideal) g) (broadcastInDim Cert.ReferenceIdeal.S64 ![] Cert.ReferenceIdeal.Facts₀.bcast_S_S64 (constant (F := Ideal) Cert.ReferenceIdeal.S_ .f32 0x3727C5AC#32)))) :=
  pos_hostRsqrt _ (pos_varN_eps g hg)

/-! ## Every stage keeps finiteness -/

/-- A finite vector read as one row is finite. -/
theorem fin_rowB64 (b : (⟨Cert.ReferenceIdeal.S64, .f32⟩ : BufTy).Contents (Elt Ideal)) (hb : Fin' b) : Fin' (rowB64 (F := Ideal) b) := by
  unfold rowB64; exact fin_broadcastInDim _ _ _ hb
/-- A finite vector read as one row is finite. -/
theorem fin_rowB128 (b : (⟨Cert.ReferenceIdeal.S128, .f32⟩ : BufTy).Contents (Elt Ideal)) (hb : Fin' b) : Fin' (rowB128 (F := Ideal) b) := by
  unfold rowB128; exact fin_broadcastInDim _ _ _ hb
/-- A finite vector read as one row is finite. -/
theorem fin_rowB10 (b : (⟨Cert.ReferenceIdeal.S10, .f32⟩ : BufTy).Contents (Elt Ideal)) (hb : Fin' b) : Fin' (rowB10 (F := Ideal) b) := by
  unfold rowB10; exact fin_broadcastInDim _ _ _ hb

/-- An encoder (a product with finite weights plus a finite bias row) keeps finiteness. -/
theorem fin_encX (x : (⟨Cert.ReferenceIdeal.S147456x16, .f32⟩ : BufTy).Contents (Elt Ideal)) (w : (⟨Cert.ReferenceIdeal.S16x64, .f32⟩ : BufTy).Contents (Elt Ideal)) (b1 : (⟨Cert.ReferenceIdeal.S1x64, .f32⟩ : BufTy).Contents (Elt Ideal))
    (hx : Fin' x) (hw : Fin' w) (hb : Fin' b1) : Fin' (encX (F := Ideal) x w b1) := by
  unfold encX
  exact fin_addf _ _ (fin_dotGeneral _ _ _ _ hx hw) (fin_broadcastInDim _ _ _ hb)

/-- An encoder (a product with finite weights plus a finite bias row) keeps finiteness. -/
theorem fin_encE (x : (⟨Cert.ReferenceIdeal.S884736x8, .f32⟩ : BufTy).Contents (Elt Ideal)) (w : (⟨Cert.ReferenceIdeal.S8x64, .f32⟩ : BufTy).Contents (Elt Ideal)) (b1 : (⟨Cert.ReferenceIdeal.S1x64, .f32⟩ : BufTy).Contents (Elt Ideal))
    (hx : Fin' x) (hw : Fin' w) (hb : Fin' b1) : Fin' (encE (F := Ideal) x w b1) := by
  unfold encE
  exact fin_addf _ _ (fin_dotGeneral _ _ _ _ hx hw) (fin_broadcastInDim _ _ _ hb)

/-- An encoder (a product with finite weights plus a finite bias row) keeps finiteness. -/
theorem fin_encO (x : (⟨Cert.ReferenceIdeal.S18432x8, .f32⟩ : BufTy).Contents (Elt Ideal)) (w : (⟨Cert.ReferenceIdeal.S8x64, .f32⟩ : BufTy).Contents (Elt Ideal)) (b1 : (⟨Cert.ReferenceIdeal.S1x64, .f32⟩ : BufTy).Contents (Elt Ideal))
    (hx : Fin' x) (hw : Fin' w) (hb : Fin' b1) : Fin' (encO (F := Ideal) x w b1) := by
  unfold encO
  exact fin_addf _ _ (fin_dotGeneral _ _ _ _ hx hw) (fin_broadcastInDim _ _ _ hb)

/-- The message aggregation keeps finiteness: gathered rows plus finite edge embeddings, rectified, summed per target. -/
theorem fin_ginSumN (x : (⟨Cert.ReferenceIdeal.S147456x64, .f32⟩ : BufTy).Contents (Elt Ideal)) (ea : (⟨Cert.ReferenceIdeal.S884736x64, .f32⟩ : BufTy).Contents (Elt Ideal)) (ei : (⟨Cert.ReferenceIdeal.S2x884736, .i32⟩ : BufTy).Contents (Elt Ideal))
    (hx : Fin' x) (hea : Fin' ea) : Fin' (ginSumN (F := Ideal) x ea ei) := by
  unfold ginSumN
  exact fin_addf _ _ hx (fin_scatterAdd _ _ _ _ (fin_bc_zero _ _)
    (fin_maximumf _ _ (fin_addf _ _ (fin_gather _ _ _ hx) hea) (fin_bc_zero _ _)))

/-- The message aggregation keeps finiteness: gathered rows plus finite edge embeddings, rectified, summed per target. -/
theorem fin_ginSumM (x : (⟨Cert.ReferenceIdeal.S3072x64, .f32⟩ : BufTy).Contents (Elt Ideal)) (ea : (⟨Cert.ReferenceIdeal.S18432x64, .f32⟩ : BufTy).Contents (Elt Ideal)) (ei : (⟨Cert.ReferenceIdeal.S2x18432, .i32⟩ : BufTy).Contents (Elt Ideal))
    (hx : Fin' x) (hea : Fin' ea) : Fin' (ginSumM (F := Ideal) x ea ei) := by
  unfold ginSumM
  exact fin_addf _ _ hx (fin_scatterAdd _ _ _ _ (fin_bc_zero _ _)
    (fin_maximumf _ _ (fin_addf _ _ (fin_gather _ _ _ hx) hea) (fin_bc_zero _ _)))

/-- A two-layer perceptron with finite weights and biases keeps finiteness. -/
theorem fin_mlpN (h : (⟨Cert.ReferenceIdeal.S147456x64, .f32⟩ : BufTy).Contents (Elt Ideal)) (w1 : (⟨Cert.ReferenceIdeal.S64x128, .f32⟩ : BufTy).Contents (Elt Ideal)) (b1r : (⟨Cert.ReferenceIdeal.S1x128, .f32⟩ : BufTy).Contents (Elt Ideal)) (w2 : (⟨Cert.ReferenceIdeal.S128x64, .f32⟩ : BufTy).Contents (Elt Ideal)) (b2r : (⟨Cert.ReferenceIdeal.S1x64, .f32⟩ : BufTy).Contents (Elt Ideal))
    (hh : Fin' h) (hw1 : Fin' w1) (hb1 : Fin' b1r) (hw2 : Fin' w2) (hb2 : Fin' b2r) :
    Fin' (mlpN (F := Ideal) h w1 b1r w2 b2r) := by
  unfold mlpN
  exact fin_addf _ _ (fin_dotGeneral _ _ _ _
    (fin_maximumf _ _ (fin_addf _ _ (fin_dotGeneral _ _ _ _ hh hw1) (fin_broadcastInDim _ _ _ hb1)) (fin_bc_zero _ _)) hw2)
    (fin_broadcastInDim _ _ _ hb2)

/-- A two-layer perceptron with finite weights and biases keeps finiteness. -/
theorem fin_mlpM (h : (⟨Cert.ReferenceIdeal.S3072x64, .f32⟩ : BufTy).Contents (Elt Ideal)) (w1 : (⟨Cert.ReferenceIdeal.S64x128, .f32⟩ : BufTy).Contents (Elt Ideal)) (b1r : (⟨Cert.ReferenceIdeal.S1x128, .f32⟩ : BufTy).Contents (Elt Ideal)) (w2 : (⟨Cert.ReferenceIdeal.S128x64, .f32⟩ : BufTy).Contents (Elt Ideal)) (b2r : (⟨Cert.ReferenceIdeal.S1x64, .f32⟩ : BufTy).Contents (Elt Ideal))
    (hh : Fin' h) (hw1 : Fin' w1) (hb1 : Fin' b1r) (hw2 : Fin' w2) (hb2 : Fin' b2r) :
    Fin' (mlpM (F := Ideal) h w1 b1r w2 b2r) := by
  unfold mlpM
  exact fin_addf _ _ (fin_dotGeneral _ _ _ _
    (fin_maximumf _ _ (fin_addf _ _ (fin_dotGeneral _ _ _ _ hh hw1) (fin_broadcastInDim _ _ _ hb1)) (fin_bc_zero _ _)) hw2)
    (fin_broadcastInDim _ _ _ hb2)

/-- A two-layer perceptron with finite weights and biases keeps finiteness. -/
theorem fin_mlpG (h : (⟨Cert.ReferenceIdeal.S64x64, .f32⟩ : BufTy).Contents (Elt Ideal)) (w1 : (⟨Cert.ReferenceIdeal.S64x128, .f32⟩ : BufTy).Contents (Elt Ideal)) (b1r : (⟨Cert.ReferenceIdeal.S1x128, .f32⟩ : BufTy).Contents (Elt Ideal)) (w2 : (⟨Cert.ReferenceIdeal.S128x10, .f32⟩ : BufTy).Contents (Elt Ideal)) (b2r : (⟨Cert.ReferenceIdeal.S1x10, .f32⟩ : BufTy).Contents (Elt Ideal))
    (hh : Fin' h) (hw1 : Fin' w1) (hb1 : Fin' b1r) (hw2 : Fin' w2) (hb2 : Fin' b2r) :
    Fin' (mlpG (F := Ideal) h w1 b1r w2 b2r) := by
  unfold mlpG
  exact fin_addf _ _ (fin_dotGeneral _ _ _ _
    (fin_maximumf _ _ (fin_addf _ _ (fin_dotGeneral _ _ _ _ hh hw1) (fin_broadcastInDim _ _ _ hb1)) (fin_bc_zero _ _)) hw2)
    (fin_broadcastInDim _ _ _ hb2)

/-- The column variances of a finite array are real. -/
theorem fin_varN (g : (⟨Cert.ReferenceIdeal.S147456x64, .f32⟩ : BufTy).Contents (Elt Ideal)) (hg : Fin' g) : Fin' (varN (F := Ideal) g) := (nonneg_varN g hg).fin

/-- Batch normalisation of a finite array with finite γ and β is finite. -/
theorem fin_bnRefN (g : (⟨Cert.ReferenceIdeal.S147456x64, .f32⟩ : BufTy).Contents (Elt Ideal)) (gam bet : (⟨Cert.ReferenceIdeal.S64, .f32⟩ : BufTy).Contents (Elt Ideal)) (hg : Fin' g) (hγ : Fin' gam) (hβ : Fin' bet) :
    Fin' (bnRefN (F := Ideal) g gam bet) := by
  unfold bnRefN
  exact fin_addf _ _ (fin_mulf _ _ (fin_mulf _ _
      (fin_subf _ _ hg (fin_broadcastInDim _ _ _ (fin_broadcastInDim _ _ _ (fin_meanN g hg))))
      (fin_broadcastInDim _ _ _ (fin_broadcastInDim _ _ _ (pos_rstdN g hg).fin)))
      (fin_broadcastInDim _ _ _ (fin_broadcastInDim _ _ _ hγ)))
    (fin_broadcastInDim _ _ _ (fin_broadcastInDim _ _ _ hβ))

/-- The column variances of a finite array are real. -/
theorem fin_varM (g : (⟨Cert.ReferenceIdeal.S3072x64, .f32⟩ : BufTy).Contents (Elt Ideal)) (hg : Fin' g) : Fin' (varM (F := Ideal) g) := (nonneg_varM g hg).fin

/-- Batch normalisation of a finite array with finite γ and β is finite. -/
theorem fin_bnRefM (g : (⟨Cert.ReferenceIdeal.S3072x64, .f32⟩ : BufTy).Contents (Elt Ideal)) (gam bet : (⟨Cert.ReferenceIdeal.S64, .f32⟩ : BufTy).Contents (Elt Ideal)) (hg : Fin' g) (hγ : Fin' gam) (hβ : Fin' bet) :
    Fin' (bnRefM (F := Ideal) g gam bet) := by
  unfold bnRefM
  exact fin_addf _ _ (fin_mulf _ _ (fin_mulf _ _
      (fin_subf _ _ hg (fin_broadcastInDim _ _ _ (fin_broadcastInDim _ _ _ (fin_meanM g hg))))
      (fin_broadcastInDim _ _ _ (fin_broadcastInDim _ _ _ (pos_rstdM g hg).fin)))
      (fin_broadcastInDim _ _ _ (fin_broadcastInDim _ _ _ hγ)))
    (fin_broadcastInDim _ _ _ (fin_broadcastInDim _ _ _ hβ))

/-- A segment mean of a finite array is finite: per-segment sums over sizes that are reals at least one. -/
theorem fin_segMeanNM (x : (⟨Cert.ReferenceIdeal.S147456x64, .f32⟩ : BufTy).Contents (Elt Ideal)) (idx : (⟨Cert.ReferenceIdeal.S147456, .i32⟩ : BufTy).Contents (Elt Ideal)) (hx : Fin' x) : Fin' (segMeanNM (F := Ideal) x idx) := by
  unfold segMeanNM
  exact fin_hostDivf _ _ (fin_scatterAdd _ _ _ _ (fin_bc_zero _ _) hx)
    (geOne_broadcastInDim _ _ _ (geOne_broadcastInDim _ _ _
      (geOne_maximumf_ones _ _ (fin_scatterAdd _ _ _ _ (fin_bc_zero _ _) (fin_bc_one _ _)) (bc_one_apply _ _)))).pos.nonzero

/-- A segment mean of a finite array is finite: per-segment sums over sizes that are reals at least one. -/
theorem fin_segMeanNS (x : (⟨Cert.ReferenceIdeal.S147456x64, .f32⟩ : BufTy).Contents (Elt Ideal)) (idx : (⟨Cert.ReferenceIdeal.S147456, .i32⟩ : BufTy).Contents (Elt Ideal)) (hx : Fin' x) : Fin' (segMeanNS (F := Ideal) x idx) := by
  unfold segMeanNS
  exact fin_hostDivf _ _ (fin_scatterAdd _ _ _ _ (fin_bc_zero _ _) hx)
    (geOne_broadcastInDim _ _ _ (geOne_broadcastInDim _ _ _
      (geOne_maximumf_ones _ _ (fin_scatterAdd _ _ _ _ (fin_bc_zero _ _) (fin_bc_one _ _)) (bc_one_apply _ _)))).pos.nonzero

/-- A segment mean of a finite array is finite: per-segment sums over sizes that are reals at least one. -/
theorem fin_segMeanSG (x : (⟨Cert.ReferenceIdeal.S3072x64, .f32⟩ : BufTy).Contents (Elt Ideal)) (idx : (⟨Cert.ReferenceIdeal.S3072, .i32⟩ : BufTy).Contents (Elt Ideal)) (hx : Fin' x) : Fin' (segMeanSG (F := Ideal) x idx) := by
  unfold segMeanSG
  exact fin_hostDivf _ _ (fin_scatterAdd _ _ _ _ (fin_bc_zero _ _) hx)
    (geOne_broadcastInDim _ _ _ (geOne_broadcastInDim _ _ _
      (geOne_maximumf_ones _ _ (fin_scatterAdd _ _ _ _ (fin_bc_zero _ _) (fin_bc_one _ _)) (bc_one_apply _ _)))).pos.nonzero

/-- Rows gathered from a finite array are finite. -/
theorem fin_gatherBack (h : (⟨Cert.ReferenceIdeal.S3072x64, .f32⟩ : BufTy).Contents (Elt Ideal)) (idx : (⟨Cert.ReferenceIdeal.S147456, .i32⟩ : BufTy).Contents (Elt Ideal)) (hh : Fin' h) :
    Fin' (gatherBack (F := Ideal) h idx) := by
  unfold gatherBack; exact fin_gather _ _ _ hh

/-- The rectifier keeps finiteness. -/
theorem fin_reluN (y : (⟨Cert.ReferenceIdeal.S147456x64, .f32⟩ : BufTy).Contents (Elt Ideal)) (hy : Fin' y) : Fin' (reluN (F := Ideal) y) := by
  unfold reluN; exact fin_maximumf _ _ hy (fin_bc_zero _ _)

/-- A layer's slice of a finite parameter array is finite. -/
theorem fin_gW1_0 (a : (⟨Cert.ReferenceIdeal.S3x64x128, .f32⟩ : BufTy).Contents (Elt Ideal)) (ha : Fin' a) : Fin' (gW1_0 (F := Ideal) a) := by
  unfold gW1_0
  exact fin_shapeCast _ _ (fin_extractStridedSlice _ _ _ ha)

/-- A layer's slice of a finite parameter array is finite. -/
theorem fin_gB1_0 (a : (⟨Cert.ReferenceIdeal.S3x128, .f32⟩ : BufTy).Contents (Elt Ideal)) (ha : Fin' a) : Fin' (gB1_0 (F := Ideal) a) := by
  unfold gB1_0
  exact fin_shapeCast _ _ (fin_extractStridedSlice _ _ _ ha)

/-- A layer's slice of a finite parameter array is finite. -/
theorem fin_gW2_0 (a : (⟨Cert.ReferenceIdeal.S3x128x64, .f32⟩ : BufTy).Contents (Elt Ideal)) (ha : Fin' a) : Fin' (gW2_0 (F := Ideal) a) := by
  unfold gW2_0
  exact fin_shapeCast _ _ (fin_extractStridedSlice _ _ _ ha)

/-- A layer's slice of a finite parameter array is finite. -/
theorem fin_gB2_0 (a : (⟨Cert.ReferenceIdeal.S3x64, .f32⟩ : BufTy).Contents (Elt Ideal)) (ha : Fin' a) : Fin' (gB2_0 (F := Ideal) a) := by
  unfold gB2_0
  exact fin_shapeCast _ _ (fin_extractStridedSlice _ _ _ ha)

/-- A layer's slice of a finite parameter array is finite. -/
theorem fin_bnG_0 (a : (⟨Cert.ReferenceIdeal.S3x64, .f32⟩ : BufTy).Contents (Elt Ideal)) (ha : Fin' a) : Fin' (bnG_0 (F := Ideal) a) := by
  unfold bnG_0
  exact fin_shapeCast _ _ (fin_extractStridedSlice _ _ _ ha)

/-- A layer's slice of a finite parameter array is finite. -/
theorem fin_bnB_0 (a : (⟨Cert.ReferenceIdeal.S3x64, .f32⟩ : BufTy).Contents (Elt Ideal)) (ha : Fin' a) : Fin' (bnB_0 (F := Ideal) a) := by
  unfold bnB_0
  exact fin_shapeCast _ _ (fin_extractStridedSlice _ _ _ ha)

/-- A layer's slice of a finite parameter array is finite. -/
theorem fin_sW1_0 (a : (⟨Cert.ReferenceIdeal.S3x64x128, .f32⟩ : BufTy).Contents (Elt Ideal)) (ha : Fin' a) : Fin' (sW1_0 (F := Ideal) a) := by
  unfold sW1_0
  exact fin_shapeCast _ _ (fin_extractStridedSlice _ _ _ ha)

/-- A layer's slice of a finite parameter array is finite. -/
theorem fin_sB1_0 (a : (⟨Cert.ReferenceIdeal.S3x128, .f32⟩ : BufTy).Contents (Elt Ideal)) (ha : Fin' a) : Fin' (sB1_0 (F := Ideal) a) := by
  unfold sB1_0
  exact fin_shapeCast _ _ (fin_extractStridedSlice _ _ _ ha)

/-- A layer's slice of a finite parameter array is finite. -/
theorem fin_sW2_0 (a : (⟨Cert.ReferenceIdeal.S3x128x64, .f32⟩ : BufTy).Contents (Elt Ideal)) (ha : Fin' a) : Fin' (sW2_0 (F := Ideal) a) := by
  unfold sW2_0
  exact fin_shapeCast _ _ (fin_extractStridedSlice _ _ _ ha)

/-- A layer's slice of a finite parameter array is finite. -/
theorem fin_sB2_0 (a : (⟨Cert.ReferenceIdeal.S3x64, .f32⟩ : BufTy).Contents (Elt Ideal)) (ha : Fin' a) : Fin' (sB2_0 (F := Ideal) a) := by
  unfold sB2_0
  exact fin_shapeCast _ _ (fin_extractStridedSlice _ _ _ ha)

/-- A layer's slice of a finite parameter array is finite. -/
theorem fin_bsG_0 (a : (⟨Cert.ReferenceIdeal.S3x64, .f32⟩ : BufTy).Contents (Elt Ideal)) (ha : Fin' a) : Fin' (bsG_0 (F := Ideal) a) := by
  unfold bsG_0
  exact fin_shapeCast _ _ (fin_extractStridedSlice _ _ _ ha)

/-- A layer's slice of a finite parameter array is finite. -/
theorem fin_bsB_0 (a : (⟨Cert.ReferenceIdeal.S3x64, .f32⟩ : BufTy).Contents (Elt Ideal)) (ha : Fin' a) : Fin' (bsB_0 (F := Ideal) a) := by
  unfold bsB_0
  exact fin_shapeCast _ _ (fin_extractStridedSlice _ _ _ ha)

/-- A layer's slice of a finite parameter array is finite. -/
theorem fin_gW1_1 (a : (⟨Cert.ReferenceIdeal.S3x64x128, .f32⟩ : BufTy).Contents (Elt Ideal)) (ha : Fin' a) : Fin' (gW1_1 (F := Ideal) a) := by
  unfold gW1_1
  exact fin_shapeCast _ _ (fin_extractStridedSlice _ _ _ ha)

/-- A layer's slice of a finite parameter array is finite. -/
theorem fin_gB1_1 (a : (⟨Cert.ReferenceIdeal.S3x128, .f32⟩ : BufTy).Contents (Elt Ideal)) (ha : Fin' a) : Fin' (gB1_1 (F := Ideal) a) := by
  unfold gB1_1
  exact fin_shapeCast _ _ (fin_extractStridedSlice _ _ _ ha)

/-- A layer's slice of a finite parameter array is finite. -/
theorem fin_gW2_1 (a : (⟨Cert.ReferenceIdeal.S3x128x64, .f32⟩ : BufTy).Contents (Elt Ideal)) (ha : Fin' a) : Fin' (gW2_1 (F := Ideal) a) := by
  unfold gW2_1
  exact fin_shapeCast _ _ (fin_extractStridedSlice _ _ _ ha)

/-- A layer's slice of a finite parameter array is finite. -/
theorem fin_gB2_1 (a : (⟨Cert.ReferenceIdeal.S3x64, .f32⟩ : BufTy).Contents (Elt Ideal)) (ha : Fin' a) : Fin' (gB2_1 (F := Ideal) a) := by
  unfold gB2_1
  exact fin_shapeCast _ _ (fin_extractStridedSlice _ _ _ ha)

/-- A layer's slice of a finite parameter array is finite. -/
theorem fin_bnG_1 (a : (⟨Cert.ReferenceIdeal.S3x64, .f32⟩ : BufTy).Contents (Elt Ideal)) (ha : Fin' a) : Fin' (bnG_1 (F := Ideal) a) := by
  unfold bnG_1
  exact fin_shapeCast _ _ (fin_extractStridedSlice _ _ _ ha)

/-- A layer's slice of a finite parameter array is finite. -/
theorem fin_bnB_1 (a : (⟨Cert.ReferenceIdeal.S3x64, .f32⟩ : BufTy).Contents (Elt Ideal)) (ha : Fin' a) : Fin' (bnB_1 (F := Ideal) a) := by
  unfold bnB_1
  exact fin_shapeCast _ _ (fin_extractStridedSlice _ _ _ ha)

/-- A layer's slice of a finite parameter array is finite. -/
theorem fin_sW1_1 (a : (⟨Cert.ReferenceIdeal.S3x64x128, .f32⟩ : BufTy).Contents (Elt Ideal)) (ha : Fin' a) : Fin' (sW1_1 (F := Ideal) a) := by
  unfold sW1_1
  exact fin_shapeCast _ _ (fin_extractStridedSlice _ _ _ ha)

/-- A layer's slice of a finite parameter array is finite. -/
theorem fin_sB1_1 (a : (⟨Cert.ReferenceIdeal.S3x128, .f32⟩ : BufTy).Contents (Elt Ideal)) (ha : Fin' a) : Fin' (sB1_1 (F := Ideal) a) := by
  unfold sB1_1
  exact fin_shapeCast _ _ (fin_extractStridedSlice _ _ _ ha)

/-- A layer's slice of a finite parameter array is finite. -/
theorem fin_sW2_1 (a : (⟨Cert.ReferenceIdeal.S3x128x64, .f32⟩ : BufTy).Contents (Elt Ideal)) (ha : Fin' a) : Fin' (sW2_1 (F := Ideal) a) := by
  unfold sW2_1
  exact fin_shapeCast _ _ (fin_extractStridedSlice _ _ _ ha)

/-- A layer's slice of a finite parameter array is finite. -/
theorem fin_sB2_1 (a : (⟨Cert.ReferenceIdeal.S3x64, .f32⟩ : BufTy).Contents (Elt Ideal)) (ha : Fin' a) : Fin' (sB2_1 (F := Ideal) a) := by
  unfold sB2_1
  exact fin_shapeCast _ _ (fin_extractStridedSlice _ _ _ ha)

/-- A layer's slice of a finite parameter array is finite. -/
theorem fin_bsG_1 (a : (⟨Cert.ReferenceIdeal.S3x64, .f32⟩ : BufTy).Contents (Elt Ideal)) (ha : Fin' a) : Fin' (bsG_1 (F := Ideal) a) := by
  unfold bsG_1
  exact fin_shapeCast _ _ (fin_extractStridedSlice _ _ _ ha)

/-- A layer's slice of a finite parameter array is finite. -/
theorem fin_bsB_1 (a : (⟨Cert.ReferenceIdeal.S3x64, .f32⟩ : BufTy).Contents (Elt Ideal)) (ha : Fin' a) : Fin' (bsB_1 (F := Ideal) a) := by
  unfold bsB_1
  exact fin_shapeCast _ _ (fin_extractStridedSlice _ _ _ ha)

/-- A layer's slice of a finite parameter array is finite. -/
theorem fin_gW1_2 (a : (⟨Cert.ReferenceIdeal.S3x64x128, .f32⟩ : BufTy).Contents (Elt Ideal)) (ha : Fin' a) : Fin' (gW1_2 (F := Ideal) a) := by
  unfold gW1_2
  exact fin_shapeCast _ _ (fin_extractStridedSlice _ _ _ ha)

/-- A layer's slice of a finite parameter array is finite. -/
theorem fin_gB1_2 (a : (⟨Cert.ReferenceIdeal.S3x128, .f32⟩ : BufTy).Contents (Elt Ideal)) (ha : Fin' a) : Fin' (gB1_2 (F := Ideal) a) := by
  unfold gB1_2
  exact fin_shapeCast _ _ (fin_extractStridedSlice _ _ _ ha)

/-- A layer's slice of a finite parameter array is finite. -/
theorem fin_gW2_2 (a : (⟨Cert.ReferenceIdeal.S3x128x64, .f32⟩ : BufTy).Contents (Elt Ideal)) (ha : Fin' a) : Fin' (gW2_2 (F := Ideal) a) := by
  unfold gW2_2
  exact fin_shapeCast _ _ (fin_extractStridedSlice _ _ _ ha)

/-- A layer's slice of a finite parameter array is finite. -/
theorem fin_gB2_2 (a : (⟨Cert.ReferenceIdeal.S3x64, .f32⟩ : BufTy).Contents (Elt Ideal)) (ha : Fin' a) : Fin' (gB2_2 (F := Ideal) a) := by
  unfold gB2_2
  exact fin_shapeCast _ _ (fin_extractStridedSlice _ _ _ ha)

/-- A layer's slice of a finite parameter array is finite. -/
theorem fin_bnG_2 (a : (⟨Cert.ReferenceIdeal.S3x64, .f32⟩ : BufTy).Contents (Elt Ideal)) (ha : Fin' a) : Fin' (bnG_2 (F := Ideal) a) := by
  unfold bnG_2
  exact fin_shapeCast _ _ (fin_extractStridedSlice _ _ _ ha)

/-- A layer's slice of a finite parameter array is finite. -/
theorem fin_bnB_2 (a : (⟨Cert.ReferenceIdeal.S3x64, .f32⟩ : BufTy).Contents (Elt Ideal)) (ha : Fin' a) : Fin' (bnB_2 (F := Ideal) a) := by
  unfold bnB_2
  exact fin_shapeCast _ _ (fin_extractStridedSlice _ _ _ ha)

/-- A layer's slice of a finite parameter array is finite. -/
theorem fin_sW1_2 (a : (⟨Cert.ReferenceIdeal.S3x64x128, .f32⟩ : BufTy).Contents (Elt Ideal)) (ha : Fin' a) : Fin' (sW1_2 (F := Ideal) a) := by
  unfold sW1_2
  exact fin_shapeCast _ _ (fin_extractStridedSlice _ _ _ ha)

/-- A layer's slice of a finite parameter array is finite. -/
theorem fin_sB1_2 (a : (⟨Cert.ReferenceIdeal.S3x128, .f32⟩ : BufTy).Contents (Elt Ideal)) (ha : Fin' a) : Fin' (sB1_2 (F := Ideal) a) := by
  unfold sB1_2
  exact fin_shapeCast _ _ (fin_extractStridedSlice _ _ _ ha)

/-- A layer's slice of a finite parameter array is finite. -/
theorem fin_sW2_2 (a : (⟨Cert.ReferenceIdeal.S3x128x64, .f32⟩ : BufTy).Contents (Elt Ideal)) (ha : Fin' a) : Fin' (sW2_2 (F := Ideal) a) := by
  unfold sW2_2
  exact fin_shapeCast _ _ (fin_extractStridedSlice _ _ _ ha)

/-- A layer's slice of a finite parameter array is finite. -/
theorem fin_sB2_2 (a : (⟨Cert.ReferenceIdeal.S3x64, .f32⟩ : BufTy).Contents (Elt Ideal)) (ha : Fin' a) : Fin' (sB2_2 (F := Ideal) a) := by
  unfold sB2_2
  exact fin_shapeCast _ _ (fin_extractStridedSlice _ _ _ ha)

/-- A layer's slice of a finite parameter array is finite. -/
theorem fin_bsG_2 (a : (⟨Cert.ReferenceIdeal.S3x64, .f32⟩ : BufTy).Contents (Elt Ideal)) (ha : Fin' a) : Fin' (bsG_2 (F := Ideal) a) := by
  unfold bsG_2
  exact fin_shapeCast _ _ (fin_extractStridedSlice _ _ _ ha)

/-- A layer's slice of a finite parameter array is finite. -/
theorem fin_bsB_2 (a : (⟨Cert.ReferenceIdeal.S3x64, .f32⟩ : BufTy).Contents (Elt Ideal)) (ha : Fin' a) : Fin' (bsB_2 (F := Ideal) a) := by
  unfold bsB_2
  exact fin_shapeCast _ _ (fin_extractStridedSlice _ _ _ ha)

/-- The fused epilogue of finite arrays is finite. -/
theorem fin_combine (g : (⟨Cert.ReferenceIdeal.S147456x64, .f32⟩ : BufTy).Contents (Elt Ideal)) (s t : (⟨Cert.ReferenceIdeal.S1x64, .f32⟩ : BufTy).Contents (Elt Ideal)) (h : (⟨Cert.ReferenceIdeal.S147456x64, .f32⟩ : BufTy).Contents (Elt Ideal))
    (hg : Fin' g) (hs : Fin' s) (ht : Fin' t) (hh : Fin' h) : Fin' (combine (F := Ideal) g s t h) := by
  unfold combine
  exact fin_reluN _ (fin_addf _ _ (fin_addf _ _ (fin_mulf _ _ hg (fin_broadcastInDim _ _ _ hs)) (fin_broadcastInDim _ _ _ ht)) hh)

/-- One layer of the network keeps finiteness. -/
theorem fin_layerR (w1 : (⟨Cert.ReferenceIdeal.S64x128, .f32⟩ : BufTy).Contents (Elt Ideal)) (b1 : (⟨Cert.ReferenceIdeal.S128, .f32⟩ : BufTy).Contents (Elt Ideal)) (w2 : (⟨Cert.ReferenceIdeal.S128x64, .f32⟩ : BufTy).Contents (Elt Ideal)) (b2 gam bet : (⟨Cert.ReferenceIdeal.S64, .f32⟩ : BufTy).Contents (Elt Ideal))
    (w1' : (⟨Cert.ReferenceIdeal.S64x128, .f32⟩ : BufTy).Contents (Elt Ideal)) (b1' : (⟨Cert.ReferenceIdeal.S128, .f32⟩ : BufTy).Contents (Elt Ideal)) (w2' : (⟨Cert.ReferenceIdeal.S128x64, .f32⟩ : BufTy).Contents (Elt Ideal)) (b2' gam' bet' : (⟨Cert.ReferenceIdeal.S64, .f32⟩ : BufTy).Contents (Elt Ideal))
    (ea : (⟨Cert.ReferenceIdeal.S884736x64, .f32⟩ : BufTy).Contents (Elt Ideal)) (oea : (⟨Cert.ReferenceIdeal.S18432x64, .f32⟩ : BufTy).Contents (Elt Ideal)) (ei : (⟨Cert.ReferenceIdeal.S2x884736, .i32⟩ : BufTy).Contents (Elt Ideal)) (oei : (⟨Cert.ReferenceIdeal.S2x18432, .i32⟩ : BufTy).Contents (Elt Ideal)) (idx : (⟨Cert.ReferenceIdeal.S147456, .i32⟩ : BufTy).Contents (Elt Ideal))
    (x : (⟨Cert.ReferenceIdeal.S147456x64, .f32⟩ : BufTy).Contents (Elt Ideal))
    (hw1 : Fin' w1) (hb1 : Fin' b1) (hw2 : Fin' w2) (hb2 : Fin' b2) (hγ : Fin' gam) (hβ : Fin' bet)
    (hw1' : Fin' w1') (hb1' : Fin' b1') (hw2' : Fin' w2') (hb2' : Fin' b2') (hγ' : Fin' gam') (hβ' : Fin' bet')
    (hea : Fin' ea) (hoea : Fin' oea) (hx : Fin' x) :
    Fin' (layerR (F := Ideal) w1 b1 w2 b2 gam bet w1' b1' w2' b2' gam' bet' ea oea ei oei idx x) := by
  unfold layerR
  exact fin_reluN _ (fin_addf _ _
    (fin_bnRefN _ _ _ (fin_mlpN _ _ _ _ _ (fin_ginSumN _ _ _ hx hea) hw1 (fin_rowB128 _ hb1) hw2 (fin_rowB64 _ hb2)) hγ hβ)
    (fin_gatherBack _ _ (fin_bnRefM _ _ _ (fin_mlpM _ _ _ _ _ (fin_ginSumM _ _ _ (fin_segMeanNM _ _ hx) hoea)
      hw1' (fin_rowB128 _ hb1') hw2' (fin_rowB64 _ hb2')) hγ' hβ')))

/-- The whole network of finite float arguments is finite, whatever the integer arguments hold. -/
theorem fin_network (a0 : (⟨Cert.ReferenceIdeal.S147456x16, .f32⟩ : BufTy).Contents (Elt Ideal)) (a1 : (⟨Cert.ReferenceIdeal.S884736x8, .f32⟩ : BufTy).Contents (Elt Ideal)) (a2 : (⟨Cert.ReferenceIdeal.S18432x8, .f32⟩ : BufTy).Contents (Elt Ideal)) (a3 : (⟨Cert.ReferenceIdeal.S16x64, .f32⟩ : BufTy).Contents (Elt Ideal)) (a4 : (⟨Cert.ReferenceIdeal.S64, .f32⟩ : BufTy).Contents (Elt Ideal)) (a5 : (⟨Cert.ReferenceIdeal.S8x64, .f32⟩ : BufTy).Contents (Elt Ideal)) (a6 : (⟨Cert.ReferenceIdeal.S64, .f32⟩ : BufTy).Contents (Elt Ideal)) (a7 : (⟨Cert.ReferenceIdeal.S3x64x128, .f32⟩ : BufTy).Contents (Elt Ideal)) (a8 : (⟨Cert.ReferenceIdeal.S3x128, .f32⟩ : BufTy).Contents (Elt Ideal)) (a9 : (⟨Cert.ReferenceIdeal.S3x128x64, .f32⟩ : BufTy).Contents (Elt Ideal)) (a10 : (⟨Cert.ReferenceIdeal.S3x64, .f32⟩ : BufTy).Contents (Elt Ideal)) (a11 : (⟨Cert.ReferenceIdeal.S3x64, .f32⟩ : BufTy).Contents (Elt Ideal)) (a12 : (⟨Cert.ReferenceIdeal.S3x64, .f32⟩ : BufTy).Contents (Elt Ideal)) (a13 : (⟨Cert.ReferenceIdeal.S3x64x128, .f32⟩ : BufTy).Contents (Elt Ideal)) (a14 : (⟨Cert.ReferenceIdeal.S3x128, .f32⟩ : BufTy).Contents (Elt Ideal)) (a15 : (⟨Cert.ReferenceIdeal.S3x128x64, .f32⟩ : BufTy).Contents (Elt Ideal)) (a16 : (⟨Cert.ReferenceIdeal.S3x64, .f32⟩ : BufTy).Contents (Elt Ideal)) (a17 : (⟨Cert.ReferenceIdeal.S3x64, .f32⟩ : BufTy).Contents (Elt Ideal)) (a18 : (⟨Cert.ReferenceIdeal.S3x64, .f32⟩ : BufTy).Contents (Elt Ideal)) (a19 : (⟨Cert.ReferenceIdeal.S64x128, .f32⟩ : BufTy).Contents (Elt Ideal)) (a20 : (⟨Cert.ReferenceIdeal.S128, .f32⟩ : BufTy).Contents (Elt Ideal)) (a21 : (⟨Cert.ReferenceIdeal.S128x10, .f32⟩ : BufTy).Contents (Elt Ideal)) (a22 : (⟨Cert.ReferenceIdeal.S10, .f32⟩ : BufTy).Contents (Elt Ideal)) (a23 : (⟨Cert.ReferenceIdeal.S2x884736, .i32⟩ : BufTy).Contents (Elt Ideal)) (a24 : (⟨Cert.ReferenceIdeal.S2x18432, .i32⟩ : BufTy).Contents (Elt Ideal)) (a25 : (⟨Cert.ReferenceIdeal.S147456, .i32⟩ : BufTy).Contents (Elt Ideal)) (a26 : (⟨Cert.ReferenceIdeal.S147456, .i32⟩ : BufTy).Contents (Elt Ideal)) (a27 : (⟨Cert.ReferenceIdeal.S64, .i32⟩ : BufTy).Contents (Elt Ideal)) (a28 : (⟨Cert.ReferenceIdeal.S147456, .i32⟩ : BufTy).Contents (Elt Ideal)) (a29 : (⟨Cert.ReferenceIdeal.S3072, .i32⟩ : BufTy).Contents (Elt Ideal))
    (h0 : Fin' a0) (h1 : Fin' a1) (h2 : Fin' a2) (h3 : Fin' a3) (h4 : Fin' a4) (h5 : Fin' a5) (h6 : Fin' a6) (h7 : Fin' a7) (h8 : Fin' a8) (h9 : Fin' a9) (h10 : Fin' a10) (h11 : Fin' a11) (h12 : Fin' a12) (h13 : Fin' a13) (h14 : Fin' a14) (h15 : Fin' a15) (h16 : Fin' a16) (h17 : Fin' a17) (h18 : Fin' a18) (h19 : Fin' a19) (h20 : Fin' a20) (h21 : Fin' a21) (h22 : Fin' a22) :
    Fin' (network (F := Ideal) a0 a1 a2 a3 a4 a5 a6 a7 a8 a9 a10 a11 a12 a13 a14 a15 a16 a17 a18 a19 a20 a21 a22 a23 a24 a25 a26 a27 a28 a29) := by
  unfold network
  have hea := fin_encE a1 a5 _ h1 h5 (fin_rowB64 a6 h6)
  have hoea := fin_encO a2 a5 _ h2 h5 (fin_rowB64 a6 h6)
  have hx0 := fin_encX a0 a3 _ h0 h3 (fin_rowB64 a4 h4)
  have hl0 := fin_layerR (gW1_0 a7) (gB1_0 a8) (gW2_0 a9) (gB2_0 a10) (bnG_0 a11) (bnB_0 a12) (sW1_0 a13) (sB1_0 a14) (sW2_0 a15) (sB2_0 a16) (bsG_0 a17) (bsB_0 a18) _ _ a23 a24 (nodeIdx (F := Ideal) a27 a25 a26) _
    (fin_gW1_0 a7 h7) (fin_gB1_0 a8 h8) (fin_gW2_0 a9 h9) (fin_gB2_0 a10 h10) (fin_bnG_0 a11 h11) (fin_bnB_0 a12 h12) (fin_sW1_0 a13 h13) (fin_sB1_0 a14 h14) (fin_sW2_0 a15 h15) (fin_sB2_0 a16 h16) (fin_bsG_0 a17 h17) (fin_bsB_0 a18 h18) hea hoea hx0
  have hl1 := fin_layerR (gW1_1 a7) (gB1_1 a8) (gW2_1 a9) (gB2_1 a10) (bnG_1 a11) (bnB_1 a12) (sW1_1 a13) (sB1_1 a14) (sW2_1 a15) (sB2_1 a16) (bsG_1 a17) (bsB_1 a18) _ _ a23 a24 (nodeIdx (F := Ideal) a27 a25 a26) _
    (fin_gW1_1 a7 h7) (fin_gB1_1 a8 h8) (fin_gW2_1 a9 h9) (fin_gB2_1 a10 h10) (fin_bnG_1 a11 h11) (fin_bnB_1 a12 h12) (fin_sW1_1 a13 h13) (fin_sB1_1 a14 h14) (fin_sW2_1 a15 h15) (fin_sB2_1 a16 h16) (fin_bsG_1 a17 h17) (fin_bsB_1 a18 h18) hea hoea hl0
  have hl2 := fin_layerR (gW1_2 a7) (gB1_2 a8) (gW2_2 a9) (gB2_2 a10) (bnG_2 a11) (bnB_2 a12) (sW1_2 a13) (sB1_2 a14) (sW2_2 a15) (sB2_2 a16) (bsG_2 a17) (bsB_2 a18) _ _ a23 a24 (nodeIdx (F := Ideal) a27 a25 a26) _
    (fin_gW1_2 a7 h7) (fin_gB1_2 a8 h8) (fin_gW2_2 a9 h9) (fin_gB2_2 a10 h10) (fin_bnG_2 a11 h11) (fin_bnB_2 a12 h12) (fin_sW1_2 a13 h13) (fin_sB1_2 a14 h14) (fin_sW2_2 a15 h15) (fin_sB2_2 a16 h16) (fin_bsG_2 a17 h17) (fin_bsB_2 a18 h18) hea hoea hl1
  exact fin_mlpG _ _ _ _ _ (fin_segMeanSG _ _ (fin_segMeanNS _ _ hl2)) h19 (fin_rowB128 _ h20) h21 (fin_rowB10 _ h22)

end Cert.Math
end
-- ==== Proof.StageBn.lean ====
/-
  The two arrangements of batch normalisation agree on finite arrays. One program normalises as
  ((g - mean) · rsqrt (var + ε)) · γ + β; the other folds the statistics into the [64] vectors
  scale = γ · rsqrt (var + ε) and shift = β - mean · scale and applies g · scale + shift. Entry by entry the
  two are one real-arithmetic identity once g's entry, the column mean, the reciprocal standard deviation, γ and
  β are real numbers; the mean and the reciprocal standard deviation of a finite array are real (the variance is
  a nonnegative real, the stabiliser positive). A [64] vector read as a row [1, 64] is the same whether it was
  reshaped or broadcast. Also: the host stages in the second program's spelling keep finiteness.
-/
import Idealize.ShloMosaic.Lib.ValueLayout
import proofs.«177129_j59004260712467_1_alg».proof.Proof.StageK
import proofs.«177129_j59004260712467_1_alg».proof.Proof.StageFinite

noncomputable section
open scoped BigOperators
namespace Cert.Math
open Idealize.ShloMosaic Idealize.ShloMosaic.ValueIdx Cert.Stage

variable [Cert.KernelIdeal.Facts] [Cert.ReferenceIdeal.Facts]

/-! ## Batch normalisation: scale-and-shift is the normalised form -/

/-- The two programs' column means and variances on the original nodes are the same functions. -/
theorem meanMK_eq (g : (⟨Cert.ReferenceIdeal.S3072x64, .f32⟩ : BufTy).Contents (Elt Ideal)) : meanMK (F := Ideal) g = meanM g := rfl
/-- The two programs' column statistics are the same function. -/
theorem varMK_eq (g : (⟨Cert.ReferenceIdeal.S3072x64, .f32⟩ : BufTy).Contents (Elt Ideal)) : varMK (F := Ideal) g = varM g := rfl

/-- On the original nodes: the affine form with the [64] scale and shift is the reference's batch normalisation. -/
theorem affineM_eq (g : (⟨Cert.ReferenceIdeal.S3072x64, .f32⟩ : BufTy).Contents (Elt Ideal)) (γ β : (⟨Cert.ReferenceIdeal.S64, .f32⟩ : BufTy).Contents (Elt Ideal))
    (hg : Fin' g) (hγ : Fin' γ) (hβ : Fin' β) :
    affineM g (scaleM g γ) (shiftM g γ β) = bnRefM g γ β := by
  funext i
  unfold affineM bnRefM shiftM scaleM
  rw [meanMK_eq, varMK_eq]
  exact bn_entry (hg i) (fin_meanM g hg _) ((pos_rstdM g hg).fin _) (hγ _) (hβ _)

/-- The two programs' column means and variances on the copy nodes are the same functions. -/
theorem meanNK_eq (g : (⟨Cert.ReferenceIdeal.S147456x64, .f32⟩ : BufTy).Contents (Elt Ideal)) : meanNK (F := Ideal) g = meanN g := rfl
/-- The two programs' column statistics are the same function. -/
theorem varNK_eq (g : (⟨Cert.ReferenceIdeal.S147456x64, .f32⟩ : BufTy).Contents (Elt Ideal)) : varNK (F := Ideal) g = varN g := rfl

/-- A [64] vector reshaped to one row [1, 64] is the vector broadcast along a new leading axis. -/
theorem row64_eq {F : FTy → Type} [FloatOps F] (b : (⟨Cert.ReferenceIdeal.S64, .f32⟩ : BufTy).Contents (Elt F)) :
    row64 b = rowB64 b := by
  funext j
  obtain ⟨u, q, rfl⟩ : ∃ (u : Fin 1) (q : Fin 64), j = ix2 u q := ⟨j 0, j 1, eq_ix2 j⟩
  unfold row64 rowB64
  refine (shapeCast_a_1a_apply _ _ u q).trans ?_
  unfold broadcastInDim
  refine congrArg b (funext fun a => ?_)
  match a with
  | ⟨0, _⟩ => rfl

/-- A [128] vector reshaped to one row [1, 128] is the vector broadcast along a new leading axis. -/
theorem row128_eq {F : FTy → Type} [FloatOps F] (b : (⟨Cert.ReferenceIdeal.S128, .f32⟩ : BufTy).Contents (Elt F)) :
    row128 b = rowB128 b := by
  funext j
  obtain ⟨u, q, rfl⟩ : ∃ (u : Fin 1) (q : Fin 128), j = ix2 u q := ⟨j 0, j 1, eq_ix2 j⟩
  unfold row128 rowB128
  refine (shapeCast_a_1a_apply _ _ u q).trans ?_
  unfold broadcastInDim
  refine congrArg b (funext fun a => ?_)
  match a with
  | ⟨0, _⟩ => rfl

/-- A [10] vector reshaped to one row [1, 10] is the vector broadcast along a new leading axis. -/
theorem row10_eq {F : FTy → Type} [FloatOps F] (b : (⟨Cert.ReferenceIdeal.S10, .f32⟩ : BufTy).Contents (Elt F)) :
    row10 b = rowB10 b := by
  funext j
  obtain ⟨u, q, rfl⟩ : ∃ (u : Fin 1) (q : Fin 10), j = ix2 u q := ⟨j 0, j 1, eq_ix2 j⟩
  unfold row10 rowB10
  refine (shapeCast_a_1a_apply _ _ u q).trans ?_
  unfold broadcastInDim
  refine congrArg b (funext fun a => ?_)
  match a with
  | ⟨0, _⟩ => rfl

/-- On the copy nodes: the fused epilogue with the [64] scale and shift as rows is relu of the reference's
    batch normalisation plus the gathered term. -/
theorem combine_eq (g : (⟨Cert.ReferenceIdeal.S147456x64, .f32⟩ : BufTy).Contents (Elt Ideal)) (γ β : (⟨Cert.ReferenceIdeal.S64, .f32⟩ : BufTy).Contents (Elt Ideal)) (h : (⟨Cert.ReferenceIdeal.S147456x64, .f32⟩ : BufTy).Contents (Elt Ideal))
    (hg : Fin' g) (hγ : Fin' γ) (hβ : Fin' β) :
    combine g (row64 (scaleN g γ)) (row64 (shiftN g γ β)) h = reluN (addf (bnRefN g γ β) h) := by
  unfold combine
  refine congrArg (fun z : (⟨Cert.ReferenceIdeal.S147456x64, .f32⟩ : BufTy).Contents (Elt Ideal) => reluN (F := Ideal) (addf (F := Ideal) (s := Cert.ReferenceIdeal.S147456x64) (φ := .f32) z h)) ?_
  funext i
  rw [row64_eq, row64_eq]
  unfold bnRefN shiftN scaleN rowB64
  rw [meanNK_eq, varNK_eq]
  exact bn_entry (hg i) (fin_meanN g hg _) ((pos_rstdN g hg).fin _) (hγ _) (hβ _)

/-! ## The host stages in the second program's spelling keep finiteness -/

/-- A finite vector read as one row is finite. -/
theorem fin_row64 (b : (⟨Cert.ReferenceIdeal.S64, .f32⟩ : BufTy).Contents (Elt Ideal)) (hb : Fin' b) : Fin' (row64 (F := Ideal) b) := by
  rw [row64_eq]; exact fin_rowB64 b hb
/-- A finite vector read as one row is finite. -/
theorem fin_row128 (b : (⟨Cert.ReferenceIdeal.S128, .f32⟩ : BufTy).Contents (Elt Ideal)) (hb : Fin' b) : Fin' (row128 (F := Ideal) b) := by
  rw [row128_eq]; exact fin_rowB128 b hb
/-- A finite vector read as one row is finite. -/
theorem fin_row10 (b : (⟨Cert.ReferenceIdeal.S10, .f32⟩ : BufTy).Contents (Elt Ideal)) (hb : Fin' b) : Fin' (row10 (F := Ideal) b) := by
  rw [row10_eq]; exact fin_rowB10 b hb

/-- The column means of a finite array are real: a finite sum over a nonzero real count. -/
theorem fin_meanNK (g : (⟨Cert.ReferenceIdeal.S147456x64, .f32⟩ : BufTy).Contents (Elt Ideal)) (hg : Fin' g) : Fin' (meanNK (F := Ideal) g) := by
  rw [meanNK_eq]; exact fin_meanN g hg
/-- The column means of a finite array are real: a finite sum over a nonzero real count. -/
theorem fin_meanMK (g : (⟨Cert.ReferenceIdeal.S3072x64, .f32⟩ : BufTy).Contents (Elt Ideal)) (hg : Fin' g) : Fin' (meanMK (F := Ideal) g) := by
  rw [meanMK_eq]; exact fin_meanM g hg
/-- The column variances of a finite array are real. -/
theorem fin_varNK (g : (⟨Cert.ReferenceIdeal.S147456x64, .f32⟩ : BufTy).Contents (Elt Ideal)) (hg : Fin' g) : Fin' (varNK (F := Ideal) g) := by
  rw [varNK_eq]; exact fin_varN g hg
/-- The column variances of a finite array are real. -/
theorem fin_varMK (g : (⟨Cert.ReferenceIdeal.S3072x64, .f32⟩ : BufTy).Contents (Elt Ideal)) (hg : Fin' g) : Fin' (varMK (F := Ideal) g) := by
  rw [varMK_eq]; exact fin_varM g hg

/-- The scale vector γ · rsqrt (var + ε) of a finite array is finite. -/
theorem fin_scaleN (g : (⟨Cert.ReferenceIdeal.S147456x64, .f32⟩ : BufTy).Contents (Elt Ideal)) (gam : (⟨Cert.ReferenceIdeal.S64, .f32⟩ : BufTy).Contents (Elt Ideal)) (hg : Fin' g) (hγ : Fin' gam) :
    Fin' (scaleN (F := Ideal) g gam) := by
  unfold scaleN; rw [varNK_eq]; exact fin_mulf _ _ hγ (pos_rstdN g hg).fin
/-- The shift vector β - mean · scale of a finite array is finite. -/
theorem fin_shiftN (g : (⟨Cert.ReferenceIdeal.S147456x64, .f32⟩ : BufTy).Contents (Elt Ideal)) (gam bet : (⟨Cert.ReferenceIdeal.S64, .f32⟩ : BufTy).Contents (Elt Ideal)) (hg : Fin' g) (hγ : Fin' gam) (hβ : Fin' bet) :
    Fin' (shiftN (F := Ideal) g gam bet) := by
  unfold shiftN; exact fin_subf _ _ hβ (fin_mulf _ _ (fin_meanNK g hg) (fin_scaleN g gam hg hγ))
/-- The scale vector γ · rsqrt (var + ε) of a finite array is finite. -/
theorem fin_scaleM (g : (⟨Cert.ReferenceIdeal.S3072x64, .f32⟩ : BufTy).Contents (Elt Ideal)) (gam : (⟨Cert.ReferenceIdeal.S64, .f32⟩ : BufTy).Contents (Elt Ideal)) (hg : Fin' g) (hγ : Fin' gam) :
    Fin' (scaleM (F := Ideal) g gam) := by
  unfold scaleM; rw [varMK_eq]; exact fin_mulf _ _ hγ (pos_rstdM g hg).fin
/-- The shift vector β - mean · scale of a finite array is finite. -/
theorem fin_shiftM (g : (⟨Cert.ReferenceIdeal.S3072x64, .f32⟩ : BufTy).Contents (Elt Ideal)) (gam bet : (⟨Cert.ReferenceIdeal.S64, .f32⟩ : BufTy).Contents (Elt Ideal)) (hg : Fin' g) (hγ : Fin' gam) (hβ : Fin' bet) :
    Fin' (shiftM (F := Ideal) g gam bet) := by
  unfold shiftM; exact fin_subf _ _ hβ (fin_mulf _ _ (fin_meanMK g hg) (fin_scaleM g gam hg hγ))
/-- g · scale + shift of finite arrays is finite. -/
theorem fin_affineM (g : (⟨Cert.ReferenceIdeal.S3072x64, .f32⟩ : BufTy).Contents (Elt Ideal)) (s t : (⟨Cert.ReferenceIdeal.S64, .f32⟩ : BufTy).Contents (Elt Ideal)) (hg : Fin' g) (hs : Fin' s) (ht : Fin' t) :
    Fin' (affineM (F := Ideal) g s t) := by
  unfold affineM
  exact fin_addf _ _ (fin_mulf _ _ hg (fin_broadcastInDim _ _ _ (fin_broadcastInDim _ _ _ hs)))
    (fin_broadcastInDim _ _ _ (fin_broadcastInDim _ _ _ ht))

/-- The message aggregation keeps finiteness: gathered rows plus finite edge embeddings, rectified, summed per target. -/
theorem fin_ginSumNK (x : (⟨Cert.ReferenceIdeal.S147456x64, .f32⟩ : BufTy).Contents (Elt Ideal)) (ea : (⟨Cert.ReferenceIdeal.S884736x64, .f32⟩ : BufTy).Contents (Elt Ideal)) (e0 e1 : (⟨Cert.ReferenceIdeal.S884736, .i32⟩ : BufTy).Contents (Elt Ideal))
    (hx : Fin' x) (hea : Fin' ea) : Fin' (ginSumNK (F := Ideal) x ea e0 e1) := by
  unfold ginSumNK
  exact fin_addf _ _ hx (fin_scatterAdd _ _ _ _ (fin_bc_zero _ _)
    (fin_maximumf _ _ (fin_addf _ _ (fin_gather _ _ _ hx) hea) (fin_bc_zero _ _)))

/-- The message aggregation keeps finiteness: gathered rows plus finite edge embeddings, rectified, summed per target. -/
theorem fin_ginSumMK (x : (⟨Cert.ReferenceIdeal.S3072x64, .f32⟩ : BufTy).Contents (Elt Ideal)) (ea : (⟨Cert.ReferenceIdeal.S18432x64, .f32⟩ : BufTy).Contents (Elt Ideal)) (e0 e1 : (⟨Cert.ReferenceIdeal.S18432, .i32⟩ : BufTy).Contents (Elt Ideal))
    (hx : Fin' x) (hea : Fin' ea) : Fin' (ginSumMK (F := Ideal) x ea e0 e1) := by
  unfold ginSumMK
  exact fin_addf _ _ hx (fin_scatterAdd _ _ _ _ (fin_bc_zero _ _)
    (fin_maximumf _ _ (fin_addf _ _ (fin_gather _ _ _ hx) hea) (fin_bc_zero _ _)))

/-- A segment mean of a finite array is finite: per-segment sums over sizes that are reals at least one. -/
theorem fin_segMeanNMK (x : (⟨Cert.ReferenceIdeal.S147456x64, .f32⟩ : BufTy).Contents (Elt Ideal)) (idx : (⟨Cert.ReferenceIdeal.S147456, .i32⟩ : BufTy).Contents (Elt Ideal)) (hx : Fin' x) : Fin' (segMeanNMK (F := Ideal) x idx) := by
  unfold segMeanNMK
  exact fin_hostDivf _ _ (fin_scatterAdd _ _ _ _ (fin_bc_zero _ _) hx)
    (geOne_broadcastInDim _ _ _ (geOne_broadcastInDim _ _ _
      (geOne_maximumf_ones _ _ (fin_scatterAdd _ _ _ _ (fin_bc_zero _ _) (fin_bc_one _ _)) (bc_one_apply _ _)))).pos.nonzero

/-- A segment mean of a finite array is finite: per-segment sums over sizes that are reals at least one. -/
theorem fin_segMeanNSK (x : (⟨Cert.ReferenceIdeal.S147456x64, .f32⟩ : BufTy).Contents (Elt Ideal)) (idx : (⟨Cert.ReferenceIdeal.S147456, .i32⟩ : BufTy).Contents (Elt Ideal)) (hx : Fin' x) : Fin' (segMeanNSK (F := Ideal) x idx) := by
  unfold segMeanNSK
  exact fin_hostDivf _ _ (fin_scatterAdd _ _ _ _ (fin_bc_zero _ _) hx)
    (geOne_broadcastInDim _ _ _ (geOne_broadcastInDim _ _ _
      (geOne_maximumf_ones _ _ (fin_scatterAdd _ _ _ _ (fin_bc_zero _ _) (fin_bc_one _ _)) (bc_one_apply _ _)))).pos.nonzero

/-- A segment mean of a finite array is finite: per-segment sums over sizes that are reals at least one. -/
theorem fin_segMeanSGK (x : (⟨Cert.ReferenceIdeal.S3072x64, .f32⟩ : BufTy).Contents (Elt Ideal)) (idx : (⟨Cert.ReferenceIdeal.S3072, .i32⟩ : BufTy).Contents (Elt Ideal)) (hx : Fin' x) : Fin' (segMeanSGK (F := Ideal) x idx) := by
  unfold segMeanSGK
  exact fin_hostDivf _ _ (fin_scatterAdd _ _ _ _ (fin_bc_zero _ _) hx)
    (geOne_broadcastInDim _ _ _ (geOne_broadcastInDim _ _ _
      (geOne_maximumf_ones _ _ (fin_scatterAdd _ _ _ _ (fin_bc_zero _ _) (fin_bc_one _ _)) (bc_one_apply _ _)))).pos.nonzero

/-- Rows gathered from a finite array are finite. -/
theorem fin_gatherBackK (h : (⟨Cert.ReferenceIdeal.S3072x64, .f32⟩ : BufTy).Contents (Elt Ideal)) (idx : (⟨Cert.ReferenceIdeal.S147456, .i32⟩ : BufTy).Contents (Elt Ideal)) (hh : Fin' h) :
    Fin' (gatherBackK (F := Ideal) h idx) := by
  unfold gatherBackK; exact fin_gather _ _ _ hh

/-- A layer's slice of a finite parameter array is finite. -/
theorem fin_gW1K_0 (a : (⟨Cert.ReferenceIdeal.S3x64x128, .f32⟩ : BufTy).Contents (Elt Ideal)) (ha : Fin' a) : Fin' (gW1K_0 (F := Ideal) a) := by
  unfold gW1K_0
  exact fin_shapeCast _ _ (fin_extractStridedSlice _ _ _ ha)

/-- A layer's slice of a finite parameter array is finite. -/
theorem fin_gB1K_0 (a : (⟨Cert.ReferenceIdeal.S3x128, .f32⟩ : BufTy).Contents (Elt Ideal)) (ha : Fin' a) : Fin' (gB1K_0 (F := Ideal) a) := by
  unfold gB1K_0
  exact fin_shapeCast _ _ (fin_extractStridedSlice _ _ _ ha)

/-- A layer's slice of a finite parameter array is finite. -/
theorem fin_gW2K_0 (a : (⟨Cert.ReferenceIdeal.S3x128x64, .f32⟩ : BufTy).Contents (Elt Ideal)) (ha : Fin' a) : Fin' (gW2K_0 (F := Ideal) a) := by
  unfold gW2K_0
  exact fin_shapeCast _ _ (fin_extractStridedSlice _ _ _ ha)

/-- A layer's slice of a finite parameter array is finite. -/
theorem fin_gB2K_0 (a : (⟨Cert.ReferenceIdeal.S3x64, .f32⟩ : BufTy).Contents (Elt Ideal)) (ha : Fin' a) : Fin' (gB2K_0 (F := Ideal) a) := by
  unfold gB2K_0
  exact fin_shapeCast _ _ (fin_extractStridedSlice _ _ _ ha)

/-- A layer's slice of a finite parameter array is finite. -/
theorem fin_bnGK_0 (a : (⟨Cert.ReferenceIdeal.S3x64, .f32⟩ : BufTy).Contents (Elt Ideal)) (ha : Fin' a) : Fin' (bnGK_0 (F := Ideal) a) := by
  unfold bnGK_0
  exact fin_shapeCast _ _ (fin_extractStridedSlice _ _ _ ha)

/-- A layer's slice of a finite parameter array is finite. -/
theorem fin_bnBK_0 (a : (⟨Cert.ReferenceIdeal.S3x64, .f32⟩ : BufTy).Contents (Elt Ideal)) (ha : Fin' a) : Fin' (bnBK_0 (F := Ideal) a) := by
  unfold bnBK_0
  exact fin_shapeCast _ _ (fin_extractStridedSlice _ _ _ ha)

/-- A layer's slice of a finite parameter array is finite. -/
theorem fin_sW1K_0 (a : (⟨Cert.ReferenceIdeal.S3x64x128, .f32⟩ : BufTy).Contents (Elt Ideal)) (ha : Fin' a) : Fin' (sW1K_0 (F := Ideal) a) := by
  unfold sW1K_0
  exact fin_shapeCast _ _ (fin_extractStridedSlice _ _ _ ha)

/-- A layer's slice of a finite parameter array is finite. -/
theorem fin_sB1K_0 (a : (⟨Cert.ReferenceIdeal.S3x128, .f32⟩ : BufTy).Contents (Elt Ideal)) (ha : Fin' a) : Fin' (sB1K_0 (F := Ideal) a) := by
  unfold sB1K_0
  exact fin_shapeCast _ _ (fin_extractStridedSlice _ _ _ ha)

/-- A layer's slice of a finite parameter array is finite. -/
theorem fin_sW2K_0 (a : (⟨Cert.ReferenceIdeal.S3x128x64, .f32⟩ : BufTy).Contents (Elt Ideal)) (ha : Fin' a) : Fin' (sW2K_0 (F := Ideal) a) := by
  unfold sW2K_0
  exact fin_shapeCast _ _ (fin_extractStridedSlice _ _ _ ha)

/-- A layer's slice of a finite parameter array is finite. -/
theorem fin_sB2K_0 (a : (⟨Cert.ReferenceIdeal.S3x64, .f32⟩ : BufTy).Contents (Elt Ideal)) (ha : Fin' a) : Fin' (sB2K_0 (F := Ideal) a) := by
  unfold sB2K_0
  exact fin_shapeCast _ _ (fin_extractStridedSlice _ _ _ ha)

/-- A layer's slice of a finite parameter array is finite. -/
theorem fin_bsGK_0 (a : (⟨Cert.ReferenceIdeal.S3x64, .f32⟩ : BufTy).Contents (Elt Ideal)) (ha : Fin' a) : Fin' (bsGK_0 (F := Ideal) a) := by
  unfold bsGK_0
  exact fin_shapeCast _ _ (fin_extractStridedSlice _ _ _ ha)

/-- A layer's slice of a finite parameter array is finite. -/
theorem fin_bsBK_0 (a : (⟨Cert.ReferenceIdeal.S3x64, .f32⟩ : BufTy).Contents (Elt Ideal)) (ha : Fin' a) : Fin' (bsBK_0 (F := Ideal) a) := by
  unfold bsBK_0
  exact fin_shapeCast _ _ (fin_extractStridedSlice _ _ _ ha)

/-- A layer's slice of a finite parameter array is finite. -/
theorem fin_gW1K_1 (a : (⟨Cert.ReferenceIdeal.S3x64x128, .f32⟩ : BufTy).Contents (Elt Ideal)) (ha : Fin' a) : Fin' (gW1K_1 (F := Ideal) a) := by
  unfold gW1K_1
  exact fin_shapeCast _ _ (fin_extractStridedSlice _ _ _ ha)

/-- A layer's slice of a finite parameter array is finite. -/
theorem fin_gB1K_1 (a : (⟨Cert.ReferenceIdeal.S3x128, .f32⟩ : BufTy).Contents (Elt Ideal)) (ha : Fin' a) : Fin' (gB1K_1 (F := Ideal) a) := by
  unfold gB1K_1
  exact fin_shapeCast _ _ (fin_extractStridedSlice _ _ _ ha)

/-- A layer's slice of a finite parameter array is finite. -/
theorem fin_gW2K_1 (a : (⟨Cert.ReferenceIdeal.S3x128x64, .f32⟩ : BufTy).Contents (Elt Ideal)) (ha : Fin' a) : Fin' (gW2K_1 (F := Ideal) a) := by
  unfold gW2K_1
  exact fin_shapeCast _ _ (fin_extractStridedSlice _ _ _ ha)

/-- A layer's slice of a finite parameter array is finite. -/
theorem fin_gB2K_1 (a : (⟨Cert.ReferenceIdeal.S3x64, .f32⟩ : BufTy).Contents (Elt Ideal)) (ha : Fin' a) : Fin' (gB2K_1 (F := Ideal) a) := by
  unfold gB2K_1
  exact fin_shapeCast _ _ (fin_extractStridedSlice _ _ _ ha)

/-- A layer's slice of a finite parameter array is finite. -/
theorem fin_bnGK_1 (a : (⟨Cert.ReferenceIdeal.S3x64, .f32⟩ : BufTy).Contents (Elt Ideal)) (ha : Fin' a) : Fin' (bnGK_1 (F := Ideal) a) := by
  unfold bnGK_1
  exact fin_shapeCast _ _ (fin_extractStridedSlice _ _ _ ha)

/-- A layer's slice of a finite parameter array is finite. -/
theorem fin_bnBK_1 (a : (⟨Cert.ReferenceIdeal.S3x64, .f32⟩ : BufTy).Contents (Elt Ideal)) (ha : Fin' a) : Fin' (bnBK_1 (F := Ideal) a) := by
  unfold bnBK_1
  exact fin_shapeCast _ _ (fin_extractStridedSlice _ _ _ ha)

/-- A layer's slice of a finite parameter array is finite. -/
theorem fin_sW1K_1 (a : (⟨Cert.ReferenceIdeal.S3x64x128, .f32⟩ : BufTy).Contents (Elt Ideal)) (ha : Fin' a) : Fin' (sW1K_1 (F := Ideal) a) := by
  unfold sW1K_1
  exact fin_shapeCast _ _ (fin_extractStridedSlice _ _ _ ha)

/-- A layer's slice of a finite parameter array is finite. -/
theorem fin_sB1K_1 (a : (⟨Cert.ReferenceIdeal.S3x128, .f32⟩ : BufTy).Contents (Elt Ideal)) (ha : Fin' a) : Fin' (sB1K_1 (F := Ideal) a) := by
  unfold sB1K_1
  exact fin_shapeCast _ _ (fin_extractStridedSlice _ _ _ ha)

/-- A layer's slice of a finite parameter array is finite. -/
theorem fin_sW2K_1 (a : (⟨Cert.ReferenceIdeal.S3x128x64, .f32⟩ : BufTy).Contents (Elt Ideal)) (ha : Fin' a) : Fin' (sW2K_1 (F := Ideal) a) := by
  unfold sW2K_1
  exact fin_shapeCast _ _ (fin_extractStridedSlice _ _ _ ha)

/-- A layer's slice of a finite parameter array is finite. -/
theorem fin_sB2K_1 (a : (⟨Cert.ReferenceIdeal.S3x64, .f32⟩ : BufTy).Contents (Elt Ideal)) (ha : Fin' a) : Fin' (sB2K_1 (F := Ideal) a) := by
  unfold sB2K_1
  exact fin_shapeCast _ _ (fin_extractStridedSlice _ _ _ ha)

/-- A layer's slice of a finite parameter array is finite. -/
theorem fin_bsGK_1 (a : (⟨Cert.ReferenceIdeal.S3x64, .f32⟩ : BufTy).Contents (Elt Ideal)) (ha : Fin' a) : Fin' (bsGK_1 (F := Ideal) a) := by
  unfold bsGK_1
  exact fin_shapeCast _ _ (fin_extractStridedSlice _ _ _ ha)

/-- A layer's slice of a finite parameter array is finite. -/
theorem fin_bsBK_1 (a : (⟨Cert.ReferenceIdeal.S3x64, .f32⟩ : BufTy).Contents (Elt Ideal)) (ha : Fin' a) : Fin' (bsBK_1 (F := Ideal) a) := by
  unfold bsBK_1
  exact fin_shapeCast _ _ (fin_extractStridedSlice _ _ _ ha)

/-- A layer's slice of a finite parameter array is finite. -/
theorem fin_gW1K_2 (a : (⟨Cert.ReferenceIdeal.S3x64x128, .f32⟩ : BufTy).Contents (Elt Ideal)) (ha : Fin' a) : Fin' (gW1K_2 (F := Ideal) a) := by
  unfold gW1K_2
  exact fin_shapeCast _ _ (fin_extractStridedSlice _ _ _ ha)

/-- A layer's slice of a finite parameter array is finite. -/
theorem fin_gB1K_2 (a : (⟨Cert.ReferenceIdeal.S3x128, .f32⟩ : BufTy).Contents (Elt Ideal)) (ha : Fin' a) : Fin' (gB1K_2 (F := Ideal) a) := by
  unfold gB1K_2
  exact fin_shapeCast _ _ (fin_extractStridedSlice _ _ _ ha)

/-- A layer's slice of a finite parameter array is finite. -/
theorem fin_gW2K_2 (a : (⟨Cert.ReferenceIdeal.S3x128x64, .f32⟩ : BufTy).Contents (Elt Ideal)) (ha : Fin' a) : Fin' (gW2K_2 (F := Ideal) a) := by
  unfold gW2K_2
  exact fin_shapeCast _ _ (fin_extractStridedSlice _ _ _ ha)

/-- A layer's slice of a finite parameter array is finite. -/
theorem fin_gB2K_2 (a : (⟨Cert.ReferenceIdeal.S3x64, .f32⟩ : BufTy).Contents (Elt Ideal)) (ha : Fin' a) : Fin' (gB2K_2 (F := Ideal) a) := by
  unfold gB2K_2
  exact fin_shapeCast _ _ (fin_extractStridedSlice _ _ _ ha)

/-- A layer's slice of a finite parameter array is finite. -/
theorem fin_bnGK_2 (a : (⟨Cert.ReferenceIdeal.S3x64, .f32⟩ : BufTy).Contents (Elt Ideal)) (ha : Fin' a) : Fin' (bnGK_2 (F := Ideal) a) := by
  unfold bnGK_2
  exact fin_shapeCast _ _ (fin_extractStridedSlice _ _ _ ha)

/-- A layer's slice of a finite parameter array is finite. -/
theorem fin_bnBK_2 (a : (⟨Cert.ReferenceIdeal.S3x64, .f32⟩ : BufTy).Contents (Elt Ideal)) (ha : Fin' a) : Fin' (bnBK_2 (F := Ideal) a) := by
  unfold bnBK_2
  exact fin_shapeCast _ _ (fin_extractStridedSlice _ _ _ ha)

/-- A layer's slice of a finite parameter array is finite. -/
theorem fin_sW1K_2 (a : (⟨Cert.ReferenceIdeal.S3x64x128, .f32⟩ : BufTy).Contents (Elt Ideal)) (ha : Fin' a) : Fin' (sW1K_2 (F := Ideal) a) := by
  unfold sW1K_2
  exact fin_shapeCast _ _ (fin_extractStridedSlice _ _ _ ha)

/-- A layer's slice of a finite parameter array is finite. -/
theorem fin_sB1K_2 (a : (⟨Cert.ReferenceIdeal.S3x128, .f32⟩ : BufTy).Contents (Elt Ideal)) (ha : Fin' a) : Fin' (sB1K_2 (F := Ideal) a) := by
  unfold sB1K_2
  exact fin_shapeCast _ _ (fin_extractStridedSlice _ _ _ ha)

/-- A layer's slice of a finite parameter array is finite. -/
theorem fin_sW2K_2 (a : (⟨Cert.ReferenceIdeal.S3x128x64, .f32⟩ : BufTy).Contents (Elt Ideal)) (ha : Fin' a) : Fin' (sW2K_2 (F := Ideal) a) := by
  unfold sW2K_2
  exact fin_shapeCast _ _ (fin_extractStridedSlice _ _ _ ha)

/-- A layer's slice of a finite parameter array is finite. -/
theorem fin_sB2K_2 (a : (⟨Cert.ReferenceIdeal.S3x64, .f32⟩ : BufTy).Contents (Elt Ideal)) (ha : Fin' a) : Fin' (sB2K_2 (F := Ideal) a) := by
  unfold sB2K_2
  exact fin_shapeCast _ _ (fin_extractStridedSlice _ _ _ ha)

/-- A layer's slice of a finite parameter array is finite. -/
theorem fin_bsGK_2 (a : (⟨Cert.ReferenceIdeal.S3x64, .f32⟩ : BufTy).Contents (Elt Ideal)) (ha : Fin' a) : Fin' (bsGK_2 (F := Ideal) a) := by
  unfold bsGK_2
  exact fin_shapeCast _ _ (fin_extractStridedSlice _ _ _ ha)

/-- A layer's slice of a finite parameter array is finite. -/
theorem fin_bsBK_2 (a : (⟨Cert.ReferenceIdeal.S3x64, .f32⟩ : BufTy).Contents (Elt Ideal)) (ha : Fin' a) : Fin' (bsBK_2 (F := Ideal) a) := by
  unfold bsBK_2
  exact fin_shapeCast _ _ (fin_extractStridedSlice _ _ _ ha)

/-- One layer, in the scale-and-shift arrangement, keeps finiteness. -/
theorem fin_layerK (w1 : (⟨Cert.ReferenceIdeal.S64x128, .f32⟩ : BufTy).Contents (Elt Ideal)) (b1 : (⟨Cert.ReferenceIdeal.S128, .f32⟩ : BufTy).Contents (Elt Ideal)) (w2 : (⟨Cert.ReferenceIdeal.S128x64, .f32⟩ : BufTy).Contents (Elt Ideal)) (b2 gam bet : (⟨Cert.ReferenceIdeal.S64, .f32⟩ : BufTy).Contents (Elt Ideal))
    (w1' : (⟨Cert.ReferenceIdeal.S64x128, .f32⟩ : BufTy).Contents (Elt Ideal)) (b1' : (⟨Cert.ReferenceIdeal.S128, .f32⟩ : BufTy).Contents (Elt Ideal)) (w2' : (⟨Cert.ReferenceIdeal.S128x64, .f32⟩ : BufTy).Contents (Elt Ideal)) (b2' gam' bet' : (⟨Cert.ReferenceIdeal.S64, .f32⟩ : BufTy).Contents (Elt Ideal))
    (ea : (⟨Cert.ReferenceIdeal.S884736x64, .f32⟩ : BufTy).Contents (Elt Ideal)) (oea : (⟨Cert.ReferenceIdeal.S18432x64, .f32⟩ : BufTy).Contents (Elt Ideal)) (e0 e1 : (⟨Cert.ReferenceIdeal.S884736, .i32⟩ : BufTy).Contents (Elt Ideal)) (o0 o1 : (⟨Cert.ReferenceIdeal.S18432, .i32⟩ : BufTy).Contents (Elt Ideal)) (idx : (⟨Cert.ReferenceIdeal.S147456, .i32⟩ : BufTy).Contents (Elt Ideal))
    (x : (⟨Cert.ReferenceIdeal.S147456x64, .f32⟩ : BufTy).Contents (Elt Ideal))
    (hw1 : Fin' w1) (hb1 : Fin' b1) (hw2 : Fin' w2) (hb2 : Fin' b2) (hγ : Fin' gam) (hβ : Fin' bet)
    (hw1' : Fin' w1') (hb1' : Fin' b1') (hw2' : Fin' w2') (hb2' : Fin' b2') (hγ' : Fin' gam') (hβ' : Fin' bet')
    (hea : Fin' ea) (hoea : Fin' oea) (hx : Fin' x) :
    Fin' (layerK (F := Ideal) w1 b1 w2 b2 gam bet w1' b1' w2' b2' gam' bet' ea oea e0 e1 o0 o1 idx x) := by
  have h1 := fin_mlpN _ _ _ _ _ (fin_ginSumNK x ea e0 e1 hx hea) hw1 (fin_row128 _ hb1) hw2 (fin_row64 _ hb2)
  have h2 := fin_mlpM _ _ _ _ _ (fin_ginSumMK _ oea o0 o1 (fin_segMeanNMK x idx hx) hoea) hw1' (fin_row128 _ hb1') hw2' (fin_row64 _ hb2')
  unfold layerK
  exact fin_combine _ _ _ _ h1 (fin_row64 _ (fin_scaleN _ _ h1 hγ)) (fin_row64 _ (fin_shiftN _ _ _ h1 hγ hβ))
    (fin_gatherBackK _ idx (fin_affineM _ _ _ h2 (fin_scaleM _ _ h2 hγ') (fin_shiftM _ _ _ h2 hγ' hβ')))

end Cert.Math
end
-- ==== Proof.Bridge.lean ====
/-
  The two programs compute one function. Their host stages are the same operations (the kernel's program slices the
  edge lists once, the reference once per layer; a reshape [n] → [1, n] against a broadcast along a new leading axis).
  They differ in one place: the reference normalises as ((g - mean) · rstd) · γ + β, the kernel's program forms the
  vectors scale = γ · rstd and shift = β - mean · scale and computes g · scale + shift. On the extended reals the two
  agree when g, γ, β have only real entries, which the encoders, aggregations and perceptrons preserve layer by layer.
-/
import proofs.«177129_j59004260712467_1_alg».proof.Proof.StageK
import proofs.«177129_j59004260712467_1_alg».proof.Proof.StageFinite
import proofs.«177129_j59004260712467_1_alg».proof.Proof.StageBn

noncomputable section

namespace Cert.Stage

open Idealize.ShloMosaic Cert.Math Cert.KernelIdeal

variable {F : FTy → Type} [FloatOps F] [Cert.KernelIdeal.Facts] [Cert.ReferenceIdeal.Facts]

/-! ## The kernel program's host stages are the reference's -/

theorem nodeIdxK_eq (nn : (⟨S64, .i32⟩ : BufTy).Contents (Elt F)) (batch sni : (⟨S147456, .i32⟩ : BufTy).Contents (Elt F)) : nodeIdxK nn batch sni = nodeIdx nn batch sni := rfl
theorem ginSumNK_eq (x : (⟨S147456x64, .f32⟩ : BufTy).Contents (Elt F)) (ea : (⟨S884736x64, .f32⟩ : BufTy).Contents (Elt F)) (ei : (⟨S2x884736, .i32⟩ : BufTy).Contents (Elt F)) :
    ginSumNK x ea (eSrcK ei) (eDstK ei) = ginSumN x ea ei := rfl
theorem ginSumMK_eq (x : (⟨S3072x64, .f32⟩ : BufTy).Contents (Elt F)) (oea : (⟨S18432x64, .f32⟩ : BufTy).Contents (Elt F)) (oei : (⟨S2x18432, .i32⟩ : BufTy).Contents (Elt F)) :
    ginSumMK x oea (oSrcK oei) (oDstK oei) = ginSumM x oea oei := rfl
theorem segMeanNMK_eq (x : (⟨S147456x64, .f32⟩ : BufTy).Contents (Elt F)) (idx : (⟨S147456, .i32⟩ : BufTy).Contents (Elt F)) : segMeanNMK x idx = segMeanNM x idx := rfl
theorem gatherBackK_eq (h : (⟨S3072x64, .f32⟩ : BufTy).Contents (Elt F)) (idx : (⟨S147456, .i32⟩ : BufTy).Contents (Elt F)) : gatherBackK h idx = gatherBack h idx := rfl
theorem segMeanNSK_eq (x : (⟨S147456x64, .f32⟩ : BufTy).Contents (Elt F)) (sb : (⟨S147456, .i32⟩ : BufTy).Contents (Elt F)) : segMeanNSK x sb = segMeanNS x sb := rfl
theorem segMeanSGK_eq (h : (⟨S3072x64, .f32⟩ : BufTy).Contents (Elt F)) (sib : (⟨S3072, .i32⟩ : BufTy).Contents (Elt F)) : segMeanSGK h sib = segMeanSG h sib := rfl
theorem meanNK_eq (g : (⟨S147456x64, .f32⟩ : BufTy).Contents (Elt F)) : meanNK g = meanN g := rfl
theorem varNK_eq (g : (⟨S147456x64, .f32⟩ : BufTy).Contents (Elt F)) : varNK g = varN g := rfl
theorem meanMK_eq (g : (⟨S3072x64, .f32⟩ : BufTy).Contents (Elt F)) : meanMK g = meanM g := rfl
theorem varMK_eq (g : (⟨S3072x64, .f32⟩ : BufTy).Contents (Elt F)) : varMK g = varM g := rfl
theorem gW1K_0_eq (a : (⟨S3x64x128, .f32⟩ : BufTy).Contents (Elt F)) : gW1K_0 a = gW1_0 a := rfl
theorem gB1K_0_eq (a : (⟨S3x128, .f32⟩ : BufTy).Contents (Elt F)) : gB1K_0 a = gB1_0 a := rfl
theorem gW2K_0_eq (a : (⟨S3x128x64, .f32⟩ : BufTy).Contents (Elt F)) : gW2K_0 a = gW2_0 a := rfl
theorem gB2K_0_eq (a : (⟨S3x64, .f32⟩ : BufTy).Contents (Elt F)) : gB2K_0 a = gB2_0 a := rfl
theorem bnGK_0_eq (a : (⟨S3x64, .f32⟩ : BufTy).Contents (Elt F)) : bnGK_0 a = bnG_0 a := rfl
theorem bnBK_0_eq (a : (⟨S3x64, .f32⟩ : BufTy).Contents (Elt F)) : bnBK_0 a = bnB_0 a := rfl
theorem sW1K_0_eq (a : (⟨S3x64x128, .f32⟩ : BufTy).Contents (Elt F)) : sW1K_0 a = sW1_0 a := rfl
theorem sB1K_0_eq (a : (⟨S3x128, .f32⟩ : BufTy).Contents (Elt F)) : sB1K_0 a = sB1_0 a := rfl
theorem sW2K_0_eq (a : (⟨S3x128x64, .f32⟩ : BufTy).Contents (Elt F)) : sW2K_0 a = sW2_0 a := rfl
theorem sB2K_0_eq (a : (⟨S3x64, .f32⟩ : BufTy).Contents (Elt F)) : sB2K_0 a = sB2_0 a := rfl
theorem bsGK_0_eq (a : (⟨S3x64, .f32⟩ : BufTy).Contents (Elt F)) : bsGK_0 a = bsG_0 a := rfl
theorem bsBK_0_eq (a : (⟨S3x64, .f32⟩ : BufTy).Contents (Elt F)) : bsBK_0 a = bsB_0 a := rfl
theorem gW1K_1_eq (a : (⟨S3x64x128, .f32⟩ : BufTy).Contents (Elt F)) : gW1K_1 a = gW1_1 a := rfl
theorem gB1K_1_eq (a : (⟨S3x128, .f32⟩ : BufTy).Contents (Elt F)) : gB1K_1 a = gB1_1 a := rfl
theorem gW2K_1_eq (a : (⟨S3x128x64, .f32⟩ : BufTy).Contents (Elt F)) : gW2K_1 a = gW2_1 a := rfl
theorem gB2K_1_eq (a : (⟨S3x64, .f32⟩ : BufTy).Contents (Elt F)) : gB2K_1 a = gB2_1 a := rfl
theorem bnGK_1_eq (a : (⟨S3x64, .f32⟩ : BufTy).Contents (Elt F)) : bnGK_1 a = bnG_1 a := rfl
theorem bnBK_1_eq (a : (⟨S3x64, .f32⟩ : BufTy).Contents (Elt F)) : bnBK_1 a = bnB_1 a := rfl
theorem sW1K_1_eq (a : (⟨S3x64x128, .f32⟩ : BufTy).Contents (Elt F)) : sW1K_1 a = sW1_1 a := rfl
theorem sB1K_1_eq (a : (⟨S3x128, .f32⟩ : BufTy).Contents (Elt F)) : sB1K_1 a = sB1_1 a := rfl
theorem sW2K_1_eq (a : (⟨S3x128x64, .f32⟩ : BufTy).Contents (Elt F)) : sW2K_1 a = sW2_1 a := rfl
theorem sB2K_1_eq (a : (⟨S3x64, .f32⟩ : BufTy).Contents (Elt F)) : sB2K_1 a = sB2_1 a := rfl
theorem bsGK_1_eq (a : (⟨S3x64, .f32⟩ : BufTy).Contents (Elt F)) : bsGK_1 a = bsG_1 a := rfl
theorem bsBK_1_eq (a : (⟨S3x64, .f32⟩ : BufTy).Contents (Elt F)) : bsBK_1 a = bsB_1 a := rfl
theorem gW1K_2_eq (a : (⟨S3x64x128, .f32⟩ : BufTy).Contents (Elt F)) : gW1K_2 a = gW1_2 a := rfl
theorem gB1K_2_eq (a : (⟨S3x128, .f32⟩ : BufTy).Contents (Elt F)) : gB1K_2 a = gB1_2 a := rfl
theorem gW2K_2_eq (a : (⟨S3x128x64, .f32⟩ : BufTy).Contents (Elt F)) : gW2K_2 a = gW2_2 a := rfl
theorem gB2K_2_eq (a : (⟨S3x64, .f32⟩ : BufTy).Contents (Elt F)) : gB2K_2 a = gB2_2 a := rfl
theorem bnGK_2_eq (a : (⟨S3x64, .f32⟩ : BufTy).Contents (Elt F)) : bnGK_2 a = bnG_2 a := rfl
theorem bnBK_2_eq (a : (⟨S3x64, .f32⟩ : BufTy).Contents (Elt F)) : bnBK_2 a = bnB_2 a := rfl
theorem sW1K_2_eq (a : (⟨S3x64x128, .f32⟩ : BufTy).Contents (Elt F)) : sW1K_2 a = sW1_2 a := rfl
theorem sB1K_2_eq (a : (⟨S3x128, .f32⟩ : BufTy).Contents (Elt F)) : sB1K_2 a = sB1_2 a := rfl
theorem sW2K_2_eq (a : (⟨S3x128x64, .f32⟩ : BufTy).Contents (Elt F)) : sW2K_2 a = sW2_2 a := rfl
theorem sB2K_2_eq (a : (⟨S3x64, .f32⟩ : BufTy).Contents (Elt F)) : sB2K_2 a = sB2_2 a := rfl
theorem bsGK_2_eq (a : (⟨S3x64, .f32⟩ : BufTy).Contents (Elt F)) : bsGK_2 a = bsG_2 a := rfl
theorem bsBK_2_eq (a : (⟨S3x64, .f32⟩ : BufTy).Contents (Elt F)) : bsBK_2 a = bsB_2 a := rfl

/-! ## One layer -/

/-- The two perceptron outputs of a layer have only real entries. -/
theorem fin_g1 (w1 : (⟨S64x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal)) (gam : (⟨S64, .f32⟩ : BufTy).Contents (Elt Ideal)) (bet : (⟨S64, .f32⟩ : BufTy).Contents (Elt Ideal)) (w1' : (⟨S64x128, .f32⟩ : BufTy).Contents (Elt Ideal)) (b1' : (⟨S128, .f32⟩ : BufTy).Contents (Elt Ideal)) (w2' : (⟨S128x64, .f32⟩ : BufTy).Contents (Elt Ideal)) (b2' : (⟨S64, .f32⟩ : BufTy).Contents (Elt Ideal)) (gam' : (⟨S64, .f32⟩ : BufTy).Contents (Elt Ideal)) (bet' : (⟨S64, .f32⟩ : BufTy).Contents (Elt Ideal))
    (ea : (⟨S884736x64, .f32⟩ : BufTy).Contents (Elt Ideal)) (ei : (⟨S2x884736, .i32⟩ : BufTy).Contents (Elt Ideal)) (x : (⟨S147456x64, .f32⟩ : BufTy).Contents (Elt Ideal))
    (hw1 : Fin' w1) (hb1 : Fin' b1) (hw2 : Fin' w2) (hb2 : Fin' b2) (hgam : Fin' gam) (hbet : Fin' bet) (hw1p : Fin' w1') (hb1p : Fin' b1') (hw2p : Fin' w2') (hb2p : Fin' b2') (hgamp : Fin' gam') (hbetp : Fin' bet') (hea : Fin' ea) (hx : Fin' x) :
    Fin' (mlpN (F := Ideal) (ginSumN x ea ei) w1 (rowB128 b1) w2 (rowB64 b2)) :=
  fin_mlpN _ _ _ _ _ (fin_ginSumN x ea ei hx hea) hw1 (fin_rowB128 b1 hb1) hw2 (fin_rowB64 b2 hb2)

theorem fin_g2 (w1 : (⟨S64x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal)) (gam : (⟨S64, .f32⟩ : BufTy).Contents (Elt Ideal)) (bet : (⟨S64, .f32⟩ : BufTy).Contents (Elt Ideal)) (w1' : (⟨S64x128, .f32⟩ : BufTy).Contents (Elt Ideal)) (b1' : (⟨S128, .f32⟩ : BufTy).Contents (Elt Ideal)) (w2' : (⟨S128x64, .f32⟩ : BufTy).Contents (Elt Ideal)) (b2' : (⟨S64, .f32⟩ : BufTy).Contents (Elt Ideal)) (gam' : (⟨S64, .f32⟩ : BufTy).Contents (Elt Ideal)) (bet' : (⟨S64, .f32⟩ : BufTy).Contents (Elt Ideal))
    (oea : (⟨S18432x64, .f32⟩ : BufTy).Contents (Elt Ideal)) (oei : (⟨S2x18432, .i32⟩ : BufTy).Contents (Elt Ideal)) (idx : (⟨S147456, .i32⟩ : BufTy).Contents (Elt Ideal)) (x : (⟨S147456x64, .f32⟩ : BufTy).Contents (Elt Ideal))
    (hw1 : Fin' w1) (hb1 : Fin' b1) (hw2 : Fin' w2) (hb2 : Fin' b2) (hgam : Fin' gam) (hbet : Fin' bet) (hw1p : Fin' w1') (hb1p : Fin' b1') (hw2p : Fin' w2') (hb2p : Fin' b2') (hgamp : Fin' gam') (hbetp : Fin' bet') (hoea : Fin' oea) (hx : Fin' x) :
    Fin' (mlpM (F := Ideal) (ginSumM (segMeanNM x idx) oea oei) w1' (rowB128 b1') w2' (rowB64 b2')) :=
  fin_mlpM _ _ _ _ _ (fin_ginSumM _ oea oei (fin_segMeanNM x idx hx) hoea) hw1p (fin_rowB128 b1' hb1p) hw2p (fin_rowB64 b2' hb2p)

/-- One layer: the kernel program's arrangement equals the reference's when everything going in is real. -/
theorem layer_eq (w1 : (⟨S64x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal)) (gam : (⟨S64, .f32⟩ : BufTy).Contents (Elt Ideal)) (bet : (⟨S64, .f32⟩ : BufTy).Contents (Elt Ideal)) (w1' : (⟨S64x128, .f32⟩ : BufTy).Contents (Elt Ideal)) (b1' : (⟨S128, .f32⟩ : BufTy).Contents (Elt Ideal)) (w2' : (⟨S128x64, .f32⟩ : BufTy).Contents (Elt Ideal)) (b2' : (⟨S64, .f32⟩ : BufTy).Contents (Elt Ideal)) (gam' : (⟨S64, .f32⟩ : BufTy).Contents (Elt Ideal)) (bet' : (⟨S64, .f32⟩ : BufTy).Contents (Elt Ideal))
    (ea : (⟨S884736x64, .f32⟩ : BufTy).Contents (Elt Ideal)) (oea : (⟨S18432x64, .f32⟩ : BufTy).Contents (Elt Ideal)) (ei : (⟨S2x884736, .i32⟩ : BufTy).Contents (Elt Ideal)) (oei : (⟨S2x18432, .i32⟩ : BufTy).Contents (Elt Ideal)) (idx : (⟨S147456, .i32⟩ : BufTy).Contents (Elt Ideal)) (x : (⟨S147456x64, .f32⟩ : BufTy).Contents (Elt Ideal))
    (hw1 : Fin' w1) (hb1 : Fin' b1) (hw2 : Fin' w2) (hb2 : Fin' b2) (hgam : Fin' gam) (hbet : Fin' bet) (hw1p : Fin' w1') (hb1p : Fin' b1') (hw2p : Fin' w2') (hb2p : Fin' b2') (hgamp : Fin' gam') (hbetp : Fin' bet') (hea : Fin' ea) (hoea : Fin' oea) (hx : Fin' x) :
    layerK (F := Ideal) w1 b1 w2 b2 gam bet w1' b1' w2' b2' gam' bet' ea oea (eSrcK ei) (eDstK ei) (oSrcK oei) (oDstK oei) idx x
      = layerR (F := Ideal) w1 b1 w2 b2 gam bet w1' b1' w2' b2' gam' bet' ea oea ei oei idx x := by
  have hg1 := fin_g1 w1 b1 w2 b2 gam bet w1' b1' w2' b2' gam' bet' ea ei x hw1 hb1 hw2 hb2 hgam hbet hw1p hb1p hw2p hb2p hgamp hbetp hea hx
  have hg2 := fin_g2 w1 b1 w2 b2 gam bet w1' b1' w2' b2' gam' bet' oea oei idx x hw1 hb1 hw2 hb2 hgam hbet hw1p hb1p hw2p hb2p hgamp hbetp hoea hx
  dsimp only [layerK, layerR]
  rw [ginSumNK_eq, ginSumMK_eq, segMeanNMK_eq, gatherBackK_eq, row128_eq b1, row64_eq b2, row128_eq b1', row64_eq b2']
  rw [affineM_eq _ gam' bet' hg2 hgamp hbetp, combine_eq _ gam bet _ hg1 hgam hbet]

/-- A layer's output has only real entries. -/
theorem fin_layerR (w1 : (⟨S64x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal)) (gam : (⟨S64, .f32⟩ : BufTy).Contents (Elt Ideal)) (bet : (⟨S64, .f32⟩ : BufTy).Contents (Elt Ideal)) (w1' : (⟨S64x128, .f32⟩ : BufTy).Contents (Elt Ideal)) (b1' : (⟨S128, .f32⟩ : BufTy).Contents (Elt Ideal)) (w2' : (⟨S128x64, .f32⟩ : BufTy).Contents (Elt Ideal)) (b2' : (⟨S64, .f32⟩ : BufTy).Contents (Elt Ideal)) (gam' : (⟨S64, .f32⟩ : BufTy).Contents (Elt Ideal)) (bet' : (⟨S64, .f32⟩ : BufTy).Contents (Elt Ideal))
    (ea : (⟨S884736x64, .f32⟩ : BufTy).Contents (Elt Ideal)) (oea : (⟨S18432x64, .f32⟩ : BufTy).Contents (Elt Ideal)) (ei : (⟨S2x884736, .i32⟩ : BufTy).Contents (Elt Ideal)) (oei : (⟨S2x18432, .i32⟩ : BufTy).Contents (Elt Ideal)) (idx : (⟨S147456, .i32⟩ : BufTy).Contents (Elt Ideal)) (x : (⟨S147456x64, .f32⟩ : BufTy).Contents (Elt Ideal))
    (hw1 : Fin' w1) (hb1 : Fin' b1) (hw2 : Fin' w2) (hb2 : Fin' b2) (hgam : Fin' gam) (hbet : Fin' bet) (hw1p : Fin' w1') (hb1p : Fin' b1') (hw2p : Fin' w2') (hb2p : Fin' b2') (hgamp : Fin' gam') (hbetp : Fin' bet') (hea : Fin' ea) (hoea : Fin' oea) (hx : Fin' x) :
    Fin' (layerR (F := Ideal) w1 b1 w2 b2 gam bet w1' b1' w2' b2' gam' bet' ea oea ei oei idx x) := by
  have hg1 := fin_g1 w1 b1 w2 b2 gam bet w1' b1' w2' b2' gam' bet' ea ei x hw1 hb1 hw2 hb2 hgam hbet hw1p hb1p hw2p hb2p hgamp hbetp hea hx
  have hg2 := fin_g2 w1 b1 w2 b2 gam bet w1' b1' w2' b2' gam' bet' oea oei idx x hw1 hb1 hw2 hb2 hgam hbet hw1p hb1p hw2p hb2p hgamp hbetp hoea hx
  exact fin_reluN _ (fin_addf _ _ (fin_bnRefN _ gam bet hg1 hgam hbet) (fin_gatherBack _ idx (fin_bnRefM _ gam' bet' hg2 hgamp hbetp)))

/-! ## The network -/

/-- On arguments with only real entries the kernel program's network is the reference's. -/
theorem network_eq (a0 : (⟨S147456x16, .f32⟩ : BufTy).Contents (Elt Ideal)) (a1 : (⟨S884736x8, .f32⟩ : BufTy).Contents (Elt Ideal)) (a2 : (⟨S18432x8, .f32⟩ : BufTy).Contents (Elt Ideal)) (a3 : (⟨S16x64, .f32⟩ : BufTy).Contents (Elt Ideal)) (a4 : (⟨S64, .f32⟩ : BufTy).Contents (Elt Ideal)) (a5 : (⟨S8x64, .f32⟩ : BufTy).Contents (Elt Ideal)) (a6 : (⟨S64, .f32⟩ : BufTy).Contents (Elt Ideal)) (a7 : (⟨S3x64x128, .f32⟩ : BufTy).Contents (Elt Ideal)) (a8 : (⟨S3x128, .f32⟩ : BufTy).Contents (Elt Ideal)) (a9 : (⟨S3x128x64, .f32⟩ : BufTy).Contents (Elt Ideal)) (a10 : (⟨S3x64, .f32⟩ : BufTy).Contents (Elt Ideal)) (a11 : (⟨S3x64, .f32⟩ : BufTy).Contents (Elt Ideal)) (a12 : (⟨S3x64, .f32⟩ : BufTy).Contents (Elt Ideal)) (a13 : (⟨S3x64x128, .f32⟩ : BufTy).Contents (Elt Ideal)) (a14 : (⟨S3x128, .f32⟩ : BufTy).Contents (Elt Ideal)) (a15 : (⟨S3x128x64, .f32⟩ : BufTy).Contents (Elt Ideal)) (a16 : (⟨S3x64, .f32⟩ : BufTy).Contents (Elt Ideal)) (a17 : (⟨S3x64, .f32⟩ : BufTy).Contents (Elt Ideal)) (a18 : (⟨S3x64, .f32⟩ : BufTy).Contents (Elt Ideal)) (a19 : (⟨S64x128, .f32⟩ : BufTy).Contents (Elt Ideal)) (a20 : (⟨S128, .f32⟩ : BufTy).Contents (Elt Ideal)) (a21 : (⟨S128x10, .f32⟩ : BufTy).Contents (Elt Ideal)) (a22 : (⟨S10, .f32⟩ : BufTy).Contents (Elt Ideal)) (a23 : (⟨S2x884736, .i32⟩ : BufTy).Contents (Elt Ideal)) (a24 : (⟨S2x18432, .i32⟩ : BufTy).Contents (Elt Ideal)) (a25 : (⟨S147456, .i32⟩ : BufTy).Contents (Elt Ideal)) (a26 : (⟨S147456, .i32⟩ : BufTy).Contents (Elt Ideal)) (a27 : (⟨S64, .i32⟩ : BufTy).Contents (Elt Ideal)) (a28 : (⟨S147456, .i32⟩ : BufTy).Contents (Elt Ideal)) (a29 : (⟨S3072, .i32⟩ : BufTy).Contents (Elt Ideal))
    (h0 : Fin' a0) (h1 : Fin' a1) (h2 : Fin' a2) (h3 : Fin' a3) (h4 : Fin' a4) (h5 : Fin' a5) (h6 : Fin' a6) (h7 : Fin' a7) (h8 : Fin' a8) (h9 : Fin' a9) (h10 : Fin' a10) (h11 : Fin' a11) (h12 : Fin' a12) (h13 : Fin' a13) (h14 : Fin' a14) (h15 : Fin' a15) (h16 : Fin' a16) (h17 : Fin' a17) (h18 : Fin' a18) (h19 : Fin' a19) (h20 : Fin' a20) (h21 : Fin' a21) (h22 : Fin' a22) :
    networkK (F := Ideal) a0 a1 a2 a3 a4 a5 a6 a7 a8 a9 a10 a11 a12 a13 a14 a15 a16 a17 a18 a19 a20 a21 a22 a23 a24 a25 a26 a27 a28 a29 = network (F := Ideal) a0 a1 a2 a3 a4 a5 a6 a7 a8 a9 a10 a11 a12 a13 a14 a15 a16 a17 a18 a19 a20 a21 a22 a23 a24 a25 a26 a27 a28 a29 := by
  have hea := fin_encE a1 a5 (rowB64 a6) h1 h5 (fin_rowB64 a6 h6)
  have hoea := fin_encO a2 a5 (rowB64 a6) h2 h5 (fin_rowB64 a6 h6)
  have hx0 := fin_encX a0 a3 (rowB64 a4) h0 h3 (fin_rowB64 a4 h4)
  have hx1 := fin_layerR (gW1_0 a7) (gB1_0 a8) (gW2_0 a9) (gB2_0 a10) (bnG_0 a11) (bnB_0 a12) (sW1_0 a13) (sB1_0 a14) (sW2_0 a15) (sB2_0 a16) (bsG_0 a17) (bsB_0 a18) _ _ a23 a24 (nodeIdx a27 a25 a26) _ (fin_gW1_0 a7 h7) (fin_gB1_0 a8 h8) (fin_gW2_0 a9 h9) (fin_gB2_0 a10 h10) (fin_bnG_0 a11 h11) (fin_bnB_0 a12 h12) (fin_sW1_0 a13 h13) (fin_sB1_0 a14 h14) (fin_sW2_0 a15 h15) (fin_sB2_0 a16 h16) (fin_bsG_0 a17 h17) (fin_bsB_0 a18 h18) hea hoea hx0
  have hx2 := fin_layerR (gW1_1 a7) (gB1_1 a8) (gW2_1 a9) (gB2_1 a10) (bnG_1 a11) (bnB_1 a12) (sW1_1 a13) (sB1_1 a14) (sW2_1 a15) (sB2_1 a16) (bsG_1 a17) (bsB_1 a18) _ _ a23 a24 (nodeIdx a27 a25 a26) _ (fin_gW1_1 a7 h7) (fin_gB1_1 a8 h8) (fin_gW2_1 a9 h9) (fin_gB2_1 a10 h10) (fin_bnG_1 a11 h11) (fin_bnB_1 a12 h12) (fin_sW1_1 a13 h13) (fin_sB1_1 a14 h14) (fin_sW2_1 a15 h15) (fin_sB2_1 a16 h16) (fin_bsG_1 a17 h17) (fin_bsB_1 a18 h18) hea hoea hx1
  unfold networkK network
  rw [nodeIdxK_eq, row64_eq a4, row64_eq a6, row128_eq a20, row10_eq a22, segMeanSGK_eq, segMeanNSK_eq]
  rw [gW1K_0_eq, gB1K_0_eq, gW2K_0_eq, gB2K_0_eq, bnGK_0_eq, bnBK_0_eq, sW1K_0_eq, sB1K_0_eq, sW2K_0_eq, sB2K_0_eq, bsGK_0_eq, bsBK_0_eq, gW1K_1_eq, gB1K_1_eq, gW2K_1_eq, gB2K_1_eq, bnGK_1_eq, bnBK_1_eq, sW1K_1_eq, sB1K_1_eq, sW2K_1_eq, sB2K_1_eq, bsGK_1_eq, bsBK_1_eq, gW1K_2_eq, gB1K_2_eq, gW2K_2_eq, gB2K_2_eq, bnGK_2_eq, bnBK_2_eq, sW1K_2_eq, sB1K_2_eq, sW2K_2_eq, sB2K_2_eq, bsGK_2_eq, bsBK_2_eq]
  rw [layer_eq (gW1_0 a7) (gB1_0 a8) (gW2_0 a9) (gB2_0 a10) (bnG_0 a11) (bnB_0 a12) (sW1_0 a13) (sB1_0 a14) (sW2_0 a15) (sB2_0 a16) (bsG_0 a17) (bsB_0 a18) _ _ a23 a24 (nodeIdx a27 a25 a26) _ (fin_gW1_0 a7 h7) (fin_gB1_0 a8 h8) (fin_gW2_0 a9 h9) (fin_gB2_0 a10 h10) (fin_bnG_0 a11 h11) (fin_bnB_0 a12 h12) (fin_sW1_0 a13 h13) (fin_sB1_0 a14 h14) (fin_sW2_0 a15 h15) (fin_sB2_0 a16 h16) (fin_bsG_0 a17 h17) (fin_bsB_0 a18 h18) hea hoea hx0]
  rw [layer_eq (gW1_1 a7) (gB1_1 a8) (gW2_1 a9) (gB2_1 a10) (bnG_1 a11) (bnB_1 a12) (sW1_1 a13) (sB1_1 a14) (sW2_1 a15) (sB2_1 a16) (bsG_1 a17) (bsB_1 a18) _ _ a23 a24 (nodeIdx a27 a25 a26) _ (fin_gW1_1 a7 h7) (fin_gB1_1 a8 h8) (fin_gW2_1 a9 h9) (fin_gB2_1 a10 h10) (fin_bnG_1 a11 h11) (fin_bnB_1 a12 h12) (fin_sW1_1 a13 h13) (fin_sB1_1 a14 h14) (fin_sW2_1 a15 h15) (fin_sB2_1 a16 h16) (fin_bsG_1 a17 h17) (fin_bsB_1 a18 h18) hea hoea hx1]
  rw [layer_eq (gW1_2 a7) (gB1_2 a8) (gW2_2 a9) (gB2_2 a10) (bnG_2 a11) (bnB_2 a12) (sW1_2 a13) (sB1_2 a14) (sW2_2 a15) (sB2_2 a16) (bsG_2 a17) (bsB_2 a18) _ _ a23 a24 (nodeIdx a27 a25 a26) _ (fin_gW1_2 a7 h7) (fin_gB1_2 a8 h8) (fin_gW2_2 a9 h9) (fin_gB2_2 a10 h10) (fin_bnG_2 a11 h11) (fin_bnB_2 a12 h12) (fin_sW1_2 a13 h13) (fin_sB1_2 a14 h14) (fin_sW2_2 a15 h15) (fin_sB2_2 a16 h16) (fin_bsG_2 a17 h17) (fin_bsB_2 a18 h18) hea hoea hx2]

end Cert.Stage

end
-- ==== Proof.PreFinite.lean ====
/-
  The precondition read as a fact about the arrays: it is the conjunction, over the twenty-three float arguments, of
  "every entry has absolute value below +∞", each stated as an and-reduction to one bit. An and-reduction that is 1
  was 1 at every index, and an extended real of absolute value below +∞ is a real number.
-/
import proofs.«177129_j59004260712467_1_alg».proof.Pre_finite_inputs
import proofs.«177129_j59004260712467_1_alg».proof.Proof.FinDef
import Idealize.ShloMosaic.Lib.ValueIdx

noncomputable section

namespace Cert.Math

open Idealize.ShloMosaic

instance subsingleton_scalar : Subsingleton (⟨0, ![]⟩ : Shape).Idx := ⟨fun a b => funext fun d => d.elim0⟩

/-- A float array that passes the test |x| < +∞ at every index (an and-reduction equal to 1) has only real entries. -/
theorem fin_of_all {S : Shape} {axes} (x : FVec Ideal S .f32) (bc : (⟨0, ![]⟩ : Shape).BroadcastsInDim S (![] : Fin 0 → Fin S.rank))
    (h : S.ReducesTo axes (⟨0, ![]⟩ : Shape)) (hu : 0 < (⟨0, ![]⟩ : Shape).numel)
    (e : Host.reduce IntOp.andi (cmpf .olt (Host.absf x) (broadcastInDim S ![] bc (constant (F := Ideal) (⟨0, ![]⟩ : Shape) .f32 0x7F800000#32))) (constantI (⟨0, ![]⟩ : Shape) 1 1#1) h hu ValueIdx.ix0 = 1#1) :
    Fin' x := by
  intro i
  have hi := Host.reduce_andi_all _ _ h hu ValueIdx.ix0 e i
  simp only [cmpf, Host.absf, broadcastInDim, broadcast, constant, Ideal.ofBits_def, Ideal.hostAbsf_def, Ideal.cmpf_def, ofBits_inf_f32] at hi
  exact real_of_abs_lt_top (x i) hi

open Cert.Pre_finite_inputs in
/-- The precondition: each of the twenty-three float arguments has only real entries. -/
theorem fin_of_pre [Cert.Pre_finite_inputs.Facts] (a0 : FVec Ideal S147456x16 .f32) (a1 : FVec Ideal S884736x8 .f32) (a2 : FVec Ideal S18432x8 .f32) (a3 : FVec Ideal S16x64 .f32) (a4 : FVec Ideal S64 .f32) (a5 : FVec Ideal S8x64 .f32) (a6 : FVec Ideal S64 .f32) (a7 : FVec Ideal S3x64x128 .f32) (a8 : FVec Ideal S3x128 .f32) (a9 : FVec Ideal S3x128x64 .f32) (a10 : FVec Ideal S3x64 .f32) (a11 : FVec Ideal S3x64 .f32) (a12 : FVec Ideal S3x64 .f32) (a13 : FVec Ideal S3x64x128 .f32) (a14 : FVec Ideal S3x128 .f32) (a15 : FVec Ideal S3x128x64 .f32) (a16 : FVec Ideal S3x64 .f32) (a17 : FVec Ideal S3x64 .f32) (a18 : FVec Ideal S3x64 .f32) (a19 : FVec Ideal S64x128 .f32) (a20 : FVec Ideal S128 .f32) (a21 : FVec Ideal S128x10 .f32) (a22 : FVec Ideal S10 .f32) (a23 : IVec S2x884736 32) (a24 : IVec S2x18432 32) (a25 : IVec S147456 32) (a26 : IVec S147456 32) (a27 : IVec S64 32) (a28 : IVec S147456 32) (a29 : IVec S3072 32)
    (h : Cert.Pre_finite_inputs.fn (F := Ideal) a0 a1 a2 a3 a4 a5 a6 a7 a8 a9 a10 a11 a12 a13 a14 a15 a16 a17 a18 a19 a20 a21 a22 a23 a24 a25 a26 a27 a28 a29 = fun _ => 1#1) :
    Fin' a0 ∧ Fin' a1 ∧ Fin' a2 ∧ Fin' a3 ∧ Fin' a4 ∧ Fin' a5 ∧ Fin' a6 ∧ Fin' a7 ∧ Fin' a8 ∧ Fin' a9 ∧ Fin' a10 ∧ Fin' a11 ∧ Fin' a12 ∧ Fin' a13 ∧ Fin' a14 ∧ Fin' a15 ∧ Fin' a16 ∧ Fin' a17 ∧ Fin' a18 ∧ Fin' a19 ∧ Fin' a20 ∧ Fin' a21 ∧ Fin' a22 := by
  have e := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, andi] at e
  simp only [IntOp.andi_eq_one] at e
  obtain ⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩ := e
  exact ⟨fin_of_all _ _ _ _ h0, fin_of_all _ _ _ _ h1, fin_of_all _ _ _ _ h2, fin_of_all _ _ _ _ h3, fin_of_all _ _ _ _ h4, fin_of_all _ _ _ _ h5, fin_of_all _ _ _ _ h6, fin_of_all _ _ _ _ h7, fin_of_all _ _ _ _ h8, fin_of_all _ _ _ _ h9, fin_of_all _ _ _ _ h10, fin_of_all _ _ _ _ h11, fin_of_all _ _ _ _ h12, fin_of_all _ _ _ _ h13, fin_of_all _ _ _ _ h14, fin_of_all _ _ _ _ h15, fin_of_all _ _ _ _ h16, fin_of_all _ _ _ _ h17, fin_of_all _ _ _ _ h18, fin_of_all _ _ _ _ h19, fin_of_all _ _ _ _ h20, fin_of_all _ _ _ _ h21, fin_of_all _ _ _ _ h22⟩

end Cert.Math

end
-- ==== Proof.lean ====
/-
  Both programs compute the same network: two linear encoders, three rounds of message passing on the subgraph copies
  and on the original graphs (gather, relu, scatter-add, a two-layer perceptron, batch normalisation, a segment mean and a
  gather back), two segment means and a last perceptron. The kernel's program runs the encoders, the perceptrons and the
  fused normalise-add-relu step as thirteen row-tiled kernels and arranges batch normalisation as a scale and a shift;
  read at the exact instance each kernel's output array is the host's formula on whole arrays, and the two arrangements
  of batch normalisation agree because every array involved has only real entries (the precondition, carried through
  the layers). The frames of the two kernel programs are the generated ones; the reference's frame and value come from
  reading its operations one after the other.
-/
import proofs.«177129_j59004260712467_1_alg».proof.Defs
import proofs.«177129_j59004260712467_1_alg».proof.Proof.Gen.Kernel
import proofs.«177129_j59004260712467_1_alg».proof.Proof.Gen.KernelIdeal
import proofs.«177129_j59004260712467_1_alg».proof.Proof.Gen.ReferenceIdeal
import proofs.«177129_j59004260712467_1_alg».proof.Proof.Gen.Pre_finite_inputs
import proofs.«177129_j59004260712467_1_alg».proof.Proof.FrameKernel
import proofs.«177129_j59004260712467_1_alg».proof.Proof.FrameKernelIdeal
import proofs.«177129_j59004260712467_1_alg».proof.Proof.KRun
import proofs.«177129_j59004260712467_1_alg».proof.Proof.KWalk
import proofs.«177129_j59004260712467_1_alg».proof.Proof.Reg0
import proofs.«177129_j59004260712467_1_alg».proof.Proof.Reg1
import proofs.«177129_j59004260712467_1_alg».proof.Proof.Reg2
import proofs.«177129_j59004260712467_1_alg».proof.Proof.Reg3
import proofs.«177129_j59004260712467_1_alg».proof.Proof.Reg4
import proofs.«177129_j59004260712467_1_alg».proof.Proof.Reg5
import proofs.«177129_j59004260712467_1_alg».proof.Proof.Reg6
import proofs.«177129_j59004260712467_1_alg».proof.Proof.Reg7
import proofs.«177129_j59004260712467_1_alg».proof.Proof.Reg8
import proofs.«177129_j59004260712467_1_alg».proof.Proof.Reg9
import proofs.«177129_j59004260712467_1_alg».proof.Proof.Reg10
import proofs.«177129_j59004260712467_1_alg».proof.Proof.Reg11
import proofs.«177129_j59004260712467_1_alg».proof.Proof.Reg12
import proofs.«177129_j59004260712467_1_alg».proof.Proof.RefRun
import proofs.«177129_j59004260712467_1_alg».proof.Proof.RefRead
import proofs.«177129_j59004260712467_1_alg».proof.Proof.Bridge
import proofs.«177129_j59004260712467_1_alg».proof.Proof.PreFinite
import Idealize.ShloMosaic.Adequacy
import Idealize.ShloMosaic.Init

noncomputable section

namespace Cert.Proof

open Idealize.ShloMosaic Idealize.SL.Sem

/-- The word-level kernel program terminates without a fault and leaves its arguments as launched. -/
theorem frame_k : Cert.frame_Kernel := fun m ρ _ => Cert.Kernel.GenP.frame m ρ

/-- So does its exact reading. -/
theorem frame_ki : Cert.frame_KernelIdeal := fun m ρ _ => Cert.KernelIdeal.GenP.frame m ρ

/-- The reference is a straight line of host operations, none of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _),
      (h c Cert.ReferenceIdeal.main_arg5).trans (Cert.ReferenceIdeal.RefRun.kept_arg5 _),
      (h c Cert.ReferenceIdeal.main_arg6).trans (Cert.ReferenceIdeal.RefRun.kept_arg6 _),
      (h c Cert.ReferenceIdeal.main_arg7).trans (Cert.ReferenceIdeal.RefRun.kept_arg7 _),
      (h c Cert.ReferenceIdeal.main_arg8).trans (Cert.ReferenceIdeal.RefRun.kept_arg8 _),
      (h c Cert.ReferenceIdeal.main_arg9).trans (Cert.ReferenceIdeal.RefRun.kept_arg9 _),
      (h c Cert.ReferenceIdeal.main_arg10).trans (Cert.ReferenceIdeal.RefRun.kept_arg10 _),
      (h c Cert.ReferenceIdeal.main_arg11).trans (Cert.ReferenceIdeal.RefRun.kept_arg11 _),
      (h c Cert.ReferenceIdeal.main_arg12).trans (Cert.ReferenceIdeal.RefRun.kept_arg12 _),
      (h c Cert.ReferenceIdeal.main_arg13).trans (Cert.ReferenceIdeal.RefRun.kept_arg13 _),
      (h c Cert.ReferenceIdeal.main_arg14).trans (Cert.ReferenceIdeal.RefRun.kept_arg14 _),
      (h c Cert.ReferenceIdeal.main_arg15).trans (Cert.ReferenceIdeal.RefRun.kept_arg15 _),
      (h c Cert.ReferenceIdeal.main_arg16).trans (Cert.ReferenceIdeal.RefRun.kept_arg16 _),
      (h c Cert.ReferenceIdeal.main_arg17).trans (Cert.ReferenceIdeal.RefRun.kept_arg17 _),
      (h c Cert.ReferenceIdeal.main_arg18).trans (Cert.ReferenceIdeal.RefRun.kept_arg18 _),
      (h c Cert.ReferenceIdeal.main_arg19).trans (Cert.ReferenceIdeal.RefRun.kept_arg19 _),
      (h c Cert.ReferenceIdeal.main_arg20).trans (Cert.ReferenceIdeal.RefRun.kept_arg20 _),
      (h c Cert.ReferenceIdeal.main_arg21).trans (Cert.ReferenceIdeal.RefRun.kept_arg21 _),
      (h c Cert.ReferenceIdeal.main_arg22).trans (Cert.ReferenceIdeal.RefRun.kept_arg22 _),
      (h c Cert.ReferenceIdeal.main_arg23).trans (Cert.ReferenceIdeal.RefRun.kept_arg23 _),
      (h c Cert.ReferenceIdeal.main_arg24).trans (Cert.ReferenceIdeal.RefRun.kept_arg24 _),
      (h c Cert.ReferenceIdeal.main_arg25).trans (Cert.ReferenceIdeal.RefRun.kept_arg25 _),
      (h c Cert.ReferenceIdeal.main_arg26).trans (Cert.ReferenceIdeal.RefRun.kept_arg26 _),
      (h c Cert.ReferenceIdeal.main_arg27).trans (Cert.ReferenceIdeal.RefRun.kept_arg27 _),
      (h c Cert.ReferenceIdeal.main_arg28).trans (Cert.ReferenceIdeal.RefRun.kept_arg28 _),
      (h c Cert.ReferenceIdeal.main_arg29).trans (Cert.ReferenceIdeal.RefRun.kept_arg29 _)⟩)
    (Cert.ReferenceIdeal.RefRun.run_all (F := Ideal) m ρ)

/-- The exact reading rewrote no operation. -/
theorem preserves : Cert.preserves_Kernel_KernelIdeal := trivial

set_option maxHeartbeats 4000000 in
/-- From memories that agree on the arguments both programs end with the network's value of those arguments. -/
theorem algebraic : Cert.algebraic_KernelIdeal_ReferenceIdeal := by
  intro m ρ m' ρ' hpre hagree
  refine ⟨fun c => Cert.Stage.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)), ?_, ?_⟩
  · refine (θ_run Cert.KernelIdeal.defs _ _).mono (fun r h c => ⟨?_, (h c).2⟩) (Cert.KernelIdeal.KRun.run_val (F := Ideal) m ρ)
    obtain ⟨f0, f1, f2, f3, f4, f5, f6, f7, f8, f9, f10, f11, f12, f13, f14, f15, f16, f17, f18, f19, f20, f21, f22⟩ := Cert.Math.fin_of_pre _ _ _ _ _ _ _ _ _ _ _ _ _ _ _ _ _ _ _ _ _ _ _ _ _ _ _ _ _ _ (hpre c)
    rw [(h c).1, Cert.KernelIdeal.KRun.kernel_value (F := Ideal) m ρ c Cert.KernelIdeal.Reg.value0 Cert.KernelIdeal.Reg.value1 Cert.KernelIdeal.Reg.value2 Cert.KernelIdeal.Reg.value3 Cert.KernelIdeal.Reg.value4 Cert.KernelIdeal.Reg.value5 Cert.KernelIdeal.Reg.value6 Cert.KernelIdeal.Reg.value7 Cert.KernelIdeal.Reg.value8 Cert.KernelIdeal.Reg.value9 Cert.KernelIdeal.Reg.value10 Cert.KernelIdeal.Reg.value11 Cert.KernelIdeal.Reg.value12]
    exact Cert.Stage.network_eq _ _ _ _ _ _ _ _ _ _ _ _ _ _ _ _ _ _ _ _ _ _ _ _ _ _ _ _ _ _ f0 f1 f2 f3 f4 f5 f6 f7 f8 f9 f10 f11 f12 f13 f14 f15 f16 f17 f18 f19 f20 f21 f22
  · refine (θ_run Cert.ReferenceIdeal.defs _ _).mono (fun r h c => ⟨?_,
      (h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _),
      (h c Cert.ReferenceIdeal.main_arg5).trans (Cert.ReferenceIdeal.RefRun.kept_arg5 _),
      (h c Cert.ReferenceIdeal.main_arg6).trans (Cert.ReferenceIdeal.RefRun.kept_arg6 _),
      (h c Cert.ReferenceIdeal.main_arg7).trans (Cert.ReferenceIdeal.RefRun.kept_arg7 _),
      (h c Cert.ReferenceIdeal.main_arg8).trans (Cert.ReferenceIdeal.RefRun.kept_arg8 _),
      (h c Cert.ReferenceIdeal.main_arg9).trans (Cert.ReferenceIdeal.RefRun.kept_arg9 _),
      (h c Cert.ReferenceIdeal.main_arg10).trans (Cert.ReferenceIdeal.RefRun.kept_arg10 _),
      (h c Cert.ReferenceIdeal.main_arg11).trans (Cert.ReferenceIdeal.RefRun.kept_arg11 _),
      (h c Cert.ReferenceIdeal.main_arg12).trans (Cert.ReferenceIdeal.RefRun.kept_arg12 _),
      (h c Cert.ReferenceIdeal.main_arg13).trans (Cert.ReferenceIdeal.RefRun.kept_arg13 _),
      (h c Cert.ReferenceIdeal.main_arg14).trans (Cert.ReferenceIdeal.RefRun.kept_arg14 _),
      (h c Cert.ReferenceIdeal.main_arg15).trans (Cert.ReferenceIdeal.RefRun.kept_arg15 _),
      (h c Cert.ReferenceIdeal.main_arg16).trans (Cert.ReferenceIdeal.RefRun.kept_arg16 _),
      (h c Cert.ReferenceIdeal.main_arg17).trans (Cert.ReferenceIdeal.RefRun.kept_arg17 _),
      (h c Cert.ReferenceIdeal.main_arg18).trans (Cert.ReferenceIdeal.RefRun.kept_arg18 _),
      (h c Cert.ReferenceIdeal.main_arg19).trans (Cert.ReferenceIdeal.RefRun.kept_arg19 _),
      (h c Cert.ReferenceIdeal.main_arg20).trans (Cert.ReferenceIdeal.RefRun.kept_arg20 _),
      (h c Cert.ReferenceIdeal.main_arg21).trans (Cert.ReferenceIdeal.RefRun.kept_arg21 _),
      (h c Cert.ReferenceIdeal.main_arg22).trans (Cert.ReferenceIdeal.RefRun.kept_arg22 _),
      (h c Cert.ReferenceIdeal.main_arg23).trans (Cert.ReferenceIdeal.RefRun.kept_arg23 _),
      (h c Cert.ReferenceIdeal.main_arg24).trans (Cert.ReferenceIdeal.RefRun.kept_arg24 _),
      (h c Cert.ReferenceIdeal.main_arg25).trans (Cert.ReferenceIdeal.RefRun.kept_arg25 _),
      (h c Cert.ReferenceIdeal.main_arg26).trans (Cert.ReferenceIdeal.RefRun.kept_arg26 _),
      (h c Cert.ReferenceIdeal.main_arg27).trans (Cert.ReferenceIdeal.RefRun.kept_arg27 _),
      (h c Cert.ReferenceIdeal.main_arg28).trans (Cert.ReferenceIdeal.RefRun.kept_arg28 _),
      (h c Cert.ReferenceIdeal.main_arg29).trans (Cert.ReferenceIdeal.RefRun.kept_arg29 _)⟩)
      (Cert.ReferenceIdeal.RefRun.run_all (F := Ideal) m' ρ')
    rw [h c Cert.ReferenceIdeal.main_v460, Cert.ReferenceIdeal.RefRun.result_eq]
    show Cert.Stage.network (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2]

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
